-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_arg1 : IVec S2x320000 32) (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S2x320000 32 := broadcastInDim S2x320000 ![] bcast_S_S2x320000 main_c_16
  let main_v45 : IVec S2x320000 1 := cmpi .sge main_arg1 main_v44
  let main_c_17 : IVec S_ 32 := constantI S_ 32 9999#32
  let main_v46 : IVec S2x320000 32 := broadcastInDim S2x320000 ![] bcast_S_S2x320000 main_c_17
  let main_v47 : IVec S2x320000 1 := cmpi .sle main_arg1 main_v46
  let main_v48 : IVec S2x320000 1 := andi main_v45 main_v47
  let main_c_18 : IVec S_ 1 := constantI S_ 1 1#1
  let main_v49 : IVec S_ 1 := (fun x v => Host.reduce IntOp.andi x v reducesTo_S2x320000_S_d0_1 h_S_) main_v48 main_c_18
  let main_v50 : IVec S_ 1 := andi main_v43 main_v49
  main_v50

def fn_part1 {F : FTy → Type} [FloatOps F] (main_arg1 : IVec S2x320000 32) (main_arg5 : FVec F S128 .f32) (main_arg6 : FVec F S128x128 .f32) (main_arg7 : FVec F S128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x1 .f32) (main_arg9 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x320000 : Shape := ⟨2, ![1, 320000]⟩
abbrev S320000 : Shape := ⟨1, ![320000]⟩
abbrev S320000x128 : Shape := ⟨2, ![320000, 128]⟩
abbrev S_ : Shape := ⟨0, ![]⟩
abbrev S2500x1x128 : Shape := ⟨3, ![2500, 1, 128]⟩
abbrev S1250x8x128 : Shape := ⟨3, ![1250, 8, 128]⟩
abbrev S1x1x128 : Shape := ⟨3, ![1, 1, 128]⟩
abbrev S8x128 : Shape := ⟨2, ![8, 128]⟩
abbrev S1x1x1 : Shape := ⟨3, ![1, 1, 1]⟩
abbrev S1x128 : Shape := ⟨2, ![1, 128]⟩
abbrev S1x8x128 : Shape := ⟨3, ![1, 8, 128]⟩
abbrev S1x1 : Shape := ⟨2, ![1, 1]⟩
abbrev S10000x1 : Shape := ⟨2, ![10000, 1]⟩
abbrev S1000x128 : Shape := ⟨2, ![1000, 128]⟩
abbrev S1000x1 : Shape := ⟨2, ![1000, 1]⟩
abbrev S10000 : Shape := ⟨1, ![10000]⟩

abbrev nBuf : Table → Nat
  | .hbm => 29
  | .local .tc .vmem => 20
  | .local .tc .smem => 2
  | .local .scVector .vmem => 2
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x320000, .i32⟩
  | .hbm, ⟨11, _⟩ => ⟨S320000, .i32⟩
  | .hbm, ⟨12, _⟩ => ⟨S320000x128, .f32⟩
  | .hbm, ⟨13, _⟩ => ⟨S1x320000, .i32⟩
  | .hbm, ⟨14, _⟩ => ⟨S320000, .i32⟩
  | .hbm, ⟨15, _⟩ => ⟨S2500x1x128, .i32⟩
  | .hbm, ⟨16, _⟩ => ⟨S1250x8x128, .f32⟩
  | .hbm, ⟨17, _⟩ => ⟨S1250x8x128, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x1, .f32⟩
  | .hbm, ⟨24, _⟩ => ⟨S10000x1, .f32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .local .tc .vmem, ⟨0, _⟩ => ⟨S128x128, .f32⟩
  | .local .tc .vmem, ⟨1, _⟩ => ⟨S128x128, .f32⟩
  | .local .tc .vmem, ⟨2, _⟩ => ⟨S1250x8x128, .f32⟩
  | .local .tc .vmem, ⟨3, _⟩ => ⟨S1250x8x128, .f32⟩
  | .local .tc .vmem, ⟨4, _⟩ => ⟨S1000x128, .f32⟩
  | .local .tc .vmem, ⟨5, _⟩ => ⟨S1000x128, .f32⟩
  | .local .tc .vmem, ⟨6, _⟩ => ⟨S1000x128, .f32⟩
  | .local .tc .vmem, ⟨7, _⟩ => ⟨S1000x128, .f32⟩
  | .local .tc .vmem, ⟨8, _⟩ => ⟨S1000x128, .f32⟩
  | .local .tc .vmem, ⟨9, _⟩ => ⟨S1000x128, .f32⟩
  | .local .tc .vmem, ⟨10, _⟩ => ⟨S128x128, .f32⟩
  | .local .tc .vmem, ⟨11, _⟩ => ⟨S1x128, .f32⟩
  | .local .tc .vmem, ⟨12, _⟩ => ⟨S128x128, .f32⟩
  | .local .tc .vmem, ⟨13, _⟩ => ⟨S1x128, .f32⟩
  | .local .tc .vmem, ⟨14, _⟩ => ⟨S128x128, .f32⟩
  | .local .tc .vmem, ⟨15, _⟩ => ⟨S1x128, .f32⟩
  | .local .tc .vmem, ⟨16, _⟩ => ⟨S128x1, .f32⟩
  | .local .tc .vmem, ⟨17, _⟩ => ⟨S1x1, .f32⟩
  | .local .tc .vmem, ⟨18, _⟩ => ⟨S1000x1, .f32⟩
  | .local .tc .vmem, ⟨19, _⟩ => ⟨S1000x1, .f32⟩
  | .local .tc .smem, ⟨0, _⟩ => ⟨S1x1x128, .i32⟩
  | .local .tc .smem, ⟨1, _⟩ => ⟨S1x1x128, .i32⟩
  | .local .scVector .vmem, ⟨0, _⟩ => ⟨S128, .i32⟩
  | .local .scVector .vmem, ⟨1, _⟩ => ⟨S128x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_arg0_scv : Ref sig .scVector := ⟨.hbm, 0, rfl⟩
abbrev main_v1_scv : Ref sig .scVector := ⟨.hbm, 11, rfl⟩
abbrev main_v2_scv : Ref sig .scVector := ⟨.hbm, 12, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg3_0 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg5_0 : Ref sig .tc := ⟨.vmem, 12, rfl⟩
abbrev cc2_stg6_0 : Ref sig .tc := ⟨.vmem, 13, rfl⟩
abbrev cc2_stg7_0 : Ref sig .tc := ⟨.vmem, 14, rfl⟩
abbrev cc2_stg8_0 : Ref sig .tc := ⟨.vmem, 15, rfl⟩
abbrev cc2_stg9_0 : Ref sig .tc := ⟨.vmem, 16, rfl⟩
abbrev cc2_stg10_0 : Ref sig .tc := ⟨.vmem, 17, rfl⟩
abbrev cc2_stg11_0 : Ref sig .tc := ⟨.vmem, 18, rfl⟩
abbrev cc2_stg11_1 : Ref sig .tc := ⟨.vmem, 19, rfl⟩
abbrev cc1_stg0_0 : Ref sig .tc := ⟨.smem, 0, rfl⟩
abbrev cc1_stg0_1 : Ref sig .tc := ⟨.smem, 1, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25
abbrev cc2_sem11_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c78_i32 : BitVec 32 := 78#32
  let v2 : BitVec 32 := Scalar.addi c0_i32 c78_i32
  let c1_i32 : BitVec 32 := 1#32
  ⟨c0_i32, v2, c1_i32⟩
def k0_off1 (i : grid0.Coords) (k0_t1 : Fin k0_t1_loop.trips) : Fin 1 → Nat :=
  let c0_i32_3 : BitVec 32 := 0#32
  let c0_i32 : BitVec 32 := 0#32
  let c1_i32 : BitVec 32 := 1#32
  let arg8 : BitVec 32 := Scf.iv c0_i32 c1_i32 k0_t1
  let c1_i32_2 : BitVec 32 := 1#32
  let v6 : BitVec 32 := Scalar.muli arg8 c1_i32_2
  let v7 : BitVec 32 := Scalar.addi c0_i32_3 v6
  let c32_i32 : BitVec 32 := 32#32
  let v8 : BitVec 32 := Scalar.muli v7 c32_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v9 : BitVec 32 := Scalar.addi v8 v1
  let c128_i32 : BitVec 32 := 128#32
  let v10 : BitVec 32 := Scalar.muli v9 c128_i32
  ![v10.toNat]
def k0_off2 (i : grid0.Coords) (k0_t1 : Fin k0_t1_loop.trips) : Fin 2 → Nat :=
  let c0_i32_3 : BitVec 32 := 0#32
  let c0_i32 : BitVec 32 := 0#32
  let c1_i32 : BitVec 32 := 1#32
  let arg8 : BitVec 32 := Scf.iv c0_i32 c1_i32 k0_t1
  let c1_i32_2 : BitVec 32 := 1#32
  let v6 : BitVec 32 := Scalar.muli arg8 c1_i32_2
  let v7 : BitVec 32 := Scalar.addi c0_i32_3 v6
  let c32_i32 : BitVec 32 := 32#32
  let v8 : BitVec 32 := Scalar.muli v7 c32_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v9 : BitVec 32 := Scalar.addi v8 v1
  let c128_i32 : BitVec 32 := 128#32
  let v10 : BitVec 32 := Scalar.muli v9 c128_i32
  let c0_i32_8_r1 : BitVec 32 := 0#32
  ![v10.toNat, 0]
def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v3 : BitVec 1 := Scalar.cmpi .slt v1 c4_i32
  let v4 : BitVec 32 := Scalar.extui v3
  let c0_i32_1 : BitVec 32 := 0#32
  let v5 : BitVec 1 := Scalar.cmpi .ne v4 c0_i32_1
  v5

def k0_off3 (i : grid0.Coords) : Fin 1 → Nat :=
  let c2496_i32 : BitVec 32 := 2496#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v6 : BitVec 32 := Scalar.addi c2496_i32 v1
  let c128_i32 : BitVec 32 := 128#32
  let v7 : BitVec 32 := Scalar.muli v6 c128_i32
  ![v7.toNat]
def k0_off4 (i : grid0.Coords) : Fin 2 → Nat :=
  let c2496_i32 : BitVec 32 := 2496#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v6 : BitVec 32 := Scalar.addi c2496_i32 v1
  let c128_i32 : BitVec 32 := 128#32
  let v7 : BitVec 32 := Scalar.muli v6 c128_i32
  let c0_i32_6_r3 : BitVec 32 := 0#32
  ![v7.toNat, 0]
abbrev grid1 : Pipeline.Grid := ⟨1, ![2500], ![false]⟩

def k1_off1 (v4 : BitVec 32) : Fin 3 → Nat :=
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c8_i32 : BitVec 32 := 8#32
  let c0_i32_5 : BitVec 32 := 0#32
  let v11 : BitVec 1 := Scalar.cmpi .sgt c8_i32 c0_i32_5
  let v12 : BitVec 32 := Scalar.extui v11
  let c0_i32_6 : BitVec 32 := 0#32
  let v13 : BitVec 1 := Scalar.cmpi .slt c8_i32 c0_i32_6
  let v14 : BitVec 32 := Scalar.extui v13
  let v15 : BitVec 32 := Scalar.subi v12 v14
  let v16 : BitVec 1 := Scalar.cmpi .ne v10 v15
  let v17 : BitVec 32 := Scalar.remsi v4 c8_i32
  let c0_i32_7 : BitVec 32 := 0#32
  let v18 : BitVec 1 := Scalar.cmpi .ne v17 c0_i32_7
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let v30 : Index := Scalar.indexCast v21
  let c0_11 : Index := 0#32
  let c0_12 : Index := 0#32
  ![v30.toNat, 0, 0]

def k1_chk1 (v4 : BitVec 32) : Prop :=
  (∀ a, (k1_off1 v4) a + S1x8x128.size a ≤ S1250x8x128.size a)
instance k1_chk1.dec : ∀ (v4 : BitVec 32), Decidable (k1_chk1 v4) := fun v4 => decidable_of_iff' _ (Iff.of_eq (k1_chk1.eq_1 v4))
theorem k1_off1_inb : ∀ (v4 : BitVec 32) (k1_hw1 : k1_chk1 v4), ∀ a, (k1_off1 v4) a + S1x8x128.size a ≤ S1250x8x128.size a := fun v4 k1_hw1 => k1_hw1

def k1_off2 (v46 : BitVec 32) : Fin 3 → Nat :=
  let c0_i32_22 : BitVec 32 := 0#32
  let v48 : BitVec 1 := Scalar.cmpi .sgt v46 c0_i32_22
  let v49 : BitVec 32 := Scalar.extui v48
  let c0_i32_23 : BitVec 32 := 0#32
  let v50 : BitVec 1 := Scalar.cmpi .slt v46 c0_i32_23
  let v51 : BitVec 32 := Scalar.extui v50
  let v52 : BitVec 32 := Scalar.subi v49 v51
  let c8_i32_21 : BitVec 32 := 8#32
  let c0_i32_24 : BitVec 32 := 0#32
  let v53 : BitVec 1 := Scalar.cmpi .sgt c8_i32_21 c0_i32_24
  let v54 : BitVec 32 := Scalar.extui v53
  let c0_i32_25 : BitVec 32 := 0#32
  let v55 : BitVec 1 := Scalar.cmpi .slt c8_i32_21 c0_i32_25
  let v56 : BitVec 32 := Scalar.extui v55
  let v57 : BitVec 32 := Scalar.subi v54 v56
  let v58 : BitVec 1 := Scalar.cmpi .ne v52 v57
  let v59 : BitVec 32 := Scalar.remsi v46 c8_i32_21
  let c0_i32_26 : BitVec 32 := 0#32
  let v60 : BitVec 1 := Scalar.cmpi .ne v59 c0_i32_26
  let v61 : BitVec 1 := Scalar.andi v58 v60
  let v47 : BitVec 32 := Scalar.divsi v46 c8_i32_21
  let c1_i32_27 : BitVec 32 := 1#32
  let v62 : BitVec 32 := Scalar.subi v47 c1_i32_27
  let v63 : BitVec 32 := Scalar.select v61 v62 v47
  let v72 : Index := Scalar.indexCast v63
  let c0_31 : Index := 0#32
  let c0_32 : Index := 0#32
  ![v72.toNat, 0, 0]

def k1_chk2 (v46 : BitVec 32) : Prop :=
  (∀ a, (k1_off2 v46) a + S1x8x128.size a ≤ S1250x8x128.size a)
instance k1_chk2.dec : ∀ (v46 : BitVec 32), Decidable (k1_chk2 v46) := fun v46 => decidable_of_iff' _ (Iff.of_eq (k1_chk2.eq_1 v46))
theorem k1_off2_inb : ∀ (v46 : BitVec 32) (k1_hw2 : k1_chk2 v46), ∀ a, (k1_off2 v46) a + S1x8x128.size a ≤ S1250x8x128.size a := fun v46 k1_hw2 => k1_hw2

def k1_off3 (v88 : BitVec 32) : Fin 3 → Nat :=
  let c0_i32_42 : BitVec 32 := 0#32
  let v90 : BitVec 1 := Scalar.cmpi .sgt v88 c0_i32_42
  let v91 : BitVec 32 := Scalar.extui v90
  let c0_i32_43 : BitVec 32 := 0#32
  let v92 : BitVec 1 := Scalar.cmpi .slt v88 c0_i32_43
  let v93 : BitVec 32 := Scalar.extui v92
  let v94 : BitVec 32 := Scalar.subi v91 v93
  let c8_i32_41 : BitVec 32 := 8#32
  let c0_i32_44 : BitVec 32 := 0#32
  let v95 : BitVec 1 := Scalar.cmpi .sgt c8_i32_41 c0_i32_44
  let v96 : BitVec 32 := Scalar.extui v95
  let c0_i32_45 : BitVec 32 := 0#32
  let v97 : BitVec 1 := Scalar.cmpi .slt c8_i32_41 c0_i32_45
  let v98 : BitVec 32 := Scalar.extui v97
  let v99 : BitVec 32 := Scalar.subi v96 v98
  let v100 : BitVec 1 := Scalar.cmpi .ne v94 v99
  let v101 : BitVec 32 := Scalar.remsi v88 c8_i32_41
  let c0_i32_46 : BitVec 32 := 0#32
  let v102 : BitVec 1 := Scalar.cmpi .ne v101 c0_i32_46
  let v103 : BitVec 1 := Scalar.andi v100 v102
  let v89 : BitVec 32 := Scalar.divsi v88 c8_i32_41
  let c1_i32_47 : BitVec 32 := 1#32
  let v104 : BitVec 32 := Scalar.subi v89 c1_i32_47
  let v105 : BitVec 32 := Scalar.select v103 v104 v89
  let v114 : Index := Scalar.indexCast v105
  let c0_51 : Index := 0#32
  let c0_52 : Index := 0#32
  ![v114.toNat, 0, 0]

def k1_chk3 (v88 : BitVec 32) : Prop :=
  (∀ a, (k1_off3 v88) a + S1x8x128.size a ≤ S1250x8x128.size a)
instance k1_chk3.dec : ∀ (v88 : BitVec 32), Decidable (k1_chk3 v88) := fun v88 => decidable_of_iff' _ (Iff.of_eq (k1_chk3.eq_1 v88))
theorem k1_off3_inb : ∀ (v88 : BitVec 32) (k1_hw3 : k1_chk3 v88), ∀ a, (k1_off3 v88) a + S1x8x128.size a ≤ S1250x8x128.size a := fun v88 k1_hw3 => k1_hw3

def k1_off4 (v130 : BitVec 32) : Fin 3 → Nat :=
  let c0_i32_62 : BitVec 32 := 0#32
  let v132 : BitVec 1 := Scalar.cmpi .sgt v130 c0_i32_62
  let v133 : BitVec 32 := Scalar.extui v132
  let c0_i32_63 : BitVec 32 := 0#32
  let v134 : BitVec 1 := Scalar.cmpi .slt v130 c0_i32_63
  let v135 : BitVec 32 := Scalar.extui v134
  let v136 : BitVec 32 := Scalar.subi v133 v135
  let c8_i32_61 : BitVec 32 := 8#32
  let c0_i32_64 : BitVec 32 := 0#32
  let v137 : BitVec 1 := Scalar.cmpi .sgt c8_i32_61 c0_i32_64
  let v138 : BitVec 32 := Scalar.extui v137
  let c0_i32_65 : BitVec 32 := 0#32
  let v139 : BitVec 1 := Scalar.cmpi .slt c8_i32_61 c0_i32_65
  let v140 : BitVec 32 := Scalar.extui v139
  let v141 : BitVec 32 := Scalar.subi v138 v140
  let v142 : BitVec 1 := Scalar.cmpi .ne v136 v141
  let v143 : BitVec 32 := Scalar.remsi v130 c8_i32_61
  let c0_i32_66 : BitVec 32 := 0#32
  let v144 : BitVec 1 := Scalar.cmpi .ne v143 c0_i32_66
  let v145 : BitVec 1 := Scalar.andi v142 v144
  let v131 : BitVec 32 := Scalar.divsi v130 c8_i32_61
  let c1_i32_67 : BitVec 32 := 1#32
  let v146 : BitVec 32 := Scalar.subi v131 c1_i32_67
  let v147 : BitVec 32 := Scalar.select v145 v146 v131
  let v156 : Index := Scalar.indexCast v147
  let c0_71 : Index := 0#32
  let c0_72 : Index := 0#32
  ![v156.toNat, 0, 0]

def k1_chk4 (v130 : BitVec 32) : Prop :=
  (∀ a, (k1_off4 v130) a + S1x8x128.size a ≤ S1250x8x128.size a)
instance k1_chk4.dec : ∀ (v130 : BitVec 32), Decidable (k1_chk4 v130) := fun v130 => decidable_of_iff' _ (Iff.of_eq (k1_chk4.eq_1 v130))
theorem k1_off4_inb : ∀ (v130 : BitVec 32) (k1_hw4 : k1_chk4 v130), ∀ a, (k1_off4 v130) a + S1x8x128.size a ≤ S1250x8x128.size a := fun v130 k1_hw4 => k1_hw4

def k1_off5 (v172 : BitVec 32) : Fin 3 → Nat :=
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c8_i32_81 : BitVec 32 := 8#32
  let c0_i32_84 : BitVec 32 := 0#32
  let v179 : BitVec 1 := Scalar.cmpi .sgt c8_i32_81 c0_i32_84
  let v180 : BitVec 32 := Scalar.extui v179
  let c0_i32_85 : BitVec 32 := 0#32
  let v181 : BitVec 1 := Scalar.cmpi .slt c8_i32_81 c0_i32_85
  let v182 : BitVec 32 := Scalar.extui v181
  let v183 : BitVec 32 := Scalar.subi v180 v182
  let v184 : BitVec 1 := Scalar.cmpi .ne v178 v183
  let v185 : BitVec 32 := Scalar.remsi v172 c8_i32_81
  let c0_i32_86 : BitVec 32 := 0#32
  let v186 : BitVec 1 := Scalar.cmpi .ne v185 c0_i32_86
  let v187 : BitVec 1 := Scalar.andi v184 v186
  let v173 : BitVec 32 := Scalar.divsi v172 c8_i32_81
  let c1_i32_87 : BitVec 32 := 1#32
  let v188 : BitVec 32 := Scalar.subi v173 c1_i32_87
  let v189 : BitVec 32 := Scalar.select v187 v188 v173
  let v198 : Index := Scalar.indexCast v189
  let c0_91 : Index := 0#32
  let c0_92 : Index := 0#32
  ![v198.toNat, 0, 0]

def k1_chk5 (v172 : BitVec 32) : Prop :=
  (∀ a, (k1_off5 v172) a + S1x8x128.size a ≤ S1250x8x128.size a)
instance k1_chk5.dec : ∀ (v172 : BitVec 32), Decidable (k1_chk5 v172) := fun v172 => decidable_of_iff' _ (Iff.of_eq (k1_chk5.eq_1 v172))
theorem k1_off5_inb : ∀ (v172 : BitVec 32) (k1_hw5 : k1_chk5 v172), ∀ a, (k1_off5 v172) a + S1x8x128.size a ≤ S1250x8x128.size a := fun v172 k1_hw5 => k1_hw5

def k1_off6 (v214 : BitVec 32) : Fin 3 → Nat :=
  let c0_i32_102 : BitVec 32 := 0#32
  let v216 : BitVec 1 := Scalar.cmpi .sgt v214 c0_i32_102
  let v217 : BitVec 32 := Scalar.extui v216
  let c0_i32_103 : BitVec 32 := 0#32
  let v218 : BitVec 1 := Scalar.cmpi .slt v214 c0_i32_103
  let v219 : BitVec 32 := Scalar.extui v218
  let v220 : BitVec 32 := Scalar.subi v217 v219
  let c8_i32_101 : BitVec 32 := 8#32
  let c0_i32_104 : BitVec 32 := 0#32
  let v221 : BitVec 1 := Scalar.cmpi .sgt c8_i32_101 c0_i32_104
  let v222 : BitVec 32 := Scalar.extui v221
  let c0_i32_105 : BitVec 32 := 0#32
  let v223 : BitVec 1 := Scalar.cmpi .slt c8_i32_101 c0_i32_105
  let v224 : BitVec 32 := Scalar.extui v223
  let v225 : BitVec 32 := Scalar.subi v222 v224
  let v226 : BitVec 1 := Scalar.cmpi .ne v220 v225
  let v227 : BitVec 32 := Scalar.remsi v214 c8_i32_101
  let c0_i32_106 : BitVec 32 := 0#32
  let v228 : BitVec 1 := Scalar.cmpi .ne v227 c0_i32_106
  let v229 : BitVec 1 := Scalar.andi v226 v228
  let v215 : BitVec 32 := Scalar.divsi v214 c8_i32_101
  let c1_i32_107 : BitVec 32 := 1#32
  let v230 : BitVec 32 := Scalar.subi v215 c1_i32_107
  let v231 : BitVec 32 := Scalar.select v229 v230 v215
  let v240 : Index := Scalar.indexCast v231
  let c0_111 : Index := 0#32
  let c0_112 : Index := 0#32
  ![v240.toNat, 0, 0]

def k1_chk6 (v214 : BitVec 32) : Prop :=
  (∀ a, (k1_off6 v214) a + S1x8x128.size a ≤ S1250x8x128.size a)
instance k1_chk6.dec : ∀ (v214 : BitVec 32), Decidable (k1_chk6 v214) := fun v214 => decidable_of_iff' _ (Iff.of_eq (k1_chk6.eq_1 v214))
theorem k1_off6_inb : ∀ (v214 : BitVec 32) (k1_hw6 : k1_chk6 v214), ∀ a, (k1_off6 v214) a + S1x8x128.size a ≤ S1250x8x128.size a := fun v214 k1_hw6 => k1_hw6

def k1_off7 (v256 : BitVec 32) : Fin 3 → Nat :=
  let c0_i32_122 : BitVec 32 := 0#32
  let v258 : BitVec 1 := Scalar.cmpi .sgt v256 c0_i32_122
  let v259 : BitVec 32 := Scalar.extui v258
  let c0_i32_123 : BitVec 32 := 0#32
  let v260 : BitVec 1 := Scalar.cmpi .slt v256 c0_i32_123
  let v261 : BitVec 32 := Scalar.extui v260
  let v262 : BitVec 32 := Scalar.subi v259 v261
  let c8_i32_121 : BitVec 32 := 8#32
  let c0_i32_124 : BitVec 32 := 0#32
  let v263 : BitVec 1 := Scalar.cmpi .sgt c8_i32_121 c0_i32_124
  let v264 : BitVec 32 := Scalar.extui v263
  let c0_i32_125 : BitVec 32 := 0#32
  let v265 : BitVec 1 := Scalar.cmpi .slt c8_i32_121 c0_i32_125
  let v266 : BitVec 32 := Scalar.extui v265
  let v267 : BitVec 32 := Scalar.subi v264 v266
  let v268 : BitVec 1 := Scalar.cmpi .ne v262 v267
  let v269 : BitVec 32 := Scalar.remsi v256 c8_i32_121
  let c0_i32_126 : BitVec 32 := 0#32
  let v270 : BitVec 1 := Scalar.cmpi .ne v269 c0_i32_126
  let v271 : BitVec 1 := Scalar.andi v268 v270
  let v257 : BitVec 32 := Scalar.divsi v256 c8_i32_121
  let c1_i32_127 : BitVec 32 := 1#32
  let v272 : BitVec 32 := Scalar.subi v257 c1_i32_127
  let v273 : BitVec 32 := Scalar.select v271 v272 v257
  let v282 : Index := Scalar.indexCast v273
  let c0_131 : Index := 0#32
  let c0_132 : Index := 0#32
  ![v282.toNat, 0, 0]

def k1_chk7 (v256 : BitVec 32) : Prop :=
  (∀ a, (k1_off7 v256) a + S1x8x128.size a ≤ S1250x8x128.size a)
instance k1_chk7.dec : ∀ (v256 : BitVec 32), Decidable (k1_chk7 v256) := fun v256 => decidable_of_iff' _ (Iff.of_eq (k1_chk7.eq_1 v256))
theorem k1_off7_inb : ∀ (v256 : BitVec 32) (k1_hw7 : k1_chk7 v256), ∀ a, (k1_off7 v256) a + S1x8x128.size a ≤ S1250x8x128.size a := fun v256 k1_hw7 => k1_hw7

def k1_off8 (v298 : BitVec 32) : Fin 3 → Nat :=
  let c0_i32_142 : BitVec 32 := 0#32
  let v300 : BitVec 1 := Scalar.cmpi .sgt v298 c0_i32_142
  let v301 : BitVec 32 := Scalar.extui v300
  let c0_i32_143 : BitVec 32 := 0#32
  let v302 : BitVec 1 := Scalar.cmpi .slt v298 c0_i32_143
  let v303 : BitVec 32 := Scalar.extui v302
  let v304 : BitVec 32 := Scalar.subi v301 v303
  let c8_i32_141 : BitVec 32 := 8#32
  let c0_i32_144 : BitVec 32 := 0#32
  let v305 : BitVec 1 := Scalar.cmpi .sgt c8_i32_141 c0_i32_144
  let v306 : BitVec 32 := Scalar.extui v305
  let c0_i32_145 : BitVec 32 := 0#32
  let v307 : BitVec 1 := Scalar.cmpi .slt c8_i32_141 c0_i32_145
  let v308 : BitVec 32 := Scalar.extui v307
  let v309 : BitVec 32 := Scalar.subi v306 v308
  let v310 : BitVec 1 := Scalar.cmpi .ne v304 v309
  let v311 : BitVec 32 := Scalar.remsi v298 c8_i32_141
  let c0_i32_146 : BitVec 32 := 0#32
  let v312 : BitVec 1 := Scalar.cmpi .ne v311 c0_i32_146
  let v313 : BitVec 1 := Scalar.andi v310 v312
  let v299 : BitVec 32 := Scalar.divsi v298 c8_i32_141
  let c1_i32_147 : BitVec 32 := 1#32
  let v314 : BitVec 32 := Scalar.subi v299 c1_i32_147
  let v315 : BitVec 32 := Scalar.select v313 v314 v299
  let v324 : Index := Scalar.indexCast v315
  let c0_151 : Index := 0#32
  let c0_152 : Index := 0#32
  ![v324.toNat, 0, 0]

def k1_chk8 (v298 : BitVec 32) : Prop :=
  (∀ a, (k1_off8 v298) a + S1x8x128.size a ≤ S1250x8x128.size a)
instance k1_chk8.dec : ∀ (v298 : BitVec 32), Decidable (k1_chk8 v298) := fun v298 => decidable_of_iff' _ (Iff.of_eq (k1_chk8.eq_1 v298))
theorem k1_off8_inb : ∀ (v298 : BitVec 32) (k1_hw8 : k1_chk8 v298), ∀ a, (k1_off8 v298) a + S1x8x128.size a ≤ S1250x8x128.size a := fun v298 k1_hw8 => k1_hw8

def k1_off9 (v340 : BitVec 32) : Fin 3 → Nat :=
  let c0_i32_162 : BitVec 32 := 0#32
  let v342 : BitVec 1 := Scalar.cmpi .sgt v340 c0_i32_162
  let v343 : BitVec 32 := Scalar.extui v342
  let c0_i32_163 : BitVec 32 := 0#32
  let v344 : BitVec 1 := Scalar.cmpi .slt v340 c0_i32_163
  let v345 : BitVec 32 := Scalar.extui v344
  let v346 : BitVec 32 := Scalar.subi v343 v345
  let c8_i32_161 : BitVec 32 := 8#32
  let c0_i32_164 : BitVec 32 := 0#32
  let v347 : BitVec 1 := Scalar.cmpi .sgt c8_i32_161 c0_i32_164
  let v348 : BitVec 32 := Scalar.extui v347
  let c0_i32_165 : BitVec 32 := 0#32
  let v349 : BitVec 1 := Scalar.cmpi .slt c8_i32_161 c0_i32_165
  let v350 : BitVec 32 := Scalar.extui v349
  let v351 : BitVec 32 := Scalar.subi v348 v350
  let v352 : BitVec 1 := Scalar.cmpi .ne v346 v351
  let v353 : BitVec 32 := Scalar.remsi v340 c8_i32_161
  let c0_i32_166 : BitVec 32 := 0#32
  let v354 : BitVec 1 := Scalar.cmpi .ne v353 c0_i32_166
  let v355 : BitVec 1 := Scalar.andi v352 v354
  let v341 : BitVec 32 := Scalar.divsi v340 c8_i32_161
  let c1_i32_167 : BitVec 32 := 1#32
  let v356 : BitVec 32 := Scalar.subi v341 c1_i32_167
  let v357 : BitVec 32 := Scalar.select v355 v356 v341
  let v366 : Index := Scalar.indexCast v357
  let c0_171 : Index := 0#32
  let c0_172 : Index := 0#32
  ![v366.toNat, 0, 0]

def k1_chk9 (v340 : BitVec 32) : Prop :=
  (∀ a, (k1_off9 v340) a + S1x8x128.size a ≤ S1250x8x128.size a)
instance k1_chk9.dec : ∀ (v340 : BitVec 32), Decidable (k1_chk9 v340) := fun v340 => decidable_of_iff' _ (Iff.of_eq (k1_chk9.eq_1 v340))
theorem k1_off9_inb : ∀ (v340 : BitVec 32) (k1_hw9 : k1_chk9 v340), ∀ a, (k1_off9 v340) a + S1x8x128.size a ≤ S1250x8x128.size a := fun v340 k1_hw9 => k1_hw9

def k1_off10 (v382 : BitVec 32) : Fin 3 → Nat :=
  let c0_i32_182 : BitVec 32 := 0#32
  let v384 : BitVec 1 := Scalar.cmpi .sgt v382 c0_i32_182
  let v385 : BitVec 32 := Scalar.extui v384
  let c0_i32_183 : BitVec 32 := 0#32
  let v386 : BitVec 1 := Scalar.cmpi .slt v382 c0_i32_183
  let v387 : BitVec 32 := Scalar.extui v386
  let v388 : BitVec 32 := Scalar.subi v385 v387
  let c8_i32_181 : BitVec 32 := 8#32
  let c0_i32_184 : BitVec 32 := 0#32
  let v389 : BitVec 1 := Scalar.cmpi .sgt c8_i32_181 c0_i32_184
  let v390 : BitVec 32 := Scalar.extui v389
  let c0_i32_185 : BitVec 32 := 0#32
  let v391 : BitVec 1 := Scalar.cmpi .slt c8_i32_181 c0_i32_185
  let v392 : BitVec 32 := Scalar.extui v391
  let v393 : BitVec 32 := Scalar.subi v390 v392
  let v394 : BitVec 1 := Scalar.cmpi .ne v388 v393
  let v395 : BitVec 32 := Scalar.remsi v382 c8_i32_181
  let c0_i32_186 : BitVec 32 := 0#32
  let v396 : BitVec 1 := Scalar.cmpi .ne v395 c0_i32_186
  let v397 : BitVec 1 := Scalar.andi v394 v396
  let v383 : BitVec 32 := Scalar.divsi v382 c8_i32_181
  let c1_i32_187 : BitVec 32 := 1#32
  let v398 : BitVec 32 := Scalar.subi v383 c1_i32_187
  let v399 : BitVec 32 := Scalar.select v397 v398 v383
  let v408 : Index := Scalar.indexCast v399
  let c0_191 : Index := 0#32
  let c0_192 : Index := 0#32
  ![v408.toNat, 0, 0]

def k1_chk10 (v382 : BitVec 32) : Prop :=
  (∀ a, (k1_off10 v382) a + S1x8x128.size a ≤ S1250x8x128.size a)
instance k1_chk10.dec : ∀ (v382 : BitVec 32), Decidable (k1_chk10 v382) := fun v382 => decidable_of_iff' _ (Iff.of_eq (k1_chk10.eq_1 v382))
theorem k1_off10_inb : ∀ (v382 : BitVec 32) (k1_hw10 : k1_chk10 v382), ∀ a, (k1_off10 v382) a + S1x8x128.size a ≤ S1250x8x128.size a := fun v382 k1_hw10 => k1_hw10

def k1_off11 (v424 : BitVec 32) : Fin 3 → Nat :=
  let c0_i32_202 : BitVec 32 := 0#32
  let v426 : BitVec 1 := Scalar.cmpi .sgt v424 c0_i32_202
  let v427 : BitVec 32 := Scalar.extui v426
  let c0_i32_203 : BitVec 32 := 0#32
  let v428 : BitVec 1 := Scalar.cmpi .slt v424 c0_i32_203
  let v429 : BitVec 32 := Scalar.extui v428
  let v430 : BitVec 32 := Scalar.subi v427 v429
  let c8_i32_201 : BitVec 32 := 8#32
  let c0_i32_204 : BitVec 32 := 0#32
  let v431 : BitVec 1 := Scalar.cmpi .sgt c8_i32_201 c0_i32_204
  let v432 : BitVec 32 := Scalar.extui v431
  let c0_i32_205 : BitVec 32 := 0#32
  let v433 : BitVec 1 := Scalar.cmpi .slt c8_i32_201 c0_i32_205
  let v434 : BitVec 32 := Scalar.extui v433
  let v435 : BitVec 32 := Scalar.subi v432 v434
  let v436 : BitVec 1 := Scalar.cmpi .ne v430 v435
  let v437 : BitVec 32 := Scalar.remsi v424 c8_i32_201
  let c0_i32_206 : BitVec 32 := 0#32
  let v438 : BitVec 1 := Scalar.cmpi .ne v437 c0_i32_206
  let v439 : BitVec 1 := Scalar.andi v436 v438
  let v425 : BitVec 32 := Scalar.divsi v424 c8_i32_201
  let c1_i32_207 : BitVec 32 := 1#32
  let v440 : BitVec 32 := Scalar.subi v425 c1_i32_207
  let v441 : BitVec 32 := Scalar.select v439 v440 v425
  let v450 : Index := Scalar.indexCast v441
  let c0_211 : Index := 0#32
  let c0_212 : Index := 0#32
  ![v450.toNat, 0, 0]

def k1_chk11 (v424 : BitVec 32) : Prop :=
  (∀ a, (k1_off11 v424) a + S1x8x128.size a ≤ S1250x8x128.size a)
instance k1_chk11.dec : ∀ (v424 : BitVec 32), Decidable (k1_chk11 v424) := fun v424 => decidable_of_iff' _ (Iff.of_eq (k1_chk11.eq_1 v424))
theorem k1_off11_inb : ∀ (v424 : BitVec 32) (k1_hw11 : k1_chk11 v424), ∀ a, (k1_off11 v424) a + S1x8x128.size a ≤ S1250x8x128.size a := fun v424 k1_hw11 => k1_hw11

def k1_off12 (v466 : BitVec 32) : Fin 3 → Nat :=
  let c0_i32_222 : BitVec 32 := 0#32
  let v468 : BitVec 1 := Scalar.cmpi .sgt v466 c0_i32_222
  let v469 : BitVec 32 := Scalar.extui v468
  let c0_i32_223 : BitVec 32 := 0#32
  let v470 : BitVec 1 := Scalar.cmpi .slt v466 c0_i32_223
  let v471 : BitVec 32 := Scalar.extui v470
  let v472 : BitVec 32 := Scalar.subi v469 v471
  let c8_i32_221 : BitVec 32 := 8#32
  let c0_i32_224 : BitVec 32 := 0#32
  let v473 : BitVec 1 := Scalar.cmpi .sgt c8_i32_221 c0_i32_224
  let v474 : BitVec 32 := Scalar.extui v473
  let c0_i32_225 : BitVec 32 := 0#32
  let v475 : BitVec 1 := Scalar.cmpi .slt c8_i32_221 c0_i32_225
  let v476 : BitVec 32 := Scalar.extui v475
  let v477 : BitVec 32 := Scalar.subi v474 v476
  let v478 : BitVec 1 := Scalar.cmpi .ne v472 v477
  let v479 : BitVec 32 := Scalar.remsi v466 c8_i32_221
  let c0_i32_226 : BitVec 32 := 0#32
  let v480 : BitVec 1 := Scalar.cmpi .ne v479 c0_i32_226
  let v481 : BitVec 1 := Scalar.andi v478 v480
  let v467 : BitVec 32 := Scalar.divsi v466 c8_i32_221
  let c1_i32_227 : BitVec 32 := 1#32
  let v482 : BitVec 32 := Scalar.subi v467 c1_i32_227
  let v483 : BitVec 32 := Scalar.select v481 v482 v467
  let v492 : Index := Scalar.indexCast v483
  let c0_231 : Index := 0#32
  let c0_232 : Index := 0#32
  ![v492.toNat, 0, 0]

def k1_chk12 (v466 : BitVec 32) : Prop :=
  (∀ a, (k1_off12 v466) a + S1x8x128.size a ≤ S1250x8x128.size a)
instance k1_chk12.dec : ∀ (v466 : BitVec 32), Decidable (k1_chk12 v466) := fun v466 => decidable_of_iff' _ (Iff.of_eq (k1_chk12.eq_1 v466))
theorem k1_off12_inb : ∀ (v466 : BitVec 32) (k1_hw12 : k1_chk12 v466), ∀ a, (k1_off12 v466) a + S1x8x128.size a ≤ S1250x8x128.size a := fun v466 k1_hw12 => k1_hw12

def k1_off13 (v508 : BitVec 32) : Fin 3 → Nat :=
  let c0_i32_242 : BitVec 32 := 0#32
  let v510 : BitVec 1 := Scalar.cmpi .sgt v508 c0_i32_242
  let v511 : BitVec 32 := Scalar.extui v510
  let c0_i32_243 : BitVec 32 := 0#32
  let v512 : BitVec 1 := Scalar.cmpi .slt v508 c0_i32_243
  let v513 : BitVec 32 := Scalar.extui v512
  let v514 : BitVec 32 := Scalar.subi v511 v513
  let c8_i32_241 : BitVec 32 := 8#32
  let c0_i32_244 : BitVec 32 := 0#32
  let v515 : BitVec 1 := Scalar.cmpi .sgt c8_i32_241 c0_i32_244
  let v516 : BitVec 32 := Scalar.extui v515
  let c0_i32_245 : BitVec 32 := 0#32
  let v517 : BitVec 1 := Scalar.cmpi .slt c8_i32_241 c0_i32_245
  let v518 : BitVec 32 := Scalar.extui v517
  let v519 : BitVec 32 := Scalar.subi v516 v518
  let v520 : BitVec 1 := Scalar.cmpi .ne v514 v519
  let v521 : BitVec 32 := Scalar.remsi v508 c8_i32_241
  let c0_i32_246 : BitVec 32 := 0#32
  let v522 : BitVec 1 := Scalar.cmpi .ne v521 c0_i32_246
  let v523 : BitVec 1 := Scalar.andi v520 v522
  let v509 : BitVec 32 := Scalar.divsi v508 c8_i32_241
  let c1_i32_247 : BitVec 32 := 1#32
  let v524 : BitVec 32 := Scalar.subi v509 c1_i32_247
  let v525 : BitVec 32 := Scalar.select v523 v524 v509
  let v534 : Index := Scalar.indexCast v525
  let c0_251 : Index := 0#32
  let c0_252 : Index := 0#32
  ![v534.toNat, 0, 0]

def k1_chk13 (v508 : BitVec 32) : Prop :=
  (∀ a, (k1_off13 v508) a + S1x8x128.size a ≤ S1250x8x128.size a)
instance k1_chk13.dec : ∀ (v508 : BitVec 32), Decidable (k1_chk13 v508) := fun v508 => decidable_of_iff' _ (Iff.of_eq (k1_chk13.eq_1 v508))
theorem k1_off13_inb : ∀ (v508 : BitVec 32) (k1_hw13 : k1_chk13 v508), ∀ a, (k1_off13 v508) a + S1x8x128.size a ≤ S1250x8x128.size a := fun v508 k1_hw13 => k1_hw13

def k1_off14 (v550 : BitVec 32) : Fin 3 → Nat :=
  let c0_i32_262 : BitVec 32 := 0#32
  let v552 : BitVec 1 := Scalar.cmpi .sgt v550 c0_i32_262
  let v553 : BitVec 32 := Scalar.extui v552
  let c0_i32_263 : BitVec 32 := 0#32
  let v554 : BitVec 1 := Scalar.cmpi .slt v550 c0_i32_263
  let v555 : BitVec 32 := Scalar.extui v554
  let v556 : BitVec 32 := Scalar.subi v553 v555
  let c8_i32_261 : BitVec 32 := 8#32
  let c0_i32_264 : BitVec 32 := 0#32
  let v557 : BitVec 1 := Scalar.cmpi .sgt c8_i32_261 c0_i32_264
  let v558 : BitVec 32 := Scalar.extui v557
  let c0_i32_265 : BitVec 32 := 0#32
  let v559 : BitVec 1 := Scalar.cmpi .slt c8_i32_261 c0_i32_265
  let v560 : BitVec 32 := Scalar.extui v559
  let v561 : BitVec 32 := Scalar.subi v558 v560
  let v562 : BitVec 1 := Scalar.cmpi .ne v556 v561
  let v563 : BitVec 32 := Scalar.remsi v550 c8_i32_261
  let c0_i32_266 : BitVec 32 := 0#32
  let v564 : BitVec 1 := Scalar.cmpi .ne v563 c0_i32_266
  let v565 : BitVec 1 := Scalar.andi v562 v564
  let v551 : BitVec 32 := Scalar.divsi v550 c8_i32_261
  let c1_i32_267 : BitVec 32 := 1#32
  let v566 : BitVec 32 := Scalar.subi v551 c1_i32_267
  let v567 : BitVec 32 := Scalar.select v565 v566 v551
  let v576 : Index := Scalar.indexCast v567
  let c0_271 : Index := 0#32
  let c0_272 : Index := 0#32
  ![v576.toNat, 0, 0]

def k1_chk14 (v550 : BitVec 32) : Prop :=
  (∀ a, (k1_off14 v550) a + S1x8x128.size a ≤ S1250x8x128.size a)
instance k1_chk14.dec : ∀ (v550 : BitVec 32), Decidable (k1_chk14 v550) := fun v550 => decidable_of_iff' _ (Iff.of_eq (k1_chk14.eq_1 v550))
theorem k1_off14_inb : ∀ (v550 : BitVec 32) (k1_hw14 : k1_chk14 v550), ∀ a, (k1_off14 v550) a + S1x8x128.size a ≤ S1250x8x128.size a := fun v550 k1_hw14 => k1_hw14

def k1_off15 (v592 : BitVec 32) : Fin 3 → Nat :=
  let c0_i32_282 : BitVec 32 := 0#32
  let v594 : BitVec 1 := Scalar.cmpi .sgt v592 c0_i32_282
  let v595 : BitVec 32 := Scalar.extui v594
  let c0_i32_283 : BitVec 32 := 0#32
  let v596 : BitVec 1 := Scalar.cmpi .slt v592 c0_i32_283
  let v597 : BitVec 32 := Scalar.extui v596
  let v598 : BitVec 32 := Scalar.subi v595 v597
  let c8_i32_281 : BitVec 32 := 8#32
  let c0_i32_284 : BitVec 32 := 0#32
  let v599 : BitVec 1 := Scalar.cmpi .sgt c8_i32_281 c0_i32_284
  let v600 : BitVec 32 := Scalar.extui v599
  let c0_i32_285 : BitVec 32 := 0#32
  let v601 : BitVec 1 := Scalar.cmpi .slt c8_i32_281 c0_i32_285
  let v602 : BitVec 32 := Scalar.extui v601
  let v603 : BitVec 32 := Scalar.subi v600 v602
  let v604 : BitVec 1 := Scalar.cmpi .ne v598 v603
  let v605 : BitVec 32 := Scalar.remsi v592 c8_i32_281
  let c0_i32_286 : BitVec 32 := 0#32
  let v606 : BitVec 1 := Scalar.cmpi .ne v605 c0_i32_286
  let v607 : BitVec 1 := Scalar.andi v604 v606
  let v593 : BitVec 32 := Scalar.divsi v592 c8_i32_281
  let c1_i32_287 : BitVec 32 := 1#32
  let v608 : BitVec 32 := Scalar.subi v593 c1_i32_287
  let v609 : BitVec 32 := Scalar.select v607 v608 v593
  let v618 : Index := Scalar.indexCast v609
  let c0_291 : Index := 0#32
  let c0_292 : Index := 0#32
  ![v618.toNat, 0, 0]

def k1_chk15 (v592 : BitVec 32) : Prop :=
  (∀ a, (k1_off15 v592) a + S1x8x128.size a ≤ S1250x8x128.size a)
instance k1_chk15.dec : ∀ (v592 : BitVec 32), Decidable (k1_chk15 v592) := fun v592 => decidable_of_iff' _ (Iff.of_eq (k1_chk15.eq_1 v592))
theorem k1_off15_inb : ∀ (v592 : BitVec 32) (k1_hw15 : k1_chk15 v592), ∀ a, (k1_off15 v592) a + S1x8x128.size a ≤ S1250x8x128.size a := fun v592 k1_hw15 => k1_hw15

def k1_off16 (v634 : BitVec 32) : Fin 3 → Nat :=
  let c0_i32_302 : BitVec 32 := 0#32
  let v636 : BitVec 1 := Scalar.cmpi .sgt v634 c0_i32_302
  let v637 : BitVec 32 := Scalar.extui v636
  let c0_i32_303 : BitVec 32 := 0#32
  let v638 : BitVec 1 := Scalar.cmpi .slt v634 c0_i32_303
  let v639 : BitVec 32 := Scalar.extui v638
  let v640 : BitVec 32 := Scalar.subi v637 v639
  let c8_i32_301 : BitVec 32 := 8#32
  let c0_i32_304 : BitVec 32 := 0#32
  let v641 : BitVec 1 := Scalar.cmpi .sgt c8_i32_301 c0_i32_304
  let v642 : BitVec 32 := Scalar.extui v641
  let c0_i32_305 : BitVec 32 := 0#32
  let v643 : BitVec 1 := Scalar.cmpi .slt c8_i32_301 c0_i32_305
  let v644 : BitVec 32 := Scalar.extui v643
  let v645 : BitVec 32 := Scalar.subi v642 v644
  let v646 : BitVec 1 := Scalar.cmpi .ne v640 v645
  let v647 : BitVec 32 := Scalar.remsi v634 c8_i32_301
  let c0_i32_306 : BitVec 32 := 0#32
  let v648 : BitVec 1 := Scalar.cmpi .ne v647 c0_i32_306
  let v649 : BitVec 1 := Scalar.andi v646 v648
  let v635 : BitVec 32 := Scalar.divsi v634 c8_i32_301
  let c1_i32_307 : BitVec 32 := 1#32
  let v650 : BitVec 32 := Scalar.subi v635 c1_i32_307
  let v651 : BitVec 32 := Scalar.select v649 v650 v635
  let v660 : Index := Scalar.indexCast v651
  let c0_311 : Index := 0#32
  let c0_312 : Index := 0#32
  ![v660.toNat, 0, 0]

def k1_chk16 (v634 : BitVec 32) : Prop :=
  (∀ a, (k1_off16 v634) a + S1x8x128.size a ≤ S1250x8x128.size a)
instance k1_chk16.dec : ∀ (v634 : BitVec 32), Decidable (k1_chk16 v634) := fun v634 => decidable_of_iff' _ (Iff.of_eq (k1_chk16.eq_1 v634))
theorem k1_off16_inb : ∀ (v634 : BitVec 32) (k1_hw16 : k1_chk16 v634), ∀ a, (k1_off16 v634) a + S1x8x128.size a ≤ S1250x8x128.size a := fun v634 k1_hw16 => k1_hw16

def k1_off17 (v676 : BitVec 32) : Fin 3 → Nat :=
  let c0_i32_322 : BitVec 32 := 0#32
  let v678 : BitVec 1 := Scalar.cmpi .sgt v676 c0_i32_322
  let v679 : BitVec 32 := Scalar.extui v678
  let c0_i32_323 : BitVec 32 := 0#32
  let v680 : BitVec 1 := Scalar.cmpi .slt v676 c0_i32_323
  let v681 : BitVec 32 := Scalar.extui v680
  let v682 : BitVec 32 := Scalar.subi v679 v681
  let c8_i32_321 : BitVec 32 := 8#32
  let c0_i32_324 : BitVec 32 := 0#32
  let v683 : BitVec 1 := Scalar.cmpi .sgt c8_i32_321 c0_i32_324
  let v684 : BitVec 32 := Scalar.extui v683
  let c0_i32_325 : BitVec 32 := 0#32
  let v685 : BitVec 1 := Scalar.cmpi .slt c8_i32_321 c0_i32_325
  let v686 : BitVec 32 := Scalar.extui v685
  let v687 : BitVec 32 := Scalar.subi v684 v686
  let v688 : BitVec 1 := Scalar.cmpi .ne v682 v687
  let v689 : BitVec 32 := Scalar.remsi v676 c8_i32_321
  let c0_i32_326 : BitVec 32 := 0#32
  let v690 : BitVec 1 := Scalar.cmpi .ne v689 c0_i32_326
  let v691 : BitVec 1 := Scalar.andi v688 v690
  let v677 : BitVec 32 := Scalar.divsi v676 c8_i32_321
  let c1_i32_327 : BitVec 32 := 1#32
  let v692 : BitVec 32 := Scalar.subi v677 c1_i32_327
  let v693 : BitVec 32 := Scalar.select v691 v692 v677
  let v702 : Index := Scalar.indexCast v693
  let c0_331 : Index := 0#32
  let c0_332 : Index := 0#32
  ![v702.toNat, 0, 0]

def k1_chk17 (v676 : BitVec 32) : Prop :=
  (∀ a, (k1_off17 v676) a + S1x8x128.size a ≤ S1250x8x128.size a)
instance k1_chk17.dec : ∀ (v676 : BitVec 32), Decidable (k1_chk17 v676) := fun v676 => decidable_of_iff' _ (Iff.of_eq (k1_chk17.eq_1 v676))
theorem k1_off17_inb : ∀ (v676 : BitVec 32) (k1_hw17 : k1_chk17 v676), ∀ a, (k1_off17 v676) a + S1x8x128.size a ≤ S1250x8x128.size a := fun v676 k1_hw17 => k1_hw17

def k1_off18 (v718 : BitVec 32) : Fin 3 → Nat :=
  let c0_i32_342 : BitVec 32 := 0#32
  let v720 : BitVec 1 := Scalar.cmpi .sgt v718 c0_i32_342
  let v721 : BitVec 32 := Scalar.extui v720
  let c0_i32_343 : BitVec 32 := 0#32
  let v722 : BitVec 1 := Scalar.cmpi .slt v718 c0_i32_343
  let v723 : BitVec 32 := Scalar.extui v722
  let v724 : BitVec 32 := Scalar.subi v721 v723
  let c8_i32_341 : BitVec 32 := 8#32
  let c0_i32_344 : BitVec 32 := 0#32
  let v725 : BitVec 1 := Scalar.cmpi .sgt c8_i32_341 c0_i32_344
  let v726 : BitVec 32 := Scalar.extui v725
  let c0_i32_345 : BitVec 32 := 0#32
  let v727 : BitVec 1 := Scalar.cmpi .slt c8_i32_341 c0_i32_345
  let v728 : BitVec 32 := Scalar.extui v727
  let v729 : BitVec 32 := Scalar.subi v726 v728
  let v730 : BitVec 1 := Scalar.cmpi .ne v724 v729
  let v731 : BitVec 32 := Scalar.remsi v718 c8_i32_341
  let c0_i32_346 : BitVec 32 := 0#32
  let v732 : BitVec 1 := Scalar.cmpi .ne v731 c0_i32_346
  let v733 : BitVec 1 := Scalar.andi v730 v732
  let v719 : BitVec 32 := Scalar.divsi v718 c8_i32_341
  let c1_i32_347 : BitVec 32 := 1#32
  let v734 : BitVec 32 := Scalar.subi v719 c1_i32_347
  let v735 : BitVec 32 := Scalar.select v733 v734 v719
  let v744 : Index := Scalar.indexCast v735
  let c0_351 : Index := 0#32
  let c0_352 : Index := 0#32
  ![v744.toNat, 0, 0]

def k1_chk18 (v718 : BitVec 32) : Prop :=
  (∀ a, (k1_off18 v718) a + S1x8x128.size a ≤ S1250x8x128.size a)
instance k1_chk18.dec : ∀ (v718 : BitVec 32), Decidable (k1_chk18 v718) := fun v718 => decidable_of_iff' _ (Iff.of_eq (k1_chk18.eq_1 v718))
theorem k1_off18_inb : ∀ (v718 : BitVec 32) (k1_hw18 : k1_chk18 v718), ∀ a, (k1_off18 v718) a + S1x8x128.size a ≤ S1250x8x128.size a := fun v718 k1_hw18 => k1_hw18

def k1_off19 (v760 : BitVec 32) : Fin 3 → Nat :=
  let c0_i32_362 : BitVec 32 := 0#32
  let v762 : BitVec 1 := Scalar.cmpi .sgt v760 c0_i32_362
  let v763 : BitVec 32 := Scalar.extui v762
  let c0_i32_363 : BitVec 32 := 0#32
  let v764 : BitVec 1 := Scalar.cmpi .slt v760 c0_i32_363
  let v765 : BitVec 32 := Scalar.extui v764
  let v766 : BitVec 32 := Scalar.subi v763 v765
  let c8_i32_361 : BitVec 32 := 8#32
  let c0_i32_364 : BitVec 32 := 0#32
  let v767 : BitVec 1 := Scalar.cmpi .sgt c8_i32_361 c0_i32_364
  let v768 : BitVec 32 := Scalar.extui v767
  let c0_i32_365 : BitVec 32 := 0#32
  let v769 : BitVec 1 := Scalar.cmpi .slt c8_i32_361 c0_i32_365
  let v770 : BitVec 32 := Scalar.extui v769
  let v771 : BitVec 32 := Scalar.subi v768 v770
  let v772 : BitVec 1 := Scalar.cmpi .ne v766 v771
  let v773 : BitVec 32 := Scalar.remsi v760 c8_i32_361
  let c0_i32_366 : BitVec 32 := 0#32
  let v774 : BitVec 1 := Scalar.cmpi .ne v773 c0_i32_366
  let v775 : BitVec 1 := Scalar.andi v772 v774
  let v761 : BitVec 32 := Scalar.divsi v760 c8_i32_361
  let c1_i32_367 : BitVec 32 := 1#32
  let v776 : BitVec 32 := Scalar.subi v761 c1_i32_367
  let v777 : BitVec 32 := Scalar.select v775 v776 v761
  let v786 : Index := Scalar.indexCast v777
  let c0_371 : Index := 0#32
  let c0_372 : Index := 0#32
  ![v786.toNat, 0, 0]

def k1_chk19 (v760 : BitVec 32) : Prop :=
  (∀ a, (k1_off19 v760) a + S1x8x128.size a ≤ S1250x8x128.size a)
instance k1_chk19.dec : ∀ (v760 : BitVec 32), Decidable (k1_chk19 v760) := fun v760 => decidable_of_iff' _ (Iff.of_eq (k1_chk19.eq_1 v760))
theorem k1_off19_inb : ∀ (v760 : BitVec 32) (k1_hw19 : k1_chk19 v760), ∀ a, (k1_off19 v760) a + S1x8x128.size a ≤ S1250x8x128.size a := fun v760 k1_hw19 => k1_hw19

def k1_off20 (v802 : BitVec 32) : Fin 3 → Nat :=
  let c0_i32_382 : BitVec 32 := 0#32
  let v804 : BitVec 1 := Scalar.cmpi .sgt v802 c0_i32_382
  let v805 : BitVec 32 := Scalar.extui v804
  let c0_i32_383 : BitVec 32 := 0#32
  let v806 : BitVec 1 := Scalar.cmpi .slt v802 c0_i32_383
  let v807 : BitVec 32 := Scalar.extui v806
  let v808 : BitVec 32 := Scalar.subi v805 v807
  let c8_i32_381 : BitVec 32 := 8#32
  let c0_i32_384 : BitVec 32 := 0#32
  let v809 : BitVec 1 := Scalar.cmpi .sgt c8_i32_381 c0_i32_384
  let v810 : BitVec 32 := Scalar.extui v809
  let c0_i32_385 : BitVec 32 := 0#32
  let v811 : BitVec 1 := Scalar.cmpi .slt c8_i32_381 c0_i32_385
  let v812 : BitVec 32 := Scalar.extui v811
  let v813 : BitVec 32 := Scalar.subi v810 v812
  let v814 : BitVec 1 := Scalar.cmpi .ne v808 v813
  let v815 : BitVec 32 := Scalar.remsi v802 c8_i32_381
  let c0_i32_386 : BitVec 32 := 0#32
  let v816 : BitVec 1 := Scalar.cmpi .ne v815 c0_i32_386
  let v817 : BitVec 1 := Scalar.andi v814 v816
  let v803 : BitVec 32 := Scalar.divsi v802 c8_i32_381
  let c1_i32_387 : BitVec 32 := 1#32
  let v818 : BitVec 32 := Scalar.subi v803 c1_i32_387
  let v819 : BitVec 32 := Scalar.select v817 v818 v803
  let v828 : Index := Scalar.indexCast v819
  let c0_391 : Index := 0#32
  let c0_392 : Index := 0#32
  ![v828.toNat, 0, 0]

def k1_chk20 (v802 : BitVec 32) : Prop :=
  (∀ a, (k1_off20 v802) a + S1x8x128.size a ≤ S1250x8x128.size a)
instance k1_chk20.dec : ∀ (v802 : BitVec 32), Decidable (k1_chk20 v802) := fun v802 => decidable_of_iff' _ (Iff.of_eq (k1_chk20.eq_1 v802))
theorem k1_off20_inb : ∀ (v802 : BitVec 32) (k1_hw20 : k1_chk20 v802), ∀ a, (k1_off20 v802) a + S1x8x128.size a ≤ S1250x8x128.size a := fun v802 k1_hw20 => k1_hw20

def k1_off21 (v844 : BitVec 32) : Fin 3 → Nat :=
  let c0_i32_402 : BitVec 32 := 0#32
  let v846 : BitVec 1 := Scalar.cmpi .sgt v844 c0_i32_402
  let v847 : BitVec 32 := Scalar.extui v846
  let c0_i32_403 : BitVec 32 := 0#32
  let v848 : BitVec 1 := Scalar.cmpi .slt v844 c0_i32_403
  let v849 : BitVec 32 := Scalar.extui v848
  let v850 : BitVec 32 := Scalar.subi v847 v849
  let c8_i32_401 : BitVec 32 := 8#32
  let c0_i32_404 : BitVec 32 := 0#32
  let v851 : BitVec 1 := Scalar.cmpi .sgt c8_i32_401 c0_i32_404
  let v852 : BitVec 32 := Scalar.extui v851
  let c0_i32_405 : BitVec 32 := 0#32
  let v853 : BitVec 1 := Scalar.cmpi .slt c8_i32_401 c0_i32_405
  let v854 : BitVec 32 := Scalar.extui v853
  let v855 : BitVec 32 := Scalar.subi v852 v854
  let v856 : BitVec 1 := Scalar.cmpi .ne v850 v855
  let v857 : BitVec 32 := Scalar.remsi v844 c8_i32_401
  let c0_i32_406 : BitVec 32 := 0#32
  let v858 : BitVec 1 := Scalar.cmpi .ne v857 c0_i32_406
  let v859 : BitVec 1 := Scalar.andi v856 v858
  let v845 : BitVec 32 := Scalar.divsi v844 c8_i32_401
  let c1_i32_407 : BitVec 32 := 1#32
  let v860 : BitVec 32 := Scalar.subi v845 c1_i32_407
  let v861 : BitVec 32 := Scalar.select v859 v860 v845
  let v870 : Index := Scalar.indexCast v861
  let c0_411 : Index := 0#32
  let c0_412 : Index := 0#32
  ![v870.toNat, 0, 0]

def k1_chk21 (v844 : BitVec 32) : Prop :=
  (∀ a, (k1_off21 v844) a + S1x8x128.size a ≤ S1250x8x128.size a)
instance k1_chk21.dec : ∀ (v844 : BitVec 32), Decidable (k1_chk21 v844) := fun v844 => decidable_of_iff' _ (Iff.of_eq (k1_chk21.eq_1 v844))
theorem k1_off21_inb : ∀ (v844 : BitVec 32) (k1_hw21 : k1_chk21 v844), ∀ a, (k1_off21 v844) a + S1x8x128.size a ≤ S1250x8x128.size a := fun v844 k1_hw21 => k1_hw21

def k1_off22 (v886 : BitVec 32) : Fin 3 → Nat :=
  let c0_i32_422 : BitVec 32 := 0#32
  let v888 : BitVec 1 := Scalar.cmpi .sgt v886 c0_i32_422
  let v889 : BitVec 32 := Scalar.extui v888
  let c0_i32_423 : BitVec 32 := 0#32
  let v890 : BitVec 1 := Scalar.cmpi .slt v886 c0_i32_423
  let v891 : BitVec 32 := Scalar.extui v890
  let v892 : BitVec 32 := Scalar.subi v889 v891
  let c8_i32_421 : BitVec 32 := 8#32
  let c0_i32_424 : BitVec 32 := 0#32
  let v893 : BitVec 1 := Scalar.cmpi .sgt c8_i32_421 c0_i32_424
  let v894 : BitVec 32 := Scalar.extui v893
  let c0_i32_425 : BitVec 32 := 0#32
  let v895 : BitVec 1 := Scalar.cmpi .slt c8_i32_421 c0_i32_425
  let v896 : BitVec 32 := Scalar.extui v895
  let v897 : BitVec 32 := Scalar.subi v894 v896
  let v898 : BitVec 1 := Scalar.cmpi .ne v892 v897
  let v899 : BitVec 32 := Scalar.remsi v886 c8_i32_421
  let c0_i32_426 : BitVec 32 := 0#32
  let v900 : BitVec 1 := Scalar.cmpi .ne v899 c0_i32_426
  let v901 : BitVec 1 := Scalar.andi v898 v900
  let v887 : BitVec 32 := Scalar.divsi v886 c8_i32_421
  let c1_i32_427 : BitVec 32 := 1#32
  let v902 : BitVec 32 := Scalar.subi v887 c1_i32_427
  let v903 : BitVec 32 := Scalar.select v901 v902 v887
  let v912 : Index := Scalar.indexCast v903
  let c0_431 : Index := 0#32
  let c0_432 : Index := 0#32
  ![v912.toNat, 0, 0]

def k1_chk22 (v886 : BitVec 32) : Prop :=
  (∀ a, (k1_off22 v886) a + S1x8x128.size a ≤ S1250x8x128.size a)
instance k1_chk22.dec : ∀ (v886 : BitVec 32), Decidable (k1_chk22 v886) := fun v886 => decidable_of_iff' _ (Iff.of_eq (k1_chk22.eq_1 v886))
theorem k1_off22_inb : ∀ (v886 : BitVec 32) (k1_hw22 : k1_chk22 v886), ∀ a, (k1_off22 v886) a + S1x8x128.size a ≤ S1250x8x128.size a := fun v886 k1_hw22 => k1_hw22

def k1_off23 (v928 : BitVec 32) : Fin 3 → Nat :=
  let c0_i32_442 : BitVec 32 := 0#32
  let v930 : BitVec 1 := Scalar.cmpi .sgt v928 c0_i32_442
  let v931 : BitVec 32 := Scalar.extui v930
  let c0_i32_443 : BitVec 32 := 0#32
  let v932 : BitVec 1 := Scalar.cmpi .slt v928 c0_i32_443
  let v933 : BitVec 32 := Scalar.extui v932
  let v934 : BitVec 32 := Scalar.subi v931 v933
  let c8_i32_441 : BitVec 32 := 8#32
  let c0_i32_444 : BitVec 32 := 0#32
  let v935 : BitVec 1 := Scalar.cmpi .sgt c8_i32_441 c0_i32_444
  let v936 : BitVec 32 := Scalar.extui v935
  let c0_i32_445 : BitVec 32 := 0#32
  let v937 : BitVec 1 := Scalar.cmpi .slt c8_i32_441 c0_i32_445
  let v938 : BitVec 32 := Scalar.extui v937
  let v939 : BitVec 32 := Scalar.subi v936 v938
  let v940 : BitVec 1 := Scalar.cmpi .ne v934 v939
  let v941 : BitVec 32 := Scalar.remsi v928 c8_i32_441
  let c0_i32_446 : BitVec 32 := 0#32
  let v942 : BitVec 1 := Scalar.cmpi .ne v941 c0_i32_446
  let v943 : BitVec 1 := Scalar.andi v940 v942
  let v929 : BitVec 32 := Scalar.divsi v928 c8_i32_441
  let c1_i32_447 : BitVec 32 := 1#32
  let v944 : BitVec 32 := Scalar.subi v929 c1_i32_447
  let v945 : BitVec 32 := Scalar.select v943 v944 v929
  let v954 : Index := Scalar.indexCast v945
  let c0_451 : Index := 0#32
  let c0_452 : Index := 0#32
  ![v954.toNat, 0, 0]

def k1_chk23 (v928 : BitVec 32) : Prop :=
  (∀ a, (k1_off23 v928) a + S1x8x128.size a ≤ S1250x8x128.size a)
instance k1_chk23.dec : ∀ (v928 : BitVec 32), Decidable (k1_chk23 v928) := fun v928 => decidable_of_iff' _ (Iff.of_eq (k1_chk23.eq_1 v928))
theorem k1_off23_inb : ∀ (v928 : BitVec 32) (k1_hw23 : k1_chk23 v928), ∀ a, (k1_off23 v928) a + S1x8x128.size a ≤ S1250x8x128.size a := fun v928 k1_hw23 => k1_hw23

def k1_off24 (v970 : BitVec 32) : Fin 3 → Nat :=
  let c0_i32_462 : BitVec 32 := 0#32
  let v972 : BitVec 1 := Scalar.cmpi .sgt v970 c0_i32_462
  let v973 : BitVec 32 := Scalar.extui v972
  let c0_i32_463 : BitVec 32 := 0#32
  let v974 : BitVec 1 := Scalar.cmpi .slt v970 c0_i32_463
  let v975 : BitVec 32 := Scalar.extui v974
  let v976 : BitVec 32 := Scalar.subi v973 v975
  let c8_i32_461 : BitVec 32 := 8#32
  let c0_i32_464 : BitVec 32 := 0#32
  let v977 : BitVec 1 := Scalar.cmpi .sgt c8_i32_461 c0_i32_464
  let v978 : BitVec 32 := Scalar.extui v977
  let c0_i32_465 : BitVec 32 := 0#32
  let v979 : BitVec 1 := Scalar.cmpi .slt c8_i32_461 c0_i32_465
  let v980 : BitVec 32 := Scalar.extui v979
  let v981 : BitVec 32 := Scalar.subi v978 v980
  let v982 : BitVec 1 := Scalar.cmpi .ne v976 v981
  let v983 : BitVec 32 := Scalar.remsi v970 c8_i32_461
  let c0_i32_466 : BitVec 32 := 0#32
  let v984 : BitVec 1 := Scalar.cmpi .ne v983 c0_i32_466
  let v985 : BitVec 1 := Scalar.andi v982 v984
  let v971 : BitVec 32 := Scalar.divsi v970 c8_i32_461
  let c1_i32_467 : BitVec 32 := 1#32
  let v986 : BitVec 32 := Scalar.subi v971 c1_i32_467
  let v987 : BitVec 32 := Scalar.select v985 v986 v971
  let v996 : Index := Scalar.indexCast v987
  let c0_471 : Index := 0#32
  let c0_472 : Index := 0#32
  ![v996.toNat, 0, 0]

def k1_chk24 (v970 : BitVec 32) : Prop :=
  (∀ a, (k1_off24 v970) a + S1x8x128.size a ≤ S1250x8x128.size a)
instance k1_chk24.dec : ∀ (v970 : BitVec 32), Decidable (k1_chk24 v970) := fun v970 => decidable_of_iff' _ (Iff.of_eq (k1_chk24.eq_1 v970))
theorem k1_off24_inb : ∀ (v970 : BitVec 32) (k1_hw24 : k1_chk24 v970), ∀ a, (k1_off24 v970) a + S1x8x128.size a ≤ S1250x8x128.size a := fun v970 k1_hw24 => k1_hw24

def k1_off25 (v1012 : BitVec 32) : Fin 3 → Nat :=
  let c0_i32_482 : BitVec 32 := 0#32
  let v1014 : BitVec 1 := Scalar.cmpi .sgt v1012 c0_i32_482
  let v1015 : BitVec 32 := Scalar.extui v1014
  let c0_i32_483 : BitVec 32 := 0#32
  let v1016 : BitVec 1 := Scalar.cmpi .slt v1012 c0_i32_483
  let v1017 : BitVec 32 := Scalar.extui v1016
  let v1018 : BitVec 32 := Scalar.subi v1015 v1017
  let c8_i32_481 : BitVec 32 := 8#32
  let c0_i32_484 : BitVec 32 := 0#32
  let v1019 : BitVec 1 := Scalar.cmpi .sgt c8_i32_481 c0_i32_484
  let v1020 : BitVec 32 := Scalar.extui v1019
  let c0_i32_485 : BitVec 32 := 0#32
  let v1021 : BitVec 1 := Scalar.cmpi .slt c8_i32_481 c0_i32_485
  let v1022 : BitVec 32 := Scalar.extui v1021
  let v1023 : BitVec 32 := Scalar.subi v1020 v1022
  let v1024 : BitVec 1 := Scalar.cmpi .ne v1018 v1023
  let v1025 : BitVec 32 := Scalar.remsi v1012 c8_i32_481
  let c0_i32_486 : BitVec 32 := 0#32
  let v1026 : BitVec 1 := Scalar.cmpi .ne v1025 c0_i32_486
  let v1027 : BitVec 1 := Scalar.andi v1024 v1026
  let v1013 : BitVec 32 := Scalar.divsi v1012 c8_i32_481
  let c1_i32_487 : BitVec 32 := 1#32
  let v1028 : BitVec 32 := Scalar.subi v1013 c1_i32_487
  let v1029 : BitVec 32 := Scalar.select v1027 v1028 v1013
  let v1038 : Index := Scalar.indexCast v1029
  let c0_491 : Index := 0#32
  let c0_492 : Index := 0#32
  ![v1038.toNat, 0, 0]

def k1_chk25 (v1012 : BitVec 32) : Prop :=
  (∀ a, (k1_off25 v1012) a + S1x8x128.size a ≤ S1250x8x128.size a)
instance k1_chk25.dec : ∀ (v1012 : BitVec 32), Decidable (k1_chk25 v1012) := fun v1012 => decidable_of_iff' _ (Iff.of_eq (k1_chk25.eq_1 v1012))
theorem k1_off25_inb : ∀ (v1012 : BitVec 32) (k1_hw25 : k1_chk25 v1012), ∀ a, (k1_off25 v1012) a + S1x8x128.size a ≤ S1250x8x128.size a := fun v1012 k1_hw25 => k1_hw25

def k1_off26 (v1054 : BitVec 32) : Fin 3 → Nat :=
  let c0_i32_502 : BitVec 32 := 0#32
  let v1056 : BitVec 1 := Scalar.cmpi .sgt v1054 c0_i32_502
  let v1057 : BitVec 32 := Scalar.extui v1056
  let c0_i32_503 : BitVec 32 := 0#32
  let v1058 : BitVec 1 := Scalar.cmpi .slt v1054 c0_i32_503
  let v1059 : BitVec 32 := Scalar.extui v1058
  let v1060 : BitVec 32 := Scalar.subi v1057 v1059
  let c8_i32_501 : BitVec 32 := 8#32
  let c0_i32_504 : BitVec 32 := 0#32
  let v1061 : BitVec 1 := Scalar.cmpi .sgt c8_i32_501 c0_i32_504
  let v1062 : BitVec 32 := Scalar.extui v1061
  let c0_i32_505 : BitVec 32 := 0#32
  let v1063 : BitVec 1 := Scalar.cmpi .slt c8_i32_501 c0_i32_505
  let v1064 : BitVec 32 := Scalar.extui v1063
  let v1065 : BitVec 32 := Scalar.subi v1062 v1064
  let v1066 : BitVec 1 := Scalar.cmpi .ne v1060 v1065
  let v1067 : BitVec 32 := Scalar.remsi v1054 c8_i32_501
  let c0_i32_506 : BitVec 32 := 0#32
  let v1068 : BitVec 1 := Scalar.cmpi .ne v1067 c0_i32_506
  let v1069 : BitVec 1 := Scalar.andi v1066 v1068
  let v1055 : BitVec 32 := Scalar.divsi v1054 c8_i32_501
  let c1_i32_507 : BitVec 32 := 1#32
  let v1070 : BitVec 32 := Scalar.subi v1055 c1_i32_507
  let v1071 : BitVec 32 := Scalar.select v1069 v1070 v1055
  let v1080 : Index := Scalar.indexCast v1071
  let c0_511 : Index := 0#32
  let c0_512 : Index := 0#32
  ![v1080.toNat, 0, 0]

def k1_chk26 (v1054 : BitVec 32) : Prop :=
  (∀ a, (k1_off26 v1054) a + S1x8x128.size a ≤ S1250x8x128.size a)
instance k1_chk26.dec : ∀ (v1054 : BitVec 32), Decidable (k1_chk26 v1054) := fun v1054 => decidable_of_iff' _ (Iff.of_eq (k1_chk26.eq_1 v1054))
theorem k1_off26_inb : ∀ (v1054 : BitVec 32) (k1_hw26 : k1_chk26 v1054), ∀ a, (k1_off26 v1054) a + S1x8x128.size a ≤ S1250x8x128.size a := fun v1054 k1_hw26 => k1_hw26

def k1_off27 (v1096 : BitVec 32) : Fin 3 → Nat :=
  let c0_i32_522 : BitVec 32 := 0#32
  let v1098 : BitVec 1 := Scalar.cmpi .sgt v1096 c0_i32_522
  let v1099 : BitVec 32 := Scalar.extui v1098
  let c0_i32_523 : BitVec 32 := 0#32
  let v1100 : BitVec 1 := Scalar.cmpi .slt v1096 c0_i32_523
  let v1101 : BitVec 32 := Scalar.extui v1100
  let v1102 : BitVec 32 := Scalar.subi v1099 v1101
  let c8_i32_521 : BitVec 32 := 8#32
  let c0_i32_524 : BitVec 32 := 0#32
  let v1103 : BitVec 1 := Scalar.cmpi .sgt c8_i32_521 c0_i32_524
  let v1104 : BitVec 32 := Scalar.extui v1103
  let c0_i32_525 : BitVec 32 := 0#32
  let v1105 : BitVec 1 := Scalar.cmpi .slt c8_i32_521 c0_i32_525
  let v1106 : BitVec 32 := Scalar.extui v1105
  let v1107 : BitVec 32 := Scalar.subi v1104 v1106
  let v1108 : BitVec 1 := Scalar.cmpi .ne v1102 v1107
  let v1109 : BitVec 32 := Scalar.remsi v1096 c8_i32_521
  let c0_i32_526 : BitVec 32 := 0#32
  let v1110 : BitVec 1 := Scalar.cmpi .ne v1109 c0_i32_526
  let v1111 : BitVec 1 := Scalar.andi v1108 v1110
  let v1097 : BitVec 32 := Scalar.divsi v1096 c8_i32_521
  let c1_i32_527 : BitVec 32 := 1#32
  let v1112 : BitVec 32 := Scalar.subi v1097 c1_i32_527
  let v1113 : BitVec 32 := Scalar.select v1111 v1112 v1097
  let v1122 : Index := Scalar.indexCast v1113
  let c0_531 : Index := 0#32
  let c0_532 : Index := 0#32
  ![v1122.toNat, 0, 0]

def k1_chk27 (v1096 : BitVec 32) : Prop :=
  (∀ a, (k1_off27 v1096) a + S1x8x128.size a ≤ S1250x8x128.size a)
instance k1_chk27.dec : ∀ (v1096 : BitVec 32), Decidable (k1_chk27 v1096) := fun v1096 => decidable_of_iff' _ (Iff.of_eq (k1_chk27.eq_1 v1096))
theorem k1_off27_inb : ∀ (v1096 : BitVec 32) (k1_hw27 : k1_chk27 v1096), ∀ a, (k1_off27 v1096) a + S1x8x128.size a ≤ S1250x8x128.size a := fun v1096 k1_hw27 => k1_hw27

def k1_off28 (v1138 : BitVec 32) : Fin 3 → Nat :=
  let c0_i32_542 : BitVec 32 := 0#32
  let v1140 : BitVec 1 := Scalar.cmpi .sgt v1138 c0_i32_542
  let v1141 : BitVec 32 := Scalar.extui v1140
  let c0_i32_543 : BitVec 32 := 0#32
  let v1142 : BitVec 1 := Scalar.cmpi .slt v1138 c0_i32_543
  let v1143 : BitVec 32 := Scalar.extui v1142
  let v1144 : BitVec 32 := Scalar.subi v1141 v1143
  let c8_i32_541 : BitVec 32 := 8#32
  let c0_i32_544 : BitVec 32 := 0#32
  let v1145 : BitVec 1 := Scalar.cmpi .sgt c8_i32_541 c0_i32_544
  let v1146 : BitVec 32 := Scalar.extui v1145
  let c0_i32_545 : BitVec 32 := 0#32
  let v1147 : BitVec 1 := Scalar.cmpi .slt c8_i32_541 c0_i32_545
  let v1148 : BitVec 32 := Scalar.extui v1147
  let v1149 : BitVec 32 := Scalar.subi v1146 v1148
  let v1150 : BitVec 1 := Scalar.cmpi .ne v1144 v1149
  let v1151 : BitVec 32 := Scalar.remsi v1138 c8_i32_541
  let c0_i32_546 : BitVec 32 := 0#32
  let v1152 : BitVec 1 := Scalar.cmpi .ne v1151 c0_i32_546
  let v1153 : BitVec 1 := Scalar.andi v1150 v1152
  let v1139 : BitVec 32 := Scalar.divsi v1138 c8_i32_541
  let c1_i32_547 : BitVec 32 := 1#32
  let v1154 : BitVec 32 := Scalar.subi v1139 c1_i32_547
  let v1155 : BitVec 32 := Scalar.select v1153 v1154 v1139
  let v1164 : Index := Scalar.indexCast v1155
  let c0_551 : Index := 0#32
  let c0_552 : Index := 0#32
  ![v1164.toNat, 0, 0]

def k1_chk28 (v1138 : BitVec 32) : Prop :=
  (∀ a, (k1_off28 v1138) a + S1x8x128.size a ≤ S1250x8x128.size a)
instance k1_chk28.dec : ∀ (v1138 : BitVec 32), Decidable (k1_chk28 v1138) := fun v1138 => decidable_of_iff' _ (Iff.of_eq (k1_chk28.eq_1 v1138))
theorem k1_off28_inb : ∀ (v1138 : BitVec 32) (k1_hw28 : k1_chk28 v1138), ∀ a, (k1_off28 v1138) a + S1x8x128.size a ≤ S1250x8x128.size a := fun v1138 k1_hw28 => k1_hw28

def k1_off29 (v1180 : BitVec 32) : Fin 3 → Nat :=
  let c0_i32_562 : BitVec 32 := 0#32
  let v1182 : BitVec 1 := Scalar.cmpi .sgt v1180 c0_i32_562
  let v1183 : BitVec 32 := Scalar.extui v1182
  let c0_i32_563 : BitVec 32 := 0#32
  let v1184 : BitVec 1 := Scalar.cmpi .slt v1180 c0_i32_563
  let v1185 : BitVec 32 := Scalar.extui v1184
  let v1186 : BitVec 32 := Scalar.subi v1183 v1185
  let c8_i32_561 : BitVec 32 := 8#32
  let c0_i32_564 : BitVec 32 := 0#32
  let v1187 : BitVec 1 := Scalar.cmpi .sgt c8_i32_561 c0_i32_564
  let v1188 : BitVec 32 := Scalar.extui v1187
  let c0_i32_565 : BitVec 32 := 0#32
  let v1189 : BitVec 1 := Scalar.cmpi .slt c8_i32_561 c0_i32_565
  let v1190 : BitVec 32 := Scalar.extui v1189
  let v1191 : BitVec 32 := Scalar.subi v1188 v1190
  let v1192 : BitVec 1 := Scalar.cmpi .ne v1186 v1191
  let v1193 : BitVec 32 := Scalar.remsi v1180 c8_i32_561
  let c0_i32_566 : BitVec 32 := 0#32
  let v1194 : BitVec 1 := Scalar.cmpi .ne v1193 c0_i32_566
  let v1195 : BitVec 1 := Scalar.andi v1192 v1194
  let v1181 : BitVec 32 := Scalar.divsi v1180 c8_i32_561
  let c1_i32_567 : BitVec 32 := 1#32
  let v1196 : BitVec 32 := Scalar.subi v1181 c1_i32_567
  let v1197 : BitVec 32 := Scalar.select v1195 v1196 v1181
  let v1206 : Index := Scalar.indexCast v1197
  let c0_571 : Index := 0#32
  let c0_572 : Index := 0#32
  ![v1206.toNat, 0, 0]

def k1_chk29 (v1180 : BitVec 32) : Prop :=
  (∀ a, (k1_off29 v1180) a + S1x8x128.size a ≤ S1250x8x128.size a)
instance k1_chk29.dec : ∀ (v1180 : BitVec 32), Decidable (k1_chk29 v1180) := fun v1180 => decidable_of_iff' _ (Iff.of_eq (k1_chk29.eq_1 v1180))
theorem k1_off29_inb : ∀ (v1180 : BitVec 32) (k1_hw29 : k1_chk29 v1180), ∀ a, (k1_off29 v1180) a + S1x8x128.size a ≤ S1250x8x128.size a := fun v1180 k1_hw29 => k1_hw29

def k1_off30 (v1222 : BitVec 32) : Fin 3 → Nat :=
  let c0_i32_582 : BitVec 32 := 0#32
  let v1224 : BitVec 1 := Scalar.cmpi .sgt v1222 c0_i32_582
  let v1225 : BitVec 32 := Scalar.extui v1224
  let c0_i32_583 : BitVec 32 := 0#32
  let v1226 : BitVec 1 := Scalar.cmpi .slt v1222 c0_i32_583
  let v1227 : BitVec 32 := Scalar.extui v1226
  let v1228 : BitVec 32 := Scalar.subi v1225 v1227
  let c8_i32_581 : BitVec 32 := 8#32
  let c0_i32_584 : BitVec 32 := 0#32
  let v1229 : BitVec 1 := Scalar.cmpi .sgt c8_i32_581 c0_i32_584
  let v1230 : BitVec 32 := Scalar.extui v1229
  let c0_i32_585 : BitVec 32 := 0#32
  let v1231 : BitVec 1 := Scalar.cmpi .slt c8_i32_581 c0_i32_585
  let v1232 : BitVec 32 := Scalar.extui v1231
  let v1233 : BitVec 32 := Scalar.subi v1230 v1232
  let v1234 : BitVec 1 := Scalar.cmpi .ne v1228 v1233
  let v1235 : BitVec 32 := Scalar.remsi v1222 c8_i32_581
  let c0_i32_586 : BitVec 32 := 0#32
  let v1236 : BitVec 1 := Scalar.cmpi .ne v1235 c0_i32_586
  let v1237 : BitVec 1 := Scalar.andi v1234 v1236
  let v1223 : BitVec 32 := Scalar.divsi v1222 c8_i32_581
  let c1_i32_587 : BitVec 32 := 1#32
  let v1238 : BitVec 32 := Scalar.subi v1223 c1_i32_587
  let v1239 : BitVec 32 := Scalar.select v1237 v1238 v1223
  let v1248 : Index := Scalar.indexCast v1239
  let c0_591 : Index := 0#32
  let c0_592 : Index := 0#32
  ![v1248.toNat, 0, 0]

def k1_chk30 (v1222 : BitVec 32) : Prop :=
  (∀ a, (k1_off30 v1222) a + S1x8x128.size a ≤ S1250x8x128.size a)
instance k1_chk30.dec : ∀ (v1222 : BitVec 32), Decidable (k1_chk30 v1222) := fun v1222 => decidable_of_iff' _ (Iff.of_eq (k1_chk30.eq_1 v1222))
theorem k1_off30_inb : ∀ (v1222 : BitVec 32) (k1_hw30 : k1_chk30 v1222), ∀ a, (k1_off30 v1222) a + S1x8x128.size a ≤ S1250x8x128.size a := fun v1222 k1_hw30 => k1_hw30

def k1_off31 (v1264 : BitVec 32) : Fin 3 → Nat :=
  let c0_i32_602 : BitVec 32 := 0#32
  let v1266 : BitVec 1 := Scalar.cmpi .sgt v1264 c0_i32_602
  let v1267 : BitVec 32 := Scalar.extui v1266
  let c0_i32_603 : BitVec 32 := 0#32
  let v1268 : BitVec 1 := Scalar.cmpi .slt v1264 c0_i32_603
  let v1269 : BitVec 32 := Scalar.extui v1268
  let v1270 : BitVec 32 := Scalar.subi v1267 v1269
  let c8_i32_601 : BitVec 32 := 8#32
  let c0_i32_604 : BitVec 32 := 0#32
  let v1271 : BitVec 1 := Scalar.cmpi .sgt c8_i32_601 c0_i32_604
  let v1272 : BitVec 32 := Scalar.extui v1271
  let c0_i32_605 : BitVec 32 := 0#32
  let v1273 : BitVec 1 := Scalar.cmpi .slt c8_i32_601 c0_i32_605
  let v1274 : BitVec 32 := Scalar.extui v1273
  let v1275 : BitVec 32 := Scalar.subi v1272 v1274
  let v1276 : BitVec 1 := Scalar.cmpi .ne v1270 v1275
  let v1277 : BitVec 32 := Scalar.remsi v1264 c8_i32_601
  let c0_i32_606 : BitVec 32 := 0#32
  let v1278 : BitVec 1 := Scalar.cmpi .ne v1277 c0_i32_606
  let v1279 : BitVec 1 := Scalar.andi v1276 v1278
  let v1265 : BitVec 32 := Scalar.divsi v1264 c8_i32_601
  let c1_i32_607 : BitVec 32 := 1#32
  let v1280 : BitVec 32 := Scalar.subi v1265 c1_i32_607
  let v1281 : BitVec 32 := Scalar.select v1279 v1280 v1265
  let v1290 : Index := Scalar.indexCast v1281
  let c0_611 : Index := 0#32
  let c0_612 : Index := 0#32
  ![v1290.toNat, 0, 0]

def k1_chk31 (v1264 : BitVec 32) : Prop :=
  (∀ a, (k1_off31 v1264) a + S1x8x128.size a ≤ S1250x8x128.size a)
instance k1_chk31.dec : ∀ (v1264 : BitVec 32), Decidable (k1_chk31 v1264) := fun v1264 => decidable_of_iff' _ (Iff.of_eq (k1_chk31.eq_1 v1264))
theorem k1_off31_inb : ∀ (v1264 : BitVec 32) (k1_hw31 : k1_chk31 v1264), ∀ a, (k1_off31 v1264) a + S1x8x128.size a ≤ S1250x8x128.size a := fun v1264 k1_hw31 => k1_hw31

def k1_off32 (v1306 : BitVec 32) : Fin 3 → Nat :=
  let c0_i32_622 : BitVec 32 := 0#32
  let v1308 : BitVec 1 := Scalar.cmpi .sgt v1306 c0_i32_622
  let v1309 : BitVec 32 := Scalar.extui v1308
  let c0_i32_623 : BitVec 32 := 0#32
  let v1310 : BitVec 1 := Scalar.cmpi .slt v1306 c0_i32_623
  let v1311 : BitVec 32 := Scalar.extui v1310
  let v1312 : BitVec 32 := Scalar.subi v1309 v1311
  let c8_i32_621 : BitVec 32 := 8#32
  let c0_i32_624 : BitVec 32 := 0#32
  let v1313 : BitVec 1 := Scalar.cmpi .sgt c8_i32_621 c0_i32_624
  let v1314 : BitVec 32 := Scalar.extui v1313
  let c0_i32_625 : BitVec 32 := 0#32
  let v1315 : BitVec 1 := Scalar.cmpi .slt c8_i32_621 c0_i32_625
  let v1316 : BitVec 32 := Scalar.extui v1315
  let v1317 : BitVec 32 := Scalar.subi v1314 v1316
  let v1318 : BitVec 1 := Scalar.cmpi .ne v1312 v1317
  let v1319 : BitVec 32 := Scalar.remsi v1306 c8_i32_621
  let c0_i32_626 : BitVec 32 := 0#32
  let v1320 : BitVec 1 := Scalar.cmpi .ne v1319 c0_i32_626
  let v1321 : BitVec 1 := Scalar.andi v1318 v1320
  let v1307 : BitVec 32 := Scalar.divsi v1306 c8_i32_621
  let c1_i32_627 : BitVec 32 := 1#32
  let v1322 : BitVec 32 := Scalar.subi v1307 c1_i32_627
  let v1323 : BitVec 32 := Scalar.select v1321 v1322 v1307
  let v1332 : Index := Scalar.indexCast v1323
  let c0_631 : Index := 0#32
  let c0_632 : Index := 0#32
  ![v1332.toNat, 0, 0]

def k1_chk32 (v1306 : BitVec 32) : Prop :=
  (∀ a, (k1_off32 v1306) a + S1x8x128.size a ≤ S1250x8x128.size a)
instance k1_chk32.dec : ∀ (v1306 : BitVec 32), Decidable (k1_chk32 v1306) := fun v1306 => decidable_of_iff' _ (Iff.of_eq (k1_chk32.eq_1 v1306))
theorem k1_off32_inb : ∀ (v1306 : BitVec 32) (k1_hw32 : k1_chk32 v1306), ∀ a, (k1_off32 v1306) a + S1x8x128.size a ≤ S1250x8x128.size a := fun v1306 k1_hw32 => k1_hw32

def k1_off33 (v1348 : BitVec 32) : Fin 3 → Nat :=
  let c0_i32_642 : BitVec 32 := 0#32
  let v1350 : BitVec 1 := Scalar.cmpi .sgt v1348 c0_i32_642
  let v1351 : BitVec 32 := Scalar.extui v1350
  let c0_i32_643 : BitVec 32 := 0#32
  let v1352 : BitVec 1 := Scalar.cmpi .slt v1348 c0_i32_643
  let v1353 : BitVec 32 := Scalar.extui v1352
  let v1354 : BitVec 32 := Scalar.subi v1351 v1353
  let c8_i32_641 : BitVec 32 := 8#32
  let c0_i32_644 : BitVec 32 := 0#32
  let v1355 : BitVec 1 := Scalar.cmpi .sgt c8_i32_641 c0_i32_644
  let v1356 : BitVec 32 := Scalar.extui v1355
  let c0_i32_645 : BitVec 32 := 0#32
  let v1357 : BitVec 1 := Scalar.cmpi .slt c8_i32_641 c0_i32_645
  let v1358 : BitVec 32 := Scalar.extui v1357
  let v1359 : BitVec 32 := Scalar.subi v1356 v1358
  let v1360 : BitVec 1 := Scalar.cmpi .ne v1354 v1359
  let v1361 : BitVec 32 := Scalar.remsi v1348 c8_i32_641
  let c0_i32_646 : BitVec 32 := 0#32
  let v1362 : BitVec 1 := Scalar.cmpi .ne v1361 c0_i32_646
  let v1363 : BitVec 1 := Scalar.andi v1360 v1362
  let v1349 : BitVec 32 := Scalar.divsi v1348 c8_i32_641
  let c1_i32_647 : BitVec 32 := 1#32
  let v1364 : BitVec 32 := Scalar.subi v1349 c1_i32_647
  let v1365 : BitVec 32 := Scalar.select v1363 v1364 v1349
  let v1374 : Index := Scalar.indexCast v1365
  let c0_651 : Index := 0#32
  let c0_652 : Index := 0#32
  ![v1374.toNat, 0, 0]

def k1_chk33 (v1348 : BitVec 32) : Prop :=
  (∀ a, (k1_off33 v1348) a + S1x8x128.size a ≤ S1250x8x128.size a)
instance k1_chk33.dec : ∀ (v1348 : BitVec 32), Decidable (k1_chk33 v1348) := fun v1348 => decidable_of_iff' _ (Iff.of_eq (k1_chk33.eq_1 v1348))
theorem k1_off33_inb : ∀ (v1348 : BitVec 32) (k1_hw33 : k1_chk33 v1348), ∀ a, (k1_off33 v1348) a + S1x8x128.size a ≤ S1250x8x128.size a := fun v1348 k1_hw33 => k1_hw33

def k1_off34 (v1390 : BitVec 32) : Fin 3 → Nat :=
  let c0_i32_662 : BitVec 32 := 0#32
  let v1392 : BitVec 1 := Scalar.cmpi .sgt v1390 c0_i32_662
  let v1393 : BitVec 32 := Scalar.extui v1392
  let c0_i32_663 : BitVec 32 := 0#32
  let v1394 : BitVec 1 := Scalar.cmpi .slt v1390 c0_i32_663
  let v1395 : BitVec 32 := Scalar.extui v1394
  let v1396 : BitVec 32 := Scalar.subi v1393 v1395
  let c8_i32_661 : BitVec 32 := 8#32
  let c0_i32_664 : BitVec 32 := 0#32
  let v1397 : BitVec 1 := Scalar.cmpi .sgt c8_i32_661 c0_i32_664
  let v1398 : BitVec 32 := Scalar.extui v1397
  let c0_i32_665 : BitVec 32 := 0#32
  let v1399 : BitVec 1 := Scalar.cmpi .slt c8_i32_661 c0_i32_665
  let v1400 : BitVec 32 := Scalar.extui v1399
  let v1401 : BitVec 32 := Scalar.subi v1398 v1400
  let v1402 : BitVec 1 := Scalar.cmpi .ne v1396 v1401
  let v1403 : BitVec 32 := Scalar.remsi v1390 c8_i32_661
  let c0_i32_666 : BitVec 32 := 0#32
  let v1404 : BitVec 1 := Scalar.cmpi .ne v1403 c0_i32_666
  let v1405 : BitVec 1 := Scalar.andi v1402 v1404
  let v1391 : BitVec 32 := Scalar.divsi v1390 c8_i32_661
  let c1_i32_667 : BitVec 32 := 1#32
  let v1406 : BitVec 32 := Scalar.subi v1391 c1_i32_667
  let v1407 : BitVec 32 := Scalar.select v1405 v1406 v1391
  let v1416 : Index := Scalar.indexCast v1407
  let c0_671 : Index := 0#32
  let c0_672 : Index := 0#32
  ![v1416.toNat, 0, 0]

def k1_chk34 (v1390 : BitVec 32) : Prop :=
  (∀ a, (k1_off34 v1390) a + S1x8x128.size a ≤ S1250x8x128.size a)
instance k1_chk34.dec : ∀ (v1390 : BitVec 32), Decidable (k1_chk34 v1390) := fun v1390 => decidable_of_iff' _ (Iff.of_eq (k1_chk34.eq_1 v1390))
theorem k1_off34_inb : ∀ (v1390 : BitVec 32) (k1_hw34 : k1_chk34 v1390), ∀ a, (k1_off34 v1390) a + S1x8x128.size a ≤ S1250x8x128.size a := fun v1390 k1_hw34 => k1_hw34

def k1_off35 (v1432 : BitVec 32) : Fin 3 → Nat :=
  let c0_i32_682 : BitVec 32 := 0#32
  let v1434 : BitVec 1 := Scalar.cmpi .sgt v1432 c0_i32_682
  let v1435 : BitVec 32 := Scalar.extui v1434
  let c0_i32_683 : BitVec 32 := 0#32
  let v1436 : BitVec 1 := Scalar.cmpi .slt v1432 c0_i32_683
  let v1437 : BitVec 32 := Scalar.extui v1436
  let v1438 : BitVec 32 := Scalar.subi v1435 v1437
  let c8_i32_681 : BitVec 32 := 8#32
  let c0_i32_684 : BitVec 32 := 0#32
  let v1439 : BitVec 1 := Scalar.cmpi .sgt c8_i32_681 c0_i32_684
  let v1440 : BitVec 32 := Scalar.extui v1439
  let c0_i32_685 : BitVec 32 := 0#32
  let v1441 : BitVec 1 := Scalar.cmpi .slt c8_i32_681 c0_i32_685
  let v1442 : BitVec 32 := Scalar.extui v1441
  let v1443 : BitVec 32 := Scalar.subi v1440 v1442
  let v1444 : BitVec 1 := Scalar.cmpi .ne v1438 v1443
  let v1445 : BitVec 32 := Scalar.remsi v1432 c8_i32_681
  let c0_i32_686 : BitVec 32 := 0#32
  let v1446 : BitVec 1 := Scalar.cmpi .ne v1445 c0_i32_686
  let v1447 : BitVec 1 := Scalar.andi v1444 v1446
  let v1433 : BitVec 32 := Scalar.divsi v1432 c8_i32_681
  let c1_i32_687 : BitVec 32 := 1#32
  let v1448 : BitVec 32 := Scalar.subi v1433 c1_i32_687
  let v1449 : BitVec 32 := Scalar.select v1447 v1448 v1433
  let v1458 : Index := Scalar.indexCast v1449
  let c0_691 : Index := 0#32
  let c0_692 : Index := 0#32
  ![v1458.toNat, 0, 0]

def k1_chk35 (v1432 : BitVec 32) : Prop :=
  (∀ a, (k1_off35 v1432) a + S1x8x128.size a ≤ S1250x8x128.size a)
instance k1_chk35.dec : ∀ (v1432 : BitVec 32), Decidable (k1_chk35 v1432) := fun v1432 => decidable_of_iff' _ (Iff.of_eq (k1_chk35.eq_1 v1432))
theorem k1_off35_inb : ∀ (v1432 : BitVec 32) (k1_hw35 : k1_chk35 v1432), ∀ a, (k1_off35 v1432) a + S1x8x128.size a ≤ S1250x8x128.size a := fun v1432 k1_hw35 => k1_hw35

def k1_off36 (v1474 : BitVec 32) : Fin 3 → Nat :=
  let c0_i32_702 : BitVec 32 := 0#32
  let v1476 : BitVec 1 := Scalar.cmpi .sgt v1474 c0_i32_702
  let v1477 : BitVec 32 := Scalar.extui v1476
  let c0_i32_703 : BitVec 32 := 0#32
  let v1478 : BitVec 1 := Scalar.cmpi .slt v1474 c0_i32_703
  let v1479 : BitVec 32 := Scalar.extui v1478
  let v1480 : BitVec 32 := Scalar.subi v1477 v1479
  let c8_i32_701 : BitVec 32 := 8#32
  let c0_i32_704 : BitVec 32 := 0#32
  let v1481 : BitVec 1 := Scalar.cmpi .sgt c8_i32_701 c0_i32_704
  let v1482 : BitVec 32 := Scalar.extui v1481
  let c0_i32_705 : BitVec 32 := 0#32
  let v1483 : BitVec 1 := Scalar.cmpi .slt c8_i32_701 c0_i32_705
  let v1484 : BitVec 32 := Scalar.extui v1483
  let v1485 : BitVec 32 := Scalar.subi v1482 v1484
  let v1486 : BitVec 1 := Scalar.cmpi .ne v1480 v1485
  let v1487 : BitVec 32 := Scalar.remsi v1474 c8_i32_701
  let c0_i32_706 : BitVec 32 := 0#32
  let v1488 : BitVec 1 := Scalar.cmpi .ne v1487 c0_i32_706
  let v1489 : BitVec 1 := Scalar.andi v1486 v1488
  let v1475 : BitVec 32 := Scalar.divsi v1474 c8_i32_701
  let c1_i32_707 : BitVec 32 := 1#32
  let v1490 : BitVec 32 := Scalar.subi v1475 c1_i32_707
  let v1491 : BitVec 32 := Scalar.select v1489 v1490 v1475
  let v1500 : Index := Scalar.indexCast v1491
  let c0_711 : Index := 0#32
  let c0_712 : Index := 0#32
  ![v1500.toNat, 0, 0]

def k1_chk36 (v1474 : BitVec 32) : Prop :=
  (∀ a, (k1_off36 v1474) a + S1x8x128.size a ≤ S1250x8x128.size a)
instance k1_chk36.dec : ∀ (v1474 : BitVec 32), Decidable (k1_chk36 v1474) := fun v1474 => decidable_of_iff' _ (Iff.of_eq (k1_chk36.eq_1 v1474))
theorem k1_off36_inb : ∀ (v1474 : BitVec 32) (k1_hw36 : k1_chk36 v1474), ∀ a, (k1_off36 v1474) a + S1x8x128.size a ≤ S1250x8x128.size a := fun v1474 k1_hw36 => k1_hw36

def k1_off37 (v1516 : BitVec 32) : Fin 3 → Nat :=
  let c0_i32_722 : BitVec 32 := 0#32
  let v1518 : BitVec 1 := Scalar.cmpi .sgt v1516 c0_i32_722
  let v1519 : BitVec 32 := Scalar.extui v1518
  let c0_i32_723 : BitVec 32 := 0#32
  let v1520 : BitVec 1 := Scalar.cmpi .slt v1516 c0_i32_723
  let v1521 : BitVec 32 := Scalar.extui v1520
  let v1522 : BitVec 32 := Scalar.subi v1519 v1521
  let c8_i32_721 : BitVec 32 := 8#32
  let c0_i32_724 : BitVec 32 := 0#32
  let v1523 : BitVec 1 := Scalar.cmpi .sgt c8_i32_721 c0_i32_724
  let v1524 : BitVec 32 := Scalar.extui v1523
  let c0_i32_725 : BitVec 32 := 0#32
  let v1525 : BitVec 1 := Scalar.cmpi .slt c8_i32_721 c0_i32_725
  let v1526 : BitVec 32 := Scalar.extui v1525
  let v1527 : BitVec 32 := Scalar.subi v1524 v1526
  let v1528 : BitVec 1 := Scalar.cmpi .ne v1522 v1527
  let v1529 : BitVec 32 := Scalar.remsi v1516 c8_i32_721
  let c0_i32_726 : BitVec 32 := 0#32
  let v1530 : BitVec 1 := Scalar.cmpi .ne v1529 c0_i32_726
  let v1531 : BitVec 1 := Scalar.andi v1528 v1530
  let v1517 : BitVec 32 := Scalar.divsi v1516 c8_i32_721
  let c1_i32_727 : BitVec 32 := 1#32
  let v1532 : BitVec 32 := Scalar.subi v1517 c1_i32_727
  let v1533 : BitVec 32 := Scalar.select v1531 v1532 v1517
  let v1542 : Index := Scalar.indexCast v1533
  let c0_731 : Index := 0#32
  let c0_732 : Index := 0#32
  ![v1542.toNat, 0, 0]

def k1_chk37 (v1516 : BitVec 32) : Prop :=
  (∀ a, (k1_off37 v1516) a + S1x8x128.size a ≤ S1250x8x128.size a)
instance k1_chk37.dec : ∀ (v1516 : BitVec 32), Decidable (k1_chk37 v1516) := fun v1516 => decidable_of_iff' _ (Iff.of_eq (k1_chk37.eq_1 v1516))
theorem k1_off37_inb : ∀ (v1516 : BitVec 32) (k1_hw37 : k1_chk37 v1516), ∀ a, (k1_off37 v1516) a + S1x8x128.size a ≤ S1250x8x128.size a := fun v1516 k1_hw37 => k1_hw37

def k1_off38 (v1558 : BitVec 32) : Fin 3 → Nat :=
  let c0_i32_742 : BitVec 32 := 0#32
  let v1560 : BitVec 1 := Scalar.cmpi .sgt v1558 c0_i32_742
  let v1561 : BitVec 32 := Scalar.extui v1560
  let c0_i32_743 : BitVec 32 := 0#32
  let v1562 : BitVec 1 := Scalar.cmpi .slt v1558 c0_i32_743
  let v1563 : BitVec 32 := Scalar.extui v1562
  let v1564 : BitVec 32 := Scalar.subi v1561 v1563
  let c8_i32_741 : BitVec 32 := 8#32
  let c0_i32_744 : BitVec 32 := 0#32
  let v1565 : BitVec 1 := Scalar.cmpi .sgt c8_i32_741 c0_i32_744
  let v1566 : BitVec 32 := Scalar.extui v1565
  let c0_i32_745 : BitVec 32 := 0#32
  let v1567 : BitVec 1 := Scalar.cmpi .slt c8_i32_741 c0_i32_745
  let v1568 : BitVec 32 := Scalar.extui v1567
  let v1569 : BitVec 32 := Scalar.subi v1566 v1568
  let v1570 : BitVec 1 := Scalar.cmpi .ne v1564 v1569
  let v1571 : BitVec 32 := Scalar.remsi v1558 c8_i32_741
  let c0_i32_746 : BitVec 32 := 0#32
  let v1572 : BitVec 1 := Scalar.cmpi .ne v1571 c0_i32_746
  let v1573 : BitVec 1 := Scalar.andi v1570 v1572
  let v1559 : BitVec 32 := Scalar.divsi v1558 c8_i32_741
  let c1_i32_747 : BitVec 32 := 1#32
  let v1574 : BitVec 32 := Scalar.subi v1559 c1_i32_747
  let v1575 : BitVec 32 := Scalar.select v1573 v1574 v1559
  let v1584 : Index := Scalar.indexCast v1575
  let c0_751 : Index := 0#32
  let c0_752 : Index := 0#32
  ![v1584.toNat, 0, 0]

def k1_chk38 (v1558 : BitVec 32) : Prop :=
  (∀ a, (k1_off38 v1558) a + S1x8x128.size a ≤ S1250x8x128.size a)
instance k1_chk38.dec : ∀ (v1558 : BitVec 32), Decidable (k1_chk38 v1558) := fun v1558 => decidable_of_iff' _ (Iff.of_eq (k1_chk38.eq_1 v1558))
theorem k1_off38_inb : ∀ (v1558 : BitVec 32) (k1_hw38 : k1_chk38 v1558), ∀ a, (k1_off38 v1558) a + S1x8x128.size a ≤ S1250x8x128.size a := fun v1558 k1_hw38 => k1_hw38

def k1_off39 (v1600 : BitVec 32) : Fin 3 → Nat :=
  let c0_i32_762 : BitVec 32 := 0#32
  let v1602 : BitVec 1 := Scalar.cmpi .sgt v1600 c0_i32_762
  let v1603 : BitVec 32 := Scalar.extui v1602
  let c0_i32_763 : BitVec 32 := 0#32
  let v1604 : BitVec 1 := Scalar.cmpi .slt v1600 c0_i32_763
  let v1605 : BitVec 32 := Scalar.extui v1604
  let v1606 : BitVec 32 := Scalar.subi v1603 v1605
  let c8_i32_761 : BitVec 32 := 8#32
  let c0_i32_764 : BitVec 32 := 0#32
  let v1607 : BitVec 1 := Scalar.cmpi .sgt c8_i32_761 c0_i32_764
  let v1608 : BitVec 32 := Scalar.extui v1607
  let c0_i32_765 : BitVec 32 := 0#32
  let v1609 : BitVec 1 := Scalar.cmpi .slt c8_i32_761 c0_i32_765
  let v1610 : BitVec 32 := Scalar.extui v1609
  let v1611 : BitVec 32 := Scalar.subi v1608 v1610
  let v1612 : BitVec 1 := Scalar.cmpi .ne v1606 v1611
  let v1613 : BitVec 32 := Scalar.remsi v1600 c8_i32_761
  let c0_i32_766 : BitVec 32 := 0#32
  let v1614 : BitVec 1 := Scalar.cmpi .ne v1613 c0_i32_766
  let v1615 : BitVec 1 := Scalar.andi v1612 v1614
  let v1601 : BitVec 32 := Scalar.divsi v1600 c8_i32_761
  let c1_i32_767 : BitVec 32 := 1#32
  let v1616 : BitVec 32 := Scalar.subi v1601 c1_i32_767
  let v1617 : BitVec 32 := Scalar.select v1615 v1616 v1601
  let v1626 : Index := Scalar.indexCast v1617
  let c0_771 : Index := 0#32
  let c0_772 : Index := 0#32
  ![v1626.toNat, 0, 0]

def k1_chk39 (v1600 : BitVec 32) : Prop :=
  (∀ a, (k1_off39 v1600) a + S1x8x128.size a ≤ S1250x8x128.size a)
instance k1_chk39.dec : ∀ (v1600 : BitVec 32), Decidable (k1_chk39 v1600) := fun v1600 => decidable_of_iff' _ (Iff.of_eq (k1_chk39.eq_1 v1600))
theorem k1_off39_inb : ∀ (v1600 : BitVec 32) (k1_hw39 : k1_chk39 v1600), ∀ a, (k1_off39 v1600) a + S1x8x128.size a ≤ S1250x8x128.size a := fun v1600 k1_hw39 => k1_hw39

def k1_off40 (v1642 : BitVec 32) : Fin 3 → Nat :=
  let c0_i32_782 : BitVec 32 := 0#32
  let v1644 : BitVec 1 := Scalar.cmpi .sgt v1642 c0_i32_782
  let v1645 : BitVec 32 := Scalar.extui v1644
  let c0_i32_783 : BitVec 32 := 0#32
  let v1646 : BitVec 1 := Scalar.cmpi .slt v1642 c0_i32_783
  let v1647 : BitVec 32 := Scalar.extui v1646
  let v1648 : BitVec 32 := Scalar.subi v1645 v1647
  let c8_i32_781 : BitVec 32 := 8#32
  let c0_i32_784 : BitVec 32 := 0#32
  let v1649 : BitVec 1 := Scalar.cmpi .sgt c8_i32_781 c0_i32_784
  let v1650 : BitVec 32 := Scalar.extui v1649
  let c0_i32_785 : BitVec 32 := 0#32
  let v1651 : BitVec 1 := Scalar.cmpi .slt c8_i32_781 c0_i32_785
  let v1652 : BitVec 32 := Scalar.extui v1651
  let v1653 : BitVec 32 := Scalar.subi v1650 v1652
  let v1654 : BitVec 1 := Scalar.cmpi .ne v1648 v1653
  let v1655 : BitVec 32 := Scalar.remsi v1642 c8_i32_781
  let c0_i32_786 : BitVec 32 := 0#32
  let v1656 : BitVec 1 := Scalar.cmpi .ne v1655 c0_i32_786
  let v1657 : BitVec 1 := Scalar.andi v1654 v1656
  let v1643 : BitVec 32 := Scalar.divsi v1642 c8_i32_781
  let c1_i32_787 : BitVec 32 := 1#32
  let v1658 : BitVec 32 := Scalar.subi v1643 c1_i32_787
  let v1659 : BitVec 32 := Scalar.select v1657 v1658 v1643
  let v1668 : Index := Scalar.indexCast v1659
  let c0_791 : Index := 0#32
  let c0_792 : Index := 0#32
  ![v1668.toNat, 0, 0]

def k1_chk40 (v1642 : BitVec 32) : Prop :=
  (∀ a, (k1_off40 v1642) a + S1x8x128.size a ≤ S1250x8x128.size a)
instance k1_chk40.dec : ∀ (v1642 : BitVec 32), Decidable (k1_chk40 v1642) := fun v1642 => decidable_of_iff' _ (Iff.of_eq (k1_chk40.eq_1 v1642))
theorem k1_off40_inb : ∀ (v1642 : BitVec 32) (k1_hw40 : k1_chk40 v1642), ∀ a, (k1_off40 v1642) a + S1x8x128.size a ≤ S1250x8x128.size a := fun v1642 k1_hw40 => k1_hw40

def k1_off41 (v1684 : BitVec 32) : Fin 3 → Nat :=
  let c0_i32_802 : BitVec 32 := 0#32
  let v1686 : BitVec 1 := Scalar.cmpi .sgt v1684 c0_i32_802
  let v1687 : BitVec 32 := Scalar.extui v1686
  let c0_i32_803 : BitVec 32 := 0#32
  let v1688 : BitVec 1 := Scalar.cmpi .slt v1684 c0_i32_803
  let v1689 : BitVec 32 := Scalar.extui v1688
  let v1690 : BitVec 32 := Scalar.subi v1687 v1689
  let c8_i32_801 : BitVec 32 := 8#32
  let c0_i32_804 : BitVec 32 := 0#32
  let v1691 : BitVec 1 := Scalar.cmpi .sgt c8_i32_801 c0_i32_804
  let v1692 : BitVec 32 := Scalar.extui v1691
  let c0_i32_805 : BitVec 32 := 0#32
  let v1693 : BitVec 1 := Scalar.cmpi .slt c8_i32_801 c0_i32_805
  let v1694 : BitVec 32 := Scalar.extui v1693
  let v1695 : BitVec 32 := Scalar.subi v1692 v1694
  let v1696 : BitVec 1 := Scalar.cmpi .ne v1690 v1695
  let v1697 : BitVec 32 := Scalar.remsi v1684 c8_i32_801
  let c0_i32_806 : BitVec 32 := 0#32
  let v1698 : BitVec 1 := Scalar.cmpi .ne v1697 c0_i32_806
  let v1699 : BitVec 1 := Scalar.andi v1696 v1698
  let v1685 : BitVec 32 := Scalar.divsi v1684 c8_i32_801
  let c1_i32_807 : BitVec 32 := 1#32
  let v1700 : BitVec 32 := Scalar.subi v1685 c1_i32_807
  let v1701 : BitVec 32 := Scalar.select v1699 v1700 v1685
  let v1710 : Index := Scalar.indexCast v1701
  let c0_811 : Index := 0#32
  let c0_812 : Index := 0#32
  ![v1710.toNat, 0, 0]

def k1_chk41 (v1684 : BitVec 32) : Prop :=
  (∀ a, (k1_off41 v1684) a + S1x8x128.size a ≤ S1250x8x128.size a)
instance k1_chk41.dec : ∀ (v1684 : BitVec 32), Decidable (k1_chk41 v1684) := fun v1684 => decidable_of_iff' _ (Iff.of_eq (k1_chk41.eq_1 v1684))
theorem k1_off41_inb : ∀ (v1684 : BitVec 32) (k1_hw41 : k1_chk41 v1684), ∀ a, (k1_off41 v1684) a + S1x8x128.size a ≤ S1250x8x128.size a := fun v1684 k1_hw41 => k1_hw41

def k1_off42 (v1726 : BitVec 32) : Fin 3 → Nat :=
  let c0_i32_822 : BitVec 32 := 0#32
  let v1728 : BitVec 1 := Scalar.cmpi .sgt v1726 c0_i32_822
  let v1729 : BitVec 32 := Scalar.extui v1728
  let c0_i32_823 : BitVec 32 := 0#32
  let v1730 : BitVec 1 := Scalar.cmpi .slt v1726 c0_i32_823
  let v1731 : BitVec 32 := Scalar.extui v1730
  let v1732 : BitVec 32 := Scalar.subi v1729 v1731
  let c8_i32_821 : BitVec 32 := 8#32
  let c0_i32_824 : BitVec 32 := 0#32
  let v1733 : BitVec 1 := Scalar.cmpi .sgt c8_i32_821 c0_i32_824
  let v1734 : BitVec 32 := Scalar.extui v1733
  let c0_i32_825 : BitVec 32 := 0#32
  let v1735 : BitVec 1 := Scalar.cmpi .slt c8_i32_821 c0_i32_825
  let v1736 : BitVec 32 := Scalar.extui v1735
  let v1737 : BitVec 32 := Scalar.subi v1734 v1736
  let v1738 : BitVec 1 := Scalar.cmpi .ne v1732 v1737
  let v1739 : BitVec 32 := Scalar.remsi v1726 c8_i32_821
  let c0_i32_826 : BitVec 32 := 0#32
  let v1740 : BitVec 1 := Scalar.cmpi .ne v1739 c0_i32_826
  let v1741 : BitVec 1 := Scalar.andi v1738 v1740
  let v1727 : BitVec 32 := Scalar.divsi v1726 c8_i32_821
  let c1_i32_827 : BitVec 32 := 1#32
  let v1742 : BitVec 32 := Scalar.subi v1727 c1_i32_827
  let v1743 : BitVec 32 := Scalar.select v1741 v1742 v1727
  let v1752 : Index := Scalar.indexCast v1743
  let c0_831 : Index := 0#32
  let c0_832 : Index := 0#32
  ![v1752.toNat, 0, 0]

def k1_chk42 (v1726 : BitVec 32) : Prop :=
  (∀ a, (k1_off42 v1726) a + S1x8x128.size a ≤ S1250x8x128.size a)
instance k1_chk42.dec : ∀ (v1726 : BitVec 32), Decidable (k1_chk42 v1726) := fun v1726 => decidable_of_iff' _ (Iff.of_eq (k1_chk42.eq_1 v1726))
theorem k1_off42_inb : ∀ (v1726 : BitVec 32) (k1_hw42 : k1_chk42 v1726), ∀ a, (k1_off42 v1726) a + S1x8x128.size a ≤ S1250x8x128.size a := fun v1726 k1_hw42 => k1_hw42

def k1_off43 (v1768 : BitVec 32) : Fin 3 → Nat :=
  let c0_i32_842 : BitVec 32 := 0#32
  let v1770 : BitVec 1 := Scalar.cmpi .sgt v1768 c0_i32_842
  let v1771 : BitVec 32 := Scalar.extui v1770
  let c0_i32_843 : BitVec 32 := 0#32
  let v1772 : BitVec 1 := Scalar.cmpi .slt v1768 c0_i32_843
  let v1773 : BitVec 32 := Scalar.extui v1772
  let v1774 : BitVec 32 := Scalar.subi v1771 v1773
  let c8_i32_841 : BitVec 32 := 8#32
  let c0_i32_844 : BitVec 32 := 0#32
  let v1775 : BitVec 1 := Scalar.cmpi .sgt c8_i32_841 c0_i32_844
  let v1776 : BitVec 32 := Scalar.extui v1775
  let c0_i32_845 : BitVec 32 := 0#32
  let v1777 : BitVec 1 := Scalar.cmpi .slt c8_i32_841 c0_i32_845
  let v1778 : BitVec 32 := Scalar.extui v1777
  let v1779 : BitVec 32 := Scalar.subi v1776 v1778
  let v1780 : BitVec 1 := Scalar.cmpi .ne v1774 v1779
  let v1781 : BitVec 32 := Scalar.remsi v1768 c8_i32_841
  let c0_i32_846 : BitVec 32 := 0#32
  let v1782 : BitVec 1 := Scalar.cmpi .ne v1781 c0_i32_846
  let v1783 : BitVec 1 := Scalar.andi v1780 v1782
  let v1769 : BitVec 32 := Scalar.divsi v1768 c8_i32_841
  let c1_i32_847 : BitVec 32 := 1#32
  let v1784 : BitVec 32 := Scalar.subi v1769 c1_i32_847
  let v1785 : BitVec 32 := Scalar.select v1783 v1784 v1769
  let v1794 : Index := Scalar.indexCast v1785
  let c0_851 : Index := 0#32
  let c0_852 : Index := 0#32
  ![v1794.toNat, 0, 0]

def k1_chk43 (v1768 : BitVec 32) : Prop :=
  (∀ a, (k1_off43 v1768) a + S1x8x128.size a ≤ S1250x8x128.size a)
instance k1_chk43.dec : ∀ (v1768 : BitVec 32), Decidable (k1_chk43 v1768) := fun v1768 => decidable_of_iff' _ (Iff.of_eq (k1_chk43.eq_1 v1768))
theorem k1_off43_inb : ∀ (v1768 : BitVec 32) (k1_hw43 : k1_chk43 v1768), ∀ a, (k1_off43 v1768) a + S1x8x128.size a ≤ S1250x8x128.size a := fun v1768 k1_hw43 => k1_hw43

def k1_off44 (v1810 : BitVec 32) : Fin 3 → Nat :=
  let c0_i32_862 : BitVec 32 := 0#32
  let v1812 : BitVec 1 := Scalar.cmpi .sgt v1810 c0_i32_862
  let v1813 : BitVec 32 := Scalar.extui v1812
  let c0_i32_863 : BitVec 32 := 0#32
  let v1814 : BitVec 1 := Scalar.cmpi .slt v1810 c0_i32_863
  let v1815 : BitVec 32 := Scalar.extui v1814
  let v1816 : BitVec 32 := Scalar.subi v1813 v1815
  let c8_i32_861 : BitVec 32 := 8#32
  let c0_i32_864 : BitVec 32 := 0#32
  let v1817 : BitVec 1 := Scalar.cmpi .sgt c8_i32_861 c0_i32_864
  let v1818 : BitVec 32 := Scalar.extui v1817
  let c0_i32_865 : BitVec 32 := 0#32
  let v1819 : BitVec 1 := Scalar.cmpi .slt c8_i32_861 c0_i32_865
  let v1820 : BitVec 32 := Scalar.extui v1819
  let v1821 : BitVec 32 := Scalar.subi v1818 v1820
  let v1822 : BitVec 1 := Scalar.cmpi .ne v1816 v1821
  let v1823 : BitVec 32 := Scalar.remsi v1810 c8_i32_861
  let c0_i32_866 : BitVec 32 := 0#32
  let v1824 : BitVec 1 := Scalar.cmpi .ne v1823 c0_i32_866
  let v1825 : BitVec 1 := Scalar.andi v1822 v1824
  let v1811 : BitVec 32 := Scalar.divsi v1810 c8_i32_861
  let c1_i32_867 : BitVec 32 := 1#32
  let v1826 : BitVec 32 := Scalar.subi v1811 c1_i32_867
  let v1827 : BitVec 32 := Scalar.select v1825 v1826 v1811
  let v1836 : Index := Scalar.indexCast v1827
  let c0_871 : Index := 0#32
  let c0_872 : Index := 0#32
  ![v1836.toNat, 0, 0]

def k1_chk44 (v1810 : BitVec 32) : Prop :=
  (∀ a, (k1_off44 v1810) a + S1x8x128.size a ≤ S1250x8x128.size a)
instance k1_chk44.dec : ∀ (v1810 : BitVec 32), Decidable (k1_chk44 v1810) := fun v1810 => decidable_of_iff' _ (Iff.of_eq (k1_chk44.eq_1 v1810))
theorem k1_off44_inb : ∀ (v1810 : BitVec 32) (k1_hw44 : k1_chk44 v1810), ∀ a, (k1_off44 v1810) a + S1x8x128.size a ≤ S1250x8x128.size a := fun v1810 k1_hw44 => k1_hw44

def k1_off45 (v1852 : BitVec 32) : Fin 3 → Nat :=
  let c0_i32_882 : BitVec 32 := 0#32
  let v1854 : BitVec 1 := Scalar.cmpi .sgt v1852 c0_i32_882
  let v1855 : BitVec 32 := Scalar.extui v1854
  let c0_i32_883 : BitVec 32 := 0#32
  let v1856 : BitVec 1 := Scalar.cmpi .slt v1852 c0_i32_883
  let v1857 : BitVec 32 := Scalar.extui v1856
  let v1858 : BitVec 32 := Scalar.subi v1855 v1857
  let c8_i32_881 : BitVec 32 := 8#32
  let c0_i32_884 : BitVec 32 := 0#32
  let v1859 : BitVec 1 := Scalar.cmpi .sgt c8_i32_881 c0_i32_884
  let v1860 : BitVec 32 := Scalar.extui v1859
  let c0_i32_885 : BitVec 32 := 0#32
  let v1861 : BitVec 1 := Scalar.cmpi .slt c8_i32_881 c0_i32_885
  let v1862 : BitVec 32 := Scalar.extui v1861
  let v1863 : BitVec 32 := Scalar.subi v1860 v1862
  let v1864 : BitVec 1 := Scalar.cmpi .ne v1858 v1863
  let v1865 : BitVec 32 := Scalar.remsi v1852 c8_i32_881
  let c0_i32_886 : BitVec 32 := 0#32
  let v1866 : BitVec 1 := Scalar.cmpi .ne v1865 c0_i32_886
  let v1867 : BitVec 1 := Scalar.andi v1864 v1866
  let v1853 : BitVec 32 := Scalar.divsi v1852 c8_i32_881
  let c1_i32_887 : BitVec 32 := 1#32
  let v1868 : BitVec 32 := Scalar.subi v1853 c1_i32_887
  let v1869 : BitVec 32 := Scalar.select v1867 v1868 v1853
  let v1878 : Index := Scalar.indexCast v1869
  let c0_891 : Index := 0#32
  let c0_892 : Index := 0#32
  ![v1878.toNat, 0, 0]

def k1_chk45 (v1852 : BitVec 32) : Prop :=
  (∀ a, (k1_off45 v1852) a + S1x8x128.size a ≤ S1250x8x128.size a)
instance k1_chk45.dec : ∀ (v1852 : BitVec 32), Decidable (k1_chk45 v1852) := fun v1852 => decidable_of_iff' _ (Iff.of_eq (k1_chk45.eq_1 v1852))
theorem k1_off45_inb : ∀ (v1852 : BitVec 32) (k1_hw45 : k1_chk45 v1852), ∀ a, (k1_off45 v1852) a + S1x8x128.size a ≤ S1250x8x128.size a := fun v1852 k1_hw45 => k1_hw45

def k1_off46 (v1894 : BitVec 32) : Fin 3 → Nat :=
  let c0_i32_902 : BitVec 32 := 0#32
  let v1896 : BitVec 1 := Scalar.cmpi .sgt v1894 c0_i32_902
  let v1897 : BitVec 32 := Scalar.extui v1896
  let c0_i32_903 : BitVec 32 := 0#32
  let v1898 : BitVec 1 := Scalar.cmpi .slt v1894 c0_i32_903
  let v1899 : BitVec 32 := Scalar.extui v1898
  let v1900 : BitVec 32 := Scalar.subi v1897 v1899
  let c8_i32_901 : BitVec 32 := 8#32
  let c0_i32_904 : BitVec 32 := 0#32
  let v1901 : BitVec 1 := Scalar.cmpi .sgt c8_i32_901 c0_i32_904
  let v1902 : BitVec 32 := Scalar.extui v1901
  let c0_i32_905 : BitVec 32 := 0#32
  let v1903 : BitVec 1 := Scalar.cmpi .slt c8_i32_901 c0_i32_905
  let v1904 : BitVec 32 := Scalar.extui v1903
  let v1905 : BitVec 32 := Scalar.subi v1902 v1904
  let v1906 : BitVec 1 := Scalar.cmpi .ne v1900 v1905
  let v1907 : BitVec 32 := Scalar.remsi v1894 c8_i32_901
  let c0_i32_906 : BitVec 32 := 0#32
  let v1908 : BitVec 1 := Scalar.cmpi .ne v1907 c0_i32_906
  let v1909 : BitVec 1 := Scalar.andi v1906 v1908
  let v1895 : BitVec 32 := Scalar.divsi v1894 c8_i32_901
  let c1_i32_907 : BitVec 32 := 1#32
  let v1910 : BitVec 32 := Scalar.subi v1895 c1_i32_907
  let v1911 : BitVec 32 := Scalar.select v1909 v1910 v1895
  let v1920 : Index := Scalar.indexCast v1911
  let c0_911 : Index := 0#32
  let c0_912 : Index := 0#32
  ![v1920.toNat, 0, 0]

def k1_chk46 (v1894 : BitVec 32) : Prop :=
  (∀ a, (k1_off46 v1894) a + S1x8x128.size a ≤ S1250x8x128.size a)
instance k1_chk46.dec : ∀ (v1894 : BitVec 32), Decidable (k1_chk46 v1894) := fun v1894 => decidable_of_iff' _ (Iff.of_eq (k1_chk46.eq_1 v1894))
theorem k1_off46_inb : ∀ (v1894 : BitVec 32) (k1_hw46 : k1_chk46 v1894), ∀ a, (k1_off46 v1894) a + S1x8x128.size a ≤ S1250x8x128.size a := fun v1894 k1_hw46 => k1_hw46

def k1_off47 (v1936 : BitVec 32) : Fin 3 → Nat :=
  let c0_i32_922 : BitVec 32 := 0#32
  let v1938 : BitVec 1 := Scalar.cmpi .sgt v1936 c0_i32_922
  let v1939 : BitVec 32 := Scalar.extui v1938
  let c0_i32_923 : BitVec 32 := 0#32
  let v1940 : BitVec 1 := Scalar.cmpi .slt v1936 c0_i32_923
  let v1941 : BitVec 32 := Scalar.extui v1940
  let v1942 : BitVec 32 := Scalar.subi v1939 v1941
  let c8_i32_921 : BitVec 32 := 8#32
  let c0_i32_924 : BitVec 32 := 0#32
  let v1943 : BitVec 1 := Scalar.cmpi .sgt c8_i32_921 c0_i32_924
  let v1944 : BitVec 32 := Scalar.extui v1943
  let c0_i32_925 : BitVec 32 := 0#32
  let v1945 : BitVec 1 := Scalar.cmpi .slt c8_i32_921 c0_i32_925
  let v1946 : BitVec 32 := Scalar.extui v1945
  let v1947 : BitVec 32 := Scalar.subi v1944 v1946
  let v1948 : BitVec 1 := Scalar.cmpi .ne v1942 v1947
  let v1949 : BitVec 32 := Scalar.remsi v1936 c8_i32_921
  let c0_i32_926 : BitVec 32 := 0#32
  let v1950 : BitVec 1 := Scalar.cmpi .ne v1949 c0_i32_926
  let v1951 : BitVec 1 := Scalar.andi v1948 v1950
  let v1937 : BitVec 32 := Scalar.divsi v1936 c8_i32_921
  let c1_i32_927 : BitVec 32 := 1#32
  let v1952 : BitVec 32 := Scalar.subi v1937 c1_i32_927
  let v1953 : BitVec 32 := Scalar.select v1951 v1952 v1937
  let v1962 : Index := Scalar.indexCast v1953
  let c0_931 : Index := 0#32
  let c0_932 : Index := 0#32
  ![v1962.toNat, 0, 0]

def k1_chk47 (v1936 : BitVec 32) : Prop :=
  (∀ a, (k1_off47 v1936) a + S1x8x128.size a ≤ S1250x8x128.size a)
instance k1_chk47.dec : ∀ (v1936 : BitVec 32), Decidable (k1_chk47 v1936) := fun v1936 => decidable_of_iff' _ (Iff.of_eq (k1_chk47.eq_1 v1936))
theorem k1_off47_inb : ∀ (v1936 : BitVec 32) (k1_hw47 : k1_chk47 v1936), ∀ a, (k1_off47 v1936) a + S1x8x128.size a ≤ S1250x8x128.size a := fun v1936 k1_hw47 => k1_hw47

def k1_off48 (v1978 : BitVec 32) : Fin 3 → Nat :=
  let c0_i32_942 : BitVec 32 := 0#32
  let v1980 : BitVec 1 := Scalar.cmpi .sgt v1978 c0_i32_942
  let v1981 : BitVec 32 := Scalar.extui v1980
  let c0_i32_943 : BitVec 32 := 0#32
  let v1982 : BitVec 1 := Scalar.cmpi .slt v1978 c0_i32_943
  let v1983 : BitVec 32 := Scalar.extui v1982
  let v1984 : BitVec 32 := Scalar.subi v1981 v1983
  let c8_i32_941 : BitVec 32 := 8#32
  let c0_i32_944 : BitVec 32 := 0#32
  let v1985 : BitVec 1 := Scalar.cmpi .sgt c8_i32_941 c0_i32_944
  let v1986 : BitVec 32 := Scalar.extui v1985
  let c0_i32_945 : BitVec 32 := 0#32
  let v1987 : BitVec 1 := Scalar.cmpi .slt c8_i32_941 c0_i32_945
  let v1988 : BitVec 32 := Scalar.extui v1987
  let v1989 : BitVec 32 := Scalar.subi v1986 v1988
  let v1990 : BitVec 1 := Scalar.cmpi .ne v1984 v1989
  let v1991 : BitVec 32 := Scalar.remsi v1978 c8_i32_941
  let c0_i32_946 : BitVec 32 := 0#32
  let v1992 : BitVec 1 := Scalar.cmpi .ne v1991 c0_i32_946
  let v1993 : BitVec 1 := Scalar.andi v1990 v1992
  let v1979 : BitVec 32 := Scalar.divsi v1978 c8_i32_941
  let c1_i32_947 : BitVec 32 := 1#32
  let v1994 : BitVec 32 := Scalar.subi v1979 c1_i32_947
  let v1995 : BitVec 32 := Scalar.select v1993 v1994 v1979
  let v2004 : Index := Scalar.indexCast v1995
  let c0_951 : Index := 0#32
  let c0_952 : Index := 0#32
  ![v2004.toNat, 0, 0]

def k1_chk48 (v1978 : BitVec 32) : Prop :=
  (∀ a, (k1_off48 v1978) a + S1x8x128.size a ≤ S1250x8x128.size a)
instance k1_chk48.dec : ∀ (v1978 : BitVec 32), Decidable (k1_chk48 v1978) := fun v1978 => decidable_of_iff' _ (Iff.of_eq (k1_chk48.eq_1 v1978))
theorem k1_off48_inb : ∀ (v1978 : BitVec 32) (k1_hw48 : k1_chk48 v1978), ∀ a, (k1_off48 v1978) a + S1x8x128.size a ≤ S1250x8x128.size a := fun v1978 k1_hw48 => k1_hw48

def k1_off49 (v2020 : BitVec 32) : Fin 3 → Nat :=
  let c0_i32_962 : BitVec 32 := 0#32
  let v2022 : BitVec 1 := Scalar.cmpi .sgt v2020 c0_i32_962
  let v2023 : BitVec 32 := Scalar.extui v2022
  let c0_i32_963 : BitVec 32 := 0#32
  let v2024 : BitVec 1 := Scalar.cmpi .slt v2020 c0_i32_963
  let v2025 : BitVec 32 := Scalar.extui v2024
  let v2026 : BitVec 32 := Scalar.subi v2023 v2025
  let c8_i32_961 : BitVec 32 := 8#32
  let c0_i32_964 : BitVec 32 := 0#32
  let v2027 : BitVec 1 := Scalar.cmpi .sgt c8_i32_961 c0_i32_964
  let v2028 : BitVec 32 := Scalar.extui v2027
  let c0_i32_965 : BitVec 32 := 0#32
  let v2029 : BitVec 1 := Scalar.cmpi .slt c8_i32_961 c0_i32_965
  let v2030 : BitVec 32 := Scalar.extui v2029
  let v2031 : BitVec 32 := Scalar.subi v2028 v2030
  let v2032 : BitVec 1 := Scalar.cmpi .ne v2026 v2031
  let v2033 : BitVec 32 := Scalar.remsi v2020 c8_i32_961
  let c0_i32_966 : BitVec 32 := 0#32
  let v2034 : BitVec 1 := Scalar.cmpi .ne v2033 c0_i32_966
  let v2035 : BitVec 1 := Scalar.andi v2032 v2034
  let v2021 : BitVec 32 := Scalar.divsi v2020 c8_i32_961
  let c1_i32_967 : BitVec 32 := 1#32
  let v2036 : BitVec 32 := Scalar.subi v2021 c1_i32_967
  let v2037 : BitVec 32 := Scalar.select v2035 v2036 v2021
  let v2046 : Index := Scalar.indexCast v2037
  let c0_971 : Index := 0#32
  let c0_972 : Index := 0#32
  ![v2046.toNat, 0, 0]

def k1_chk49 (v2020 : BitVec 32) : Prop :=
  (∀ a, (k1_off49 v2020) a + S1x8x128.size a ≤ S1250x8x128.size a)
instance k1_chk49.dec : ∀ (v2020 : BitVec 32), Decidable (k1_chk49 v2020) := fun v2020 => decidable_of_iff' _ (Iff.of_eq (k1_chk49.eq_1 v2020))
theorem k1_off49_inb : ∀ (v2020 : BitVec 32) (k1_hw49 : k1_chk49 v2020), ∀ a, (k1_off49 v2020) a + S1x8x128.size a ≤ S1250x8x128.size a := fun v2020 k1_hw49 => k1_hw49

def k1_off50 (v2062 : BitVec 32) : Fin 3 → Nat :=
  let c0_i32_982 : BitVec 32 := 0#32
  let v2064 : BitVec 1 := Scalar.cmpi .sgt v2062 c0_i32_982
  let v2065 : BitVec 32 := Scalar.extui v2064
  let c0_i32_983 : BitVec 32 := 0#32
  let v2066 : BitVec 1 := Scalar.cmpi .slt v2062 c0_i32_983
  let v2067 : BitVec 32 := Scalar.extui v2066
  let v2068 : BitVec 32 := Scalar.subi v2065 v2067
  let c8_i32_981 : BitVec 32 := 8#32
  let c0_i32_984 : BitVec 32 := 0#32
  let v2069 : BitVec 1 := Scalar.cmpi .sgt c8_i32_981 c0_i32_984
  let v2070 : BitVec 32 := Scalar.extui v2069
  let c0_i32_985 : BitVec 32 := 0#32
  let v2071 : BitVec 1 := Scalar.cmpi .slt c8_i32_981 c0_i32_985
  let v2072 : BitVec 32 := Scalar.extui v2071
  let v2073 : BitVec 32 := Scalar.subi v2070 v2072
  let v2074 : BitVec 1 := Scalar.cmpi .ne v2068 v2073
  let v2075 : BitVec 32 := Scalar.remsi v2062 c8_i32_981
  let c0_i32_986 : BitVec 32 := 0#32
  let v2076 : BitVec 1 := Scalar.cmpi .ne v2075 c0_i32_986
  let v2077 : BitVec 1 := Scalar.andi v2074 v2076
  let v2063 : BitVec 32 := Scalar.divsi v2062 c8_i32_981
  let c1_i32_987 : BitVec 32 := 1#32
  let v2078 : BitVec 32 := Scalar.subi v2063 c1_i32_987
  let v2079 : BitVec 32 := Scalar.select v2077 v2078 v2063
  let v2088 : Index := Scalar.indexCast v2079
  let c0_991 : Index := 0#32
  let c0_992 : Index := 0#32
  ![v2088.toNat, 0, 0]

def k1_chk50 (v2062 : BitVec 32) : Prop :=
  (∀ a, (k1_off50 v2062) a + S1x8x128.size a ≤ S1250x8x128.size a)
instance k1_chk50.dec : ∀ (v2062 : BitVec 32), Decidable (k1_chk50 v2062) := fun v2062 => decidable_of_iff' _ (Iff.of_eq (k1_chk50.eq_1 v2062))
theorem k1_off50_inb : ∀ (v2062 : BitVec 32) (k1_hw50 : k1_chk50 v2062), ∀ a, (k1_off50 v2062) a + S1x8x128.size a ≤ S1250x8x128.size a := fun v2062 k1_hw50 => k1_hw50

def k1_off51 (v2104 : BitVec 32) : Fin 3 → Nat :=
  let c0_i32_1002 : BitVec 32 := 0#32
  let v2106 : BitVec 1 := Scalar.cmpi .sgt v2104 c0_i32_1002
  let v2107 : BitVec 32 := Scalar.extui v2106
  let c0_i32_1003 : BitVec 32 := 0#32
  let v2108 : BitVec 1 := Scalar.cmpi .slt v2104 c0_i32_1003
  let v2109 : BitVec 32 := Scalar.extui v2108
  let v2110 : BitVec 32 := Scalar.subi v2107 v2109
  let c8_i32_1001 : BitVec 32 := 8#32
  let c0_i32_1004 : BitVec 32 := 0#32
  let v2111 : BitVec 1 := Scalar.cmpi .sgt c8_i32_1001 c0_i32_1004
  let v2112 : BitVec 32 := Scalar.extui v2111
  let c0_i32_1005 : BitVec 32 := 0#32
  let v2113 : BitVec 1 := Scalar.cmpi .slt c8_i32_1001 c0_i32_1005
  let v2114 : BitVec 32 := Scalar.extui v2113
  let v2115 : BitVec 32 := Scalar.subi v2112 v2114
  let v2116 : BitVec 1 := Scalar.cmpi .ne v2110 v2115
  let v2117 : BitVec 32 := Scalar.remsi v2104 c8_i32_1001
  let c0_i32_1006 : BitVec 32 := 0#32
  let v2118 : BitVec 1 := Scalar.cmpi .ne v2117 c0_i32_1006
  let v2119 : BitVec 1 := Scalar.andi v2116 v2118
  let v2105 : BitVec 32 := Scalar.divsi v2104 c8_i32_1001
  let c1_i32_1007 : BitVec 32 := 1#32
  let v2120 : BitVec 32 := Scalar.subi v2105 c1_i32_1007
  let v2121 : BitVec 32 := Scalar.select v2119 v2120 v2105
  let v2130 : Index := Scalar.indexCast v2121
  let c0_1011 : Index := 0#32
  let c0_1012 : Index := 0#32
  ![v2130.toNat, 0, 0]

def k1_chk51 (v2104 : BitVec 32) : Prop :=
  (∀ a, (k1_off51 v2104) a + S1x8x128.size a ≤ S1250x8x128.size a)
instance k1_chk51.dec : ∀ (v2104 : BitVec 32), Decidable (k1_chk51 v2104) := fun v2104 => decidable_of_iff' _ (Iff.of_eq (k1_chk51.eq_1 v2104))
theorem k1_off51_inb : ∀ (v2104 : BitVec 32) (k1_hw51 : k1_chk51 v2104), ∀ a, (k1_off51 v2104) a + S1x8x128.size a ≤ S1250x8x128.size a := fun v2104 k1_hw51 => k1_hw51

def k1_off52 (v2146 : BitVec 32) : Fin 3 → Nat :=
  let c0_i32_1022 : BitVec 32 := 0#32
  let v2148 : BitVec 1 := Scalar.cmpi .sgt v2146 c0_i32_1022
  let v2149 : BitVec 32 := Scalar.extui v2148
  let c0_i32_1023 : BitVec 32 := 0#32
  let v2150 : BitVec 1 := Scalar.cmpi .slt v2146 c0_i32_1023
  let v2151 : BitVec 32 := Scalar.extui v2150
  let v2152 : BitVec 32 := Scalar.subi v2149 v2151
  let c8_i32_1021 : BitVec 32 := 8#32
  let c0_i32_1024 : BitVec 32 := 0#32
  let v2153 : BitVec 1 := Scalar.cmpi .sgt c8_i32_1021 c0_i32_1024
  let v2154 : BitVec 32 := Scalar.extui v2153
  let c0_i32_1025 : BitVec 32 := 0#32
  let v2155 : BitVec 1 := Scalar.cmpi .slt c8_i32_1021 c0_i32_1025
  let v2156 : BitVec 32 := Scalar.extui v2155
  let v2157 : BitVec 32 := Scalar.subi v2154 v2156
  let v2158 : BitVec 1 := Scalar.cmpi .ne v2152 v2157
  let v2159 : BitVec 32 := Scalar.remsi v2146 c8_i32_1021
  let c0_i32_1026 : BitVec 32 := 0#32
  let v2160 : BitVec 1 := Scalar.cmpi .ne v2159 c0_i32_1026
  let v2161 : BitVec 1 := Scalar.andi v2158 v2160
  let v2147 : BitVec 32 := Scalar.divsi v2146 c8_i32_1021
  let c1_i32_1027 : BitVec 32 := 1#32
  let v2162 : BitVec 32 := Scalar.subi v2147 c1_i32_1027
  let v2163 : BitVec 32 := Scalar.select v2161 v2162 v2147
  let v2172 : Index := Scalar.indexCast v2163
  let c0_1031 : Index := 0#32
  let c0_1032 : Index := 0#32
  ![v2172.toNat, 0, 0]

def k1_chk52 (v2146 : BitVec 32) : Prop :=
  (∀ a, (k1_off52 v2146) a + S1x8x128.size a ≤ S1250x8x128.size a)
instance k1_chk52.dec : ∀ (v2146 : BitVec 32), Decidable (k1_chk52 v2146) := fun v2146 => decidable_of_iff' _ (Iff.of_eq (k1_chk52.eq_1 v2146))
theorem k1_off52_inb : ∀ (v2146 : BitVec 32) (k1_hw52 : k1_chk52 v2146), ∀ a, (k1_off52 v2146) a + S1x8x128.size a ≤ S1250x8x128.size a := fun v2146 k1_hw52 => k1_hw52

def k1_off53 (v2188 : BitVec 32) : Fin 3 → Nat :=
  let c0_i32_1042 : BitVec 32 := 0#32
  let v2190 : BitVec 1 := Scalar.cmpi .sgt v2188 c0_i32_1042
  let v2191 : BitVec 32 := Scalar.extui v2190
  let c0_i32_1043 : BitVec 32 := 0#32
  let v2192 : BitVec 1 := Scalar.cmpi .slt v2188 c0_i32_1043
  let v2193 : BitVec 32 := Scalar.extui v2192
  let v2194 : BitVec 32 := Scalar.subi v2191 v2193
  let c8_i32_1041 : BitVec 32 := 8#32
  let c0_i32_1044 : BitVec 32 := 0#32
  let v2195 : BitVec 1 := Scalar.cmpi .sgt c8_i32_1041 c0_i32_1044
  let v2196 : BitVec 32 := Scalar.extui v2195
  let c0_i32_1045 : BitVec 32 := 0#32
  let v2197 : BitVec 1 := Scalar.cmpi .slt c8_i32_1041 c0_i32_1045
  let v2198 : BitVec 32 := Scalar.extui v2197
  let v2199 : BitVec 32 := Scalar.subi v2196 v2198
  let v2200 : BitVec 1 := Scalar.cmpi .ne v2194 v2199
  let v2201 : BitVec 32 := Scalar.remsi v2188 c8_i32_1041
  let c0_i32_1046 : BitVec 32 := 0#32
  let v2202 : BitVec 1 := Scalar.cmpi .ne v2201 c0_i32_1046
  let v2203 : BitVec 1 := Scalar.andi v2200 v2202
  let v2189 : BitVec 32 := Scalar.divsi v2188 c8_i32_1041
  let c1_i32_1047 : BitVec 32 := 1#32
  let v2204 : BitVec 32 := Scalar.subi v2189 c1_i32_1047
  let v2205 : BitVec 32 := Scalar.select v2203 v2204 v2189
  let v2214 : Index := Scalar.indexCast v2205
  let c0_1051 : Index := 0#32
  let c0_1052 : Index := 0#32
  ![v2214.toNat, 0, 0]

def k1_chk53 (v2188 : BitVec 32) : Prop :=
  (∀ a, (k1_off53 v2188) a + S1x8x128.size a ≤ S1250x8x128.size a)
instance k1_chk53.dec : ∀ (v2188 : BitVec 32), Decidable (k1_chk53 v2188) := fun v2188 => decidable_of_iff' _ (Iff.of_eq (k1_chk53.eq_1 v2188))
theorem k1_off53_inb : ∀ (v2188 : BitVec 32) (k1_hw53 : k1_chk53 v2188), ∀ a, (k1_off53 v2188) a + S1x8x128.size a ≤ S1250x8x128.size a := fun v2188 k1_hw53 => k1_hw53

def k1_off54 (v2230 : BitVec 32) : Fin 3 → Nat :=
  let c0_i32_1062 : BitVec 32 := 0#32
  let v2232 : BitVec 1 := Scalar.cmpi .sgt v2230 c0_i32_1062
  let v2233 : BitVec 32 := Scalar.extui v2232
  let c0_i32_1063 : BitVec 32 := 0#32
  let v2234 : BitVec 1 := Scalar.cmpi .slt v2230 c0_i32_1063
  let v2235 : BitVec 32 := Scalar.extui v2234
  let v2236 : BitVec 32 := Scalar.subi v2233 v2235
  let c8_i32_1061 : BitVec 32 := 8#32
  let c0_i32_1064 : BitVec 32 := 0#32
  let v2237 : BitVec 1 := Scalar.cmpi .sgt c8_i32_1061 c0_i32_1064
  let v2238 : BitVec 32 := Scalar.extui v2237
  let c0_i32_1065 : BitVec 32 := 0#32
  let v2239 : BitVec 1 := Scalar.cmpi .slt c8_i32_1061 c0_i32_1065
  let v2240 : BitVec 32 := Scalar.extui v2239
  let v2241 : BitVec 32 := Scalar.subi v2238 v2240
  let v2242 : BitVec 1 := Scalar.cmpi .ne v2236 v2241
  let v2243 : BitVec 32 := Scalar.remsi v2230 c8_i32_1061
  let c0_i32_1066 : BitVec 32 := 0#32
  let v2244 : BitVec 1 := Scalar.cmpi .ne v2243 c0_i32_1066
  let v2245 : BitVec 1 := Scalar.andi v2242 v2244
  let v2231 : BitVec 32 := Scalar.divsi v2230 c8_i32_1061
  let c1_i32_1067 : BitVec 32 := 1#32
  let v2246 : BitVec 32 := Scalar.subi v2231 c1_i32_1067
  let v2247 : BitVec 32 := Scalar.select v2245 v2246 v2231
  let v2256 : Index := Scalar.indexCast v2247
  let c0_1071 : Index := 0#32
  let c0_1072 : Index := 0#32
  ![v2256.toNat, 0, 0]

def k1_chk54 (v2230 : BitVec 32) : Prop :=
  (∀ a, (k1_off54 v2230) a + S1x8x128.size a ≤ S1250x8x128.size a)
instance k1_chk54.dec : ∀ (v2230 : BitVec 32), Decidable (k1_chk54 v2230) := fun v2230 => decidable_of_iff' _ (Iff.of_eq (k1_chk54.eq_1 v2230))
theorem k1_off54_inb : ∀ (v2230 : BitVec 32) (k1_hw54 : k1_chk54 v2230), ∀ a, (k1_off54 v2230) a + S1x8x128.size a ≤ S1250x8x128.size a := fun v2230 k1_hw54 => k1_hw54

def k1_off55 (v2272 : BitVec 32) : Fin 3 → Nat :=
  let c0_i32_1082 : BitVec 32 := 0#32
  let v2274 : BitVec 1 := Scalar.cmpi .sgt v2272 c0_i32_1082
  let v2275 : BitVec 32 := Scalar.extui v2274
  let c0_i32_1083 : BitVec 32 := 0#32
  let v2276 : BitVec 1 := Scalar.cmpi .slt v2272 c0_i32_1083
  let v2277 : BitVec 32 := Scalar.extui v2276
  let v2278 : BitVec 32 := Scalar.subi v2275 v2277
  let c8_i32_1081 : BitVec 32 := 8#32
  let c0_i32_1084 : BitVec 32 := 0#32
  let v2279 : BitVec 1 := Scalar.cmpi .sgt c8_i32_1081 c0_i32_1084
  let v2280 : BitVec 32 := Scalar.extui v2279
  let c0_i32_1085 : BitVec 32 := 0#32
  let v2281 : BitVec 1 := Scalar.cmpi .slt c8_i32_1081 c0_i32_1085
  let v2282 : BitVec 32 := Scalar.extui v2281
  let v2283 : BitVec 32 := Scalar.subi v2280 v2282
  let v2284 : BitVec 1 := Scalar.cmpi .ne v2278 v2283
  let v2285 : BitVec 32 := Scalar.remsi v2272 c8_i32_1081
  let c0_i32_1086 : BitVec 32 := 0#32
  let v2286 : BitVec 1 := Scalar.cmpi .ne v2285 c0_i32_1086
  let v2287 : BitVec 1 := Scalar.andi v2284 v2286
  let v2273 : BitVec 32 := Scalar.divsi v2272 c8_i32_1081
  let c1_i32_1087 : BitVec 32 := 1#32
  let v2288 : BitVec 32 := Scalar.subi v2273 c1_i32_1087
  let v2289 : BitVec 32 := Scalar.select v2287 v2288 v2273
  let v2298 : Index := Scalar.indexCast v2289
  let c0_1091 : Index := 0#32
  let c0_1092 : Index := 0#32
  ![v2298.toNat, 0, 0]

def k1_chk55 (v2272 : BitVec 32) : Prop :=
  (∀ a, (k1_off55 v2272) a + S1x8x128.size a ≤ S1250x8x128.size a)
instance k1_chk55.dec : ∀ (v2272 : BitVec 32), Decidable (k1_chk55 v2272) := fun v2272 => decidable_of_iff' _ (Iff.of_eq (k1_chk55.eq_1 v2272))
theorem k1_off55_inb : ∀ (v2272 : BitVec 32) (k1_hw55 : k1_chk55 v2272), ∀ a, (k1_off55 v2272) a + S1x8x128.size a ≤ S1250x8x128.size a := fun v2272 k1_hw55 => k1_hw55

def k1_off56 (v2314 : BitVec 32) : Fin 3 → Nat :=
  let c0_i32_1102 : BitVec 32 := 0#32
  let v2316 : BitVec 1 := Scalar.cmpi .sgt v2314 c0_i32_1102
  let v2317 : BitVec 32 := Scalar.extui v2316
  let c0_i32_1103 : BitVec 32 := 0#32
  let v2318 : BitVec 1 := Scalar.cmpi .slt v2314 c0_i32_1103
  let v2319 : BitVec 32 := Scalar.extui v2318
  let v2320 : BitVec 32 := Scalar.subi v2317 v2319
  let c8_i32_1101 : BitVec 32 := 8#32
  let c0_i32_1104 : BitVec 32 := 0#32
  let v2321 : BitVec 1 := Scalar.cmpi .sgt c8_i32_1101 c0_i32_1104
  let v2322 : BitVec 32 := Scalar.extui v2321
  let c0_i32_1105 : BitVec 32 := 0#32
  let v2323 : BitVec 1 := Scalar.cmpi .slt c8_i32_1101 c0_i32_1105
  let v2324 : BitVec 32 := Scalar.extui v2323
  let v2325 : BitVec 32 := Scalar.subi v2322 v2324
  let v2326 : BitVec 1 := Scalar.cmpi .ne v2320 v2325
  let v2327 : BitVec 32 := Scalar.remsi v2314 c8_i32_1101
  let c0_i32_1106 : BitVec 32 := 0#32
  let v2328 : BitVec 1 := Scalar.cmpi .ne v2327 c0_i32_1106
  let v2329 : BitVec 1 := Scalar.andi v2326 v2328
  let v2315 : BitVec 32 := Scalar.divsi v2314 c8_i32_1101
  let c1_i32_1107 : BitVec 32 := 1#32
  let v2330 : BitVec 32 := Scalar.subi v2315 c1_i32_1107
  let v2331 : BitVec 32 := Scalar.select v2329 v2330 v2315
  let v2340 : Index := Scalar.indexCast v2331
  let c0_1111 : Index := 0#32
  let c0_1112 : Index := 0#32
  ![v2340.toNat, 0, 0]

def k1_chk56 (v2314 : BitVec 32) : Prop :=
  (∀ a, (k1_off56 v2314) a + S1x8x128.size a ≤ S1250x8x128.size a)
instance k1_chk56.dec : ∀ (v2314 : BitVec 32), Decidable (k1_chk56 v2314) := fun v2314 => decidable_of_iff' _ (Iff.of_eq (k1_chk56.eq_1 v2314))
theorem k1_off56_inb : ∀ (v2314 : BitVec 32) (k1_hw56 : k1_chk56 v2314), ∀ a, (k1_off56 v2314) a + S1x8x128.size a ≤ S1250x8x128.size a := fun v2314 k1_hw56 => k1_hw56

def k1_off57 (v2356 : BitVec 32) : Fin 3 → Nat :=
  let c0_i32_1122 : BitVec 32 := 0#32
  let v2358 : BitVec 1 := Scalar.cmpi .sgt v2356 c0_i32_1122
  let v2359 : BitVec 32 := Scalar.extui v2358
  let c0_i32_1123 : BitVec 32 := 0#32
  let v2360 : BitVec 1 := Scalar.cmpi .slt v2356 c0_i32_1123
  let v2361 : BitVec 32 := Scalar.extui v2360
  let v2362 : BitVec 32 := Scalar.subi v2359 v2361
  let c8_i32_1121 : BitVec 32 := 8#32
  let c0_i32_1124 : BitVec 32 := 0#32
  let v2363 : BitVec 1 := Scalar.cmpi .sgt c8_i32_1121 c0_i32_1124
  let v2364 : BitVec 32 := Scalar.extui v2363
  let c0_i32_1125 : BitVec 32 := 0#32
  let v2365 : BitVec 1 := Scalar.cmpi .slt c8_i32_1121 c0_i32_1125
  let v2366 : BitVec 32 := Scalar.extui v2365
  let v2367 : BitVec 32 := Scalar.subi v2364 v2366
  let v2368 : BitVec 1 := Scalar.cmpi .ne v2362 v2367
  let v2369 : BitVec 32 := Scalar.remsi v2356 c8_i32_1121
  let c0_i32_1126 : BitVec 32 := 0#32
  let v2370 : BitVec 1 := Scalar.cmpi .ne v2369 c0_i32_1126
  let v2371 : BitVec 1 := Scalar.andi v2368 v2370
  let v2357 : BitVec 32 := Scalar.divsi v2356 c8_i32_1121
  let c1_i32_1127 : BitVec 32 := 1#32
  let v2372 : BitVec 32 := Scalar.subi v2357 c1_i32_1127
  let v2373 : BitVec 32 := Scalar.select v2371 v2372 v2357
  let v2382 : Index := Scalar.indexCast v2373
  let c0_1131 : Index := 0#32
  let c0_1132 : Index := 0#32
  ![v2382.toNat, 0, 0]

def k1_chk57 (v2356 : BitVec 32) : Prop :=
  (∀ a, (k1_off57 v2356) a + S1x8x128.size a ≤ S1250x8x128.size a)
instance k1_chk57.dec : ∀ (v2356 : BitVec 32), Decidable (k1_chk57 v2356) := fun v2356 => decidable_of_iff' _ (Iff.of_eq (k1_chk57.eq_1 v2356))
theorem k1_off57_inb : ∀ (v2356 : BitVec 32) (k1_hw57 : k1_chk57 v2356), ∀ a, (k1_off57 v2356) a + S1x8x128.size a ≤ S1250x8x128.size a := fun v2356 k1_hw57 => k1_hw57

def k1_off58 (v2398 : BitVec 32) : Fin 3 → Nat :=
  let c0_i32_1142 : BitVec 32 := 0#32
  let v2400 : BitVec 1 := Scalar.cmpi .sgt v2398 c0_i32_1142
  let v2401 : BitVec 32 := Scalar.extui v2400
  let c0_i32_1143 : BitVec 32 := 0#32
  let v2402 : BitVec 1 := Scalar.cmpi .slt v2398 c0_i32_1143
  let v2403 : BitVec 32 := Scalar.extui v2402
  let v2404 : BitVec 32 := Scalar.subi v2401 v2403
  let c8_i32_1141 : BitVec 32 := 8#32
  let c0_i32_1144 : BitVec 32 := 0#32
  let v2405 : BitVec 1 := Scalar.cmpi .sgt c8_i32_1141 c0_i32_1144
  let v2406 : BitVec 32 := Scalar.extui v2405
  let c0_i32_1145 : BitVec 32 := 0#32
  let v2407 : BitVec 1 := Scalar.cmpi .slt c8_i32_1141 c0_i32_1145
  let v2408 : BitVec 32 := Scalar.extui v2407
  let v2409 : BitVec 32 := Scalar.subi v2406 v2408
  let v2410 : BitVec 1 := Scalar.cmpi .ne v2404 v2409
  let v2411 : BitVec 32 := Scalar.remsi v2398 c8_i32_1141
  let c0_i32_1146 : BitVec 32 := 0#32
  let v2412 : BitVec 1 := Scalar.cmpi .ne v2411 c0_i32_1146
  let v2413 : BitVec 1 := Scalar.andi v2410 v2412
  let v2399 : BitVec 32 := Scalar.divsi v2398 c8_i32_1141
  let c1_i32_1147 : BitVec 32 := 1#32
  let v2414 : BitVec 32 := Scalar.subi v2399 c1_i32_1147
  let v2415 : BitVec 32 := Scalar.select v2413 v2414 v2399
  let v2424 : Index := Scalar.indexCast v2415
  let c0_1151 : Index := 0#32
  let c0_1152 : Index := 0#32
  ![v2424.toNat, 0, 0]

def k1_chk58 (v2398 : BitVec 32) : Prop :=
  (∀ a, (k1_off58 v2398) a + S1x8x128.size a ≤ S1250x8x128.size a)
instance k1_chk58.dec : ∀ (v2398 : BitVec 32), Decidable (k1_chk58 v2398) := fun v2398 => decidable_of_iff' _ (Iff.of_eq (k1_chk58.eq_1 v2398))
theorem k1_off58_inb : ∀ (v2398 : BitVec 32) (k1_hw58 : k1_chk58 v2398), ∀ a, (k1_off58 v2398) a + S1x8x128.size a ≤ S1250x8x128.size a := fun v2398 k1_hw58 => k1_hw58

def k1_off59 (v2440 : BitVec 32) : Fin 3 → Nat :=
  let c0_i32_1162 : BitVec 32 := 0#32
  let v2442 : BitVec 1 := Scalar.cmpi .sgt v2440 c0_i32_1162
  let v2443 : BitVec 32 := Scalar.extui v2442
  let c0_i32_1163 : BitVec 32 := 0#32
  let v2444 : BitVec 1 := Scalar.cmpi .slt v2440 c0_i32_1163
  let v2445 : BitVec 32 := Scalar.extui v2444
  let v2446 : BitVec 32 := Scalar.subi v2443 v2445
  let c8_i32_1161 : BitVec 32 := 8#32
  let c0_i32_1164 : BitVec 32 := 0#32
  let v2447 : BitVec 1 := Scalar.cmpi .sgt c8_i32_1161 c0_i32_1164
  let v2448 : BitVec 32 := Scalar.extui v2447
  let c0_i32_1165 : BitVec 32 := 0#32
  let v2449 : BitVec 1 := Scalar.cmpi .slt c8_i32_1161 c0_i32_1165
  let v2450 : BitVec 32 := Scalar.extui v2449
  let v2451 : BitVec 32 := Scalar.subi v2448 v2450
  let v2452 : BitVec 1 := Scalar.cmpi .ne v2446 v2451
  let v2453 : BitVec 32 := Scalar.remsi v2440 c8_i32_1161
  let c0_i32_1166 : BitVec 32 := 0#32
  let v2454 : BitVec 1 := Scalar.cmpi .ne v2453 c0_i32_1166
  let v2455 : BitVec 1 := Scalar.andi v2452 v2454
  let v2441 : BitVec 32 := Scalar.divsi v2440 c8_i32_1161
  let c1_i32_1167 : BitVec 32 := 1#32
  let v2456 : BitVec 32 := Scalar.subi v2441 c1_i32_1167
  let v2457 : BitVec 32 := Scalar.select v2455 v2456 v2441
  let v2466 : Index := Scalar.indexCast v2457
  let c0_1171 : Index := 0#32
  let c0_1172 : Index := 0#32
  ![v2466.toNat, 0, 0]

def k1_chk59 (v2440 : BitVec 32) : Prop :=
  (∀ a, (k1_off59 v2440) a + S1x8x128.size a ≤ S1250x8x128.size a)
instance k1_chk59.dec : ∀ (v2440 : BitVec 32), Decidable (k1_chk59 v2440) := fun v2440 => decidable_of_iff' _ (Iff.of_eq (k1_chk59.eq_1 v2440))
theorem k1_off59_inb : ∀ (v2440 : BitVec 32) (k1_hw59 : k1_chk59 v2440), ∀ a, (k1_off59 v2440) a + S1x8x128.size a ≤ S1250x8x128.size a := fun v2440 k1_hw59 => k1_hw59

def k1_off60 (v2482 : BitVec 32) : Fin 3 → Nat :=
  let c0_i32_1182 : BitVec 32 := 0#32
  let v2484 : BitVec 1 := Scalar.cmpi .sgt v2482 c0_i32_1182
  let v2485 : BitVec 32 := Scalar.extui v2484
  let c0_i32_1183 : BitVec 32 := 0#32
  let v2486 : BitVec 1 := Scalar.cmpi .slt v2482 c0_i32_1183
  let v2487 : BitVec 32 := Scalar.extui v2486
  let v2488 : BitVec 32 := Scalar.subi v2485 v2487
  let c8_i32_1181 : BitVec 32 := 8#32
  let c0_i32_1184 : BitVec 32 := 0#32
  let v2489 : BitVec 1 := Scalar.cmpi .sgt c8_i32_1181 c0_i32_1184
  let v2490 : BitVec 32 := Scalar.extui v2489
  let c0_i32_1185 : BitVec 32 := 0#32
  let v2491 : BitVec 1 := Scalar.cmpi .slt c8_i32_1181 c0_i32_1185
  let v2492 : BitVec 32 := Scalar.extui v2491
  let v2493 : BitVec 32 := Scalar.subi v2490 v2492
  let v2494 : BitVec 1 := Scalar.cmpi .ne v2488 v2493
  let v2495 : BitVec 32 := Scalar.remsi v2482 c8_i32_1181
  let c0_i32_1186 : BitVec 32 := 0#32
  let v2496 : BitVec 1 := Scalar.cmpi .ne v2495 c0_i32_1186
  let v2497 : BitVec 1 := Scalar.andi v2494 v2496
  let v2483 : BitVec 32 := Scalar.divsi v2482 c8_i32_1181
  let c1_i32_1187 : BitVec 32 := 1#32
  let v2498 : BitVec 32 := Scalar.subi v2483 c1_i32_1187
  let v2499 : BitVec 32 := Scalar.select v2497 v2498 v2483
  let v2508 : Index := Scalar.indexCast v2499
  let c0_1191 : Index := 0#32
  let c0_1192 : Index := 0#32
  ![v2508.toNat, 0, 0]

def k1_chk60 (v2482 : BitVec 32) : Prop :=
  (∀ a, (k1_off60 v2482) a + S1x8x128.size a ≤ S1250x8x128.size a)
instance k1_chk60.dec : ∀ (v2482 : BitVec 32), Decidable (k1_chk60 v2482) := fun v2482 => decidable_of_iff' _ (Iff.of_eq (k1_chk60.eq_1 v2482))
theorem k1_off60_inb : ∀ (v2482 : BitVec 32) (k1_hw60 : k1_chk60 v2482), ∀ a, (k1_off60 v2482) a + S1x8x128.size a ≤ S1250x8x128.size a := fun v2482 k1_hw60 => k1_hw60

def k1_off61 (v2524 : BitVec 32) : Fin 3 → Nat :=
  let c0_i32_1202 : BitVec 32 := 0#32
  let v2526 : BitVec 1 := Scalar.cmpi .sgt v2524 c0_i32_1202
  let v2527 : BitVec 32 := Scalar.extui v2526
  let c0_i32_1203 : BitVec 32 := 0#32
  let v2528 : BitVec 1 := Scalar.cmpi .slt v2524 c0_i32_1203
  let v2529 : BitVec 32 := Scalar.extui v2528
  let v2530 : BitVec 32 := Scalar.subi v2527 v2529
  let c8_i32_1201 : BitVec 32 := 8#32
  let c0_i32_1204 : BitVec 32 := 0#32
  let v2531 : BitVec 1 := Scalar.cmpi .sgt c8_i32_1201 c0_i32_1204
  let v2532 : BitVec 32 := Scalar.extui v2531
  let c0_i32_1205 : BitVec 32 := 0#32
  let v2533 : BitVec 1 := Scalar.cmpi .slt c8_i32_1201 c0_i32_1205
  let v2534 : BitVec 32 := Scalar.extui v2533
  let v2535 : BitVec 32 := Scalar.subi v2532 v2534
  let v2536 : BitVec 1 := Scalar.cmpi .ne v2530 v2535
  let v2537 : BitVec 32 := Scalar.remsi v2524 c8_i32_1201
  let c0_i32_1206 : BitVec 32 := 0#32
  let v2538 : BitVec 1 := Scalar.cmpi .ne v2537 c0_i32_1206
  let v2539 : BitVec 1 := Scalar.andi v2536 v2538
  let v2525 : BitVec 32 := Scalar.divsi v2524 c8_i32_1201
  let c1_i32_1207 : BitVec 32 := 1#32
  let v2540 : BitVec 32 := Scalar.subi v2525 c1_i32_1207
  let v2541 : BitVec 32 := Scalar.select v2539 v2540 v2525
  let v2550 : Index := Scalar.indexCast v2541
  let c0_1211 : Index := 0#32
  let c0_1212 : Index := 0#32
  ![v2550.toNat, 0, 0]

def k1_chk61 (v2524 : BitVec 32) : Prop :=
  (∀ a, (k1_off61 v2524) a + S1x8x128.size a ≤ S1250x8x128.size a)
instance k1_chk61.dec : ∀ (v2524 : BitVec 32), Decidable (k1_chk61 v2524) := fun v2524 => decidable_of_iff' _ (Iff.of_eq (k1_chk61.eq_1 v2524))
theorem k1_off61_inb : ∀ (v2524 : BitVec 32) (k1_hw61 : k1_chk61 v2524), ∀ a, (k1_off61 v2524) a + S1x8x128.size a ≤ S1250x8x128.size a := fun v2524 k1_hw61 => k1_hw61

def k1_off62 (v2566 : BitVec 32) : Fin 3 → Nat :=
  let c0_i32_1222 : BitVec 32 := 0#32
  let v2568 : BitVec 1 := Scalar.cmpi .sgt v2566 c0_i32_1222
  let v2569 : BitVec 32 := Scalar.extui v2568
  let c0_i32_1223 : BitVec 32 := 0#32
  let v2570 : BitVec 1 := Scalar.cmpi .slt v2566 c0_i32_1223
  let v2571 : BitVec 32 := Scalar.extui v2570
  let v2572 : BitVec 32 := Scalar.subi v2569 v2571
  let c8_i32_1221 : BitVec 32 := 8#32
  let c0_i32_1224 : BitVec 32 := 0#32
  let v2573 : BitVec 1 := Scalar.cmpi .sgt c8_i32_1221 c0_i32_1224
  let v2574 : BitVec 32 := Scalar.extui v2573
  let c0_i32_1225 : BitVec 32 := 0#32
  let v2575 : BitVec 1 := Scalar.cmpi .slt c8_i32_1221 c0_i32_1225
  let v2576 : BitVec 32 := Scalar.extui v2575
  let v2577 : BitVec 32 := Scalar.subi v2574 v2576
  let v2578 : BitVec 1 := Scalar.cmpi .ne v2572 v2577
  let v2579 : BitVec 32 := Scalar.remsi v2566 c8_i32_1221
  let c0_i32_1226 : BitVec 32 := 0#32
  let v2580 : BitVec 1 := Scalar.cmpi .ne v2579 c0_i32_1226
  let v2581 : BitVec 1 := Scalar.andi v2578 v2580
  let v2567 : BitVec 32 := Scalar.divsi v2566 c8_i32_1221
  let c1_i32_1227 : BitVec 32 := 1#32
  let v2582 : BitVec 32 := Scalar.subi v2567 c1_i32_1227
  let v2583 : BitVec 32 := Scalar.select v2581 v2582 v2567
  let v2592 : Index := Scalar.indexCast v2583
  let c0_1231 : Index := 0#32
  let c0_1232 : Index := 0#32
  ![v2592.toNat, 0, 0]

def k1_chk62 (v2566 : BitVec 32) : Prop :=
  (∀ a, (k1_off62 v2566) a + S1x8x128.size a ≤ S1250x8x128.size a)
instance k1_chk62.dec : ∀ (v2566 : BitVec 32), Decidable (k1_chk62 v2566) := fun v2566 => decidable_of_iff' _ (Iff.of_eq (k1_chk62.eq_1 v2566))
theorem k1_off62_inb : ∀ (v2566 : BitVec 32) (k1_hw62 : k1_chk62 v2566), ∀ a, (k1_off62 v2566) a + S1x8x128.size a ≤ S1250x8x128.size a := fun v2566 k1_hw62 => k1_hw62

def k1_off63 (v2608 : BitVec 32) : Fin 3 → Nat :=
  let c0_i32_1242 : BitVec 32 := 0#32
  let v2610 : BitVec 1 := Scalar.cmpi .sgt v2608 c0_i32_1242
  let v2611 : BitVec 32 := Scalar.extui v2610
  let c0_i32_1243 : BitVec 32 := 0#32
  let v2612 : BitVec 1 := Scalar.cmpi .slt v2608 c0_i32_1243
  let v2613 : BitVec 32 := Scalar.extui v2612
  let v2614 : BitVec 32 := Scalar.subi v2611 v2613
  let c8_i32_1241 : BitVec 32 := 8#32
  let c0_i32_1244 : BitVec 32 := 0#32
  let v2615 : BitVec 1 := Scalar.cmpi .sgt c8_i32_1241 c0_i32_1244
  let v2616 : BitVec 32 := Scalar.extui v2615
  let c0_i32_1245 : BitVec 32 := 0#32
  let v2617 : BitVec 1 := Scalar.cmpi .slt c8_i32_1241 c0_i32_1245
  let v2618 : BitVec 32 := Scalar.extui v2617
  let v2619 : BitVec 32 := Scalar.subi v2616 v2618
  let v2620 : BitVec 1 := Scalar.cmpi .ne v2614 v2619
  let v2621 : BitVec 32 := Scalar.remsi v2608 c8_i32_1241
  let c0_i32_1246 : BitVec 32 := 0#32
  let v2622 : BitVec 1 := Scalar.cmpi .ne v2621 c0_i32_1246
  let v2623 : BitVec 1 := Scalar.andi v2620 v2622
  let v2609 : BitVec 32 := Scalar.divsi v2608 c8_i32_1241
  let c1_i32_1247 : BitVec 32 := 1#32
  let v2624 : BitVec 32 := Scalar.subi v2609 c1_i32_1247
  let v2625 : BitVec 32 := Scalar.select v2623 v2624 v2609
  let v2634 : Index := Scalar.indexCast v2625
  let c0_1251 : Index := 0#32
  let c0_1252 : Index := 0#32
  ![v2634.toNat, 0, 0]

def k1_chk63 (v2608 : BitVec 32) : Prop :=
  (∀ a, (k1_off63 v2608) a + S1x8x128.size a ≤ S1250x8x128.size a)
instance k1_chk63.dec : ∀ (v2608 : BitVec 32), Decidable (k1_chk63 v2608) := fun v2608 => decidable_of_iff' _ (Iff.of_eq (k1_chk63.eq_1 v2608))
theorem k1_off63_inb : ∀ (v2608 : BitVec 32) (k1_hw63 : k1_chk63 v2608), ∀ a, (k1_off63 v2608) a + S1x8x128.size a ≤ S1250x8x128.size a := fun v2608 k1_hw63 => k1_hw63

def k1_off64 (v2650 : BitVec 32) : Fin 3 → Nat :=
  let c0_i32_1262 : BitVec 32 := 0#32
  let v2652 : BitVec 1 := Scalar.cmpi .sgt v2650 c0_i32_1262
  let v2653 : BitVec 32 := Scalar.extui v2652
  let c0_i32_1263 : BitVec 32 := 0#32
  let v2654 : BitVec 1 := Scalar.cmpi .slt v2650 c0_i32_1263
  let v2655 : BitVec 32 := Scalar.extui v2654
  let v2656 : BitVec 32 := Scalar.subi v2653 v2655
  let c8_i32_1261 : BitVec 32 := 8#32
  let c0_i32_1264 : BitVec 32 := 0#32
  let v2657 : BitVec 1 := Scalar.cmpi .sgt c8_i32_1261 c0_i32_1264
  let v2658 : BitVec 32 := Scalar.extui v2657
  let c0_i32_1265 : BitVec 32 := 0#32
  let v2659 : BitVec 1 := Scalar.cmpi .slt c8_i32_1261 c0_i32_1265
  let v2660 : BitVec 32 := Scalar.extui v2659
  let v2661 : BitVec 32 := Scalar.subi v2658 v2660
  let v2662 : BitVec 1 := Scalar.cmpi .ne v2656 v2661
  let v2663 : BitVec 32 := Scalar.remsi v2650 c8_i32_1261
  let c0_i32_1266 : BitVec 32 := 0#32
  let v2664 : BitVec 1 := Scalar.cmpi .ne v2663 c0_i32_1266
  let v2665 : BitVec 1 := Scalar.andi v2662 v2664
  let v2651 : BitVec 32 := Scalar.divsi v2650 c8_i32_1261
  let c1_i32_1267 : BitVec 32 := 1#32
  let v2666 : BitVec 32 := Scalar.subi v2651 c1_i32_1267
  let v2667 : BitVec 32 := Scalar.select v2665 v2666 v2651
  let v2676 : Index := Scalar.indexCast v2667
  let c0_1271 : Index := 0#32
  let c0_1272 : Index := 0#32
  ![v2676.toNat, 0, 0]

def k1_chk64 (v2650 : BitVec 32) : Prop :=
  (∀ a, (k1_off64 v2650) a + S1x8x128.size a ≤ S1250x8x128.size a)
instance k1_chk64.dec : ∀ (v2650 : BitVec 32), Decidable (k1_chk64 v2650) := fun v2650 => decidable_of_iff' _ (Iff.of_eq (k1_chk64.eq_1 v2650))
theorem k1_off64_inb : ∀ (v2650 : BitVec 32) (k1_hw64 : k1_chk64 v2650), ∀ a, (k1_off64 v2650) a + S1x8x128.size a ≤ S1250x8x128.size a := fun v2650 k1_hw64 => k1_hw64

def k1_off65 (v2692 : BitVec 32) : Fin 3 → Nat :=
  let c0_i32_1282 : BitVec 32 := 0#32
  let v2694 : BitVec 1 := Scalar.cmpi .sgt v2692 c0_i32_1282
  let v2695 : BitVec 32 := Scalar.extui v2694
  let c0_i32_1283 : BitVec 32 := 0#32
  let v2696 : BitVec 1 := Scalar.cmpi .slt v2692 c0_i32_1283
  let v2697 : BitVec 32 := Scalar.extui v2696
  let v2698 : BitVec 32 := Scalar.subi v2695 v2697
  let c8_i32_1281 : BitVec 32 := 8#32
  let c0_i32_1284 : BitVec 32 := 0#32
  let v2699 : BitVec 1 := Scalar.cmpi .sgt c8_i32_1281 c0_i32_1284
  let v2700 : BitVec 32 := Scalar.extui v2699
  let c0_i32_1285 : BitVec 32 := 0#32
  let v2701 : BitVec 1 := Scalar.cmpi .slt c8_i32_1281 c0_i32_1285
  let v2702 : BitVec 32 := Scalar.extui v2701
  let v2703 : BitVec 32 := Scalar.subi v2700 v2702
  let v2704 : BitVec 1 := Scalar.cmpi .ne v2698 v2703
  let v2705 : BitVec 32 := Scalar.remsi v2692 c8_i32_1281
  let c0_i32_1286 : BitVec 32 := 0#32
  let v2706 : BitVec 1 := Scalar.cmpi .ne v2705 c0_i32_1286
  let v2707 : BitVec 1 := Scalar.andi v2704 v2706
  let v2693 : BitVec 32 := Scalar.divsi v2692 c8_i32_1281
  let c1_i32_1287 : BitVec 32 := 1#32
  let v2708 : BitVec 32 := Scalar.subi v2693 c1_i32_1287
  let v2709 : BitVec 32 := Scalar.select v2707 v2708 v2693
  let v2718 : Index := Scalar.indexCast v2709
  let c0_1291 : Index := 0#32
  let c0_1292 : Index := 0#32
  ![v2718.toNat, 0, 0]

def k1_chk65 (v2692 : BitVec 32) : Prop :=
  (∀ a, (k1_off65 v2692) a + S1x8x128.size a ≤ S1250x8x128.size a)
instance k1_chk65.dec : ∀ (v2692 : BitVec 32), Decidable (k1_chk65 v2692) := fun v2692 => decidable_of_iff' _ (Iff.of_eq (k1_chk65.eq_1 v2692))
theorem k1_off65_inb : ∀ (v2692 : BitVec 32) (k1_hw65 : k1_chk65 v2692), ∀ a, (k1_off65 v2692) a + S1x8x128.size a ≤ S1250x8x128.size a := fun v2692 k1_hw65 => k1_hw65

def k1_off66 (v2734 : BitVec 32) : Fin 3 → Nat :=
  let c0_i32_1302 : BitVec 32 := 0#32
  let v2736 : BitVec 1 := Scalar.cmpi .sgt v2734 c0_i32_1302
  let v2737 : BitVec 32 := Scalar.extui v2736
  let c0_i32_1303 : BitVec 32 := 0#32
  let v2738 : BitVec 1 := Scalar.cmpi .slt v2734 c0_i32_1303
  let v2739 : BitVec 32 := Scalar.extui v2738
  let v2740 : BitVec 32 := Scalar.subi v2737 v2739
  let c8_i32_1301 : BitVec 32 := 8#32
  let c0_i32_1304 : BitVec 32 := 0#32
  let v2741 : BitVec 1 := Scalar.cmpi .sgt c8_i32_1301 c0_i32_1304
  let v2742 : BitVec 32 := Scalar.extui v2741
  let c0_i32_1305 : BitVec 32 := 0#32
  let v2743 : BitVec 1 := Scalar.cmpi .slt c8_i32_1301 c0_i32_1305
  let v2744 : BitVec 32 := Scalar.extui v2743
  let v2745 : BitVec 32 := Scalar.subi v2742 v2744
  let v2746 : BitVec 1 := Scalar.cmpi .ne v2740 v2745
  let v2747 : BitVec 32 := Scalar.remsi v2734 c8_i32_1301
  let c0_i32_1306 : BitVec 32 := 0#32
  let v2748 : BitVec 1 := Scalar.cmpi .ne v2747 c0_i32_1306
  let v2749 : BitVec 1 := Scalar.andi v2746 v2748
  let v2735 : BitVec 32 := Scalar.divsi v2734 c8_i32_1301
  let c1_i32_1307 : BitVec 32 := 1#32
  let v2750 : BitVec 32 := Scalar.subi v2735 c1_i32_1307
  let v2751 : BitVec 32 := Scalar.select v2749 v2750 v2735
  let v2760 : Index := Scalar.indexCast v2751
  let c0_1311 : Index := 0#32
  let c0_1312 : Index := 0#32
  ![v2760.toNat, 0, 0]

def k1_chk66 (v2734 : BitVec 32) : Prop :=
  (∀ a, (k1_off66 v2734) a + S1x8x128.size a ≤ S1250x8x128.size a)
instance k1_chk66.dec : ∀ (v2734 : BitVec 32), Decidable (k1_chk66 v2734) := fun v2734 => decidable_of_iff' _ (Iff.of_eq (k1_chk66.eq_1 v2734))
theorem k1_off66_inb : ∀ (v2734 : BitVec 32) (k1_hw66 : k1_chk66 v2734), ∀ a, (k1_off66 v2734) a + S1x8x128.size a ≤ S1250x8x128.size a := fun v2734 k1_hw66 => k1_hw66

def k1_off67 (v2776 : BitVec 32) : Fin 3 → Nat :=
  let c0_i32_1322 : BitVec 32 := 0#32
  let v2778 : BitVec 1 := Scalar.cmpi .sgt v2776 c0_i32_1322
  let v2779 : BitVec 32 := Scalar.extui v2778
  let c0_i32_1323 : BitVec 32 := 0#32
  let v2780 : BitVec 1 := Scalar.cmpi .slt v2776 c0_i32_1323
  let v2781 : BitVec 32 := Scalar.extui v2780
  let v2782 : BitVec 32 := Scalar.subi v2779 v2781
  let c8_i32_1321 : BitVec 32 := 8#32
  let c0_i32_1324 : BitVec 32 := 0#32
  let v2783 : BitVec 1 := Scalar.cmpi .sgt c8_i32_1321 c0_i32_1324
  let v2784 : BitVec 32 := Scalar.extui v2783
  let c0_i32_1325 : BitVec 32 := 0#32
  let v2785 : BitVec 1 := Scalar.cmpi .slt c8_i32_1321 c0_i32_1325
  let v2786 : BitVec 32 := Scalar.extui v2785
  let v2787 : BitVec 32 := Scalar.subi v2784 v2786
  let v2788 : BitVec 1 := Scalar.cmpi .ne v2782 v2787
  let v2789 : BitVec 32 := Scalar.remsi v2776 c8_i32_1321
  let c0_i32_1326 : BitVec 32 := 0#32
  let v2790 : BitVec 1 := Scalar.cmpi .ne v2789 c0_i32_1326
  let v2791 : BitVec 1 := Scalar.andi v2788 v2790
  let v2777 : BitVec 32 := Scalar.divsi v2776 c8_i32_1321
  let c1_i32_1327 : BitVec 32 := 1#32
  let v2792 : BitVec 32 := Scalar.subi v2777 c1_i32_1327
  let v2793 : BitVec 32 := Scalar.select v2791 v2792 v2777
  let v2802 : Index := Scalar.indexCast v2793
  let c0_1331 : Index := 0#32
  let c0_1332 : Index := 0#32
  ![v2802.toNat, 0, 0]

def k1_chk67 (v2776 : BitVec 32) : Prop :=
  (∀ a, (k1_off67 v2776) a + S1x8x128.size a ≤ S1250x8x128.size a)
instance k1_chk67.dec : ∀ (v2776 : BitVec 32), Decidable (k1_chk67 v2776) := fun v2776 => decidable_of_iff' _ (Iff.of_eq (k1_chk67.eq_1 v2776))
theorem k1_off67_inb : ∀ (v2776 : BitVec 32) (k1_hw67 : k1_chk67 v2776), ∀ a, (k1_off67 v2776) a + S1x8x128.size a ≤ S1250x8x128.size a := fun v2776 k1_hw67 => k1_hw67

def k1_off68 (v2818 : BitVec 32) : Fin 3 → Nat :=
  let c0_i32_1342 : BitVec 32 := 0#32
  let v2820 : BitVec 1 := Scalar.cmpi .sgt v2818 c0_i32_1342
  let v2821 : BitVec 32 := Scalar.extui v2820
  let c0_i32_1343 : BitVec 32 := 0#32
  let v2822 : BitVec 1 := Scalar.cmpi .slt v2818 c0_i32_1343
  let v2823 : BitVec 32 := Scalar.extui v2822
  let v2824 : BitVec 32 := Scalar.subi v2821 v2823
  let c8_i32_1341 : BitVec 32 := 8#32
  let c0_i32_1344 : BitVec 32 := 0#32
  let v2825 : BitVec 1 := Scalar.cmpi .sgt c8_i32_1341 c0_i32_1344
  let v2826 : BitVec 32 := Scalar.extui v2825
  let c0_i32_1345 : BitVec 32 := 0#32
  let v2827 : BitVec 1 := Scalar.cmpi .slt c8_i32_1341 c0_i32_1345
  let v2828 : BitVec 32 := Scalar.extui v2827
  let v2829 : BitVec 32 := Scalar.subi v2826 v2828
  let v2830 : BitVec 1 := Scalar.cmpi .ne v2824 v2829
  let v2831 : BitVec 32 := Scalar.remsi v2818 c8_i32_1341
  let c0_i32_1346 : BitVec 32 := 0#32
  let v2832 : BitVec 1 := Scalar.cmpi .ne v2831 c0_i32_1346
  let v2833 : BitVec 1 := Scalar.andi v2830 v2832
  let v2819 : BitVec 32 := Scalar.divsi v2818 c8_i32_1341
  let c1_i32_1347 : BitVec 32 := 1#32
  let v2834 : BitVec 32 := Scalar.subi v2819 c1_i32_1347
  let v2835 : BitVec 32 := Scalar.select v2833 v2834 v2819
  let v2844 : Index := Scalar.indexCast v2835
  let c0_1351 : Index := 0#32
  let c0_1352 : Index := 0#32
  ![v2844.toNat, 0, 0]

def k1_chk68 (v2818 : BitVec 32) : Prop :=
  (∀ a, (k1_off68 v2818) a + S1x8x128.size a ≤ S1250x8x128.size a)
instance k1_chk68.dec : ∀ (v2818 : BitVec 32), Decidable (k1_chk68 v2818) := fun v2818 => decidable_of_iff' _ (Iff.of_eq (k1_chk68.eq_1 v2818))
theorem k1_off68_inb : ∀ (v2818 : BitVec 32) (k1_hw68 : k1_chk68 v2818), ∀ a, (k1_off68 v2818) a + S1x8x128.size a ≤ S1250x8x128.size a := fun v2818 k1_hw68 => k1_hw68

def k1_off69 (v2860 : BitVec 32) : Fin 3 → Nat :=
  let c0_i32_1362 : BitVec 32 := 0#32
  let v2862 : BitVec 1 := Scalar.cmpi .sgt v2860 c0_i32_1362
  let v2863 : BitVec 32 := Scalar.extui v2862
  let c0_i32_1363 : BitVec 32 := 0#32
  let v2864 : BitVec 1 := Scalar.cmpi .slt v2860 c0_i32_1363
  let v2865 : BitVec 32 := Scalar.extui v2864
  let v2866 : BitVec 32 := Scalar.subi v2863 v2865
  let c8_i32_1361 : BitVec 32 := 8#32
  let c0_i32_1364 : BitVec 32 := 0#32
  let v2867 : BitVec 1 := Scalar.cmpi .sgt c8_i32_1361 c0_i32_1364
  let v2868 : BitVec 32 := Scalar.extui v2867
  let c0_i32_1365 : BitVec 32 := 0#32
  let v2869 : BitVec 1 := Scalar.cmpi .slt c8_i32_1361 c0_i32_1365
  let v2870 : BitVec 32 := Scalar.extui v2869
  let v2871 : BitVec 32 := Scalar.subi v2868 v2870
  let v2872 : BitVec 1 := Scalar.cmpi .ne v2866 v2871
  let v2873 : BitVec 32 := Scalar.remsi v2860 c8_i32_1361
  let c0_i32_1366 : BitVec 32 := 0#32
  let v2874 : BitVec 1 := Scalar.cmpi .ne v2873 c0_i32_1366
  let v2875 : BitVec 1 := Scalar.andi v2872 v2874
  let v2861 : BitVec 32 := Scalar.divsi v2860 c8_i32_1361
  let c1_i32_1367 : BitVec 32 := 1#32
  let v2876 : BitVec 32 := Scalar.subi v2861 c1_i32_1367
  let v2877 : BitVec 32 := Scalar.select v2875 v2876 v2861
  let v2886 : Index := Scalar.indexCast v2877
  let c0_1371 : Index := 0#32
  let c0_1372 : Index := 0#32
  ![v2886.toNat, 0, 0]

def k1_chk69 (v2860 : BitVec 32) : Prop :=
  (∀ a, (k1_off69 v2860) a + S1x8x128.size a ≤ S1250x8x128.size a)
instance k1_chk69.dec : ∀ (v2860 : BitVec 32), Decidable (k1_chk69 v2860) := fun v2860 => decidable_of_iff' _ (Iff.of_eq (k1_chk69.eq_1 v2860))
theorem k1_off69_inb : ∀ (v2860 : BitVec 32) (k1_hw69 : k1_chk69 v2860), ∀ a, (k1_off69 v2860) a + S1x8x128.size a ≤ S1250x8x128.size a := fun v2860 k1_hw69 => k1_hw69

def k1_off70 (v2902 : BitVec 32) : Fin 3 → Nat :=
  let c0_i32_1382 : BitVec 32 := 0#32
  let v2904 : BitVec 1 := Scalar.cmpi .sgt v2902 c0_i32_1382
  let v2905 : BitVec 32 := Scalar.extui v2904
  let c0_i32_1383 : BitVec 32 := 0#32
  let v2906 : BitVec 1 := Scalar.cmpi .slt v2902 c0_i32_1383
  let v2907 : BitVec 32 := Scalar.extui v2906
  let v2908 : BitVec 32 := Scalar.subi v2905 v2907
  let c8_i32_1381 : BitVec 32 := 8#32
  let c0_i32_1384 : BitVec 32 := 0#32
  let v2909 : BitVec 1 := Scalar.cmpi .sgt c8_i32_1381 c0_i32_1384
  let v2910 : BitVec 32 := Scalar.extui v2909
  let c0_i32_1385 : BitVec 32 := 0#32
  let v2911 : BitVec 1 := Scalar.cmpi .slt c8_i32_1381 c0_i32_1385
  let v2912 : BitVec 32 := Scalar.extui v2911
  let v2913 : BitVec 32 := Scalar.subi v2910 v2912
  let v2914 : BitVec 1 := Scalar.cmpi .ne v2908 v2913
  let v2915 : BitVec 32 := Scalar.remsi v2902 c8_i32_1381
  let c0_i32_1386 : BitVec 32 := 0#32
  let v2916 : BitVec 1 := Scalar.cmpi .ne v2915 c0_i32_1386
  let v2917 : BitVec 1 := Scalar.andi v2914 v2916
  let v2903 : BitVec 32 := Scalar.divsi v2902 c8_i32_1381
  let c1_i32_1387 : BitVec 32 := 1#32
  let v2918 : BitVec 32 := Scalar.subi v2903 c1_i32_1387
  let v2919 : BitVec 32 := Scalar.select v2917 v2918 v2903
  let v2928 : Index := Scalar.indexCast v2919
  let c0_1391 : Index := 0#32
  let c0_1392 : Index := 0#32
  ![v2928.toNat, 0, 0]

def k1_chk70 (v2902 : BitVec 32) : Prop :=
  (∀ a, (k1_off70 v2902) a + S1x8x128.size a ≤ S1250x8x128.size a)
instance k1_chk70.dec : ∀ (v2902 : BitVec 32), Decidable (k1_chk70 v2902) := fun v2902 => decidable_of_iff' _ (Iff.of_eq (k1_chk70.eq_1 v2902))
theorem k1_off70_inb : ∀ (v2902 : BitVec 32) (k1_hw70 : k1_chk70 v2902), ∀ a, (k1_off70 v2902) a + S1x8x128.size a ≤ S1250x8x128.size a := fun v2902 k1_hw70 => k1_hw70

def k1_off71 (v2944 : BitVec 32) : Fin 3 → Nat :=
  let c0_i32_1402 : BitVec 32 := 0#32
  let v2946 : BitVec 1 := Scalar.cmpi .sgt v2944 c0_i32_1402
  let v2947 : BitVec 32 := Scalar.extui v2946
  let c0_i32_1403 : BitVec 32 := 0#32
  let v2948 : BitVec 1 := Scalar.cmpi .slt v2944 c0_i32_1403
  let v2949 : BitVec 32 := Scalar.extui v2948
  let v2950 : BitVec 32 := Scalar.subi v2947 v2949
  let c8_i32_1401 : BitVec 32 := 8#32
  let c0_i32_1404 : BitVec 32 := 0#32
  let v2951 : BitVec 1 := Scalar.cmpi .sgt c8_i32_1401 c0_i32_1404
  let v2952 : BitVec 32 := Scalar.extui v2951
  let c0_i32_1405 : BitVec 32 := 0#32
  let v2953 : BitVec 1 := Scalar.cmpi .slt c8_i32_1401 c0_i32_1405
  let v2954 : BitVec 32 := Scalar.extui v2953
  let v2955 : BitVec 32 := Scalar.subi v2952 v2954
  let v2956 : BitVec 1 := Scalar.cmpi .ne v2950 v2955
  let v2957 : BitVec 32 := Scalar.remsi v2944 c8_i32_1401
  let c0_i32_1406 : BitVec 32 := 0#32
  let v2958 : BitVec 1 := Scalar.cmpi .ne v2957 c0_i32_1406
  let v2959 : BitVec 1 := Scalar.andi v2956 v2958
  let v2945 : BitVec 32 := Scalar.divsi v2944 c8_i32_1401
  let c1_i32_1407 : BitVec 32 := 1#32
  let v2960 : BitVec 32 := Scalar.subi v2945 c1_i32_1407
  let v2961 : BitVec 32 := Scalar.select v2959 v2960 v2945
  let v2970 : Index := Scalar.indexCast v2961
  let c0_1411 : Index := 0#32
  let c0_1412 : Index := 0#32
  ![v2970.toNat, 0, 0]

def k1_chk71 (v2944 : BitVec 32) : Prop :=
  (∀ a, (k1_off71 v2944) a + S1x8x128.size a ≤ S1250x8x128.size a)
instance k1_chk71.dec : ∀ (v2944 : BitVec 32), Decidable (k1_chk71 v2944) := fun v2944 => decidable_of_iff' _ (Iff.of_eq (k1_chk71.eq_1 v2944))
theorem k1_off71_inb : ∀ (v2944 : BitVec 32) (k1_hw71 : k1_chk71 v2944), ∀ a, (k1_off71 v2944) a + S1x8x128.size a ≤ S1250x8x128.size a := fun v2944 k1_hw71 => k1_hw71

def k1_off72 (v2986 : BitVec 32) : Fin 3 → Nat :=
  let c0_i32_1422 : BitVec 32 := 0#32
  let v2988 : BitVec 1 := Scalar.cmpi .sgt v2986 c0_i32_1422
  let v2989 : BitVec 32 := Scalar.extui v2988
  let c0_i32_1423 : BitVec 32 := 0#32
  let v2990 : BitVec 1 := Scalar.cmpi .slt v2986 c0_i32_1423
  let v2991 : BitVec 32 := Scalar.extui v2990
  let v2992 : BitVec 32 := Scalar.subi v2989 v2991
  let c8_i32_1421 : BitVec 32 := 8#32
  let c0_i32_1424 : BitVec 32 := 0#32
  let v2993 : BitVec 1 := Scalar.cmpi .sgt c8_i32_1421 c0_i32_1424
  let v2994 : BitVec 32 := Scalar.extui v2993
  let c0_i32_1425 : BitVec 32 := 0#32
  let v2995 : BitVec 1 := Scalar.cmpi .slt c8_i32_1421 c0_i32_1425
  let v2996 : BitVec 32 := Scalar.extui v2995
  let v2997 : BitVec 32 := Scalar.subi v2994 v2996
  let v2998 : BitVec 1 := Scalar.cmpi .ne v2992 v2997
  let v2999 : BitVec 32 := Scalar.remsi v2986 c8_i32_1421
  let c0_i32_1426 : BitVec 32 := 0#32
  let v3000 : BitVec 1 := Scalar.cmpi .ne v2999 c0_i32_1426
  let v3001 : BitVec 1 := Scalar.andi v2998 v3000
  let v2987 : BitVec 32 := Scalar.divsi v2986 c8_i32_1421
  let c1_i32_1427 : BitVec 32 := 1#32
  let v3002 : BitVec 32 := Scalar.subi v2987 c1_i32_1427
  let v3003 : BitVec 32 := Scalar.select v3001 v3002 v2987
  let v3012 : Index := Scalar.indexCast v3003
  let c0_1431 : Index := 0#32
  let c0_1432 : Index := 0#32
  ![v3012.toNat, 0, 0]

def k1_chk72 (v2986 : BitVec 32) : Prop :=
  (∀ a, (k1_off72 v2986) a + S1x8x128.size a ≤ S1250x8x128.size a)
instance k1_chk72.dec : ∀ (v2986 : BitVec 32), Decidable (k1_chk72 v2986) := fun v2986 => decidable_of_iff' _ (Iff.of_eq (k1_chk72.eq_1 v2986))
theorem k1_off72_inb : ∀ (v2986 : BitVec 32) (k1_hw72 : k1_chk72 v2986), ∀ a, (k1_off72 v2986) a + S1x8x128.size a ≤ S1250x8x128.size a := fun v2986 k1_hw72 => k1_hw72

def k1_off73 (v3028 : BitVec 32) : Fin 3 → Nat :=
  let c0_i32_1442 : BitVec 32 := 0#32
  let v3030 : BitVec 1 := Scalar.cmpi .sgt v3028 c0_i32_1442
  let v3031 : BitVec 32 := Scalar.extui v3030
  let c0_i32_1443 : BitVec 32 := 0#32
  let v3032 : BitVec 1 := Scalar.cmpi .slt v3028 c0_i32_1443
  let v3033 : BitVec 32 := Scalar.extui v3032
  let v3034 : BitVec 32 := Scalar.subi v3031 v3033
  let c8_i32_1441 : BitVec 32 := 8#32
  let c0_i32_1444 : BitVec 32 := 0#32
  let v3035 : BitVec 1 := Scalar.cmpi .sgt c8_i32_1441 c0_i32_1444
  let v3036 : BitVec 32 := Scalar.extui v3035
  let c0_i32_1445 : BitVec 32 := 0#32
  let v3037 : BitVec 1 := Scalar.cmpi .slt c8_i32_1441 c0_i32_1445
  let v3038 : BitVec 32 := Scalar.extui v3037
  let v3039 : BitVec 32 := Scalar.subi v3036 v3038
  let v3040 : BitVec 1 := Scalar.cmpi .ne v3034 v3039
  let v3041 : BitVec 32 := Scalar.remsi v3028 c8_i32_1441
  let c0_i32_1446 : BitVec 32 := 0#32
  let v3042 : BitVec 1 := Scalar.cmpi .ne v3041 c0_i32_1446
  let v3043 : BitVec 1 := Scalar.andi v3040 v3042
  let v3029 : BitVec 32 := Scalar.divsi v3028 c8_i32_1441
  let c1_i32_1447 : BitVec 32 := 1#32
  let v3044 : BitVec 32 := Scalar.subi v3029 c1_i32_1447
  let v3045 : BitVec 32 := Scalar.select v3043 v3044 v3029
  let v3054 : Index := Scalar.indexCast v3045
  let c0_1451 : Index := 0#32
  let c0_1452 : Index := 0#32
  ![v3054.toNat, 0, 0]

def k1_chk73 (v3028 : BitVec 32) : Prop :=
  (∀ a, (k1_off73 v3028) a + S1x8x128.size a ≤ S1250x8x128.size a)
instance k1_chk73.dec : ∀ (v3028 : BitVec 32), Decidable (k1_chk73 v3028) := fun v3028 => decidable_of_iff' _ (Iff.of_eq (k1_chk73.eq_1 v3028))
theorem k1_off73_inb : ∀ (v3028 : BitVec 32) (k1_hw73 : k1_chk73 v3028), ∀ a, (k1_off73 v3028) a + S1x8x128.size a ≤ S1250x8x128.size a := fun v3028 k1_hw73 => k1_hw73

def k1_off74 (v3070 : BitVec 32) : Fin 3 → Nat :=
  let c0_i32_1462 : BitVec 32 := 0#32
  let v3072 : BitVec 1 := Scalar.cmpi .sgt v3070 c0_i32_1462
  let v3073 : BitVec 32 := Scalar.extui v3072
  let c0_i32_1463 : BitVec 32 := 0#32
  let v3074 : BitVec 1 := Scalar.cmpi .slt v3070 c0_i32_1463
  let v3075 : BitVec 32 := Scalar.extui v3074
  let v3076 : BitVec 32 := Scalar.subi v3073 v3075
  let c8_i32_1461 : BitVec 32 := 8#32
  let c0_i32_1464 : BitVec 32 := 0#32
  let v3077 : BitVec 1 := Scalar.cmpi .sgt c8_i32_1461 c0_i32_1464
  let v3078 : BitVec 32 := Scalar.extui v3077
  let c0_i32_1465 : BitVec 32 := 0#32
  let v3079 : BitVec 1 := Scalar.cmpi .slt c8_i32_1461 c0_i32_1465
  let v3080 : BitVec 32 := Scalar.extui v3079
  let v3081 : BitVec 32 := Scalar.subi v3078 v3080
  let v3082 : BitVec 1 := Scalar.cmpi .ne v3076 v3081
  let v3083 : BitVec 32 := Scalar.remsi v3070 c8_i32_1461
  let c0_i32_1466 : BitVec 32 := 0#32
  let v3084 : BitVec 1 := Scalar.cmpi .ne v3083 c0_i32_1466
  let v3085 : BitVec 1 := Scalar.andi v3082 v3084
  let v3071 : BitVec 32 := Scalar.divsi v3070 c8_i32_1461
  let c1_i32_1467 : BitVec 32 := 1#32
  let v3086 : BitVec 32 := Scalar.subi v3071 c1_i32_1467
  let v3087 : BitVec 32 := Scalar.select v3085 v3086 v3071
  let v3096 : Index := Scalar.indexCast v3087
  let c0_1471 : Index := 0#32
  let c0_1472 : Index := 0#32
  ![v3096.toNat, 0, 0]

def k1_chk74 (v3070 : BitVec 32) : Prop :=
  (∀ a, (k1_off74 v3070) a + S1x8x128.size a ≤ S1250x8x128.size a)
instance k1_chk74.dec : ∀ (v3070 : BitVec 32), Decidable (k1_chk74 v3070) := fun v3070 => decidable_of_iff' _ (Iff.of_eq (k1_chk74.eq_1 v3070))
theorem k1_off74_inb : ∀ (v3070 : BitVec 32) (k1_hw74 : k1_chk74 v3070), ∀ a, (k1_off74 v3070) a + S1x8x128.size a ≤ S1250x8x128.size a := fun v3070 k1_hw74 => k1_hw74

def k1_off75 (v3112 : BitVec 32) : Fin 3 → Nat :=
  let c0_i32_1482 : BitVec 32 := 0#32
  let v3114 : BitVec 1 := Scalar.cmpi .sgt v3112 c0_i32_1482
  let v3115 : BitVec 32 := Scalar.extui v3114
  let c0_i32_1483 : BitVec 32 := 0#32
  let v3116 : BitVec 1 := Scalar.cmpi .slt v3112 c0_i32_1483
  let v3117 : BitVec 32 := Scalar.extui v3116
  let v3118 : BitVec 32 := Scalar.subi v3115 v3117
  let c8_i32_1481 : BitVec 32 := 8#32
  let c0_i32_1484 : BitVec 32 := 0#32
  let v3119 : BitVec 1 := Scalar.cmpi .sgt c8_i32_1481 c0_i32_1484
  let v3120 : BitVec 32 := Scalar.extui v3119
  let c0_i32_1485 : BitVec 32 := 0#32
  let v3121 : BitVec 1 := Scalar.cmpi .slt c8_i32_1481 c0_i32_1485
  let v3122 : BitVec 32 := Scalar.extui v3121
  let v3123 : BitVec 32 := Scalar.subi v3120 v3122
  let v3124 : BitVec 1 := Scalar.cmpi .ne v3118 v3123
  let v3125 : BitVec 32 := Scalar.remsi v3112 c8_i32_1481
  let c0_i32_1486 : BitVec 32 := 0#32
  let v3126 : BitVec 1 := Scalar.cmpi .ne v3125 c0_i32_1486
  let v3127 : BitVec 1 := Scalar.andi v3124 v3126
  let v3113 : BitVec 32 := Scalar.divsi v3112 c8_i32_1481
  let c1_i32_1487 : BitVec 32 := 1#32
  let v3128 : BitVec 32 := Scalar.subi v3113 c1_i32_1487
  let v3129 : BitVec 32 := Scalar.select v3127 v3128 v3113
  let v3138 : Index := Scalar.indexCast v3129
  let c0_1491 : Index := 0#32
  let c0_1492 : Index := 0#32
  ![v3138.toNat, 0, 0]

def k1_chk75 (v3112 : BitVec 32) : Prop :=
  (∀ a, (k1_off75 v3112) a + S1x8x128.size a ≤ S1250x8x128.size a)
instance k1_chk75.dec : ∀ (v3112 : BitVec 32), Decidable (k1_chk75 v3112) := fun v3112 => decidable_of_iff' _ (Iff.of_eq (k1_chk75.eq_1 v3112))
theorem k1_off75_inb : ∀ (v3112 : BitVec 32) (k1_hw75 : k1_chk75 v3112), ∀ a, (k1_off75 v3112) a + S1x8x128.size a ≤ S1250x8x128.size a := fun v3112 k1_hw75 => k1_hw75

def k1_off76 (v3154 : BitVec 32) : Fin 3 → Nat :=
  let c0_i32_1502 : BitVec 32 := 0#32
  let v3156 : BitVec 1 := Scalar.cmpi .sgt v3154 c0_i32_1502
  let v3157 : BitVec 32 := Scalar.extui v3156
  let c0_i32_1503 : BitVec 32 := 0#32
  let v3158 : BitVec 1 := Scalar.cmpi .slt v3154 c0_i32_1503
  let v3159 : BitVec 32 := Scalar.extui v3158
  let v3160 : BitVec 32 := Scalar.subi v3157 v3159
  let c8_i32_1501 : BitVec 32 := 8#32
  let c0_i32_1504 : BitVec 32 := 0#32
  let v3161 : BitVec 1 := Scalar.cmpi .sgt c8_i32_1501 c0_i32_1504
  let v3162 : BitVec 32 := Scalar.extui v3161
  let c0_i32_1505 : BitVec 32 := 0#32
  let v3163 : BitVec 1 := Scalar.cmpi .slt c8_i32_1501 c0_i32_1505
  let v3164 : BitVec 32 := Scalar.extui v3163
  let v3165 : BitVec 32 := Scalar.subi v3162 v3164
  let v3166 : BitVec 1 := Scalar.cmpi .ne v3160 v3165
  let v3167 : BitVec 32 := Scalar.remsi v3154 c8_i32_1501
  let c0_i32_1506 : BitVec 32 := 0#32
  let v3168 : BitVec 1 := Scalar.cmpi .ne v3167 c0_i32_1506
  let v3169 : BitVec 1 := Scalar.andi v3166 v3168
  let v3155 : BitVec 32 := Scalar.divsi v3154 c8_i32_1501
  let c1_i32_1507 : BitVec 32 := 1#32
  let v3170 : BitVec 32 := Scalar.subi v3155 c1_i32_1507
  let v3171 : BitVec 32 := Scalar.select v3169 v3170 v3155
  let v3180 : Index := Scalar.indexCast v3171
  let c0_1511 : Index := 0#32
  let c0_1512 : Index := 0#32
  ![v3180.toNat, 0, 0]

def k1_chk76 (v3154 : BitVec 32) : Prop :=
  (∀ a, (k1_off76 v3154) a + S1x8x128.size a ≤ S1250x8x128.size a)
instance k1_chk76.dec : ∀ (v3154 : BitVec 32), Decidable (k1_chk76 v3154) := fun v3154 => decidable_of_iff' _ (Iff.of_eq (k1_chk76.eq_1 v3154))
theorem k1_off76_inb : ∀ (v3154 : BitVec 32) (k1_hw76 : k1_chk76 v3154), ∀ a, (k1_off76 v3154) a + S1x8x128.size a ≤ S1250x8x128.size a := fun v3154 k1_hw76 => k1_hw76

def k1_off77 (v3196 : BitVec 32) : Fin 3 → Nat :=
  let c0_i32_1522 : BitVec 32 := 0#32
  let v3198 : BitVec 1 := Scalar.cmpi .sgt v3196 c0_i32_1522
  let v3199 : BitVec 32 := Scalar.extui v3198
  let c0_i32_1523 : BitVec 32 := 0#32
  let v3200 : BitVec 1 := Scalar.cmpi .slt v3196 c0_i32_1523
  let v3201 : BitVec 32 := Scalar.extui v3200
  let v3202 : BitVec 32 := Scalar.subi v3199 v3201
  let c8_i32_1521 : BitVec 32 := 8#32
  let c0_i32_1524 : BitVec 32 := 0#32
  let v3203 : BitVec 1 := Scalar.cmpi .sgt c8_i32_1521 c0_i32_1524
  let v3204 : BitVec 32 := Scalar.extui v3203
  let c0_i32_1525 : BitVec 32 := 0#32
  let v3205 : BitVec 1 := Scalar.cmpi .slt c8_i32_1521 c0_i32_1525
  let v3206 : BitVec 32 := Scalar.extui v3205
  let v3207 : BitVec 32 := Scalar.subi v3204 v3206
  let v3208 : BitVec 1 := Scalar.cmpi .ne v3202 v3207
  let v3209 : BitVec 32 := Scalar.remsi v3196 c8_i32_1521
  let c0_i32_1526 : BitVec 32 := 0#32
  let v3210 : BitVec 1 := Scalar.cmpi .ne v3209 c0_i32_1526
  let v3211 : BitVec 1 := Scalar.andi v3208 v3210
  let v3197 : BitVec 32 := Scalar.divsi v3196 c8_i32_1521
  let c1_i32_1527 : BitVec 32 := 1#32
  let v3212 : BitVec 32 := Scalar.subi v3197 c1_i32_1527
  let v3213 : BitVec 32 := Scalar.select v3211 v3212 v3197
  let v3222 : Index := Scalar.indexCast v3213
  let c0_1531 : Index := 0#32
  let c0_1532 : Index := 0#32
  ![v3222.toNat, 0, 0]

def k1_chk77 (v3196 : BitVec 32) : Prop :=
  (∀ a, (k1_off77 v3196) a + S1x8x128.size a ≤ S1250x8x128.size a)
instance k1_chk77.dec : ∀ (v3196 : BitVec 32), Decidable (k1_chk77 v3196) := fun v3196 => decidable_of_iff' _ (Iff.of_eq (k1_chk77.eq_1 v3196))
theorem k1_off77_inb : ∀ (v3196 : BitVec 32) (k1_hw77 : k1_chk77 v3196), ∀ a, (k1_off77 v3196) a + S1x8x128.size a ≤ S1250x8x128.size a := fun v3196 k1_hw77 => k1_hw77

def k1_off78 (v3238 : BitVec 32) : Fin 3 → Nat :=
  let c0_i32_1542 : BitVec 32 := 0#32
  let v3240 : BitVec 1 := Scalar.cmpi .sgt v3238 c0_i32_1542
  let v3241 : BitVec 32 := Scalar.extui v3240
  let c0_i32_1543 : BitVec 32 := 0#32
  let v3242 : BitVec 1 := Scalar.cmpi .slt v3238 c0_i32_1543
  let v3243 : BitVec 32 := Scalar.extui v3242
  let v3244 : BitVec 32 := Scalar.subi v3241 v3243
  let c8_i32_1541 : BitVec 32 := 8#32
  let c0_i32_1544 : BitVec 32 := 0#32
  let v3245 : BitVec 1 := Scalar.cmpi .sgt c8_i32_1541 c0_i32_1544
  let v3246 : BitVec 32 := Scalar.extui v3245
  let c0_i32_1545 : BitVec 32 := 0#32
  let v3247 : BitVec 1 := Scalar.cmpi .slt c8_i32_1541 c0_i32_1545
  let v3248 : BitVec 32 := Scalar.extui v3247
  let v3249 : BitVec 32 := Scalar.subi v3246 v3248
  let v3250 : BitVec 1 := Scalar.cmpi .ne v3244 v3249
  let v3251 : BitVec 32 := Scalar.remsi v3238 c8_i32_1541
  let c0_i32_1546 : BitVec 32 := 0#32
  let v3252 : BitVec 1 := Scalar.cmpi .ne v3251 c0_i32_1546
  let v3253 : BitVec 1 := Scalar.andi v3250 v3252
  let v3239 : BitVec 32 := Scalar.divsi v3238 c8_i32_1541
  let c1_i32_1547 : BitVec 32 := 1#32
  let v3254 : BitVec 32 := Scalar.subi v3239 c1_i32_1547
  let v3255 : BitVec 32 := Scalar.select v3253 v3254 v3239
  let v3264 : Index := Scalar.indexCast v3255
  let c0_1551 : Index := 0#32
  let c0_1552 : Index := 0#32
  ![v3264.toNat, 0, 0]

def k1_chk78 (v3238 : BitVec 32) : Prop :=
  (∀ a, (k1_off78 v3238) a + S1x8x128.size a ≤ S1250x8x128.size a)
instance k1_chk78.dec : ∀ (v3238 : BitVec 32), Decidable (k1_chk78 v3238) := fun v3238 => decidable_of_iff' _ (Iff.of_eq (k1_chk78.eq_1 v3238))
theorem k1_off78_inb : ∀ (v3238 : BitVec 32) (k1_hw78 : k1_chk78 v3238), ∀ a, (k1_off78 v3238) a + S1x8x128.size a ≤ S1250x8x128.size a := fun v3238 k1_hw78 => k1_hw78

def k1_off79 (v3280 : BitVec 32) : Fin 3 → Nat :=
  let c0_i32_1562 : BitVec 32 := 0#32
  let v3282 : BitVec 1 := Scalar.cmpi .sgt v3280 c0_i32_1562
  let v3283 : BitVec 32 := Scalar.extui v3282
  let c0_i32_1563 : BitVec 32 := 0#32
  let v3284 : BitVec 1 := Scalar.cmpi .slt v3280 c0_i32_1563
  let v3285 : BitVec 32 := Scalar.extui v3284
  let v3286 : BitVec 32 := Scalar.subi v3283 v3285
  let c8_i32_1561 : BitVec 32 := 8#32
  let c0_i32_1564 : BitVec 32 := 0#32
  let v3287 : BitVec 1 := Scalar.cmpi .sgt c8_i32_1561 c0_i32_1564
  let v3288 : BitVec 32 := Scalar.extui v3287
  let c0_i32_1565 : BitVec 32 := 0#32
  let v3289 : BitVec 1 := Scalar.cmpi .slt c8_i32_1561 c0_i32_1565
  let v3290 : BitVec 32 := Scalar.extui v3289
  let v3291 : BitVec 32 := Scalar.subi v3288 v3290
  let v3292 : BitVec 1 := Scalar.cmpi .ne v3286 v3291
  let v3293 : BitVec 32 := Scalar.remsi v3280 c8_i32_1561
  let c0_i32_1566 : BitVec 32 := 0#32
  let v3294 : BitVec 1 := Scalar.cmpi .ne v3293 c0_i32_1566
  let v3295 : BitVec 1 := Scalar.andi v3292 v3294
  let v3281 : BitVec 32 := Scalar.divsi v3280 c8_i32_1561
  let c1_i32_1567 : BitVec 32 := 1#32
  let v3296 : BitVec 32 := Scalar.subi v3281 c1_i32_1567
  let v3297 : BitVec 32 := Scalar.select v3295 v3296 v3281
  let v3306 : Index := Scalar.indexCast v3297
  let c0_1571 : Index := 0#32
  let c0_1572 : Index := 0#32
  ![v3306.toNat, 0, 0]

def k1_chk79 (v3280 : BitVec 32) : Prop :=
  (∀ a, (k1_off79 v3280) a + S1x8x128.size a ≤ S1250x8x128.size a)
instance k1_chk79.dec : ∀ (v3280 : BitVec 32), Decidable (k1_chk79 v3280) := fun v3280 => decidable_of_iff' _ (Iff.of_eq (k1_chk79.eq_1 v3280))
theorem k1_off79_inb : ∀ (v3280 : BitVec 32) (k1_hw79 : k1_chk79 v3280), ∀ a, (k1_off79 v3280) a + S1x8x128.size a ≤ S1250x8x128.size a := fun v3280 k1_hw79 => k1_hw79

def k1_off80 (v3322 : BitVec 32) : Fin 3 → Nat :=
  let c0_i32_1582 : BitVec 32 := 0#32
  let v3324 : BitVec 1 := Scalar.cmpi .sgt v3322 c0_i32_1582
  let v3325 : BitVec 32 := Scalar.extui v3324
  let c0_i32_1583 : BitVec 32 := 0#32
  let v3326 : BitVec 1 := Scalar.cmpi .slt v3322 c0_i32_1583
  let v3327 : BitVec 32 := Scalar.extui v3326
  let v3328 : BitVec 32 := Scalar.subi v3325 v3327
  let c8_i32_1581 : BitVec 32 := 8#32
  let c0_i32_1584 : BitVec 32 := 0#32
  let v3329 : BitVec 1 := Scalar.cmpi .sgt c8_i32_1581 c0_i32_1584
  let v3330 : BitVec 32 := Scalar.extui v3329
  let c0_i32_1585 : BitVec 32 := 0#32
  let v3331 : BitVec 1 := Scalar.cmpi .slt c8_i32_1581 c0_i32_1585
  let v3332 : BitVec 32 := Scalar.extui v3331
  let v3333 : BitVec 32 := Scalar.subi v3330 v3332
  let v3334 : BitVec 1 := Scalar.cmpi .ne v3328 v3333
  let v3335 : BitVec 32 := Scalar.remsi v3322 c8_i32_1581
  let c0_i32_1586 : BitVec 32 := 0#32
  let v3336 : BitVec 1 := Scalar.cmpi .ne v3335 c0_i32_1586
  let v3337 : BitVec 1 := Scalar.andi v3334 v3336
  let v3323 : BitVec 32 := Scalar.divsi v3322 c8_i32_1581
  let c1_i32_1587 : BitVec 32 := 1#32
  let v3338 : BitVec 32 := Scalar.subi v3323 c1_i32_1587
  let v3339 : BitVec 32 := Scalar.select v3337 v3338 v3323
  let v3348 : Index := Scalar.indexCast v3339
  let c0_1591 : Index := 0#32
  let c0_1592 : Index := 0#32
  ![v3348.toNat, 0, 0]

def k1_chk80 (v3322 : BitVec 32) : Prop :=
  (∀ a, (k1_off80 v3322) a + S1x8x128.size a ≤ S1250x8x128.size a)
instance k1_chk80.dec : ∀ (v3322 : BitVec 32), Decidable (k1_chk80 v3322) := fun v3322 => decidable_of_iff' _ (Iff.of_eq (k1_chk80.eq_1 v3322))
theorem k1_off80_inb : ∀ (v3322 : BitVec 32) (k1_hw80 : k1_chk80 v3322), ∀ a, (k1_off80 v3322) a + S1x8x128.size a ≤ S1250x8x128.size a := fun v3322 k1_hw80 => k1_hw80

def k1_off81 (v3364 : BitVec 32) : Fin 3 → Nat :=
  let c0_i32_1602 : BitVec 32 := 0#32
  let v3366 : BitVec 1 := Scalar.cmpi .sgt v3364 c0_i32_1602
  let v3367 : BitVec 32 := Scalar.extui v3366
  let c0_i32_1603 : BitVec 32 := 0#32
  let v3368 : BitVec 1 := Scalar.cmpi .slt v3364 c0_i32_1603
  let v3369 : BitVec 32 := Scalar.extui v3368
  let v3370 : BitVec 32 := Scalar.subi v3367 v3369
  let c8_i32_1601 : BitVec 32 := 8#32
  let c0_i32_1604 : BitVec 32 := 0#32
  let v3371 : BitVec 1 := Scalar.cmpi .sgt c8_i32_1601 c0_i32_1604
  let v3372 : BitVec 32 := Scalar.extui v3371
  let c0_i32_1605 : BitVec 32 := 0#32
  let v3373 : BitVec 1 := Scalar.cmpi .slt c8_i32_1601 c0_i32_1605
  let v3374 : BitVec 32 := Scalar.extui v3373
  let v3375 : BitVec 32 := Scalar.subi v3372 v3374
  let v3376 : BitVec 1 := Scalar.cmpi .ne v3370 v3375
  let v3377 : BitVec 32 := Scalar.remsi v3364 c8_i32_1601
  let c0_i32_1606 : BitVec 32 := 0#32
  let v3378 : BitVec 1 := Scalar.cmpi .ne v3377 c0_i32_1606
  let v3379 : BitVec 1 := Scalar.andi v3376 v3378
  let v3365 : BitVec 32 := Scalar.divsi v3364 c8_i32_1601
  let c1_i32_1607 : BitVec 32 := 1#32
  let v3380 : BitVec 32 := Scalar.subi v3365 c1_i32_1607
  let v3381 : BitVec 32 := Scalar.select v3379 v3380 v3365
  let v3390 : Index := Scalar.indexCast v3381
  let c0_1611 : Index := 0#32
  let c0_1612 : Index := 0#32
  ![v3390.toNat, 0, 0]

def k1_chk81 (v3364 : BitVec 32) : Prop :=
  (∀ a, (k1_off81 v3364) a + S1x8x128.size a ≤ S1250x8x128.size a)
instance k1_chk81.dec : ∀ (v3364 : BitVec 32), Decidable (k1_chk81 v3364) := fun v3364 => decidable_of_iff' _ (Iff.of_eq (k1_chk81.eq_1 v3364))
theorem k1_off81_inb : ∀ (v3364 : BitVec 32) (k1_hw81 : k1_chk81 v3364), ∀ a, (k1_off81 v3364) a + S1x8x128.size a ≤ S1250x8x128.size a := fun v3364 k1_hw81 => k1_hw81

def k1_off82 (v3406 : BitVec 32) : Fin 3 → Nat :=
  let c0_i32_1622 : BitVec 32 := 0#32
  let v3408 : BitVec 1 := Scalar.cmpi .sgt v3406 c0_i32_1622
  let v3409 : BitVec 32 := Scalar.extui v3408
  let c0_i32_1623 : BitVec 32 := 0#32
  let v3410 : BitVec 1 := Scalar.cmpi .slt v3406 c0_i32_1623
  let v3411 : BitVec 32 := Scalar.extui v3410
  let v3412 : BitVec 32 := Scalar.subi v3409 v3411
  let c8_i32_1621 : BitVec 32 := 8#32
  let c0_i32_1624 : BitVec 32 := 0#32
  let v3413 : BitVec 1 := Scalar.cmpi .sgt c8_i32_1621 c0_i32_1624
  let v3414 : BitVec 32 := Scalar.extui v3413
  let c0_i32_1625 : BitVec 32 := 0#32
  let v3415 : BitVec 1 := Scalar.cmpi .slt c8_i32_1621 c0_i32_1625
  let v3416 : BitVec 32 := Scalar.extui v3415
  let v3417 : BitVec 32 := Scalar.subi v3414 v3416
  let v3418 : BitVec 1 := Scalar.cmpi .ne v3412 v3417
  let v3419 : BitVec 32 := Scalar.remsi v3406 c8_i32_1621
  let c0_i32_1626 : BitVec 32 := 0#32
  let v3420 : BitVec 1 := Scalar.cmpi .ne v3419 c0_i32_1626
  let v3421 : BitVec 1 := Scalar.andi v3418 v3420
  let v3407 : BitVec 32 := Scalar.divsi v3406 c8_i32_1621
  let c1_i32_1627 : BitVec 32 := 1#32
  let v3422 : BitVec 32 := Scalar.subi v3407 c1_i32_1627
  let v3423 : BitVec 32 := Scalar.select v3421 v3422 v3407
  let v3432 : Index := Scalar.indexCast v3423
  let c0_1631 : Index := 0#32
  let c0_1632 : Index := 0#32
  ![v3432.toNat, 0, 0]

def k1_chk82 (v3406 : BitVec 32) : Prop :=
  (∀ a, (k1_off82 v3406) a + S1x8x128.size a ≤ S1250x8x128.size a)
instance k1_chk82.dec : ∀ (v3406 : BitVec 32), Decidable (k1_chk82 v3406) := fun v3406 => decidable_of_iff' _ (Iff.of_eq (k1_chk82.eq_1 v3406))
theorem k1_off82_inb : ∀ (v3406 : BitVec 32) (k1_hw82 : k1_chk82 v3406), ∀ a, (k1_off82 v3406) a + S1x8x128.size a ≤ S1250x8x128.size a := fun v3406 k1_hw82 => k1_hw82

def k1_off83 (v3448 : BitVec 32) : Fin 3 → Nat :=
  let c0_i32_1642 : BitVec 32 := 0#32
  let v3450 : BitVec 1 := Scalar.cmpi .sgt v3448 c0_i32_1642
  let v3451 : BitVec 32 := Scalar.extui v3450
  let c0_i32_1643 : BitVec 32 := 0#32
  let v3452 : BitVec 1 := Scalar.cmpi .slt v3448 c0_i32_1643
  let v3453 : BitVec 32 := Scalar.extui v3452
  let v3454 : BitVec 32 := Scalar.subi v3451 v3453
  let c8_i32_1641 : BitVec 32 := 8#32
  let c0_i32_1644 : BitVec 32 := 0#32
  let v3455 : BitVec 1 := Scalar.cmpi .sgt c8_i32_1641 c0_i32_1644
  let v3456 : BitVec 32 := Scalar.extui v3455
  let c0_i32_1645 : BitVec 32 := 0#32
  let v3457 : BitVec 1 := Scalar.cmpi .slt c8_i32_1641 c0_i32_1645
  let v3458 : BitVec 32 := Scalar.extui v3457
  let v3459 : BitVec 32 := Scalar.subi v3456 v3458
  let v3460 : BitVec 1 := Scalar.cmpi .ne v3454 v3459
  let v3461 : BitVec 32 := Scalar.remsi v3448 c8_i32_1641
  let c0_i32_1646 : BitVec 32 := 0#32
  let v3462 : BitVec 1 := Scalar.cmpi .ne v3461 c0_i32_1646
  let v3463 : BitVec 1 := Scalar.andi v3460 v3462
  let v3449 : BitVec 32 := Scalar.divsi v3448 c8_i32_1641
  let c1_i32_1647 : BitVec 32 := 1#32
  let v3464 : BitVec 32 := Scalar.subi v3449 c1_i32_1647
  let v3465 : BitVec 32 := Scalar.select v3463 v3464 v3449
  let v3474 : Index := Scalar.indexCast v3465
  let c0_1651 : Index := 0#32
  let c0_1652 : Index := 0#32
  ![v3474.toNat, 0, 0]

def k1_chk83 (v3448 : BitVec 32) : Prop :=
  (∀ a, (k1_off83 v3448) a + S1x8x128.size a ≤ S1250x8x128.size a)
instance k1_chk83.dec : ∀ (v3448 : BitVec 32), Decidable (k1_chk83 v3448) := fun v3448 => decidable_of_iff' _ (Iff.of_eq (k1_chk83.eq_1 v3448))
theorem k1_off83_inb : ∀ (v3448 : BitVec 32) (k1_hw83 : k1_chk83 v3448), ∀ a, (k1_off83 v3448) a + S1x8x128.size a ≤ S1250x8x128.size a := fun v3448 k1_hw83 => k1_hw83

def k1_off84 (v3490 : BitVec 32) : Fin 3 → Nat :=
  let c0_i32_1662 : BitVec 32 := 0#32
  let v3492 : BitVec 1 := Scalar.cmpi .sgt v3490 c0_i32_1662
  let v3493 : BitVec 32 := Scalar.extui v3492
  let c0_i32_1663 : BitVec 32 := 0#32
  let v3494 : BitVec 1 := Scalar.cmpi .slt v3490 c0_i32_1663
  let v3495 : BitVec 32 := Scalar.extui v3494
  let v3496 : BitVec 32 := Scalar.subi v3493 v3495
  let c8_i32_1661 : BitVec 32 := 8#32
  let c0_i32_1664 : BitVec 32 := 0#32
  let v3497 : BitVec 1 := Scalar.cmpi .sgt c8_i32_1661 c0_i32_1664
  let v3498 : BitVec 32 := Scalar.extui v3497
  let c0_i32_1665 : BitVec 32 := 0#32
  let v3499 : BitVec 1 := Scalar.cmpi .slt c8_i32_1661 c0_i32_1665
  let v3500 : BitVec 32 := Scalar.extui v3499
  let v3501 : BitVec 32 := Scalar.subi v3498 v3500
  let v3502 : BitVec 1 := Scalar.cmpi .ne v3496 v3501
  let v3503 : BitVec 32 := Scalar.remsi v3490 c8_i32_1661
  let c0_i32_1666 : BitVec 32 := 0#32
  let v3504 : BitVec 1 := Scalar.cmpi .ne v3503 c0_i32_1666
  let v3505 : BitVec 1 := Scalar.andi v3502 v3504
  let v3491 : BitVec 32 := Scalar.divsi v3490 c8_i32_1661
  let c1_i32_1667 : BitVec 32 := 1#32
  let v3506 : BitVec 32 := Scalar.subi v3491 c1_i32_1667
  let v3507 : BitVec 32 := Scalar.select v3505 v3506 v3491
  let v3516 : Index := Scalar.indexCast v3507
  let c0_1671 : Index := 0#32
  let c0_1672 : Index := 0#32
  ![v3516.toNat, 0, 0]

def k1_chk84 (v3490 : BitVec 32) : Prop :=
  (∀ a, (k1_off84 v3490) a + S1x8x128.size a ≤ S1250x8x128.size a)
instance k1_chk84.dec : ∀ (v3490 : BitVec 32), Decidable (k1_chk84 v3490) := fun v3490 => decidable_of_iff' _ (Iff.of_eq (k1_chk84.eq_1 v3490))
theorem k1_off84_inb : ∀ (v3490 : BitVec 32) (k1_hw84 : k1_chk84 v3490), ∀ a, (k1_off84 v3490) a + S1x8x128.size a ≤ S1250x8x128.size a := fun v3490 k1_hw84 => k1_hw84

def k1_off85 (v3532 : BitVec 32) : Fin 3 → Nat :=
  let c0_i32_1682 : BitVec 32 := 0#32
  let v3534 : BitVec 1 := Scalar.cmpi .sgt v3532 c0_i32_1682
  let v3535 : BitVec 32 := Scalar.extui v3534
  let c0_i32_1683 : BitVec 32 := 0#32
  let v3536 : BitVec 1 := Scalar.cmpi .slt v3532 c0_i32_1683
  let v3537 : BitVec 32 := Scalar.extui v3536
  let v3538 : BitVec 32 := Scalar.subi v3535 v3537
  let c8_i32_1681 : BitVec 32 := 8#32
  let c0_i32_1684 : BitVec 32 := 0#32
  let v3539 : BitVec 1 := Scalar.cmpi .sgt c8_i32_1681 c0_i32_1684
  let v3540 : BitVec 32 := Scalar.extui v3539
  let c0_i32_1685 : BitVec 32 := 0#32
  let v3541 : BitVec 1 := Scalar.cmpi .slt c8_i32_1681 c0_i32_1685
  let v3542 : BitVec 32 := Scalar.extui v3541
  let v3543 : BitVec 32 := Scalar.subi v3540 v3542
  let v3544 : BitVec 1 := Scalar.cmpi .ne v3538 v3543
  let v3545 : BitVec 32 := Scalar.remsi v3532 c8_i32_1681
  let c0_i32_1686 : BitVec 32 := 0#32
  let v3546 : BitVec 1 := Scalar.cmpi .ne v3545 c0_i32_1686
  let v3547 : BitVec 1 := Scalar.andi v3544 v3546
  let v3533 : BitVec 32 := Scalar.divsi v3532 c8_i32_1681
  let c1_i32_1687 : BitVec 32 := 1#32
  let v3548 : BitVec 32 := Scalar.subi v3533 c1_i32_1687
  let v3549 : BitVec 32 := Scalar.select v3547 v3548 v3533
  let v3558 : Index := Scalar.indexCast v3549
  let c0_1691 : Index := 0#32
  let c0_1692 : Index := 0#32
  ![v3558.toNat, 0, 0]

def k1_chk85 (v3532 : BitVec 32) : Prop :=
  (∀ a, (k1_off85 v3532) a + S1x8x128.size a ≤ S1250x8x128.size a)
instance k1_chk85.dec : ∀ (v3532 : BitVec 32), Decidable (k1_chk85 v3532) := fun v3532 => decidable_of_iff' _ (Iff.of_eq (k1_chk85.eq_1 v3532))
theorem k1_off85_inb : ∀ (v3532 : BitVec 32) (k1_hw85 : k1_chk85 v3532), ∀ a, (k1_off85 v3532) a + S1x8x128.size a ≤ S1250x8x128.size a := fun v3532 k1_hw85 => k1_hw85

def k1_off86 (v3574 : BitVec 32) : Fin 3 → Nat :=
  let c0_i32_1702 : BitVec 32 := 0#32
  let v3576 : BitVec 1 := Scalar.cmpi .sgt v3574 c0_i32_1702
  let v3577 : BitVec 32 := Scalar.extui v3576
  let c0_i32_1703 : BitVec 32 := 0#32
  let v3578 : BitVec 1 := Scalar.cmpi .slt v3574 c0_i32_1703
  let v3579 : BitVec 32 := Scalar.extui v3578
  let v3580 : BitVec 32 := Scalar.subi v3577 v3579
  let c8_i32_1701 : BitVec 32 := 8#32
  let c0_i32_1704 : BitVec 32 := 0#32
  let v3581 : BitVec 1 := Scalar.cmpi .sgt c8_i32_1701 c0_i32_1704
  let v3582 : BitVec 32 := Scalar.extui v3581
  let c0_i32_1705 : BitVec 32 := 0#32
  let v3583 : BitVec 1 := Scalar.cmpi .slt c8_i32_1701 c0_i32_1705
  let v3584 : BitVec 32 := Scalar.extui v3583
  let v3585 : BitVec 32 := Scalar.subi v3582 v3584
  let v3586 : BitVec 1 := Scalar.cmpi .ne v3580 v3585
  let v3587 : BitVec 32 := Scalar.remsi v3574 c8_i32_1701
  let c0_i32_1706 : BitVec 32 := 0#32
  let v3588 : BitVec 1 := Scalar.cmpi .ne v3587 c0_i32_1706
  let v3589 : BitVec 1 := Scalar.andi v3586 v3588
  let v3575 : BitVec 32 := Scalar.divsi v3574 c8_i32_1701
  let c1_i32_1707 : BitVec 32 := 1#32
  let v3590 : BitVec 32 := Scalar.subi v3575 c1_i32_1707
  let v3591 : BitVec 32 := Scalar.select v3589 v3590 v3575
  let v3600 : Index := Scalar.indexCast v3591
  let c0_1711 : Index := 0#32
  let c0_1712 : Index := 0#32
  ![v3600.toNat, 0, 0]

def k1_chk86 (v3574 : BitVec 32) : Prop :=
  (∀ a, (k1_off86 v3574) a + S1x8x128.size a ≤ S1250x8x128.size a)
instance k1_chk86.dec : ∀ (v3574 : BitVec 32), Decidable (k1_chk86 v3574) := fun v3574 => decidable_of_iff' _ (Iff.of_eq (k1_chk86.eq_1 v3574))
theorem k1_off86_inb : ∀ (v3574 : BitVec 32) (k1_hw86 : k1_chk86 v3574), ∀ a, (k1_off86 v3574) a + S1x8x128.size a ≤ S1250x8x128.size a := fun v3574 k1_hw86 => k1_hw86

def k1_off87 (v3616 : BitVec 32) : Fin 3 → Nat :=
  let c0_i32_1722 : BitVec 32 := 0#32
  let v3618 : BitVec 1 := Scalar.cmpi .sgt v3616 c0_i32_1722
  let v3619 : BitVec 32 := Scalar.extui v3618
  let c0_i32_1723 : BitVec 32 := 0#32
  let v3620 : BitVec 1 := Scalar.cmpi .slt v3616 c0_i32_1723
  let v3621 : BitVec 32 := Scalar.extui v3620
  let v3622 : BitVec 32 := Scalar.subi v3619 v3621
  let c8_i32_1721 : BitVec 32 := 8#32
  let c0_i32_1724 : BitVec 32 := 0#32
  let v3623 : BitVec 1 := Scalar.cmpi .sgt c8_i32_1721 c0_i32_1724
  let v3624 : BitVec 32 := Scalar.extui v3623
  let c0_i32_1725 : BitVec 32 := 0#32
  let v3625 : BitVec 1 := Scalar.cmpi .slt c8_i32_1721 c0_i32_1725
  let v3626 : BitVec 32 := Scalar.extui v3625
  let v3627 : BitVec 32 := Scalar.subi v3624 v3626
  let v3628 : BitVec 1 := Scalar.cmpi .ne v3622 v3627
  let v3629 : BitVec 32 := Scalar.remsi v3616 c8_i32_1721
  let c0_i32_1726 : BitVec 32 := 0#32
  let v3630 : BitVec 1 := Scalar.cmpi .ne v3629 c0_i32_1726
  let v3631 : BitVec 1 := Scalar.andi v3628 v3630
  let v3617 : BitVec 32 := Scalar.divsi v3616 c8_i32_1721
  let c1_i32_1727 : BitVec 32 := 1#32
  let v3632 : BitVec 32 := Scalar.subi v3617 c1_i32_1727
  let v3633 : BitVec 32 := Scalar.select v3631 v3632 v3617
  let v3642 : Index := Scalar.indexCast v3633
  let c0_1731 : Index := 0#32
  let c0_1732 : Index := 0#32
  ![v3642.toNat, 0, 0]

def k1_chk87 (v3616 : BitVec 32) : Prop :=
  (∀ a, (k1_off87 v3616) a + S1x8x128.size a ≤ S1250x8x128.size a)
instance k1_chk87.dec : ∀ (v3616 : BitVec 32), Decidable (k1_chk87 v3616) := fun v3616 => decidable_of_iff' _ (Iff.of_eq (k1_chk87.eq_1 v3616))
theorem k1_off87_inb : ∀ (v3616 : BitVec 32) (k1_hw87 : k1_chk87 v3616), ∀ a, (k1_off87 v3616) a + S1x8x128.size a ≤ S1250x8x128.size a := fun v3616 k1_hw87 => k1_hw87

def k1_off88 (v3658 : BitVec 32) : Fin 3 → Nat :=
  let c0_i32_1742 : BitVec 32 := 0#32
  let v3660 : BitVec 1 := Scalar.cmpi .sgt v3658 c0_i32_1742
  let v3661 : BitVec 32 := Scalar.extui v3660
  let c0_i32_1743 : BitVec 32 := 0#32
  let v3662 : BitVec 1 := Scalar.cmpi .slt v3658 c0_i32_1743
  let v3663 : BitVec 32 := Scalar.extui v3662
  let v3664 : BitVec 32 := Scalar.subi v3661 v3663
  let c8_i32_1741 : BitVec 32 := 8#32
  let c0_i32_1744 : BitVec 32 := 0#32
  let v3665 : BitVec 1 := Scalar.cmpi .sgt c8_i32_1741 c0_i32_1744
  let v3666 : BitVec 32 := Scalar.extui v3665
  let c0_i32_1745 : BitVec 32 := 0#32
  let v3667 : BitVec 1 := Scalar.cmpi .slt c8_i32_1741 c0_i32_1745
  let v3668 : BitVec 32 := Scalar.extui v3667
  let v3669 : BitVec 32 := Scalar.subi v3666 v3668
  let v3670 : BitVec 1 := Scalar.cmpi .ne v3664 v3669
  let v3671 : BitVec 32 := Scalar.remsi v3658 c8_i32_1741
  let c0_i32_1746 : BitVec 32 := 0#32
  let v3672 : BitVec 1 := Scalar.cmpi .ne v3671 c0_i32_1746
  let v3673 : BitVec 1 := Scalar.andi v3670 v3672
  let v3659 : BitVec 32 := Scalar.divsi v3658 c8_i32_1741
  let c1_i32_1747 : BitVec 32 := 1#32
  let v3674 : BitVec 32 := Scalar.subi v3659 c1_i32_1747
  let v3675 : BitVec 32 := Scalar.select v3673 v3674 v3659
  let v3684 : Index := Scalar.indexCast v3675
  let c0_1751 : Index := 0#32
  let c0_1752 : Index := 0#32
  ![v3684.toNat, 0, 0]

def k1_chk88 (v3658 : BitVec 32) : Prop :=
  (∀ a, (k1_off88 v3658) a + S1x8x128.size a ≤ S1250x8x128.size a)
instance k1_chk88.dec : ∀ (v3658 : BitVec 32), Decidable (k1_chk88 v3658) := fun v3658 => decidable_of_iff' _ (Iff.of_eq (k1_chk88.eq_1 v3658))
theorem k1_off88_inb : ∀ (v3658 : BitVec 32) (k1_hw88 : k1_chk88 v3658), ∀ a, (k1_off88 v3658) a + S1x8x128.size a ≤ S1250x8x128.size a := fun v3658 k1_hw88 => k1_hw88

def k1_off89 (v3700 : BitVec 32) : Fin 3 → Nat :=
  let c0_i32_1762 : BitVec 32 := 0#32
  let v3702 : BitVec 1 := Scalar.cmpi .sgt v3700 c0_i32_1762
  let v3703 : BitVec 32 := Scalar.extui v3702
  let c0_i32_1763 : BitVec 32 := 0#32
  let v3704 : BitVec 1 := Scalar.cmpi .slt v3700 c0_i32_1763
  let v3705 : BitVec 32 := Scalar.extui v3704
  let v3706 : BitVec 32 := Scalar.subi v3703 v3705
  let c8_i32_1761 : BitVec 32 := 8#32
  let c0_i32_1764 : BitVec 32 := 0#32
  let v3707 : BitVec 1 := Scalar.cmpi .sgt c8_i32_1761 c0_i32_1764
  let v3708 : BitVec 32 := Scalar.extui v3707
  let c0_i32_1765 : BitVec 32 := 0#32
  let v3709 : BitVec 1 := Scalar.cmpi .slt c8_i32_1761 c0_i32_1765
  let v3710 : BitVec 32 := Scalar.extui v3709
  let v3711 : BitVec 32 := Scalar.subi v3708 v3710
  let v3712 : BitVec 1 := Scalar.cmpi .ne v3706 v3711
  let v3713 : BitVec 32 := Scalar.remsi v3700 c8_i32_1761
  let c0_i32_1766 : BitVec 32 := 0#32
  let v3714 : BitVec 1 := Scalar.cmpi .ne v3713 c0_i32_1766
  let v3715 : BitVec 1 := Scalar.andi v3712 v3714
  let v3701 : BitVec 32 := Scalar.divsi v3700 c8_i32_1761
  let c1_i32_1767 : BitVec 32 := 1#32
  let v3716 : BitVec 32 := Scalar.subi v3701 c1_i32_1767
  let v3717 : BitVec 32 := Scalar.select v3715 v3716 v3701
  let v3726 : Index := Scalar.indexCast v3717
  let c0_1771 : Index := 0#32
  let c0_1772 : Index := 0#32
  ![v3726.toNat, 0, 0]

def k1_chk89 (v3700 : BitVec 32) : Prop :=
  (∀ a, (k1_off89 v3700) a + S1x8x128.size a ≤ S1250x8x128.size a)
instance k1_chk89.dec : ∀ (v3700 : BitVec 32), Decidable (k1_chk89 v3700) := fun v3700 => decidable_of_iff' _ (Iff.of_eq (k1_chk89.eq_1 v3700))
theorem k1_off89_inb : ∀ (v3700 : BitVec 32) (k1_hw89 : k1_chk89 v3700), ∀ a, (k1_off89 v3700) a + S1x8x128.size a ≤ S1250x8x128.size a := fun v3700 k1_hw89 => k1_hw89

def k1_off90 (v3742 : BitVec 32) : Fin 3 → Nat :=
  let c0_i32_1782 : BitVec 32 := 0#32
  let v3744 : BitVec 1 := Scalar.cmpi .sgt v3742 c0_i32_1782
  let v3745 : BitVec 32 := Scalar.extui v3744
  let c0_i32_1783 : BitVec 32 := 0#32
  let v3746 : BitVec 1 := Scalar.cmpi .slt v3742 c0_i32_1783
  let v3747 : BitVec 32 := Scalar.extui v3746
  let v3748 : BitVec 32 := Scalar.subi v3745 v3747
  let c8_i32_1781 : BitVec 32 := 8#32
  let c0_i32_1784 : BitVec 32 := 0#32
  let v3749 : BitVec 1 := Scalar.cmpi .sgt c8_i32_1781 c0_i32_1784
  let v3750 : BitVec 32 := Scalar.extui v3749
  let c0_i32_1785 : BitVec 32 := 0#32
  let v3751 : BitVec 1 := Scalar.cmpi .slt c8_i32_1781 c0_i32_1785
  let v3752 : BitVec 32 := Scalar.extui v3751
  let v3753 : BitVec 32 := Scalar.subi v3750 v3752
  let v3754 : BitVec 1 := Scalar.cmpi .ne v3748 v3753
  let v3755 : BitVec 32 := Scalar.remsi v3742 c8_i32_1781
  let c0_i32_1786 : BitVec 32 := 0#32
  let v3756 : BitVec 1 := Scalar.cmpi .ne v3755 c0_i32_1786
  let v3757 : BitVec 1 := Scalar.andi v3754 v3756
  let v3743 : BitVec 32 := Scalar.divsi v3742 c8_i32_1781
  let c1_i32_1787 : BitVec 32 := 1#32
  let v3758 : BitVec 32 := Scalar.subi v3743 c1_i32_1787
  let v3759 : BitVec 32 := Scalar.select v3757 v3758 v3743
  let v3768 : Index := Scalar.indexCast v3759
  let c0_1791 : Index := 0#32
  let c0_1792 : Index := 0#32
  ![v3768.toNat, 0, 0]

def k1_chk90 (v3742 : BitVec 32) : Prop :=
  (∀ a, (k1_off90 v3742) a + S1x8x128.size a ≤ S1250x8x128.size a)
instance k1_chk90.dec : ∀ (v3742 : BitVec 32), Decidable (k1_chk90 v3742) := fun v3742 => decidable_of_iff' _ (Iff.of_eq (k1_chk90.eq_1 v3742))
theorem k1_off90_inb : ∀ (v3742 : BitVec 32) (k1_hw90 : k1_chk90 v3742), ∀ a, (k1_off90 v3742) a + S1x8x128.size a ≤ S1250x8x128.size a := fun v3742 k1_hw90 => k1_hw90

def k1_off91 (v3784 : BitVec 32) : Fin 3 → Nat :=
  let c0_i32_1802 : BitVec 32 := 0#32
  let v3786 : BitVec 1 := Scalar.cmpi .sgt v3784 c0_i32_1802
  let v3787 : BitVec 32 := Scalar.extui v3786
  let c0_i32_1803 : BitVec 32 := 0#32
  let v3788 : BitVec 1 := Scalar.cmpi .slt v3784 c0_i32_1803
  let v3789 : BitVec 32 := Scalar.extui v3788
  let v3790 : BitVec 32 := Scalar.subi v3787 v3789
  let c8_i32_1801 : BitVec 32 := 8#32
  let c0_i32_1804 : BitVec 32 := 0#32
  let v3791 : BitVec 1 := Scalar.cmpi .sgt c8_i32_1801 c0_i32_1804
  let v3792 : BitVec 32 := Scalar.extui v3791
  let c0_i32_1805 : BitVec 32 := 0#32
  let v3793 : BitVec 1 := Scalar.cmpi .slt c8_i32_1801 c0_i32_1805
  let v3794 : BitVec 32 := Scalar.extui v3793
  let v3795 : BitVec 32 := Scalar.subi v3792 v3794
  let v3796 : BitVec 1 := Scalar.cmpi .ne v3790 v3795
  let v3797 : BitVec 32 := Scalar.remsi v3784 c8_i32_1801
  let c0_i32_1806 : BitVec 32 := 0#32
  let v3798 : BitVec 1 := Scalar.cmpi .ne v3797 c0_i32_1806
  let v3799 : BitVec 1 := Scalar.andi v3796 v3798
  let v3785 : BitVec 32 := Scalar.divsi v3784 c8_i32_1801
  let c1_i32_1807 : BitVec 32 := 1#32
  let v3800 : BitVec 32 := Scalar.subi v3785 c1_i32_1807
  let v3801 : BitVec 32 := Scalar.select v3799 v3800 v3785
  let v3810 : Index := Scalar.indexCast v3801
  let c0_1811 : Index := 0#32
  let c0_1812 : Index := 0#32
  ![v3810.toNat, 0, 0]

def k1_chk91 (v3784 : BitVec 32) : Prop :=
  (∀ a, (k1_off91 v3784) a + S1x8x128.size a ≤ S1250x8x128.size a)
instance k1_chk91.dec : ∀ (v3784 : BitVec 32), Decidable (k1_chk91 v3784) := fun v3784 => decidable_of_iff' _ (Iff.of_eq (k1_chk91.eq_1 v3784))
theorem k1_off91_inb : ∀ (v3784 : BitVec 32) (k1_hw91 : k1_chk91 v3784), ∀ a, (k1_off91 v3784) a + S1x8x128.size a ≤ S1250x8x128.size a := fun v3784 k1_hw91 => k1_hw91

def k1_off92 (v3826 : BitVec 32) : Fin 3 → Nat :=
  let c0_i32_1822 : BitVec 32 := 0#32
  let v3828 : BitVec 1 := Scalar.cmpi .sgt v3826 c0_i32_1822
  let v3829 : BitVec 32 := Scalar.extui v3828
  let c0_i32_1823 : BitVec 32 := 0#32
  let v3830 : BitVec 1 := Scalar.cmpi .slt v3826 c0_i32_1823
  let v3831 : BitVec 32 := Scalar.extui v3830
  let v3832 : BitVec 32 := Scalar.subi v3829 v3831
  let c8_i32_1821 : BitVec 32 := 8#32
  let c0_i32_1824 : BitVec 32 := 0#32
  let v3833 : BitVec 1 := Scalar.cmpi .sgt c8_i32_1821 c0_i32_1824
  let v3834 : BitVec 32 := Scalar.extui v3833
  let c0_i32_1825 : BitVec 32 := 0#32
  let v3835 : BitVec 1 := Scalar.cmpi .slt c8_i32_1821 c0_i32_1825
  let v3836 : BitVec 32 := Scalar.extui v3835
  let v3837 : BitVec 32 := Scalar.subi v3834 v3836
  let v3838 : BitVec 1 := Scalar.cmpi .ne v3832 v3837
  let v3839 : BitVec 32 := Scalar.remsi v3826 c8_i32_1821
  let c0_i32_1826 : BitVec 32 := 0#32
  let v3840 : BitVec 1 := Scalar.cmpi .ne v3839 c0_i32_1826
  let v3841 : BitVec 1 := Scalar.andi v3838 v3840
  let v3827 : BitVec 32 := Scalar.divsi v3826 c8_i32_1821
  let c1_i32_1827 : BitVec 32 := 1#32
  let v3842 : BitVec 32 := Scalar.subi v3827 c1_i32_1827
  let v3843 : BitVec 32 := Scalar.select v3841 v3842 v3827
  let v3852 : Index := Scalar.indexCast v3843
  let c0_1831 : Index := 0#32
  let c0_1832 : Index := 0#32
  ![v3852.toNat, 0, 0]

def k1_chk92 (v3826 : BitVec 32) : Prop :=
  (∀ a, (k1_off92 v3826) a + S1x8x128.size a ≤ S1250x8x128.size a)
instance k1_chk92.dec : ∀ (v3826 : BitVec 32), Decidable (k1_chk92 v3826) := fun v3826 => decidable_of_iff' _ (Iff.of_eq (k1_chk92.eq_1 v3826))
theorem k1_off92_inb : ∀ (v3826 : BitVec 32) (k1_hw92 : k1_chk92 v3826), ∀ a, (k1_off92 v3826) a + S1x8x128.size a ≤ S1250x8x128.size a := fun v3826 k1_hw92 => k1_hw92

def k1_off93 (v3868 : BitVec 32) : Fin 3 → Nat :=
  let c0_i32_1842 : BitVec 32 := 0#32
  let v3870 : BitVec 1 := Scalar.cmpi .sgt v3868 c0_i32_1842
  let v3871 : BitVec 32 := Scalar.extui v3870
  let c0_i32_1843 : BitVec 32 := 0#32
  let v3872 : BitVec 1 := Scalar.cmpi .slt v3868 c0_i32_1843
  let v3873 : BitVec 32 := Scalar.extui v3872
  let v3874 : BitVec 32 := Scalar.subi v3871 v3873
  let c8_i32_1841 : BitVec 32 := 8#32
  let c0_i32_1844 : BitVec 32 := 0#32
  let v3875 : BitVec 1 := Scalar.cmpi .sgt c8_i32_1841 c0_i32_1844
  let v3876 : BitVec 32 := Scalar.extui v3875
  let c0_i32_1845 : BitVec 32 := 0#32
  let v3877 : BitVec 1 := Scalar.cmpi .slt c8_i32_1841 c0_i32_1845
  let v3878 : BitVec 32 := Scalar.extui v3877
  let v3879 : BitVec 32 := Scalar.subi v3876 v3878
  let v3880 : BitVec 1 := Scalar.cmpi .ne v3874 v3879
  let v3881 : BitVec 32 := Scalar.remsi v3868 c8_i32_1841
  let c0_i32_1846 : BitVec 32 := 0#32
  let v3882 : BitVec 1 := Scalar.cmpi .ne v3881 c0_i32_1846
  let v3883 : BitVec 1 := Scalar.andi v3880 v3882
  let v3869 : BitVec 32 := Scalar.divsi v3868 c8_i32_1841
  let c1_i32_1847 : BitVec 32 := 1#32
  let v3884 : BitVec 32 := Scalar.subi v3869 c1_i32_1847
  let v3885 : BitVec 32 := Scalar.select v3883 v3884 v3869
  let v3894 : Index := Scalar.indexCast v3885
  let c0_1851 : Index := 0#32
  let c0_1852 : Index := 0#32
  ![v3894.toNat, 0, 0]

def k1_chk93 (v3868 : BitVec 32) : Prop :=
  (∀ a, (k1_off93 v3868) a + S1x8x128.size a ≤ S1250x8x128.size a)
instance k1_chk93.dec : ∀ (v3868 : BitVec 32), Decidable (k1_chk93 v3868) := fun v3868 => decidable_of_iff' _ (Iff.of_eq (k1_chk93.eq_1 v3868))
theorem k1_off93_inb : ∀ (v3868 : BitVec 32) (k1_hw93 : k1_chk93 v3868), ∀ a, (k1_off93 v3868) a + S1x8x128.size a ≤ S1250x8x128.size a := fun v3868 k1_hw93 => k1_hw93

def k1_off94 (v3910 : BitVec 32) : Fin 3 → Nat :=
  let c0_i32_1862 : BitVec 32 := 0#32
  let v3912 : BitVec 1 := Scalar.cmpi .sgt v3910 c0_i32_1862
  let v3913 : BitVec 32 := Scalar.extui v3912
  let c0_i32_1863 : BitVec 32 := 0#32
  let v3914 : BitVec 1 := Scalar.cmpi .slt v3910 c0_i32_1863
  let v3915 : BitVec 32 := Scalar.extui v3914
  let v3916 : BitVec 32 := Scalar.subi v3913 v3915
  let c8_i32_1861 : BitVec 32 := 8#32
  let c0_i32_1864 : BitVec 32 := 0#32
  let v3917 : BitVec 1 := Scalar.cmpi .sgt c8_i32_1861 c0_i32_1864
  let v3918 : BitVec 32 := Scalar.extui v3917
  let c0_i32_1865 : BitVec 32 := 0#32
  let v3919 : BitVec 1 := Scalar.cmpi .slt c8_i32_1861 c0_i32_1865
  let v3920 : BitVec 32 := Scalar.extui v3919
  let v3921 : BitVec 32 := Scalar.subi v3918 v3920
  let v3922 : BitVec 1 := Scalar.cmpi .ne v3916 v3921
  let v3923 : BitVec 32 := Scalar.remsi v3910 c8_i32_1861
  let c0_i32_1866 : BitVec 32 := 0#32
  let v3924 : BitVec 1 := Scalar.cmpi .ne v3923 c0_i32_1866
  let v3925 : BitVec 1 := Scalar.andi v3922 v3924
  let v3911 : BitVec 32 := Scalar.divsi v3910 c8_i32_1861
  let c1_i32_1867 : BitVec 32 := 1#32
  let v3926 : BitVec 32 := Scalar.subi v3911 c1_i32_1867
  let v3927 : BitVec 32 := Scalar.select v3925 v3926 v3911
  let v3936 : Index := Scalar.indexCast v3927
  let c0_1871 : Index := 0#32
  let c0_1872 : Index := 0#32
  ![v3936.toNat, 0, 0]

def k1_chk94 (v3910 : BitVec 32) : Prop :=
  (∀ a, (k1_off94 v3910) a + S1x8x128.size a ≤ S1250x8x128.size a)
instance k1_chk94.dec : ∀ (v3910 : BitVec 32), Decidable (k1_chk94 v3910) := fun v3910 => decidable_of_iff' _ (Iff.of_eq (k1_chk94.eq_1 v3910))
theorem k1_off94_inb : ∀ (v3910 : BitVec 32) (k1_hw94 : k1_chk94 v3910), ∀ a, (k1_off94 v3910) a + S1x8x128.size a ≤ S1250x8x128.size a := fun v3910 k1_hw94 => k1_hw94

def k1_off95 (v3952 : BitVec 32) : Fin 3 → Nat :=
  let c0_i32_1882 : BitVec 32 := 0#32
  let v3954 : BitVec 1 := Scalar.cmpi .sgt v3952 c0_i32_1882
  let v3955 : BitVec 32 := Scalar.extui v3954
  let c0_i32_1883 : BitVec 32 := 0#32
  let v3956 : BitVec 1 := Scalar.cmpi .slt v3952 c0_i32_1883
  let v3957 : BitVec 32 := Scalar.extui v3956
  let v3958 : BitVec 32 := Scalar.subi v3955 v3957
  let c8_i32_1881 : BitVec 32 := 8#32
  let c0_i32_1884 : BitVec 32 := 0#32
  let v3959 : BitVec 1 := Scalar.cmpi .sgt c8_i32_1881 c0_i32_1884
  let v3960 : BitVec 32 := Scalar.extui v3959
  let c0_i32_1885 : BitVec 32 := 0#32
  let v3961 : BitVec 1 := Scalar.cmpi .slt c8_i32_1881 c0_i32_1885
  let v3962 : BitVec 32 := Scalar.extui v3961
  let v3963 : BitVec 32 := Scalar.subi v3960 v3962
  let v3964 : BitVec 1 := Scalar.cmpi .ne v3958 v3963
  let v3965 : BitVec 32 := Scalar.remsi v3952 c8_i32_1881
  let c0_i32_1886 : BitVec 32 := 0#32
  let v3966 : BitVec 1 := Scalar.cmpi .ne v3965 c0_i32_1886
  let v3967 : BitVec 1 := Scalar.andi v3964 v3966
  let v3953 : BitVec 32 := Scalar.divsi v3952 c8_i32_1881
  let c1_i32_1887 : BitVec 32 := 1#32
  let v3968 : BitVec 32 := Scalar.subi v3953 c1_i32_1887
  let v3969 : BitVec 32 := Scalar.select v3967 v3968 v3953
  let v3978 : Index := Scalar.indexCast v3969
  let c0_1891 : Index := 0#32
  let c0_1892 : Index := 0#32
  ![v3978.toNat, 0, 0]

def k1_chk95 (v3952 : BitVec 32) : Prop :=
  (∀ a, (k1_off95 v3952) a + S1x8x128.size a ≤ S1250x8x128.size a)
instance k1_chk95.dec : ∀ (v3952 : BitVec 32), Decidable (k1_chk95 v3952) := fun v3952 => decidable_of_iff' _ (Iff.of_eq (k1_chk95.eq_1 v3952))
theorem k1_off95_inb : ∀ (v3952 : BitVec 32) (k1_hw95 : k1_chk95 v3952), ∀ a, (k1_off95 v3952) a + S1x8x128.size a ≤ S1250x8x128.size a := fun v3952 k1_hw95 => k1_hw95

def k1_off96 (v3994 : BitVec 32) : Fin 3 → Nat :=
  let c0_i32_1902 : BitVec 32 := 0#32
  let v3996 : BitVec 1 := Scalar.cmpi .sgt v3994 c0_i32_1902
  let v3997 : BitVec 32 := Scalar.extui v3996
  let c0_i32_1903 : BitVec 32 := 0#32
  let v3998 : BitVec 1 := Scalar.cmpi .slt v3994 c0_i32_1903
  let v3999 : BitVec 32 := Scalar.extui v3998
  let v4000 : BitVec 32 := Scalar.subi v3997 v3999
  let c8_i32_1901 : BitVec 32 := 8#32
  let c0_i32_1904 : BitVec 32 := 0#32
  let v4001 : BitVec 1 := Scalar.cmpi .sgt c8_i32_1901 c0_i32_1904
  let v4002 : BitVec 32 := Scalar.extui v4001
  let c0_i32_1905 : BitVec 32 := 0#32
  let v4003 : BitVec 1 := Scalar.cmpi .slt c8_i32_1901 c0_i32_1905
  let v4004 : BitVec 32 := Scalar.extui v4003
  let v4005 : BitVec 32 := Scalar.subi v4002 v4004
  let v4006 : BitVec 1 := Scalar.cmpi .ne v4000 v4005
  let v4007 : BitVec 32 := Scalar.remsi v3994 c8_i32_1901
  let c0_i32_1906 : BitVec 32 := 0#32
  let v4008 : BitVec 1 := Scalar.cmpi .ne v4007 c0_i32_1906
  let v4009 : BitVec 1 := Scalar.andi v4006 v4008
  let v3995 : BitVec 32 := Scalar.divsi v3994 c8_i32_1901
  let c1_i32_1907 : BitVec 32 := 1#32
  let v4010 : BitVec 32 := Scalar.subi v3995 c1_i32_1907
  let v4011 : BitVec 32 := Scalar.select v4009 v4010 v3995
  let v4020 : Index := Scalar.indexCast v4011
  let c0_1911 : Index := 0#32
  let c0_1912 : Index := 0#32
  ![v4020.toNat, 0, 0]

def k1_chk96 (v3994 : BitVec 32) : Prop :=
  (∀ a, (k1_off96 v3994) a + S1x8x128.size a ≤ S1250x8x128.size a)
instance k1_chk96.dec : ∀ (v3994 : BitVec 32), Decidable (k1_chk96 v3994) := fun v3994 => decidable_of_iff' _ (Iff.of_eq (k1_chk96.eq_1 v3994))
theorem k1_off96_inb : ∀ (v3994 : BitVec 32) (k1_hw96 : k1_chk96 v3994), ∀ a, (k1_off96 v3994) a + S1x8x128.size a ≤ S1250x8x128.size a := fun v3994 k1_hw96 => k1_hw96

def k1_off97 (v4036 : BitVec 32) : Fin 3 → Nat :=
  let c0_i32_1922 : BitVec 32 := 0#32
  let v4038 : BitVec 1 := Scalar.cmpi .sgt v4036 c0_i32_1922
  let v4039 : BitVec 32 := Scalar.extui v4038
  let c0_i32_1923 : BitVec 32 := 0#32
  let v4040 : BitVec 1 := Scalar.cmpi .slt v4036 c0_i32_1923
  let v4041 : BitVec 32 := Scalar.extui v4040
  let v4042 : BitVec 32 := Scalar.subi v4039 v4041
  let c8_i32_1921 : BitVec 32 := 8#32
  let c0_i32_1924 : BitVec 32 := 0#32
  let v4043 : BitVec 1 := Scalar.cmpi .sgt c8_i32_1921 c0_i32_1924
  let v4044 : BitVec 32 := Scalar.extui v4043
  let c0_i32_1925 : BitVec 32 := 0#32
  let v4045 : BitVec 1 := Scalar.cmpi .slt c8_i32_1921 c0_i32_1925
  let v4046 : BitVec 32 := Scalar.extui v4045
  let v4047 : BitVec 32 := Scalar.subi v4044 v4046
  let v4048 : BitVec 1 := Scalar.cmpi .ne v4042 v4047
  let v4049 : BitVec 32 := Scalar.remsi v4036 c8_i32_1921
  let c0_i32_1926 : BitVec 32 := 0#32
  let v4050 : BitVec 1 := Scalar.cmpi .ne v4049 c0_i32_1926
  let v4051 : BitVec 1 := Scalar.andi v4048 v4050
  let v4037 : BitVec 32 := Scalar.divsi v4036 c8_i32_1921
  let c1_i32_1927 : BitVec 32 := 1#32
  let v4052 : BitVec 32 := Scalar.subi v4037 c1_i32_1927
  let v4053 : BitVec 32 := Scalar.select v4051 v4052 v4037
  let v4062 : Index := Scalar.indexCast v4053
  let c0_1931 : Index := 0#32
  let c0_1932 : Index := 0#32
  ![v4062.toNat, 0, 0]

def k1_chk97 (v4036 : BitVec 32) : Prop :=
  (∀ a, (k1_off97 v4036) a + S1x8x128.size a ≤ S1250x8x128.size a)
instance k1_chk97.dec : ∀ (v4036 : BitVec 32), Decidable (k1_chk97 v4036) := fun v4036 => decidable_of_iff' _ (Iff.of_eq (k1_chk97.eq_1 v4036))
theorem k1_off97_inb : ∀ (v4036 : BitVec 32) (k1_hw97 : k1_chk97 v4036), ∀ a, (k1_off97 v4036) a + S1x8x128.size a ≤ S1250x8x128.size a := fun v4036 k1_hw97 => k1_hw97

def k1_off98 (v4078 : BitVec 32) : Fin 3 → Nat :=
  let c0_i32_1942 : BitVec 32 := 0#32
  let v4080 : BitVec 1 := Scalar.cmpi .sgt v4078 c0_i32_1942
  let v4081 : BitVec 32 := Scalar.extui v4080
  let c0_i32_1943 : BitVec 32 := 0#32
  let v4082 : BitVec 1 := Scalar.cmpi .slt v4078 c0_i32_1943
  let v4083 : BitVec 32 := Scalar.extui v4082
  let v4084 : BitVec 32 := Scalar.subi v4081 v4083
  let c8_i32_1941 : BitVec 32 := 8#32
  let c0_i32_1944 : BitVec 32 := 0#32
  let v4085 : BitVec 1 := Scalar.cmpi .sgt c8_i32_1941 c0_i32_1944
  let v4086 : BitVec 32 := Scalar.extui v4085
  let c0_i32_1945 : BitVec 32 := 0#32
  let v4087 : BitVec 1 := Scalar.cmpi .slt c8_i32_1941 c0_i32_1945
  let v4088 : BitVec 32 := Scalar.extui v4087
  let v4089 : BitVec 32 := Scalar.subi v4086 v4088
  let v4090 : BitVec 1 := Scalar.cmpi .ne v4084 v4089
  let v4091 : BitVec 32 := Scalar.remsi v4078 c8_i32_1941
  let c0_i32_1946 : BitVec 32 := 0#32
  let v4092 : BitVec 1 := Scalar.cmpi .ne v4091 c0_i32_1946
  let v4093 : BitVec 1 := Scalar.andi v4090 v4092
  let v4079 : BitVec 32 := Scalar.divsi v4078 c8_i32_1941
  let c1_i32_1947 : BitVec 32 := 1#32
  let v4094 : BitVec 32 := Scalar.subi v4079 c1_i32_1947
  let v4095 : BitVec 32 := Scalar.select v4093 v4094 v4079
  let v4104 : Index := Scalar.indexCast v4095
  let c0_1951 : Index := 0#32
  let c0_1952 : Index := 0#32
  ![v4104.toNat, 0, 0]

def k1_chk98 (v4078 : BitVec 32) : Prop :=
  (∀ a, (k1_off98 v4078) a + S1x8x128.size a ≤ S1250x8x128.size a)
instance k1_chk98.dec : ∀ (v4078 : BitVec 32), Decidable (k1_chk98 v4078) := fun v4078 => decidable_of_iff' _ (Iff.of_eq (k1_chk98.eq_1 v4078))
theorem k1_off98_inb : ∀ (v4078 : BitVec 32) (k1_hw98 : k1_chk98 v4078), ∀ a, (k1_off98 v4078) a + S1x8x128.size a ≤ S1250x8x128.size a := fun v4078 k1_hw98 => k1_hw98

def k1_off99 (v4120 : BitVec 32) : Fin 3 → Nat :=
  let c0_i32_1962 : BitVec 32 := 0#32
  let v4122 : BitVec 1 := Scalar.cmpi .sgt v4120 c0_i32_1962
  let v4123 : BitVec 32 := Scalar.extui v4122
  let c0_i32_1963 : BitVec 32 := 0#32
  let v4124 : BitVec 1 := Scalar.cmpi .slt v4120 c0_i32_1963
  let v4125 : BitVec 32 := Scalar.extui v4124
  let v4126 : BitVec 32 := Scalar.subi v4123 v4125
  let c8_i32_1961 : BitVec 32 := 8#32
  let c0_i32_1964 : BitVec 32 := 0#32
  let v4127 : BitVec 1 := Scalar.cmpi .sgt c8_i32_1961 c0_i32_1964
  let v4128 : BitVec 32 := Scalar.extui v4127
  let c0_i32_1965 : BitVec 32 := 0#32
  let v4129 : BitVec 1 := Scalar.cmpi .slt c8_i32_1961 c0_i32_1965
  let v4130 : BitVec 32 := Scalar.extui v4129
  let v4131 : BitVec 32 := Scalar.subi v4128 v4130
  let v4132 : BitVec 1 := Scalar.cmpi .ne v4126 v4131
  let v4133 : BitVec 32 := Scalar.remsi v4120 c8_i32_1961
  let c0_i32_1966 : BitVec 32 := 0#32
  let v4134 : BitVec 1 := Scalar.cmpi .ne v4133 c0_i32_1966
  let v4135 : BitVec 1 := Scalar.andi v4132 v4134
  let v4121 : BitVec 32 := Scalar.divsi v4120 c8_i32_1961
  let c1_i32_1967 : BitVec 32 := 1#32
  let v4136 : BitVec 32 := Scalar.subi v4121 c1_i32_1967
  let v4137 : BitVec 32 := Scalar.select v4135 v4136 v4121
  let v4146 : Index := Scalar.indexCast v4137
  let c0_1971 : Index := 0#32
  let c0_1972 : Index := 0#32
  ![v4146.toNat, 0, 0]

def k1_chk99 (v4120 : BitVec 32) : Prop :=
  (∀ a, (k1_off99 v4120) a + S1x8x128.size a ≤ S1250x8x128.size a)
instance k1_chk99.dec : ∀ (v4120 : BitVec 32), Decidable (k1_chk99 v4120) := fun v4120 => decidable_of_iff' _ (Iff.of_eq (k1_chk99.eq_1 v4120))
theorem k1_off99_inb : ∀ (v4120 : BitVec 32) (k1_hw99 : k1_chk99 v4120), ∀ a, (k1_off99 v4120) a + S1x8x128.size a ≤ S1250x8x128.size a := fun v4120 k1_hw99 => k1_hw99

def k1_off100 (v4162 : BitVec 32) : Fin 3 → Nat :=
  let c0_i32_1982 : BitVec 32 := 0#32
  let v4164 : BitVec 1 := Scalar.cmpi .sgt v4162 c0_i32_1982
  let v4165 : BitVec 32 := Scalar.extui v4164
  let c0_i32_1983 : BitVec 32 := 0#32
  let v4166 : BitVec 1 := Scalar.cmpi .slt v4162 c0_i32_1983
  let v4167 : BitVec 32 := Scalar.extui v4166
  let v4168 : BitVec 32 := Scalar.subi v4165 v4167
  let c8_i32_1981 : BitVec 32 := 8#32
  let c0_i32_1984 : BitVec 32 := 0#32
  let v4169 : BitVec 1 := Scalar.cmpi .sgt c8_i32_1981 c0_i32_1984
  let v4170 : BitVec 32 := Scalar.extui v4169
  let c0_i32_1985 : BitVec 32 := 0#32
  let v4171 : BitVec 1 := Scalar.cmpi .slt c8_i32_1981 c0_i32_1985
  let v4172 : BitVec 32 := Scalar.extui v4171
  let v4173 : BitVec 32 := Scalar.subi v4170 v4172
  let v4174 : BitVec 1 := Scalar.cmpi .ne v4168 v4173
  let v4175 : BitVec 32 := Scalar.remsi v4162 c8_i32_1981
  let c0_i32_1986 : BitVec 32 := 0#32
  let v4176 : BitVec 1 := Scalar.cmpi .ne v4175 c0_i32_1986
  let v4177 : BitVec 1 := Scalar.andi v4174 v4176
  let v4163 : BitVec 32 := Scalar.divsi v4162 c8_i32_1981
  let c1_i32_1987 : BitVec 32 := 1#32
  let v4178 : BitVec 32 := Scalar.subi v4163 c1_i32_1987
  let v4179 : BitVec 32 := Scalar.select v4177 v4178 v4163
  let v4188 : Index := Scalar.indexCast v4179
  let c0_1991 : Index := 0#32
  let c0_1992 : Index := 0#32
  ![v4188.toNat, 0, 0]

def k1_chk100 (v4162 : BitVec 32) : Prop :=
  (∀ a, (k1_off100 v4162) a + S1x8x128.size a ≤ S1250x8x128.size a)
instance k1_chk100.dec : ∀ (v4162 : BitVec 32), Decidable (k1_chk100 v4162) := fun v4162 => decidable_of_iff' _ (Iff.of_eq (k1_chk100.eq_1 v4162))
theorem k1_off100_inb : ∀ (v4162 : BitVec 32) (k1_hw100 : k1_chk100 v4162), ∀ a, (k1_off100 v4162) a + S1x8x128.size a ≤ S1250x8x128.size a := fun v4162 k1_hw100 => k1_hw100

def k1_off101 (v4204 : BitVec 32) : Fin 3 → Nat :=
  let c0_i32_2002 : BitVec 32 := 0#32
  let v4206 : BitVec 1 := Scalar.cmpi .sgt v4204 c0_i32_2002
  let v4207 : BitVec 32 := Scalar.extui v4206
  let c0_i32_2003 : BitVec 32 := 0#32
  let v4208 : BitVec 1 := Scalar.cmpi .slt v4204 c0_i32_2003
  let v4209 : BitVec 32 := Scalar.extui v4208
  let v4210 : BitVec 32 := Scalar.subi v4207 v4209
  let c8_i32_2001 : BitVec 32 := 8#32
  let c0_i32_2004 : BitVec 32 := 0#32
  let v4211 : BitVec 1 := Scalar.cmpi .sgt c8_i32_2001 c0_i32_2004
  let v4212 : BitVec 32 := Scalar.extui v4211
  let c0_i32_2005 : BitVec 32 := 0#32
  let v4213 : BitVec 1 := Scalar.cmpi .slt c8_i32_2001 c0_i32_2005
  let v4214 : BitVec 32 := Scalar.extui v4213
  let v4215 : BitVec 32 := Scalar.subi v4212 v4214
  let v4216 : BitVec 1 := Scalar.cmpi .ne v4210 v4215
  let v4217 : BitVec 32 := Scalar.remsi v4204 c8_i32_2001
  let c0_i32_2006 : BitVec 32 := 0#32
  let v4218 : BitVec 1 := Scalar.cmpi .ne v4217 c0_i32_2006
  let v4219 : BitVec 1 := Scalar.andi v4216 v4218
  let v4205 : BitVec 32 := Scalar.divsi v4204 c8_i32_2001
  let c1_i32_2007 : BitVec 32 := 1#32
  let v4220 : BitVec 32 := Scalar.subi v4205 c1_i32_2007
  let v4221 : BitVec 32 := Scalar.select v4219 v4220 v4205
  let v4230 : Index := Scalar.indexCast v4221
  let c0_2011 : Index := 0#32
  let c0_2012 : Index := 0#32
  ![v4230.toNat, 0, 0]

def k1_chk101 (v4204 : BitVec 32) : Prop :=
  (∀ a, (k1_off101 v4204) a + S1x8x128.size a ≤ S1250x8x128.size a)
instance k1_chk101.dec : ∀ (v4204 : BitVec 32), Decidable (k1_chk101 v4204) := fun v4204 => decidable_of_iff' _ (Iff.of_eq (k1_chk101.eq_1 v4204))
theorem k1_off101_inb : ∀ (v4204 : BitVec 32) (k1_hw101 : k1_chk101 v4204), ∀ a, (k1_off101 v4204) a + S1x8x128.size a ≤ S1250x8x128.size a := fun v4204 k1_hw101 => k1_hw101

def k1_off102 (v4246 : BitVec 32) : Fin 3 → Nat :=
  let c0_i32_2022 : BitVec 32 := 0#32
  let v4248 : BitVec 1 := Scalar.cmpi .sgt v4246 c0_i32_2022
  let v4249 : BitVec 32 := Scalar.extui v4248
  let c0_i32_2023 : BitVec 32 := 0#32
  let v4250 : BitVec 1 := Scalar.cmpi .slt v4246 c0_i32_2023
  let v4251 : BitVec 32 := Scalar.extui v4250
  let v4252 : BitVec 32 := Scalar.subi v4249 v4251
  let c8_i32_2021 : BitVec 32 := 8#32
  let c0_i32_2024 : BitVec 32 := 0#32
  let v4253 : BitVec 1 := Scalar.cmpi .sgt c8_i32_2021 c0_i32_2024
  let v4254 : BitVec 32 := Scalar.extui v4253
  let c0_i32_2025 : BitVec 32 := 0#32
  let v4255 : BitVec 1 := Scalar.cmpi .slt c8_i32_2021 c0_i32_2025
  let v4256 : BitVec 32 := Scalar.extui v4255
  let v4257 : BitVec 32 := Scalar.subi v4254 v4256
  let v4258 : BitVec 1 := Scalar.cmpi .ne v4252 v4257
  let v4259 : BitVec 32 := Scalar.remsi v4246 c8_i32_2021
  let c0_i32_2026 : BitVec 32 := 0#32
  let v4260 : BitVec 1 := Scalar.cmpi .ne v4259 c0_i32_2026
  let v4261 : BitVec 1 := Scalar.andi v4258 v4260
  let v4247 : BitVec 32 := Scalar.divsi v4246 c8_i32_2021
  let c1_i32_2027 : BitVec 32 := 1#32
  let v4262 : BitVec 32 := Scalar.subi v4247 c1_i32_2027
  let v4263 : BitVec 32 := Scalar.select v4261 v4262 v4247
  let v4272 : Index := Scalar.indexCast v4263
  let c0_2031 : Index := 0#32
  let c0_2032 : Index := 0#32
  ![v4272.toNat, 0, 0]

def k1_chk102 (v4246 : BitVec 32) : Prop :=
  (∀ a, (k1_off102 v4246) a + S1x8x128.size a ≤ S1250x8x128.size a)
instance k1_chk102.dec : ∀ (v4246 : BitVec 32), Decidable (k1_chk102 v4246) := fun v4246 => decidable_of_iff' _ (Iff.of_eq (k1_chk102.eq_1 v4246))
theorem k1_off102_inb : ∀ (v4246 : BitVec 32) (k1_hw102 : k1_chk102 v4246), ∀ a, (k1_off102 v4246) a + S1x8x128.size a ≤ S1250x8x128.size a := fun v4246 k1_hw102 => k1_hw102

def k1_off103 (v4288 : BitVec 32) : Fin 3 → Nat :=
  let c0_i32_2042 : BitVec 32 := 0#32
  let v4290 : BitVec 1 := Scalar.cmpi .sgt v4288 c0_i32_2042
  let v4291 : BitVec 32 := Scalar.extui v4290
  let c0_i32_2043 : BitVec 32 := 0#32
  let v4292 : BitVec 1 := Scalar.cmpi .slt v4288 c0_i32_2043
  let v4293 : BitVec 32 := Scalar.extui v4292
  let v4294 : BitVec 32 := Scalar.subi v4291 v4293
  let c8_i32_2041 : BitVec 32 := 8#32
  let c0_i32_2044 : BitVec 32 := 0#32
  let v4295 : BitVec 1 := Scalar.cmpi .sgt c8_i32_2041 c0_i32_2044
  let v4296 : BitVec 32 := Scalar.extui v4295
  let c0_i32_2045 : BitVec 32 := 0#32
  let v4297 : BitVec 1 := Scalar.cmpi .slt c8_i32_2041 c0_i32_2045
  let v4298 : BitVec 32 := Scalar.extui v4297
  let v4299 : BitVec 32 := Scalar.subi v4296 v4298
  let v4300 : BitVec 1 := Scalar.cmpi .ne v4294 v4299
  let v4301 : BitVec 32 := Scalar.remsi v4288 c8_i32_2041
  let c0_i32_2046 : BitVec 32 := 0#32
  let v4302 : BitVec 1 := Scalar.cmpi .ne v4301 c0_i32_2046
  let v4303 : BitVec 1 := Scalar.andi v4300 v4302
  let v4289 : BitVec 32 := Scalar.divsi v4288 c8_i32_2041
  let c1_i32_2047 : BitVec 32 := 1#32
  let v4304 : BitVec 32 := Scalar.subi v4289 c1_i32_2047
  let v4305 : BitVec 32 := Scalar.select v4303 v4304 v4289
  let v4314 : Index := Scalar.indexCast v4305
  let c0_2051 : Index := 0#32
  let c0_2052 : Index := 0#32
  ![v4314.toNat, 0, 0]

def k1_chk103 (v4288 : BitVec 32) : Prop :=
  (∀ a, (k1_off103 v4288) a + S1x8x128.size a ≤ S1250x8x128.size a)
instance k1_chk103.dec : ∀ (v4288 : BitVec 32), Decidable (k1_chk103 v4288) := fun v4288 => decidable_of_iff' _ (Iff.of_eq (k1_chk103.eq_1 v4288))
theorem k1_off103_inb : ∀ (v4288 : BitVec 32) (k1_hw103 : k1_chk103 v4288), ∀ a, (k1_off103 v4288) a + S1x8x128.size a ≤ S1250x8x128.size a := fun v4288 k1_hw103 => k1_hw103

def k1_off104 (v4330 : BitVec 32) : Fin 3 → Nat :=
  let c0_i32_2062 : BitVec 32 := 0#32
  let v4332 : BitVec 1 := Scalar.cmpi .sgt v4330 c0_i32_2062
  let v4333 : BitVec 32 := Scalar.extui v4332
  let c0_i32_2063 : BitVec 32 := 0#32
  let v4334 : BitVec 1 := Scalar.cmpi .slt v4330 c0_i32_2063
  let v4335 : BitVec 32 := Scalar.extui v4334
  let v4336 : BitVec 32 := Scalar.subi v4333 v4335
  let c8_i32_2061 : BitVec 32 := 8#32
  let c0_i32_2064 : BitVec 32 := 0#32
  let v4337 : BitVec 1 := Scalar.cmpi .sgt c8_i32_2061 c0_i32_2064
  let v4338 : BitVec 32 := Scalar.extui v4337
  let c0_i32_2065 : BitVec 32 := 0#32
  let v4339 : BitVec 1 := Scalar.cmpi .slt c8_i32_2061 c0_i32_2065
  let v4340 : BitVec 32 := Scalar.extui v4339
  let v4341 : BitVec 32 := Scalar.subi v4338 v4340
  let v4342 : BitVec 1 := Scalar.cmpi .ne v4336 v4341
  let v4343 : BitVec 32 := Scalar.remsi v4330 c8_i32_2061
  let c0_i32_2066 : BitVec 32 := 0#32
  let v4344 : BitVec 1 := Scalar.cmpi .ne v4343 c0_i32_2066
  let v4345 : BitVec 1 := Scalar.andi v4342 v4344
  let v4331 : BitVec 32 := Scalar.divsi v4330 c8_i32_2061
  let c1_i32_2067 : BitVec 32 := 1#32
  let v4346 : BitVec 32 := Scalar.subi v4331 c1_i32_2067
  let v4347 : BitVec 32 := Scalar.select v4345 v4346 v4331
  let v4356 : Index := Scalar.indexCast v4347
  let c0_2071 : Index := 0#32
  let c0_2072 : Index := 0#32
  ![v4356.toNat, 0, 0]

def k1_chk104 (v4330 : BitVec 32) : Prop :=
  (∀ a, (k1_off104 v4330) a + S1x8x128.size a ≤ S1250x8x128.size a)
instance k1_chk104.dec : ∀ (v4330 : BitVec 32), Decidable (k1_chk104 v4330) := fun v4330 => decidable_of_iff' _ (Iff.of_eq (k1_chk104.eq_1 v4330))
theorem k1_off104_inb : ∀ (v4330 : BitVec 32) (k1_hw104 : k1_chk104 v4330), ∀ a, (k1_off104 v4330) a + S1x8x128.size a ≤ S1250x8x128.size a := fun v4330 k1_hw104 => k1_hw104

def k1_off105 (v4372 : BitVec 32) : Fin 3 → Nat :=
  let c0_i32_2082 : BitVec 32 := 0#32
  let v4374 : BitVec 1 := Scalar.cmpi .sgt v4372 c0_i32_2082
  let v4375 : BitVec 32 := Scalar.extui v4374
  let c0_i32_2083 : BitVec 32 := 0#32
  let v4376 : BitVec 1 := Scalar.cmpi .slt v4372 c0_i32_2083
  let v4377 : BitVec 32 := Scalar.extui v4376
  let v4378 : BitVec 32 := Scalar.subi v4375 v4377
  let c8_i32_2081 : BitVec 32 := 8#32
  let c0_i32_2084 : BitVec 32 := 0#32
  let v4379 : BitVec 1 := Scalar.cmpi .sgt c8_i32_2081 c0_i32_2084
  let v4380 : BitVec 32 := Scalar.extui v4379
  let c0_i32_2085 : BitVec 32 := 0#32
  let v4381 : BitVec 1 := Scalar.cmpi .slt c8_i32_2081 c0_i32_2085
  let v4382 : BitVec 32 := Scalar.extui v4381
  let v4383 : BitVec 32 := Scalar.subi v4380 v4382
  let v4384 : BitVec 1 := Scalar.cmpi .ne v4378 v4383
  let v4385 : BitVec 32 := Scalar.remsi v4372 c8_i32_2081
  let c0_i32_2086 : BitVec 32 := 0#32
  let v4386 : BitVec 1 := Scalar.cmpi .ne v4385 c0_i32_2086
  let v4387 : BitVec 1 := Scalar.andi v4384 v4386
  let v4373 : BitVec 32 := Scalar.divsi v4372 c8_i32_2081
  let c1_i32_2087 : BitVec 32 := 1#32
  let v4388 : BitVec 32 := Scalar.subi v4373 c1_i32_2087
  let v4389 : BitVec 32 := Scalar.select v4387 v4388 v4373
  let v4398 : Index := Scalar.indexCast v4389
  let c0_2091 : Index := 0#32
  let c0_2092 : Index := 0#32
  ![v4398.toNat, 0, 0]

def k1_chk105 (v4372 : BitVec 32) : Prop :=
  (∀ a, (k1_off105 v4372) a + S1x8x128.size a ≤ S1250x8x128.size a)
instance k1_chk105.dec : ∀ (v4372 : BitVec 32), Decidable (k1_chk105 v4372) := fun v4372 => decidable_of_iff' _ (Iff.of_eq (k1_chk105.eq_1 v4372))
theorem k1_off105_inb : ∀ (v4372 : BitVec 32) (k1_hw105 : k1_chk105 v4372), ∀ a, (k1_off105 v4372) a + S1x8x128.size a ≤ S1250x8x128.size a := fun v4372 k1_hw105 => k1_hw105

def k1_off106 (v4414 : BitVec 32) : Fin 3 → Nat :=
  let c0_i32_2102 : BitVec 32 := 0#32
  let v4416 : BitVec 1 := Scalar.cmpi .sgt v4414 c0_i32_2102
  let v4417 : BitVec 32 := Scalar.extui v4416
  let c0_i32_2103 : BitVec 32 := 0#32
  let v4418 : BitVec 1 := Scalar.cmpi .slt v4414 c0_i32_2103
  let v4419 : BitVec 32 := Scalar.extui v4418
  let v4420 : BitVec 32 := Scalar.subi v4417 v4419
  let c8_i32_2101 : BitVec 32 := 8#32
  let c0_i32_2104 : BitVec 32 := 0#32
  let v4421 : BitVec 1 := Scalar.cmpi .sgt c8_i32_2101 c0_i32_2104
  let v4422 : BitVec 32 := Scalar.extui v4421
  let c0_i32_2105 : BitVec 32 := 0#32
  let v4423 : BitVec 1 := Scalar.cmpi .slt c8_i32_2101 c0_i32_2105
  let v4424 : BitVec 32 := Scalar.extui v4423
  let v4425 : BitVec 32 := Scalar.subi v4422 v4424
  let v4426 : BitVec 1 := Scalar.cmpi .ne v4420 v4425
  let v4427 : BitVec 32 := Scalar.remsi v4414 c8_i32_2101
  let c0_i32_2106 : BitVec 32 := 0#32
  let v4428 : BitVec 1 := Scalar.cmpi .ne v4427 c0_i32_2106
  let v4429 : BitVec 1 := Scalar.andi v4426 v4428
  let v4415 : BitVec 32 := Scalar.divsi v4414 c8_i32_2101
  let c1_i32_2107 : BitVec 32 := 1#32
  let v4430 : BitVec 32 := Scalar.subi v4415 c1_i32_2107
  let v4431 : BitVec 32 := Scalar.select v4429 v4430 v4415
  let v4440 : Index := Scalar.indexCast v4431
  let c0_2111 : Index := 0#32
  let c0_2112 : Index := 0#32
  ![v4440.toNat, 0, 0]

def k1_chk106 (v4414 : BitVec 32) : Prop :=
  (∀ a, (k1_off106 v4414) a + S1x8x128.size a ≤ S1250x8x128.size a)
instance k1_chk106.dec : ∀ (v4414 : BitVec 32), Decidable (k1_chk106 v4414) := fun v4414 => decidable_of_iff' _ (Iff.of_eq (k1_chk106.eq_1 v4414))
theorem k1_off106_inb : ∀ (v4414 : BitVec 32) (k1_hw106 : k1_chk106 v4414), ∀ a, (k1_off106 v4414) a + S1x8x128.size a ≤ S1250x8x128.size a := fun v4414 k1_hw106 => k1_hw106

def k1_off107 (v4456 : BitVec 32) : Fin 3 → Nat :=
  let c0_i32_2122 : BitVec 32 := 0#32
  let v4458 : BitVec 1 := Scalar.cmpi .sgt v4456 c0_i32_2122
  let v4459 : BitVec 32 := Scalar.extui v4458
  let c0_i32_2123 : BitVec 32 := 0#32
  let v4460 : BitVec 1 := Scalar.cmpi .slt v4456 c0_i32_2123
  let v4461 : BitVec 32 := Scalar.extui v4460
  let v4462 : BitVec 32 := Scalar.subi v4459 v4461
  let c8_i32_2121 : BitVec 32 := 8#32
  let c0_i32_2124 : BitVec 32 := 0#32
  let v4463 : BitVec 1 := Scalar.cmpi .sgt c8_i32_2121 c0_i32_2124
  let v4464 : BitVec 32 := Scalar.extui v4463
  let c0_i32_2125 : BitVec 32 := 0#32
  let v4465 : BitVec 1 := Scalar.cmpi .slt c8_i32_2121 c0_i32_2125
  let v4466 : BitVec 32 := Scalar.extui v4465
  let v4467 : BitVec 32 := Scalar.subi v4464 v4466
  let v4468 : BitVec 1 := Scalar.cmpi .ne v4462 v4467
  let v4469 : BitVec 32 := Scalar.remsi v4456 c8_i32_2121
  let c0_i32_2126 : BitVec 32 := 0#32
  let v4470 : BitVec 1 := Scalar.cmpi .ne v4469 c0_i32_2126
  let v4471 : BitVec 1 := Scalar.andi v4468 v4470
  let v4457 : BitVec 32 := Scalar.divsi v4456 c8_i32_2121
  let c1_i32_2127 : BitVec 32 := 1#32
  let v4472 : BitVec 32 := Scalar.subi v4457 c1_i32_2127
  let v4473 : BitVec 32 := Scalar.select v4471 v4472 v4457
  let v4482 : Index := Scalar.indexCast v4473
  let c0_2131 : Index := 0#32
  let c0_2132 : Index := 0#32
  ![v4482.toNat, 0, 0]

def k1_chk107 (v4456 : BitVec 32) : Prop :=
  (∀ a, (k1_off107 v4456) a + S1x8x128.size a ≤ S1250x8x128.size a)
instance k1_chk107.dec : ∀ (v4456 : BitVec 32), Decidable (k1_chk107 v4456) := fun v4456 => decidable_of_iff' _ (Iff.of_eq (k1_chk107.eq_1 v4456))
theorem k1_off107_inb : ∀ (v4456 : BitVec 32) (k1_hw107 : k1_chk107 v4456), ∀ a, (k1_off107 v4456) a + S1x8x128.size a ≤ S1250x8x128.size a := fun v4456 k1_hw107 => k1_hw107

def k1_off108 (v4498 : BitVec 32) : Fin 3 → Nat :=
  let c0_i32_2142 : BitVec 32 := 0#32
  let v4500 : BitVec 1 := Scalar.cmpi .sgt v4498 c0_i32_2142
  let v4501 : BitVec 32 := Scalar.extui v4500
  let c0_i32_2143 : BitVec 32 := 0#32
  let v4502 : BitVec 1 := Scalar.cmpi .slt v4498 c0_i32_2143
  let v4503 : BitVec 32 := Scalar.extui v4502
  let v4504 : BitVec 32 := Scalar.subi v4501 v4503
  let c8_i32_2141 : BitVec 32 := 8#32
  let c0_i32_2144 : BitVec 32 := 0#32
  let v4505 : BitVec 1 := Scalar.cmpi .sgt c8_i32_2141 c0_i32_2144
  let v4506 : BitVec 32 := Scalar.extui v4505
  let c0_i32_2145 : BitVec 32 := 0#32
  let v4507 : BitVec 1 := Scalar.cmpi .slt c8_i32_2141 c0_i32_2145
  let v4508 : BitVec 32 := Scalar.extui v4507
  let v4509 : BitVec 32 := Scalar.subi v4506 v4508
  let v4510 : BitVec 1 := Scalar.cmpi .ne v4504 v4509
  let v4511 : BitVec 32 := Scalar.remsi v4498 c8_i32_2141
  let c0_i32_2146 : BitVec 32 := 0#32
  let v4512 : BitVec 1 := Scalar.cmpi .ne v4511 c0_i32_2146
  let v4513 : BitVec 1 := Scalar.andi v4510 v4512
  let v4499 : BitVec 32 := Scalar.divsi v4498 c8_i32_2141
  let c1_i32_2147 : BitVec 32 := 1#32
  let v4514 : BitVec 32 := Scalar.subi v4499 c1_i32_2147
  let v4515 : BitVec 32 := Scalar.select v4513 v4514 v4499
  let v4524 : Index := Scalar.indexCast v4515
  let c0_2151 : Index := 0#32
  let c0_2152 : Index := 0#32
  ![v4524.toNat, 0, 0]

def k1_chk108 (v4498 : BitVec 32) : Prop :=
  (∀ a, (k1_off108 v4498) a + S1x8x128.size a ≤ S1250x8x128.size a)
instance k1_chk108.dec : ∀ (v4498 : BitVec 32), Decidable (k1_chk108 v4498) := fun v4498 => decidable_of_iff' _ (Iff.of_eq (k1_chk108.eq_1 v4498))
theorem k1_off108_inb : ∀ (v4498 : BitVec 32) (k1_hw108 : k1_chk108 v4498), ∀ a, (k1_off108 v4498) a + S1x8x128.size a ≤ S1250x8x128.size a := fun v4498 k1_hw108 => k1_hw108

def k1_off109 (v4540 : BitVec 32) : Fin 3 → Nat :=
  let c0_i32_2162 : BitVec 32 := 0#32
  let v4542 : BitVec 1 := Scalar.cmpi .sgt v4540 c0_i32_2162
  let v4543 : BitVec 32 := Scalar.extui v4542
  let c0_i32_2163 : BitVec 32 := 0#32
  let v4544 : BitVec 1 := Scalar.cmpi .slt v4540 c0_i32_2163
  let v4545 : BitVec 32 := Scalar.extui v4544
  let v4546 : BitVec 32 := Scalar.subi v4543 v4545
  let c8_i32_2161 : BitVec 32 := 8#32
  let c0_i32_2164 : BitVec 32 := 0#32
  let v4547 : BitVec 1 := Scalar.cmpi .sgt c8_i32_2161 c0_i32_2164
  let v4548 : BitVec 32 := Scalar.extui v4547
  let c0_i32_2165 : BitVec 32 := 0#32
  let v4549 : BitVec 1 := Scalar.cmpi .slt c8_i32_2161 c0_i32_2165
  let v4550 : BitVec 32 := Scalar.extui v4549
  let v4551 : BitVec 32 := Scalar.subi v4548 v4550
  let v4552 : BitVec 1 := Scalar.cmpi .ne v4546 v4551
  let v4553 : BitVec 32 := Scalar.remsi v4540 c8_i32_2161
  let c0_i32_2166 : BitVec 32 := 0#32
  let v4554 : BitVec 1 := Scalar.cmpi .ne v4553 c0_i32_2166
  let v4555 : BitVec 1 := Scalar.andi v4552 v4554
  let v4541 : BitVec 32 := Scalar.divsi v4540 c8_i32_2161
  let c1_i32_2167 : BitVec 32 := 1#32
  let v4556 : BitVec 32 := Scalar.subi v4541 c1_i32_2167
  let v4557 : BitVec 32 := Scalar.select v4555 v4556 v4541
  let v4566 : Index := Scalar.indexCast v4557
  let c0_2171 : Index := 0#32
  let c0_2172 : Index := 0#32
  ![v4566.toNat, 0, 0]

def k1_chk109 (v4540 : BitVec 32) : Prop :=
  (∀ a, (k1_off109 v4540) a + S1x8x128.size a ≤ S1250x8x128.size a)
instance k1_chk109.dec : ∀ (v4540 : BitVec 32), Decidable (k1_chk109 v4540) := fun v4540 => decidable_of_iff' _ (Iff.of_eq (k1_chk109.eq_1 v4540))
theorem k1_off109_inb : ∀ (v4540 : BitVec 32) (k1_hw109 : k1_chk109 v4540), ∀ a, (k1_off109 v4540) a + S1x8x128.size a ≤ S1250x8x128.size a := fun v4540 k1_hw109 => k1_hw109

def k1_off110 (v4582 : BitVec 32) : Fin 3 → Nat :=
  let c0_i32_2182 : BitVec 32 := 0#32
  let v4584 : BitVec 1 := Scalar.cmpi .sgt v4582 c0_i32_2182
  let v4585 : BitVec 32 := Scalar.extui v4584
  let c0_i32_2183 : BitVec 32 := 0#32
  let v4586 : BitVec 1 := Scalar.cmpi .slt v4582 c0_i32_2183
  let v4587 : BitVec 32 := Scalar.extui v4586
  let v4588 : BitVec 32 := Scalar.subi v4585 v4587
  let c8_i32_2181 : BitVec 32 := 8#32
  let c0_i32_2184 : BitVec 32 := 0#32
  let v4589 : BitVec 1 := Scalar.cmpi .sgt c8_i32_2181 c0_i32_2184
  let v4590 : BitVec 32 := Scalar.extui v4589
  let c0_i32_2185 : BitVec 32 := 0#32
  let v4591 : BitVec 1 := Scalar.cmpi .slt c8_i32_2181 c0_i32_2185
  let v4592 : BitVec 32 := Scalar.extui v4591
  let v4593 : BitVec 32 := Scalar.subi v4590 v4592
  let v4594 : BitVec 1 := Scalar.cmpi .ne v4588 v4593
  let v4595 : BitVec 32 := Scalar.remsi v4582 c8_i32_2181
  let c0_i32_2186 : BitVec 32 := 0#32
  let v4596 : BitVec 1 := Scalar.cmpi .ne v4595 c0_i32_2186
  let v4597 : BitVec 1 := Scalar.andi v4594 v4596
  let v4583 : BitVec 32 := Scalar.divsi v4582 c8_i32_2181
  let c1_i32_2187 : BitVec 32 := 1#32
  let v4598 : BitVec 32 := Scalar.subi v4583 c1_i32_2187
  let v4599 : BitVec 32 := Scalar.select v4597 v4598 v4583
  let v4608 : Index := Scalar.indexCast v4599
  let c0_2191 : Index := 0#32
  let c0_2192 : Index := 0#32
  ![v4608.toNat, 0, 0]

def k1_chk110 (v4582 : BitVec 32) : Prop :=
  (∀ a, (k1_off110 v4582) a + S1x8x128.size a ≤ S1250x8x128.size a)
instance k1_chk110.dec : ∀ (v4582 : BitVec 32), Decidable (k1_chk110 v4582) := fun v4582 => decidable_of_iff' _ (Iff.of_eq (k1_chk110.eq_1 v4582))
theorem k1_off110_inb : ∀ (v4582 : BitVec 32) (k1_hw110 : k1_chk110 v4582), ∀ a, (k1_off110 v4582) a + S1x8x128.size a ≤ S1250x8x128.size a := fun v4582 k1_hw110 => k1_hw110

def k1_off111 (v4624 : BitVec 32) : Fin 3 → Nat :=
  let c0_i32_2202 : BitVec 32 := 0#32
  let v4626 : BitVec 1 := Scalar.cmpi .sgt v4624 c0_i32_2202
  let v4627 : BitVec 32 := Scalar.extui v4626
  let c0_i32_2203 : BitVec 32 := 0#32
  let v4628 : BitVec 1 := Scalar.cmpi .slt v4624 c0_i32_2203
  let v4629 : BitVec 32 := Scalar.extui v4628
  let v4630 : BitVec 32 := Scalar.subi v4627 v4629
  let c8_i32_2201 : BitVec 32 := 8#32
  let c0_i32_2204 : BitVec 32 := 0#32
  let v4631 : BitVec 1 := Scalar.cmpi .sgt c8_i32_2201 c0_i32_2204
  let v4632 : BitVec 32 := Scalar.extui v4631
  let c0_i32_2205 : BitVec 32 := 0#32
  let v4633 : BitVec 1 := Scalar.cmpi .slt c8_i32_2201 c0_i32_2205
  let v4634 : BitVec 32 := Scalar.extui v4633
  let v4635 : BitVec 32 := Scalar.subi v4632 v4634
  let v4636 : BitVec 1 := Scalar.cmpi .ne v4630 v4635
  let v4637 : BitVec 32 := Scalar.remsi v4624 c8_i32_2201
  let c0_i32_2206 : BitVec 32 := 0#32
  let v4638 : BitVec 1 := Scalar.cmpi .ne v4637 c0_i32_2206
  let v4639 : BitVec 1 := Scalar.andi v4636 v4638
  let v4625 : BitVec 32 := Scalar.divsi v4624 c8_i32_2201
  let c1_i32_2207 : BitVec 32 := 1#32
  let v4640 : BitVec 32 := Scalar.subi v4625 c1_i32_2207
  let v4641 : BitVec 32 := Scalar.select v4639 v4640 v4625
  let v4650 : Index := Scalar.indexCast v4641
  let c0_2211 : Index := 0#32
  let c0_2212 : Index := 0#32
  ![v4650.toNat, 0, 0]

def k1_chk111 (v4624 : BitVec 32) : Prop :=
  (∀ a, (k1_off111 v4624) a + S1x8x128.size a ≤ S1250x8x128.size a)
instance k1_chk111.dec : ∀ (v4624 : BitVec 32), Decidable (k1_chk111 v4624) := fun v4624 => decidable_of_iff' _ (Iff.of_eq (k1_chk111.eq_1 v4624))
theorem k1_off111_inb : ∀ (v4624 : BitVec 32) (k1_hw111 : k1_chk111 v4624), ∀ a, (k1_off111 v4624) a + S1x8x128.size a ≤ S1250x8x128.size a := fun v4624 k1_hw111 => k1_hw111

def k1_off112 (v4666 : BitVec 32) : Fin 3 → Nat :=
  let c0_i32_2222 : BitVec 32 := 0#32
  let v4668 : BitVec 1 := Scalar.cmpi .sgt v4666 c0_i32_2222
  let v4669 : BitVec 32 := Scalar.extui v4668
  let c0_i32_2223 : BitVec 32 := 0#32
  let v4670 : BitVec 1 := Scalar.cmpi .slt v4666 c0_i32_2223
  let v4671 : BitVec 32 := Scalar.extui v4670
  let v4672 : BitVec 32 := Scalar.subi v4669 v4671
  let c8_i32_2221 : BitVec 32 := 8#32
  let c0_i32_2224 : BitVec 32 := 0#32
  let v4673 : BitVec 1 := Scalar.cmpi .sgt c8_i32_2221 c0_i32_2224
  let v4674 : BitVec 32 := Scalar.extui v4673
  let c0_i32_2225 : BitVec 32 := 0#32
  let v4675 : BitVec 1 := Scalar.cmpi .slt c8_i32_2221 c0_i32_2225
  let v4676 : BitVec 32 := Scalar.extui v4675
  let v4677 : BitVec 32 := Scalar.subi v4674 v4676
  let v4678 : BitVec 1 := Scalar.cmpi .ne v4672 v4677
  let v4679 : BitVec 32 := Scalar.remsi v4666 c8_i32_2221
  let c0_i32_2226 : BitVec 32 := 0#32
  let v4680 : BitVec 1 := Scalar.cmpi .ne v4679 c0_i32_2226
  let v4681 : BitVec 1 := Scalar.andi v4678 v4680
  let v4667 : BitVec 32 := Scalar.divsi v4666 c8_i32_2221
  let c1_i32_2227 : BitVec 32 := 1#32
  let v4682 : BitVec 32 := Scalar.subi v4667 c1_i32_2227
  let v4683 : BitVec 32 := Scalar.select v4681 v4682 v4667
  let v4692 : Index := Scalar.indexCast v4683
  let c0_2231 : Index := 0#32
  let c0_2232 : Index := 0#32
  ![v4692.toNat, 0, 0]

def k1_chk112 (v4666 : BitVec 32) : Prop :=
  (∀ a, (k1_off112 v4666) a + S1x8x128.size a ≤ S1250x8x128.size a)
instance k1_chk112.dec : ∀ (v4666 : BitVec 32), Decidable (k1_chk112 v4666) := fun v4666 => decidable_of_iff' _ (Iff.of_eq (k1_chk112.eq_1 v4666))
theorem k1_off112_inb : ∀ (v4666 : BitVec 32) (k1_hw112 : k1_chk112 v4666), ∀ a, (k1_off112 v4666) a + S1x8x128.size a ≤ S1250x8x128.size a := fun v4666 k1_hw112 => k1_hw112

def k1_off113 (v4708 : BitVec 32) : Fin 3 → Nat :=
  let c0_i32_2242 : BitVec 32 := 0#32
  let v4710 : BitVec 1 := Scalar.cmpi .sgt v4708 c0_i32_2242
  let v4711 : BitVec 32 := Scalar.extui v4710
  let c0_i32_2243 : BitVec 32 := 0#32
  let v4712 : BitVec 1 := Scalar.cmpi .slt v4708 c0_i32_2243
  let v4713 : BitVec 32 := Scalar.extui v4712
  let v4714 : BitVec 32 := Scalar.subi v4711 v4713
  let c8_i32_2241 : BitVec 32 := 8#32
  let c0_i32_2244 : BitVec 32 := 0#32
  let v4715 : BitVec 1 := Scalar.cmpi .sgt c8_i32_2241 c0_i32_2244
  let v4716 : BitVec 32 := Scalar.extui v4715
  let c0_i32_2245 : BitVec 32 := 0#32
  let v4717 : BitVec 1 := Scalar.cmpi .slt c8_i32_2241 c0_i32_2245
  let v4718 : BitVec 32 := Scalar.extui v4717
  let v4719 : BitVec 32 := Scalar.subi v4716 v4718
  let v4720 : BitVec 1 := Scalar.cmpi .ne v4714 v4719
  let v4721 : BitVec 32 := Scalar.remsi v4708 c8_i32_2241
  let c0_i32_2246 : BitVec 32 := 0#32
  let v4722 : BitVec 1 := Scalar.cmpi .ne v4721 c0_i32_2246
  let v4723 : BitVec 1 := Scalar.andi v4720 v4722
  let v4709 : BitVec 32 := Scalar.divsi v4708 c8_i32_2241
  let c1_i32_2247 : BitVec 32 := 1#32
  let v4724 : BitVec 32 := Scalar.subi v4709 c1_i32_2247
  let v4725 : BitVec 32 := Scalar.select v4723 v4724 v4709
  let v4734 : Index := Scalar.indexCast v4725
  let c0_2251 : Index := 0#32
  let c0_2252 : Index := 0#32
  ![v4734.toNat, 0, 0]

def k1_chk113 (v4708 : BitVec 32) : Prop :=
  (∀ a, (k1_off113 v4708) a + S1x8x128.size a ≤ S1250x8x128.size a)
instance k1_chk113.dec : ∀ (v4708 : BitVec 32), Decidable (k1_chk113 v4708) := fun v4708 => decidable_of_iff' _ (Iff.of_eq (k1_chk113.eq_1 v4708))
theorem k1_off113_inb : ∀ (v4708 : BitVec 32) (k1_hw113 : k1_chk113 v4708), ∀ a, (k1_off113 v4708) a + S1x8x128.size a ≤ S1250x8x128.size a := fun v4708 k1_hw113 => k1_hw113

def k1_off114 (v4750 : BitVec 32) : Fin 3 → Nat :=
  let c0_i32_2262 : BitVec 32 := 0#32
  let v4752 : BitVec 1 := Scalar.cmpi .sgt v4750 c0_i32_2262
  let v4753 : BitVec 32 := Scalar.extui v4752
  let c0_i32_2263 : BitVec 32 := 0#32
  let v4754 : BitVec 1 := Scalar.cmpi .slt v4750 c0_i32_2263
  let v4755 : BitVec 32 := Scalar.extui v4754
  let v4756 : BitVec 32 := Scalar.subi v4753 v4755
  let c8_i32_2261 : BitVec 32 := 8#32
  let c0_i32_2264 : BitVec 32 := 0#32
  let v4757 : BitVec 1 := Scalar.cmpi .sgt c8_i32_2261 c0_i32_2264
  let v4758 : BitVec 32 := Scalar.extui v4757
  let c0_i32_2265 : BitVec 32 := 0#32
  let v4759 : BitVec 1 := Scalar.cmpi .slt c8_i32_2261 c0_i32_2265
  let v4760 : BitVec 32 := Scalar.extui v4759
  let v4761 : BitVec 32 := Scalar.subi v4758 v4760
  let v4762 : BitVec 1 := Scalar.cmpi .ne v4756 v4761
  let v4763 : BitVec 32 := Scalar.remsi v4750 c8_i32_2261
  let c0_i32_2266 : BitVec 32 := 0#32
  let v4764 : BitVec 1 := Scalar.cmpi .ne v4763 c0_i32_2266
  let v4765 : BitVec 1 := Scalar.andi v4762 v4764
  let v4751 : BitVec 32 := Scalar.divsi v4750 c8_i32_2261
  let c1_i32_2267 : BitVec 32 := 1#32
  let v4766 : BitVec 32 := Scalar.subi v4751 c1_i32_2267
  let v4767 : BitVec 32 := Scalar.select v4765 v4766 v4751
  let v4776 : Index := Scalar.indexCast v4767
  let c0_2271 : Index := 0#32
  let c0_2272 : Index := 0#32
  ![v4776.toNat, 0, 0]

def k1_chk114 (v4750 : BitVec 32) : Prop :=
  (∀ a, (k1_off114 v4750) a + S1x8x128.size a ≤ S1250x8x128.size a)
instance k1_chk114.dec : ∀ (v4750 : BitVec 32), Decidable (k1_chk114 v4750) := fun v4750 => decidable_of_iff' _ (Iff.of_eq (k1_chk114.eq_1 v4750))
theorem k1_off114_inb : ∀ (v4750 : BitVec 32) (k1_hw114 : k1_chk114 v4750), ∀ a, (k1_off114 v4750) a + S1x8x128.size a ≤ S1250x8x128.size a := fun v4750 k1_hw114 => k1_hw114

def k1_off115 (v4792 : BitVec 32) : Fin 3 → Nat :=
  let c0_i32_2282 : BitVec 32 := 0#32
  let v4794 : BitVec 1 := Scalar.cmpi .sgt v4792 c0_i32_2282
  let v4795 : BitVec 32 := Scalar.extui v4794
  let c0_i32_2283 : BitVec 32 := 0#32
  let v4796 : BitVec 1 := Scalar.cmpi .slt v4792 c0_i32_2283
  let v4797 : BitVec 32 := Scalar.extui v4796
  let v4798 : BitVec 32 := Scalar.subi v4795 v4797
  let c8_i32_2281 : BitVec 32 := 8#32
  let c0_i32_2284 : BitVec 32 := 0#32
  let v4799 : BitVec 1 := Scalar.cmpi .sgt c8_i32_2281 c0_i32_2284
  let v4800 : BitVec 32 := Scalar.extui v4799
  let c0_i32_2285 : BitVec 32 := 0#32
  let v4801 : BitVec 1 := Scalar.cmpi .slt c8_i32_2281 c0_i32_2285
  let v4802 : BitVec 32 := Scalar.extui v4801
  let v4803 : BitVec 32 := Scalar.subi v4800 v4802
  let v4804 : BitVec 1 := Scalar.cmpi .ne v4798 v4803
  let v4805 : BitVec 32 := Scalar.remsi v4792 c8_i32_2281
  let c0_i32_2286 : BitVec 32 := 0#32
  let v4806 : BitVec 1 := Scalar.cmpi .ne v4805 c0_i32_2286
  let v4807 : BitVec 1 := Scalar.andi v4804 v4806
  let v4793 : BitVec 32 := Scalar.divsi v4792 c8_i32_2281
  let c1_i32_2287 : BitVec 32 := 1#32
  let v4808 : BitVec 32 := Scalar.subi v4793 c1_i32_2287
  let v4809 : BitVec 32 := Scalar.select v4807 v4808 v4793
  let v4818 : Index := Scalar.indexCast v4809
  let c0_2291 : Index := 0#32
  let c0_2292 : Index := 0#32
  ![v4818.toNat, 0, 0]

def k1_chk115 (v4792 : BitVec 32) : Prop :=
  (∀ a, (k1_off115 v4792) a + S1x8x128.size a ≤ S1250x8x128.size a)
instance k1_chk115.dec : ∀ (v4792 : BitVec 32), Decidable (k1_chk115 v4792) := fun v4792 => decidable_of_iff' _ (Iff.of_eq (k1_chk115.eq_1 v4792))
theorem k1_off115_inb : ∀ (v4792 : BitVec 32) (k1_hw115 : k1_chk115 v4792), ∀ a, (k1_off115 v4792) a + S1x8x128.size a ≤ S1250x8x128.size a := fun v4792 k1_hw115 => k1_hw115

def k1_off116 (v4834 : BitVec 32) : Fin 3 → Nat :=
  let c0_i32_2302 : BitVec 32 := 0#32
  let v4836 : BitVec 1 := Scalar.cmpi .sgt v4834 c0_i32_2302
  let v4837 : BitVec 32 := Scalar.extui v4836
  let c0_i32_2303 : BitVec 32 := 0#32
  let v4838 : BitVec 1 := Scalar.cmpi .slt v4834 c0_i32_2303
  let v4839 : BitVec 32 := Scalar.extui v4838
  let v4840 : BitVec 32 := Scalar.subi v4837 v4839
  let c8_i32_2301 : BitVec 32 := 8#32
  let c0_i32_2304 : BitVec 32 := 0#32
  let v4841 : BitVec 1 := Scalar.cmpi .sgt c8_i32_2301 c0_i32_2304
  let v4842 : BitVec 32 := Scalar.extui v4841
  let c0_i32_2305 : BitVec 32 := 0#32
  let v4843 : BitVec 1 := Scalar.cmpi .slt c8_i32_2301 c0_i32_2305
  let v4844 : BitVec 32 := Scalar.extui v4843
  let v4845 : BitVec 32 := Scalar.subi v4842 v4844
  let v4846 : BitVec 1 := Scalar.cmpi .ne v4840 v4845
  let v4847 : BitVec 32 := Scalar.remsi v4834 c8_i32_2301
  let c0_i32_2306 : BitVec 32 := 0#32
  let v4848 : BitVec 1 := Scalar.cmpi .ne v4847 c0_i32_2306
  let v4849 : BitVec 1 := Scalar.andi v4846 v4848
  let v4835 : BitVec 32 := Scalar.divsi v4834 c8_i32_2301
  let c1_i32_2307 : BitVec 32 := 1#32
  let v4850 : BitVec 32 := Scalar.subi v4835 c1_i32_2307
  let v4851 : BitVec 32 := Scalar.select v4849 v4850 v4835
  let v4860 : Index := Scalar.indexCast v4851
  let c0_2311 : Index := 0#32
  let c0_2312 : Index := 0#32
  ![v4860.toNat, 0, 0]

def k1_chk116 (v4834 : BitVec 32) : Prop :=
  (∀ a, (k1_off116 v4834) a + S1x8x128.size a ≤ S1250x8x128.size a)
instance k1_chk116.dec : ∀ (v4834 : BitVec 32), Decidable (k1_chk116 v4834) := fun v4834 => decidable_of_iff' _ (Iff.of_eq (k1_chk116.eq_1 v4834))
theorem k1_off116_inb : ∀ (v4834 : BitVec 32) (k1_hw116 : k1_chk116 v4834), ∀ a, (k1_off116 v4834) a + S1x8x128.size a ≤ S1250x8x128.size a := fun v4834 k1_hw116 => k1_hw116

def k1_off117 (v4876 : BitVec 32) : Fin 3 → Nat :=
  let c0_i32_2322 : BitVec 32 := 0#32
  let v4878 : BitVec 1 := Scalar.cmpi .sgt v4876 c0_i32_2322
  let v4879 : BitVec 32 := Scalar.extui v4878
  let c0_i32_2323 : BitVec 32 := 0#32
  let v4880 : BitVec 1 := Scalar.cmpi .slt v4876 c0_i32_2323
  let v4881 : BitVec 32 := Scalar.extui v4880
  let v4882 : BitVec 32 := Scalar.subi v4879 v4881
  let c8_i32_2321 : BitVec 32 := 8#32
  let c0_i32_2324 : BitVec 32 := 0#32
  let v4883 : BitVec 1 := Scalar.cmpi .sgt c8_i32_2321 c0_i32_2324
  let v4884 : BitVec 32 := Scalar.extui v4883
  let c0_i32_2325 : BitVec 32 := 0#32
  let v4885 : BitVec 1 := Scalar.cmpi .slt c8_i32_2321 c0_i32_2325
  let v4886 : BitVec 32 := Scalar.extui v4885
  let v4887 : BitVec 32 := Scalar.subi v4884 v4886
  let v4888 : BitVec 1 := Scalar.cmpi .ne v4882 v4887
  let v4889 : BitVec 32 := Scalar.remsi v4876 c8_i32_2321
  let c0_i32_2326 : BitVec 32 := 0#32
  let v4890 : BitVec 1 := Scalar.cmpi .ne v4889 c0_i32_2326
  let v4891 : BitVec 1 := Scalar.andi v4888 v4890
  let v4877 : BitVec 32 := Scalar.divsi v4876 c8_i32_2321
  let c1_i32_2327 : BitVec 32 := 1#32
  let v4892 : BitVec 32 := Scalar.subi v4877 c1_i32_2327
  let v4893 : BitVec 32 := Scalar.select v4891 v4892 v4877
  let v4902 : Index := Scalar.indexCast v4893
  let c0_2331 : Index := 0#32
  let c0_2332 : Index := 0#32
  ![v4902.toNat, 0, 0]

def k1_chk117 (v4876 : BitVec 32) : Prop :=
  (∀ a, (k1_off117 v4876) a + S1x8x128.size a ≤ S1250x8x128.size a)
instance k1_chk117.dec : ∀ (v4876 : BitVec 32), Decidable (k1_chk117 v4876) := fun v4876 => decidable_of_iff' _ (Iff.of_eq (k1_chk117.eq_1 v4876))
theorem k1_off117_inb : ∀ (v4876 : BitVec 32) (k1_hw117 : k1_chk117 v4876), ∀ a, (k1_off117 v4876) a + S1x8x128.size a ≤ S1250x8x128.size a := fun v4876 k1_hw117 => k1_hw117

def k1_off118 (v4918 : BitVec 32) : Fin 3 → Nat :=
  let c0_i32_2342 : BitVec 32 := 0#32
  let v4920 : BitVec 1 := Scalar.cmpi .sgt v4918 c0_i32_2342
  let v4921 : BitVec 32 := Scalar.extui v4920
  let c0_i32_2343 : BitVec 32 := 0#32
  let v4922 : BitVec 1 := Scalar.cmpi .slt v4918 c0_i32_2343
  let v4923 : BitVec 32 := Scalar.extui v4922
  let v4924 : BitVec 32 := Scalar.subi v4921 v4923
  let c8_i32_2341 : BitVec 32 := 8#32
  let c0_i32_2344 : BitVec 32 := 0#32
  let v4925 : BitVec 1 := Scalar.cmpi .sgt c8_i32_2341 c0_i32_2344
  let v4926 : BitVec 32 := Scalar.extui v4925
  let c0_i32_2345 : BitVec 32 := 0#32
  let v4927 : BitVec 1 := Scalar.cmpi .slt c8_i32_2341 c0_i32_2345
  let v4928 : BitVec 32 := Scalar.extui v4927
  let v4929 : BitVec 32 := Scalar.subi v4926 v4928
  let v4930 : BitVec 1 := Scalar.cmpi .ne v4924 v4929
  let v4931 : BitVec 32 := Scalar.remsi v4918 c8_i32_2341
  let c0_i32_2346 : BitVec 32 := 0#32
  let v4932 : BitVec 1 := Scalar.cmpi .ne v4931 c0_i32_2346
  let v4933 : BitVec 1 := Scalar.andi v4930 v4932
  let v4919 : BitVec 32 := Scalar.divsi v4918 c8_i32_2341
  let c1_i32_2347 : BitVec 32 := 1#32
  let v4934 : BitVec 32 := Scalar.subi v4919 c1_i32_2347
  let v4935 : BitVec 32 := Scalar.select v4933 v4934 v4919
  let v4944 : Index := Scalar.indexCast v4935
  let c0_2351 : Index := 0#32
  let c0_2352 : Index := 0#32
  ![v4944.toNat, 0, 0]

def k1_chk118 (v4918 : BitVec 32) : Prop :=
  (∀ a, (k1_off118 v4918) a + S1x8x128.size a ≤ S1250x8x128.size a)
instance k1_chk118.dec : ∀ (v4918 : BitVec 32), Decidable (k1_chk118 v4918) := fun v4918 => decidable_of_iff' _ (Iff.of_eq (k1_chk118.eq_1 v4918))
theorem k1_off118_inb : ∀ (v4918 : BitVec 32) (k1_hw118 : k1_chk118 v4918), ∀ a, (k1_off118 v4918) a + S1x8x128.size a ≤ S1250x8x128.size a := fun v4918 k1_hw118 => k1_hw118

def k1_off119 (v4960 : BitVec 32) : Fin 3 → Nat :=
  let c0_i32_2362 : BitVec 32 := 0#32
  let v4962 : BitVec 1 := Scalar.cmpi .sgt v4960 c0_i32_2362
  let v4963 : BitVec 32 := Scalar.extui v4962
  let c0_i32_2363 : BitVec 32 := 0#32
  let v4964 : BitVec 1 := Scalar.cmpi .slt v4960 c0_i32_2363
  let v4965 : BitVec 32 := Scalar.extui v4964
  let v4966 : BitVec 32 := Scalar.subi v4963 v4965
  let c8_i32_2361 : BitVec 32 := 8#32
  let c0_i32_2364 : BitVec 32 := 0#32
  let v4967 : BitVec 1 := Scalar.cmpi .sgt c8_i32_2361 c0_i32_2364
  let v4968 : BitVec 32 := Scalar.extui v4967
  let c0_i32_2365 : BitVec 32 := 0#32
  let v4969 : BitVec 1 := Scalar.cmpi .slt c8_i32_2361 c0_i32_2365
  let v4970 : BitVec 32 := Scalar.extui v4969
  let v4971 : BitVec 32 := Scalar.subi v4968 v4970
  let v4972 : BitVec 1 := Scalar.cmpi .ne v4966 v4971
  let v4973 : BitVec 32 := Scalar.remsi v4960 c8_i32_2361
  let c0_i32_2366 : BitVec 32 := 0#32
  let v4974 : BitVec 1 := Scalar.cmpi .ne v4973 c0_i32_2366
  let v4975 : BitVec 1 := Scalar.andi v4972 v4974
  let v4961 : BitVec 32 := Scalar.divsi v4960 c8_i32_2361
  let c1_i32_2367 : BitVec 32 := 1#32
  let v4976 : BitVec 32 := Scalar.subi v4961 c1_i32_2367
  let v4977 : BitVec 32 := Scalar.select v4975 v4976 v4961
  let v4986 : Index := Scalar.indexCast v4977
  let c0_2371 : Index := 0#32
  let c0_2372 : Index := 0#32
  ![v4986.toNat, 0, 0]

def k1_chk119 (v4960 : BitVec 32) : Prop :=
  (∀ a, (k1_off119 v4960) a + S1x8x128.size a ≤ S1250x8x128.size a)
instance k1_chk119.dec : ∀ (v4960 : BitVec 32), Decidable (k1_chk119 v4960) := fun v4960 => decidable_of_iff' _ (Iff.of_eq (k1_chk119.eq_1 v4960))
theorem k1_off119_inb : ∀ (v4960 : BitVec 32) (k1_hw119 : k1_chk119 v4960), ∀ a, (k1_off119 v4960) a + S1x8x128.size a ≤ S1250x8x128.size a := fun v4960 k1_hw119 => k1_hw119

def k1_off120 (v5002 : BitVec 32) : Fin 3 → Nat :=
  let c0_i32_2382 : BitVec 32 := 0#32
  let v5004 : BitVec 1 := Scalar.cmpi .sgt v5002 c0_i32_2382
  let v5005 : BitVec 32 := Scalar.extui v5004
  let c0_i32_2383 : BitVec 32 := 0#32
  let v5006 : BitVec 1 := Scalar.cmpi .slt v5002 c0_i32_2383
  let v5007 : BitVec 32 := Scalar.extui v5006
  let v5008 : BitVec 32 := Scalar.subi v5005 v5007
  let c8_i32_2381 : BitVec 32 := 8#32
  let c0_i32_2384 : BitVec 32 := 0#32
  let v5009 : BitVec 1 := Scalar.cmpi .sgt c8_i32_2381 c0_i32_2384
  let v5010 : BitVec 32 := Scalar.extui v5009
  let c0_i32_2385 : BitVec 32 := 0#32
  let v5011 : BitVec 1 := Scalar.cmpi .slt c8_i32_2381 c0_i32_2385
  let v5012 : BitVec 32 := Scalar.extui v5011
  let v5013 : BitVec 32 := Scalar.subi v5010 v5012
  let v5014 : BitVec 1 := Scalar.cmpi .ne v5008 v5013
  let v5015 : BitVec 32 := Scalar.remsi v5002 c8_i32_2381
  let c0_i32_2386 : BitVec 32 := 0#32
  let v5016 : BitVec 1 := Scalar.cmpi .ne v5015 c0_i32_2386
  let v5017 : BitVec 1 := Scalar.andi v5014 v5016
  let v5003 : BitVec 32 := Scalar.divsi v5002 c8_i32_2381
  let c1_i32_2387 : BitVec 32 := 1#32
  let v5018 : BitVec 32 := Scalar.subi v5003 c1_i32_2387
  let v5019 : BitVec 32 := Scalar.select v5017 v5018 v5003
  let v5028 : Index := Scalar.indexCast v5019
  let c0_2391 : Index := 0#32
  let c0_2392 : Index := 0#32
  ![v5028.toNat, 0, 0]

def k1_chk120 (v5002 : BitVec 32) : Prop :=
  (∀ a, (k1_off120 v5002) a + S1x8x128.size a ≤ S1250x8x128.size a)
instance k1_chk120.dec : ∀ (v5002 : BitVec 32), Decidable (k1_chk120 v5002) := fun v5002 => decidable_of_iff' _ (Iff.of_eq (k1_chk120.eq_1 v5002))
theorem k1_off120_inb : ∀ (v5002 : BitVec 32) (k1_hw120 : k1_chk120 v5002), ∀ a, (k1_off120 v5002) a + S1x8x128.size a ≤ S1250x8x128.size a := fun v5002 k1_hw120 => k1_hw120

def k1_off121 (v5044 : BitVec 32) : Fin 3 → Nat :=
  let c0_i32_2402 : BitVec 32 := 0#32
  let v5046 : BitVec 1 := Scalar.cmpi .sgt v5044 c0_i32_2402
  let v5047 : BitVec 32 := Scalar.extui v5046
  let c0_i32_2403 : BitVec 32 := 0#32
  let v5048 : BitVec 1 := Scalar.cmpi .slt v5044 c0_i32_2403
  let v5049 : BitVec 32 := Scalar.extui v5048
  let v5050 : BitVec 32 := Scalar.subi v5047 v5049
  let c8_i32_2401 : BitVec 32 := 8#32
  let c0_i32_2404 : BitVec 32 := 0#32
  let v5051 : BitVec 1 := Scalar.cmpi .sgt c8_i32_2401 c0_i32_2404
  let v5052 : BitVec 32 := Scalar.extui v5051
  let c0_i32_2405 : BitVec 32 := 0#32
  let v5053 : BitVec 1 := Scalar.cmpi .slt c8_i32_2401 c0_i32_2405
  let v5054 : BitVec 32 := Scalar.extui v5053
  let v5055 : BitVec 32 := Scalar.subi v5052 v5054
  let v5056 : BitVec 1 := Scalar.cmpi .ne v5050 v5055
  let v5057 : BitVec 32 := Scalar.remsi v5044 c8_i32_2401
  let c0_i32_2406 : BitVec 32 := 0#32
  let v5058 : BitVec 1 := Scalar.cmpi .ne v5057 c0_i32_2406
  let v5059 : BitVec 1 := Scalar.andi v5056 v5058
  let v5045 : BitVec 32 := Scalar.divsi v5044 c8_i32_2401
  let c1_i32_2407 : BitVec 32 := 1#32
  let v5060 : BitVec 32 := Scalar.subi v5045 c1_i32_2407
  let v5061 : BitVec 32 := Scalar.select v5059 v5060 v5045
  let v5070 : Index := Scalar.indexCast v5061
  let c0_2411 : Index := 0#32
  let c0_2412 : Index := 0#32
  ![v5070.toNat, 0, 0]

def k1_chk121 (v5044 : BitVec 32) : Prop :=
  (∀ a, (k1_off121 v5044) a + S1x8x128.size a ≤ S1250x8x128.size a)
instance k1_chk121.dec : ∀ (v5044 : BitVec 32), Decidable (k1_chk121 v5044) := fun v5044 => decidable_of_iff' _ (Iff.of_eq (k1_chk121.eq_1 v5044))
theorem k1_off121_inb : ∀ (v5044 : BitVec 32) (k1_hw121 : k1_chk121 v5044), ∀ a, (k1_off121 v5044) a + S1x8x128.size a ≤ S1250x8x128.size a := fun v5044 k1_hw121 => k1_hw121

def k1_off122 (v5086 : BitVec 32) : Fin 3 → Nat :=
  let c0_i32_2422 : BitVec 32 := 0#32
  let v5088 : BitVec 1 := Scalar.cmpi .sgt v5086 c0_i32_2422
  let v5089 : BitVec 32 := Scalar.extui v5088
  let c0_i32_2423 : BitVec 32 := 0#32
  let v5090 : BitVec 1 := Scalar.cmpi .slt v5086 c0_i32_2423
  let v5091 : BitVec 32 := Scalar.extui v5090
  let v5092 : BitVec 32 := Scalar.subi v5089 v5091
  let c8_i32_2421 : BitVec 32 := 8#32
  let c0_i32_2424 : BitVec 32 := 0#32
  let v5093 : BitVec 1 := Scalar.cmpi .sgt c8_i32_2421 c0_i32_2424
  let v5094 : BitVec 32 := Scalar.extui v5093
  let c0_i32_2425 : BitVec 32 := 0#32
  let v5095 : BitVec 1 := Scalar.cmpi .slt c8_i32_2421 c0_i32_2425
  let v5096 : BitVec 32 := Scalar.extui v5095
  let v5097 : BitVec 32 := Scalar.subi v5094 v5096
  let v5098 : BitVec 1 := Scalar.cmpi .ne v5092 v5097
  let v5099 : BitVec 32 := Scalar.remsi v5086 c8_i32_2421
  let c0_i32_2426 : BitVec 32 := 0#32
  let v5100 : BitVec 1 := Scalar.cmpi .ne v5099 c0_i32_2426
  let v5101 : BitVec 1 := Scalar.andi v5098 v5100
  let v5087 : BitVec 32 := Scalar.divsi v5086 c8_i32_2421
  let c1_i32_2427 : BitVec 32 := 1#32
  let v5102 : BitVec 32 := Scalar.subi v5087 c1_i32_2427
  let v5103 : BitVec 32 := Scalar.select v5101 v5102 v5087
  let v5112 : Index := Scalar.indexCast v5103
  let c0_2431 : Index := 0#32
  let c0_2432 : Index := 0#32
  ![v5112.toNat, 0, 0]

def k1_chk122 (v5086 : BitVec 32) : Prop :=
  (∀ a, (k1_off122 v5086) a + S1x8x128.size a ≤ S1250x8x128.size a)
instance k1_chk122.dec : ∀ (v5086 : BitVec 32), Decidable (k1_chk122 v5086) := fun v5086 => decidable_of_iff' _ (Iff.of_eq (k1_chk122.eq_1 v5086))
theorem k1_off122_inb : ∀ (v5086 : BitVec 32) (k1_hw122 : k1_chk122 v5086), ∀ a, (k1_off122 v5086) a + S1x8x128.size a ≤ S1250x8x128.size a := fun v5086 k1_hw122 => k1_hw122

def k1_off123 (v5128 : BitVec 32) : Fin 3 → Nat :=
  let c0_i32_2442 : BitVec 32 := 0#32
  let v5130 : BitVec 1 := Scalar.cmpi .sgt v5128 c0_i32_2442
  let v5131 : BitVec 32 := Scalar.extui v5130
  let c0_i32_2443 : BitVec 32 := 0#32
  let v5132 : BitVec 1 := Scalar.cmpi .slt v5128 c0_i32_2443
  let v5133 : BitVec 32 := Scalar.extui v5132
  let v5134 : BitVec 32 := Scalar.subi v5131 v5133
  let c8_i32_2441 : BitVec 32 := 8#32
  let c0_i32_2444 : BitVec 32 := 0#32
  let v5135 : BitVec 1 := Scalar.cmpi .sgt c8_i32_2441 c0_i32_2444
  let v5136 : BitVec 32 := Scalar.extui v5135
  let c0_i32_2445 : BitVec 32 := 0#32
  let v5137 : BitVec 1 := Scalar.cmpi .slt c8_i32_2441 c0_i32_2445
  let v5138 : BitVec 32 := Scalar.extui v5137
  let v5139 : BitVec 32 := Scalar.subi v5136 v5138
  let v5140 : BitVec 1 := Scalar.cmpi .ne v5134 v5139
  let v5141 : BitVec 32 := Scalar.remsi v5128 c8_i32_2441
  let c0_i32_2446 : BitVec 32 := 0#32
  let v5142 : BitVec 1 := Scalar.cmpi .ne v5141 c0_i32_2446
  let v5143 : BitVec 1 := Scalar.andi v5140 v5142
  let v5129 : BitVec 32 := Scalar.divsi v5128 c8_i32_2441
  let c1_i32_2447 : BitVec 32 := 1#32
  let v5144 : BitVec 32 := Scalar.subi v5129 c1_i32_2447
  let v5145 : BitVec 32 := Scalar.select v5143 v5144 v5129
  let v5154 : Index := Scalar.indexCast v5145
  let c0_2451 : Index := 0#32
  let c0_2452 : Index := 0#32
  ![v5154.toNat, 0, 0]

def k1_chk123 (v5128 : BitVec 32) : Prop :=
  (∀ a, (k1_off123 v5128) a + S1x8x128.size a ≤ S1250x8x128.size a)
instance k1_chk123.dec : ∀ (v5128 : BitVec 32), Decidable (k1_chk123 v5128) := fun v5128 => decidable_of_iff' _ (Iff.of_eq (k1_chk123.eq_1 v5128))
theorem k1_off123_inb : ∀ (v5128 : BitVec 32) (k1_hw123 : k1_chk123 v5128), ∀ a, (k1_off123 v5128) a + S1x8x128.size a ≤ S1250x8x128.size a := fun v5128 k1_hw123 => k1_hw123

def k1_off124 (v5170 : BitVec 32) : Fin 3 → Nat :=
  let c0_i32_2462 : BitVec 32 := 0#32
  let v5172 : BitVec 1 := Scalar.cmpi .sgt v5170 c0_i32_2462
  let v5173 : BitVec 32 := Scalar.extui v5172
  let c0_i32_2463 : BitVec 32 := 0#32
  let v5174 : BitVec 1 := Scalar.cmpi .slt v5170 c0_i32_2463
  let v5175 : BitVec 32 := Scalar.extui v5174
  let v5176 : BitVec 32 := Scalar.subi v5173 v5175
  let c8_i32_2461 : BitVec 32 := 8#32
  let c0_i32_2464 : BitVec 32 := 0#32
  let v5177 : BitVec 1 := Scalar.cmpi .sgt c8_i32_2461 c0_i32_2464
  let v5178 : BitVec 32 := Scalar.extui v5177
  let c0_i32_2465 : BitVec 32 := 0#32
  let v5179 : BitVec 1 := Scalar.cmpi .slt c8_i32_2461 c0_i32_2465
  let v5180 : BitVec 32 := Scalar.extui v5179
  let v5181 : BitVec 32 := Scalar.subi v5178 v5180
  let v5182 : BitVec 1 := Scalar.cmpi .ne v5176 v5181
  let v5183 : BitVec 32 := Scalar.remsi v5170 c8_i32_2461
  let c0_i32_2466 : BitVec 32 := 0#32
  let v5184 : BitVec 1 := Scalar.cmpi .ne v5183 c0_i32_2466
  let v5185 : BitVec 1 := Scalar.andi v5182 v5184
  let v5171 : BitVec 32 := Scalar.divsi v5170 c8_i32_2461
  let c1_i32_2467 : BitVec 32 := 1#32
  let v5186 : BitVec 32 := Scalar.subi v5171 c1_i32_2467
  let v5187 : BitVec 32 := Scalar.select v5185 v5186 v5171
  let v5196 : Index := Scalar.indexCast v5187
  let c0_2471 : Index := 0#32
  let c0_2472 : Index := 0#32
  ![v5196.toNat, 0, 0]

def k1_chk124 (v5170 : BitVec 32) : Prop :=
  (∀ a, (k1_off124 v5170) a + S1x8x128.size a ≤ S1250x8x128.size a)
instance k1_chk124.dec : ∀ (v5170 : BitVec 32), Decidable (k1_chk124 v5170) := fun v5170 => decidable_of_iff' _ (Iff.of_eq (k1_chk124.eq_1 v5170))
theorem k1_off124_inb : ∀ (v5170 : BitVec 32) (k1_hw124 : k1_chk124 v5170), ∀ a, (k1_off124 v5170) a + S1x8x128.size a ≤ S1250x8x128.size a := fun v5170 k1_hw124 => k1_hw124

def k1_off125 (v5212 : BitVec 32) : Fin 3 → Nat :=
  let c0_i32_2482 : BitVec 32 := 0#32
  let v5214 : BitVec 1 := Scalar.cmpi .sgt v5212 c0_i32_2482
  let v5215 : BitVec 32 := Scalar.extui v5214
  let c0_i32_2483 : BitVec 32 := 0#32
  let v5216 : BitVec 1 := Scalar.cmpi .slt v5212 c0_i32_2483
  let v5217 : BitVec 32 := Scalar.extui v5216
  let v5218 : BitVec 32 := Scalar.subi v5215 v5217
  let c8_i32_2481 : BitVec 32 := 8#32
  let c0_i32_2484 : BitVec 32 := 0#32
  let v5219 : BitVec 1 := Scalar.cmpi .sgt c8_i32_2481 c0_i32_2484
  let v5220 : BitVec 32 := Scalar.extui v5219
  let c0_i32_2485 : BitVec 32 := 0#32
  let v5221 : BitVec 1 := Scalar.cmpi .slt c8_i32_2481 c0_i32_2485
  let v5222 : BitVec 32 := Scalar.extui v5221
  let v5223 : BitVec 32 := Scalar.subi v5220 v5222
  let v5224 : BitVec 1 := Scalar.cmpi .ne v5218 v5223
  let v5225 : BitVec 32 := Scalar.remsi v5212 c8_i32_2481
  let c0_i32_2486 : BitVec 32 := 0#32
  let v5226 : BitVec 1 := Scalar.cmpi .ne v5225 c0_i32_2486
  let v5227 : BitVec 1 := Scalar.andi v5224 v5226
  let v5213 : BitVec 32 := Scalar.divsi v5212 c8_i32_2481
  let c1_i32_2487 : BitVec 32 := 1#32
  let v5228 : BitVec 32 := Scalar.subi v5213 c1_i32_2487
  let v5229 : BitVec 32 := Scalar.select v5227 v5228 v5213
  let v5238 : Index := Scalar.indexCast v5229
  let c0_2491 : Index := 0#32
  let c0_2492 : Index := 0#32
  ![v5238.toNat, 0, 0]

def k1_chk125 (v5212 : BitVec 32) : Prop :=
  (∀ a, (k1_off125 v5212) a + S1x8x128.size a ≤ S1250x8x128.size a)
instance k1_chk125.dec : ∀ (v5212 : BitVec 32), Decidable (k1_chk125 v5212) := fun v5212 => decidable_of_iff' _ (Iff.of_eq (k1_chk125.eq_1 v5212))
theorem k1_off125_inb : ∀ (v5212 : BitVec 32) (k1_hw125 : k1_chk125 v5212), ∀ a, (k1_off125 v5212) a + S1x8x128.size a ≤ S1250x8x128.size a := fun v5212 k1_hw125 => k1_hw125

def k1_off126 (v5254 : BitVec 32) : Fin 3 → Nat :=
  let c0_i32_2502 : BitVec 32 := 0#32
  let v5256 : BitVec 1 := Scalar.cmpi .sgt v5254 c0_i32_2502
  let v5257 : BitVec 32 := Scalar.extui v5256
  let c0_i32_2503 : BitVec 32 := 0#32
  let v5258 : BitVec 1 := Scalar.cmpi .slt v5254 c0_i32_2503
  let v5259 : BitVec 32 := Scalar.extui v5258
  let v5260 : BitVec 32 := Scalar.subi v5257 v5259
  let c8_i32_2501 : BitVec 32 := 8#32
  let c0_i32_2504 : BitVec 32 := 0#32
  let v5261 : BitVec 1 := Scalar.cmpi .sgt c8_i32_2501 c0_i32_2504
  let v5262 : BitVec 32 := Scalar.extui v5261
  let c0_i32_2505 : BitVec 32 := 0#32
  let v5263 : BitVec 1 := Scalar.cmpi .slt c8_i32_2501 c0_i32_2505
  let v5264 : BitVec 32 := Scalar.extui v5263
  let v5265 : BitVec 32 := Scalar.subi v5262 v5264
  let v5266 : BitVec 1 := Scalar.cmpi .ne v5260 v5265
  let v5267 : BitVec 32 := Scalar.remsi v5254 c8_i32_2501
  let c0_i32_2506 : BitVec 32 := 0#32
  let v5268 : BitVec 1 := Scalar.cmpi .ne v5267 c0_i32_2506
  let v5269 : BitVec 1 := Scalar.andi v5266 v5268
  let v5255 : BitVec 32 := Scalar.divsi v5254 c8_i32_2501
  let c1_i32_2507 : BitVec 32 := 1#32
  let v5270 : BitVec 32 := Scalar.subi v5255 c1_i32_2507
  let v5271 : BitVec 32 := Scalar.select v5269 v5270 v5255
  let v5280 : Index := Scalar.indexCast v5271
  let c0_2511 : Index := 0#32
  let c0_2512 : Index := 0#32
  ![v5280.toNat, 0, 0]

def k1_chk126 (v5254 : BitVec 32) : Prop :=
  (∀ a, (k1_off126 v5254) a + S1x8x128.size a ≤ S1250x8x128.size a)
instance k1_chk126.dec : ∀ (v5254 : BitVec 32), Decidable (k1_chk126 v5254) := fun v5254 => decidable_of_iff' _ (Iff.of_eq (k1_chk126.eq_1 v5254))
theorem k1_off126_inb : ∀ (v5254 : BitVec 32) (k1_hw126 : k1_chk126 v5254), ∀ a, (k1_off126 v5254) a + S1x8x128.size a ≤ S1250x8x128.size a := fun v5254 k1_hw126 => k1_hw126

def k1_off127 (v5296 : BitVec 32) : Fin 3 → Nat :=
  let c0_i32_2522 : BitVec 32 := 0#32
  let v5298 : BitVec 1 := Scalar.cmpi .sgt v5296 c0_i32_2522
  let v5299 : BitVec 32 := Scalar.extui v5298
  let c0_i32_2523 : BitVec 32 := 0#32
  let v5300 : BitVec 1 := Scalar.cmpi .slt v5296 c0_i32_2523
  let v5301 : BitVec 32 := Scalar.extui v5300
  let v5302 : BitVec 32 := Scalar.subi v5299 v5301
  let c8_i32_2521 : BitVec 32 := 8#32
  let c0_i32_2524 : BitVec 32 := 0#32
  let v5303 : BitVec 1 := Scalar.cmpi .sgt c8_i32_2521 c0_i32_2524
  let v5304 : BitVec 32 := Scalar.extui v5303
  let c0_i32_2525 : BitVec 32 := 0#32
  let v5305 : BitVec 1 := Scalar.cmpi .slt c8_i32_2521 c0_i32_2525
  let v5306 : BitVec 32 := Scalar.extui v5305
  let v5307 : BitVec 32 := Scalar.subi v5304 v5306
  let v5308 : BitVec 1 := Scalar.cmpi .ne v5302 v5307
  let v5309 : BitVec 32 := Scalar.remsi v5296 c8_i32_2521
  let c0_i32_2526 : BitVec 32 := 0#32
  let v5310 : BitVec 1 := Scalar.cmpi .ne v5309 c0_i32_2526
  let v5311 : BitVec 1 := Scalar.andi v5308 v5310
  let v5297 : BitVec 32 := Scalar.divsi v5296 c8_i32_2521
  let c1_i32_2527 : BitVec 32 := 1#32
  let v5312 : BitVec 32 := Scalar.subi v5297 c1_i32_2527
  let v5313 : BitVec 32 := Scalar.select v5311 v5312 v5297
  let v5322 : Index := Scalar.indexCast v5313
  let c0_2531 : Index := 0#32
  let c0_2532 : Index := 0#32
  ![v5322.toNat, 0, 0]

def k1_chk127 (v5296 : BitVec 32) : Prop :=
  (∀ a, (k1_off127 v5296) a + S1x8x128.size a ≤ S1250x8x128.size a)
instance k1_chk127.dec : ∀ (v5296 : BitVec 32), Decidable (k1_chk127 v5296) := fun v5296 => decidable_of_iff' _ (Iff.of_eq (k1_chk127.eq_1 v5296))
theorem k1_off127_inb : ∀ (v5296 : BitVec 32) (k1_hw127 : k1_chk127 v5296), ∀ a, (k1_off127 v5296) a + S1x8x128.size a ≤ S1250x8x128.size a := fun v5296 k1_hw127 => k1_hw127

def k1_off128 (v5338 : BitVec 32) : Fin 3 → Nat :=
  let c0_i32_2542 : BitVec 32 := 0#32
  let v5340 : BitVec 1 := Scalar.cmpi .sgt v5338 c0_i32_2542
  let v5341 : BitVec 32 := Scalar.extui v5340
  let c0_i32_2543 : BitVec 32 := 0#32
  let v5342 : BitVec 1 := Scalar.cmpi .slt v5338 c0_i32_2543
  let v5343 : BitVec 32 := Scalar.extui v5342
  let v5344 : BitVec 32 := Scalar.subi v5341 v5343
  let c8_i32_2541 : BitVec 32 := 8#32
  let c0_i32_2544 : BitVec 32 := 0#32
  let v5345 : BitVec 1 := Scalar.cmpi .sgt c8_i32_2541 c0_i32_2544
  let v5346 : BitVec 32 := Scalar.extui v5345
  let c0_i32_2545 : BitVec 32 := 0#32
  let v5347 : BitVec 1 := Scalar.cmpi .slt c8_i32_2541 c0_i32_2545
  let v5348 : BitVec 32 := Scalar.extui v5347
  let v5349 : BitVec 32 := Scalar.subi v5346 v5348
  let v5350 : BitVec 1 := Scalar.cmpi .ne v5344 v5349
  let v5351 : BitVec 32 := Scalar.remsi v5338 c8_i32_2541
  let c0_i32_2546 : BitVec 32 := 0#32
  let v5352 : BitVec 1 := Scalar.cmpi .ne v5351 c0_i32_2546
  let v5353 : BitVec 1 := Scalar.andi v5350 v5352
  let v5339 : BitVec 32 := Scalar.divsi v5338 c8_i32_2541
  let c1_i32_2547 : BitVec 32 := 1#32
  let v5354 : BitVec 32 := Scalar.subi v5339 c1_i32_2547
  let v5355 : BitVec 32 := Scalar.select v5353 v5354 v5339
  let v5364 : Index := Scalar.indexCast v5355
  let c0_2551 : Index := 0#32
  let c0_2552 : Index := 0#32
  ![v5364.toNat, 0, 0]

def k1_chk128 (v5338 : BitVec 32) : Prop :=
  (∀ a, (k1_off128 v5338) a + S1x8x128.size a ≤ S1250x8x128.size a)
instance k1_chk128.dec : ∀ (v5338 : BitVec 32), Decidable (k1_chk128 v5338) := fun v5338 => decidable_of_iff' _ (Iff.of_eq (k1_chk128.eq_1 v5338))
theorem k1_off128_inb : ∀ (v5338 : BitVec 32) (k1_hw128 : k1_chk128 v5338), ∀ a, (k1_off128 v5338) a + S1x8x128.size a ≤ S1250x8x128.size a := fun v5338 k1_hw128 => k1_hw128

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .smem S1x1x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1250x8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1250x8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1000x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  inb_S10000x128_S10000x128_0_0 : ∀ a, (![0, 0] : Fin 2 → Nat) a + S10000x128.size a ≤ S10000x128.size a
  gathers_S10000x128_S128x128 : S10000x128.Gathers 0 S128x128
  slices_S2x320000_S1x320000_1_0 : S2x320000.Slices ![1, 0] S1x320000
  shapeCasts_S320000_S2500x1x128 : S320000.ShapeCasts S2500x1x128
  inb_S1250x8x128_S1250x8x128_0_0_0 : ∀ a, (![0, 0, 0] : Fin 3 → Nat) a + S1250x8x128.size a ≤ S1250x8x128.size a
  h_S1250x8x128 : 0 < S1250x8x128.numel
  iota_S8x128_d0_w32 : S8x128.Iotas .tc 32 [0]
  inb_S1x1x128_S1x1x1_0_0_0 : ∀ a, (![0, 0, 0] : Fin 3 → Nat) a + S1x1x1.size a ≤ S1x1x128.size a
  numel1_S1x1x1 : S1x1x1.numel = 1
  inb_S128x128_S1x128_0_0 : ∀ a, (![0, 0] : Fin 2 → Nat) a + S1x128.size a ≤ S128x128.size a
  h_S1x128 : 0 < S1x128.numel
  shapeCasts_S1x128_S1x128 : S1x128.ShapeCasts S1x128
  natLt_1_32 : 1 < 32
  h_S1x8x128 : 0 < S1x8x128.numel
  shapeCasts_S1x8x128_S1x8x128 : S1x8x128.ShapeCasts S1x8x128
  broadcasts_S1x128_S8x128 : S1x128.Broadcasts S8x128
  shapeCasts_S8x128_S1x8x128 : S8x128.ShapeCasts S1x8x128
  inb_S1x1x128_S1x1x1_0_0_1 : ∀ a, (![0, 0, 1] : Fin 3 → Nat) a + S1x1x1.size a ≤ S1x1x128.size a
  inb_S128x128_S1x128_1_0 : ∀ a, (![1, 0] : Fin 2 → Nat) a + S1x128.size a ≤ S128x128.size a
  inb_S1x1x128_S1x1x1_0_0_2 : ∀ a, (![0, 0, 2] : Fin 3 → Nat) a + S1x1x1.size a ≤ S1x1x128.size a
  inb_S128x128_S1x128_2_0 : ∀ a, (![2, 0] : Fin 2 → Nat) a + S1x128.size a ≤ S128x128.size a
  inb_S1x1x128_S1x1x1_0_0_3 : ∀ a, (![0, 0, 3] : Fin 3 → Nat) a + S1x1x1.size a ≤ S1x1x128.size a
  inb_S128x128_S1x128_3_0 : ∀ a, (![3, 0] : Fin 2 → Nat) a + S1x128.size a ≤ S128x128.size a
  inb_S1x1x128_S1x1x1_0_0_4 : ∀ a, (![0, 0, 4] : Fin 3 → Nat) a + S1x1x1.size a ≤ S1x1x128.size a
  inb_S128x128_S1x128_4_0 : ∀ a, (![4, 0] : Fin 2 → Nat) a + S1x128.size a ≤ S128x128.size a
  inb_S1x1x128_S1x1x1_0_0_5 : ∀ a, (![0, 0, 5] : Fin 3 → Nat) a + S1x1x1.size a ≤ S1x1x128.size a
  inb_S128x128_S1x128_5_0 : ∀ a, (![5, 0] : Fin 2 → Nat) a + S1x128.size a ≤ S128x128.size a
  inb_S1x1x128_S1x1x1_0_0_6 : ∀ a, (![0, 0, 6] : Fin 3 → Nat) a + S1x1x1.size a ≤ S1x1x128.size a
  inb_S128x128_S1x128_6_0 : ∀ a, (![6, 0] : Fin 2 → Nat) a + S1x128.size a ≤ S128x128.size a
  inb_S1x1x128_S1x1x1_0_0_7 : ∀ a, (![0, 0, 7] : Fin 3 → Nat) a + S1x1x1.size a ≤ S1x1x128.size a
  inb_S128x128_S1x128_7_0 : ∀ a, (![7, 0] : Fin 2 → Nat) a + S1x128.size a ≤ S128x128.size a
  inb_S1x1x128_S1x1x1_0_0_8 : ∀ a, (![0, 0, 8] : Fin 3 → Nat) a + S1x1x1.size a ≤ S1x1x128.size a
  inb_S128x128_S1x128_8_0 : ∀ a, (![8, 0] : Fin 2 → Nat) a + S1x128.size a ≤ S128x128.size a
  inb_S1x1x128_S1x1x1_0_0_9 : ∀ a, (![0, 0, 9] : Fin 3 → Nat) a + S1x1x1.size a ≤ S1x1x128.size a
  inb_S128x128_S1x128_9_0 : ∀ a, (![9, 0] : Fin 2 → Nat) a + S1x128.size a ≤ S128x128.size a
  inb_S1x1x128_S1x1x1_0_0_10 : ∀ a, (![0, 0, 10] : Fin 3 → Nat) a + S1x1x1.size a ≤ S1x1x128.size a
  inb_S128x128_S1x128_10_0 : ∀ a, (![10, 0] : Fin 2 → Nat) a + S1x128.size a ≤ S128x128.size a
  inb_S1x1x128_S1x1x1_0_0_11 : ∀ a, (![0, 0, 11] : Fin 3 → Nat) a + S1x1x1.size a ≤ S1x1x128.size a
  inb_S128x128_S1x128_11_0 : ∀ a, (![11, 0] : Fin 2 → Nat) a + S1x128.size a ≤ S128x128.size a
  inb_S1x1x128_S1x1x1_0_0_12 : ∀ a, (![0, 0, 12] : Fin 3 → Nat) a + S1x1x1.size a ≤ S1x1x128.size a
  inb_S128x128_S1x128_12_0 : ∀ a, (![12, 0] : Fin 2 → Nat) a + S1x128.size a ≤ S128x128.size a
  inb_S1x1x128_S1x1x1_0_0_13 : ∀ a, (![0, 0, 13] : Fin 3 → Nat) a + S1x1x1.size a ≤ S1x1x128.size a
  inb_S128x128_S1x128_13_0 : ∀ a, (![13, 0] : Fin 2 → Nat) a + S1x128.size a ≤ S128x128.size a
  inb_S1x1x128_S1x1x1_0_0_14 : ∀ a, (![0, 0, 14] : Fin 3 → Nat) a + S1x1x1.size a ≤ S1x1x128.size a
  inb_S128x128_S1x128_14_0 : ∀ a, (![14, 0] : Fin 2 → Nat) a + S1x128.size a ≤ S128x128.size a
  inb_S1x1x128_S1x1x1_0_0_15 : ∀ a, (![0, 0, 15] : Fin 3 → Nat) a + S1x1x1.size a ≤ S1x1x128.size a
  inb_S128x128_S1x128_15_0 : ∀ a, (![15, 0] : Fin 2 → Nat) a + S1x128.size a ≤ S128x128.size a
  inb_S1x1x128_S1x1x1_0_0_16 : ∀ a, (![0, 0, 16] : Fin 3 → Nat) a + S1x1x1.size a ≤ S1x1x128.size a
  inb_S128x128_S1x128_16_0 : ∀ a, (![16, 0] : Fin 2 → Nat) a + S1x128.size a ≤ S128x128.size a
  inb_S1x1x128_S1x1x1_0_0_17 : ∀ a, (![0, 0, 17] : Fin 3 → Nat) a + S1x1x1.size a ≤ S1x1x128.size a
  inb_S128x128_S1x128_17_0 : ∀ a, (![17, 0] : Fin 2 → Nat) a + S1x128.size a ≤ S128x128.size a
  inb_S1x1x128_S1x1x1_0_0_18 : ∀ a, (![0, 0, 18] : Fin 3 → Nat) a + S1x1x1.size a ≤ S1x1x128.size a
  inb_S128x128_S1x128_18_0 : ∀ a, (![18, 0] : Fin 2 → Nat) a + S1x128.size a ≤ S128x128.size a
  inb_S1x1x128_S1x1x1_0_0_19 : ∀ a, (![0, 0, 19] : Fin 3 → Nat) a + S1x1x1.size a ≤ S1x1x128.size a
  inb_S128x128_S1x128_19_0 : ∀ a, (![19, 0] : Fin 2 → Nat) a + S1x128.size a ≤ S128x128.size a
  inb_S1x1x128_S1x1x1_0_0_20 : ∀ a, (![0, 0, 20] : Fin 3 → Nat) a + S1x1x1.size a ≤ S1x1x128.size a
  inb_S128x128_S1x128_20_0 : ∀ a, (![20, 0] : Fin 2 → Nat) a + S1x128.size a ≤ S128x128.size a
  inb_S1x1x128_S1x1x1_0_0_21 : ∀ a, (![0, 0, 21] : Fin 3 → Nat) a + S1x1x1.size a ≤ S1x1x128.size a
  inb_S128x128_S1x128_21_0 : ∀ a, (![21, 0] : Fin 2 → Nat) a + S1x128.size a ≤ S128x128.size a
  inb_S1x1x128_S1x1x1_0_0_22 : ∀ a, (![0, 0, 22] : Fin 3 → Nat) a + S1x1x1.size a ≤ S1x1x128.size a
  inb_S128x128_S1x128_22_0 : ∀ a, (![22, 0] : Fin 2 → Nat) a + S1x128.size a ≤ S128x128.size a
  inb_S1x1x128_S1x1x1_0_0_23 : ∀ a, (![0, 0, 23] : Fin 3 → Nat) a + S1x1x1.size a ≤ S1x1x128.size a
  inb_S128x128_S1x128_23_0 : ∀ a, (![23, 0] : Fin 2 → Nat) a + S1x128.size a ≤ S128x128.size a
  inb_S1x1x128_S1x1x1_0_0_24 : ∀ a, (![0, 0, 24] : Fin 3 → Nat) a + S1x1x1.size a ≤ S1x1x128.size a
  inb_S128x128_S1x128_24_0 : ∀ a, (![24, 0] : Fin 2 → Nat) a + S1x128.size a ≤ S128x128.size a
  inb_S1x1x128_S1x1x1_0_0_25 : ∀ a, (![0, 0, 25] : Fin 3 → Nat) a + S1x1x1.size a ≤ S1x1x128.size a
  inb_S128x128_S1x128_25_0 : ∀ a, (![25, 0] : Fin 2 → Nat) a + S1x128.size a ≤ S128x128.size a
  inb_S1x1x128_S1x1x1_0_0_26 : ∀ a, (![0, 0, 26] : Fin 3 → Nat) a + S1x1x1.size a ≤ S1x1x128.size a
  inb_S128x128_S1x128_26_0 : ∀ a, (![26, 0] : Fin 2 → Nat) a + S1x128.size a ≤ S128x128.size a
  inb_S1x1x128_S1x1x1_0_0_27 : ∀ a, (![0, 0, 27] : Fin 3 → Nat) a + S1x1x1.size a ≤ S1x1x128.size a
  inb_S128x128_S1x128_27_0 : ∀ a, (![27, 0] : Fin 2 → Nat) a + S1x128.size a ≤ S128x128.size a
  inb_S1x1x128_S1x1x1_0_0_28 : ∀ a, (![0, 0, 28] : Fin 3 → Nat) a + S1x1x1.size a ≤ S1x1x128.size a
  inb_S128x128_S1x128_28_0 : ∀ a, (![28, 0] : Fin 2 → Nat) a + S1x128.size a ≤ S128x128.size a
  inb_S1x1x128_S1x1x1_0_0_29 : ∀ a, (![0, 0, 29] : Fin 3 → Nat) a + S1x1x1.size a ≤ S1x1x128.size a
  inb_S128x128_S1x128_29_0 : ∀ a, (![29, 0] : Fin 2 → Nat) a + S1x128.size a ≤ S128x128.size a
  inb_S1x1x128_S1x1x1_0_0_30 : ∀ a, (![0, 0, 30] : Fin 3 → Nat) a + S1x1x1.size a ≤ S1x1x128.size a
  inb_S128x128_S1x128_30_0 : ∀ a, (![30, 0] : Fin 2 → Nat) a + S1x128.size a ≤ S128x128.size a
  inb_S1x1x128_S1x1x1_0_0_31 : ∀ a, (![0, 0, 31] : Fin 3 → Nat) a + S1x1x1.size a ≤ S1x1x128.size a
  inb_S128x128_S1x128_31_0 : ∀ a, (![31, 0] : Fin 2 → Nat) a + S1x128.size a ≤ S128x128.size a
  inb_S1x1x128_S1x1x1_0_0_32 : ∀ a, (![0, 0, 32] : Fin 3 → Nat) a + S1x1x1.size a ≤ S1x1x128.size a
  inb_S128x128_S1x128_32_0 : ∀ a, (![32, 0] : Fin 2 → Nat) a + S1x128.size a ≤ S128x128.size a
  inb_S1x1x128_S1x1x1_0_0_33 : ∀ a, (![0, 0, 33] : Fin 3 → Nat) a + S1x1x1.size a ≤ S1x1x128.size a
  inb_S128x128_S1x128_33_0 : ∀ a, (![33, 0] : Fin 2 → Nat) a + S1x128.size a ≤ S128x128.size a
  inb_S1x1x128_S1x1x1_0_0_34 : ∀ a, (![0, 0, 34] : Fin 3 → Nat) a + S1x1x1.size a ≤ S1x1x128.size a
  inb_S128x128_S1x128_34_0 : ∀ a, (![34, 0] : Fin 2 → Nat) a + S1x128.size a ≤ S128x128.size a
  inb_S1x1x128_S1x1x1_0_0_35 : ∀ a, (![0, 0, 35] : Fin 3 → Nat) a + S1x1x1.size a ≤ S1x1x128.size a
  inb_S128x128_S1x128_35_0 : ∀ a, (![35, 0] : Fin 2 → Nat) a + S1x128.size a ≤ S128x128.size a
  inb_S1x1x128_S1x1x1_0_0_36 : ∀ a, (![0, 0, 36] : Fin 3 → Nat) a + S1x1x1.size a ≤ S1x1x128.size a
  inb_S128x128_S1x128_36_0 : ∀ a, (![36, 0] : Fin 2 → Nat) a + S1x128.size a ≤ S128x128.size a
  inb_S1x1x128_S1x1x1_0_0_37 : ∀ a, (![0, 0, 37] : Fin 3 → Nat) a + S1x1x1.size a ≤ S1x1x128.size a
  inb_S128x128_S1x128_37_0 : ∀ a, (![37, 0] : Fin 2 → Nat) a + S1x128.size a ≤ S128x128.size a
  inb_S1x1x128_S1x1x1_0_0_38 : ∀ a, (![0, 0, 38] : Fin 3 → Nat) a + S1x1x1.size a ≤ S1x1x128.size a
  inb_S128x128_S1x128_38_0 : ∀ a, (![38, 0] : Fin 2 → Nat) a + S1x128.size a ≤ S128x128.size a
  inb_S1x1x128_S1x1x1_0_0_39 : ∀ a, (![0, 0, 39] : Fin 3 → Nat) a + S1x1x1.size a ≤ S1x1x128.size a
  inb_S128x128_S1x128_39_0 : ∀ a, (![39, 0] : Fin 2 → Nat) a + S1x128.size a ≤ S128x128.size a
  inb_S1x1x128_S1x1x1_0_0_40 : ∀ a, (![0, 0, 40] : Fin 3 → Nat) a + S1x1x1.size a ≤ S1x1x128.size a
  inb_S128x128_S1x128_40_0 : ∀ a, (![40, 0] : Fin 2 → Nat) a + S1x128.size a ≤ S128x128.size a
  inb_S1x1x128_S1x1x1_0_0_41 : ∀ a, (![0, 0, 41] : Fin 3 → Nat) a + S1x1x1.size a ≤ S1x1x128.size a
  inb_S128x128_S1x128_41_0 : ∀ a, (![41, 0] : Fin 2 → Nat) a + S1x128.size a ≤ S128x128.size a
  inb_S1x1x128_S1x1x1_0_0_42 : ∀ a, (![0, 0, 42] : Fin 3 → Nat) a + S1x1x1.size a ≤ S1x1x128.size a
  inb_S128x128_S1x128_42_0 : ∀ a, (![42, 0] : Fin 2 → Nat) a + S1x128.size a ≤ S128x128.size a
  inb_S1x1x128_S1x1x1_0_0_43 : ∀ a, (![0, 0, 43] : Fin 3 → Nat) a + S1x1x1.size a ≤ S1x1x128.size a
  inb_S128x128_S1x128_43_0 : ∀ a, (![43, 0] : Fin 2 → Nat) a + S1x128.size a ≤ S128x128.size a
  inb_S1x1x128_S1x1x1_0_0_44 : ∀ a, (![0, 0, 44] : Fin 3 → Nat) a + S1x1x1.size a ≤ S1x1x128.size a
  inb_S128x128_S1x128_44_0 : ∀ a, (![44, 0] : Fin 2 → Nat) a + S1x128.size a ≤ S128x128.size a
  inb_S1x1x128_S1x1x1_0_0_45 : ∀ a, (![0, 0, 45] : Fin 3 → Nat) a + S1x1x1.size a ≤ S1x1x128.size a
  inb_S128x128_S1x128_45_0 : ∀ a, (![45, 0] : Fin 2 → Nat) a + S1x128.size a ≤ S128x128.size a
  inb_S1x1x128_S1x1x1_0_0_46 : ∀ a, (![0, 0, 46] : Fin 3 → Nat) a + S1x1x1.size a ≤ S1x1x128.size a
  inb_S128x128_S1x128_46_0 : ∀ a, (![46, 0] : Fin 2 → Nat) a + S1x128.size a ≤ S128x128.size a
  inb_S1x1x128_S1x1x1_0_0_47 : ∀ a, (![0, 0, 47] : Fin 3 → Nat) a + S1x1x1.size a ≤ S1x1x128.size a
  inb_S128x128_S1x128_47_0 : ∀ a, (![47, 0] : Fin 2 → Nat) a + S1x128.size a ≤ S128x128.size a
  inb_S1x1x128_S1x1x1_0_0_48 : ∀ a, (![0, 0, 48] : Fin 3 → Nat) a + S1x1x1.size a ≤ S1x1x128.size a
  inb_S128x128_S1x128_48_0 : ∀ a, (![48, 0] : Fin 2 → Nat) a + S1x128.size a ≤ S128x128.size a
  inb_S1x1x128_S1x1x1_0_0_49 : ∀ a, (![0, 0, 49] : Fin 3 → Nat) a + S1x1x1.size a ≤ S1x1x128.size a
  inb_S128x128_S1x128_49_0 : ∀ a, (![49, 0] : Fin 2 → Nat) a + S1x128.size a ≤ S128x128.size a
  inb_S1x1x128_S1x1x1_0_0_50 : ∀ a, (![0, 0, 50] : Fin 3 → Nat) a + S1x1x1.size a ≤ S1x1x128.size a
  inb_S128x128_S1x128_50_0 : ∀ a, (![50, 0] : Fin 2 → Nat) a + S1x128.size a ≤ S128x128.size a
  inb_S1x1x128_S1x1x1_0_0_51 : ∀ a, (![0, 0, 51] : Fin 3 → Nat) a + S1x1x1.size a ≤ S1x1x128.size a
  inb_S128x128_S1x128_51_0 : ∀ a, (![51, 0] : Fin 2 → Nat) a + S1x128.size a ≤ S128x128.size a
  inb_S1x1x128_S1x1x1_0_0_52 : ∀ a, (![0, 0, 52] : Fin 3 → Nat) a + S1x1x1.size a ≤ S1x1x128.size a
  inb_S128x128_S1x128_52_0 : ∀ a, (![52, 0] : Fin 2 → Nat) a + S1x128.size a ≤ S128x128.size a
  inb_S1x1x128_S1x1x1_0_0_53 : ∀ a, (![0, 0, 53] : Fin 3 → Nat) a + S1x1x1.size a ≤ S1x1x128.size a
  inb_S128x128_S1x128_53_0 : ∀ a, (![53, 0] : Fin 2 → Nat) a + S1x128.size a ≤ S128x128.size a
  inb_S1x1x128_S1x1x1_0_0_54 : ∀ a, (![0, 0, 54] : Fin 3 → Nat) a + S1x1x1.size a ≤ S1x1x128.size a
  inb_S128x128_S1x128_54_0 : ∀ a, (![54, 0] : Fin 2 → Nat) a + S1x128.size a ≤ S128x128.size a
  inb_S1x1x128_S1x1x1_0_0_55 : ∀ a, (![0, 0, 55] : Fin 3 → Nat) a + S1x1x1.size a ≤ S1x1x128.size a
  inb_S128x128_S1x128_55_0 : ∀ a, (![55, 0] : Fin 2 → Nat) a + S1x128.size a ≤ S128x128.size a
  inb_S1x1x128_S1x1x1_0_0_56 : ∀ a, (![0, 0, 56] : Fin 3 → Nat) a + S1x1x1.size a ≤ S1x1x128.size a
  inb_S128x128_S1x128_56_0 : ∀ a, (![56, 0] : Fin 2 → Nat) a + S1x128.size a ≤ S128x128.size a
  inb_S1x1x128_S1x1x1_0_0_57 : ∀ a, (![0, 0, 57] : Fin 3 → Nat) a + S1x1x1.size a ≤ S1x1x128.size a
  inb_S128x128_S1x128_57_0 : ∀ a, (![57, 0] : Fin 2 → Nat) a + S1x128.size a ≤ S128x128.size a
  inb_S1x1x128_S1x1x1_0_0_58 : ∀ a, (![0, 0, 58] : Fin 3 → Nat) a + S1x1x1.size a ≤ S1x1x128.size a
  inb_S128x128_S1x128_58_0 : ∀ a, (![58, 0] : Fin 2 → Nat) a + S1x128.size a ≤ S128x128.size a
  inb_S1x1x128_S1x1x1_0_0_59 : ∀ a, (![0, 0, 59] : Fin 3 → Nat) a + S1x1x1.size a ≤ S1x1x128.size a
  inb_S128x128_S1x128_59_0 : ∀ a, (![59, 0] : Fin 2 → Nat) a + S1x128.size a ≤ S128x128.size a
  inb_S1x1x128_S1x1x1_0_0_60 : ∀ a, (![0, 0, 60] : Fin 3 → Nat) a + S1x1x1.size a ≤ S1x1x128.size a
  inb_S128x128_S1x128_60_0 : ∀ a, (![60, 0] : Fin 2 → Nat) a + S1x128.size a ≤ S128x128.size a
  inb_S1x1x128_S1x1x1_0_0_61 : ∀ a, (![0, 0, 61] : Fin 3 → Nat) a + S1x1x1.size a ≤ S1x1x128.size a
  inb_S128x128_S1x128_61_0 : ∀ a, (![61, 0] : Fin 2 → Nat) a + S1x128.size a ≤ S128x128.size a
  inb_S1x1x128_S1x1x1_0_0_62 : ∀ a, (![0, 0, 62] : Fin 3 → Nat) a + S1x1x1.size a ≤ S1x1x128.size a
  inb_S128x128_S1x128_62_0 : ∀ a, (![62, 0] : Fin 2 → Nat) a + S1x128.size a ≤ S128x128.size a
  inb_S1x1x128_S1x1x1_0_0_63 : ∀ a, (![0, 0, 63] : Fin 3 → Nat) a + S1x1x1.size a ≤ S1x1x128.size a
  inb_S128x128_S1x128_63_0 : ∀ a, (![63, 0] : Fin 2 → Nat) a + S1x128.size a ≤ S128x128.size a
  inb_S1x1x128_S1x1x1_0_0_64 : ∀ a, (![0, 0, 64] : Fin 3 → Nat) a + S1x1x1.size a ≤ S1x1x128.size a
  inb_S128x128_S1x128_64_0 : ∀ a, (![64, 0] : Fin 2 → Nat) a + S1x128.size a ≤ S128x128.size a
  inb_S1x1x128_S1x1x1_0_0_65 : ∀ a, (![0, 0, 65] : Fin 3 → Nat) a + S1x1x1.size a ≤ S1x1x128.size a
  inb_S128x128_S1x128_65_0 : ∀ a, (![65, 0] : Fin 2 → Nat) a + S1x128.size a ≤ S128x128.size a
  inb_S1x1x128_S1x1x1_0_0_66 : ∀ a, (![0, 0, 66] : Fin 3 → Nat) a + S1x1x1.size a ≤ S1x1x128.size a
  inb_S128x128_S1x128_66_0 : ∀ a, (![66, 0] : Fin 2 → Nat) a + S1x128.size a ≤ S128x128.size a
  inb_S1x1x128_S1x1x1_0_0_67 : ∀ a, (![0, 0, 67] : Fin 3 → Nat) a + S1x1x1.size a ≤ S1x1x128.size a
  inb_S128x128_S1x128_67_0 : ∀ a, (![67, 0] : Fin 2 → Nat) a + S1x128.size a ≤ S128x128.size a
  inb_S1x1x128_S1x1x1_0_0_68 : ∀ a, (![0, 0, 68] : Fin 3 → Nat) a + S1x1x1.size a ≤ S1x1x128.size a
  inb_S128x128_S1x128_68_0 : ∀ a, (![68, 0] : Fin 2 → Nat) a + S1x128.size a ≤ S128x128.size a
  inb_S1x1x128_S1x1x1_0_0_69 : ∀ a, (![0, 0, 69] : Fin 3 → Nat) a + S1x1x1.size a ≤ S1x1x128.size a
  inb_S128x128_S1x128_69_0 : ∀ a, (![69, 0] : Fin 2 → Nat) a + S1x128.size a ≤ S128x128.size a
  inb_S1x1x128_S1x1x1_0_0_70 : ∀ a, (![0, 0, 70] : Fin 3 → Nat) a + S1x1x1.size a ≤ S1x1x128.size a
  inb_S128x128_S1x128_70_0 : ∀ a, (![70, 0] : Fin 2 → Nat) a + S1x128.size a ≤ S128x128.size a
  inb_S1x1x128_S1x1x1_0_0_71 : ∀ a, (![0, 0, 71] : Fin 3 → Nat) a + S1x1x1.size a ≤ S1x1x128.size a
  inb_S128x128_S1x128_71_0 : ∀ a, (![71, 0] : Fin 2 → Nat) a + S1x128.size a ≤ S128x128.size a
  inb_S1x1x128_S1x1x1_0_0_72 : ∀ a, (![0, 0, 72] : Fin 3 → Nat) a + S1x1x1.size a ≤ S1x1x128.size a
  inb_S128x128_S1x128_72_0 : ∀ a, (![72, 0] : Fin 2 → Nat) a + S1x128.size a ≤ S128x128.size a
  inb_S1x1x128_S1x1x1_0_0_73 : ∀ a, (![0, 0, 73] : Fin 3 → Nat) a + S1x1x1.size a ≤ S1x1x128.size a
  inb_S128x128_S1x128_73_0 : ∀ a, (![73, 0] : Fin 2 → Nat) a + S1x128.size a ≤ S128x128.size a
  inb_S1x1x128_S1x1x1_0_0_74 : ∀ a, (![0, 0, 74] : Fin 3 → Nat) a + S1x1x1.size a ≤ S1x1x128.size a
  inb_S128x128_S1x128_74_0 : ∀ a, (![74, 0] : Fin 2 → Nat) a + S1x128.size a ≤ S128x128.size a
  inb_S1x1x128_S1x1x1_0_0_75 : ∀ a, (![0, 0, 75] : Fin 3 → Nat) a + S1x1x1.size a ≤ S1x1x128.size a
  inb_S128x128_S1x128_75_0 : ∀ a, (![75, 0] : Fin 2 → Nat) a + S1x128.size a ≤ S128x128.size a
  inb_S1x1x128_S1x1x1_0_0_76 : ∀ a, (![0, 0, 76] : Fin 3 → Nat) a + S1x1x1.size a ≤ S1x1x128.size a
  inb_S128x128_S1x128_76_0 : ∀ a, (![76, 0] : Fin 2 → Nat) a + S1x128.size a ≤ S128x128.size a
  inb_S1x1x128_S1x1x1_0_0_77 : ∀ a, (![0, 0, 77] : Fin 3 → Nat) a + S1x1x1.size a ≤ S1x1x128.size a
  inb_S128x128_S1x128_77_0 : ∀ a, (![77, 0] : Fin 2 → Nat) a + S1x128.size a ≤ S128x128.size a
  inb_S1x1x128_S1x1x1_0_0_78 : ∀ a, (![0, 0, 78] : Fin 3 → Nat) a + S1x1x1.size a ≤ S1x1x128.size a
  inb_S128x128_S1x128_78_0 : ∀ a, (![78, 0] : Fin 2 → Nat) a + S1x128.size a ≤ S128x128.size a
  inb_S1x1x128_S1x1x1_0_0_79 : ∀ a, (![0, 0, 79] : Fin 3 → Nat) a + S1x1x1.size a ≤ S1x1x128.size a
  inb_S128x128_S1x128_79_0 : ∀ a, (![79, 0] : Fin 2 → Nat) a + S1x128.size a ≤ S128x128.size a
  inb_S1x1x128_S1x1x1_0_0_80 : ∀ a, (![0, 0, 80] : Fin 3 → Nat) a + S1x1x1.size a ≤ S1x1x128.size a
  inb_S128x128_S1x128_80_0 : ∀ a, (![80, 0] : Fin 2 → Nat) a + S1x128.size a ≤ S128x128.size a
  inb_S1x1x128_S1x1x1_0_0_81 : ∀ a, (![0, 0, 81] : Fin 3 → Nat) a + S1x1x1.size a ≤ S1x1x128.size a
  inb_S128x128_S1x128_81_0 : ∀ a, (![81, 0] : Fin 2 → Nat) a + S1x128.size a ≤ S128x128.size a
  inb_S1x1x128_S1x1x1_0_0_82 : ∀ a, (![0, 0, 82] : Fin 3 → Nat) a + S1x1x1.size a ≤ S1x1x128.size a
  inb_S128x128_S1x128_82_0 : ∀ a, (![82, 0] : Fin 2 → Nat) a + S1x128.size a ≤ S128x128.size a
  inb_S1x1x128_S1x1x1_0_0_83 : ∀ a, (![0, 0, 83] : Fin 3 → Nat) a + S1x1x1.size a ≤ S1x1x128.size a
  inb_S128x128_S1x128_83_0 : ∀ a, (![83, 0] : Fin 2 → Nat) a + S1x128.size a ≤ S128x128.size a
  inb_S1x1x128_S1x1x1_0_0_84 : ∀ a, (![0, 0, 84] : Fin 3 → Nat) a + S1x1x1.size a ≤ S1x1x128.size a
  inb_S128x128_S1x128_84_0 : ∀ a, (![84, 0] : Fin 2 → Nat) a + S1x128.size a ≤ S128x128.size a
  inb_S1x1x128_S1x1x1_0_0_85 : ∀ a, (![0, 0, 85] : Fin 3 → Nat) a + S1x1x1.size a ≤ S1x1x128.size a
  inb_S128x128_S1x128_85_0 : ∀ a, (![85, 0] : Fin 2 → Nat) a + S1x128.size a ≤ S128x128.size a
  inb_S1x1x128_S1x1x1_0_0_86 : ∀ a, (![0, 0, 86] : Fin 3 → Nat) a + S1x1x1.size a ≤ S1x1x128.size a
  inb_S128x128_S1x128_86_0 : ∀ a, (![86, 0] : Fin 2 → Nat) a + S1x128.size a ≤ S128x128.size a
  inb_S1x1x128_S1x1x1_0_0_87 : ∀ a, (![0, 0, 87] : Fin 3 → Nat) a + S1x1x1.size a ≤ S1x1x128.size a
  inb_S128x128_S1x128_87_0 : ∀ a, (![87, 0] : Fin 2 → Nat) a + S1x128.size a ≤ S128x128.size a
  inb_S1x1x128_S1x1x1_0_0_88 : ∀ a, (![0, 0, 88] : Fin 3 → Nat) a + S1x1x1.size a ≤ S1x1x128.size a
  inb_S128x128_S1x128_88_0 : ∀ a, (![88, 0] : Fin 2 → Nat) a + S1x128.size a ≤ S128x128.size a
  inb_S1x1x128_S1x1x1_0_0_89 : ∀ a, (![0, 0, 89] : Fin 3 → Nat) a + S1x1x1.size a ≤ S1x1x128.size a
  inb_S128x128_S1x128_89_0 : ∀ a, (![89, 0] : Fin 2 → Nat) a + S1x128.size a ≤ S128x128.size a
  inb_S1x1x128_S1x1x1_0_0_90 : ∀ a, (![0, 0, 90] : Fin 3 → Nat) a + S1x1x1.size a ≤ S1x1x128.size a
  inb_S128x128_S1x128_90_0 : ∀ a, (![90, 0] : Fin 2 → Nat) a + S1x128.size a ≤ S128x128.size a
  inb_S1x1x128_S1x1x1_0_0_91 : ∀ a, (![0, 0, 91] : Fin 3 → Nat) a + S1x1x1.size a ≤ S1x1x128.size a
  inb_S128x128_S1x128_91_0 : ∀ a, (![91, 0] : Fin 2 → Nat) a + S1x128.size a ≤ S128x128.size a
  inb_S1x1x128_S1x1x1_0_0_92 : ∀ a, (![0, 0, 92] : Fin 3 → Nat) a + S1x1x1.size a ≤ S1x1x128.size a
  inb_S128x128_S1x128_92_0 : ∀ a, (![92, 0] : Fin 2 → Nat) a + S1x128.size a ≤ S128x128.size a
  inb_S1x1x128_S1x1x1_0_0_93 : ∀ a, (![0, 0, 93] : Fin 3 → Nat) a + S1x1x1.size a ≤ S1x1x128.size a
  inb_S128x128_S1x128_93_0 : ∀ a, (![93, 0] : Fin 2 → Nat) a + S1x128.size a ≤ S128x128.size a
  inb_S1x1x128_S1x1x1_0_0_94 : ∀ a, (![0, 0, 94] : Fin 3 → Nat) a + S1x1x1.size a ≤ S1x1x128.size a
  inb_S128x128_S1x128_94_0 : ∀ a, (![94, 0] : Fin 2 → Nat) a + S1x128.size a ≤ S128x128.size a
  inb_S1x1x128_S1x1x1_0_0_95 : ∀ a, (![0, 0, 95] : Fin 3 → Nat) a + S1x1x1.size a ≤ S1x1x128.size a
  inb_S128x128_S1x128_95_0 : ∀ a, (![95, 0] : Fin 2 → Nat) a + S1x128.size a ≤ S128x128.size a
  inb_S1x1x128_S1x1x1_0_0_96 : ∀ a, (![0, 0, 96] : Fin 3 → Nat) a + S1x1x1.size a ≤ S1x1x128.size a
  inb_S128x128_S1x128_96_0 : ∀ a, (![96, 0] : Fin 2 → Nat) a + S1x128.size a ≤ S128x128.size a
  inb_S1x1x128_S1x1x1_0_0_97 : ∀ a, (![0, 0, 97] : Fin 3 → Nat) a + S1x1x1.size a ≤ S1x1x128.size a
  inb_S128x128_S1x128_97_0 : ∀ a, (![97, 0] : Fin 2 → Nat) a + S1x128.size a ≤ S128x128.size a
  inb_S1x1x128_S1x1x1_0_0_98 : ∀ a, (![0, 0, 98] : Fin 3 → Nat) a + S1x1x1.size a ≤ S1x1x128.size a
  inb_S128x128_S1x128_98_0 : ∀ a, (![98, 0] : Fin 2 → Nat) a + S1x128.size a ≤ S128x128.size a
  inb_S1x1x128_S1x1x1_0_0_99 : ∀ a, (![0, 0, 99] : Fin 3 → Nat) a + S1x1x1.size a ≤ S1x1x128.size a
  inb_S128x128_S1x128_99_0 : ∀ a, (![99, 0] : Fin 2 → Nat) a + S1x128.size a ≤ S128x128.size a
  inb_S1x1x128_S1x1x1_0_0_100 : ∀ a, (![0, 0, 100] : Fin 3 → Nat) a + S1x1x1.size a ≤ S1x1x128.size a
  inb_S128x128_S1x128_100_0 : ∀ a, (![100, 0] : Fin 2 → Nat) a + S1x128.size a ≤ S128x128.size a
  inb_S1x1x128_S1x1x1_0_0_101 : ∀ a, (![0, 0, 101] : Fin 3 → Nat) a + S1x1x1.size a ≤ S1x1x128.size a
  inb_S128x128_S1x128_101_0 : ∀ a, (![101, 0] : Fin 2 → Nat) a + S1x128.size a ≤ S128x128.size a
  inb_S1x1x128_S1x1x1_0_0_102 : ∀ a, (![0, 0, 102] : Fin 3 → Nat) a + S1x1x1.size a ≤ S1x1x128.size a
  inb_S128x128_S1x128_102_0 : ∀ a, (![102, 0] : Fin 2 → Nat) a + S1x128.size a ≤ S128x128.size a
  inb_S1x1x128_S1x1x1_0_0_103 : ∀ a, (![0, 0, 103] : Fin 3 → Nat) a + S1x1x1.size a ≤ S1x1x128.size a
  inb_S128x128_S1x128_103_0 : ∀ a, (![103, 0] : Fin 2 → Nat) a + S1x128.size a ≤ S128x128.size a
  inb_S1x1x128_S1x1x1_0_0_104 : ∀ a, (![0, 0, 104] : Fin 3 → Nat) a + S1x1x1.size a ≤ S1x1x128.size a
  inb_S128x128_S1x128_104_0 : ∀ a, (![104, 0] : Fin 2 → Nat) a + S1x128.size a ≤ S128x128.size a
  inb_S1x1x128_S1x1x1_0_0_105 : ∀ a, (![0, 0, 105] : Fin 3 → Nat) a + S1x1x1.size a ≤ S1x1x128.size a
  inb_S128x128_S1x128_105_0 : ∀ a, (![105, 0] : Fin 2 → Nat) a + S1x128.size a ≤ S128x128.size a
  inb_S1x1x128_S1x1x1_0_0_106 : ∀ a, (![0, 0, 106] : Fin 3 → Nat) a + S1x1x1.size a ≤ S1x1x128.size a
  inb_S128x128_S1x128_106_0 : ∀ a, (![106, 0] : Fin 2 → Nat) a + S1x128.size a ≤ S128x128.size a
  inb_S1x1x128_S1x1x1_0_0_107 : ∀ a, (![0, 0, 107] : Fin 3 → Nat) a + S1x1x1.size a ≤ S1x1x128.size a
  inb_S128x128_S1x128_107_0 : ∀ a, (![107, 0] : Fin 2 → Nat) a + S1x128.size a ≤ S128x128.size a
  inb_S1x1x128_S1x1x1_0_0_108 : ∀ a, (![0, 0, 108] : Fin 3 → Nat) a + S1x1x1.size a ≤ S1x1x128.size a
  inb_S128x128_S1x128_108_0 : ∀ a, (![108, 0] : Fin 2 → Nat) a + S1x128.size a ≤ S128x128.size a
  inb_S1x1x128_S1x1x1_0_0_109 : ∀ a, (![0, 0, 109] : Fin 3 → Nat) a + S1x1x1.size a ≤ S1x1x128.size a
  inb_S128x128_S1x128_109_0 : ∀ a, (![109, 0] : Fin 2 → Nat) a + S1x128.size a ≤ S128x128.size a
  inb_S1x1x128_S1x1x1_0_0_110 : ∀ a, (![0, 0, 110] : Fin 3 → Nat) a + S1x1x1.size a ≤ S1x1x128.size a
  inb_S128x128_S1x128_110_0 : ∀ a, (![110, 0] : Fin 2 → Nat) a + S1x128.size a ≤ S128x128.size a
  inb_S1x1x128_S1x1x1_0_0_111 : ∀ a, (![0, 0, 111] : Fin 3 → Nat) a + S1x1x1.size a ≤ S1x1x128.size a
  inb_S128x128_S1x128_111_0 : ∀ a, (![111, 0] : Fin 2 → Nat) a + S1x128.size a ≤ S128x128.size a
  inb_S1x1x128_S1x1x1_0_0_112 : ∀ a, (![0, 0, 112] : Fin 3 → Nat) a + S1x1x1.size a ≤ S1x1x128.size a
  inb_S128x128_S1x128_112_0 : ∀ a, (![112, 0] : Fin 2 → Nat) a + S1x128.size a ≤ S128x128.size a
  inb_S1x1x128_S1x1x1_0_0_113 : ∀ a, (![0, 0, 113] : Fin 3 → Nat) a + S1x1x1.size a ≤ S1x1x128.size a
  inb_S128x128_S1x128_113_0 : ∀ a, (![113, 0] : Fin 2 → Nat) a + S1x128.size a ≤ S128x128.size a
  inb_S1x1x128_S1x1x1_0_0_114 : ∀ a, (![0, 0, 114] : Fin 3 → Nat) a + S1x1x1.size a ≤ S1x1x128.size a
  inb_S128x128_S1x128_114_0 : ∀ a, (![114, 0] : Fin 2 → Nat) a + S1x128.size a ≤ S128x128.size a
  inb_S1x1x128_S1x1x1_0_0_115 : ∀ a, (![0, 0, 115] : Fin 3 → Nat) a + S1x1x1.size a ≤ S1x1x128.size a
  inb_S128x128_S1x128_115_0 : ∀ a, (![115, 0] : Fin 2 → Nat) a + S1x128.size a ≤ S128x128.size a
  inb_S1x1x128_S1x1x1_0_0_116 : ∀ a, (![0, 0, 116] : Fin 3 → Nat) a + S1x1x1.size a ≤ S1x1x128.size a
  inb_S128x128_S1x128_116_0 : ∀ a, (![116, 0] : Fin 2 → Nat) a + S1x128.size a ≤ S128x128.size a
  inb_S1x1x128_S1x1x1_0_0_117 : ∀ a, (![0, 0, 117] : Fin 3 → Nat) a + S1x1x1.size a ≤ S1x1x128.size a
  inb_S128x128_S1x128_117_0 : ∀ a, (![117, 0] : Fin 2 → Nat) a + S1x128.size a ≤ S128x128.size a
  inb_S1x1x128_S1x1x1_0_0_118 : ∀ a, (![0, 0, 118] : Fin 3 → Nat) a + S1x1x1.size a ≤ S1x1x128.size a
  inb_S128x128_S1x128_118_0 : ∀ a, (![118, 0] : Fin 2 → Nat) a + S1x128.size a ≤ S128x128.size a
  inb_S1x1x128_S1x1x1_0_0_119 : ∀ a, (![0, 0, 119] : Fin 3 → Nat) a + S1x1x1.size a ≤ S1x1x128.size a
  inb_S128x128_S1x128_119_0 : ∀ a, (![119, 0] : Fin 2 → Nat) a + S1x128.size a ≤ S128x128.size a
  inb_S1x1x128_S1x1x1_0_0_120 : ∀ a, (![0, 0, 120] : Fin 3 → Nat) a + S1x1x1.size a ≤ S1x1x128.size a
  inb_S128x128_S1x128_120_0 : ∀ a, (![120, 0] : Fin 2 → Nat) a + S1x128.size a ≤ S128x128.size a
  inb_S1x1x128_S1x1x1_0_0_121 : ∀ a, (![0, 0, 121] : Fin 3 → Nat) a + S1x1x1.size a ≤ S1x1x128.size a
  inb_S128x128_S1x128_121_0 : ∀ a, (![121, 0] : Fin 2 → Nat) a + S1x128.size a ≤ S128x128.size a
  inb_S1x1x128_S1x1x1_0_0_122 : ∀ a, (![0, 0, 122] : Fin 3 → Nat) a + S1x1x1.size a ≤ S1x1x128.size a
  inb_S128x128_S1x128_122_0 : ∀ a, (![122, 0] : Fin 2 → Nat) a + S1x128.size a ≤ S128x128.size a
  inb_S1x1x128_S1x1x1_0_0_123 : ∀ a, (![0, 0, 123] : Fin 3 → Nat) a + S1x1x1.size a ≤ S1x1x128.size a
  inb_S128x128_S1x128_123_0 : ∀ a, (![123, 0] : Fin 2 → Nat) a + S1x128.size a ≤ S128x128.size a
  inb_S1x1x128_S1x1x1_0_0_124 : ∀ a, (![0, 0, 124] : Fin 3 → Nat) a + S1x1x1.size a ≤ S1x1x128.size a
  inb_S128x128_S1x128_124_0 : ∀ a, (![124, 0] : Fin 2 → Nat) a + S1x128.size a ≤ S128x128.size a
  inb_S1x1x128_S1x1x1_0_0_125 : ∀ a, (![0, 0, 125] : Fin 3 → Nat) a + S1x1x1.size a ≤ S1x1x128.size a
  inb_S128x128_S1x128_125_0 : ∀ a, (![125, 0] : Fin 2 → Nat) a + S1x128.size a ≤ S128x128.size a
  inb_S1x1x128_S1x1x1_0_0_126 : ∀ a, (![0, 0, 126] : Fin 3 → Nat) a + S1x1x1.size a ≤ S1x1x128.size a
  inb_S128x128_S1x128_126_0 : ∀ a, (![126, 0] : Fin 2 → Nat) a + S1x128.size a ≤ S128x128.size a
  inb_S1x1x128_S1x1x1_0_0_127 : ∀ a, (![0, 0, 127] : Fin 3 → Nat) a + S1x1x1.size a ≤ S1x1x128.size a
  inb_S128x128_S1x128_127_0 : ∀ a, (![127, 0] : Fin 2 → Nat) a + S1x128.size a ≤ S128x128.size a
  shapeCasts_S1250x8x128_S10000x128 : S1250x8x128.ShapeCasts S10000x128
  shapeCasts_S128_S1x128 : S128.ShapeCasts S1x128
  shapeCasts_S1_S1x1 : S1.ShapeCasts S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x128_S1000x1_0_0 : ∀ a, (![0, 0] : Fin 2 → Nat) a + S1000x1.size a ≤ S1000x128.size a
  h_S1000x1 : 0 < S1000x1.numel
  shapeCasts_S1000x1_S1000x1 : S1000x1.ShapeCasts S1000x1
  broadcasts_S1000x1_S1000x128 : S1000x1.Broadcasts S1000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  broadcasts_S1x128_S1000x128 : S1x128.Broadcasts S1000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  shapeCasts_S10000x1_S10000 : S10000x1.ShapeCasts S10000
  bcast_S_S10000 : S_.BroadcastsInDim S10000 (![] : Fin 0 → Fin S10000.rank)
  dot_S1000x128_S128x128_S1000x128_1_0_0_1_n_n_wf : DotDims.WF S1000x128 S128x128 S1000x128 [1] [0] [0] [1] [] []
  dot_S1000x128_S128x1_S1000x1_1_0_0_1_n_n_wf : DotDims.WF S1000x128 S128x1 S1000x1 [1] [0] [0] [1] [] []
  hcc0_scratch2 : 0 + S_.numel ≤ 27
  hcc0_scoped0 : 1 + S_.numel ≤ 27
  hcc0_scoped1 : 2 + S_.numel ≤ 27
  hcc0_scoped2 : 3 + S_.numel ≤ 27
  hcc0_scoped3 : 4 + S_.numel ≤ 27
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S128.size a ≤ S320000.size a
  k0_off2_inb : ∀ (i : grid0.Coords) (k0_t1 : Fin k0_t1_loop.trips), ∀ a, (k0_off2 i k0_t1) a + S128x128.size a ≤ S320000x128.size a
  k0_off3_inb : ∀ i : grid0.Coords, ∀ (k0_h1 : k0_cond1 i = 1#1), ∀ a, (k0_off3 i) a + S128.size a ≤ S320000.size a
  k0_off4_inb : ∀ i : grid0.Coords, ∀ (k0_h1 : k0_cond1 i = 1#1), ∀ a, (k0_off4 i) a + S128x128.size a ≤ S320000x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x128.size a ≤ S2500x1x128.size a
  hwx1_0 : ∀ i : grid1.Coords, EltTy.bits .i32 = 32 ∨ (Rect.block (s := S2500x1x128) S1x1x128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S320000x128.size a
  hwx1_1 : ∀ i : grid1.Coords, EltTy.bits .f32 = 32 ∨ (Rect.block (s := S320000x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1250x8x128.size a ≤ S1250x8x128.size a
  hwx1_2 : ∀ i : grid1.Coords, EltTy.bits .f32 = 32 ∨ (Rect.block (s := S1250x8x128) S1250x8x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1250x8x128.size a ≤ S1250x8x128.size a
  hwx1_3 : ∀ i : grid1.Coords, EltTy.bits .f32 = 32 ∨ (Rect.block (s := S1250x8x128) S1250x8x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S10000x128.size a
  hwx2_1 : ∀ i : grid2.Coords, EltTy.bits .f32 = 32 ∨ (Rect.block (s := S10000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x1.size a ≤ S128x1.size a
  hwx2_9 : ∀ i : grid2.Coords, EltTy.bits .f32 = 32 ∨ (Rect.block (s := S128x1) S128x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1000x1.size a ≤ S10000x1.size a
  hwx2_11 : ∀ i : grid2.Coords, EltTy.bits .f32 = 32 ∨ (Rect.block (s := S10000x1) S1000x1.size (cc2_transform_11 i) (hinb2_11 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win1_0 : Pipeline.Window sig grid1 :=
  Pipeline.Window.ofSpec (Memref.whole main_v5) S1x1x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S1250x8x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S1250x8x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg6) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v11) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg8) S128x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v12) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v13) S1000x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x1 : Shape := ⟨2, ![1, 1]⟩
abbrev S320000x128 : Shape := ⟨2, ![320000, 128]⟩
abbrev S10000 : Shape := ⟨1, ![10000]⟩
abbrev S10000x1 : Shape := ⟨2, ![10000, 1]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S1, .i32⟩
  | .hbm, ⟨23, _⟩ => ⟨S_, .i32⟩
  | .hbm, ⟨24, _⟩ => ⟨S320000x1, .i32⟩
  | .hbm, ⟨25, _⟩ => ⟨S320000x1, .i1⟩
  | .hbm, ⟨26, _⟩ => ⟨S1x1, .i32⟩
  | .hbm, ⟨27, _⟩ => ⟨S320000x1, .i32⟩
  | .hbm, ⟨28, _⟩ => ⟨S320000x1, .i1⟩
  | .hbm, ⟨29, _⟩ => ⟨S320000x1, .i1⟩
  | .hbm, ⟨30, _⟩ => ⟨S_, .i1⟩
  | .hbm, ⟨31, _⟩ => ⟨S320000, .i1⟩
  | .hbm, ⟨32, _⟩ => ⟨S320000x128, .f32⟩
  | .hbm, ⟨33, _⟩ => ⟨S320000x128, .i1⟩
  | .hbm, ⟨34, _⟩ => ⟨S_, .f32⟩
  | .hbm, ⟨35, _⟩ => ⟨S320000x128, .f32⟩
  | .hbm, ⟨36, _⟩ => ⟨S320000x128, .f32⟩
  | .hbm, ⟨37, _⟩ => ⟨S_, .f32⟩
  | .hbm, ⟨38, _⟩ => ⟨S10000x128, .f32⟩
  | .hbm, ⟨39, _⟩ => ⟨S320000x1, .i32⟩
  | .hbm, ⟨40, _⟩ => ⟨S10000x128, .f32⟩
  | .hbm, ⟨41, _⟩ => ⟨S_, .f32⟩
  | .hbm, ⟨42, _⟩ => ⟨S320000, .f32⟩
  | .hbm, ⟨43, _⟩ => ⟨S_, .f32⟩
  | .hbm, ⟨44, _⟩ => ⟨S10000, .f32⟩
  | .hbm, ⟨45, _⟩ => ⟨S320000x1, .i32⟩
  | .hbm, ⟨46, _⟩ => ⟨S10000, .f32⟩
  | .hbm, ⟨47, _⟩ => ⟨S_, .f32⟩
  | .hbm, ⟨48, _⟩ => ⟨S_, .f32⟩
  | .hbm, ⟨49, _⟩ => ⟨S10000, .f32⟩
  | .hbm, ⟨50, _⟩ => ⟨S10000, .f32⟩
  | .hbm, ⟨51, _⟩ => ⟨S10000x1, .f32⟩
  | .hbm, ⟨52, _⟩ => ⟨S10000x128, .f32⟩
  | .hbm, ⟨53, _⟩ => ⟨S10000x128, .f32⟩
  | .hbm, ⟨54, _⟩ => ⟨S10000x128, .f32⟩
  | .hbm, ⟨55, _⟩ => ⟨S1x128, .f32⟩
  | .hbm, ⟨56, _⟩ => ⟨S10000x128, .f32⟩
  | .hbm, ⟨57, _⟩ => ⟨S10000x128, .f32⟩
  | .hbm, ⟨58, _⟩ => ⟨S_, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .i1⟩
  | .hbm, ⟨69, _⟩ => ⟨S_, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S10000x128, .f32⟩
  | .hbm, ⟨74, _⟩ => ⟨S1x128, .f32⟩
  | .hbm, ⟨75, _⟩ => ⟨S10000x128, .f32⟩
  | .hbm, ⟨76, _⟩ => ⟨S10000x128, .f32⟩
  | .hbm, ⟨77, _⟩ => ⟨S_, .f32⟩
  | .hbm, ⟨78, _⟩ => ⟨S10000x128, .f32⟩
  | .hbm, ⟨79, _⟩ => ⟨S10000x128, .i1⟩
  | .hbm, ⟨80, _⟩ => ⟨S_, .f32⟩
  | .hbm, ⟨81, _⟩ => ⟨S10000x128, .f32⟩
  | .hbm, ⟨82, _⟩ => ⟨S10000x128, .f32⟩
  | .hbm, ⟨83, _⟩ => ⟨S10000x128, .f32⟩
  | .hbm, ⟨84, _⟩ => ⟨S10000x1, .f32⟩
  | .hbm, ⟨85, _⟩ => ⟨S1x1, .f32⟩
  | .hbm, ⟨86, _⟩ => ⟨S10000x1, .f32⟩
  | .hbm, ⟨87, _⟩ => ⟨S10000x1, .f32⟩
  | .hbm, ⟨88, _⟩ => ⟨S_, .f32⟩
  | .hbm, ⟨89, _⟩ => ⟨S10000x1, .f32⟩
  | .hbm, ⟨90, _⟩ => ⟨S10000x1, .f32⟩
  | .hbm, ⟨91, _⟩ => ⟨S10000x1, .f32⟩
  | .hbm, ⟨92, _⟩ => ⟨S10000x1, .f32⟩
  | .hbm, ⟨93, _⟩ => ⟨S10000x1, .i1⟩
  | .hbm, ⟨94, _⟩ => ⟨S10000x1, .f32⟩
  | .hbm, ⟨95, _⟩ => ⟨S10000x1, .f32⟩
  | .hbm, ⟨96, _⟩ => ⟨S10000x1, .f32⟩
  | .hbm, ⟨97, _⟩ => ⟨S10000x1, .f32⟩
  | .hbm, ⟨98, _⟩ => ⟨S10000x1, .f32⟩
  | .hbm, ⟨99, _⟩ => ⟨S10000x1, .f32⟩
  | .hbm, ⟨100, _⟩ => ⟨S10000x1, .f32⟩
  | .hbm, ⟨101, _⟩ => ⟨S10000x1, .f32⟩
  | .hbm, ⟨102, _⟩ => ⟨S10000, .f32⟩
  | .hbm, ⟨103, _⟩ => ⟨S_, .f32⟩
  | .hbm, ⟨104, _⟩ => ⟨S10000, .f32⟩
  | .hbm, ⟨105, _⟩ => ⟨S10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst_0 : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_2 : Ref sig .tc := ⟨.hbm, 47, rfl⟩
abbrev main_call1_v0 : Ref sig .tc := ⟨.hbm, 48, rfl⟩
abbrev main_call1_v1 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_call2_cst : Ref sig .tc := ⟨.hbm, 58, rfl⟩
abbrev main_call2_v0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_call3_cst : Ref sig .tc := ⟨.hbm, 66, rfl⟩
abbrev main_call3_v0 : Ref sig .tc := ⟨.hbm, 67, rfl⟩
abbrev main_call3_v1 : Ref sig .tc := ⟨.hbm, 68, rfl⟩
abbrev main_call3_cst_0 : Ref sig .tc := ⟨.hbm, 69, rfl⟩
abbrev main_call3_v2 : Ref sig .tc := ⟨.hbm, 70, rfl⟩
abbrev main_call3_v3 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_call4_cst : Ref sig .tc := ⟨.hbm, 77, rfl⟩
abbrev main_call4_v0 : Ref sig .tc := ⟨.hbm, 78, rfl⟩
abbrev main_call4_v1 : Ref sig .tc := ⟨.hbm, 79, rfl⟩
abbrev main_call4_cst_0 : Ref sig .tc := ⟨.hbm, 80, rfl⟩
abbrev main_call4_v2 : Ref sig .tc := ⟨.hbm, 81, rfl⟩
abbrev main_call4_v3 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_call5_cst : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_v36 : Ref sig .tc := ⟨.hbm, 101, rfl⟩
abbrev main_v37 : Ref sig .tc := ⟨.hbm, 102, rfl⟩
abbrev main_cst_3 : Ref sig .tc := ⟨.hbm, 103, rfl⟩
abbrev main_v38 : Ref sig .tc := ⟨.hbm, 104, rfl⟩
abbrev main_v39 : Ref sig .tc := ⟨.hbm, 105, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  shapeCasts_S10000x1_S10000 : S10000x1.ShapeCasts S10000
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  scatter_S10000_S320000x1_S320000_n_0_0_1_wf : ScatterDims.WF S10000 S320000x1 S320000 [] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.ScCommon.lean ====
/-
  The SparseCore call of this program as ONE operation: what its parts share.

  The call gathers rows: row `e` of the result is row `src[e]` of the table, for the 320000 entries of the index list.
  The rows are dealt to 32 workers (2 SparseCores of 16 vector subcores) in chunks of 128 consecutive rows: chunk `ch`
  (rows `128 ch … 128 ch + 127`, `ch < 2500`) belongs to worker `ch % 32`; worker `w` therefore owns the chunks
  `32 t + w` for `t < 78` and, when `w < 4`, chunk `2496 + w` (`= 32 · 78 + w`).

  Here: the program as the launch theorem sees it (`K`, `D`, the variants, `facts`); the read shares of the table and
  of the list (one per worker, cut off the full share, the remainder kept aside); the element sets of the result (per
  worker, per SparseCore, per chunk); the gathered contents (`gathered`); and what the handshakes carry (`P`).
  The ghost state is any algebra `U` with a copy of the transfers' counters in it.
-/
import proofs.«202620_g33904471835419_cont_8to1_b_799_54_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202620_g33904471835419_cont_8to1_b_799_54_alg».proof.Proof.Gen.KernelIdeal

noncomputable section

namespace Cert.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The kernels' label signature, lifted through the two TensorCore pipelines. -/
abbrev ΛP : Labels := Pipeline.Sig Λ₀ (Fin 2) fun p => (pcfgs (F := F) p).Adm

/-- The one SparseCore call. -/
abbrev K : SparseCore.Cfg τ sig (ΛP (F := F)) 1 := sc (F := F)

theorem nCore_zero : (K (F := F)).nCore 0 = 2 := rfl
theorem nSub_zero : (K (F := F)).nSub 0 = 16 := rfl

/-- The kernels' body table, lifted. -/
abbrev D [FloatOps F] : Defs nD τ sig (Elt F) (ΛP (F := F)) := Pipeline.defs pcfgs defs₀

abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: any algebra holding the transfers' counters -/

variable {U : Type} [URA U] [CountersIn U]

local notation "𝕄" => MT nD τ sig (HIx 1) (Elt F) ℕ U ℕ

/-! ## The three arrays -/

/-- The table (`main_arg0`), the index list (`main_v1`), the result (`main_v2`), as locations of device `d`. -/
abbrev xLoc (d : Dev nD) : Loc nD τ sig := (SparseCore.T d).loc main_arg0
abbrev sLoc (d : Dev nD) : Loc nD τ sig := (SparseCore.T d).loc main_v1
abbrev oLoc (d : Dev nD) : Loc nD τ sig := (SparseCore.T d).loc main_v2

/-- The row a word of the list names (every word is below 10000 under the precondition: then it is the word itself). -/
def rowIx (w : BitVec 32) : Fin 10000 := ⟨w.toNat % 10000, Nat.mod_lt _ (by decide)⟩

theorem rowIx_val {w : BitVec 32} (h : w.toNat < 10000) : (rowIx w).val = w.toNat := Nat.mod_eq_of_lt h

/-- The gathered contents: row `e` of the result is row `src[e]` of the table. -/
def gathered (X : S10000x128.Idx → Elt F .f32) (SRC : S320000.Idx → Elt F .i32) : S320000x128.Idx → Elt F .f32 :=
  fun idx => X (fun | 0 => rowIx (SRC (fun | 0 => idx 0)) | 1 => idx 1)

/-! ## Read shares: one per worker -/

/-- SparseCore `c`'s share of an array every worker reads: the `c`-th read token of the full share; -/
def coreShare (c : ℕ) : PosShare TreeShare := Transfers.shareTokN fullShare c
/-- what stays with the TensorCore; -/
def tcShare : PosShare TreeShare := Transfers.shareDrop fullShare 2
/-- worker `(c, s)`'s: the `s`-th read token of its SparseCore's; -/
def tileShare (c s : ℕ) : PosShare TreeShare := Transfers.shareTokN (coreShare c) s
/-- what stays with the sequencer. -/
def seqShare (c : ℕ) : PosShare TreeShare := Transfers.shareDrop (coreShare c) 16

/-! ## The result's elements, by chunk, worker and SparseCore -/

/-- The chunk an element of the result lies in. -/
def chunkOf (idx : S320000x128.Idx) : ℕ := (idx 0).val / 128

/-- Chunk `ch`'s elements; -/
def chunkSet (ch : ℕ) : Finset S320000x128.Idx := Finset.univ.filter fun idx => chunkOf idx = ch
/-- worker `w`'s: the chunks `≡ w` modulo 32; -/
def wkSet (w : ℕ) : Finset S320000x128.Idx := Finset.univ.filter fun idx => chunkOf idx % 32 = w
/-- SparseCore `c`'s: its sixteen workers'. -/
def coreSet (c : ℕ) : Finset S320000x128.Idx := Finset.univ.filter fun idx => chunkOf idx % 32 / 16 = c

theorem mem_chunkSet {ch : ℕ} {idx : S320000x128.Idx} : idx ∈ chunkSet ch ↔ chunkOf idx = ch := by simp [chunkSet]
theorem mem_wkSet {w : ℕ} {idx : S320000x128.Idx} : idx ∈ wkSet w ↔ chunkOf idx % 32 = w := by simp [wkSet]
theorem mem_coreSet {c : ℕ} {idx : S320000x128.Idx} : idx ∈ coreSet c ↔ chunkOf idx % 32 / 16 = c := by simp [coreSet]

/-! ## What the handshakes carry -/

variable (X : (d : Dev nD) → Buf (Elt F) (xLoc d)) (SRC : (d : Dev nD) → Buf (Elt F) (sLoc d))

/-- The gathered contents of the result on device `d`. -/
abbrev GATH (d : Dev nD) : Buf (Elt F) (oLoc d) := gathered (F := F) (X d) (SRC d)

/-- What the TensorCore keeps of the table and the list across the call. -/
def R (d : Dev nD) : sProp 𝕄 := iprop((xLoc d ↦{tcShare} X d) ∗ sLoc d ↦{tcShare} SRC d)

/-- The call hands SparseCore `c` its read shares of the table and the list and its workers' rows of the result (at
    whatever they hold) and takes them back, the rows gathered; each worker likewise. The kernel's transfers are local
    (issued and waited for by one subcore on its own semaphores): its proof consumes nothing of the launch's. -/
def P : (K (F := F)).Pay (nD := nD) (Val := Elt F) (Name := ℕ) (U := U) where
  st := fun _ d c => iprop((xLoc d ↦{coreShare c.val} X d) ∗ (sLoc d ↦{coreShare c.val} SRC d) ∗ ∃ f, oLoc d ↦[coreSet c.val]{fullShare} f)
  dn := fun _ d c => iprop((xLoc d ↦{coreShare c.val} X d) ∗ (sLoc d ↦{coreShare c.val} SRC d) ∗ oLoc d ↦[coreSet c.val]{fullShare} GATH X SRC d)
  go := fun _ d c s => iprop((xLoc d ↦{tileShare c.val s.val} X d) ∗ (sLoc d ↦{tileShare c.val s.val} SRC d) ∗ ∃ f, oLoc d ↦[wkSet (16 * c.val + s.val)]{fullShare} f)
  td := fun _ d c s => iprop((xLoc d ↦{tileShare c.val s.val} X d) ∗ (sLoc d ↦{tileShare c.val s.val} SRC d) ∗ oLoc d ↦[wkSet (16 * c.val + s.val)]{fullShare} GATH X SRC d)
  x := fun _ _ => iprop(emp)

theorem P_st (q : Fin 1) (d : Dev nD) (c : Fin ((K (F := F)).nCore q)) :
    (P (U := U) X SRC).st q d c = iprop((xLoc d ↦{coreShare c.val} X d) ∗ (sLoc d ↦{coreShare c.val} SRC d) ∗ ∃ f, oLoc d ↦[coreSet c.val]{fullShare} f) := rfl
theorem P_dn (q : Fin 1) (d : Dev nD) (c : Fin ((K (F := F)).nCore q)) :
    (P (U := U) X SRC).dn q d c = iprop((xLoc d ↦{coreShare c.val} X d) ∗ (sLoc d ↦{coreShare c.val} SRC d) ∗ oLoc d ↦[coreSet c.val]{fullShare} GATH X SRC d) := rfl
theorem P_go (q : Fin 1) (d : Dev nD) (c : Fin ((K (F := F)).nCore q)) (s : Fin ((K (F := F)).nSub q)) :
    (P (U := U) X SRC).go q d c s = iprop((xLoc d ↦{tileShare c.val s.val} X d) ∗ (sLoc d ↦{tileShare c.val s.val} SRC d) ∗ ∃ f, oLoc d ↦[wkSet (16 * c.val + s.val)]{fullShare} f) := rfl
theorem P_td (q : Fin 1) (d : Dev nD) (c : Fin ((K (F := F)).nCore q)) (s : Fin ((K (F := F)).nSub q)) :
    (P (U := U) X SRC).td q d c s = iprop((xLoc d ↦{tileShare c.val s.val} X d) ∗ (sLoc d ↦{tileShare c.val s.val} SRC d) ∗ oLoc d ↦[wkSet (16 * c.val + s.val)]{fullShare} GATH X SRC d) := rfl
theorem P_x (q : Fin 1) (thr : Thread nD τ) : (P (U := U) X SRC).x q thr = iprop(emp) := rfl
theorem P_ox : (P (U := U) X SRC).ox = fun _ _ => 0 := rfl

instance P_storable : (P (U := U) X SRC).IsStorable where
  st _ _ _ := by rw [P_st]; infer_instance
  dn _ _ _ := by rw [P_dn]; infer_instance
  go _ _ _ _ := by rw [P_go]; infer_instance
  td _ _ _ _ := by rw [P_td]; infer_instance

end Cert.KI.Sc

end
-- ==== Proof.TopProg.lean ====
/-
  The program of a TensorCore in this kernel, cut into its parts: four stretches of host operations (the two rows of
  the edge list laid out; the two sums reshaped to one row per node and the biases to rows of one; the output column
  flattened and the small constant added), the gather of message rows on the SparseCores, and the two kernel regions
  (the scatter of message rows into per-node sums and counts; the head that normalises, applies the linear layers and
  the softplus). The contents of every buffer are tracked as one valuation per boundary: at the launch, after the
  first stretch, after the gather (the message array holds row src(e) of the node features at edge e), after the
  second stretch. The part up to the first region is proved here: host operations run over the set of all unscoped
  buffers; the gather's three buffers are lent to the SparseCores' call and taken back.
-/
import proofs.«202620_g33904471835419_cont_8to1_b_799_54_alg».proof.Defs
import Idealize.ShloMosaic.Lib.SparseCore.Launch
import Idealize.ShloMosaic.Lib.StableHlo.Run
import Idealize.ShloMosaic.Lib.Pipeline.Regions
import Idealize.ShloMosaic.Lib.Pipeline.RegionsLoop
import Idealize.ShloMosaic.Lib.Pipeline.Frame
import Idealize.ShloMosaic.Lib.Pipeline.FrameSuffix
import Idealize.ShloMosaic.Lib.Tactic
import proofs.«202620_g33904471835419_cont_8to1_b_799_54_alg».proof.Proof.Gen.KernelIdeal
import proofs.«202620_g33904471835419_cont_8to1_b_799_54_alg».proof.Proof.Gen.KernelIdeal.Launch
import proofs.«202620_g33904471835419_cont_8to1_b_799_54_alg».proof.Proof.ScCommon

noncomputable section

namespace Cert.KI.Top

open Cert.KernelIdeal Cert.KernelIdeal.Gen Cert.KI.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

/-- The host operations before the SparseCore call: the source row of the edge list. -/
abbrev ops0 : List (HloOp τ sig (Elt F)) :=
  [StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
   StableHlo.reshape main_v0 main_v1 rfl shapeCasts_S1x320000_S320000]

/-- Between the gather and the scatter: the destination row, as 2500 chunks of 128 words. -/
abbrev ops1 : List (HloOp τ sig (Elt F)) :=
  [StableHlo.unary main_arg1 main_v3 ((extractStridedSlice S1x320000 ![1, 0] · slices_S2x320000_S1x320000_1_0) : (⟨S2x320000, .i32⟩ : BufTy).Contents (Elt F) → (⟨S1x320000, .i32⟩ : BufTy).Contents (Elt F)),
   StableHlo.reshape main_v3 main_v4 rfl shapeCasts_S1x320000_S320000,
   StableHlo.reshape main_v4 main_v5 rfl shapeCasts_S320000_S2500x1x128]

/-- Between the scatter and the head: the two sums as 10000 rows, the biases as rows of one. -/
abbrev ops2 : List (HloOp τ sig (Elt F)) :=
  [StableHlo.reshape main_v6_0 main_v7 rfl shapeCasts_S1250x8x128_S10000x128,
   StableHlo.reshape main_v6_1 main_v8 rfl shapeCasts_S1250x8x128_S10000x128,
   StableHlo.reshape main_arg3 main_v9 rfl shapeCasts_S128_S1x128,
   StableHlo.reshape main_arg5 main_v10 rfl shapeCasts_S128_S1x128,
   StableHlo.reshape main_arg7 main_v11 rfl shapeCasts_S128_S1x128,
   StableHlo.reshape main_arg9 main_v12 rfl shapeCasts_S1_S1x1]

/-- After the head: the column as a vector, plus the small constant. -/
abbrev ops3 : List (HloOp τ sig (Elt F)) :=
  [StableHlo.reshape main_v13 main_v14 rfl shapeCasts_S10000x1_S10000,
   StableHlo.nullary main_cst (constant S_ .f32 0x1E3CE508#32),
   StableHlo.unary main_cst main_v15 (broadcastInDim S10000 ![] bcast_S_S10000 : (⟨S_, .f32⟩ : BufTy).Contents (Elt F) → (⟨S10000, .f32⟩ : BufTy).Contents (Elt F)),
   StableHlo.binary main_v14 main_v15 main_v16 (addf : (⟨S10000, .f32⟩ : BufTy).Contents (Elt F) → (⟨S10000, .f32⟩ : BufTy).Contents (Elt F) → (⟨S10000, .f32⟩ : BufTy).Contents (Elt F))]

/-- The program of a TensorCore: four stretches of host operations around the gather on the SparseCores and the two kernel regions. -/
theorem main_eq (d : Dev nD) : main (F := F) d =
    (StableHlo.seq ops0 >>= fun _ => sc.run d 0 >>= fun _ => StableHlo.seq ops1 >>= fun _ =>
      Prog.lift (.customCall (SparseCore.inner (Pipeline.entry 0)) ()) >>= fun _ => StableHlo.seq ops2 >>= fun _ =>
      Prog.lift (.customCall (SparseCore.inner (Pipeline.entry 1)) ()) >>= fun _ => StableHlo.seq ops3 >>= fun _ => pure ⟨⟩) := by
  rfl

/-! ## The ghost algebra: the handshakes' rounds, the pipelines' rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The buffers' contents along the program -/

variable (m : (ℓ : Loc nD τ sig) → Buf (Elt F) ℓ) (ρ : Dev nD → PrngReg)

/-- At the launch. -/
abbrev W0 (d : Dev nD) : Valuation τ sig (Elt F) := fun b => m (d, b)
/-- After the first host stretch: the source words as one vector. -/
abbrev W1 (d : Dev nD) : Valuation τ sig (Elt F) := after ops0 (W0 m d)
/-- The node features and the source words, as the gather finds them. -/
abbrev X (d : Dev nD) : Buf (Elt F) (xLoc d) := W1 m d (Proc.devRef .tc main_arg0)
abbrev SRC (d : Dev nD) : Buf (Elt F) (sLoc d) := W1 m d (Proc.devRef .tc main_v1)
/-- After the gather: the message rows. -/
def W2 (d : Dev nD) : Valuation τ sig (Elt F) := Function.update (W1 m d) (Proc.devRef .tc main_v2) (gathered (F := F) (X m d) (SRC m d))
/-- After the second host stretch: the destination words in chunks. -/
abbrev W3 (d : Dev nD) : Valuation τ sig (Elt F) := after ops1 (W2 m d)

/-- The three buffers the gather touches. -/
abbrev T3 : Finset (DevRef τ sig) := {Proc.devRef .tc main_arg0, Proc.devRef .tc main_v1, Proc.devRef .tc main_v2}

theorem T3_sub : (T3 : Finset (DevRef τ sig)) ⊆ Pipeline.ucRefs τ sig := by decide

theorem held_T3 (d : Dev nD) (W : Valuation τ sig (Elt F)) :
    (held (T d) T3 W : sProp 𝕄) = iprop((xLoc d ↦{fullShare} W (Proc.devRef .tc main_arg0)) ∗ (sLoc d ↦{fullShare} W (Proc.devRef .tc main_v1)) ∗ oLoc d ↦{fullShare} W (Proc.devRef .tc main_v2)) := by
  unfold held T3
  rw [SparseCore.bigSep_insert' (by decide), SparseCore.bigSep_insert' (by decide), bigSep_singleton]

theorem ops0_tc : (ops0 : List (HloOp τ sig (Elt F))).Forall fun op => op.bufs ⊆ StableHlo.tcRefs τ sig := by
  simp only [List.Forall, StableHlo.unary_bufs, StableHlo.reshape_bufs, StableHlo.nullary_bufs, StableHlo.binary_bufs, Finset.insert_subset_iff, Finset.singleton_subset_iff]
  repeat' apply And.intro
  all_goals exact StableHlo.devRef_mem_tcRefs _
theorem ops0_sub : ∀ op ∈ (ops0 : List (HloOp τ sig (Elt F))), op.bufs ⊆ Pipeline.ucRefs τ sig :=
  fun op h => Pipeline.sub_ucRefs op ((List.forall_iff_forall_mem.mp ops0_tc) op h)

theorem ops0_fresh : ∀ op ∈ (ops0 : List (HloOp τ sig (Elt F))), op.fresh = ∅ := by
  intro _ h; (repeat (cases h with | head => rfl | tail _ h => ?_)); exact nomatch h

theorem ops1_tc : (ops1 : List (HloOp τ sig (Elt F))).Forall fun op => op.bufs ⊆ StableHlo.tcRefs τ sig := by
  simp only [List.Forall, StableHlo.unary_bufs, StableHlo.reshape_bufs, StableHlo.nullary_bufs, StableHlo.binary_bufs, Finset.insert_subset_iff, Finset.singleton_subset_iff]
  repeat' apply And.intro
  all_goals exact StableHlo.devRef_mem_tcRefs _
theorem ops1_sub : ∀ op ∈ (ops1 : List (HloOp τ sig (Elt F))), op.bufs ⊆ Pipeline.ucRefs τ sig :=
  fun op h => Pipeline.sub_ucRefs op ((List.forall_iff_forall_mem.mp ops1_tc) op h)
theorem ops1_fresh : ∀ op ∈ (ops1 : List (HloOp τ sig (Elt F))), op.fresh = ∅ := by
  intro _ h; (repeat (cases h with | head => rfl | tail _ h => ?_)); exact nomatch h
theorem ops2_tc : (ops2 : List (HloOp τ sig (Elt F))).Forall fun op => op.bufs ⊆ StableHlo.tcRefs τ sig := by
  simp only [List.Forall, StableHlo.unary_bufs, StableHlo.reshape_bufs, StableHlo.nullary_bufs, StableHlo.binary_bufs, Finset.insert_subset_iff, Finset.singleton_subset_iff]
  repeat' apply And.intro
  all_goals exact StableHlo.devRef_mem_tcRefs _
theorem ops2_sub : ∀ op ∈ (ops2 : List (HloOp τ sig (Elt F))), op.bufs ⊆ Pipeline.ucRefs τ sig :=
  fun op h => Pipeline.sub_ucRefs op ((List.forall_iff_forall_mem.mp ops2_tc) op h)
theorem ops2_fresh : ∀ op ∈ (ops2 : List (HloOp τ sig (Elt F))), op.fresh = ∅ := by
  intro _ h; (repeat (cases h with | head => rfl | tail _ h => ?_)); exact nomatch h
theorem ops3_tc : (ops3 : List (HloOp τ sig (Elt F))).Forall fun op => op.bufs ⊆ StableHlo.tcRefs τ sig := by
  simp only [List.Forall, StableHlo.unary_bufs, StableHlo.reshape_bufs, StableHlo.nullary_bufs, StableHlo.binary_bufs, Finset.insert_subset_iff, Finset.singleton_subset_iff]
  repeat' apply And.intro
  all_goals exact StableHlo.devRef_mem_tcRefs _
theorem ops3_sub : ∀ op ∈ (ops3 : List (HloOp τ sig (Elt F))), op.bufs ⊆ Pipeline.ucRefs τ sig :=
  fun op h => Pipeline.sub_ucRefs op ((List.forall_iff_forall_mem.mp ops3_tc) op h)
theorem ops3_fresh : ∀ op ∈ (ops3 : List (HloOp τ sig (Elt F))), op.fresh = ∅ := by
  intro _ h; (repeat (cases h with | head => rfl | tail _ h => ?_)); exact nomatch h

/-! ## The contents after the gather, read buffer by buffer -/

theorem W2_x (d : Dev nD) : W2 m d (Proc.devRef .tc main_arg0) = X m d := Function.update_of_ne (by decide) _ _
theorem W2_s (d : Dev nD) : W2 m d (Proc.devRef .tc main_v1) = SRC m d := Function.update_of_ne (by decide) _ _
theorem W2_o (d : Dev nD) : W2 m d (Proc.devRef .tc main_v2) = gathered (F := F) (X m d) (SRC m d) := Function.update_self _ _ _
theorem W2_rest (d : Dev nD) : ∀ b ∈ Pipeline.ucRefs τ sig \ T3, W2 m d b = W1 m d b := fun b hb =>
  Function.update_of_ne (fun e => (Finset.mem_sdiff.mp hb).2 (by rw [e]; decide)) _ _

theorem held_W2 (d : Dev nD) : (held (T d) (Pipeline.ucRefs τ sig) (W2 m d) : sProp 𝕄)
    = iprop(((xLoc d ↦{fullShare} X m d) ∗ (sLoc d ↦{fullShare} SRC m d) ∗ oLoc d ↦{fullShare} GATH (F := F) (X m) (SRC m) d)
        ∗ held (T d) (Pipeline.ucRefs τ sig \ T3) (W1 m d)) := by
  rw [held_sub_split (T d) T3_sub (W2 m d), held_T3, W2_x, W2_s, W2_o, held_congr (T d) (W2_rest m d)]

/-! ## The program up to the first kernel region -/

section Front

/-- From the launch to the first region's entry: the source words laid out, the gather on the SparseCores (its three
    buffers lent to the call and taken back with the message rows written), the destination words laid out. -/
theorem front
    (st_intro : ∀ d : Dev nD, iprop((xLoc d ↦{fullShare} X m d) ∗ (sLoc d ↦{fullShare} SRC m d) ∗ ∃ f, oLoc d ↦{fullShare} f)
    ⊢ (iprop((bigSep Finset.univ fun c : Fin ((K (F := F)).nCore 0) => (P (F := F) (U := UU) (X m) (SRC m)).st 0 d c) ∗ R (F := F) (U := UU) (X m) (SRC m) d) : sProp 𝕄))
    (dn_elim : ∀ d : Dev nD, iprop((bigSep Finset.univ fun c : Fin ((K (F := F)).nCore 0) => (P (F := F) (U := UU) (X m) (SRC m)).dn 0 d c) ∗ R (F := F) (U := UU) (X m) (SRC m) d)
    ⊢ (iprop((xLoc d ↦{fullShare} X m d) ∗ (sLoc d ↦{fullShare} SRC m d) ∗ oLoc d ↦{fullShare} GATH (F := F) (X m) (SRC m) d) : sProp 𝕄))
    (κ : GSem nD τ sig → ℕ) (d : Dev nD) {β : Type}
    (k : PUnit → Prog (TpuEff nD τ sig (Elt F) (SparseCore.Sig (ΛP (F := F)) 1) .tc) β) (Φ : β → sProp 𝕄) :
    iprop((K (F := F)).ctx EH (P (F := F) (U := UU) (X m) (SRC m)) κ ∗ (K (F := F)).tcSt EH d 0 ∗ boundary (T d) ∗ held (T d) (Pipeline.ucRefs τ sig) (W0 m d)
        ∗ ((iprop((K (F := F)).tcSt EH d 1 ∗ boundary (T d) ∗ held (T d) (Pipeline.ucRefs τ sig) (W3 m d)) : sProp 𝕄)
            -∗ wp frame (wpE ((K (F := F)).defs (D (F := F))) 𝒱 (T d) none) Set.univ (k ⟨⟩) Φ))
      ⊢ wp frame (wpE ((K (F := F)).defs (D (F := F))) 𝒱 (T d) none) Set.univ
          (StableHlo.seq ops0 >>= fun _ => sc.run d 0 >>= fun _ => StableHlo.seq ops1 >>= k) Φ := by
  iintro ⟨#Hctx, Hst, Hb, Hheld, Hk⟩
  iapply (wp_seq 𝒱 none Set.univ d (Pipeline.ucRefs τ sig) _ ops0 ops0_sub ops0_fresh (W0 m d)) $$ [Hb Hheld]
  · isplitl [Hb] <;> iassumption
  iintro ⟨Hb, Hheld⟩
  -- the gather's three buffers out of the held set
  ihave Hh := (Entails.of_eq (held_sub_split (T d) T3_sub (W1 m d))) $$ Hheld
  icases Hh with ⟨H3, Hrest⟩
  ihave H3' := (Entails.of_eq (held_T3 (F := F) d (W1 m d))) $$ H3
  icases H3' with ⟨Hx, Hs, Ho⟩
  ihave Hst3 := (st_intro d) $$ [Hx Hs Ho]
  · isplitl [Hx]; · iexact Hx
    isplitl [Hs]; · iexact Hs
    iexists _; iexact Ho
  icases Hst3 with ⟨Hsts, HR⟩
  rw [wp_bind]
  iapply ((K (F := F)).wp_run (D (F := F)) 𝒱 (EH := EH) (P := P (F := F) (U := UU) (X m) (SRC m)) κ d 0) $$ [Hst Hsts Hb Hrest HR Hk]
  isplitr; · iexact Hctx
  isplitl [Hst]; · iexact Hst
  isplitl [Hsts]; · iexact Hsts
  iintro ⟨Hst, Hdn⟩
  ihave H3 := (dn_elim d) $$ [Hdn HR]
  · isplitl [Hdn] <;> iassumption
  icases H3 with ⟨Hx, Hs, Ho⟩
  ihave Hheld := (Entails.of_eq (held_W2 m d).symm) $$ [Hx Hs Ho Hrest]
  · isplitl [Hx Hs Ho]
    · isplitl [Hx]; · iexact Hx
      isplitl [Hs]; · iexact Hs
      iexact Ho
    · iexact Hrest
  iapply (wp_seq 𝒱 none Set.univ d (Pipeline.ucRefs τ sig) _ ops1 ops1_sub ops1_fresh (W2 m d)) $$ [Hb Hheld]
  · isplitl [Hb] <;> iassumption
  iintro ⟨Hb, Hheld⟩
  iapply Hk
  isplitl [Hst]; · iexact Hst
  isplitl [Hb] <;> iassumption

end Front

end Cert.KI.Top

end
-- ==== Proof.HeadData.lean ====
import proofs.«202620_g33904471835419_cont_8to1_b_799_54_alg».proof.Proof.Gen.KernelIdeal.Launch
import proofs.«202620_g33904471835419_cont_8to1_b_799_54_alg».proof.Proof.Gen.KernelIdeal.Skeleton
import proofs.«202620_g33904471835419_cont_8to1_b_799_54_alg».proof.Proof.Gen.KernelIdeal.Points
import Idealize.ShloMosaic.Lib.Pipeline.Value
import Idealize.ShloMosaic.Lib.Tactic

/-!
# The head region: its data

The last pallas_call runs over ten grid points. At point `t` it is handed rows `1000 t … 1000 t + 999` of three
`10000 × 128` arrays (the node features, the summed messages, the in-degrees), the four weight matrices and four
biases whole, and it writes rows `1000 t … 1000 t + 999` of a `10000 × 1` array. The rows it writes are one pure
function, `rowsOut`, of the eleven blocks it reads; nothing is carried from one point to the next.

This file names that function, the blocks, and the proof data of the pipeline; the body's triple and the
final array are in the next file.
-/

set_option maxRecDepth 16384

noncomputable section

namespace Cert.KI.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

/-! ## The rectangles the body reads and writes through -/

/-- A whole `1000 × 128` block. -/
abbrev rRows : Rect S1000x128 := Rect.unit (s := S1000x128) ![0, 0] S1000x128.size inb_S1000x128_S1000x128_0_0
/-- Column 0 of a `1000 × 128` block: the one column of the degree block the body reads. -/
abbrev rCol0 : Rect S1000x128 := Rect.unit (s := S1000x128) ![0, 0] S1000x1.size inb_S1000x128_S1000x1_0_0
/-- A whole `128 × 128` weight matrix. -/
abbrev rW : Rect S128x128 := Rect.unit (s := S128x128) ![0, 0] S128x128.size inb_S128x128_S128x128_0_0
/-- A whole `1 × 128` bias row. -/
abbrev rB : Rect S1x128 := Rect.unit (s := S1x128) ![0, 0] S1x128.size inb_S1x128_S1x128_0_0
/-- The whole `128 × 1` last weight column. -/
abbrev rW3 : Rect S128x1 := Rect.unit (s := S128x1) ![0, 0] S128x1.size inb_S128x1_S128x1_0_0
/-- The whole `1 × 1` last bias. -/
abbrev rB3 : Rect S1x1 := Rect.unit (s := S1x1) ![0, 0] S1x1.size inb_S1x1_S1x1_0_0
/-- The whole `1000 × 1` output block. -/
abbrev rOut : Rect S1000x1 := Rect.unit (s := S1000x1) ![0, 0] S1000x1.size inb_S1000x1_S1000x1_0_0

/-! ## What the body computes -/

/-- The `1000 × 1` block the body stores, as one pure term of the eleven blocks it loads: the features `x`, the
    summed messages `agg`, the degrees `deg` (only column 0 is read), then the layers' weights and biases in order.
    The term is the store's payload over the loads' values, each load the block read through its rectangle. -/
def rowsOut (x agg deg : Vec F S1000x128 .f32) (Wc : Vec F S128x128 .f32) (bc : Vec F S1x128 .f32)
    (W1 : Vec F S128x128 .f32) (b1 : Vec F S1x128 .f32) (W2 : Vec F S128x128 .f32) (b2 : Vec F S1x128 .f32)
    (W3 : Vec F S128x1 .f32) (b3 : Vec F S1x1 .f32) : Vec F S1000x1 .f32 :=
  k2_pay1
    (k2_pay2 (View.ld agg rRows) (View.ld deg rCol0) (View.ld Wc rW) (View.ld bc rB) (View.ld x rRows)
      (View.ld W1 rW) (View.ld b1 rB) (View.ld W2 rW))
    (k2_pay3 (View.ld b2 rB)) (View.ld W3 rW3) (View.ld b3 rB3)

/-! ## The windows' blocks -/

-- the TensorCore's buffer contents when the region is entered: the parameter everything below is stated at
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The block the body stores at point `t`: `rowsOut` of the eleven input blocks there. -/
def outAt (c : Dev nD) (t : Fin cfg2.N) : Vec F S1000x1 .f32 :=
  rowsOut (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t)

/-! ## The pipeline's proof data -/

/-- The region's invariant on core `c`: the core's scoped buffers that are no staging buffer of this pipeline, at
    some contents each, and its generator register at some state. The body uses neither. (The library's class-A
    invariant says the same at one fixed choice of index, name and level types; this one is stated at any.) -/
def ΦH (c : Dev nD) : sProp 𝕄 :=
  iprop(Pipeline.scopedRest (Ix := Ix) (Name := Name) (U := U) (Lvl := Lvl) (Val := Elt F) spec2 c ∗ ∃ r, prngReg c r)

/-- The proof data of the head pipeline on core `c`: the arrays as the region finds them; after the body at point
    `t` each input's buffer still at its block, the output's at `rowsOut` of the input blocks; the invariant is the
    scoped rest and the generator register, untouched; nothing owed; full shares; the pairs the core's waits have
    recorded stay within `B` throughout (the body waits for nothing). -/
def dat2 (c : Dev nD) (B : Set (SemLoc sig × Ix)) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => outAt V c t
  Φ _ := ΦH c
  q _ := fullShare
  owed _ := 0
  recorded _ := B

/-- The proof data's arrays are the region-entry contents. -/
theorem A_eq2 (c : Dev nD) (B : Set (SemLoc sig × Ix)) (w : Fin cfg2.W) :
    (dat2 (Name := Name) (U := U) (Lvl := Lvl) V c B).A w = V c (Pipeline.arrRef spec2 w) := by
  dsimp only [dat2]

/-- Nothing is owed at any point, and every array is held at the full share. -/
theorem owed2 (c : Dev nD) (B : Set (SemLoc sig × Ix)) (t) : (dat2 (Name := Name) (U := U) (Lvl := Lvl) V c B).owed t = 0 := rfl
theorem share2 (c : Dev nD) (B : Set (SemLoc sig × Ix)) (w : Fin cfg2.W) :
    (dat2 (Name := Name) (U := U) (Lvl := Lvl) V c B).share w = fullShare :=
  (dat2 V c B).share_full (fun _ => rfl) w
theorem recorded2 (c : Dev nD) (B : Set (SemLoc sig × Ix)) (t) :
    (dat2 (Name := Name) (U := U) (Lvl := Lvl) (F := F) V c B).recorded t = B := rfl
theorem Φ2 (c : Dev nD) (B : Set (SemLoc sig × Ix)) (t) :
    (dat2 (Name := Name) (U := U) (Lvl := Lvl) V c B).Φ t = ΦH c := rfl

section After
variable (c : Dev nD) (B : Set (SemLoc sig × Ix)) (t : Fin cfg2.N)
local notation "𝔡" => dat2 (Name := Name) (U := U) (Lvl := Lvl) V c B

/-- What the body leaves, window by window. -/
theorem after2_0 : (𝔡).after 0 t = iblk2 V c 0 t := by dsimp only [dat2]
theorem after2_1 : (𝔡).after 1 t = iblk2 V c 1 t := by dsimp only [dat2]
theorem after2_2 : (𝔡).after 2 t = iblk2 V c 2 t := by dsimp only [dat2]
theorem after2_3 : (𝔡).after 3 t = iblk2 V c 3 t := by dsimp only [dat2]
theorem after2_4 : (𝔡).after 4 t = iblk2 V c 4 t := by dsimp only [dat2]
theorem after2_5 : (𝔡).after 5 t = iblk2 V c 5 t := by dsimp only [dat2]
theorem after2_6 : (𝔡).after 6 t = iblk2 V c 6 t := by dsimp only [dat2]
theorem after2_7 : (𝔡).after 7 t = iblk2 V c 7 t := by dsimp only [dat2]
theorem after2_8 : (𝔡).after 8 t = iblk2 V c 8 t := by dsimp only [dat2]
theorem after2_9 : (𝔡).after 9 t = iblk2 V c 9 t := by dsimp only [dat2]
theorem after2_10 : (𝔡).after 10 t = iblk2 V c 10 t := by dsimp only [dat2]
theorem after2_11 : (𝔡).after 11 t = outAt V c t := by dsimp only [dat2]

end After

/-! ## What the body finds in each input window's buffer -/

/-- An input window of any proof data over `V` whose body leaves the block in place holds its block at every point,
    fetched there or not: an unfetched input's block index has not moved. One lemma per input window (the window
    must be a numeral for its configuration to reduce). -/
theorem before2_of_0 {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_of_1 {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_of_2 {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_of_3 {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_of_4 {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_of_5 {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_of_6 {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_of_7 {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_of_8 {c : Dev nD} (dat : Dat τ (Elt F) Ix Name U Lvl cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_of_9 {c : Dev nD} (dat : Dat τ (Elt F) Ix Name U Lvl cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_of_10 {c : Dev nD} (dat : Dat τ (Elt F) Ix Name U Lvl cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- So for the head's own proof data: each input's current staging buffer holds its block at every point. -/
theorem before2_0 (c : Dev nD) (B : Set (SemLoc sig × Ix)) (t : Fin cfg2.N) (d) :
    (dat2 (Name := Name) (U := U) (Lvl := Lvl) V c B).before 0 t d = iblk2 V c 0 t :=
  before2_of_0 V (dat2 V c B) (A_eq2 V c B 0) (after2_0 V c B) t d
theorem before2_1 (c : Dev nD) (B : Set (SemLoc sig × Ix)) (t : Fin cfg2.N) (d) :
    (dat2 (Name := Name) (U := U) (Lvl := Lvl) V c B).before 1 t d = iblk2 V c 1 t :=
  before2_of_1 V (dat2 V c B) (A_eq2 V c B 1) (after2_1 V c B) t d
theorem before2_2 (c : Dev nD) (B : Set (SemLoc sig × Ix)) (t : Fin cfg2.N) (d) :
    (dat2 (Name := Name) (U := U) (Lvl := Lvl) V c B).before 2 t d = iblk2 V c 2 t :=
  before2_of_2 V (dat2 V c B) (A_eq2 V c B 2) (after2_2 V c B) t d
theorem before2_3 (c : Dev nD) (B : Set (SemLoc sig × Ix)) (t : Fin cfg2.N) (d) :
    (dat2 (Name := Name) (U := U) (Lvl := Lvl) V c B).before 3 t d = iblk2 V c 3 t :=
  before2_of_3 V (dat2 V c B) (A_eq2 V c B 3) (after2_3 V c B) t d
theorem before2_4 (c : Dev nD) (B : Set (SemLoc sig × Ix)) (t : Fin cfg2.N) (d) :
    (dat2 (Name := Name) (U := U) (Lvl := Lvl) V c B).before 4 t d = iblk2 V c 4 t :=
  before2_of_4 V (dat2 V c B) (A_eq2 V c B 4) (after2_4 V c B) t d
theorem before2_5 (c : Dev nD) (B : Set (SemLoc sig × Ix)) (t : Fin cfg2.N) (d) :
    (dat2 (Name := Name) (U := U) (Lvl := Lvl) V c B).before 5 t d = iblk2 V c 5 t :=
  before2_of_5 V (dat2 V c B) (A_eq2 V c B 5) (after2_5 V c B) t d
theorem before2_6 (c : Dev nD) (B : Set (SemLoc sig × Ix)) (t : Fin cfg2.N) (d) :
    (dat2 (Name := Name) (U := U) (Lvl := Lvl) V c B).before 6 t d = iblk2 V c 6 t :=
  before2_of_6 V (dat2 V c B) (A_eq2 V c B 6) (after2_6 V c B) t d
theorem before2_7 (c : Dev nD) (B : Set (SemLoc sig × Ix)) (t : Fin cfg2.N) (d) :
    (dat2 (Name := Name) (U := U) (Lvl := Lvl) V c B).before 7 t d = iblk2 V c 7 t :=
  before2_of_7 V (dat2 V c B) (A_eq2 V c B 7) (after2_7 V c B) t d
theorem before2_8 (c : Dev nD) (B : Set (SemLoc sig × Ix)) (t : Fin cfg2.N) (d) :
    (dat2 (Name := Name) (U := U) (Lvl := Lvl) V c B).before 8 t d = iblk2 V c 8 t :=
  before2_of_8 V (dat2 V c B) (A_eq2 V c B 8) (after2_8 V c B) t d
theorem before2_9 (c : Dev nD) (B : Set (SemLoc sig × Ix)) (t : Fin cfg2.N) (d) :
    (dat2 (Name := Name) (U := U) (Lvl := Lvl) V c B).before 9 t d = iblk2 V c 9 t :=
  before2_of_9 V (dat2 V c B) (A_eq2 V c B 9) (after2_9 V c B) t d
theorem before2_10 (c : Dev nD) (B : Set (SemLoc sig × Ix)) (t : Fin cfg2.N) (d) :
    (dat2 (Name := Name) (U := U) (Lvl := Lvl) V c B).before 10 t d = iblk2 V c 10 t :=
  before2_of_10 V (dat2 V c B) (A_eq2 V c B 10) (after2_10 V c B) t d

end Cert.KI.Head

end
-- ==== Proof.HeadBody.lean ====
import proofs.«202620_g33904471835419_cont_8to1_b_799_54_alg».proof.Proof.HeadData

/-!
# The head region: the body's triple, the obligation, the final array

The body loads its eleven input blocks, computes, and stores one `1000 × 1` block; it waits for nothing and
signals nothing. So its triple is: the eleven input buffers in and out at the same contents, the output buffer from
anything to `rowsOut` of the inputs. The obligation at a grid point is that triple at the point's blocks.
-/

set_option maxRecDepth 16384

noncomputable section

namespace Cert.KI.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The zero offsets, however they are spelt. -/
theorem hz2 : (![0, 0] : Fin 2 → Nat) = fun _ => 0 := funext fun a => by fin_cases a <;> rfl

/-! ## The body's triple -/

set_option maxHeartbeats 1000000 in
/-- The body on whole staging memrefs, the inputs' at read contents `x … b3` and the output's at anything, runs to the
    continuation holding the inputs' as they were and the output's at `rowsOut` of the inputs'. -/
theorem sound_kernel2 (𝒱₀ : Variants) (c : Dev nD) (E : Set Name) (i : grid2.Coords)
    (arg1 : Memref sig .tc .vmem S1000x128 .f32) (harg1 : arg1.IsWhole)
    (arg2 : Memref sig .tc .vmem S1000x128 .f32) (harg2 : arg2.IsWhole)
    (arg3 : Memref sig .tc .vmem S1000x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S128x128 .f32) (harg8 : arg8.IsWhole)
    (arg9 : Memref sig .tc .vmem S1x128 .f32) (harg9 : arg9.IsWhole)
    (arg10 : Memref sig .tc .vmem S128x1 .f32) (harg10 : arg10.IsWhole)
    (arg11 : Memref sig .tc .vmem S1x1 .f32) (harg11 : arg11.IsWhole)
    (arg12 : Memref sig .tc .vmem S1000x1 .f32) (harg12 : arg12.IsWhole)
    (x agg deg : Vec F S1000x128 .f32) (Wc : Vec F S128x128 .f32) (bc : Vec F S1x128 .f32)
    (W1 : Vec F S128x128 .f32) (b1 : Vec F S1x128 .f32) (W2 : Vec F S128x128 .f32) (b2 : Vec F S1x128 .f32)
    (W3 : Vec F S128x1 .f32) (b3 : Vec F S1x1 .f32) (K : PUnit → sProp 𝕄) :
    iprop(owns (c : Thread nD τ) arg1 fullShare x
        ∗ owns (c : Thread nD τ) arg2 fullShare agg
        ∗ owns (c : Thread nD τ) arg3 fullShare deg
        ∗ owns (c : Thread nD τ) arg4 fullShare Wc
        ∗ owns (c : Thread nD τ) arg5 fullShare bc
        ∗ owns (c : Thread nD τ) arg6 fullShare W1
        ∗ owns (c : Thread nD τ) arg7 fullShare b1
        ∗ owns (c : Thread nD τ) arg8 fullShare W2
        ∗ owns (c : Thread nD τ) arg9 fullShare b2
        ∗ owns (c : Thread nD τ) arg10 fullShare W3
        ∗ owns (c : Thread nD τ) arg11 fullShare b3
        ∗ (∃ d, owns (c : Thread nD τ) arg12 fullShare d)
        ∗ (iprop(owns (c : Thread nD τ) arg1 fullShare x
        ∗ owns (c : Thread nD τ) arg2 fullShare agg
        ∗ owns (c : Thread nD τ) arg3 fullShare deg
        ∗ owns (c : Thread nD τ) arg4 fullShare Wc
        ∗ owns (c : Thread nD τ) arg5 fullShare bc
        ∗ owns (c : Thread nD τ) arg6 fullShare W1
        ∗ owns (c : Thread nD τ) arg7 fullShare b1
        ∗ owns (c : Thread nD τ) arg8 fullShare W2
        ∗ owns (c : Thread nD τ) arg9 fullShare b2
        ∗ owns (c : Thread nD τ) arg10 fullShare W3
        ∗ owns (c : Thread nD τ) arg11 fullShare b3
        ∗ owns (c : Thread nD τ) arg12 fullShare (rowsOut x agg deg Wc bc W1 b1 W2 b2 W3 b3)) -∗ K ⟨⟩))
      ⊢ wp frame (wpE (defs₀ (F := F)) 𝒱₀ c none) E (cc2__tc_body i arg1 harg1 arg2 harg2 arg3 harg3 arg4 harg4 arg5 harg5 arg6 harg6 arg7 harg7 arg8 harg8 arg9 harg9 arg10 harg10 arg11 harg11 arg12 harg12) K := by
  sl_unfold [cc2__tc_body]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf1; subst hf2; subst hf3; subst hf4; subst hf5; subst hf6; subst hf7; subst hf8; subst hf9; subst hf10; subst hf11
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  refine (View.read_writes_eq_canon _ _ _ (fun y => ⟨_, List.mem_singleton_self _, View.mem_set_unit_zero hz2 inb_S1000x1_S1000x1_0_0 y⟩)).trans ?_
  rw [View.canon_unit_zero hz2]
  rfl

/-! ## The body obligation, at a generic point -/

-- the TensorCore's buffer contents when the region is entered
variable (V : (c : Dev nD) → (b : Ref sig .tc) → Buf (Elt F) ((c : Thread nD τ).loc b))

/-- What the body is called with at point `t`: the invariant, what the core owes, and every window's current
    staging buffer at what it then holds, the windows one by one; -/
def bodyPre2 (c : Dev nD) (B : Set (SemLoc sig × Ix)) (ι : Ix) (t : Fin cfg2.N) : sProp 𝕄 :=
  iprop((dat2 (Name := Name) (U := U) (Lvl := Lvl) V c B).Φ t.castSucc ∗ (dat2 (Name := Name) (U := U) (Lvl := Lvl) V c B).owesAt ι t.castSucc
    ∗ (∃ d, owns (c : Thread nD τ) (st2_0 t) fullShare ((dat2 (Name := Name) (U := U) (Lvl := Lvl) V c B).before 0 t d))
    ∗ (∃ d, owns (c : Thread nD τ) (st2_1 t) fullShare ((dat2 (Name := Name) (U := U) (Lvl := Lvl) V c B).before 1 t d))
    ∗ (∃ d, owns (c : Thread nD τ) (st2_2 t) fullShare ((dat2 (Name := Name) (U := U) (Lvl := Lvl) V c B).before 2 t d))
    ∗ (∃ d, owns (c : Thread nD τ) (st2_3 t) fullShare ((dat2 (Name := Name) (U := U) (Lvl := Lvl) V c B).before 3 t d))
    ∗ (∃ d, owns (c : Thread nD τ) (st2_4 t) fullShare ((dat2 (Name := Name) (U := U) (Lvl := Lvl) V c B).before 4 t d))
    ∗ (∃ d, owns (c : Thread nD τ) (st2_5 t) fullShare ((dat2 (Name := Name) (U := U) (Lvl := Lvl) V c B).before 5 t d))
    ∗ (∃ d, owns (c : Thread nD τ) (st2_6 t) fullShare ((dat2 (Name := Name) (U := U) (Lvl := Lvl) V c B).before 6 t d))
    ∗ (∃ d, owns (c : Thread nD τ) (st2_7 t) fullShare ((dat2 (Name := Name) (U := U) (Lvl := Lvl) V c B).before 7 t d))
    ∗ (∃ d, owns (c : Thread nD τ) (st2_8 t) fullShare ((dat2 (Name := Name) (U := U) (Lvl := Lvl) V c B).before 8 t d))
    ∗ (∃ d, owns (c : Thread nD τ) (st2_9 t) fullShare ((dat2 (Name := Name) (U := U) (Lvl := Lvl) V c B).before 9 t d))
    ∗ (∃ d, owns (c : Thread nD τ) (st2_10 t) fullShare ((dat2 (Name := Name) (U := U) (Lvl := Lvl) V c B).before 10 t d))
    ∗ (∃ d, owns (c : Thread nD τ) (st2_11 t) fullShare ((dat2 (Name := Name) (U := U) (Lvl := Lvl) V c B).before 11 t d)))

/-- and what it returns. -/
def bodyPost2 (c : Dev nD) (B : Set (SemLoc sig × Ix)) (ι : Ix) (t : Fin cfg2.N) : sProp 𝕄 :=
  iprop((dat2 (Name := Name) (U := U) (Lvl := Lvl) V c B).Φ t.succ ∗ (dat2 (Name := Name) (U := U) (Lvl := Lvl) V c B).owesAt ι t.succ
    ∗ owns (c : Thread nD τ) (st2_0 t) fullShare ((dat2 (Name := Name) (U := U) (Lvl := Lvl) V c B).after 0 t)
    ∗ owns (c : Thread nD τ) (st2_1 t) fullShare ((dat2 (Name := Name) (U := U) (Lvl := Lvl) V c B).after 1 t)
    ∗ owns (c : Thread nD τ) (st2_2 t) fullShare ((dat2 (Name := Name) (U := U) (Lvl := Lvl) V c B).after 2 t)
    ∗ owns (c : Thread nD τ) (st2_3 t) fullShare ((dat2 (Name := Name) (U := U) (Lvl := Lvl) V c B).after 3 t)
    ∗ owns (c : Thread nD τ) (st2_4 t) fullShare ((dat2 (Name := Name) (U := U) (Lvl := Lvl) V c B).after 4 t)
    ∗ owns (c : Thread nD τ) (st2_5 t) fullShare ((dat2 (Name := Name) (U := U) (Lvl := Lvl) V c B).after 5 t)
    ∗ owns (c : Thread nD τ) (st2_6 t) fullShare ((dat2 (Name := Name) (U := U) (Lvl := Lvl) V c B).after 6 t)
    ∗ owns (c : Thread nD τ) (st2_7 t) fullShare ((dat2 (Name := Name) (U := U) (Lvl := Lvl) V c B).after 7 t)
    ∗ owns (c : Thread nD τ) (st2_8 t) fullShare ((dat2 (Name := Name) (U := U) (Lvl := Lvl) V c B).after 8 t)
    ∗ owns (c : Thread nD τ) (st2_9 t) fullShare ((dat2 (Name := Name) (U := U) (Lvl := Lvl) V c B).after 9 t)
    ∗ owns (c : Thread nD τ) (st2_10 t) fullShare ((dat2 (Name := Name) (U := U) (Lvl := Lvl) V c B).after 10 t)
    ∗ owns (c : Thread nD τ) (st2_11 t) fullShare ((dat2 (Name := Name) (U := U) (Lvl := Lvl) V c B).after 11 t))

set_option maxHeartbeats 1000000 in
/-- The body at any point: each input's memref holds its block, so the triple applies at the point's blocks; the
    invariant and what the core owes pass through unread. -/
theorem sound_body2 (𝒱₀ : Variants) (ι : Ix) (c : Dev nD) (B : Set (SemLoc sig × Ix)) (t : Fin cfg2.N) :
    bodyPre2 (Name := Name) (U := U) (Lvl := Lvl) V c B ι t
      ⊢ wp frame (wpE (defs₀ (F := F)) 𝒱₀ c none) Set.univ (bodyAt2 t) (fun _ => bodyPost2 (Name := Name) (U := U) (Lvl := Lvl) V c B ι t) := by
  unfold bodyPre2 bodyPost2 bodyAt2
  simp only [before2_0, before2_1, before2_2, before2_3, before2_4, before2_5, before2_6, before2_7, before2_8, before2_9, before2_10]
  rw [show (dat2 (Name := Name) (U := U) (Lvl := Lvl) V c B).Φ t.succ = (dat2 (Name := Name) (U := U) (Lvl := Lvl) V c B).Φ t.castSucc from rfl,
    show (dat2 (Name := Name) (U := U) (Lvl := Lvl) V c B).owesAt ι t.succ = (dat2 (Name := Name) (U := U) (Lvl := Lvl) V c B).owesAt ι t.castSucc from rfl,
    after2_0, after2_1, after2_2, after2_3, after2_4, after2_5, after2_6, after2_7, after2_8, after2_9, after2_10, after2_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 𝒱₀ c Set.univ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point, for any bound `B` on the recorded pairs. -/
theorem body2 (𝒱₀ : Variants) (ι : Ix) (c : Dev nD) (B : Set (SemLoc sig × Ix)) :
    BodyObligation (dat2 (F := F) (Name := Name) (U := U) (Lvl := Lvl) V c B) (defs₀ (F := F)) 𝒱₀ ι Set.univ := fun t => by
  rw [bigSep_W2, bigSep_W2]
  exact sound_body2 V 𝒱₀ ι c B t

/-- The same in the form a region record takes. -/
theorem body2_loose (𝒱₀ : Variants) (ι : Ix) (c : Dev nD) (B : Set (SemLoc sig × Ix)) :
    Pipeline.BodyObligationLoose (dat2 (F := F) (Name := Name) (U := U) (Lvl := Lvl) V c B) (defs₀ (F := F)) 𝒱₀ ι Set.univ :=
  (body2 V 𝒱₀ ι c B).loose

end Cert.KI.Head

end
-- ==== Proof.TopRegions.lean ====
/-
  The two kernel regions as segments of the TensorCore's program, and the program whole. Each region is entered from
  every unscoped buffer at the contents the stretch before it left; its arrays are lent to the pipeline and come back
  at what the pipeline leaves (an input as entered, an output at the write-backs of its blocks); nothing is owed across
  a region, and the pairs the core has recorded stay at or below the level its handshake state allows. The scatter
  region's proof data enter through an interface: its body obligation holds where the destination words name nodes.
-/
import proofs.«202620_g33904471835419_cont_8to1_b_799_54_alg».proof.Proof.TopProg
import proofs.«202620_g33904471835419_cont_8to1_b_799_54_alg».proof.Proof.HeadBody

noncomputable section

namespace Cert.KI.Top

open Cert.KernelIdeal Cert.KernelIdeal.Gen Cert.KI.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The two kernel regions -/

open Cert.KI.Head (dat2 ΦH A_eq2 owed2 share2 recorded2 Φ2 body2_loose)

/-- A core's buffers read at the TensorCore's references. -/
abbrev TV : Type := (c : Dev nD) → (b : Ref sig .tc) → Buf (Elt F) ((c : Thread nD τ).loc b)

/-- The pairs a TensorCore may have recorded once the gather's call is over: those at or below level 8. Every pair a
    region's loop adds is at the index of no call, level 0. -/
def Bd (d : Dev nD) : Set (SemLoc sig × HIx 1) := {p | (K (F := F)).lev ((T d : Thread nD τ), p.1) p.2 ≤ 8}

/-- No pipeline prefetches a table. -/
abbrev adm : (p : Fin 2) → (pcfgs (F := F) p).Adm := fun p => (cfgs p).toPCfg_adm

/-- What the scatter region's proof supplies: its proof data over the region-entry contents, and the body's obligation
    where the destination words name nodes. -/
structure Scat where
  dat : TV (F := F) → (c : Dev nD) → Set (SemLoc sig × HIx 1) → Pipeline.Dat τ (Elt F) (HIx 1) ℕ UU ℕ cfg1 c
  A_eq : ∀ V c B w, (dat V c B).A w = V c (Pipeline.arrRef spec1 w)
  owed : ∀ V c B t, (dat V c B).owed t = 0
  share : ∀ V c B w, (dat V c B).share w = fullShare
  recorded : ∀ V c B t, (dat V c B).recorded t = B
  inv : ∀ V c B t, (dat V c B).Φ t = (iprop(Pipeline.scopedRest (Ix := HIx 1) (Name := ℕ) (U := UU) (Lvl := ℕ) (Val := Elt F) spec1 c ∗ ∃ r, prngReg c r) : sProp 𝕄)
  ok : TV (F := F) → Dev nD → Prop
  body : ∀ V c B, ok V c → Pipeline.BodyObligationLoose (dat V c B) (defs₀ (F := F)) 𝒱₀ (none : HIx 1) Set.univ

variable (Sc : Scat (F := F))

/-- The first region's entry contents at the TensorCore's references. -/
abbrev V3 : TV (F := F) := fun c b => W3 m c (Proc.devRef .tc b)
/-- After the scatter: the two sums where the region leaves them. -/
def W4 (c : Dev nD) : Valuation τ sig (Elt F) :=
  Pipeline.withArrays spec1 c (W3 m c) fun w => (Sc.dat (V3 m) c (Bd (F := F) c)).arrAt w cfg1.N
/-- After the third host stretch. -/
abbrev W5 (c : Dev nD) : Valuation τ sig (Elt F) := after ops2 (W4 m Sc c)
abbrev V5 : TV (F := F) := fun c b => W5 m Sc c (Proc.devRef .tc b)
/-- After the head: the output column where the region leaves it. -/
def W6 (c : Dev nD) : Valuation τ sig (Elt F) :=
  Pipeline.withArrays spec2 c (W5 m Sc c) fun w => (dat2 (Ix := HIx 1) (Name := ℕ) (U := UU) (Lvl := ℕ) (V5 m Sc) c (Bd (F := F) c)).arrAt w cfg2.N
/-- At the return. -/
abbrev W7 (c : Dev nD) : Valuation τ sig (Elt F) := after ops3 (W6 m Sc c)

/-- The two pipelines' proof data, each at its region's entry contents. -/
def pdats : (p : Fin 2) → (c : Dev nD) → Pipeline.Dat τ (Elt F) (HIx 1) ℕ UU ℕ (Pipeline.pin (pcfgs (F := F)) adm p) c
  | ⟨0, _⟩ => fun c => Sc.dat (V3 m) c (Bd (F := F) c)
  | ⟨1, _⟩ => fun c => dat2 (V5 m Sc) c (Bd (F := F) c)

/-- What rides beside the buffers between the segments: the generator register at some state, and the core's debts —
    none — with its recorded pairs bounded. -/
abbrev Rr (c : Dev nD) : sProp 𝕄 :=
  iprop((∃ r, prngReg c r) ∗ Pipeline.owesWithin c (0 : CellTallies nD τ sig (HIx 1)) (Bd (F := F) c))

/-- A pipeline's loop records its waits at the index of no call: level 0. -/
theorem waitPairs_sub (p : Fin 2) (c : Dev nD) :
    (Pipeline.pin (pcfgs (F := F)) adm p).waitPairs (none : HIx 1) ⊆ Bd (F := F) c := by
  rintro q ⟨w, s, rfl⟩
  show (K (F := F)).lev _ none ≤ 8
  rw [SparseCore.Cfg.lev_none]; omega

theorem bound_sub (p : Fin 2) (c : Dev nD) (t) (hrec : (pdats m Sc p c).recorded t = Bd (F := F) c) :
    (pdats m Sc p c).bound (none : HIx 1) t ⊆ Bd (F := F) c := by
  unfold Pipeline.Dat.bound; rw [hrec]
  exact Set.union_subset (subset_refl _) (waitPairs_sub p c)

theorem sub_bound (p : Fin 2) (c : Dev nD) (t) (hrec : (pdats m Sc p c).recorded t = Bd (F := F) c) :
    Bd (F := F) c ⊆ (pdats m Sc p c).bound (none : HIx 1) t := by
  unfold Pipeline.Dat.bound; rw [hrec]; exact Set.subset_union_left

/-! ### The contents at the regions' exits -/

theorem W4_arr (c : Dev nD) (w : Fin cfg1.W) :
    W4 m Sc c (Proc.devRef .tc (Pipeline.arrRef spec1 w)) = (Sc.dat (V3 m) c (Bd (F := F) c)).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m Sc c (Proc.devRef .tc b) = W3 m c (Proc.devRef .tc b) := by
  unfold W4; exact Pipeline.withArrays_of_ne spec1 c _ _ b hb
abbrev V4 : TV (F := F) := fun c b => W4 m Sc c (Proc.devRef .tc b)
theorem W6_arr (c : Dev nD) (w : Fin cfg2.W) :
    W6 m Sc c (Proc.devRef .tc (Pipeline.arrRef spec2 w)) = (dat2 (Ix := HIx 1) (Name := ℕ) (U := UU) (Lvl := ℕ) (V5 m Sc) c (Bd (F := F) c)).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m Sc c (Proc.devRef .tc b) = W5 m Sc c (Proc.devRef .tc b) := by
  unfold W6; exact Pipeline.withArrays_of_ne spec2 c _ _ b hb
abbrev V6 : TV (F := F) := fun c b => W6 m Sc c (Proc.devRef .tc b)

/-! ### What both pipelines' proof data share -/

theorem pd_owed : ∀ (p : Fin 2) (c : Dev nD) t, (pdats m Sc p c).owed t = 0
  | ⟨0, _⟩, _, t => Sc.owed _ _ _ t
  | ⟨1, _⟩, _, t => owed2 _ _ _ t
theorem pd_rec : ∀ (p : Fin 2) (c : Dev nD) t, (pdats m Sc p c).recorded t = Bd (F := F) c
  | ⟨0, _⟩, _, t => Sc.recorded _ _ _ t
  | ⟨1, _⟩, _, t => recorded2 _ _ _ t
theorem pd_share : ∀ (p : Fin 2) (c : Dev nD) w, (pdats m Sc p c).share w = fullShare
  | ⟨0, _⟩, _, w => Sc.share _ _ _ w
  | ⟨1, _⟩, _, w => share2 _ _ _ w
theorem pd_A1 (c : Dev nD) (w : Fin cfg1.W) : (pdats m Sc 0 c).A w = V3 m c (Pipeline.arrRef spec1 w) := Sc.A_eq _ _ _ w
theorem pd_A2 (c : Dev nD) (w : Fin cfg2.W) : (pdats m Sc 1 c).A w = V5 m Sc c (Pipeline.arrRef spec2 w) := A_eq2 _ _ _ w

theorem owes_in (p : Fin 2) (c : Dev nD) :
    (Pipeline.owesWithin c (0 : CellTallies nD τ sig (HIx 1)) (Bd (F := F) c) : sProp 𝕄) ⊢ (pdats m Sc p c).owesAt (none : HIx 1) 0 := by
  show _ ⊢ Pipeline.owesWithin c ((pdats m Sc p c).owed 0) ((pdats m Sc p c).bound (none : HIx 1) 0)
  rw [pd_owed]; exact Pipeline.owesWithin_mono c 0 (sub_bound m Sc p c 0 (pd_rec m Sc p c 0))
theorem owes_out (p : Fin 2) (c : Dev nD) :
    ((pdats m Sc p c).owesAt (none : HIx 1) (Fin.last _) : sProp 𝕄) ⊢ Pipeline.owesWithin c (0 : CellTallies nD τ sig (HIx 1)) (Bd (F := F) c) := by
  show Pipeline.owesWithin c ((pdats m Sc p c).owed (Fin.last _)) ((pdats m Sc p c).bound (none : HIx 1) (Fin.last _)) ⊢ _
  rw [pd_owed]; exact Pipeline.owesWithin_mono c 0 (bound_sub m Sc p c _ (pd_rec m Sc p c _))

/-! ### The regions as segments -/

set_option backward.isDefEq.respectTransparency.types false in
/-- Pipeline 0 as a segment of the program: entered from every unscoped buffer at the contents the stretch before it
    left, its arrays lent to the pipeline and taken back at what it leaves; the generator register into the invariant
    and out; nothing owed, the recorded pairs still bounded; no semaphore of the kernel's own. -/
def reg1 (hok : ∀ c, Sc.ok (V3 m) c) : Pipeline.RegionSeg (pcfgs (F := F)) adm (pdats m Sc) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := Sc.body (V3 m) c (Bd (F := F) c) (hok c)
  hwaits := Pipeline.hwaits_of_owed_zero _ _ _ _ _ _ 0 fun c t => pd_owed m Sc 0 c t
  pre c := iprop(held (c : Thread nD τ) (Pipeline.ucRefs τ sig) (W3 m c) ∗ Rr (F := F) c)
  post c := iprop(held (c : Thread nD τ) (Pipeline.ucRefs τ sig) (W4 m Sc c) ∗ Rr (F := F) c)
  X c := iprop(∃ r, prngReg c r)
  Y c := iprop(∃ r, prngReg c r)
  Z c := Pipeline.unscopedRest (Ix := HIx 1) (Name := ℕ) (U := UU) (Lvl := ℕ) spec1 c (V3 m c)
  hentry c := by
    rw [Pipeline.ownSems0_none]
    have hsplit := Pipeline.arrays_of_unscopedBufs (p := 0) (pcfgs (F := F)) adm (pdats m Sc) launch1.win launch1.arr_whole c
      (pd_share m Sc 0 c) (V3 m c) (pd_A1 m Sc c)
    rw [Pipeline.unscopedBufs_held] at hsplit
    iintro ⟨⟨Hheld, Hp, HO⟩, -, -⟩
    ihave H := hsplit $$ Hheld
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in m Sc 0 c); iexact HO
    isplitl [Hp]; · iexact Hp
    iexact Hrest
  hin c := by
    rw [show (pdats m Sc 0 c).Φ 0 = _ from Sc.inv _ _ _ 0]
    iintro ⟨Hp, -, Hr⟩
    isplitl [Hr]; · iexact Hr
    iexact Hp
  hout c := by
    rw [Pipeline.ownSems0_none, show (pdats m Sc 0 c).Φ (Fin.last _) = _ from Sc.inv _ _ _ _]
    iintro ⟨Hr, Hp⟩
    isplitl [Hp]; · iexact Hp
    isplitr; · iempintro
    iexact Hr
  hexit c := by
    have hjoin := Pipeline.unscopedBufs_of_arrays (p := 0) (pcfgs (F := F)) adm launch1.win launch1.arr_whole c (pdats m Sc) (pd_share m Sc 0 c)
      (V3 m c) (V4 m Sc c) ((pdats m Sc 0 c).arrAt · cfg1.N) (fun w => (W4_arr m Sc c w).symm)
      (fun b hb => W4_of_ne m Sc c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m Sc 0 c); iexact HO

set_option backward.isDefEq.respectTransparency.types false in
/-- Pipeline 1 as a segment of the program: entered from every unscoped buffer at the contents the stretch before it
    left, its arrays lent to the pipeline and taken back at what it leaves; the generator register into the invariant
    and out; nothing owed, the recorded pairs still bounded; no semaphore of the kernel's own. -/
def reg2 : Pipeline.RegionSeg (pcfgs (F := F)) adm (pdats m Sc) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body2_loose (V5 m Sc) 𝒱₀ (none : HIx 1) c (Bd (F := F) c)
  hwaits := Pipeline.hwaits_of_owed_zero _ _ _ _ _ _ 1 fun c t => pd_owed m Sc 1 c t
  pre c := iprop(held (c : Thread nD τ) (Pipeline.ucRefs τ sig) (W5 m Sc c) ∗ Rr (F := F) c)
  post c := iprop(held (c : Thread nD τ) (Pipeline.ucRefs τ sig) (W6 m Sc c) ∗ Rr (F := F) c)
  X c := iprop(∃ r, prngReg c r)
  Y c := iprop(∃ r, prngReg c r)
  Z c := Pipeline.unscopedRest (Ix := HIx 1) (Name := ℕ) (U := UU) (Lvl := ℕ) spec2 c (V5 m Sc c)
  hentry c := by
    rw [Pipeline.ownSems0_none]
    have hsplit := Pipeline.arrays_of_unscopedBufs (p := 1) (pcfgs (F := F)) adm (pdats m Sc) launch2.win launch2.arr_whole c
      (pd_share m Sc 1 c) (V5 m Sc c) (pd_A2 m Sc c)
    rw [Pipeline.unscopedBufs_held] at hsplit
    iintro ⟨⟨Hheld, Hp, HO⟩, -, -⟩
    ihave H := hsplit $$ Hheld
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in m Sc 1 c); iexact HO
    isplitl [Hp]; · iexact Hp
    iexact Hrest
  hin c := by
    rw [show (pdats m Sc 1 c).Φ 0 = _ from Φ2 _ _ _ 0]; unfold ΦH
    iintro ⟨Hp, -, Hr⟩
    isplitl [Hr]; · iexact Hr
    iexact Hp
  hout c := by
    rw [Pipeline.ownSems0_none, show (pdats m Sc 1 c).Φ (Fin.last _) = _ from Φ2 _ _ _ _]; unfold ΦH
    iintro ⟨Hr, Hp⟩
    isplitl [Hp]; · iexact Hp
    isplitr; · iempintro
    iexact Hr
  hexit c := by
    have hjoin := Pipeline.unscopedBufs_of_arrays (p := 1) (pcfgs (F := F)) adm launch2.win launch2.arr_whole c (pdats m Sc) (pd_share m Sc 1 c)
      (V5 m Sc c) (V6 m Sc c) ((pdats m Sc 1 c).arrAt · cfg2.N) (fun w => (W6_arr m Sc c w).symm)
      (fun b hb => W6_of_ne m Sc c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m Sc 1 c); iexact HO

/-! ## A region entered from the program of the launch -/

/-- The call of a region's entry, where the launch runs it, is the call one level down, lifted. -/
theorem lift_call (p : Fin 2) :
    (Prog.lift (.customCall (SparseCore.inner (Pipeline.entry p)) ()) : Prog (TpuEff nD τ sig (Elt F) (SparseCore.Sig (ΛP (F := F)) 1) .tc) PUnit)
      = SparseCore.liftProg (Prog.op (TpuEff.customCall (Pipeline.entry p) ()) fun _ => Prog.ret PUnit.unit) := rfl

set_option backward.isDefEq.respectTransparency.types false in
/-- A kernel region of the TensorCore's program, entered where the launch runs it beside the SparseCores' threads: the
    region's own rule, one level down, lifted. -/
theorem region_step {p : Fin 2}
    (R : Pipeline.RegionSeg (pcfgs (F := F)) adm (pdats m Sc) (none : HIx 1) defs₀ 𝒱₀ (K (F := F)).L (K (F := F)).lev p)
    (d : Dev nD) (A B : sProp 𝕄) (hpre : R.pre d = A) (hpost : R.post d = B) (Φ : PUnit → sProp 𝕄) :
    iprop(boundary (T d) ∗ A ∗ levAts (K (F := F)).L (K (F := F)).lev
        ∗ Pipeline.cellsGhost (Pipeline.pin (pcfgs (F := F)) adm) EP p d ∗ Pipeline.toksInit (Pipeline.pin (pcfgs (F := F)) adm) EP p d
        ∗ (iprop(boundary (T d) ∗ B) -∗ Φ ⟨⟩))
      ⊢ wp frame (wpE ((K (F := F)).defs (D (F := F))) 𝒱 (T d) none) Set.univ
          (Prog.lift (.customCall (SparseCore.inner (Pipeline.entry p)) ())) Φ := by
  subst hpre; subst hpost
  rw [lift_call]
  refine BI.Entails.trans (Q := wp frame (wpE (D (F := F)) 𝒱 (T d) none) Set.univ
      (Prog.op (TpuEff.customCall (Pipeline.entry p) ()) fun _ => Prog.ret PUnit.unit) Φ) ?_
    ((K (F := F)).wp_liftProg (D (F := F)) 𝒱 (T d) Set.univ none
      (Prog.op (TpuEff.customCall (Pipeline.entry p) ()) fun _ => Prog.ret PUnit.unit) Φ)
  show iprop(boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d
        ∗ (iprop(boundary (T d) ∗ R.post d) -∗ Φ ⟨⟩))
      ⊢ wp frame (wpE (D (F := F)) 𝒱 (T d) none) Set.univ
          (Prog.op (TpuEff.customCall (Pipeline.entry p) ()) fun _ => Prog.ret PUnit.unit) Φ
  iintro ⟨Hb, Hpre, Hlev, Hg, Ht, Hk⟩
  iapply (Pipeline.RegionSeg.wp (pcfgs (F := F)) adm (pdats m Sc) (none : HIx 1) cellOf_inj EP defs₀ 𝒱₀ _ _ R d none
    (fun u hu => by cases hu) (fun _ => .ret ⟨⟩) Φ) $$ [Hb Hpre Hlev Hg Ht Hk]
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

/-- After the one call the TensorCore owes the SparseCores nothing more: its debts and recorded pairs, taken out of its
    handshake state and put back. -/
theorem tcSt_split (d : Dev nD) :
    ((K (F := F)).tcSt (EH (F := F)) d 1 : sProp 𝕄)
      ⊢ iprop(Pipeline.owesWithin d (0 : CellTallies nD τ sig (HIx 1)) (Bd (F := F) d)
          ∗ (Pipeline.owesWithin d (0 : CellTallies nD τ sig (HIx 1)) (Bd (F := F) d) -∗ (K (F := F)).tcSt (EH (F := F)) d 1)) := by
  unfold SparseCore.Cfg.tcSt
  rw [SparseCore.Cfg.Otc_end (K (F := F)) d (le_refl 1)]
  iintro ⟨⟨%W, %hW, HO⟩, Hrest⟩
  isplitl [HO]
  · iexists W; isplitr
    · ipureintro; exact fun p hp => by have h := hW p hp; rw [Nat.mul_one] at h; exact h
    · iexact HO
  iintro ⟨%W', %hW', HO'⟩
  isplitl [HO']
  · iexists W'; isplitr
    · ipureintro; exact fun p hp => by rw [Nat.mul_one]; exact hW' hp
    · iexact HO'
  iexact Hrest

/-! ## The TensorCore's program, whole -/

/-- The two pipelines' ghost state on a core, as the launch deals it. -/
abbrev Gd (d : Dev nD) : sProp 𝕄 := bigSep Finset.univ fun p : Fin 2 =>
  iprop(Pipeline.cellsGhost (Pipeline.pin (pcfgs (F := F)) adm) (EP (F := F)) p d ∗ Pipeline.toksInit (Pipeline.pin (pcfgs (F := F)) adm) (EP (F := F)) p d)

theorem Gd_eq (d : Dev nD) : (Gd (F := F) d : sProp 𝕄)
    = iprop((Pipeline.cellsGhost (Pipeline.pin (pcfgs (F := F)) adm) (EP (F := F)) 0 d ∗ Pipeline.toksInit (Pipeline.pin (pcfgs (F := F)) adm) (EP (F := F)) 0 d)
        ∗ Pipeline.cellsGhost (Pipeline.pin (pcfgs (F := F)) adm) (EP (F := F)) 1 d ∗ Pipeline.toksInit (Pipeline.pin (pcfgs (F := F)) adm) (EP (F := F)) 1 d) := by
  unfold Gd
  rw [show (Finset.univ : Finset (Fin 2)) = {0, 1} by decide, SparseCore.bigSep_insert' (by decide), bigSep_singleton]

/-- What the program leaves the claim: every unscoped buffer at the contents of the return. -/
abbrev FIN (d : Dev nD) : sProp 𝕄 := held (T d) (Pipeline.ucRefs τ sig) (W7 m Sc d)

/-- The launch memory's unscoped buffers, as the held set at the launch contents. -/
theorem launch_held (d : Dev nD) :
    (unscopedBufs d (fun b => m ((SparseCore.T d).loc b)) : sProp 𝕄) = held (SparseCore.T d) (Pipeline.ucRefs τ sig) (W0 m d) :=
  Pipeline.unscopedBufs_held d (W0 m d)

set_option backward.isDefEq.respectTransparency.types false in
/-- The program of device `d`'s TensorCore: the gather lent to the SparseCores, the scatter and the head as kernel
    regions, host stretches between; every unscoped buffer tracked throughout. -/
theorem hmain
    (st_intro : ∀ d : Dev nD, iprop((xLoc d ↦{fullShare} X m d) ∗ (sLoc d ↦{fullShare} SRC m d) ∗ ∃ f, oLoc d ↦{fullShare} f)
    ⊢ (iprop((bigSep Finset.univ fun c : Fin ((K (F := F)).nCore 0) => (P (F := F) (U := UU) (X m) (SRC m)).st 0 d c) ∗ R (F := F) (U := UU) (X m) (SRC m) d) : sProp 𝕄))
    (dn_elim : ∀ d : Dev nD, iprop((bigSep Finset.univ fun c : Fin ((K (F := F)).nCore 0) => (P (F := F) (U := UU) (X m) (SRC m)).dn 0 d c) ∗ R (F := F) (U := UU) (X m) (SRC m) d)
    ⊢ (iprop((xLoc d ↦{fullShare} X m d) ∗ (sLoc d ↦{fullShare} SRC m d) ∗ oLoc d ↦{fullShare} GATH (F := F) (X m) (SRC m) d) : sProp 𝕄))
    (hok : ∀ c, Sc.ok (V3 m) c) (κ : GSem nD τ sig → ℕ) (d : Dev nD) :
    iprop((K (F := F)).ctx EH (P (F := F) (U := UU) (X m) (SRC m)) κ ∗ (K (F := F)).tcSt EH d 0 ∗ (K (F := F)).tcRes m ρ d ∗ Gd (F := F) d)
      ⊢ wp frame (wpE ((K (F := F)).defs (D (F := F))) 𝒱 (T d) none) Set.univ (main (F := F) d)
          fun _ => iprop((K (F := F)).tcSt EH d 1 ∗ FIN m Sc d) := by
  unfold SparseCore.Cfg.tcRes
  rw [main_eq, launch_held]
  iintro ⟨#Hctx, Hst, ⟨Hb, Hheld, -, Hprng⟩, HG⟩
  iapply (front m st_intro dn_elim κ d _ _) $$ [Hst Hb Hheld HG Hprng]
  isplitr; · iexact Hctx
  isplitl [Hst]; · iexact Hst
  isplitl [Hb]; · iexact Hb
  isplitl [Hheld]; · iexact Hheld
  iintro ⟨Hst, Hb, Hheld⟩
  ihave Hsp := (tcSt_split d) $$ Hst
  icases Hsp with ⟨HO, Hback⟩
  ihave HG' := (Entails.of_eq (Gd_eq (F := F) d)) $$ HG
  icases HG' with ⟨⟨Hg0, Ht0⟩, Hg1, Ht1⟩
  rw [wp_bind]
  ihave Hlev := (SparseCore.Cfg.ctx_levAts κ) $$ Hctx
  iapply (region_step m Sc (reg1 m Sc hok) d
    iprop(held (d : Thread nD τ) (Pipeline.ucRefs τ sig) (W3 m d) ∗ Rr (F := F) d)
    iprop(held (d : Thread nD τ) (Pipeline.ucRefs τ sig) (W4 m Sc d) ∗ Rr (F := F) d) rfl rfl _) $$ [Hb Hheld Hprng HO Hlev Hg0 Ht0 Hback Hg1 Ht1]
  isplitl [Hb]; · iexact Hb
  isplitl [Hheld Hprng HO]
  · isplitl [Hheld]; · iexact Hheld
    isplitl [Hprng]; · iexists _; iexact Hprng
    iexact HO
  isplitl [Hlev]; · iexact Hlev
  isplitl [Hg0]; · iexact Hg0
  isplitl [Ht0]; · iexact Ht0
  iintro ⟨Hb, Hheld, Hp, HO⟩
  iapply (wp_seq 𝒱 none Set.univ d (Pipeline.ucRefs τ sig) _ ops2 ops2_sub ops2_fresh (W4 m Sc d)) $$ [Hb Hheld]
  · isplitl [Hb] <;> iassumption
  iintro ⟨Hb, Hheld⟩
  rw [wp_bind]
  ihave Hlev := (SparseCore.Cfg.ctx_levAts κ) $$ Hctx
  iapply (region_step m Sc (reg2 m Sc) d
    iprop(held (d : Thread nD τ) (Pipeline.ucRefs τ sig) (W5 m Sc d) ∗ Rr (F := F) d)
    iprop(held (d : Thread nD τ) (Pipeline.ucRefs τ sig) (W6 m Sc d) ∗ Rr (F := F) d) rfl rfl _) $$ [Hb Hheld Hp HO Hlev Hg1 Ht1 Hback]
  isplitl [Hb]; · iexact Hb
  isplitl [Hheld Hp HO]
  · isplitl [Hheld]; · iexact Hheld
    isplitl [Hp] <;> iassumption
  isplitl [Hlev]; · iexact Hlev
  isplitl [Hg1]; · iexact Hg1
  isplitl [Ht1]; · iexact Ht1
  iintro ⟨Hb, Hheld, Hp, HO⟩
  iapply (wp_seq 𝒱 none Set.univ d (Pipeline.ucRefs τ sig) _ ops3 ops3_sub ops3_fresh (W6 m Sc d)) $$ [Hb Hheld]
  · isplitl [Hb] <;> iassumption
  iintro ⟨Hb, Hheld⟩
  rw [wp_pure]
  imodintro
  isplitl [HO Hback]; · iapply Hback; iexact HO
  iexact Hheld

end Cert.KI.Top

end
-- ==== Proof.ScTile.lean ====
/-
  The SparseCore call's body obligation, with its value.

  A worker (vector subcore `s` of SparseCore `c`, number `w = 16 c + s`) runs 78 trips; trip `t` handles chunk `32 t + w`:
  it fetches the chunk's 128 words of the index list into its list scratch, gathers the 128 rows of the table those
  words name into its row scratch, and writes the row scratch out to the chunk's 128 rows of the result — each transfer
  waited for before the next is issued, on a semaphore of its own. The workers numbered below 4 then do the same for
  chunk `2496 + w`.

  The proof: one trip by the symbolic executor from the loop's invariant (the worker's read shares of the table and of the
  list, its scratch buffers, its semaphores at zero, and per chunk the chunk's rows — at the gathered contents once
  its trip has run); the value of a chunk (`chunk_value`) is an index equation: what the write-out leaves at row `r` of
  the chunk is what the gather put at row `r` of the row scratch, the table's row named by word `r` of the list scratch,
  which the fetch made word `128 ch + r` of the list. The words name rows because the precondition bounds them.
-/
import proofs.«202620_g33904471835419_cont_8to1_b_799_54_alg».proof.Proof.ScCommon
import proofs.«202620_g33904471835419_cont_8to1_b_799_54_alg».proof.Proof.Gen.KernelIdeal.Skeleton

noncomputable section

namespace Cert.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

variable (X : (d : Dev nD) → Buf (Elt F) (xLoc d)) (SRC : (d : Dev nD) → Buf (Elt F) (sLoc d))

local notation "xV" => (Memref.whole Cert.KernelIdeal.main_arg0_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v2_scv : Memref Cert.KernelIdeal.sig Kind.scVector Space.hbm Cert.KernelIdeal.S320000x128 EltTy.f32)
local notation "sI" => (Memref.whole Cert.KernelIdeal.cc0_scratch0 : Memref Cert.KernelIdeal.sig Kind.scVector Space.vmem Cert.KernelIdeal.S128 EltTy.i32)
local notation "sR" => (Memref.whole Cert.KernelIdeal.cc0_scratch1 : Memref Cert.KernelIdeal.sig Kind.scVector Space.vmem Cert.KernelIdeal.S128x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The worker's number. -/
abbrev wk (L : grid0.Coords) : ℕ := 16 * (L 0).val + (L 1).val

/-- Trip `t`'s chunk of the list and of the result, as the body slices them. -/
abbrev iChunk (L : grid0.Coords) (t : Fin k0_t1_loop.trips) : Memref sig .scVector .hbm S128 .i32 :=
  (iV).slice (Rect.unit (s := S320000) (k0_off1 L t) S128.size (k0_off1_inb L t)) (fun _ => rfl)
abbrev oChunk (L : grid0.Coords) (t : Fin k0_t1_loop.trips) : Memref sig .scVector .hbm S128x128 .f32 :=
  (oV).slice (Rect.unit (s := S320000x128) (k0_off2 L t) S128x128.size (k0_off2_inb L t)) (fun _ => rfl)

omit [CountersIn U] [FloatOps F] in
/-- The words of a chunk of the list, landed in the list scratch, name rows of the table. -/
theorem list_inb (hSRC : ∀ e, (SRC d e).toNat < 10000) (off : Fin 1 → Nat) (inb : ∀ a, off a + S128.size a ≤ S320000.size a)
    (fI : Buf (Elt F) ((sI).view.loc (V d (cV L) (jV L)))) (pay : S128.Idx → Elt F .i32)
    (hpay : pay = ((iV).slice (Rect.unit (s := S320000) off S128.size inb) (fun _ => rfl)).view.read (Elt F) (SRC d)) :
    ∀ x, ((sI).view.read (Elt F) (View.write (Elt F) (sI).view fI pay Finset.univ) x).toNat < S10000x128.size gathers_S10000x128_S128x128.axis := by
  subst hpay; intro x
  rw [View.write_whole_univ]
  simp only [Memref.view_whole, View.read_whole]
  rw [show ∀ j, ((iV).slice (Rect.unit (s := S320000) off S128.size inb) (fun _ => rfl)).view.read (Elt F) (SRC d) j
      = SRC d (((iV).slice (Rect.unit (s := S320000) off S128.size inb) (fun _ => rfl)).view.emb j) from fun j => (View.read_apply _ _).trans (cast_eq _ _)]
  exact hSRC _

omit [URA U] [CountersIn U] [FloatOps F] in
theorem chunk_value (hSRC : ∀ e, (SRC d e).toNat < 10000)
    (off1 : Fin 1 → Nat) (inb1 : ∀ a, off1 a + S128.size a ≤ S320000.size a)
    (off2 : Fin 2 → Nat) (inb2 : ∀ a, off2 a + S128x128.size a ≤ S320000x128.size a)
    (h0 : off2 0 = off1 0) (h1 : off2 1 = 0)
    (fI : Buf (Elt F) ((sI).view.loc (V d (cV L) (jV L)))) (fR : Buf (Elt F) ((sR).view.loc (V d (cV L) (jV L)))) (fO : Buf (Elt F) (oLoc d))
    (pI : S128.Idx → Elt F .i32)
    (hpI : pI = ((iV).slice (Rect.unit (s := S320000) off1 S128.size inb1) (fun _ => rfl)).view.read (Elt F) (SRC d))
    (hn : S128.numel = S128x128.size gathers_S10000x128_S128x128.axis')
    (hin : ∀ x, ((sI).view.read (Elt F) (View.write (Elt F) (sI).view fI pI Finset.univ) x).toNat < S10000x128.size gathers_S10000x128_S128x128.axis)
    (g : S128x128.Idx → Elt F .f32)
    (hg : g = SparseCore.gatherPayload gathers_S10000x128_S128x128
      (((xV).slice (Rect.unit (s := S10000x128) ![0, 0] S10000x128.size inb_S10000x128_S10000x128_0_0) (fun _ => rfl)).view.read (Elt F) (X d))
      (SparseCore.rows ((sI).view.read (Elt F) (View.write (Elt F) (sI).view fI pI Finset.univ)) hn hin))
    (w : S128x128.Idx → Elt F .f32)
    (hw : w = (sR).view.read (Elt F) ((sR).view.writes (Elt F) fR [⟨Rect.whole _, g⟩])) :
    ∀ i ∈ ((oV).slice (Rect.unit (s := S320000x128) off2 S128x128.size inb2) (fun _ => rfl)).view.set,
      ((oV).slice (Rect.unit (s := S320000x128) off2 S128x128.size inb2) (fun _ => rfl)).view.writes (Elt F) fO [⟨Rect.whole S128x128, w⟩] i
        = gathered (F := F) (X d) (SRC d) i := by
  intro i hi
  obtain ⟨y, -, rfl⟩ := Finset.mem_map.mp hi
  have e2 : w y = g y := by
    subst hw
    have := View.read_writes_cons_emb (sR).view fR (Rect.whole _) g [] y
    rwa [Rect.emb_whole_apply] at this
  rw [View.writes_singleton]
  have e1 : ((oV).slice (Rect.unit (s := S320000x128) off2 S128x128.size inb2) (fun _ => rfl)).view.emb y
      = (((oV).slice (Rect.unit (s := S320000x128) off2 S128x128.size inb2) (fun _ => rfl)).view.slice (Rect.whole S128x128)).emb y := by
    simp only [View.emb_slice, Function.Embedding.trans_apply]
    rw [show (Rect.whole S128x128).emb y = y from Rect.emb_whole_apply S128x128 y]
  rw [e1, View.write_emb_of_mem _ _ (Finset.mem_univ _), e2, hg]
  unfold SparseCore.gatherPayload
  rw [View.read_apply, ← e1]
  simp only [cast_eq]
  unfold gathered
  refine congrArg (X d) (funext fun a => Fin.ext ?_)
  match a with
  | 0 =>
    simp only [Memref.view, View.emb_slice, View.emb_whole, Function.Embedding.trans_apply, Function.Embedding.refl_apply, Rect.emb_apply,
      Rect.off_unit, Rect.stride_unit, Shape.Gathers.idx, SparseCore.rows, View.read_write_univ]
    show ![0, 0] 0 + 1 * (BitVec.toNat (pI (cc0_scratch0.ty.shape.rowMajor.symm (Fin.cast _ (y gathers_S10000x128_S128x128.axis'))))) = (rowIx (SRC d _)).val
    rw [rowIx_val (hSRC _), hpI, View.read_apply, cast_eq]
    simp only [Matrix.cons_val_zero, zero_add, one_mul]
    refine congrArg BitVec.toNat (congrArg (SRC d) (funext fun b => Fin.ext ?_))
    match b with
    | 0 =>
      simp only [Memref.view, View.emb_slice, View.emb_whole, Function.Embedding.trans_apply, Function.Embedding.refl_apply, Rect.emb_apply,
        Rect.off_unit, Rect.stride_unit, one_mul]
      show off1 0 + _ = off2 0 + 1 * (y 0).val
      have hk := Shape.rowMajor_val_one (d := ![128]) (S128.rowMajor.symm (Fin.cast hn.symm (y gathers_S10000x128_S128x128.axis')))
      rw [Equiv.apply_symm_apply] at hk
      rw [h0, one_mul]
      exact congrArg (off1 0 + ·) hk.symm
  | 1 =>
    simp only [Memref.view, View.emb_slice, View.emb_whole, Function.Embedding.trans_apply, Function.Embedding.refl_apply, Rect.emb_apply,
      Rect.off_unit, Rect.stride_unit, Shape.Gathers.idx]
    show ![0, 0] 1 + 1 * ((y (Fin.cast _ 1)).val) = off2 1 + 1 * (y 1).val
    rw [h1]; simp only [Matrix.cons_val_one, Matrix.cons_val_zero, zero_add, one_mul]; rfl

omit [URA U] [CountersIn U] [FloatOps F] in
theorem chunkOf_lt (idx : S320000x128.Idx) : chunkOf idx < 2500 := by
  have h : (idx 0).val < 320000 := (idx 0).isLt
  unfold chunkOf; omega

/-- A 128-row block of the result at row `128 ch`, as the body slices it, is chunk `ch`. -/
theorem set_oSlice (off : Fin 2 → Nat) (inb : ∀ a, off a + S128x128.size a ≤ S320000x128.size a) (ch : ℕ)
    (h0 : off 0 = 128 * ch) (h1 : off 1 = 0) :
    ((oV).slice (Rect.unit (s := S320000x128) off S128x128.size inb) (fun _ => rfl)).view.set = chunkSet ch := by
  show ((View.whole (main_v2_scv : Ref sig .scVector)).slice (Rect.unit (s := S320000x128) off S128x128.size inb)).set = _
  rw [View.set_slice]
  ext idx
  rw [show (Finset.map (View.whole (main_v2_scv : Ref sig .scVector)).emb (Rect.unit (s := S320000x128) off S128x128.size inb).set) = (Rect.unit (s := S320000x128) off S128x128.size inb).set from Finset.map_refl]
  rw [Rect.mem_set_unit, mem_chunkSet]
  unfold chunkOf
  have hi1 : (idx 1).val < 128 := (idx 1).isLt
  constructor
  · intro h
    have := h 0
    rw [h0] at this
    have e : S128x128.size 0 = 128 := rfl
    rw [e] at this
    omega
  · intro h a
    match a with
    | 0 => rw [h0]; show _ ∧ _ < _ + 128; omega
    | 1 => rw [h1]; show _ ∧ _ < _ + 128; omega

theorem wkSet_eq (w : ℕ) (hw : w < 32) :
    wkSet w = (Finset.univ : Finset (Fin k0_t1_loop.trips)).biUnion (fun t => chunkSet (32 * t.val + w)) ∪ (if w < 4 then chunkSet (2496 + w) else ∅) := by
  have htr : k0_t1_loop.trips = 78 := by decide
  ext idx
  simp only [mem_wkSet, Finset.mem_union, Finset.mem_biUnion, Finset.mem_univ, true_and, mem_chunkSet]
  have h := chunkOf_lt idx
  constructor
  · intro e
    by_cases ht : chunkOf idx / 32 < 78
    · left; exact ⟨⟨chunkOf idx / 32, by omega⟩, by show chunkOf idx = 32 * (chunkOf idx / 32) + w; omega⟩
    · right
      have h4 : w < 4 := by omega
      rw [if_pos h4, mem_chunkSet]; omega
  · rintro (⟨t, e⟩ | h4)
    · have := t.isLt; omega
    · split at h4
      · rw [mem_chunkSet] at h4; omega
      · exact absurd h4 (Finset.notMem_empty _)

theorem chunks_disjoint (w : ℕ) : ∀ t ∈ (Finset.univ : Finset (Fin k0_t1_loop.trips)), ∀ t' ∈ (Finset.univ : Finset (Fin k0_t1_loop.trips)), t ≠ t' →
    Disjoint (chunkSet (32 * t.val + w)) (chunkSet (32 * t'.val + w)) := by
  intro t _ t' _ hne
  rw [Finset.disjoint_left]
  intro idx h1 h2
  rw [mem_chunkSet] at h1 h2
  exact hne (Fin.ext (by omega))

theorem tail_disjoint (w : ℕ) :
    Disjoint ((Finset.univ : Finset (Fin k0_t1_loop.trips)).biUnion (fun t => chunkSet (32 * t.val + w))) (if w < 4 then chunkSet (2496 + w) else ∅) := by
  have htr : k0_t1_loop.trips = 78 := by decide
  rw [Finset.disjoint_left]
  intro idx h1 h2
  obtain ⟨t, -, h1⟩ := Finset.mem_biUnion.mp h1
  rw [mem_chunkSet] at h1
  split at h2
  · rw [mem_chunkSet] at h2; have := t.isLt; omega
  · exact absurd h2 (Finset.notMem_empty _)

/-! ## The worker's chunks, as the body slices them -/

omit [URA U] [CountersIn U] [FloatOps F] in
theorem wk_lt : wk L < 32 := by
  have h0 : (L 0).val < 2 := (L 0).isLt
  have h1 : (L 1).val < 16 := (L 1).isLt
  show 16 * (L 0).val + (L 1).val < 32; omega

omit [URA U] [CountersIn U] [FloatOps F] in
theorem off2_zero (t : Fin k0_t1_loop.trips) : (k0_off2 L t) 0 = 128 * (32 * t.val + wk L) := by
  rw [k0_off2_eq]; show 4096 * t.val + 2048 * (L 0).val + 128 * (L 1).val = 128 * (32 * t.val + (16 * (L 0).val + (L 1).val)); omega
omit [URA U] [CountersIn U] [FloatOps F] in
theorem off2_one (t : Fin k0_t1_loop.trips) : (k0_off2 L t) 1 = 0 := by rw [k0_off2_eq]; rfl
omit [URA U] [CountersIn U] [FloatOps F] in
theorem off2_off1 (t : Fin k0_t1_loop.trips) : (k0_off2 L t) 0 = (k0_off1 L t) 0 := by rw [k0_off1_eq, k0_off2_eq]; rfl
omit [URA U] [CountersIn U] [FloatOps F] in
theorem set_oChunk (t : Fin k0_t1_loop.trips) : (oChunk L t).view.set = chunkSet (32 * t.val + wk L) :=
  set_oSlice _ _ _ (off2_zero L t) (off2_one L t)

/-- The tail chunk (taken by the first four workers), as the body slices it. -/
abbrev oTail (L : grid0.Coords) (h : k0_cond1 L = 1#1) : Memref sig .scVector .hbm S128x128 .f32 :=
  (oV).slice (Rect.unit (s := S320000x128) (k0_off4 L) S128x128.size (k0_off4_inb L h)) (fun _ => rfl)

omit [URA U] [CountersIn U] [FloatOps F] in
theorem off4_zero : (k0_off4 L) 0 = 128 * (2496 + wk L) := by
  rw [k0_off4_eq]; show 2048 * (L 0).val + 128 * (L 1).val + 319488 = 128 * (2496 + (16 * (L 0).val + (L 1).val)); omega
omit [URA U] [CountersIn U] [FloatOps F] in
theorem off4_one : (k0_off4 L) 1 = 0 := by rw [k0_off4_eq]; rfl
omit [URA U] [CountersIn U] [FloatOps F] in
theorem off4_off3 : (k0_off4 L) 0 = (k0_off3 L) 0 := by rw [k0_off3_eq, k0_off4_eq]; rfl
omit [URA U] [CountersIn U] [FloatOps F] in
theorem set_oTail (h : k0_cond1 L = 1#1) : (oTail L h).view.set = chunkSet (2496 + wk L) :=
  set_oSlice _ _ _ (off4_zero L) (off4_one L)

omit [URA U] [CountersIn U] [FloatOps F] in
/-- The tail is taken by the workers numbered below 4. -/
theorem cond1_iff : ∀ L : grid0.Coords, k0_cond1 L = 1#1 ↔ 16 * (L 0).val + (L 1).val < 4 := by decide +kernel

omit [CountersIn U] [FloatOps F] in
theorem pts_oChunk (t : Fin k0_t1_loop.trips) (f : Buf (Elt F) (oLoc d)) :
    ((oChunk L t).view.loc (V d (cV L) (jV L)) ↦[(oChunk L t).view.set]{fullShare} f : sProp 𝕄)
      = oLoc d ↦[chunkSet (32 * t.val + wk L)]{fullShare} f := by rw [set_oChunk]
omit [CountersIn U] [FloatOps F] in
theorem pts_oTail (h : k0_cond1 L = 1#1) (f : Buf (Elt F) (oLoc d)) :
    ((oTail L h).view.loc (V d (cV L) (jV L)) ↦[(oTail L h).view.set]{fullShare} f : sProp 𝕄)
      = oLoc d ↦[chunkSet (2496 + wk L)]{fullShare} f := by rw [set_oTail]

/-! ## The loop's invariant -/

/-- Chunk `32 t + w` of the result before trip `k`: the worker's, at the gathered contents once trip `t` has run. -/
def chunkAt (k : ℕ) (t : Fin k0_t1_loop.trips) : sProp 𝕄 :=
  iprop(∃ f : Buf (Elt F) (oLoc d), ⌜t.val < k → ∀ i ∈ (oChunk L t).view.set, f i = GATH X SRC d i⌝
    ∗ (oChunk L t).view.loc (V d (cV L) (jV L)) ↦[(oChunk L t).view.set]{fullShare} f)

omit [CountersIn U] [FloatOps F] in
theorem chunkAt_init (t : Fin k0_t1_loop.trips) (f : Buf (Elt F) (oLoc d)) :
    (oLoc d ↦[chunkSet (32 * t.val + wk L)]{fullShare} f : sProp 𝕄) ⊢ chunkAt (U := U) X SRC d L 0 t := by
  unfold chunkAt
  iintro H
  iexists f
  isplitr
  · ipureintro; intro h; exact absurd h (Nat.not_lt_zero _)
  · iapply (Entails.of_eq (pts_oChunk (U := U) d L t f).symm); iexact H

omit [CountersIn U] [FloatOps F] in
theorem chunks_init (f : Buf (Elt F) (oLoc d)) :
    (oLoc d ↦[(Finset.univ : Finset (Fin k0_t1_loop.trips)).biUnion fun t => chunkSet (32 * t.val + wk L)]{fullShare} f : sProp 𝕄)
      ⊢ bigSep Finset.univ fun t => chunkAt (U := U) X SRC d L 0 t := by
  rw [pointsTo_biUnion Finset.univ _ (chunks_disjoint (wk L))]
  exact bigSep_mono fun t _ => chunkAt_init X SRC d L t f

omit [CountersIn U] [FloatOps F] in
theorem chunkAt_done (t : Fin k0_t1_loop.trips) :
    chunkAt (U := U) X SRC d L k0_t1_loop.trips t ⊢ (oLoc d ↦[chunkSet (32 * t.val + wk L)]{fullShare} GATH X SRC d : sProp 𝕄) := by
  unfold chunkAt
  iintro ⟨%f, %hf, H⟩
  have e : ((oChunk L t).view.loc (V d (cV L) (jV L)) ↦[(oChunk L t).view.set]{fullShare} f : sProp 𝕄)
      = oLoc d ↦[chunkSet (32 * t.val + wk L)]{fullShare} GATH X SRC d := by
    rw [pointsTo_congr (hf t.isLt), pts_oChunk]
  iapply (Entails.of_eq e); iexact H

omit [CountersIn U] [FloatOps F] in
theorem chunks_done :
    (bigSep Finset.univ fun t => chunkAt (U := U) X SRC d L k0_t1_loop.trips t)
      ⊢ (oLoc d ↦[(Finset.univ : Finset (Fin k0_t1_loop.trips)).biUnion fun t => chunkSet (32 * t.val + wk L)]{fullShare} GATH X SRC d : sProp 𝕄) := by
  rw [pointsTo_biUnion Finset.univ _ (chunks_disjoint (wk L))]
  exact bigSep_mono fun t _ => chunkAt_done X SRC d L t

omit [CountersIn U] [FloatOps F] in
theorem chunkAt_succ (k t : Fin k0_t1_loop.trips) (hne : t ≠ k) :
    chunkAt (U := U) X SRC d L k.val t ⊢ chunkAt (U := U) X SRC d L (k.val + 1) t := by
  unfold chunkAt
  iintro ⟨%f, %hf, H⟩
  iexists f
  isplitr
  · ipureintro; intro hlt
    have hne' : t.val ≠ k.val := fun e => hne (Fin.ext e)
    exact hf (by omega)
  · iexact H

omit [CountersIn U] [FloatOps F] in
theorem chunks_step (k : Fin k0_t1_loop.trips) :
    (iprop(chunkAt (U := U) X SRC d L (k.val + 1) k ∗ bigSep (Finset.univ.erase k) fun t => chunkAt (U := U) X SRC d L k.val t) : sProp 𝕄)
      ⊢ bigSep Finset.univ fun t => chunkAt (U := U) X SRC d L (k.val + 1) t := by
  rw [SparseCore.bigSep_erase' (Finset.mem_univ k) (Φ := fun t => chunkAt (U := U) X SRC d L (k.val + 1) t)]
  exact BIClass.sep_mono (BI.Entails.refl _) (bigSep_mono fun t ht => chunkAt_succ X SRC d L k t (Finset.ne_of_mem_erase ht))

/-- Before trip `k`: the worker's read shares of the table and the list, its two scratch buffers, its three semaphores at
    zero, its chunks (`chunkAt`), and what it owes the launch, with only waits at no index recorded beyond `W`. -/
def inv (q : PosShare TreeShare) (O : CellTallies nD τ sig (HIx 1)) (W : Waits sig (HIx 1)) (k : ℕ) (_ : Unit) : sProp 𝕄 :=
  iprop(Transfers.MayWaits (V d (cV L) (jV L)) (default : HIx 1) O
    ∗ ((xV).view.loc (V d (cV L) (jV L)) ↦{q} X d)
    ∗ ((iV).view.loc (V d (cV L) (jV L)) ↦{q} SRC d)
    ∗ (∃ f, (sI).view.loc (V d (cV L) (jV L)) ↦{fullShare} f)
    ∗ (∃ f, (sR).view.loc (V d (cV L) (jV L)) ↦{fullShare} f)
    ∗ semVal (V d (cV L) (jV L), SemLoc.dma cc0_scoped0.sem) 0
    ∗ semVal (V d (cV L) (jV L), SemLoc.dma cc0_scratch2.sem) 0
    ∗ semVal (V d (cV L) (jV L), SemLoc.dma cc0_scoped1.sem) 0
    ∗ (bigSep Finset.univ fun t => chunkAt (U := U) X SRC d L k t)
    ∗ ∃ W', ⌜∀ p ∈ W', p ∈ W ∨ p.2 = none⌝ ∗ owes (V d (cV L) (jV L)) O W')

set_option maxHeartbeats 4000000 in
/-- One trip: the chunk of the list fetched, its rows of the table gathered, the rows written out to the chunk of the
    result, each transfer waited for before the next is issued. -/
theorem trip (hSRC : ∀ e, (SRC d e).toNat < 10000) (q : PosShare TreeShare) (O : CellTallies nD τ sig (HIx 1)) (W : Waits sig (HIx 1))
    (k : Fin k0_t1_loop.trips) :
    inv (U := U) X SRC d L q O W k.val ()
      ⊢ wp frame (wpE (defs₀ (F := F)) 𝒱₀ (V d (cV L) (jV L)) none) Set.univ
          (k0_t1_body L xV (Memref.isWhole_whole _) iV (Memref.isWhole_whole _) oV (Memref.isWhole_whole _)
            sI (Memref.isWhole_whole _) sR (Memref.isWhole_whole _) cc0_scratch2 cc0_scoped0 cc0_scoped1 cc0_scoped2 cc0_scoped3 k ())
          fun acc => inv (U := U) X SRC d L q O W (k.val + 1) acc := by
  unfold inv k0_t1_body
  rw [SparseCore.bigSep_erase' (Finset.mem_univ k) (Φ := fun t => chunkAt (U := U) X SRC d L k.val t)]
  iintro ⟨#Hmw, Hx, Hi, ⟨%fI, HsI⟩, ⟨%fR, HsR⟩, HA, HB, HC, ⟨Hk, Hrest⟩, %W', %hW', HO⟩
  unfold chunkAt
  icases Hk with ⟨%fO, -, Ho⟩
  sl_exec
  have hin := list_inb SRC d L hSRC (k0_off1 L k) (k0_off1_inb L k) fI (trip.sl.dma0 SRC d L k) rfl
  sl_exec
  sl_step
  isplitr; · iexact Hmw
  isplitl [Hx]; · iexact Hx
  isplitl [Hi]; · iexact Hi
  isplitl [HsI]; · iexists _; iexact HsI
  isplitl [HsR]; · iexists _; iexact HsR
  isplitl [HA]; · iexact HA
  isplitl [HB]; · iexact HB
  isplitl [HC]; · iexact HC
  isplitl [Ho Hrest]
  · iapply (chunks_step X SRC d L k)
    isplitl [Ho]
    · unfold chunkAt
      iexists _
      isplitr
      swap; · iexact Ho
      ipureintro; intro _
      exact chunk_value X SRC d L hSRC (k0_off1 L k) (k0_off1_inb L k) (k0_off2 L k) (k0_off2_inb L k) (off2_off1 L k) (off2_one L k)
        fI fR fO _ rfl _ hin _ rfl _ rfl
    · iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The worker's scoped storage -/

/-- The worker's cell of DMA semaphore `sm`. -/
abbrev cell (d : Dev nD) (L : grid0.Coords) (sm : DmaSem sig) : GSem nD τ sig := (V d (cV L) (jV L), SemLoc.dma sm)

omit [URA U] [CountersIn U] [FloatOps F] in
theorem cell_mem (sm : DmaSem sig) (h : (SemLoc.dma sm : SemLoc sig).isScoped .scVector = true) : cell d L sm ∈ ownCells (V d (cV L) (jV L)) :=
  (mem_ownCells (g := cell d L sm)).mpr ⟨rfl, h⟩
omit [URA U] [CountersIn U] [FloatOps F] in
theorem cell_ne {sm sm' : DmaSem sig} (h : sm ≠ sm') : cell d L sm ≠ cell d L sm' :=
  fun e => h (SemLoc.dma.inj (Prod.mk.inj e).2)

/-- The cells that are not the kernel's five. -/
abbrev otherCells (d : Dev nD) (L : grid0.Coords) : Finset (GSem nD τ sig) := ((((((ownCells (V d (cV L) (jV L))).erase (cell d L cc0_scoped0.sem)).erase (cell d L cc0_scratch2.sem)).erase (cell d L cc0_scoped1.sem)).erase (cell d L cc0_scoped2.sem)).erase (cell d L cc0_scoped3.sem))

omit [CountersIn U] [FloatOps F] in
/-- The worker's scoped semaphores at zero are the kernel's five and the rest. -/
theorem ownSems0_V :
    (ownSems0 (V d (cV L) (jV L)) : sProp 𝕄)
      = iprop(semVal (cell d L cc0_scoped0.sem) 0 ∗ semVal (cell d L cc0_scratch2.sem) 0 ∗ semVal (cell d L cc0_scoped1.sem) 0 ∗ semVal (cell d L cc0_scoped2.sem) 0 ∗ semVal (cell d L cc0_scoped3.sem) 0
          ∗ bigSep (otherCells d L) fun g => semVal g 0) := by
  unfold SparseCore.Cfg.ownSems0
  rw [SparseCore.bigSep_erase' (cell_mem d L cc0_scoped0.sem (by decide)),
    SparseCore.bigSep_erase' (Finset.mem_erase.mpr ⟨cell_ne d L (show (cc0_scratch2.sem : DmaSem sig) ≠ cc0_scoped0.sem by decide), (cell_mem d L cc0_scratch2.sem (by decide))⟩),
    SparseCore.bigSep_erase' (Finset.mem_erase.mpr ⟨cell_ne d L (show (cc0_scoped1.sem : DmaSem sig) ≠ cc0_scratch2.sem by decide), (Finset.mem_erase.mpr ⟨cell_ne d L (show (cc0_scoped1.sem : DmaSem sig) ≠ cc0_scoped0.sem by decide), (cell_mem d L cc0_scoped1.sem (by decide))⟩)⟩),
    SparseCore.bigSep_erase' (Finset.mem_erase.mpr ⟨cell_ne d L (show (cc0_scoped2.sem : DmaSem sig) ≠ cc0_scoped1.sem by decide), (Finset.mem_erase.mpr ⟨cell_ne d L (show (cc0_scoped2.sem : DmaSem sig) ≠ cc0_scratch2.sem by decide), (Finset.mem_erase.mpr ⟨cell_ne d L (show (cc0_scoped2.sem : DmaSem sig) ≠ cc0_scoped0.sem by decide), (cell_mem d L cc0_scoped2.sem (by decide))⟩)⟩)⟩),
    SparseCore.bigSep_erase' (Finset.mem_erase.mpr ⟨cell_ne d L (show (cc0_scoped3.sem : DmaSem sig) ≠ cc0_scoped2.sem by decide), (Finset.mem_erase.mpr ⟨cell_ne d L (show (cc0_scoped3.sem : DmaSem sig) ≠ cc0_scoped1.sem by decide), (Finset.mem_erase.mpr ⟨cell_ne d L (show (cc0_scoped3.sem : DmaSem sig) ≠ cc0_scratch2.sem by decide), (Finset.mem_erase.mpr ⟨cell_ne d L (show (cc0_scoped3.sem : DmaSem sig) ≠ cc0_scoped0.sem by decide), (cell_mem d L cc0_scoped3.sem (by decide))⟩)⟩)⟩)⟩)]

omit [CountersIn U] [FloatOps F] in
/-- Its scoped buffers are the two scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The body -/

omit [CountersIn U] [FloatOps F] in
/-- The tail chunk written: at the gathered contents. -/
theorem tail_at (h : k0_cond1 L = 1#1) :
    (iprop(∃ f : Buf (Elt F) (oLoc d), ⌜∀ i ∈ (oTail L h).view.set, f i = GATH X SRC d i⌝
      ∗ (oTail L h).view.loc (V d (cV L) (jV L)) ↦[(oTail L h).view.set]{fullShare} f) : sProp 𝕄)
      ⊢ oLoc d ↦[chunkSet (2496 + wk L)]{fullShare} GATH X SRC d := by
  iintro ⟨%f, %hf, H⟩
  have e : ((oTail L h).view.loc (V d (cV L) (jV L)) ↦[(oTail L h).view.set]{fullShare} f : sProp 𝕄)
      = oLoc d ↦[chunkSet (2496 + wk L)]{fullShare} GATH X SRC d := by
    rw [pointsTo_congr hf, pts_oTail]
  iapply (Entails.of_eq e); iexact H

set_option maxHeartbeats 4000000 in
/-- The worker's task: the 78 trips by the invariant, then the tail chunk where the worker takes one. -/
theorem tile_body (hF : (K (F := F)).Facts) (hSRC : ∀ e, (SRC d e).toNat < 10000) (q : PosShare TreeShare)
    (O : CellTallies nD τ sig (HIx 1)) (W : Waits sig (HIx 1)) (hO : ∀ g, O g none = 0) :
    (iprop(levAts (K (F := F)).L (K (F := F)).lev ∗ emp
        ∗ ((xLoc d ↦{q} X d) ∗ (sLoc d ↦{q} SRC d) ∗ ∃ f, oLoc d ↦[wkSet (wk L)]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_body L xV (Memref.isWhole_whole _) iV (Memref.isWhole_whole _) oV (Memref.isWhole_whole _)
            sI (Memref.isWhole_whole _) sR (Memref.isWhole_whole _) cc0_scratch2 cc0_scoped0 cc0_scoped1 cc0_scoped2 cc0_scoped3)
          fun _ => iprop(((xLoc d ↦{q} X d) ∗ (sLoc d ↦{q} SRC d) ∗ oLoc d ↦[wkSet (wk L)]{fullShare} GATH X SRC d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V,
    wkSet_eq (wk L) (wk_lt L)]
  iintro ⟨#Hlv, -, ⟨Hx, Hs, %f, Ho⟩, ⟨⟨%fI, HsI⟩, ⟨%fR, HsR⟩, Hbufs⟩, ⟨HA, HB, HC, HD, HE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho := (pointsTo_union (tail_disjoint (wk L))).1 $$ Ho
  icases Ho with ⟨Hch, Htl⟩
  ihave Hch := (chunks_init (U := U) X SRC d L f) $$ Hch
  sl_for (inv (U := U) X SRC d L q O W) $$ [Hmw Hx Hs HsI HsR HA HB HC Hch HO]
  case region => intro k _; exact trip X SRC d L hSRC q O W k
  · unfold inv
    isplitl [Hmw]; · iexact Hmw
    isplitl [Hx]; · iexact Hx
    isplitl [Hs]; · iexact Hs
    isplitl [HsI]; · iexists _; iexact HsI
    isplitl [HsR]; · iexists _; iexact HsR
    isplitl [HA]; · iexact HA
    isplitl [HB]; · iexact HB
    isplitl [HC]; · iexact HC
    isplitl [Hch]; · iexact Hch
    iexists W; isplitr
    · ipureintro; exact fun p hp => .inl hp
    · iexact HO
  iintro %_ HI
  unfold inv
  icases HI with ⟨#Hmw, Hx, Hs, ⟨%fI', HsI⟩, ⟨%fR', HsR⟩, HA, HB, HC, Hch, %W', %hW', HO⟩
  ihave Hch := (chunks_done (U := U) X SRC d L) $$ Hch
  by_cases k0_h1 : k0_cond1 L = 1#1
  · have hw4 : wk L < 4 := (cond1_iff L).mp k0_h1
    rw [if_pos hw4]
    ihave Htl := (Entails.of_eq (pts_oTail (U := U) d L k0_h1 f).symm) $$ Htl
    have hdj : Disjoint ((Finset.univ : Finset (Fin k0_t1_loop.trips)).biUnion fun t => chunkSet (32 * t.val + wk L)) (chunkSet (2496 + wk L)) := by
      have := tail_disjoint (wk L); rwa [if_pos hw4] at this
    sl_exec
    have hin := list_inb SRC d L hSRC (k0_off3 L) (k0_off3_inb L k0_h1) fI' (tile_body.sl.dma0 SRC d L k0_h1) rfl
    sl_exec
    sl_step
    ihave Htl := (tail_at (U := U) X SRC d L k0_h1) $$ [Htl]
    · iexists _; isplitr
      swap; · iexact Htl
      ipureintro
      exact chunk_value X SRC d L hSRC (k0_off3 L) (k0_off3_inb L k0_h1) (k0_off4 L) (k0_off4_inb L k0_h1) (off4_off3 L) (off4_one L)
        fI' fR' f _ rfl _ hin _ rfl _ rfl
    isplitl [Hx Hs Hch Htl]
    · isplitl [Hx]; · iexact Hx
      isplitl [Hs]; · iexact Hs
      iapply (pointsTo_union hdj).2
      isplitl [Hch] <;> iassumption
    isplitl [HsI HsR Hbufs]
    · isplitl [HsI]; · iexists _; iexact HsI
      isplitl [HsR]; · iexists _; iexact HsR
      iexact Hbufs
    isplitl [HA HB HC HD HE Hsems]
    · isplitl [HA]; · iexact HA
      isplitl [HB]; · iexact HB
      isplitl [HC]; · iexact HC
      isplitl [HD]; · iexact HD
      isplitl [HE]; · iexact HE
      iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · have hw4 : ¬ wk L < 4 := fun h => k0_h1 ((cond1_iff L).mpr h)
    rw [if_neg hw4, Finset.union_empty]
    icases Htl with -
    sl_exec
    sl_step
    isplitl [Hx Hs Hch]
    · isplitl [Hx]; · iexact Hx
      isplitl [Hs]; · iexact Hs
      iexact Hch
    isplitl [HsI HsR Hbufs]
    · isplitl [HsI]; · iexists _; iexact HsI
      isplitl [HsR]; · iexists _; iexact HsR
      iexact Hbufs
    isplitl [HA HB HC HD HE Hsems]
    · isplitl [HA]; · iexact HA
      isplitl [HB]; · iexact HB
      isplitl [HC]; · iexact HC
      isplitl [HD]; · iexact HD
      isplitl [HE]; · iexact HE
      iexact Hsems
    iexists W'; isplitr
    · ipureintro; exact hW'
    · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) iV (Memref.isWhole_whole _) oV (Memref.isWhole_whole _)
          sI (Memref.isWhole_whole _) sR (Memref.isWhole_whole _) cc0_scratch2 cc0_scoped0 cc0_scoped1 cc0_scoped2 cc0_scoped3) ⟨⟩ c s := rfl

omit [CountersIn U] [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
/-- The vector-subcore kernel's obligation: each worker, from its read shares and its rows of the result, leaves those
    rows gathered. -/
theorem tile (hSRC : ∀ d e, (SRC d e).toNat < 10000) : (K (F := F)).TileObl (D (F := F)) 𝒱 (P (U := U) X SRC) v₀ 0 := by
  intro d c i O W hO _ _
  simp only [P_ox, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X SRC d (coordsV ⟨_, hci.1⟩ ⟨_, hci.2⟩) facts (hSRC d) (tileShare c.val i.val) O W hO).trans (wp_mono frame _ _ fun _ => obl_post)

end Cert.KI.Sc

end
-- ==== Proof.ScSplit.lean ====
/-
  The SparseCore call's operands, split and gathered.

  The table and the index list are read by all 32 workers at once: each holds a read share of them — the full share's
  two tokens go to the two SparseCores (the remainder stays with the TensorCore), each SparseCore's sixteen tokens to
  its workers (the remainder stays with its sequencer). The result is written in disjoint pieces: a SparseCore's
  elements are its sixteen workers' (`chunk % 32 / 16 = c` iff `chunk % 32 = 16 c + s` for some `s < 16`), and the
  array's are the two SparseCores'. So the call's operands split into the workers' and the workers' results join into
  the call's (`split`), and around the call the TensorCore hands over the three arrays whole and gets them back whole,
  the result at the gathered contents (`st_intro`, `dn_elim`).
-/
import proofs.«202620_g33904471835419_cont_8to1_b_799_54_alg».proof.Proof.ScCommon

noncomputable section

namespace Cert.KI.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

variable (X : (d : Dev nD) → Buf (Elt F) (xLoc d)) (SRC : (d : Dev nD) → Buf (Elt F) (sLoc d))

/-! ## The result's elements: a SparseCore's are its sixteen workers', the array's the two SparseCores' -/

theorem coreSet_eq (c : ℕ) : coreSet c = (Finset.univ : Finset (Fin 16)).biUnion fun s => wkSet (16 * c + s.val) := by
  ext idx
  simp only [mem_coreSet, Finset.mem_biUnion, Finset.mem_univ, true_and, mem_wkSet]
  constructor
  · intro e
    exact ⟨⟨chunkOf idx % 32 % 16, Nat.mod_lt _ (by decide)⟩, by show chunkOf idx % 32 = 16 * c + chunkOf idx % 32 % 16; omega⟩
  · rintro ⟨s, e⟩
    have := s.isLt; omega

theorem wk_disjoint (c : ℕ) : ∀ s ∈ (Finset.univ : Finset (Fin 16)), ∀ s' ∈ (Finset.univ : Finset (Fin 16)), s ≠ s' →
    Disjoint (wkSet (16 * c + s.val)) (wkSet (16 * c + s'.val)) := by
  intro s _ s' _ hne
  rw [Finset.disjoint_left]
  intro idx h1 h2
  rw [mem_wkSet] at h1 h2
  exact hne (Fin.ext (by omega))

theorem univ_eq : (Finset.univ : Finset S320000x128.Idx) = (Finset.univ : Finset (Fin 2)).biUnion fun c => coreSet c.val := by
  ext idx
  simp only [Finset.mem_univ, Finset.mem_biUnion, true_and, mem_coreSet, true_iff]
  exact ⟨⟨chunkOf idx % 32 / 16, by omega⟩, rfl⟩

theorem core_disjoint : ∀ c ∈ (Finset.univ : Finset (Fin 2)), ∀ c' ∈ (Finset.univ : Finset (Fin 2)), c ≠ c' →
    Disjoint (coreSet c.val) (coreSet c'.val) := by
  intro c _ c' _ hne
  rw [Finset.disjoint_left]
  intro idx h1 h2
  rw [mem_coreSet] at h1 h2
  exact hne (Fin.ext (by omega))

/-! ## The split of a SparseCore's operands among its workers -/

omit [CountersIn U] in
theorem wk_any (d : Dev nD) (w : ℕ) (f : Buf (Elt F) (oLoc d)) :
    (oLoc d ↦[wkSet w]{fullShare} f : sProp 𝕄) ⊢ iprop(∃ f, oLoc d ↦[wkSet w]{fullShare} f) := by
  iintro H; iexists f; iexact H

omit [CountersIn U] in
theorem wk_anys (d : Dev nD) (c : ℕ) (f : Buf (Elt F) (oLoc d)) :
    (bigSep Finset.univ fun s : Fin 16 => (oLoc d ↦[wkSet (16 * c + s.val)]{fullShare} f : sProp 𝕄))
      ⊢ bigSep Finset.univ fun s : Fin 16 => iprop(∃ f, oLoc d ↦[wkSet (16 * c + s.val)]{fullShare} f) :=
  bigSep_mono fun s _ => wk_any d (16 * c + s.val) f

theorem split : (K (F := F)).VecSplit' (P (U := U) X SRC) 0 := by
  intro d c
  show (iprop((xLoc d ↦{coreShare c.val} X d) ∗ (sLoc d ↦{coreShare c.val} SRC d) ∗ ∃ f, oLoc d ↦[coreSet c.val]{fullShare} f) : sProp 𝕄)
    ⊢ |={Set.univ}=> iprop((bigSep Finset.univ fun s : Fin 16 =>
          iprop((xLoc d ↦{Transfers.shareTok (coreShare c.val) 16 s} X d) ∗ (sLoc d ↦{Transfers.shareTok (coreShare c.val) 16 s} SRC d)
            ∗ ∃ f, oLoc d ↦[wkSet (16 * c.val + s.val)]{fullShare} f))
      ∗ ((bigSep Finset.univ fun s : Fin 16 =>
          iprop((xLoc d ↦{Transfers.shareTok (coreShare c.val) 16 s} X d) ∗ (sLoc d ↦{Transfers.shareTok (coreShare c.val) 16 s} SRC d)
            ∗ oLoc d ↦[wkSet (16 * c.val + s.val)]{fullShare} GATH X SRC d))
          -∗ iprop((xLoc d ↦{coreShare c.val} X d) ∗ (sLoc d ↦{coreShare c.val} SRC d) ∗ oLoc d ↦[coreSet c.val]{fullShare} GATH X SRC d)))
  rw [bigSep_sep', bigSep_sep', bigSep_sep', bigSep_sep', coreSet_eq, pointsTo_biUnion Finset.univ _ (wk_disjoint c.val)]
  iintro ⟨Hx, Hs, %f, Ho⟩
  ihave Hx := (Transfers.pointsTo_toks_split (coreShare c.val) 16) $$ Hx
  ihave Hs := (Transfers.pointsTo_toks_split (coreShare c.val) 16) $$ Hs
  icases Hx with ⟨Hxr, Hxt⟩
  icases Hs with ⟨Hsr, Hst⟩
  ihave Ho := (Entails.of_eq (pointsTo_biUnion (q := fullShare) (f := f) (ℓ := oLoc d) Finset.univ _ (wk_disjoint c.val))) $$ Ho
  imodintro
  isplitl [Hxt Hst Ho]
  · isplitl [Hxt]; · iexact Hxt
    isplitl [Hst]; · iexact Hst
    iapply (wk_anys (U := U) d c.val f) $$ Ho
  · iintro ⟨Hxt, Hst, Ho⟩
    isplitl [Hxr Hxt]
    · iapply (Transfers.pointsTo_toks_join (coreShare c.val) 16); isplitl [Hxr] <;> iassumption
    isplitl [Hsr Hst]
    · iapply (Transfers.pointsTo_toks_join (coreShare c.val) 16); isplitl [Hsr] <;> iassumption
    iexact Ho

/-! ## The call, seen from the TensorCore -/

omit [CountersIn U] in
theorem core_any (d : Dev nD) (c : ℕ) (f : Buf (Elt F) (oLoc d)) :
    (oLoc d ↦[coreSet c]{fullShare} f : sProp 𝕄) ⊢ iprop(∃ f, oLoc d ↦[coreSet c]{fullShare} f) := by
  iintro H; iexists f; iexact H

omit [CountersIn U] in
theorem core_anys (d : Dev nD) (f : Buf (Elt F) (oLoc d)) :
    (bigSep Finset.univ fun c : Fin 2 => (oLoc d ↦[coreSet c.val]{fullShare} f : sProp 𝕄))
      ⊢ bigSep Finset.univ fun c : Fin 2 => iprop(∃ f, oLoc d ↦[coreSet c.val]{fullShare} f) :=
  bigSep_mono fun c _ => core_any d c.val f

/-- Before the call: the table, the list and the result whole are every SparseCore's operands and what the TensorCore
    keeps. -/
theorem st_intro (d : Dev nD) :
    (iprop((xLoc d ↦{fullShare} X d) ∗ (sLoc d ↦{fullShare} SRC d) ∗ ∃ f, oLoc d ↦{fullShare} f) : sProp 𝕄)
      ⊢ iprop((bigSep Finset.univ fun c : Fin ((K (F := F)).nCore 0) => (P (U := U) X SRC).st 0 d c) ∗ R X SRC d) := by
  show (iprop((xLoc d ↦{fullShare} X d) ∗ (sLoc d ↦{fullShare} SRC d) ∗ ∃ f, oLoc d ↦{fullShare} f) : sProp 𝕄)
    ⊢ iprop((bigSep Finset.univ fun c : Fin 2 =>
        iprop((xLoc d ↦{Transfers.shareTok fullShare 2 c} X d) ∗ (sLoc d ↦{Transfers.shareTok fullShare 2 c} SRC d) ∗ ∃ f, oLoc d ↦[coreSet c.val]{fullShare} f))
      ∗ ((xLoc d ↦{Transfers.shareDrop fullShare 2} X d) ∗ sLoc d ↦{Transfers.shareDrop fullShare 2} SRC d))
  rw [bigSep_sep', bigSep_sep']
  iintro ⟨Hx, Hs, %f, Ho⟩
  ihave Hx := (Transfers.pointsTo_toks_split fullShare 2) $$ Hx
  ihave Hs := (Transfers.pointsTo_toks_split fullShare 2) $$ Hs
  icases Hx with ⟨Hxr, Hxt⟩
  icases Hs with ⟨Hsr, Hst⟩
  ihave Ho := (Entails.of_eq (show (oLoc d ↦{fullShare} f : sProp 𝕄) = bigSep Finset.univ fun c : Fin 2 => oLoc d ↦[coreSet c.val]{fullShare} f by
    rw [← pointsTo_biUnion Finset.univ _ core_disjoint, ← univ_eq])) $$ Ho
  isplitl [Hxt Hst Ho]
  · isplitl [Hxt]; · iexact Hxt
    isplitl [Hst]; · iexact Hst
    iapply (core_anys (U := U) d f) $$ Ho
  · isplitl [Hxr] <;> iassumption

/-- After it: the same back, the result at the gathered contents. -/
theorem dn_elim (d : Dev nD) :
    (iprop((bigSep Finset.univ fun c : Fin ((K (F := F)).nCore 0) => (P (U := U) X SRC).dn 0 d c) ∗ R X SRC d) : sProp 𝕄)
      ⊢ iprop((xLoc d ↦{fullShare} X d) ∗ (sLoc d ↦{fullShare} SRC d) ∗ oLoc d ↦{fullShare} GATH X SRC d) := by
  show (iprop((bigSep Finset.univ fun c : Fin 2 =>
        iprop((xLoc d ↦{Transfers.shareTok fullShare 2 c} X d) ∗ (sLoc d ↦{Transfers.shareTok fullShare 2 c} SRC d) ∗ oLoc d ↦[coreSet c.val]{fullShare} GATH X SRC d))
      ∗ ((xLoc d ↦{Transfers.shareDrop fullShare 2} X d) ∗ sLoc d ↦{Transfers.shareDrop fullShare 2} SRC d)) : sProp 𝕄)
    ⊢ iprop((xLoc d ↦{fullShare} X d) ∗ (sLoc d ↦{fullShare} SRC d) ∗ oLoc d ↦{fullShare} GATH X SRC d)
  rw [bigSep_sep', bigSep_sep']
  iintro ⟨⟨Hxt, Hst, Ho⟩, Hxr, Hsr⟩
  isplitl [Hxr Hxt]
  · iapply (Transfers.pointsTo_toks_join fullShare 2); isplitl [Hxr] <;> iassumption
  isplitl [Hsr Hst]
  · iapply (Transfers.pointsTo_toks_join fullShare 2); isplitl [Hsr] <;> iassumption
  iapply (Entails.of_eq (show (bigSep Finset.univ fun c : Fin 2 => (oLoc d ↦[coreSet c.val]{fullShare} GATH X SRC d : sProp 𝕄)) = oLoc d ↦{fullShare} GATH X SRC d by
    rw [← pointsTo_biUnion Finset.univ _ core_disjoint, ← univ_eq]))
  iexact Ho

end Cert.KI.Sc

end
-- ==== Proof.TopRun.lean ====
/-
  The launch: the ghost state's launch element (the handshakes' rounds, the two pipelines' staging cells and duty
  tokens, no counter yet), the reading of the final memory off the held buffers, and the program's run — every weakly
  fair execution of the device's threads terminates with every unscoped buffer of the TensorCore at the contents of
  the return.
-/
import proofs.«202620_g33904471835419_cont_8to1_b_799_54_alg».proof.Proof.TopRegions
import proofs.«202620_g33904471835419_cont_8to1_b_799_54_alg».proof.Proof.ScTile
import proofs.«202620_g33904471835419_cont_8to1_b_799_54_alg».proof.Proof.ScSplit

noncomputable section

namespace Cert.KI.Top

open Cert.KernelIdeal Cert.KernelIdeal.Gen Cert.KI.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 1) (Elt F) ℕ UU ℕ

variable (m : (ℓ : Loc nD τ sig) → Buf (Elt F) ℓ) (ρ : Dev nD → PrngReg)

variable (Sc : Scat (F := F))

/-- The launch element: the handshake cells' rounds, the pipelines' cells and duty tokens, no counter. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), (1 : Counters)))

omit [FloatOps F] in
theorem ownU_split (a : UH) (b : UP) :
    (ownU ((a, (b, (1 : Counters))) : UU) : sProp 𝕄) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem Gd_all : ((bigSep Finset.univ fun d : Dev nD => Gd (F := F) d) : sProp 𝕄)
    = iprop((bigSep Finset.univ fun c : Dev nD => bigSep Finset.univ fun p : Fin 2 => Pipeline.cellsGhost (Pipeline.pin (pcfgs (F := F)) adm) (EP (F := F)) p c)
        ∗ (bigSep Finset.univ fun c : Dev nD => bigSep Finset.univ fun p : Fin 2 => (Pipeline.toksInit (Pipeline.pin (pcfgs (F := F)) adm) (EP (F := F)) p c : sProp 𝕄))) := by
  unfold Gd; simp only [bigSep_sep']

theorem Px_all : ((bigSep Finset.univ fun thr : Thread nD τ => bigSep Finset.univ fun q : Fin 1 => (P (F := F) (U := UU) (X m) (SRC m)).x q thr) : sProp 𝕄) = iprop(emp) := by
  have e (I : Type) (s : Finset I) : (bigSep s fun _ => iprop(emp)) = (iprop(emp) : sProp 𝕄) := bigSep_emp_const s
  simp only [P_x, e]

/-- The launch element gives the handshakes' rounds, every core its two pipelines' ghost state, and the kernels' proofs
    nothing (the gather's copies are counted, not scheduled). -/
theorem hu₀ : (ownU (u₀ (F := F)) : sProp 𝕄)
    ⊢ |={Set.univ}=> iprop(BI.own (EH (F := F) (initOf (K (F := F)).hsCells (K (F := F)).hsToks)) ∗ (bigSep Finset.univ fun d : Dev nD => Gd (F := F) d)
        ∗ bigSep Finset.univ fun thr : Thread nD τ => bigSep Finset.univ fun q : Fin 1 => (P (F := F) (U := UU) (X m) (SRC m)).x q thr) := by
  unfold u₀
  iintro Hu
  ihave H := (ownU_split (F := F) _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · iapply (Entails.of_eq (Gd_all (F := F)).symm); isplitl [Hg] <;> iassumption
  · iapply (Entails.of_eq (Px_all m).symm); iempintro

/-- What is read off the final state on device `d`: every unscoped buffer of its TensorCore at the contents of the return. -/
def fq (d : Dev nD) (s' : Phys nD τ sig (Elt F)) : Prop := ∀ b ∈ Pipeline.ucRefs τ sig, s'.mem.mem (d, b) = W7 m Sc d b

theorem hfin (d : Dev nD) (s' : Phys nD τ sig (Elt F)) : iprop(FIN m Sc d ∗ SI s') ⊢ (⌜fq m Sc d s'⌝ : sProp 𝕄) := by
  have h := pointsTo_read_all (Ix := HIx 1) (Name := ℕ) (U := UU) (Lvl := ℕ) (Pipeline.ucRefs τ sig) (fun b => ((d, b) : Loc nD τ sig)) (W7 m Sc d) s'
  exact h.trans sep_elim_left

/-- The run's post: on every device, every unscoped buffer of the TensorCore at the contents of the return. -/
def QC : PUnit × MemSt nD τ sig (Elt F) → Prop := fun r => ∀ c : Dev nD, ∀ b ∈ Pipeline.ucRefs τ sig, r.2.mem (c, b) = W7 m Sc c b

/-- Where the source words name rows and the destination words name nodes, every weakly fair execution of the device's
    threads — the TensorCore's program, the sequencers, the thirty-two tiles — terminates, nothing faulting, with every
    unscoped buffer at the contents of the return. -/
theorem run [∀ e, Nonempty (Elt F e)] (hSRC : ∀ d e, (SRC m d e).toNat < 10000) (hok : ∀ c, Sc.ok (V3 m) c) :
    θ_run (Cert.KernelIdeal.defs (F := F)) (Cert.KernelIdeal.threads (F := F)) ⟨m, fun _ => 0, ρ⟩ (QC m Sc) :=
  SparseCore.Cfg.θ_run_sc (K := K (F := F)) (D := D (F := F)) (𝒱 := 𝒱) (EH := EH (F := F)) (P := P (F := F) (U := UU) (X m) (SRC m)) facts v₀
    (fun q hq => match q with | 0 => nomatch hq)
    (fun q _ => match q with | 0 => tile (X m) (SRC m) hSRC)
    (fun q _ => match q with | 0 => SparseCore.Cfg.VecSplit.of_plain (split (X m) (SRC m)))
    m ρ main (fun d => Gd (F := F) d) (FIN m Sc) (u₀ (F := F)) (sep_elim_left.trans (hu₀ m))
    (hmain m ρ Sc (st_intro (X m) (SRC m)) (dn_elim (X m) (SRC m)) hok) (fq m Sc) (hfin m Sc) (QC m Sc) (fun _ h => h)

end Cert.KI.Top

end
-- ==== Proof.HeadFinal.lean ====
import proofs.«202620_g33904471835419_cont_8to1_b_799_54_alg».proof.Proof.HeadData

/-!
# The head region: the output array after the run

Point `t` writes back rows `1000 t … 1000 t + 999` of the `10000 × 1` output array, and the ten points' blocks
tile it. So after the run the array holds, at row `r`, the entry `r % 1000` of the block the body stored at point
`r / 1000`; the input arrays are as the region found them.
-/

set_option maxRecDepth 16384

noncomputable section

namespace Cert.KI.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

-- the TensorCore's buffer contents when the region is entered
variable (V : (c : Dev nD) → (b : Ref sig .tc) → Buf (Elt F) ((c : Thread nD τ).loc b))

/-! ## The output window's blocks -/

/-- Point `t`'s output block is row-block `t` (and the one column-block): decided over the ten points. -/
theorem idx2_11 : ∀ t : Fin cfg2.N, win2_11.index t (0 : Fin 2) = t.val ∧ win2_11.index t (1 : Fin 2) = 0 :=
  (by decide +kernel : ∀ t : Fin grid2.N, win2_11.index t (0 : Fin 2) = t.val ∧ win2_11.index t (1 : Fin 2) = 0)

/-- The point whose block holds a given element of the output array: its row divided by 1000; -/
def ptOf (i : S10000x1.Idx) : Fin cfg2.N :=
  ⟨(i 0).val / 1000, by
    have h : (i 0).val < 10000 := (i 0).isLt
    show (i 0).val / 1000 < grid2.N
    rw [N_2]; omega⟩

/-- and where in that block the element sits: its row modulo 1000, column 0. -/
def rowOf (i : S10000x1.Idx) : S1000x1.Idx := fun a =>
  match a with
  | ⟨0, _⟩ => ⟨(i 0).val % 1000, Nat.mod_lt _ (by decide)⟩
  | ⟨1, _⟩ => ⟨0, Nat.zero_lt_one⟩

/-- What the output array ends holding: at each element, the entry of the block stored at the element's point. -/
def GOut (c : Dev nD) : S10000x1.Idx → Elt F .f32 := fun i => outAt V c (ptOf i) (rowOf i)

/-- An element of the array is in point `t`'s block iff each coordinate is in the block's range on its axis. -/
theorem mem_blk2_11 (t : Fin cfg2.N) (i : S10000x1.Idx) :
    i ∈ ((cfg2.win 11).blk t).view.set ↔ ∀ a : Fin 2, win2_11.index t a * S1000x1.size a ≤ (i a).val ∧ (i a).val < win2_11.index t a * S1000x1.size a + S1000x1.size a := by
  show i ∈ ((View.whole main_v13).slice (win2_11.rect t)).set ↔ _
  rw [View.set_slice_whole, Rect.mem_set_unit]
  exact Iff.rfl

/-- WHAT POINT `t` WRITES BACK is block `t` of `GOut`: element `j` of the block sits at row `1000 t + j 0`, whose
    point is `t` and whose place in the block is `j`. -/
theorem flushed2_11 (c : Dev nD) (B : Set (SemLoc sig × Ix)) (t : Fin cfg2.N) :
    (dat2 (Name := Name) (U := U) (Lvl := Lvl) V c B).flushed 11 t = ((cfg2.win 11).blk t).view.read (Elt F) (GOut V c) := by
  show (cfg2.win 11).cut (grid2.coords t) ((dat2 (Name := Name) (U := U) (Lvl := Lvl) V c B).after 11 t) = _
  rw [after2_11]
  obtain ⟨e0, e1⟩ := idx2_11 t
  funext j
  show outAt V c t j = GOut V c (((cfg2.win 11).blk t).view.emb j)
  have h0 : ((((cfg2.win 11).blk t).view.emb j) 0).val = win2_11.index t (0 : Fin 2) * 1000 + 1 * (j 0).val := rfl
  have hj0 : (j 0).val < 1000 := (j 0).isLt
  have hj1 : (j 1).val < 1 := (j 1).isLt
  have hp : ptOf (((cfg2.win 11).blk t).view.emb j) = t :=
    Fin.ext (by show ((((cfg2.win 11).blk t).view.emb j) 0).val / 1000 = t.val; rw [h0, e0]; omega)
  have hr : rowOf (((cfg2.win 11).blk t).view.emb j) = j := by
    funext a
    match a with
    | ⟨0, _⟩ => exact Fin.ext (by show ((((cfg2.win 11).blk t).view.emb j) 0).val % 1000 = (j 0).val; rw [h0, e0]; omega)
    | ⟨1, _⟩ => exact Fin.ext (by show 0 = (j 1).val; omega)
  unfold GOut; rw [hp, hr]

/-- Every element of the output array is in the block of its point, which writes back. -/
theorem cover2_11 (i : S10000x1.Idx) :
    ∃ t : Fin cfg2.N, (cfg2.win 11).flush t = true ∧ i ∈ ((cfg2.win 11).blk t).view.set := by
  refine ⟨ptOf i, flush2_11 _, ?_⟩
  rw [mem_blk2_11]
  obtain ⟨e0, e1⟩ := idx2_11 (ptOf i)
  have hi0 : (i 0).val < 10000 := (i 0).isLt
  have hi1 : (i 1).val < 1 := (i 1).isLt
  have hp : (ptOf i).val = (i 0).val / 1000 := rfl
  intro a
  match a with
  | ⟨0, _⟩ =>
    show win2_11.index (ptOf i) (0 : Fin 2) * 1000 ≤ (i 0).val ∧ (i 0).val < win2_11.index (ptOf i) (0 : Fin 2) * 1000 + 1000
    rw [e0, hp]; omega
  | ⟨1, _⟩ =>
    show win2_11.index (ptOf i) (1 : Fin 2) * 1 ≤ (i 1).val ∧ (i 1).val < win2_11.index (ptOf i) (1 : Fin 2) * 1 + 1
    rw [e1]; omega

/-! ## The arrays after the run -/

/-- THE OUTPUT ARRAY after the ten points: `GOut`. -/
theorem final2 (c : Dev nD) (B : Set (SemLoc sig × Ix)) : (dat2 (Name := Name) (U := U) (Lvl := Lvl) V c B).arrAt 11 cfg2.N = GOut V c :=
  (dat2 (Name := Name) (U := U) (Lvl := Lvl) V c B).arrAt_eq_of_cover 11 (GOut V c) (fun t _ => flushed2_11 V c B t) cover2_11

/-- An input array is never written: after any number of points it is as the region found it. -/
theorem arrAt2_in (c : Dev nD) (B : Set (SemLoc sig × Ix)) (w : Fin cfg2.W) (hw : (cfg2.win w).isOut = false) (n : Nat) :
    (dat2 (Name := Name) (U := U) (Lvl := Lvl) V c B).arrAt w n = V c (Pipeline.arrRef spec2 w) :=
  ((dat2 (Name := Name) (U := U) (Lvl := Lvl) V c B).arrAt_in w hw n).trans (A_eq2 V c B w)

end Cert.KI.Head

end
-- ==== Proof.TopArgs.lean ====
import proofs.«202620_g33904471835419_cont_8to1_b_799_54_alg».proof.Proof.TopRegions
import proofs.«202620_g33904471835419_cont_8to1_b_799_54_alg».proof.Proof.HeadFinal

/-!
# The arguments come back as launched

Between the launch and the return a TensorCore's buffers pass through four stretches of host operations, the gather's
result, and the two kernel regions' write-backs. No host operation writes an argument, the gather writes elsewhere,
no argument is an array of the scatter region, and an argument that is an input window of the head region is never
written by it. So each argument's buffer holds at the return what it held at the launch; and the same chain stopped
at the head region's entry says the head region is handed the arguments as launched.
-/

noncomputable section

namespace Cert.KI.Top

open Cert.KernelIdeal Cert.KernelIdeal.Gen Cert.KI.Sc
open Idealize.ShloMosaic Idealize.ShloMosaic.TcCoe
open Idealize.ShloMosaic.SparseCore (S V T)
open Idealize.ShloMosaic.SparseCore.Cfg (HIx Pay)
open Idealize.SL Idealize.SL.RA Idealize.SL.Sem
open Idealize.ShloMosaic.StableHlo (after after_of_writes_sub devRef_ne_of_ne)
open Cert.KI.Head (dat2 arrAt2_in)

variable {F : FTy → Type} [FloatOps F]

/-! ## What each stretch of host operations writes -/

/-- An operation whose one written buffer is among a list of references writes inside that list. -/
theorem writes_sub_of_mem {Wl : List (Ref sig .tc)} {op : HloOp τ sig (Elt F)} {y : Ref sig .tc}
    (hw : op.writes = {Proc.devRef .tc y}) (hy : y ∈ Wl) :
    op.writes ⊆ (Wl.map (Proc.devRef (τ := τ) .tc)).toFinset := by
  rw [hw, Finset.singleton_subset_iff, List.mem_toFinset]
  exact List.mem_map_of_mem hy

def ops0_w : List (Ref sig .tc) := [main_v0, main_v1]
def ops1_w : List (Ref sig .tc) := [main_v3, main_v4, main_v5]
def ops2_w : List (Ref sig .tc) := [main_v7, main_v8, main_v9, main_v10, main_v11, main_v12]
def ops3_w : List (Ref sig .tc) := [main_v14, main_cst, main_v15, main_v16]

theorem ops0_hw : (ops0 (F := F)).Forall fun op => op.writes ⊆ (ops0_w.map (Proc.devRef (τ := τ) .tc)).toFinset :=
  ⟨writes_sub_of_mem (y := main_v0) rfl (by decide), writes_sub_of_mem (y := main_v1) rfl (by decide)⟩
theorem ops1_hw : (ops1 (F := F)).Forall fun op => op.writes ⊆ (ops1_w.map (Proc.devRef (τ := τ) .tc)).toFinset :=
  ⟨writes_sub_of_mem (y := main_v3) rfl (by decide), writes_sub_of_mem (y := main_v4) rfl (by decide),
    writes_sub_of_mem (y := main_v5) rfl (by decide)⟩
theorem ops2_hw : (ops2 (F := F)).Forall fun op => op.writes ⊆ (ops2_w.map (Proc.devRef (τ := τ) .tc)).toFinset :=
  ⟨writes_sub_of_mem (y := main_v7) rfl (by decide), writes_sub_of_mem (y := main_v8) rfl (by decide),
    writes_sub_of_mem (y := main_v9) rfl (by decide), writes_sub_of_mem (y := main_v10) rfl (by decide),
    writes_sub_of_mem (y := main_v11) rfl (by decide), writes_sub_of_mem (y := main_v12) rfl (by decide)⟩
theorem ops3_hw : (ops3 (F := F)).Forall fun op => op.writes ⊆ (ops3_w.map (Proc.devRef (τ := τ) .tc)).toFinset :=
  ⟨writes_sub_of_mem (y := main_v14) rfl (by decide), writes_sub_of_mem (y := main_cst) rfl (by decide),
    writes_sub_of_mem (y := main_v15) rfl (by decide), writes_sub_of_mem (y := main_v16) rfl (by decide)⟩

/-! ## A buffer nothing writes, along the chain -/

variable (m : (ℓ : Loc nD τ sig) → Buf (Elt F) ℓ) (Sc : Scat (F := F)) (d : Dev nD)

/-- Up to the head region's entry nothing writes `b`: no host operation of the first three stretches, not the
    gather, and it is no array of the scatter region. -/
def Kept5 (b : Ref sig .tc) : Prop :=
  b ∉ ops0_w ∧ b ≠ main_v2 ∧ b ∉ ops1_w ∧ (∀ w, Pipeline.arrRef spec1 w ≠ b) ∧ b ∉ ops2_w
instance (b : Ref sig .tc) : Decidable (Kept5 b) := by unfold Kept5; infer_instance

/-- Through the head region and the last stretch as well: `b` is no array of the head region, or is an input's; and
    the last stretch does not write it. -/
def Kept7 (b : Ref sig .tc) : Prop :=
  Kept5 b ∧ ((∀ w, Pipeline.arrRef spec2 w ≠ b) ∨ ∃ w, Pipeline.arrRef spec2 w = b ∧ (cfg2.win w).isOut = false) ∧ b ∉ ops3_w
instance (b : Ref sig .tc) : Decidable (Kept7 b) := by unfold Kept7; infer_instance

theorem W3_keep {b : Ref sig .tc} (h0 : b ∉ ops0_w) (h2 : b ≠ main_v2) (h1 : b ∉ ops1_w) :
    W3 m d (Proc.devRef .tc b) = m (d, Proc.devRef .tc b) :=
  (after_of_writes_sub ops1 _ ops1_hw h1).trans
    ((show W2 m d (Proc.devRef .tc b) = W1 m d (Proc.devRef .tc b) from Function.update_of_ne (devRef_ne_of_ne h2) _ _).trans
      (after_of_writes_sub ops0 _ ops0_hw h0))

theorem W4_keep {b : Ref sig .tc} (h0 : b ∉ ops0_w) (h2 : b ≠ main_v2) (h1 : b ∉ ops1_w) (h3 : ∀ w, Pipeline.arrRef spec1 w ≠ b) :
    W4 m Sc d (Proc.devRef .tc b) = m (d, Proc.devRef .tc b) :=
  (W4_of_ne m Sc d b h3).trans (W3_keep m d h0 h2 h1)

/-- A buffer nothing writes up to the head region's entry is there as launched. -/
theorem W5_keep {b : Ref sig .tc} (h : Kept5 b) : W5 m Sc d (Proc.devRef .tc b) = m (d, Proc.devRef .tc b) :=
  (after_of_writes_sub ops2 _ ops2_hw h.2.2.2.2).trans (W4_keep m Sc d h.1 h.2.1 h.2.2.1 h.2.2.2.1)

/-- The head region leaves every buffer but its output array as it found it: an input array is never written. -/
theorem W6_keep {b : Ref sig .tc}
    (h : (∀ w, Pipeline.arrRef spec2 w ≠ b) ∨ ∃ w, Pipeline.arrRef spec2 w = b ∧ (cfg2.win w).isOut = false) :
    W6 m Sc d (Proc.devRef .tc b) = W5 m Sc d (Proc.devRef .tc b) := by
  rcases h with h | ⟨w, rfl, hw⟩
  · exact W6_of_ne m Sc d b h
  · exact (W6_arr m Sc d w).trans (arrAt2_in (V5 m Sc) d _ w hw cfg2.N)

/-- A buffer nothing writes comes back as launched. -/
theorem W7_keep {b : Ref sig .tc} (h : Kept7 b) : W7 m Sc d (Proc.devRef .tc b) = m (d, Proc.devRef .tc b) :=
  (after_of_writes_sub ops3 _ ops3_hw h.2.2).trans ((W6_keep m Sc d h.2.1).trans (W5_keep m Sc d h.1))

/-! ## The ten arguments come back as launched -/

theorem W7_arg0 : W7 m Sc d (Proc.devRef .tc main_arg0) = m (d, Proc.devRef .tc main_arg0) := W7_keep m Sc d (by decide)
theorem W7_arg1 : W7 m Sc d (Proc.devRef .tc main_arg1) = m (d, Proc.devRef .tc main_arg1) := W7_keep m Sc d (by decide)
theorem W7_arg2 : W7 m Sc d (Proc.devRef .tc main_arg2) = m (d, Proc.devRef .tc main_arg2) := W7_keep m Sc d (by decide)
theorem W7_arg3 : W7 m Sc d (Proc.devRef .tc main_arg3) = m (d, Proc.devRef .tc main_arg3) := W7_keep m Sc d (by decide)
theorem W7_arg4 : W7 m Sc d (Proc.devRef .tc main_arg4) = m (d, Proc.devRef .tc main_arg4) := W7_keep m Sc d (by decide)
theorem W7_arg5 : W7 m Sc d (Proc.devRef .tc main_arg5) = m (d, Proc.devRef .tc main_arg5) := W7_keep m Sc d (by decide)
theorem W7_arg6 : W7 m Sc d (Proc.devRef .tc main_arg6) = m (d, Proc.devRef .tc main_arg6) := W7_keep m Sc d (by decide)
theorem W7_arg7 : W7 m Sc d (Proc.devRef .tc main_arg7) = m (d, Proc.devRef .tc main_arg7) := W7_keep m Sc d (by decide)
theorem W7_arg8 : W7 m Sc d (Proc.devRef .tc main_arg8) = m (d, Proc.devRef .tc main_arg8) := W7_keep m Sc d (by decide)
theorem W7_arg9 : W7 m Sc d (Proc.devRef .tc main_arg9) = m (d, Proc.devRef .tc main_arg9) := W7_keep m Sc d (by decide)

/-- and are as launched when the head region is entered. -/
theorem W5_arg0 : W5 m Sc d (Proc.devRef .tc main_arg0) = m (d, Proc.devRef .tc main_arg0) := W5_keep m Sc d (by decide)
theorem W5_arg1 : W5 m Sc d (Proc.devRef .tc main_arg1) = m (d, Proc.devRef .tc main_arg1) := W5_keep m Sc d (by decide)
theorem W5_arg2 : W5 m Sc d (Proc.devRef .tc main_arg2) = m (d, Proc.devRef .tc main_arg2) := W5_keep m Sc d (by decide)
theorem W5_arg3 : W5 m Sc d (Proc.devRef .tc main_arg3) = m (d, Proc.devRef .tc main_arg3) := W5_keep m Sc d (by decide)
theorem W5_arg4 : W5 m Sc d (Proc.devRef .tc main_arg4) = m (d, Proc.devRef .tc main_arg4) := W5_keep m Sc d (by decide)
theorem W5_arg5 : W5 m Sc d (Proc.devRef .tc main_arg5) = m (d, Proc.devRef .tc main_arg5) := W5_keep m Sc d (by decide)
theorem W5_arg6 : W5 m Sc d (Proc.devRef .tc main_arg6) = m (d, Proc.devRef .tc main_arg6) := W5_keep m Sc d (by decide)
theorem W5_arg7 : W5 m Sc d (Proc.devRef .tc main_arg7) = m (d, Proc.devRef .tc main_arg7) := W5_keep m Sc d (by decide)
theorem W5_arg8 : W5 m Sc d (Proc.devRef .tc main_arg8) = m (d, Proc.devRef .tc main_arg8) := W5_keep m Sc d (by decide)
theorem W5_arg9 : W5 m Sc d (Proc.devRef .tc main_arg9) = m (d, Proc.devRef .tc main_arg9) := W5_keep m Sc d (by decide)

/-- The same for any of the ten at once. -/
theorem args_kept : ∀ b ∈ ([main_arg0, main_arg1, main_arg2, main_arg3, main_arg4, main_arg5, main_arg6, main_arg7, main_arg8, main_arg9] : List (Ref sig .tc)), Kept7 b := by decide
theorem W7_arg (b : Ref sig .tc) (hb : b ∈ ([main_arg0, main_arg1, main_arg2, main_arg3, main_arg4, main_arg5, main_arg6, main_arg7, main_arg8, main_arg9] : List (Ref sig .tc))) :
    W7 m Sc d (Proc.devRef .tc b) = m (d, Proc.devRef .tc b) := W7_keep m Sc d (args_kept b hb)
theorem W5_arg (b : Ref sig .tc) (hb : b ∈ ([main_arg0, main_arg1, main_arg2, main_arg3, main_arg4, main_arg5, main_arg6, main_arg7, main_arg8, main_arg9] : List (Ref sig .tc))) :
    W5 m Sc d (Proc.devRef .tc b) = m (d, Proc.devRef .tc b) := W5_keep m Sc d (args_kept b hb).1

end Cert.KI.Top

end
-- ==== Proof.PreRange.lean ====
/-
  The precondition decoded: what `input_domain` being all ones says of the edge index array.

  The printed predicate is a chain of `and`s whose last operand is `jnp.all((0 ≤ edge_index) & (edge_index ≤ 9999))`:
  a reduction by `and` of the elementwise comparisons' conjunction. If the whole is 1 the last operand is 1; a reduction
  by `and` over every axis that is 1 met only 1s; and a signed comparison word that is 1 says its inequality of the words
  compared, read signed. The float conjuncts in front are never evaluated.
-/
import proofs.«202620_g33904471835419_cont_8to1_b_799_54_alg».proof.Pre_input_domain
import proofs.«202620_g33904471835419_cont_8to1_b_799_54_alg».proof.Proof.Gen.Pre_input_domain
import Idealize.ShloMosaic.Lib.ReduceAll

noncomputable section

namespace Cert.PreRange

open Cert.Pre_input_domain Cert.Pre_input_domain.Gen
open Idealize.ShloMosaic

/-- A rank-0 array has one index. -/
instance : Subsingleton S_.Idx := ⟨fun a b => funext fun d => d.elim0⟩

/-- Every word of the edge index array lies in `[0, 9999]`, read signed. -/
theorem edge_range {F : FTy → Type} [FloatOps F]
    (a0 : FVec F S10000x128 .f32) (a1 : IVec S2x320000 32) (a2 : FVec F S128x128 .f32) (a3 : FVec F S128 .f32)
    (a4 : FVec F S128x128 .f32) (a5 : FVec F S128 .f32) (a6 : FVec F S128x128 .f32) (a7 : FVec F S128 .f32)
    (a8 : FVec F S128x1 .f32) (a9 : FVec F S1 .f32)
    (h : Cert.Pre_input_domain.fn (F := F) a0 a1 a2 a3 a4 a5 a6 a7 a8 a9 = fun _ => 1#1) :
    ∀ idx : S2x320000.Idx, 0 ≤ (a1 idx).toInt ∧ (a1 idx).toInt ≤ 9999 := by
  intro idx
  have e := congrFun h (fun d => d.elim0)
  unfold Cert.Pre_input_domain.fn Cert.Pre_input_domain.fn_part1 Cert.Pre_input_domain.fn_part2 at e
  dsimp only at e
  -- the last `and`: its right operand is the reduction over the edge array
  have e49 := (IntOp.andi_eq_one.1 e).2
  have e48 := Host.reduce_andi_all _ _ _ _ _ e49 idx
  obtain ⟨hge, hle⟩ := IntOp.andi_eq_one.1 e48
  have h0 := IntOp.cmpi_sge.1 hge
  have h9 := IntOp.cmpi_sle.1 hle
  simp only [broadcastInDim, constantI] at h0 h9
  exact ⟨by simpa using h0, by simpa using h9⟩

end Cert.PreRange

end
-- ==== Proof.PreTop.lean ====
/-
  The precondition at the two places the program reads the edge list.

  The source words the gather reads (`main_v1`) are row 0 of the edge array flattened, and the destination words the
  scatter reads (`main_v5`) are row 1 flattened and cut into chunks: slices and reshapes, so each word is a word of the
  edge array, which the precondition bounds by `[0, 9999]` (signed; hence below 10000 unsigned).
-/
import proofs.«202620_g33904471835419_cont_8to1_b_799_54_alg».proof.Proof.TopProg
import proofs.«202620_g33904471835419_cont_8to1_b_799_54_alg».proof.Proof.PreRange
import Idealize.ShloMosaic.Lib.ValueLayout
import Idealize.ShloMosaic.Lib.Pipeline.Value

noncomputable section

namespace Cert.KI.Top

open Cert.KernelIdeal Cert.KernelIdeal.Gen Cert.KI.Sc
open Idealize.ShloMosaic Idealize.ShloMosaic.TcCoe
open Idealize.ShloMosaic.SparseCore (S V T)
open Idealize.SL.Sem
open Idealize.ShloMosaic.ValueIdx
open Idealize.ShloMosaic.StableHlo (after after_cons after_nil)

variable {F : FTy → Type} [FloatOps F]

variable (m : (ℓ : Loc nD τ sig) → Buf (Elt F) ℓ)

/-- A word in `[0, 9999]` read signed is below 10000 read unsigned. -/
theorem toNat_lt (w : BitVec 32) (h0 : 0 ≤ w.toInt) (h9 : w.toInt ≤ 9999) : w.toNat < 10000 := by
  rw [BitVec.toInt_eq_toNat_cond] at h0 h9
  split at h0 <;> omega

/-- Every source word is a word of the edge array. -/
theorem SRC_word (d : Dev nD) (e : S320000.Idx) : ∃ k, SRC m d e = m ((d.tc : Thread nD τ).loc main_arg1) k := by
  refine ⟨?_, ?_⟩
  swap
  show after ops0 (W0 m d) (Proc.devRef .tc main_v1) e = _
  after_results
  rfl

/-- The launch's edge array is still there after the first host stretch and the gather. -/
theorem W2_arg1 (d : Dev nD) : W2 m d (Proc.devRef .tc main_arg1) = m ((d.tc : Thread nD τ).loc main_arg1) := by
  unfold W2
  rw [Function.update_of_ne (by decide)]
  show after ops0 (W0 m d) (Proc.devRef .tc main_arg1) = _
  after_results

/-- Every destination word is a word of the edge array. -/
theorem DST_word (d : Dev nD) (i : S2500x1x128.Idx) : ∃ k, W3 m d (Proc.devRef .tc main_v5) i = m ((d.tc : Thread nD τ).loc main_arg1) k := by
  refine ⟨?_, ?_⟩
  swap
  show after ops1 (W2 m d) (Proc.devRef .tc main_v5) i = _
  after_results
  rw [W2_arg1]
  rfl

/-! ## The two readings, index by index -/

/-- Source word `e` is entry `(0, e)` of the edge array. -/
theorem SRC_read (d : Dev nD) (e : Fin 320000) :
    SRC m d (ix1 e) = m ((d.tc : Thread nD τ).loc main_arg1) (ix2 (0 : Fin 2) e) := by
  show after ops0 (W0 m d) (Proc.devRef .tc main_v1) (ix1 e) = _
  after_results
  show shapeCast S320000 (extractStridedSlice S1x320000 ![0, 0] (m ((d.tc : Thread nD τ).loc main_arg1)) slices_S2x320000_S1x320000_0_0)
    shapeCasts_S1x320000_S320000 (ix1 e) = _
  rw [shapeCast_1a_a_apply]
  exact extractStridedSlice_apply _ _ _ _ _ (fun a => by
    match a with
    | ⟨0, _⟩ => rfl
    | ⟨1, _⟩ => exact (Nat.zero_add _).symm)

/-- Word `j` of chunk `t` is edge `128 t + j`. -/
theorem edge_lt (t : Fin 2500) (j : Fin 128) : 128 * t.val + j.val < 320000 := by
  have := t.isLt; have := j.isLt; omega

/-- Destination word `j` of chunk `t` is entry `(1, 128 t + j)` of the edge array. -/
theorem DST_read (d : Dev nD) (t : Fin 2500) (j : Fin 128) :
    W3 m d (Proc.devRef .tc main_v5) (ix3 t (0 : Fin 1) j)
      = m ((d.tc : Thread nD τ).loc main_arg1) (ix2 (1 : Fin 2) ⟨128 * t.val + j.val, edge_lt t j⟩) := by
  show after ops1 (W2 m d) (Proc.devRef .tc main_v5) (ix3 t (0 : Fin 1) j) = _
  after_results
  rw [W2_arg1]
  show shapeCast S2500x1x128 (shapeCast S320000 (extractStridedSlice S1x320000 ![1, 0] (m ((d.tc : Thread nD τ).loc main_arg1)) slices_S2x320000_S1x320000_1_0)
    shapeCasts_S1x320000_S320000) shapeCasts_S320000_S2500x1x128 (ix3 t (0 : Fin 1) j) = _
  rw [shapeCast_apply _ _ _ (ix1 (⟨128 * t.val + j.val, edge_lt t j⟩ : Fin 320000)) (by
    rw [Shape.rowMajor_val_one, Shape.rowMajor_val_three]
    show 128 * t.val + j.val = (t.val * 1 + 0) * 128 + j.val
    omega)]
  rw [shapeCast_1a_a_apply]
  exact extractStridedSlice_apply _ _ _ _ _ (fun a => by
    match a with
    | ⟨0, _⟩ => rfl
    | ⟨1, _⟩ => exact (Nat.zero_add _).symm)

/-! ## The ranges -/

/-- The gather's offsets name rows of the table, from the edge array's range. -/
theorem hSRC_of_range (d : Dev nD)
    (hei : ∀ j, 0 ≤ (m ((d.tc : Thread nD τ).loc main_arg1) j).toInt ∧ (m ((d.tc : Thread nD τ).loc main_arg1) j).toInt ≤ 9999) :
    ∀ e, (SRC m d e).toNat < 10000 := by
  intro e
  obtain ⟨k, hk⟩ := SRC_word m d e
  rw [hk]; exact toNat_lt _ (hei k).1 (hei k).2

/-- The scatter's destinations name nodes, from the edge array's range. -/
theorem hDST_of_range (d : Dev nD)
    (hei : ∀ j, 0 ≤ (m ((d.tc : Thread nD τ).loc main_arg1) j).toInt ∧ (m ((d.tc : Thread nD τ).loc main_arg1) j).toInt ≤ 9999) :
    ∀ i, 0 ≤ (W3 m d (Proc.devRef .tc main_v5) i).toInt ∧ (W3 m d (Proc.devRef .tc main_v5) i).toInt ≤ 9999 := by
  intro i
  obtain ⟨k, hk⟩ := DST_word m d i
  rw [hk]; exact hei k

/-- The precondition on device `d`, as the claim spells it. -/
abbrev PreAt (d : Dev nD) : Prop :=
  Cert.Pre_input_domain.fn (F := F) (m ((d.tc : Thread nD τ).loc main_arg0)) (m ((d.tc : Thread nD τ).loc main_arg1)) (m ((d.tc : Thread nD τ).loc main_arg2))
    (m ((d.tc : Thread nD τ).loc main_arg3)) (m ((d.tc : Thread nD τ).loc main_arg4)) (m ((d.tc : Thread nD τ).loc main_arg5)) (m ((d.tc : Thread nD τ).loc main_arg6))
    (m ((d.tc : Thread nD τ).loc main_arg7)) (m ((d.tc : Thread nD τ).loc main_arg8)) (m ((d.tc : Thread nD τ).loc main_arg9)) = fun _ => 1#1

/-- The gather's offsets name rows of the table. -/
theorem hSRC_of (d : Dev nD) (h : PreAt m d) : ∀ e, (SRC m d e).toNat < 10000 := by
  intro e
  obtain ⟨k, hk⟩ := SRC_word m d e
  have hr := Cert.PreRange.edge_range _ _ _ _ _ _ _ _ _ _ h k
  rw [hk]; exact toNat_lt _ hr.1 hr.2

/-- The scatter's destinations name nodes. -/
theorem hDST_of (d : Dev nD) (h : PreAt m d) :
    ∀ i, 0 ≤ (W3 m d (Proc.devRef .tc main_v5) i).toInt ∧ (W3 m d (Proc.devRef .tc main_v5) i).toInt ≤ 9999 := by
  intro i
  obtain ⟨k, hk⟩ := DST_word m d i
  rw [hk]; exact Cert.PreRange.edge_range _ _ _ _ _ _ _ _ _ _ h k

end Cert.KI.Top

end
-- ==== Proof.TopClaims.lean ====
/-
  The two statements the certificate's conjuncts are read off: under the precondition, every weakly fair execution of
  the device's threads terminates, nothing faulting, with the ten argument arrays as launched (at any float
  instance); and with the result array at the contents the program's valuations name.
-/
import proofs.«202620_g33904471835419_cont_8to1_b_799_54_alg».proof.Proof.TopRun
import proofs.«202620_g33904471835419_cont_8to1_b_799_54_alg».proof.Proof.TopArgs
import proofs.«202620_g33904471835419_cont_8to1_b_799_54_alg».proof.Proof.PreTop

noncomputable section

namespace Cert.KI.Top

open Cert.KernelIdeal Cert.KernelIdeal.Gen Cert.KI.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 1) (Elt F) ℕ UU ℕ

variable (m : (ℓ : Loc nD τ sig) → Buf (Elt F) ℓ) (ρ : Dev nD → PrngReg)

variable (Sc : Scat (F := F))

/-- An unscoped TensorCore buffer is among those the run's post names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the run, with the arguments read off the buffers at the return (no host operation, no region and no
    SparseCore task writes one). -/
theorem frame_of [∀ e, Nonempty (Elt F e)] (hpre : ∀ c, PreAt m c) (hok : ∀ c, Sc.ok (V3 m) c) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c =>
    ⟨(h c _ (mem_uc main_arg0 (by decide))).trans (W7_arg0 m Sc c),
     (h c _ (mem_uc main_arg1 (by decide))).trans (W7_arg1 m Sc c),
     (h c _ (mem_uc main_arg2 (by decide))).trans (W7_arg2 m Sc c),
     (h c _ (mem_uc main_arg3 (by decide))).trans (W7_arg3 m Sc c),
     (h c _ (mem_uc main_arg4 (by decide))).trans (W7_arg4 m Sc c),
     (h c _ (mem_uc main_arg5 (by decide))).trans (W7_arg5 m Sc c),
     (h c _ (mem_uc main_arg6 (by decide))).trans (W7_arg6 m Sc c),
     (h c _ (mem_uc main_arg7 (by decide))).trans (W7_arg7 m Sc c),
     (h c _ (mem_uc main_arg8 (by decide))).trans (W7_arg8 m Sc c),
     (h c _ (mem_uc main_arg9 (by decide))).trans (W7_arg9 m Sc c)⟩)
    (run m ρ Sc (fun d => hSRC_of m d (hpre d)) hok)

/-- The same run with the result array named. -/
theorem value_run [∀ e, Nonempty (Elt F e)] (hpre : ∀ c, PreAt m c) (hok : ∀ c, Sc.ok (V3 m) c) :
    θ_run (Cert.KernelIdeal.defs (F := F)) (Cert.KernelIdeal.threads (F := F)) ⟨m, fun _ => 0, ρ⟩ (fun r => ∀ c : Dev nD,
      r.2.mem ((c.tc : Thread nD τ).loc main_v16) = W7 m Sc c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c =>
    ⟨h c _ (mem_uc main_v16 (by decide)),
     (h c _ (mem_uc main_arg0 (by decide))).trans (W7_arg0 m Sc c),
     (h c _ (mem_uc main_arg1 (by decide))).trans (W7_arg1 m Sc c),
     (h c _ (mem_uc main_arg2 (by decide))).trans (W7_arg2 m Sc c),
     (h c _ (mem_uc main_arg3 (by decide))).trans (W7_arg3 m Sc c),
     (h c _ (mem_uc main_arg4 (by decide))).trans (W7_arg4 m Sc c),
     (h c _ (mem_uc main_arg5 (by decide))).trans (W7_arg5 m Sc c),
     (h c _ (mem_uc main_arg6 (by decide))).trans (W7_arg6 m Sc c),
     (h c _ (mem_uc main_arg7 (by decide))).trans (W7_arg7 m Sc c),
     (h c _ (mem_uc main_arg8 (by decide))).trans (W7_arg8 m Sc c),
     (h c _ (mem_uc main_arg9 (by decide))).trans (W7_arg9 m Sc c)⟩)
    (run m ρ Sc (fun d => hSRC_of m d (hpre d)) hok)

end Cert.KI.Top

end
-- ==== Proof.ScCommonK.lean ====
/-
  The SparseCore call of this program as ONE operation: what its parts share.

  The call gathers rows: row `e` of the result is row `src[e]` of the table, for the 320000 entries of the index list.
  The rows are dealt to 32 workers (2 SparseCores of 16 vector subcores) in chunks of 128 consecutive rows: chunk `ch`
  (rows `128 ch … 128 ch + 127`, `ch < 2500`) belongs to worker `ch % 32`; worker `w` therefore owns the chunks
  `32 t + w` for `t < 78` and, when `w < 4`, chunk `2496 + w` (`= 32 · 78 + w`).

  Here: the program as the launch theorem sees it (`K`, `D`, the variants, `facts`); the read shares of the table and
  of the list (one per worker, cut off the full share, the remainder kept aside); the element sets of the result (per
  worker, per SparseCore, per chunk); the gathered contents (`gathered`); and what the handshakes carry (`P`).
  The ghost state is any algebra `U` with a copy of the transfers' counters in it.
-/
import proofs.«202620_g33904471835419_cont_8to1_b_799_54_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202620_g33904471835419_cont_8to1_b_799_54_alg».proof.Proof.Gen.Kernel

noncomputable section

namespace Cert.K.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The kernels' label signature, lifted through the two TensorCore pipelines. -/
abbrev ΛP : Labels := Pipeline.Sig Λ₀ (Fin 2) fun p => (pcfgs (F := F) p).Adm

/-- The one SparseCore call. -/
abbrev K : SparseCore.Cfg τ sig (ΛP (F := F)) 1 := sc (F := F)

theorem nCore_zero : (K (F := F)).nCore 0 = 2 := rfl
theorem nSub_zero : (K (F := F)).nSub 0 = 16 := rfl

/-- The kernels' body table, lifted. -/
abbrev D [FloatOps F] : Defs nD τ sig (Elt F) (ΛP (F := F)) := Pipeline.defs pcfgs defs₀

abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: any algebra holding the transfers' counters -/

variable {U : Type} [URA U] [CountersIn U]

local notation "𝕄" => MT nD τ sig (HIx 1) (Elt F) ℕ U ℕ

/-! ## The three arrays -/

/-- The table (`main_arg0`), the index list (`main_v1`), the result (`main_v2`), as locations of device `d`. -/
abbrev xLoc (d : Dev nD) : Loc nD τ sig := (SparseCore.T d).loc main_arg0
abbrev sLoc (d : Dev nD) : Loc nD τ sig := (SparseCore.T d).loc main_v1
abbrev oLoc (d : Dev nD) : Loc nD τ sig := (SparseCore.T d).loc main_v2

/-- The row a word of the list names (every word is below 10000 under the precondition: then it is the word itself). -/
def rowIx (w : BitVec 32) : Fin 10000 := ⟨w.toNat % 10000, Nat.mod_lt _ (by decide)⟩

theorem rowIx_val {w : BitVec 32} (h : w.toNat < 10000) : (rowIx w).val = w.toNat := Nat.mod_eq_of_lt h

/-- The gathered contents: row `e` of the result is row `src[e]` of the table. -/
def gathered (X : S10000x128.Idx → Elt F .f32) (SRC : S320000.Idx → Elt F .i32) : S320000x128.Idx → Elt F .f32 :=
  fun idx => X (fun | 0 => rowIx (SRC (fun | 0 => idx 0)) | 1 => idx 1)

/-! ## Read shares: one per worker -/

/-- SparseCore `c`'s share of an array every worker reads: the `c`-th read token of the full share; -/
def coreShare (c : ℕ) : PosShare TreeShare := Transfers.shareTokN fullShare c
/-- what stays with the TensorCore; -/
def tcShare : PosShare TreeShare := Transfers.shareDrop fullShare 2
/-- worker `(c, s)`'s: the `s`-th read token of its SparseCore's; -/
def tileShare (c s : ℕ) : PosShare TreeShare := Transfers.shareTokN (coreShare c) s
/-- what stays with the sequencer. -/
def seqShare (c : ℕ) : PosShare TreeShare := Transfers.shareDrop (coreShare c) 16

/-! ## The result's elements, by chunk, worker and SparseCore -/

/-- The chunk an element of the result lies in. -/
def chunkOf (idx : S320000x128.Idx) : ℕ := (idx 0).val / 128

/-- Chunk `ch`'s elements; -/
def chunkSet (ch : ℕ) : Finset S320000x128.Idx := Finset.univ.filter fun idx => chunkOf idx = ch
/-- worker `w`'s: the chunks `≡ w` modulo 32; -/
def wkSet (w : ℕ) : Finset S320000x128.Idx := Finset.univ.filter fun idx => chunkOf idx % 32 = w
/-- SparseCore `c`'s: its sixteen workers'. -/
def coreSet (c : ℕ) : Finset S320000x128.Idx := Finset.univ.filter fun idx => chunkOf idx % 32 / 16 = c

theorem mem_chunkSet {ch : ℕ} {idx : S320000x128.Idx} : idx ∈ chunkSet ch ↔ chunkOf idx = ch := by simp [chunkSet]
theorem mem_wkSet {w : ℕ} {idx : S320000x128.Idx} : idx ∈ wkSet w ↔ chunkOf idx % 32 = w := by simp [wkSet]
theorem mem_coreSet {c : ℕ} {idx : S320000x128.Idx} : idx ∈ coreSet c ↔ chunkOf idx % 32 / 16 = c := by simp [coreSet]

/-! ## What the handshakes carry -/

variable (X : (d : Dev nD) → Buf (Elt F) (xLoc d)) (SRC : (d : Dev nD) → Buf (Elt F) (sLoc d))

/-- The gathered contents of the result on device `d`. -/
abbrev GATH (d : Dev nD) : Buf (Elt F) (oLoc d) := gathered (F := F) (X d) (SRC d)

/-- What the TensorCore keeps of the table and the list across the call. -/
def R (d : Dev nD) : sProp 𝕄 := iprop((xLoc d ↦{tcShare} X d) ∗ sLoc d ↦{tcShare} SRC d)

/-- The call hands SparseCore `c` its read shares of the table and the list and its workers' rows of the result (at
    whatever they hold) and takes them back, the rows gathered; each worker likewise. The kernel's transfers are local
    (issued and waited for by one subcore on its own semaphores): its proof consumes nothing of the launch's. -/
def P : (K (F := F)).Pay (nD := nD) (Val := Elt F) (Name := ℕ) (U := U) where
  st := fun _ d c => iprop((xLoc d ↦{coreShare c.val} X d) ∗ (sLoc d ↦{coreShare c.val} SRC d) ∗ ∃ f, oLoc d ↦[coreSet c.val]{fullShare} f)
  dn := fun _ d c => iprop((xLoc d ↦{coreShare c.val} X d) ∗ (sLoc d ↦{coreShare c.val} SRC d) ∗ oLoc d ↦[coreSet c.val]{fullShare} GATH X SRC d)
  go := fun _ d c s => iprop((xLoc d ↦{tileShare c.val s.val} X d) ∗ (sLoc d ↦{tileShare c.val s.val} SRC d) ∗ ∃ f, oLoc d ↦[wkSet (16 * c.val + s.val)]{fullShare} f)
  td := fun _ d c s => iprop((xLoc d ↦{tileShare c.val s.val} X d) ∗ (sLoc d ↦{tileShare c.val s.val} SRC d) ∗ oLoc d ↦[wkSet (16 * c.val + s.val)]{fullShare} GATH X SRC d)
  x := fun _ _ => iprop(emp)

theorem P_st (q : Fin 1) (d : Dev nD) (c : Fin ((K (F := F)).nCore q)) :
    (P (U := U) X SRC).st q d c = iprop((xLoc d ↦{coreShare c.val} X d) ∗ (sLoc d ↦{coreShare c.val} SRC d) ∗ ∃ f, oLoc d ↦[coreSet c.val]{fullShare} f) := rfl
theorem P_dn (q : Fin 1) (d : Dev nD) (c : Fin ((K (F := F)).nCore q)) :
    (P (U := U) X SRC).dn q d c = iprop((xLoc d ↦{coreShare c.val} X d) ∗ (sLoc d ↦{coreShare c.val} SRC d) ∗ oLoc d ↦[coreSet c.val]{fullShare} GATH X SRC d) := rfl
theorem P_go (q : Fin 1) (d : Dev nD) (c : Fin ((K (F := F)).nCore q)) (s : Fin ((K (F := F)).nSub q)) :
    (P (U := U) X SRC).go q d c s = iprop((xLoc d ↦{tileShare c.val s.val} X d) ∗ (sLoc d ↦{tileShare c.val s.val} SRC d) ∗ ∃ f, oLoc d ↦[wkSet (16 * c.val + s.val)]{fullShare} f) := rfl
theorem P_td (q : Fin 1) (d : Dev nD) (c : Fin ((K (F := F)).nCore q)) (s : Fin ((K (F := F)).nSub q)) :
    (P (U := U) X SRC).td q d c s = iprop((xLoc d ↦{tileShare c.val s.val} X d) ∗ (sLoc d ↦{tileShare c.val s.val} SRC d) ∗ oLoc d ↦[wkSet (16 * c.val + s.val)]{fullShare} GATH X SRC d) := rfl
theorem P_x (q : Fin 1) (thr : Thread nD τ) : (P (U := U) X SRC).x q thr = iprop(emp) := rfl
theorem P_ox : (P (U := U) X SRC).ox = fun _ _ => 0 := rfl

instance P_storable : (P (U := U) X SRC).IsStorable where
  st _ _ _ := by rw [P_st]; infer_instance
  dn _ _ _ := by rw [P_dn]; infer_instance
  go _ _ _ _ := by rw [P_go]; infer_instance
  td _ _ _ _ := by rw [P_td]; infer_instance

end Cert.K.Sc

end
-- ==== Proof.TopProgK.lean ====
/-
  The program of a TensorCore in this kernel, cut into its parts: four stretches of host operations (the two rows of
  the edge list laid out; the two sums reshaped to one row per node and the biases to rows of one; the output column
  flattened and the small constant added), the gather of message rows on the SparseCores, and the two kernel regions
  (the scatter of message rows into per-node sums and counts; the head that normalises, applies the linear layers and
  the softplus). The contents of every buffer are tracked as one valuation per boundary: at the launch, after the
  first stretch, after the gather (the message array holds row src(e) of the node features at edge e), after the
  second stretch. The part up to the first region is proved here: host operations run over the set of all unscoped
  buffers; the gather's three buffers are lent to the SparseCores' call and taken back.
-/
import proofs.«202620_g33904471835419_cont_8to1_b_799_54_alg».proof.Defs
import Idealize.ShloMosaic.Lib.SparseCore.Launch
import Idealize.ShloMosaic.Lib.StableHlo.Run
import Idealize.ShloMosaic.Lib.Pipeline.Regions
import Idealize.ShloMosaic.Lib.Pipeline.RegionsLoop
import Idealize.ShloMosaic.Lib.Pipeline.Frame
import Idealize.ShloMosaic.Lib.Pipeline.FrameSuffix
import Idealize.ShloMosaic.Lib.Tactic
import proofs.«202620_g33904471835419_cont_8to1_b_799_54_alg».proof.Proof.Gen.Kernel
import proofs.«202620_g33904471835419_cont_8to1_b_799_54_alg».proof.Proof.Gen.Kernel.Launch
import proofs.«202620_g33904471835419_cont_8to1_b_799_54_alg».proof.Proof.ScCommonK

noncomputable section

namespace Cert.K.Top

open Cert.Kernel Cert.Kernel.Gen Cert.K.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

/-- The host operations before the SparseCore call: the source row of the edge list. -/
abbrev ops0 : List (HloOp τ sig (Elt F)) :=
  [StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
   StableHlo.reshape main_v0 main_v1 rfl shapeCasts_S1x320000_S320000]

/-- Between the gather and the scatter: the destination row, as 2500 chunks of 128 words. -/
abbrev ops1 : List (HloOp τ sig (Elt F)) :=
  [StableHlo.unary main_arg1 main_v3 ((extractStridedSlice S1x320000 ![1, 0] · slices_S2x320000_S1x320000_1_0) : (⟨S2x320000, .i32⟩ : BufTy).Contents (Elt F) → (⟨S1x320000, .i32⟩ : BufTy).Contents (Elt F)),
   StableHlo.reshape main_v3 main_v4 rfl shapeCasts_S1x320000_S320000,
   StableHlo.reshape main_v4 main_v5 rfl shapeCasts_S320000_S2500x1x128]

/-- Between the scatter and the head: the two sums as 10000 rows, the biases as rows of one. -/
abbrev ops2 : List (HloOp τ sig (Elt F)) :=
  [StableHlo.reshape main_v6_0 main_v7 rfl shapeCasts_S1250x8x128_S10000x128,
   StableHlo.reshape main_v6_1 main_v8 rfl shapeCasts_S1250x8x128_S10000x128,
   StableHlo.reshape main_arg3 main_v9 rfl shapeCasts_S128_S1x128,
   StableHlo.reshape main_arg5 main_v10 rfl shapeCasts_S128_S1x128,
   StableHlo.reshape main_arg7 main_v11 rfl shapeCasts_S128_S1x128,
   StableHlo.reshape main_arg9 main_v12 rfl shapeCasts_S1_S1x1]

/-- After the head: the column as a vector, plus the small constant. -/
abbrev ops3 : List (HloOp τ sig (Elt F)) :=
  [StableHlo.reshape main_v13 main_v14 rfl shapeCasts_S10000x1_S10000,
   StableHlo.nullary main_cst (constant S_ .f32 0x1E3CE508#32),
   StableHlo.unary main_cst main_v15 (broadcastInDim S10000 ![] bcast_S_S10000 : (⟨S_, .f32⟩ : BufTy).Contents (Elt F) → (⟨S10000, .f32⟩ : BufTy).Contents (Elt F)),
   StableHlo.binary main_v14 main_v15 main_v16 (addf : (⟨S10000, .f32⟩ : BufTy).Contents (Elt F) → (⟨S10000, .f32⟩ : BufTy).Contents (Elt F) → (⟨S10000, .f32⟩ : BufTy).Contents (Elt F))]

/-- The program of a TensorCore: four stretches of host operations around the gather on the SparseCores and the two kernel regions. -/
theorem main_eq (d : Dev nD) : main (F := F) d =
    (StableHlo.seq ops0 >>= fun _ => sc.run d 0 >>= fun _ => StableHlo.seq ops1 >>= fun _ =>
      Prog.lift (.customCall (SparseCore.inner (Pipeline.entry 0)) ()) >>= fun _ => StableHlo.seq ops2 >>= fun _ =>
      Prog.lift (.customCall (SparseCore.inner (Pipeline.entry 1)) ()) >>= fun _ => StableHlo.seq ops3 >>= fun _ => pure ⟨⟩) := by
  rfl

/-! ## The ghost algebra: the handshakes' rounds, the pipelines' rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The buffers' contents along the program -/

variable (m : (ℓ : Loc nD τ sig) → Buf (Elt F) ℓ) (ρ : Dev nD → PrngReg)

/-- At the launch. -/
abbrev W0 (d : Dev nD) : Valuation τ sig (Elt F) := fun b => m (d, b)
/-- After the first host stretch: the source words as one vector. -/
abbrev W1 (d : Dev nD) : Valuation τ sig (Elt F) := after ops0 (W0 m d)
/-- The node features and the source words, as the gather finds them. -/
abbrev X (d : Dev nD) : Buf (Elt F) (xLoc d) := W1 m d (Proc.devRef .tc main_arg0)
abbrev SRC (d : Dev nD) : Buf (Elt F) (sLoc d) := W1 m d (Proc.devRef .tc main_v1)
/-- After the gather: the message rows. -/
def W2 (d : Dev nD) : Valuation τ sig (Elt F) := Function.update (W1 m d) (Proc.devRef .tc main_v2) (gathered (F := F) (X m d) (SRC m d))
/-- After the second host stretch: the destination words in chunks. -/
abbrev W3 (d : Dev nD) : Valuation τ sig (Elt F) := after ops1 (W2 m d)

/-- The three buffers the gather touches. -/
abbrev T3 : Finset (DevRef τ sig) := {Proc.devRef .tc main_arg0, Proc.devRef .tc main_v1, Proc.devRef .tc main_v2}

theorem T3_sub : (T3 : Finset (DevRef τ sig)) ⊆ Pipeline.ucRefs τ sig := by decide

theorem held_T3 (d : Dev nD) (W : Valuation τ sig (Elt F)) :
    (held (T d) T3 W : sProp 𝕄) = iprop((xLoc d ↦{fullShare} W (Proc.devRef .tc main_arg0)) ∗ (sLoc d ↦{fullShare} W (Proc.devRef .tc main_v1)) ∗ oLoc d ↦{fullShare} W (Proc.devRef .tc main_v2)) := by
  unfold held T3
  rw [SparseCore.bigSep_insert' (by decide), SparseCore.bigSep_insert' (by decide), bigSep_singleton]

theorem ops0_tc : (ops0 : List (HloOp τ sig (Elt F))).Forall fun op => op.bufs ⊆ StableHlo.tcRefs τ sig := by
  simp only [List.Forall, StableHlo.unary_bufs, StableHlo.reshape_bufs, StableHlo.nullary_bufs, StableHlo.binary_bufs, Finset.insert_subset_iff, Finset.singleton_subset_iff]
  repeat' apply And.intro
  all_goals exact StableHlo.devRef_mem_tcRefs _
theorem ops0_sub : ∀ op ∈ (ops0 : List (HloOp τ sig (Elt F))), op.bufs ⊆ Pipeline.ucRefs τ sig :=
  fun op h => Pipeline.sub_ucRefs op ((List.forall_iff_forall_mem.mp ops0_tc) op h)

theorem ops0_fresh : ∀ op ∈ (ops0 : List (HloOp τ sig (Elt F))), op.fresh = ∅ := by
  intro _ h; (repeat (cases h with | head => rfl | tail _ h => ?_)); exact nomatch h

theorem ops1_tc : (ops1 : List (HloOp τ sig (Elt F))).Forall fun op => op.bufs ⊆ StableHlo.tcRefs τ sig := by
  simp only [List.Forall, StableHlo.unary_bufs, StableHlo.reshape_bufs, StableHlo.nullary_bufs, StableHlo.binary_bufs, Finset.insert_subset_iff, Finset.singleton_subset_iff]
  repeat' apply And.intro
  all_goals exact StableHlo.devRef_mem_tcRefs _
theorem ops1_sub : ∀ op ∈ (ops1 : List (HloOp τ sig (Elt F))), op.bufs ⊆ Pipeline.ucRefs τ sig :=
  fun op h => Pipeline.sub_ucRefs op ((List.forall_iff_forall_mem.mp ops1_tc) op h)
theorem ops1_fresh : ∀ op ∈ (ops1 : List (HloOp τ sig (Elt F))), op.fresh = ∅ := by
  intro _ h; (repeat (cases h with | head => rfl | tail _ h => ?_)); exact nomatch h
theorem ops2_tc : (ops2 : List (HloOp τ sig (Elt F))).Forall fun op => op.bufs ⊆ StableHlo.tcRefs τ sig := by
  simp only [List.Forall, StableHlo.unary_bufs, StableHlo.reshape_bufs, StableHlo.nullary_bufs, StableHlo.binary_bufs, Finset.insert_subset_iff, Finset.singleton_subset_iff]
  repeat' apply And.intro
  all_goals exact StableHlo.devRef_mem_tcRefs _
theorem ops2_sub : ∀ op ∈ (ops2 : List (HloOp τ sig (Elt F))), op.bufs ⊆ Pipeline.ucRefs τ sig :=
  fun op h => Pipeline.sub_ucRefs op ((List.forall_iff_forall_mem.mp ops2_tc) op h)
theorem ops2_fresh : ∀ op ∈ (ops2 : List (HloOp τ sig (Elt F))), op.fresh = ∅ := by
  intro _ h; (repeat (cases h with | head => rfl | tail _ h => ?_)); exact nomatch h
theorem ops3_tc : (ops3 : List (HloOp τ sig (Elt F))).Forall fun op => op.bufs ⊆ StableHlo.tcRefs τ sig := by
  simp only [List.Forall, StableHlo.unary_bufs, StableHlo.reshape_bufs, StableHlo.nullary_bufs, StableHlo.binary_bufs, Finset.insert_subset_iff, Finset.singleton_subset_iff]
  repeat' apply And.intro
  all_goals exact StableHlo.devRef_mem_tcRefs _
theorem ops3_sub : ∀ op ∈ (ops3 : List (HloOp τ sig (Elt F))), op.bufs ⊆ Pipeline.ucRefs τ sig :=
  fun op h => Pipeline.sub_ucRefs op ((List.forall_iff_forall_mem.mp ops3_tc) op h)
theorem ops3_fresh : ∀ op ∈ (ops3 : List (HloOp τ sig (Elt F))), op.fresh = ∅ := by
  intro _ h; (repeat (cases h with | head => rfl | tail _ h => ?_)); exact nomatch h

/-! ## The contents after the gather, read buffer by buffer -/

theorem W2_x (d : Dev nD) : W2 m d (Proc.devRef .tc main_arg0) = X m d := Function.update_of_ne (by decide) _ _
theorem W2_s (d : Dev nD) : W2 m d (Proc.devRef .tc main_v1) = SRC m d := Function.update_of_ne (by decide) _ _
theorem W2_o (d : Dev nD) : W2 m d (Proc.devRef .tc main_v2) = gathered (F := F) (X m d) (SRC m d) := Function.update_self _ _ _
theorem W2_rest (d : Dev nD) : ∀ b ∈ Pipeline.ucRefs τ sig \ T3, W2 m d b = W1 m d b := fun b hb =>
  Function.update_of_ne (fun e => (Finset.mem_sdiff.mp hb).2 (by rw [e]; decide)) _ _

theorem held_W2 (d : Dev nD) : (held (T d) (Pipeline.ucRefs τ sig) (W2 m d) : sProp 𝕄)
    = iprop(((xLoc d ↦{fullShare} X m d) ∗ (sLoc d ↦{fullShare} SRC m d) ∗ oLoc d ↦{fullShare} GATH (F := F) (X m) (SRC m) d)
        ∗ held (T d) (Pipeline.ucRefs τ sig \ T3) (W1 m d)) := by
  rw [held_sub_split (T d) T3_sub (W2 m d), held_T3, W2_x, W2_s, W2_o, held_congr (T d) (W2_rest m d)]

/-! ## The program up to the first kernel region -/

section Front

/-- From the launch to the first region's entry: the source words laid out, the gather on the SparseCores (its three
    buffers lent to the call and taken back with the message rows written), the destination words laid out. -/
theorem front
    (st_intro : ∀ d : Dev nD, iprop((xLoc d ↦{fullShare} X m d) ∗ (sLoc d ↦{fullShare} SRC m d) ∗ ∃ f, oLoc d ↦{fullShare} f)
    ⊢ (iprop((bigSep Finset.univ fun c : Fin ((K (F := F)).nCore 0) => (P (F := F) (U := UU) (X m) (SRC m)).st 0 d c) ∗ R (F := F) (U := UU) (X m) (SRC m) d) : sProp 𝕄))
    (dn_elim : ∀ d : Dev nD, iprop((bigSep Finset.univ fun c : Fin ((K (F := F)).nCore 0) => (P (F := F) (U := UU) (X m) (SRC m)).dn 0 d c) ∗ R (F := F) (U := UU) (X m) (SRC m) d)
    ⊢ (iprop((xLoc d ↦{fullShare} X m d) ∗ (sLoc d ↦{fullShare} SRC m d) ∗ oLoc d ↦{fullShare} GATH (F := F) (X m) (SRC m) d) : sProp 𝕄))
    (κ : GSem nD τ sig → ℕ) (d : Dev nD) {β : Type}
    (k : PUnit → Prog (TpuEff nD τ sig (Elt F) (SparseCore.Sig (ΛP (F := F)) 1) .tc) β) (Φ : β → sProp 𝕄) :
    iprop((K (F := F)).ctx EH (P (F := F) (U := UU) (X m) (SRC m)) κ ∗ (K (F := F)).tcSt EH d 0 ∗ boundary (T d) ∗ held (T d) (Pipeline.ucRefs τ sig) (W0 m d)
        ∗ ((iprop((K (F := F)).tcSt EH d 1 ∗ boundary (T d) ∗ held (T d) (Pipeline.ucRefs τ sig) (W3 m d)) : sProp 𝕄)
            -∗ wp frame (wpE ((K (F := F)).defs (D (F := F))) 𝒱 (T d) none) Set.univ (k ⟨⟩) Φ))
      ⊢ wp frame (wpE ((K (F := F)).defs (D (F := F))) 𝒱 (T d) none) Set.univ
          (StableHlo.seq ops0 >>= fun _ => sc.run d 0 >>= fun _ => StableHlo.seq ops1 >>= k) Φ := by
  iintro ⟨#Hctx, Hst, Hb, Hheld, Hk⟩
  iapply (wp_seq 𝒱 none Set.univ d (Pipeline.ucRefs τ sig) _ ops0 ops0_sub ops0_fresh (W0 m d)) $$ [Hb Hheld]
  · isplitl [Hb] <;> iassumption
  iintro ⟨Hb, Hheld⟩
  -- the gather's three buffers out of the held set
  ihave Hh := (Entails.of_eq (held_sub_split (T d) T3_sub (W1 m d))) $$ Hheld
  icases Hh with ⟨H3, Hrest⟩
  ihave H3' := (Entails.of_eq (held_T3 (F := F) d (W1 m d))) $$ H3
  icases H3' with ⟨Hx, Hs, Ho⟩
  ihave Hst3 := (st_intro d) $$ [Hx Hs Ho]
  · isplitl [Hx]; · iexact Hx
    isplitl [Hs]; · iexact Hs
    iexists _; iexact Ho
  icases Hst3 with ⟨Hsts, HR⟩
  rw [wp_bind]
  iapply ((K (F := F)).wp_run (D (F := F)) 𝒱 (EH := EH) (P := P (F := F) (U := UU) (X m) (SRC m)) κ d 0) $$ [Hst Hsts Hb Hrest HR Hk]
  isplitr; · iexact Hctx
  isplitl [Hst]; · iexact Hst
  isplitl [Hsts]; · iexact Hsts
  iintro ⟨Hst, Hdn⟩
  ihave H3 := (dn_elim d) $$ [Hdn HR]
  · isplitl [Hdn] <;> iassumption
  icases H3 with ⟨Hx, Hs, Ho⟩
  ihave Hheld := (Entails.of_eq (held_W2 m d).symm) $$ [Hx Hs Ho Hrest]
  · isplitl [Hx Hs Ho]
    · isplitl [Hx]; · iexact Hx
      isplitl [Hs]; · iexact Hs
      iexact Ho
    · iexact Hrest
  iapply (wp_seq 𝒱 none Set.univ d (Pipeline.ucRefs τ sig) _ ops1 ops1_sub ops1_fresh (W2 m d)) $$ [Hb Hheld]
  · isplitl [Hb] <;> iassumption
  iintro ⟨Hb, Hheld⟩
  iapply Hk
  isplitl [Hst]; · iexact Hst
  isplitl [Hb] <;> iassumption

end Front

end Cert.K.Top

end
-- ==== Proof.HeadDataK.lean ====
import proofs.«202620_g33904471835419_cont_8to1_b_799_54_alg».proof.Proof.Gen.Kernel.Launch
import proofs.«202620_g33904471835419_cont_8to1_b_799_54_alg».proof.Proof.Gen.Kernel.Skeleton
import proofs.«202620_g33904471835419_cont_8to1_b_799_54_alg».proof.Proof.Gen.Kernel.Points
import Idealize.ShloMosaic.Lib.Pipeline.Value
import Idealize.ShloMosaic.Lib.Tactic

/-!
# The head region: its data

The last pallas_call runs over ten grid points. At point `t` it is handed rows `1000 t … 1000 t + 999` of three
`10000 × 128` arrays (the node features, the summed messages, the in-degrees), the four weight matrices and four
biases whole, and it writes rows `1000 t … 1000 t + 999` of a `10000 × 1` array. The rows it writes are one pure
function, `rowsOut`, of the eleven blocks it reads; nothing is carried from one point to the next.

This file names that function, the blocks, and the proof data of the pipeline; the body's triple and the
final array are in the next file.
-/

set_option maxRecDepth 16384

noncomputable section

namespace Cert.K.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

/-! ## The rectangles the body reads and writes through -/

/-- A whole `1000 × 128` block. -/
abbrev rRows : Rect S1000x128 := Rect.unit (s := S1000x128) ![0, 0] S1000x128.size inb_S1000x128_S1000x128_0_0
/-- Column 0 of a `1000 × 128` block: the one column of the degree block the body reads. -/
abbrev rCol0 : Rect S1000x128 := Rect.unit (s := S1000x128) ![0, 0] S1000x1.size inb_S1000x128_S1000x1_0_0
/-- A whole `128 × 128` weight matrix. -/
abbrev rW : Rect S128x128 := Rect.unit (s := S128x128) ![0, 0] S128x128.size inb_S128x128_S128x128_0_0
/-- A whole `1 × 128` bias row. -/
abbrev rB : Rect S1x128 := Rect.unit (s := S1x128) ![0, 0] S1x128.size inb_S1x128_S1x128_0_0
/-- The whole `128 × 1` last weight column. -/
abbrev rW3 : Rect S128x1 := Rect.unit (s := S128x1) ![0, 0] S128x1.size inb_S128x1_S128x1_0_0
/-- The whole `1 × 1` last bias. -/
abbrev rB3 : Rect S1x1 := Rect.unit (s := S1x1) ![0, 0] S1x1.size inb_S1x1_S1x1_0_0
/-- The whole `1000 × 1` output block. -/
abbrev rOut : Rect S1000x1 := Rect.unit (s := S1000x1) ![0, 0] S1000x1.size inb_S1000x1_S1000x1_0_0

/-! ## What the body computes -/

/-- The `1000 × 1` block the body stores, as one pure term of the eleven blocks it loads: the features `x`, the
    summed messages `agg`, the degrees `deg` (only column 0 is read), then the layers' weights and biases in order.
    The term is the store's payload over the loads' values, each load the block read through its rectangle. -/
def rowsOut (x agg deg : Vec F S1000x128 .f32) (Wc : Vec F S128x128 .f32) (bc : Vec F S1x128 .f32)
    (W1 : Vec F S128x128 .f32) (b1 : Vec F S1x128 .f32) (W2 : Vec F S128x128 .f32) (b2 : Vec F S1x128 .f32)
    (W3 : Vec F S128x1 .f32) (b3 : Vec F S1x1 .f32) : Vec F S1000x1 .f32 :=
  k2_pay1
    (k2_pay2 (View.ld agg rRows) (View.ld deg rCol0) (View.ld Wc rW) (View.ld bc rB) (View.ld x rRows)
      (View.ld W1 rW) (View.ld b1 rB) (View.ld W2 rW))
    (k2_pay3 (View.ld b2 rB)) (View.ld W3 rW3) (View.ld b3 rB3)

/-! ## The windows' blocks -/

-- the TensorCore's buffer contents when the region is entered: the parameter everything below is stated at
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The block the body stores at point `t`: `rowsOut` of the eleven input blocks there. -/
def outAt (c : Dev nD) (t : Fin cfg2.N) : Vec F S1000x1 .f32 :=
  rowsOut (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t)

/-! ## The pipeline's proof data -/

/-- The region's invariant on core `c`: the core's scoped buffers that are no staging buffer of this pipeline, at
    some contents each, and its generator register at some state. The body uses neither. (The library's class-A
    invariant says the same at one fixed choice of index, name and level types; this one is stated at any.) -/
def ΦH (c : Dev nD) : sProp 𝕄 :=
  iprop(Pipeline.scopedRest (Ix := Ix) (Name := Name) (U := U) (Lvl := Lvl) (Val := Elt F) spec2 c ∗ ∃ r, prngReg c r)

/-- The proof data of the head pipeline on core `c`: the arrays as the region finds them; after the body at point
    `t` each input's buffer still at its block, the output's at `rowsOut` of the input blocks; the invariant is the
    scoped rest and the generator register, untouched; nothing owed; full shares; the pairs the core's waits have
    recorded stay within `B` throughout (the body waits for nothing). -/
def dat2 (c : Dev nD) (B : Set (SemLoc sig × Ix)) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => outAt V c t
  Φ _ := ΦH c
  q _ := fullShare
  owed _ := 0
  recorded _ := B

/-- The proof data's arrays are the region-entry contents. -/
theorem A_eq2 (c : Dev nD) (B : Set (SemLoc sig × Ix)) (w : Fin cfg2.W) :
    (dat2 (Name := Name) (U := U) (Lvl := Lvl) V c B).A w = V c (Pipeline.arrRef spec2 w) := by
  dsimp only [dat2]

/-- Nothing is owed at any point, and every array is held at the full share. -/
theorem owed2 (c : Dev nD) (B : Set (SemLoc sig × Ix)) (t) : (dat2 (Name := Name) (U := U) (Lvl := Lvl) V c B).owed t = 0 := rfl
theorem share2 (c : Dev nD) (B : Set (SemLoc sig × Ix)) (w : Fin cfg2.W) :
    (dat2 (Name := Name) (U := U) (Lvl := Lvl) V c B).share w = fullShare :=
  (dat2 V c B).share_full (fun _ => rfl) w
theorem recorded2 (c : Dev nD) (B : Set (SemLoc sig × Ix)) (t) :
    (dat2 (Name := Name) (U := U) (Lvl := Lvl) (F := F) V c B).recorded t = B := rfl
theorem Φ2 (c : Dev nD) (B : Set (SemLoc sig × Ix)) (t) :
    (dat2 (Name := Name) (U := U) (Lvl := Lvl) V c B).Φ t = ΦH c := rfl

section After
variable (c : Dev nD) (B : Set (SemLoc sig × Ix)) (t : Fin cfg2.N)
local notation "𝔡" => dat2 (Name := Name) (U := U) (Lvl := Lvl) V c B

/-- What the body leaves, window by window. -/
theorem after2_0 : (𝔡).after 0 t = iblk2 V c 0 t := by dsimp only [dat2]
theorem after2_1 : (𝔡).after 1 t = iblk2 V c 1 t := by dsimp only [dat2]
theorem after2_2 : (𝔡).after 2 t = iblk2 V c 2 t := by dsimp only [dat2]
theorem after2_3 : (𝔡).after 3 t = iblk2 V c 3 t := by dsimp only [dat2]
theorem after2_4 : (𝔡).after 4 t = iblk2 V c 4 t := by dsimp only [dat2]
theorem after2_5 : (𝔡).after 5 t = iblk2 V c 5 t := by dsimp only [dat2]
theorem after2_6 : (𝔡).after 6 t = iblk2 V c 6 t := by dsimp only [dat2]
theorem after2_7 : (𝔡).after 7 t = iblk2 V c 7 t := by dsimp only [dat2]
theorem after2_8 : (𝔡).after 8 t = iblk2 V c 8 t := by dsimp only [dat2]
theorem after2_9 : (𝔡).after 9 t = iblk2 V c 9 t := by dsimp only [dat2]
theorem after2_10 : (𝔡).after 10 t = iblk2 V c 10 t := by dsimp only [dat2]
theorem after2_11 : (𝔡).after 11 t = outAt V c t := by dsimp only [dat2]

end After

/-! ## What the body finds in each input window's buffer -/

/-- An input window of any proof data over `V` whose body leaves the block in place holds its block at every point,
    fetched there or not: an unfetched input's block index has not moved. One lemma per input window (the window
    must be a numeral for its configuration to reduce). -/
theorem before2_of_0 {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_of_1 {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_of_2 {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_of_3 {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_of_4 {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_of_5 {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_of_6 {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_of_7 {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_of_8 {c : Dev nD} (dat : Dat τ (Elt F) Ix Name U Lvl cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_of_9 {c : Dev nD} (dat : Dat τ (Elt F) Ix Name U Lvl cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_of_10 {c : Dev nD} (dat : Dat τ (Elt F) Ix Name U Lvl cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- So for the head's own proof data: each input's current staging buffer holds its block at every point. -/
theorem before2_0 (c : Dev nD) (B : Set (SemLoc sig × Ix)) (t : Fin cfg2.N) (d) :
    (dat2 (Name := Name) (U := U) (Lvl := Lvl) V c B).before 0 t d = iblk2 V c 0 t :=
  before2_of_0 V (dat2 V c B) (A_eq2 V c B 0) (after2_0 V c B) t d
theorem before2_1 (c : Dev nD) (B : Set (SemLoc sig × Ix)) (t : Fin cfg2.N) (d) :
    (dat2 (Name := Name) (U := U) (Lvl := Lvl) V c B).before 1 t d = iblk2 V c 1 t :=
  before2_of_1 V (dat2 V c B) (A_eq2 V c B 1) (after2_1 V c B) t d
theorem before2_2 (c : Dev nD) (B : Set (SemLoc sig × Ix)) (t : Fin cfg2.N) (d) :
    (dat2 (Name := Name) (U := U) (Lvl := Lvl) V c B).before 2 t d = iblk2 V c 2 t :=
  before2_of_2 V (dat2 V c B) (A_eq2 V c B 2) (after2_2 V c B) t d
theorem before2_3 (c : Dev nD) (B : Set (SemLoc sig × Ix)) (t : Fin cfg2.N) (d) :
    (dat2 (Name := Name) (U := U) (Lvl := Lvl) V c B).before 3 t d = iblk2 V c 3 t :=
  before2_of_3 V (dat2 V c B) (A_eq2 V c B 3) (after2_3 V c B) t d
theorem before2_4 (c : Dev nD) (B : Set (SemLoc sig × Ix)) (t : Fin cfg2.N) (d) :
    (dat2 (Name := Name) (U := U) (Lvl := Lvl) V c B).before 4 t d = iblk2 V c 4 t :=
  before2_of_4 V (dat2 V c B) (A_eq2 V c B 4) (after2_4 V c B) t d
theorem before2_5 (c : Dev nD) (B : Set (SemLoc sig × Ix)) (t : Fin cfg2.N) (d) :
    (dat2 (Name := Name) (U := U) (Lvl := Lvl) V c B).before 5 t d = iblk2 V c 5 t :=
  before2_of_5 V (dat2 V c B) (A_eq2 V c B 5) (after2_5 V c B) t d
theorem before2_6 (c : Dev nD) (B : Set (SemLoc sig × Ix)) (t : Fin cfg2.N) (d) :
    (dat2 (Name := Name) (U := U) (Lvl := Lvl) V c B).before 6 t d = iblk2 V c 6 t :=
  before2_of_6 V (dat2 V c B) (A_eq2 V c B 6) (after2_6 V c B) t d
theorem before2_7 (c : Dev nD) (B : Set (SemLoc sig × Ix)) (t : Fin cfg2.N) (d) :
    (dat2 (Name := Name) (U := U) (Lvl := Lvl) V c B).before 7 t d = iblk2 V c 7 t :=
  before2_of_7 V (dat2 V c B) (A_eq2 V c B 7) (after2_7 V c B) t d
theorem before2_8 (c : Dev nD) (B : Set (SemLoc sig × Ix)) (t : Fin cfg2.N) (d) :
    (dat2 (Name := Name) (U := U) (Lvl := Lvl) V c B).before 8 t d = iblk2 V c 8 t :=
  before2_of_8 V (dat2 V c B) (A_eq2 V c B 8) (after2_8 V c B) t d
theorem before2_9 (c : Dev nD) (B : Set (SemLoc sig × Ix)) (t : Fin cfg2.N) (d) :
    (dat2 (Name := Name) (U := U) (Lvl := Lvl) V c B).before 9 t d = iblk2 V c 9 t :=
  before2_of_9 V (dat2 V c B) (A_eq2 V c B 9) (after2_9 V c B) t d
theorem before2_10 (c : Dev nD) (B : Set (SemLoc sig × Ix)) (t : Fin cfg2.N) (d) :
    (dat2 (Name := Name) (U := U) (Lvl := Lvl) V c B).before 10 t d = iblk2 V c 10 t :=
  before2_of_10 V (dat2 V c B) (A_eq2 V c B 10) (after2_10 V c B) t d

end Cert.K.Head

end
-- ==== Proof.HeadBodyK.lean ====
import proofs.«202620_g33904471835419_cont_8to1_b_799_54_alg».proof.Proof.HeadDataK

/-!
# The head region: the body's triple, the obligation, the final array

The body loads its eleven input blocks, computes, and stores one `1000 × 1` block; it waits for nothing and
signals nothing. So its triple is: the eleven input buffers in and out at the same contents, the output buffer from
anything to `rowsOut` of the inputs. The obligation at a grid point is that triple at the point's blocks.
-/

set_option maxRecDepth 16384

noncomputable section

namespace Cert.K.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The zero offsets, however they are spelt. -/
theorem hz2 : (![0, 0] : Fin 2 → Nat) = fun _ => 0 := funext fun a => by fin_cases a <;> rfl

/-! ## The body's triple -/

set_option maxHeartbeats 1000000 in
/-- The body on whole staging memrefs, the inputs' at read contents `x … b3` and the output's at anything, runs to the
    continuation holding the inputs' as they were and the output's at `rowsOut` of the inputs'. -/
theorem sound_kernel2 (𝒱₀ : Variants) (c : Dev nD) (E : Set Name) (i : grid2.Coords)
    (arg1 : Memref sig .tc .vmem S1000x128 .f32) (harg1 : arg1.IsWhole)
    (arg2 : Memref sig .tc .vmem S1000x128 .f32) (harg2 : arg2.IsWhole)
    (arg3 : Memref sig .tc .vmem S1000x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S128x128 .f32) (harg8 : arg8.IsWhole)
    (arg9 : Memref sig .tc .vmem S1x128 .f32) (harg9 : arg9.IsWhole)
    (arg10 : Memref sig .tc .vmem S128x1 .f32) (harg10 : arg10.IsWhole)
    (arg11 : Memref sig .tc .vmem S1x1 .f32) (harg11 : arg11.IsWhole)
    (arg12 : Memref sig .tc .vmem S1000x1 .f32) (harg12 : arg12.IsWhole)
    (x agg deg : Vec F S1000x128 .f32) (Wc : Vec F S128x128 .f32) (bc : Vec F S1x128 .f32)
    (W1 : Vec F S128x128 .f32) (b1 : Vec F S1x128 .f32) (W2 : Vec F S128x128 .f32) (b2 : Vec F S1x128 .f32)
    (W3 : Vec F S128x1 .f32) (b3 : Vec F S1x1 .f32) (K : PUnit → sProp 𝕄) :
    iprop(owns (c : Thread nD τ) arg1 fullShare x
        ∗ owns (c : Thread nD τ) arg2 fullShare agg
        ∗ owns (c : Thread nD τ) arg3 fullShare deg
        ∗ owns (c : Thread nD τ) arg4 fullShare Wc
        ∗ owns (c : Thread nD τ) arg5 fullShare bc
        ∗ owns (c : Thread nD τ) arg6 fullShare W1
        ∗ owns (c : Thread nD τ) arg7 fullShare b1
        ∗ owns (c : Thread nD τ) arg8 fullShare W2
        ∗ owns (c : Thread nD τ) arg9 fullShare b2
        ∗ owns (c : Thread nD τ) arg10 fullShare W3
        ∗ owns (c : Thread nD τ) arg11 fullShare b3
        ∗ (∃ d, owns (c : Thread nD τ) arg12 fullShare d)
        ∗ (iprop(owns (c : Thread nD τ) arg1 fullShare x
        ∗ owns (c : Thread nD τ) arg2 fullShare agg
        ∗ owns (c : Thread nD τ) arg3 fullShare deg
        ∗ owns (c : Thread nD τ) arg4 fullShare Wc
        ∗ owns (c : Thread nD τ) arg5 fullShare bc
        ∗ owns (c : Thread nD τ) arg6 fullShare W1
        ∗ owns (c : Thread nD τ) arg7 fullShare b1
        ∗ owns (c : Thread nD τ) arg8 fullShare W2
        ∗ owns (c : Thread nD τ) arg9 fullShare b2
        ∗ owns (c : Thread nD τ) arg10 fullShare W3
        ∗ owns (c : Thread nD τ) arg11 fullShare b3
        ∗ owns (c : Thread nD τ) arg12 fullShare (rowsOut x agg deg Wc bc W1 b1 W2 b2 W3 b3)) -∗ K ⟨⟩))
      ⊢ wp frame (wpE (defs₀ (F := F)) 𝒱₀ c none) E (cc2__tc_body i arg1 harg1 arg2 harg2 arg3 harg3 arg4 harg4 arg5 harg5 arg6 harg6 arg7 harg7 arg8 harg8 arg9 harg9 arg10 harg10 arg11 harg11 arg12 harg12) K := by
  sl_unfold [cc2__tc_body]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf1; subst hf2; subst hf3; subst hf4; subst hf5; subst hf6; subst hf7; subst hf8; subst hf9; subst hf10; subst hf11
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  refine (View.read_writes_eq_canon _ _ _ (fun y => ⟨_, List.mem_singleton_self _, View.mem_set_unit_zero hz2 inb_S1000x1_S1000x1_0_0 y⟩)).trans ?_
  rw [View.canon_unit_zero hz2]
  rfl

/-! ## The body obligation, at a generic point -/

-- the TensorCore's buffer contents when the region is entered
variable (V : (c : Dev nD) → (b : Ref sig .tc) → Buf (Elt F) ((c : Thread nD τ).loc b))

/-- What the body is called with at point `t`: the invariant, what the core owes, and every window's current
    staging buffer at what it then holds, the windows one by one; -/
def bodyPre2 (c : Dev nD) (B : Set (SemLoc sig × Ix)) (ι : Ix) (t : Fin cfg2.N) : sProp 𝕄 :=
  iprop((dat2 (Name := Name) (U := U) (Lvl := Lvl) V c B).Φ t.castSucc ∗ (dat2 (Name := Name) (U := U) (Lvl := Lvl) V c B).owesAt ι t.castSucc
    ∗ (∃ d, owns (c : Thread nD τ) (st2_0 t) fullShare ((dat2 (Name := Name) (U := U) (Lvl := Lvl) V c B).before 0 t d))
    ∗ (∃ d, owns (c : Thread nD τ) (st2_1 t) fullShare ((dat2 (Name := Name) (U := U) (Lvl := Lvl) V c B).before 1 t d))
    ∗ (∃ d, owns (c : Thread nD τ) (st2_2 t) fullShare ((dat2 (Name := Name) (U := U) (Lvl := Lvl) V c B).before 2 t d))
    ∗ (∃ d, owns (c : Thread nD τ) (st2_3 t) fullShare ((dat2 (Name := Name) (U := U) (Lvl := Lvl) V c B).before 3 t d))
    ∗ (∃ d, owns (c : Thread nD τ) (st2_4 t) fullShare ((dat2 (Name := Name) (U := U) (Lvl := Lvl) V c B).before 4 t d))
    ∗ (∃ d, owns (c : Thread nD τ) (st2_5 t) fullShare ((dat2 (Name := Name) (U := U) (Lvl := Lvl) V c B).before 5 t d))
    ∗ (∃ d, owns (c : Thread nD τ) (st2_6 t) fullShare ((dat2 (Name := Name) (U := U) (Lvl := Lvl) V c B).before 6 t d))
    ∗ (∃ d, owns (c : Thread nD τ) (st2_7 t) fullShare ((dat2 (Name := Name) (U := U) (Lvl := Lvl) V c B).before 7 t d))
    ∗ (∃ d, owns (c : Thread nD τ) (st2_8 t) fullShare ((dat2 (Name := Name) (U := U) (Lvl := Lvl) V c B).before 8 t d))
    ∗ (∃ d, owns (c : Thread nD τ) (st2_9 t) fullShare ((dat2 (Name := Name) (U := U) (Lvl := Lvl) V c B).before 9 t d))
    ∗ (∃ d, owns (c : Thread nD τ) (st2_10 t) fullShare ((dat2 (Name := Name) (U := U) (Lvl := Lvl) V c B).before 10 t d))
    ∗ (∃ d, owns (c : Thread nD τ) (st2_11 t) fullShare ((dat2 (Name := Name) (U := U) (Lvl := Lvl) V c B).before 11 t d)))

/-- and what it returns. -/
def bodyPost2 (c : Dev nD) (B : Set (SemLoc sig × Ix)) (ι : Ix) (t : Fin cfg2.N) : sProp 𝕄 :=
  iprop((dat2 (Name := Name) (U := U) (Lvl := Lvl) V c B).Φ t.succ ∗ (dat2 (Name := Name) (U := U) (Lvl := Lvl) V c B).owesAt ι t.succ
    ∗ owns (c : Thread nD τ) (st2_0 t) fullShare ((dat2 (Name := Name) (U := U) (Lvl := Lvl) V c B).after 0 t)
    ∗ owns (c : Thread nD τ) (st2_1 t) fullShare ((dat2 (Name := Name) (U := U) (Lvl := Lvl) V c B).after 1 t)
    ∗ owns (c : Thread nD τ) (st2_2 t) fullShare ((dat2 (Name := Name) (U := U) (Lvl := Lvl) V c B).after 2 t)
    ∗ owns (c : Thread nD τ) (st2_3 t) fullShare ((dat2 (Name := Name) (U := U) (Lvl := Lvl) V c B).after 3 t)
    ∗ owns (c : Thread nD τ) (st2_4 t) fullShare ((dat2 (Name := Name) (U := U) (Lvl := Lvl) V c B).after 4 t)
    ∗ owns (c : Thread nD τ) (st2_5 t) fullShare ((dat2 (Name := Name) (U := U) (Lvl := Lvl) V c B).after 5 t)
    ∗ owns (c : Thread nD τ) (st2_6 t) fullShare ((dat2 (Name := Name) (U := U) (Lvl := Lvl) V c B).after 6 t)
    ∗ owns (c : Thread nD τ) (st2_7 t) fullShare ((dat2 (Name := Name) (U := U) (Lvl := Lvl) V c B).after 7 t)
    ∗ owns (c : Thread nD τ) (st2_8 t) fullShare ((dat2 (Name := Name) (U := U) (Lvl := Lvl) V c B).after 8 t)
    ∗ owns (c : Thread nD τ) (st2_9 t) fullShare ((dat2 (Name := Name) (U := U) (Lvl := Lvl) V c B).after 9 t)
    ∗ owns (c : Thread nD τ) (st2_10 t) fullShare ((dat2 (Name := Name) (U := U) (Lvl := Lvl) V c B).after 10 t)
    ∗ owns (c : Thread nD τ) (st2_11 t) fullShare ((dat2 (Name := Name) (U := U) (Lvl := Lvl) V c B).after 11 t))

set_option maxHeartbeats 1000000 in
/-- The body at any point: each input's memref holds its block, so the triple applies at the point's blocks; the
    invariant and what the core owes pass through unread. -/
theorem sound_body2 (𝒱₀ : Variants) (ι : Ix) (c : Dev nD) (B : Set (SemLoc sig × Ix)) (t : Fin cfg2.N) :
    bodyPre2 (Name := Name) (U := U) (Lvl := Lvl) V c B ι t
      ⊢ wp frame (wpE (defs₀ (F := F)) 𝒱₀ c none) Set.univ (bodyAt2 t) (fun _ => bodyPost2 (Name := Name) (U := U) (Lvl := Lvl) V c B ι t) := by
  unfold bodyPre2 bodyPost2 bodyAt2
  simp only [before2_0, before2_1, before2_2, before2_3, before2_4, before2_5, before2_6, before2_7, before2_8, before2_9, before2_10]
  rw [show (dat2 (Name := Name) (U := U) (Lvl := Lvl) V c B).Φ t.succ = (dat2 (Name := Name) (U := U) (Lvl := Lvl) V c B).Φ t.castSucc from rfl,
    show (dat2 (Name := Name) (U := U) (Lvl := Lvl) V c B).owesAt ι t.succ = (dat2 (Name := Name) (U := U) (Lvl := Lvl) V c B).owesAt ι t.castSucc from rfl,
    after2_0, after2_1, after2_2, after2_3, after2_4, after2_5, after2_6, after2_7, after2_8, after2_9, after2_10, after2_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 𝒱₀ c Set.univ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point, for any bound `B` on the recorded pairs. -/
theorem body2 (𝒱₀ : Variants) (ι : Ix) (c : Dev nD) (B : Set (SemLoc sig × Ix)) :
    BodyObligation (dat2 (F := F) (Name := Name) (U := U) (Lvl := Lvl) V c B) (defs₀ (F := F)) 𝒱₀ ι Set.univ := fun t => by
  rw [bigSep_W2, bigSep_W2]
  exact sound_body2 V 𝒱₀ ι c B t

/-- The same in the form a region record takes. -/
theorem body2_loose (𝒱₀ : Variants) (ι : Ix) (c : Dev nD) (B : Set (SemLoc sig × Ix)) :
    Pipeline.BodyObligationLoose (dat2 (F := F) (Name := Name) (U := U) (Lvl := Lvl) V c B) (defs₀ (F := F)) 𝒱₀ ι Set.univ :=
  (body2 V 𝒱₀ ι c B).loose

end Cert.K.Head

end
-- ==== Proof.TopRegionsK.lean ====
/-
  The two kernel regions as segments of the TensorCore's program, and the program whole. Each region is entered from
  every unscoped buffer at the contents the stretch before it left; its arrays are lent to the pipeline and come back
  at what the pipeline leaves (an input as entered, an output at the write-backs of its blocks); nothing is owed across
  a region, and the pairs the core has recorded stay at or below the level its handshake state allows. The scatter
  region's proof data enter through an interface: its body obligation holds where the destination words name nodes.
-/
import proofs.«202620_g33904471835419_cont_8to1_b_799_54_alg».proof.Proof.TopProgK
import proofs.«202620_g33904471835419_cont_8to1_b_799_54_alg».proof.Proof.HeadBodyK

noncomputable section

namespace Cert.K.Top

open Cert.Kernel Cert.Kernel.Gen Cert.K.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The two kernel regions -/

open Cert.K.Head (dat2 ΦH A_eq2 owed2 share2 recorded2 Φ2 body2_loose)

/-- A core's buffers read at the TensorCore's references. -/
abbrev TV : Type := (c : Dev nD) → (b : Ref sig .tc) → Buf (Elt F) ((c : Thread nD τ).loc b)

/-- The pairs a TensorCore may have recorded once the gather's call is over: those at or below level 8. Every pair a
    region's loop adds is at the index of no call, level 0. -/
def Bd (d : Dev nD) : Set (SemLoc sig × HIx 1) := {p | (K (F := F)).lev ((T d : Thread nD τ), p.1) p.2 ≤ 8}

/-- No pipeline prefetches a table. -/
abbrev adm : (p : Fin 2) → (pcfgs (F := F) p).Adm := fun p => (cfgs p).toPCfg_adm

/-- What the scatter region's proof supplies: its proof data over the region-entry contents, and the body's obligation
    where the destination words name nodes. -/
structure Scat where
  dat : TV (F := F) → (c : Dev nD) → Set (SemLoc sig × HIx 1) → Pipeline.Dat τ (Elt F) (HIx 1) ℕ UU ℕ cfg1 c
  A_eq : ∀ V c B w, (dat V c B).A w = V c (Pipeline.arrRef spec1 w)
  owed : ∀ V c B t, (dat V c B).owed t = 0
  share : ∀ V c B w, (dat V c B).share w = fullShare
  recorded : ∀ V c B t, (dat V c B).recorded t = B
  inv : ∀ V c B t, (dat V c B).Φ t = (iprop(Pipeline.scopedRest (Ix := HIx 1) (Name := ℕ) (U := UU) (Lvl := ℕ) (Val := Elt F) spec1 c ∗ ∃ r, prngReg c r) : sProp 𝕄)
  ok : TV (F := F) → Dev nD → Prop
  body : ∀ V c B, ok V c → Pipeline.BodyObligationLoose (dat V c B) (defs₀ (F := F)) 𝒱₀ (none : HIx 1) Set.univ

variable (Sc : Scat (F := F))

/-- The first region's entry contents at the TensorCore's references. -/
abbrev V3 : TV (F := F) := fun c b => W3 m c (Proc.devRef .tc b)
/-- After the scatter: the two sums where the region leaves them. -/
def W4 (c : Dev nD) : Valuation τ sig (Elt F) :=
  Pipeline.withArrays spec1 c (W3 m c) fun w => (Sc.dat (V3 m) c (Bd (F := F) c)).arrAt w cfg1.N
/-- After the third host stretch. -/
abbrev W5 (c : Dev nD) : Valuation τ sig (Elt F) := after ops2 (W4 m Sc c)
abbrev V5 : TV (F := F) := fun c b => W5 m Sc c (Proc.devRef .tc b)
/-- After the head: the output column where the region leaves it. -/
def W6 (c : Dev nD) : Valuation τ sig (Elt F) :=
  Pipeline.withArrays spec2 c (W5 m Sc c) fun w => (dat2 (Ix := HIx 1) (Name := ℕ) (U := UU) (Lvl := ℕ) (V5 m Sc) c (Bd (F := F) c)).arrAt w cfg2.N
/-- At the return. -/
abbrev W7 (c : Dev nD) : Valuation τ sig (Elt F) := after ops3 (W6 m Sc c)

/-- The two pipelines' proof data, each at its region's entry contents. -/
def pdats : (p : Fin 2) → (c : Dev nD) → Pipeline.Dat τ (Elt F) (HIx 1) ℕ UU ℕ (Pipeline.pin (pcfgs (F := F)) adm p) c
  | ⟨0, _⟩ => fun c => Sc.dat (V3 m) c (Bd (F := F) c)
  | ⟨1, _⟩ => fun c => dat2 (V5 m Sc) c (Bd (F := F) c)

/-- What rides beside the buffers between the segments: the generator register at some state, and the core's debts —
    none — with its recorded pairs bounded. -/
abbrev Rr (c : Dev nD) : sProp 𝕄 :=
  iprop((∃ r, prngReg c r) ∗ Pipeline.owesWithin c (0 : CellTallies nD τ sig (HIx 1)) (Bd (F := F) c))

/-- A pipeline's loop records its waits at the index of no call: level 0. -/
theorem waitPairs_sub (p : Fin 2) (c : Dev nD) :
    (Pipeline.pin (pcfgs (F := F)) adm p).waitPairs (none : HIx 1) ⊆ Bd (F := F) c := by
  rintro q ⟨w, s, rfl⟩
  show (K (F := F)).lev _ none ≤ 8
  rw [SparseCore.Cfg.lev_none]; omega

theorem bound_sub (p : Fin 2) (c : Dev nD) (t) (hrec : (pdats m Sc p c).recorded t = Bd (F := F) c) :
    (pdats m Sc p c).bound (none : HIx 1) t ⊆ Bd (F := F) c := by
  unfold Pipeline.Dat.bound; rw [hrec]
  exact Set.union_subset (subset_refl _) (waitPairs_sub p c)

theorem sub_bound (p : Fin 2) (c : Dev nD) (t) (hrec : (pdats m Sc p c).recorded t = Bd (F := F) c) :
    Bd (F := F) c ⊆ (pdats m Sc p c).bound (none : HIx 1) t := by
  unfold Pipeline.Dat.bound; rw [hrec]; exact Set.subset_union_left

/-! ### The contents at the regions' exits -/

theorem W4_arr (c : Dev nD) (w : Fin cfg1.W) :
    W4 m Sc c (Proc.devRef .tc (Pipeline.arrRef spec1 w)) = (Sc.dat (V3 m) c (Bd (F := F) c)).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m Sc c (Proc.devRef .tc b) = W3 m c (Proc.devRef .tc b) := by
  unfold W4; exact Pipeline.withArrays_of_ne spec1 c _ _ b hb
abbrev V4 : TV (F := F) := fun c b => W4 m Sc c (Proc.devRef .tc b)
theorem W6_arr (c : Dev nD) (w : Fin cfg2.W) :
    W6 m Sc c (Proc.devRef .tc (Pipeline.arrRef spec2 w)) = (dat2 (Ix := HIx 1) (Name := ℕ) (U := UU) (Lvl := ℕ) (V5 m Sc) c (Bd (F := F) c)).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m Sc c (Proc.devRef .tc b) = W5 m Sc c (Proc.devRef .tc b) := by
  unfold W6; exact Pipeline.withArrays_of_ne spec2 c _ _ b hb
abbrev V6 : TV (F := F) := fun c b => W6 m Sc c (Proc.devRef .tc b)

/-! ### What both pipelines' proof data share -/

theorem pd_owed : ∀ (p : Fin 2) (c : Dev nD) t, (pdats m Sc p c).owed t = 0
  | ⟨0, _⟩, _, t => Sc.owed _ _ _ t
  | ⟨1, _⟩, _, t => owed2 _ _ _ t
theorem pd_rec : ∀ (p : Fin 2) (c : Dev nD) t, (pdats m Sc p c).recorded t = Bd (F := F) c
  | ⟨0, _⟩, _, t => Sc.recorded _ _ _ t
  | ⟨1, _⟩, _, t => recorded2 _ _ _ t
theorem pd_share : ∀ (p : Fin 2) (c : Dev nD) w, (pdats m Sc p c).share w = fullShare
  | ⟨0, _⟩, _, w => Sc.share _ _ _ w
  | ⟨1, _⟩, _, w => share2 _ _ _ w
theorem pd_A1 (c : Dev nD) (w : Fin cfg1.W) : (pdats m Sc 0 c).A w = V3 m c (Pipeline.arrRef spec1 w) := Sc.A_eq _ _ _ w
theorem pd_A2 (c : Dev nD) (w : Fin cfg2.W) : (pdats m Sc 1 c).A w = V5 m Sc c (Pipeline.arrRef spec2 w) := A_eq2 _ _ _ w

theorem owes_in (p : Fin 2) (c : Dev nD) :
    (Pipeline.owesWithin c (0 : CellTallies nD τ sig (HIx 1)) (Bd (F := F) c) : sProp 𝕄) ⊢ (pdats m Sc p c).owesAt (none : HIx 1) 0 := by
  show _ ⊢ Pipeline.owesWithin c ((pdats m Sc p c).owed 0) ((pdats m Sc p c).bound (none : HIx 1) 0)
  rw [pd_owed]; exact Pipeline.owesWithin_mono c 0 (sub_bound m Sc p c 0 (pd_rec m Sc p c 0))
theorem owes_out (p : Fin 2) (c : Dev nD) :
    ((pdats m Sc p c).owesAt (none : HIx 1) (Fin.last _) : sProp 𝕄) ⊢ Pipeline.owesWithin c (0 : CellTallies nD τ sig (HIx 1)) (Bd (F := F) c) := by
  show Pipeline.owesWithin c ((pdats m Sc p c).owed (Fin.last _)) ((pdats m Sc p c).bound (none : HIx 1) (Fin.last _)) ⊢ _
  rw [pd_owed]; exact Pipeline.owesWithin_mono c 0 (bound_sub m Sc p c _ (pd_rec m Sc p c _))

/-! ### The regions as segments -/

set_option backward.isDefEq.respectTransparency.types false in
/-- Pipeline 0 as a segment of the program: entered from every unscoped buffer at the contents the stretch before it
    left, its arrays lent to the pipeline and taken back at what it leaves; the generator register into the invariant
    and out; nothing owed, the recorded pairs still bounded; no semaphore of the kernel's own. -/
def reg1 (hok : ∀ c, Sc.ok (V3 m) c) : Pipeline.RegionSeg (pcfgs (F := F)) adm (pdats m Sc) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := Sc.body (V3 m) c (Bd (F := F) c) (hok c)
  hwaits := Pipeline.hwaits_of_owed_zero _ _ _ _ _ _ 0 fun c t => pd_owed m Sc 0 c t
  pre c := iprop(held (c : Thread nD τ) (Pipeline.ucRefs τ sig) (W3 m c) ∗ Rr (F := F) c)
  post c := iprop(held (c : Thread nD τ) (Pipeline.ucRefs τ sig) (W4 m Sc c) ∗ Rr (F := F) c)
  X c := iprop(∃ r, prngReg c r)
  Y c := iprop(∃ r, prngReg c r)
  Z c := Pipeline.unscopedRest (Ix := HIx 1) (Name := ℕ) (U := UU) (Lvl := ℕ) spec1 c (V3 m c)
  hentry c := by
    rw [Pipeline.ownSems0_none]
    have hsplit := Pipeline.arrays_of_unscopedBufs (p := 0) (pcfgs (F := F)) adm (pdats m Sc) launch1.win launch1.arr_whole c
      (pd_share m Sc 0 c) (V3 m c) (pd_A1 m Sc c)
    rw [Pipeline.unscopedBufs_held] at hsplit
    iintro ⟨⟨Hheld, Hp, HO⟩, -, -⟩
    ihave H := hsplit $$ Hheld
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in m Sc 0 c); iexact HO
    isplitl [Hp]; · iexact Hp
    iexact Hrest
  hin c := by
    rw [show (pdats m Sc 0 c).Φ 0 = _ from Sc.inv _ _ _ 0]
    iintro ⟨Hp, -, Hr⟩
    isplitl [Hr]; · iexact Hr
    iexact Hp
  hout c := by
    rw [Pipeline.ownSems0_none, show (pdats m Sc 0 c).Φ (Fin.last _) = _ from Sc.inv _ _ _ _]
    iintro ⟨Hr, Hp⟩
    isplitl [Hp]; · iexact Hp
    isplitr; · iempintro
    iexact Hr
  hexit c := by
    have hjoin := Pipeline.unscopedBufs_of_arrays (p := 0) (pcfgs (F := F)) adm launch1.win launch1.arr_whole c (pdats m Sc) (pd_share m Sc 0 c)
      (V3 m c) (V4 m Sc c) ((pdats m Sc 0 c).arrAt · cfg1.N) (fun w => (W4_arr m Sc c w).symm)
      (fun b hb => W4_of_ne m Sc c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m Sc 0 c); iexact HO

set_option backward.isDefEq.respectTransparency.types false in
/-- Pipeline 1 as a segment of the program: entered from every unscoped buffer at the contents the stretch before it
    left, its arrays lent to the pipeline and taken back at what it leaves; the generator register into the invariant
    and out; nothing owed, the recorded pairs still bounded; no semaphore of the kernel's own. -/
def reg2 : Pipeline.RegionSeg (pcfgs (F := F)) adm (pdats m Sc) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body2_loose (V5 m Sc) 𝒱₀ (none : HIx 1) c (Bd (F := F) c)
  hwaits := Pipeline.hwaits_of_owed_zero _ _ _ _ _ _ 1 fun c t => pd_owed m Sc 1 c t
  pre c := iprop(held (c : Thread nD τ) (Pipeline.ucRefs τ sig) (W5 m Sc c) ∗ Rr (F := F) c)
  post c := iprop(held (c : Thread nD τ) (Pipeline.ucRefs τ sig) (W6 m Sc c) ∗ Rr (F := F) c)
  X c := iprop(∃ r, prngReg c r)
  Y c := iprop(∃ r, prngReg c r)
  Z c := Pipeline.unscopedRest (Ix := HIx 1) (Name := ℕ) (U := UU) (Lvl := ℕ) spec2 c (V5 m Sc c)
  hentry c := by
    rw [Pipeline.ownSems0_none]
    have hsplit := Pipeline.arrays_of_unscopedBufs (p := 1) (pcfgs (F := F)) adm (pdats m Sc) launch2.win launch2.arr_whole c
      (pd_share m Sc 1 c) (V5 m Sc c) (pd_A2 m Sc c)
    rw [Pipeline.unscopedBufs_held] at hsplit
    iintro ⟨⟨Hheld, Hp, HO⟩, -, -⟩
    ihave H := hsplit $$ Hheld
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in m Sc 1 c); iexact HO
    isplitl [Hp]; · iexact Hp
    iexact Hrest
  hin c := by
    rw [show (pdats m Sc 1 c).Φ 0 = _ from Φ2 _ _ _ 0]; unfold ΦH
    iintro ⟨Hp, -, Hr⟩
    isplitl [Hr]; · iexact Hr
    iexact Hp
  hout c := by
    rw [Pipeline.ownSems0_none, show (pdats m Sc 1 c).Φ (Fin.last _) = _ from Φ2 _ _ _ _]; unfold ΦH
    iintro ⟨Hr, Hp⟩
    isplitl [Hp]; · iexact Hp
    isplitr; · iempintro
    iexact Hr
  hexit c := by
    have hjoin := Pipeline.unscopedBufs_of_arrays (p := 1) (pcfgs (F := F)) adm launch2.win launch2.arr_whole c (pdats m Sc) (pd_share m Sc 1 c)
      (V5 m Sc c) (V6 m Sc c) ((pdats m Sc 1 c).arrAt · cfg2.N) (fun w => (W6_arr m Sc c w).symm)
      (fun b hb => W6_of_ne m Sc c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m Sc 1 c); iexact HO

/-! ## A region entered from the program of the launch -/

/-- The call of a region's entry, where the launch runs it, is the call one level down, lifted. -/
theorem lift_call (p : Fin 2) :
    (Prog.lift (.customCall (SparseCore.inner (Pipeline.entry p)) ()) : Prog (TpuEff nD τ sig (Elt F) (SparseCore.Sig (ΛP (F := F)) 1) .tc) PUnit)
      = SparseCore.liftProg (Prog.op (TpuEff.customCall (Pipeline.entry p) ()) fun _ => Prog.ret PUnit.unit) := rfl

set_option backward.isDefEq.respectTransparency.types false in
/-- A kernel region of the TensorCore's program, entered where the launch runs it beside the SparseCores' threads: the
    region's own rule, one level down, lifted. -/
theorem region_step {p : Fin 2}
    (R : Pipeline.RegionSeg (pcfgs (F := F)) adm (pdats m Sc) (none : HIx 1) defs₀ 𝒱₀ (K (F := F)).L (K (F := F)).lev p)
    (d : Dev nD) (A B : sProp 𝕄) (hpre : R.pre d = A) (hpost : R.post d = B) (Φ : PUnit → sProp 𝕄) :
    iprop(boundary (T d) ∗ A ∗ levAts (K (F := F)).L (K (F := F)).lev
        ∗ Pipeline.cellsGhost (Pipeline.pin (pcfgs (F := F)) adm) EP p d ∗ Pipeline.toksInit (Pipeline.pin (pcfgs (F := F)) adm) EP p d
        ∗ (iprop(boundary (T d) ∗ B) -∗ Φ ⟨⟩))
      ⊢ wp frame (wpE ((K (F := F)).defs (D (F := F))) 𝒱 (T d) none) Set.univ
          (Prog.lift (.customCall (SparseCore.inner (Pipeline.entry p)) ())) Φ := by
  subst hpre; subst hpost
  rw [lift_call]
  refine BI.Entails.trans (Q := wp frame (wpE (D (F := F)) 𝒱 (T d) none) Set.univ
      (Prog.op (TpuEff.customCall (Pipeline.entry p) ()) fun _ => Prog.ret PUnit.unit) Φ) ?_
    ((K (F := F)).wp_liftProg (D (F := F)) 𝒱 (T d) Set.univ none
      (Prog.op (TpuEff.customCall (Pipeline.entry p) ()) fun _ => Prog.ret PUnit.unit) Φ)
  show iprop(boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d
        ∗ (iprop(boundary (T d) ∗ R.post d) -∗ Φ ⟨⟩))
      ⊢ wp frame (wpE (D (F := F)) 𝒱 (T d) none) Set.univ
          (Prog.op (TpuEff.customCall (Pipeline.entry p) ()) fun _ => Prog.ret PUnit.unit) Φ
  iintro ⟨Hb, Hpre, Hlev, Hg, Ht, Hk⟩
  iapply (Pipeline.RegionSeg.wp (pcfgs (F := F)) adm (pdats m Sc) (none : HIx 1) cellOf_inj EP defs₀ 𝒱₀ _ _ R d none
    (fun u hu => by cases hu) (fun _ => .ret ⟨⟩) Φ) $$ [Hb Hpre Hlev Hg Ht Hk]
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

/-- After the one call the TensorCore owes the SparseCores nothing more: its debts and recorded pairs, taken out of its
    handshake state and put back. -/
theorem tcSt_split (d : Dev nD) :
    ((K (F := F)).tcSt (EH (F := F)) d 1 : sProp 𝕄)
      ⊢ iprop(Pipeline.owesWithin d (0 : CellTallies nD τ sig (HIx 1)) (Bd (F := F) d)
          ∗ (Pipeline.owesWithin d (0 : CellTallies nD τ sig (HIx 1)) (Bd (F := F) d) -∗ (K (F := F)).tcSt (EH (F := F)) d 1)) := by
  unfold SparseCore.Cfg.tcSt
  rw [SparseCore.Cfg.Otc_end (K (F := F)) d (le_refl 1)]
  iintro ⟨⟨%W, %hW, HO⟩, Hrest⟩
  isplitl [HO]
  · iexists W; isplitr
    · ipureintro; exact fun p hp => by have h := hW p hp; rw [Nat.mul_one] at h; exact h
    · iexact HO
  iintro ⟨%W', %hW', HO'⟩
  isplitl [HO']
  · iexists W'; isplitr
    · ipureintro; exact fun p hp => by rw [Nat.mul_one]; exact hW' hp
    · iexact HO'
  iexact Hrest

/-! ## The TensorCore's program, whole -/

/-- The two pipelines' ghost state on a core, as the launch deals it. -/
abbrev Gd (d : Dev nD) : sProp 𝕄 := bigSep Finset.univ fun p : Fin 2 =>
  iprop(Pipeline.cellsGhost (Pipeline.pin (pcfgs (F := F)) adm) (EP (F := F)) p d ∗ Pipeline.toksInit (Pipeline.pin (pcfgs (F := F)) adm) (EP (F := F)) p d)

theorem Gd_eq (d : Dev nD) : (Gd (F := F) d : sProp 𝕄)
    = iprop((Pipeline.cellsGhost (Pipeline.pin (pcfgs (F := F)) adm) (EP (F := F)) 0 d ∗ Pipeline.toksInit (Pipeline.pin (pcfgs (F := F)) adm) (EP (F := F)) 0 d)
        ∗ Pipeline.cellsGhost (Pipeline.pin (pcfgs (F := F)) adm) (EP (F := F)) 1 d ∗ Pipeline.toksInit (Pipeline.pin (pcfgs (F := F)) adm) (EP (F := F)) 1 d) := by
  unfold Gd
  rw [show (Finset.univ : Finset (Fin 2)) = {0, 1} by decide, SparseCore.bigSep_insert' (by decide), bigSep_singleton]

/-- What the program leaves the claim: every unscoped buffer at the contents of the return. -/
abbrev FIN (d : Dev nD) : sProp 𝕄 := held (T d) (Pipeline.ucRefs τ sig) (W7 m Sc d)

/-- The launch memory's unscoped buffers, as the held set at the launch contents. -/
theorem launch_held (d : Dev nD) :
    (unscopedBufs d (fun b => m ((SparseCore.T d).loc b)) : sProp 𝕄) = held (SparseCore.T d) (Pipeline.ucRefs τ sig) (W0 m d) :=
  Pipeline.unscopedBufs_held d (W0 m d)

set_option backward.isDefEq.respectTransparency.types false in
/-- The program of device `d`'s TensorCore: the gather lent to the SparseCores, the scatter and the head as kernel
    regions, host stretches between; every unscoped buffer tracked throughout. -/
theorem hmain
    (st_intro : ∀ d : Dev nD, iprop((xLoc d ↦{fullShare} X m d) ∗ (sLoc d ↦{fullShare} SRC m d) ∗ ∃ f, oLoc d ↦{fullShare} f)
    ⊢ (iprop((bigSep Finset.univ fun c : Fin ((K (F := F)).nCore 0) => (P (F := F) (U := UU) (X m) (SRC m)).st 0 d c) ∗ R (F := F) (U := UU) (X m) (SRC m) d) : sProp 𝕄))
    (dn_elim : ∀ d : Dev nD, iprop((bigSep Finset.univ fun c : Fin ((K (F := F)).nCore 0) => (P (F := F) (U := UU) (X m) (SRC m)).dn 0 d c) ∗ R (F := F) (U := UU) (X m) (SRC m) d)
    ⊢ (iprop((xLoc d ↦{fullShare} X m d) ∗ (sLoc d ↦{fullShare} SRC m d) ∗ oLoc d ↦{fullShare} GATH (F := F) (X m) (SRC m) d) : sProp 𝕄))
    (hok : ∀ c, Sc.ok (V3 m) c) (κ : GSem nD τ sig → ℕ) (d : Dev nD) :
    iprop((K (F := F)).ctx EH (P (F := F) (U := UU) (X m) (SRC m)) κ ∗ (K (F := F)).tcSt EH d 0 ∗ (K (F := F)).tcRes m ρ d ∗ Gd (F := F) d)
      ⊢ wp frame (wpE ((K (F := F)).defs (D (F := F))) 𝒱 (T d) none) Set.univ (main (F := F) d)
          fun _ => iprop((K (F := F)).tcSt EH d 1 ∗ FIN m Sc d) := by
  unfold SparseCore.Cfg.tcRes
  rw [main_eq, launch_held]
  iintro ⟨#Hctx, Hst, ⟨Hb, Hheld, -, Hprng⟩, HG⟩
  iapply (front m st_intro dn_elim κ d _ _) $$ [Hst Hb Hheld HG Hprng]
  isplitr; · iexact Hctx
  isplitl [Hst]; · iexact Hst
  isplitl [Hb]; · iexact Hb
  isplitl [Hheld]; · iexact Hheld
  iintro ⟨Hst, Hb, Hheld⟩
  ihave Hsp := (tcSt_split d) $$ Hst
  icases Hsp with ⟨HO, Hback⟩
  ihave HG' := (Entails.of_eq (Gd_eq (F := F) d)) $$ HG
  icases HG' with ⟨⟨Hg0, Ht0⟩, Hg1, Ht1⟩
  rw [wp_bind]
  ihave Hlev := (SparseCore.Cfg.ctx_levAts κ) $$ Hctx
  iapply (region_step m Sc (reg1 m Sc hok) d
    iprop(held (d : Thread nD τ) (Pipeline.ucRefs τ sig) (W3 m d) ∗ Rr (F := F) d)
    iprop(held (d : Thread nD τ) (Pipeline.ucRefs τ sig) (W4 m Sc d) ∗ Rr (F := F) d) rfl rfl _) $$ [Hb Hheld Hprng HO Hlev Hg0 Ht0 Hback Hg1 Ht1]
  isplitl [Hb]; · iexact Hb
  isplitl [Hheld Hprng HO]
  · isplitl [Hheld]; · iexact Hheld
    isplitl [Hprng]; · iexists _; iexact Hprng
    iexact HO
  isplitl [Hlev]; · iexact Hlev
  isplitl [Hg0]; · iexact Hg0
  isplitl [Ht0]; · iexact Ht0
  iintro ⟨Hb, Hheld, Hp, HO⟩
  iapply (wp_seq 𝒱 none Set.univ d (Pipeline.ucRefs τ sig) _ ops2 ops2_sub ops2_fresh (W4 m Sc d)) $$ [Hb Hheld]
  · isplitl [Hb] <;> iassumption
  iintro ⟨Hb, Hheld⟩
  rw [wp_bind]
  ihave Hlev := (SparseCore.Cfg.ctx_levAts κ) $$ Hctx
  iapply (region_step m Sc (reg2 m Sc) d
    iprop(held (d : Thread nD τ) (Pipeline.ucRefs τ sig) (W5 m Sc d) ∗ Rr (F := F) d)
    iprop(held (d : Thread nD τ) (Pipeline.ucRefs τ sig) (W6 m Sc d) ∗ Rr (F := F) d) rfl rfl _) $$ [Hb Hheld Hp HO Hlev Hg1 Ht1 Hback]
  isplitl [Hb]; · iexact Hb
  isplitl [Hheld Hp HO]
  · isplitl [Hheld]; · iexact Hheld
    isplitl [Hp] <;> iassumption
  isplitl [Hlev]; · iexact Hlev
  isplitl [Hg1]; · iexact Hg1
  isplitl [Ht1]; · iexact Ht1
  iintro ⟨Hb, Hheld, Hp, HO⟩
  iapply (wp_seq 𝒱 none Set.univ d (Pipeline.ucRefs τ sig) _ ops3 ops3_sub ops3_fresh (W6 m Sc d)) $$ [Hb Hheld]
  · isplitl [Hb] <;> iassumption
  iintro ⟨Hb, Hheld⟩
  rw [wp_pure]
  imodintro
  isplitl [HO Hback]; · iapply Hback; iexact HO
  iexact Hheld

end Cert.K.Top

end
-- ==== Proof.ScTileK.lean ====
/-
  The SparseCore call's body obligation, with its value.

  A worker (vector subcore `s` of SparseCore `c`, number `w = 16 c + s`) runs 78 trips; trip `t` handles chunk `32 t + w`:
  it fetches the chunk's 128 words of the index list into its list scratch, gathers the 128 rows of the table those
  words name into its row scratch, and writes the row scratch out to the chunk's 128 rows of the result — each transfer
  waited for before the next is issued, on a semaphore of its own. The workers numbered below 4 then do the same for
  chunk `2496 + w`.

  The proof: one trip by the symbolic executor from the loop's invariant (the worker's read shares of the table and of the
  list, its scratch buffers, its semaphores at zero, and per chunk the chunk's rows — at the gathered contents once
  its trip has run); the value of a chunk (`chunk_value`) is an index equation: what the write-out leaves at row `r` of
  the chunk is what the gather put at row `r` of the row scratch, the table's row named by word `r` of the list scratch,
  which the fetch made word `128 ch + r` of the list. The words name rows because the precondition bounds them.
-/
import proofs.«202620_g33904471835419_cont_8to1_b_799_54_alg».proof.Proof.ScCommonK
import proofs.«202620_g33904471835419_cont_8to1_b_799_54_alg».proof.Proof.Gen.Kernel.Skeleton

noncomputable section

namespace Cert.K.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

variable (X : (d : Dev nD) → Buf (Elt F) (xLoc d)) (SRC : (d : Dev nD) → Buf (Elt F) (sLoc d))

local notation "xV" => (Memref.whole Cert.Kernel.main_arg0_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v2_scv : Memref Cert.Kernel.sig Kind.scVector Space.hbm Cert.Kernel.S320000x128 EltTy.f32)
local notation "sI" => (Memref.whole Cert.Kernel.cc0_scratch0 : Memref Cert.Kernel.sig Kind.scVector Space.vmem Cert.Kernel.S128 EltTy.i32)
local notation "sR" => (Memref.whole Cert.Kernel.cc0_scratch1 : Memref Cert.Kernel.sig Kind.scVector Space.vmem Cert.Kernel.S128x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The worker's number. -/
abbrev wk (L : grid0.Coords) : ℕ := 16 * (L 0).val + (L 1).val

/-- Trip `t`'s chunk of the list and of the result, as the body slices them. -/
abbrev iChunk (L : grid0.Coords) (t : Fin k0_t1_loop.trips) : Memref sig .scVector .hbm S128 .i32 :=
  (iV).slice (Rect.unit (s := S320000) (k0_off1 L t) S128.size (k0_off1_inb L t)) (fun _ => rfl)
abbrev oChunk (L : grid0.Coords) (t : Fin k0_t1_loop.trips) : Memref sig .scVector .hbm S128x128 .f32 :=
  (oV).slice (Rect.unit (s := S320000x128) (k0_off2 L t) S128x128.size (k0_off2_inb L t)) (fun _ => rfl)

omit [CountersIn U] [FloatOps F] in
/-- The words of a chunk of the list, landed in the list scratch, name rows of the table. -/
theorem list_inb (hSRC : ∀ e, (SRC d e).toNat < 10000) (off : Fin 1 → Nat) (inb : ∀ a, off a + S128.size a ≤ S320000.size a)
    (fI : Buf (Elt F) ((sI).view.loc (V d (cV L) (jV L)))) (pay : S128.Idx → Elt F .i32)
    (hpay : pay = ((iV).slice (Rect.unit (s := S320000) off S128.size inb) (fun _ => rfl)).view.read (Elt F) (SRC d)) :
    ∀ x, ((sI).view.read (Elt F) (View.write (Elt F) (sI).view fI pay Finset.univ) x).toNat < S10000x128.size gathers_S10000x128_S128x128.axis := by
  subst hpay; intro x
  rw [View.write_whole_univ]
  simp only [Memref.view_whole, View.read_whole]
  rw [show ∀ j, ((iV).slice (Rect.unit (s := S320000) off S128.size inb) (fun _ => rfl)).view.read (Elt F) (SRC d) j
      = SRC d (((iV).slice (Rect.unit (s := S320000) off S128.size inb) (fun _ => rfl)).view.emb j) from fun j => (View.read_apply _ _).trans (cast_eq _ _)]
  exact hSRC _

omit [URA U] [CountersIn U] [FloatOps F] in
theorem chunk_value (hSRC : ∀ e, (SRC d e).toNat < 10000)
    (off1 : Fin 1 → Nat) (inb1 : ∀ a, off1 a + S128.size a ≤ S320000.size a)
    (off2 : Fin 2 → Nat) (inb2 : ∀ a, off2 a + S128x128.size a ≤ S320000x128.size a)
    (h0 : off2 0 = off1 0) (h1 : off2 1 = 0)
    (fI : Buf (Elt F) ((sI).view.loc (V d (cV L) (jV L)))) (fR : Buf (Elt F) ((sR).view.loc (V d (cV L) (jV L)))) (fO : Buf (Elt F) (oLoc d))
    (pI : S128.Idx → Elt F .i32)
    (hpI : pI = ((iV).slice (Rect.unit (s := S320000) off1 S128.size inb1) (fun _ => rfl)).view.read (Elt F) (SRC d))
    (hn : S128.numel = S128x128.size gathers_S10000x128_S128x128.axis')
    (hin : ∀ x, ((sI).view.read (Elt F) (View.write (Elt F) (sI).view fI pI Finset.univ) x).toNat < S10000x128.size gathers_S10000x128_S128x128.axis)
    (g : S128x128.Idx → Elt F .f32)
    (hg : g = SparseCore.gatherPayload gathers_S10000x128_S128x128
      (((xV).slice (Rect.unit (s := S10000x128) ![0, 0] S10000x128.size inb_S10000x128_S10000x128_0_0) (fun _ => rfl)).view.read (Elt F) (X d))
      (SparseCore.rows ((sI).view.read (Elt F) (View.write (Elt F) (sI).view fI pI Finset.univ)) hn hin))
    (w : S128x128.Idx → Elt F .f32)
    (hw : w = (sR).view.read (Elt F) ((sR).view.writes (Elt F) fR [⟨Rect.whole _, g⟩])) :
    ∀ i ∈ ((oV).slice (Rect.unit (s := S320000x128) off2 S128x128.size inb2) (fun _ => rfl)).view.set,
      ((oV).slice (Rect.unit (s := S320000x128) off2 S128x128.size inb2) (fun _ => rfl)).view.writes (Elt F) fO [⟨Rect.whole S128x128, w⟩] i
        = gathered (F := F) (X d) (SRC d) i := by
  intro i hi
  obtain ⟨y, -, rfl⟩ := Finset.mem_map.mp hi
  have e2 : w y = g y := by
    subst hw
    have := View.read_writes_cons_emb (sR).view fR (Rect.whole _) g [] y
    rwa [Rect.emb_whole_apply] at this
  rw [View.writes_singleton]
  have e1 : ((oV).slice (Rect.unit (s := S320000x128) off2 S128x128.size inb2) (fun _ => rfl)).view.emb y
      = (((oV).slice (Rect.unit (s := S320000x128) off2 S128x128.size inb2) (fun _ => rfl)).view.slice (Rect.whole S128x128)).emb y := by
    simp only [View.emb_slice, Function.Embedding.trans_apply]
    rw [show (Rect.whole S128x128).emb y = y from Rect.emb_whole_apply S128x128 y]
  rw [e1, View.write_emb_of_mem _ _ (Finset.mem_univ _), e2, hg]
  unfold SparseCore.gatherPayload
  rw [View.read_apply, ← e1]
  simp only [cast_eq]
  unfold gathered
  refine congrArg (X d) (funext fun a => Fin.ext ?_)
  match a with
  | 0 =>
    simp only [Memref.view, View.emb_slice, View.emb_whole, Function.Embedding.trans_apply, Function.Embedding.refl_apply, Rect.emb_apply,
      Rect.off_unit, Rect.stride_unit, Shape.Gathers.idx, SparseCore.rows, View.read_write_univ]
    show ![0, 0] 0 + 1 * (BitVec.toNat (pI (cc0_scratch0.ty.shape.rowMajor.symm (Fin.cast _ (y gathers_S10000x128_S128x128.axis'))))) = (rowIx (SRC d _)).val
    rw [rowIx_val (hSRC _), hpI, View.read_apply, cast_eq]
    simp only [Matrix.cons_val_zero, zero_add, one_mul]
    refine congrArg BitVec.toNat (congrArg (SRC d) (funext fun b => Fin.ext ?_))
    match b with
    | 0 =>
      simp only [Memref.view, View.emb_slice, View.emb_whole, Function.Embedding.trans_apply, Function.Embedding.refl_apply, Rect.emb_apply,
        Rect.off_unit, Rect.stride_unit, one_mul]
      show off1 0 + _ = off2 0 + 1 * (y 0).val
      have hk := Shape.rowMajor_val_one (d := ![128]) (S128.rowMajor.symm (Fin.cast hn.symm (y gathers_S10000x128_S128x128.axis')))
      rw [Equiv.apply_symm_apply] at hk
      rw [h0, one_mul]
      exact congrArg (off1 0 + ·) hk.symm
  | 1 =>
    simp only [Memref.view, View.emb_slice, View.emb_whole, Function.Embedding.trans_apply, Function.Embedding.refl_apply, Rect.emb_apply,
      Rect.off_unit, Rect.stride_unit, Shape.Gathers.idx]
    show ![0, 0] 1 + 1 * ((y (Fin.cast _ 1)).val) = off2 1 + 1 * (y 1).val
    rw [h1]; simp only [Matrix.cons_val_one, Matrix.cons_val_zero, zero_add, one_mul]; rfl

omit [URA U] [CountersIn U] [FloatOps F] in
theorem chunkOf_lt (idx : S320000x128.Idx) : chunkOf idx < 2500 := by
  have h : (idx 0).val < 320000 := (idx 0).isLt
  unfold chunkOf; omega

/-- A 128-row block of the result at row `128 ch`, as the body slices it, is chunk `ch`. -/
theorem set_oSlice (off : Fin 2 → Nat) (inb : ∀ a, off a + S128x128.size a ≤ S320000x128.size a) (ch : ℕ)
    (h0 : off 0 = 128 * ch) (h1 : off 1 = 0) :
    ((oV).slice (Rect.unit (s := S320000x128) off S128x128.size inb) (fun _ => rfl)).view.set = chunkSet ch := by
  show ((View.whole (main_v2_scv : Ref sig .scVector)).slice (Rect.unit (s := S320000x128) off S128x128.size inb)).set = _
  rw [View.set_slice]
  ext idx
  rw [show (Finset.map (View.whole (main_v2_scv : Ref sig .scVector)).emb (Rect.unit (s := S320000x128) off S128x128.size inb).set) = (Rect.unit (s := S320000x128) off S128x128.size inb).set from Finset.map_refl]
  rw [Rect.mem_set_unit, mem_chunkSet]
  unfold chunkOf
  have hi1 : (idx 1).val < 128 := (idx 1).isLt
  constructor
  · intro h
    have := h 0
    rw [h0] at this
    have e : S128x128.size 0 = 128 := rfl
    rw [e] at this
    omega
  · intro h a
    match a with
    | 0 => rw [h0]; show _ ∧ _ < _ + 128; omega
    | 1 => rw [h1]; show _ ∧ _ < _ + 128; omega

theorem wkSet_eq (w : ℕ) (hw : w < 32) :
    wkSet w = (Finset.univ : Finset (Fin k0_t1_loop.trips)).biUnion (fun t => chunkSet (32 * t.val + w)) ∪ (if w < 4 then chunkSet (2496 + w) else ∅) := by
  have htr : k0_t1_loop.trips = 78 := by decide
  ext idx
  simp only [mem_wkSet, Finset.mem_union, Finset.mem_biUnion, Finset.mem_univ, true_and, mem_chunkSet]
  have h := chunkOf_lt idx
  constructor
  · intro e
    by_cases ht : chunkOf idx / 32 < 78
    · left; exact ⟨⟨chunkOf idx / 32, by omega⟩, by show chunkOf idx = 32 * (chunkOf idx / 32) + w; omega⟩
    · right
      have h4 : w < 4 := by omega
      rw [if_pos h4, mem_chunkSet]; omega
  · rintro (⟨t, e⟩ | h4)
    · have := t.isLt; omega
    · split at h4
      · rw [mem_chunkSet] at h4; omega
      · exact absurd h4 (Finset.notMem_empty _)

theorem chunks_disjoint (w : ℕ) : ∀ t ∈ (Finset.univ : Finset (Fin k0_t1_loop.trips)), ∀ t' ∈ (Finset.univ : Finset (Fin k0_t1_loop.trips)), t ≠ t' →
    Disjoint (chunkSet (32 * t.val + w)) (chunkSet (32 * t'.val + w)) := by
  intro t _ t' _ hne
  rw [Finset.disjoint_left]
  intro idx h1 h2
  rw [mem_chunkSet] at h1 h2
  exact hne (Fin.ext (by omega))

theorem tail_disjoint (w : ℕ) :
    Disjoint ((Finset.univ : Finset (Fin k0_t1_loop.trips)).biUnion (fun t => chunkSet (32 * t.val + w))) (if w < 4 then chunkSet (2496 + w) else ∅) := by
  have htr : k0_t1_loop.trips = 78 := by decide
  rw [Finset.disjoint_left]
  intro idx h1 h2
  obtain ⟨t, -, h1⟩ := Finset.mem_biUnion.mp h1
  rw [mem_chunkSet] at h1
  split at h2
  · rw [mem_chunkSet] at h2; have := t.isLt; omega
  · exact absurd h2 (Finset.notMem_empty _)

/-! ## The worker's chunks, as the body slices them -/

omit [URA U] [CountersIn U] [FloatOps F] in
theorem wk_lt : wk L < 32 := by
  have h0 : (L 0).val < 2 := (L 0).isLt
  have h1 : (L 1).val < 16 := (L 1).isLt
  show 16 * (L 0).val + (L 1).val < 32; omega

omit [URA U] [CountersIn U] [FloatOps F] in
theorem off2_zero (t : Fin k0_t1_loop.trips) : (k0_off2 L t) 0 = 128 * (32 * t.val + wk L) := by
  rw [k0_off2_eq]; show 4096 * t.val + 2048 * (L 0).val + 128 * (L 1).val = 128 * (32 * t.val + (16 * (L 0).val + (L 1).val)); omega
omit [URA U] [CountersIn U] [FloatOps F] in
theorem off2_one (t : Fin k0_t1_loop.trips) : (k0_off2 L t) 1 = 0 := by rw [k0_off2_eq]; rfl
omit [URA U] [CountersIn U] [FloatOps F] in
theorem off2_off1 (t : Fin k0_t1_loop.trips) : (k0_off2 L t) 0 = (k0_off1 L t) 0 := by rw [k0_off1_eq, k0_off2_eq]; rfl
omit [URA U] [CountersIn U] [FloatOps F] in
theorem set_oChunk (t : Fin k0_t1_loop.trips) : (oChunk L t).view.set = chunkSet (32 * t.val + wk L) :=
  set_oSlice _ _ _ (off2_zero L t) (off2_one L t)

/-- The tail chunk (taken by the first four workers), as the body slices it. -/
abbrev oTail (L : grid0.Coords) (h : k0_cond1 L = 1#1) : Memref sig .scVector .hbm S128x128 .f32 :=
  (oV).slice (Rect.unit (s := S320000x128) (k0_off4 L) S128x128.size (k0_off4_inb L h)) (fun _ => rfl)

omit [URA U] [CountersIn U] [FloatOps F] in
theorem off4_zero : (k0_off4 L) 0 = 128 * (2496 + wk L) := by
  rw [k0_off4_eq]; show 2048 * (L 0).val + 128 * (L 1).val + 319488 = 128 * (2496 + (16 * (L 0).val + (L 1).val)); omega
omit [URA U] [CountersIn U] [FloatOps F] in
theorem off4_one : (k0_off4 L) 1 = 0 := by rw [k0_off4_eq]; rfl
omit [URA U] [CountersIn U] [FloatOps F] in
theorem off4_off3 : (k0_off4 L) 0 = (k0_off3 L) 0 := by rw [k0_off3_eq, k0_off4_eq]; rfl
omit [URA U] [CountersIn U] [FloatOps F] in
theorem set_oTail (h : k0_cond1 L = 1#1) : (oTail L h).view.set = chunkSet (2496 + wk L) :=
  set_oSlice _ _ _ (off4_zero L) (off4_one L)

omit [URA U] [CountersIn U] [FloatOps F] in
/-- The tail is taken by the workers numbered below 4. -/
theorem cond1_iff : ∀ L : grid0.Coords, k0_cond1 L = 1#1 ↔ 16 * (L 0).val + (L 1).val < 4 := by decide +kernel

omit [CountersIn U] [FloatOps F] in
theorem pts_oChunk (t : Fin k0_t1_loop.trips) (f : Buf (Elt F) (oLoc d)) :
    ((oChunk L t).view.loc (V d (cV L) (jV L)) ↦[(oChunk L t).view.set]{fullShare} f : sProp 𝕄)
      = oLoc d ↦[chunkSet (32 * t.val + wk L)]{fullShare} f := by rw [set_oChunk]
omit [CountersIn U] [FloatOps F] in
theorem pts_oTail (h : k0_cond1 L = 1#1) (f : Buf (Elt F) (oLoc d)) :
    ((oTail L h).view.loc (V d (cV L) (jV L)) ↦[(oTail L h).view.set]{fullShare} f : sProp 𝕄)
      = oLoc d ↦[chunkSet (2496 + wk L)]{fullShare} f := by rw [set_oTail]

/-! ## The loop's invariant -/

/-- Chunk `32 t + w` of the result before trip `k`: the worker's, at the gathered contents once trip `t` has run. -/
def chunkAt (k : ℕ) (t : Fin k0_t1_loop.trips) : sProp 𝕄 :=
  iprop(∃ f : Buf (Elt F) (oLoc d), ⌜t.val < k → ∀ i ∈ (oChunk L t).view.set, f i = GATH X SRC d i⌝
    ∗ (oChunk L t).view.loc (V d (cV L) (jV L)) ↦[(oChunk L t).view.set]{fullShare} f)

omit [CountersIn U] [FloatOps F] in
theorem chunkAt_init (t : Fin k0_t1_loop.trips) (f : Buf (Elt F) (oLoc d)) :
    (oLoc d ↦[chunkSet (32 * t.val + wk L)]{fullShare} f : sProp 𝕄) ⊢ chunkAt (U := U) X SRC d L 0 t := by
  unfold chunkAt
  iintro H
  iexists f
  isplitr
  · ipureintro; intro h; exact absurd h (Nat.not_lt_zero _)
  · iapply (Entails.of_eq (pts_oChunk (U := U) d L t f).symm); iexact H

omit [CountersIn U] [FloatOps F] in
theorem chunks_init (f : Buf (Elt F) (oLoc d)) :
    (oLoc d ↦[(Finset.univ : Finset (Fin k0_t1_loop.trips)).biUnion fun t => chunkSet (32 * t.val + wk L)]{fullShare} f : sProp 𝕄)
      ⊢ bigSep Finset.univ fun t => chunkAt (U := U) X SRC d L 0 t := by
  rw [pointsTo_biUnion Finset.univ _ (chunks_disjoint (wk L))]
  exact bigSep_mono fun t _ => chunkAt_init X SRC d L t f

omit [CountersIn U] [FloatOps F] in
theorem chunkAt_done (t : Fin k0_t1_loop.trips) :
    chunkAt (U := U) X SRC d L k0_t1_loop.trips t ⊢ (oLoc d ↦[chunkSet (32 * t.val + wk L)]{fullShare} GATH X SRC d : sProp 𝕄) := by
  unfold chunkAt
  iintro ⟨%f, %hf, H⟩
  have e : ((oChunk L t).view.loc (V d (cV L) (jV L)) ↦[(oChunk L t).view.set]{fullShare} f : sProp 𝕄)
      = oLoc d ↦[chunkSet (32 * t.val + wk L)]{fullShare} GATH X SRC d := by
    rw [pointsTo_congr (hf t.isLt), pts_oChunk]
  iapply (Entails.of_eq e); iexact H

omit [CountersIn U] [FloatOps F] in
theorem chunks_done :
    (bigSep Finset.univ fun t => chunkAt (U := U) X SRC d L k0_t1_loop.trips t)
      ⊢ (oLoc d ↦[(Finset.univ : Finset (Fin k0_t1_loop.trips)).biUnion fun t => chunkSet (32 * t.val + wk L)]{fullShare} GATH X SRC d : sProp 𝕄) := by
  rw [pointsTo_biUnion Finset.univ _ (chunks_disjoint (wk L))]
  exact bigSep_mono fun t _ => chunkAt_done X SRC d L t

omit [CountersIn U] [FloatOps F] in
theorem chunkAt_succ (k t : Fin k0_t1_loop.trips) (hne : t ≠ k) :
    chunkAt (U := U) X SRC d L k.val t ⊢ chunkAt (U := U) X SRC d L (k.val + 1) t := by
  unfold chunkAt
  iintro ⟨%f, %hf, H⟩
  iexists f
  isplitr
  · ipureintro; intro hlt
    have hne' : t.val ≠ k.val := fun e => hne (Fin.ext e)
    exact hf (by omega)
  · iexact H

omit [CountersIn U] [FloatOps F] in
theorem chunks_step (k : Fin k0_t1_loop.trips) :
    (iprop(chunkAt (U := U) X SRC d L (k.val + 1) k ∗ bigSep (Finset.univ.erase k) fun t => chunkAt (U := U) X SRC d L k.val t) : sProp 𝕄)
      ⊢ bigSep Finset.univ fun t => chunkAt (U := U) X SRC d L (k.val + 1) t := by
  rw [SparseCore.bigSep_erase' (Finset.mem_univ k) (Φ := fun t => chunkAt (U := U) X SRC d L (k.val + 1) t)]
  exact BIClass.sep_mono (BI.Entails.refl _) (bigSep_mono fun t ht => chunkAt_succ X SRC d L k t (Finset.ne_of_mem_erase ht))

/-- Before trip `k`: the worker's read shares of the table and the list, its two scratch buffers, its three semaphores at
    zero, its chunks (`chunkAt`), and what it owes the launch, with only waits at no index recorded beyond `W`. -/
def inv (q : PosShare TreeShare) (O : CellTallies nD τ sig (HIx 1)) (W : Waits sig (HIx 1)) (k : ℕ) (_ : Unit) : sProp 𝕄 :=
  iprop(Transfers.MayWaits (V d (cV L) (jV L)) (default : HIx 1) O
    ∗ ((xV).view.loc (V d (cV L) (jV L)) ↦{q} X d)
    ∗ ((iV).view.loc (V d (cV L) (jV L)) ↦{q} SRC d)
    ∗ (∃ f, (sI).view.loc (V d (cV L) (jV L)) ↦{fullShare} f)
    ∗ (∃ f, (sR).view.loc (V d (cV L) (jV L)) ↦{fullShare} f)
    ∗ semVal (V d (cV L) (jV L), SemLoc.dma cc0_scoped0.sem) 0
    ∗ semVal (V d (cV L) (jV L), SemLoc.dma cc0_scratch2.sem) 0
    ∗ semVal (V d (cV L) (jV L), SemLoc.dma cc0_scoped1.sem) 0
    ∗ (bigSep Finset.univ fun t => chunkAt (U := U) X SRC d L k t)
    ∗ ∃ W', ⌜∀ p ∈ W', p ∈ W ∨ p.2 = none⌝ ∗ owes (V d (cV L) (jV L)) O W')

set_option maxHeartbeats 4000000 in
/-- One trip: the chunk of the list fetched, its rows of the table gathered, the rows written out to the chunk of the
    result, each transfer waited for before the next is issued. -/
theorem trip (hSRC : ∀ e, (SRC d e).toNat < 10000) (q : PosShare TreeShare) (O : CellTallies nD τ sig (HIx 1)) (W : Waits sig (HIx 1))
    (k : Fin k0_t1_loop.trips) :
    inv (U := U) X SRC d L q O W k.val ()
      ⊢ wp frame (wpE (defs₀ (F := F)) 𝒱₀ (V d (cV L) (jV L)) none) Set.univ
          (k0_t1_body L xV (Memref.isWhole_whole _) iV (Memref.isWhole_whole _) oV (Memref.isWhole_whole _)
            sI (Memref.isWhole_whole _) sR (Memref.isWhole_whole _) cc0_scratch2 cc0_scoped0 cc0_scoped1 cc0_scoped2 cc0_scoped3 k ())
          fun acc => inv (U := U) X SRC d L q O W (k.val + 1) acc := by
  unfold inv k0_t1_body
  rw [SparseCore.bigSep_erase' (Finset.mem_univ k) (Φ := fun t => chunkAt (U := U) X SRC d L k.val t)]
  iintro ⟨#Hmw, Hx, Hi, ⟨%fI, HsI⟩, ⟨%fR, HsR⟩, HA, HB, HC, ⟨Hk, Hrest⟩, %W', %hW', HO⟩
  unfold chunkAt
  icases Hk with ⟨%fO, -, Ho⟩
  sl_exec
  have hin := list_inb SRC d L hSRC (k0_off1 L k) (k0_off1_inb L k) fI (trip.sl.dma0 SRC d L k) rfl
  sl_exec
  sl_step
  isplitr; · iexact Hmw
  isplitl [Hx]; · iexact Hx
  isplitl [Hi]; · iexact Hi
  isplitl [HsI]; · iexists _; iexact HsI
  isplitl [HsR]; · iexists _; iexact HsR
  isplitl [HA]; · iexact HA
  isplitl [HB]; · iexact HB
  isplitl [HC]; · iexact HC
  isplitl [Ho Hrest]
  · iapply (chunks_step X SRC d L k)
    isplitl [Ho]
    · unfold chunkAt
      iexists _
      isplitr
      swap; · iexact Ho
      ipureintro; intro _
      exact chunk_value X SRC d L hSRC (k0_off1 L k) (k0_off1_inb L k) (k0_off2 L k) (k0_off2_inb L k) (off2_off1 L k) (off2_one L k)
        fI fR fO _ rfl _ hin _ rfl _ rfl
    · iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The worker's scoped storage -/

/-- The worker's cell of DMA semaphore `sm`. -/
abbrev cell (d : Dev nD) (L : grid0.Coords) (sm : DmaSem sig) : GSem nD τ sig := (V d (cV L) (jV L), SemLoc.dma sm)

omit [URA U] [CountersIn U] [FloatOps F] in
theorem cell_mem (sm : DmaSem sig) (h : (SemLoc.dma sm : SemLoc sig).isScoped .scVector = true) : cell d L sm ∈ ownCells (V d (cV L) (jV L)) :=
  (mem_ownCells (g := cell d L sm)).mpr ⟨rfl, h⟩
omit [URA U] [CountersIn U] [FloatOps F] in
theorem cell_ne {sm sm' : DmaSem sig} (h : sm ≠ sm') : cell d L sm ≠ cell d L sm' :=
  fun e => h (SemLoc.dma.inj (Prod.mk.inj e).2)

/-- The cells that are not the kernel's five. -/
abbrev otherCells (d : Dev nD) (L : grid0.Coords) : Finset (GSem nD τ sig) := ((((((ownCells (V d (cV L) (jV L))).erase (cell d L cc0_scoped0.sem)).erase (cell d L cc0_scratch2.sem)).erase (cell d L cc0_scoped1.sem)).erase (cell d L cc0_scoped2.sem)).erase (cell d L cc0_scoped3.sem))

omit [CountersIn U] [FloatOps F] in
/-- The worker's scoped semaphores at zero are the kernel's five and the rest. -/
theorem ownSems0_V :
    (ownSems0 (V d (cV L) (jV L)) : sProp 𝕄)
      = iprop(semVal (cell d L cc0_scoped0.sem) 0 ∗ semVal (cell d L cc0_scratch2.sem) 0 ∗ semVal (cell d L cc0_scoped1.sem) 0 ∗ semVal (cell d L cc0_scoped2.sem) 0 ∗ semVal (cell d L cc0_scoped3.sem) 0
          ∗ bigSep (otherCells d L) fun g => semVal g 0) := by
  unfold SparseCore.Cfg.ownSems0
  rw [SparseCore.bigSep_erase' (cell_mem d L cc0_scoped0.sem (by decide)),
    SparseCore.bigSep_erase' (Finset.mem_erase.mpr ⟨cell_ne d L (show (cc0_scratch2.sem : DmaSem sig) ≠ cc0_scoped0.sem by decide), (cell_mem d L cc0_scratch2.sem (by decide))⟩),
    SparseCore.bigSep_erase' (Finset.mem_erase.mpr ⟨cell_ne d L (show (cc0_scoped1.sem : DmaSem sig) ≠ cc0_scratch2.sem by decide), (Finset.mem_erase.mpr ⟨cell_ne d L (show (cc0_scoped1.sem : DmaSem sig) ≠ cc0_scoped0.sem by decide), (cell_mem d L cc0_scoped1.sem (by decide))⟩)⟩),
    SparseCore.bigSep_erase' (Finset.mem_erase.mpr ⟨cell_ne d L (show (cc0_scoped2.sem : DmaSem sig) ≠ cc0_scoped1.sem by decide), (Finset.mem_erase.mpr ⟨cell_ne d L (show (cc0_scoped2.sem : DmaSem sig) ≠ cc0_scratch2.sem by decide), (Finset.mem_erase.mpr ⟨cell_ne d L (show (cc0_scoped2.sem : DmaSem sig) ≠ cc0_scoped0.sem by decide), (cell_mem d L cc0_scoped2.sem (by decide))⟩)⟩)⟩),
    SparseCore.bigSep_erase' (Finset.mem_erase.mpr ⟨cell_ne d L (show (cc0_scoped3.sem : DmaSem sig) ≠ cc0_scoped2.sem by decide), (Finset.mem_erase.mpr ⟨cell_ne d L (show (cc0_scoped3.sem : DmaSem sig) ≠ cc0_scoped1.sem by decide), (Finset.mem_erase.mpr ⟨cell_ne d L (show (cc0_scoped3.sem : DmaSem sig) ≠ cc0_scratch2.sem by decide), (Finset.mem_erase.mpr ⟨cell_ne d L (show (cc0_scoped3.sem : DmaSem sig) ≠ cc0_scoped0.sem by decide), (cell_mem d L cc0_scoped3.sem (by decide))⟩)⟩)⟩)⟩)]

omit [CountersIn U] [FloatOps F] in
/-- Its scoped buffers are the two scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The body -/

omit [CountersIn U] [FloatOps F] in
/-- The tail chunk written: at the gathered contents. -/
theorem tail_at (h : k0_cond1 L = 1#1) :
    (iprop(∃ f : Buf (Elt F) (oLoc d), ⌜∀ i ∈ (oTail L h).view.set, f i = GATH X SRC d i⌝
      ∗ (oTail L h).view.loc (V d (cV L) (jV L)) ↦[(oTail L h).view.set]{fullShare} f) : sProp 𝕄)
      ⊢ oLoc d ↦[chunkSet (2496 + wk L)]{fullShare} GATH X SRC d := by
  iintro ⟨%f, %hf, H⟩
  have e : ((oTail L h).view.loc (V d (cV L) (jV L)) ↦[(oTail L h).view.set]{fullShare} f : sProp 𝕄)
      = oLoc d ↦[chunkSet (2496 + wk L)]{fullShare} GATH X SRC d := by
    rw [pointsTo_congr hf, pts_oTail]
  iapply (Entails.of_eq e); iexact H

set_option maxHeartbeats 4000000 in
/-- The worker's task: the 78 trips by the invariant, then the tail chunk where the worker takes one. -/
theorem tile_body (hF : (K (F := F)).Facts) (hSRC : ∀ e, (SRC d e).toNat < 10000) (q : PosShare TreeShare)
    (O : CellTallies nD τ sig (HIx 1)) (W : Waits sig (HIx 1)) (hO : ∀ g, O g none = 0) :
    (iprop(levAts (K (F := F)).L (K (F := F)).lev ∗ emp
        ∗ ((xLoc d ↦{q} X d) ∗ (sLoc d ↦{q} SRC d) ∗ ∃ f, oLoc d ↦[wkSet (wk L)]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_body L xV (Memref.isWhole_whole _) iV (Memref.isWhole_whole _) oV (Memref.isWhole_whole _)
            sI (Memref.isWhole_whole _) sR (Memref.isWhole_whole _) cc0_scratch2 cc0_scoped0 cc0_scoped1 cc0_scoped2 cc0_scoped3)
          fun _ => iprop(((xLoc d ↦{q} X d) ∗ (sLoc d ↦{q} SRC d) ∗ oLoc d ↦[wkSet (wk L)]{fullShare} GATH X SRC d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V,
    wkSet_eq (wk L) (wk_lt L)]
  iintro ⟨#Hlv, -, ⟨Hx, Hs, %f, Ho⟩, ⟨⟨%fI, HsI⟩, ⟨%fR, HsR⟩, Hbufs⟩, ⟨HA, HB, HC, HD, HE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho := (pointsTo_union (tail_disjoint (wk L))).1 $$ Ho
  icases Ho with ⟨Hch, Htl⟩
  ihave Hch := (chunks_init (U := U) X SRC d L f) $$ Hch
  sl_for (inv (U := U) X SRC d L q O W) $$ [Hmw Hx Hs HsI HsR HA HB HC Hch HO]
  case region => intro k _; exact trip X SRC d L hSRC q O W k
  · unfold inv
    isplitl [Hmw]; · iexact Hmw
    isplitl [Hx]; · iexact Hx
    isplitl [Hs]; · iexact Hs
    isplitl [HsI]; · iexists _; iexact HsI
    isplitl [HsR]; · iexists _; iexact HsR
    isplitl [HA]; · iexact HA
    isplitl [HB]; · iexact HB
    isplitl [HC]; · iexact HC
    isplitl [Hch]; · iexact Hch
    iexists W; isplitr
    · ipureintro; exact fun p hp => .inl hp
    · iexact HO
  iintro %_ HI
  unfold inv
  icases HI with ⟨#Hmw, Hx, Hs, ⟨%fI', HsI⟩, ⟨%fR', HsR⟩, HA, HB, HC, Hch, %W', %hW', HO⟩
  ihave Hch := (chunks_done (U := U) X SRC d L) $$ Hch
  by_cases k0_h1 : k0_cond1 L = 1#1
  · have hw4 : wk L < 4 := (cond1_iff L).mp k0_h1
    rw [if_pos hw4]
    ihave Htl := (Entails.of_eq (pts_oTail (U := U) d L k0_h1 f).symm) $$ Htl
    have hdj : Disjoint ((Finset.univ : Finset (Fin k0_t1_loop.trips)).biUnion fun t => chunkSet (32 * t.val + wk L)) (chunkSet (2496 + wk L)) := by
      have := tail_disjoint (wk L); rwa [if_pos hw4] at this
    sl_exec
    have hin := list_inb SRC d L hSRC (k0_off3 L) (k0_off3_inb L k0_h1) fI' (tile_body.sl.dma0 SRC d L k0_h1) rfl
    sl_exec
    sl_step
    ihave Htl := (tail_at (U := U) X SRC d L k0_h1) $$ [Htl]
    · iexists _; isplitr
      swap; · iexact Htl
      ipureintro
      exact chunk_value X SRC d L hSRC (k0_off3 L) (k0_off3_inb L k0_h1) (k0_off4 L) (k0_off4_inb L k0_h1) (off4_off3 L) (off4_one L)
        fI' fR' f _ rfl _ hin _ rfl _ rfl
    isplitl [Hx Hs Hch Htl]
    · isplitl [Hx]; · iexact Hx
      isplitl [Hs]; · iexact Hs
      iapply (pointsTo_union hdj).2
      isplitl [Hch] <;> iassumption
    isplitl [HsI HsR Hbufs]
    · isplitl [HsI]; · iexists _; iexact HsI
      isplitl [HsR]; · iexists _; iexact HsR
      iexact Hbufs
    isplitl [HA HB HC HD HE Hsems]
    · isplitl [HA]; · iexact HA
      isplitl [HB]; · iexact HB
      isplitl [HC]; · iexact HC
      isplitl [HD]; · iexact HD
      isplitl [HE]; · iexact HE
      iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · have hw4 : ¬ wk L < 4 := fun h => k0_h1 ((cond1_iff L).mpr h)
    rw [if_neg hw4, Finset.union_empty]
    icases Htl with -
    sl_exec
    sl_step
    isplitl [Hx Hs Hch]
    · isplitl [Hx]; · iexact Hx
      isplitl [Hs]; · iexact Hs
      iexact Hch
    isplitl [HsI HsR Hbufs]
    · isplitl [HsI]; · iexists _; iexact HsI
      isplitl [HsR]; · iexists _; iexact HsR
      iexact Hbufs
    isplitl [HA HB HC HD HE Hsems]
    · isplitl [HA]; · iexact HA
      isplitl [HB]; · iexact HB
      isplitl [HC]; · iexact HC
      isplitl [HD]; · iexact HD
      isplitl [HE]; · iexact HE
      iexact Hsems
    iexists W'; isplitr
    · ipureintro; exact hW'
    · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) iV (Memref.isWhole_whole _) oV (Memref.isWhole_whole _)
          sI (Memref.isWhole_whole _) sR (Memref.isWhole_whole _) cc0_scratch2 cc0_scoped0 cc0_scoped1 cc0_scoped2 cc0_scoped3) ⟨⟩ c s := rfl

omit [CountersIn U] [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
/-- The vector-subcore kernel's obligation: each worker, from its read shares and its rows of the result, leaves those
    rows gathered. -/
theorem tile (hSRC : ∀ d e, (SRC d e).toNat < 10000) : (K (F := F)).TileObl (D (F := F)) 𝒱 (P (U := U) X SRC) v₀ 0 := by
  intro d c i O W hO _ _
  simp only [P_ox, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X SRC d (coordsV ⟨_, hci.1⟩ ⟨_, hci.2⟩) facts (hSRC d) (tileShare c.val i.val) O W hO).trans (wp_mono frame _ _ fun _ => obl_post)

end Cert.K.Sc

end
-- ==== Proof.ScSplitK.lean ====
/-
  The SparseCore call's operands, split and gathered.

  The table and the index list are read by all 32 workers at once: each holds a read share of them — the full share's
  two tokens go to the two SparseCores (the remainder stays with the TensorCore), each SparseCore's sixteen tokens to
  its workers (the remainder stays with its sequencer). The result is written in disjoint pieces: a SparseCore's
  elements are its sixteen workers' (`chunk % 32 / 16 = c` iff `chunk % 32 = 16 c + s` for some `s < 16`), and the
  array's are the two SparseCores'. So the call's operands split into the workers' and the workers' results join into
  the call's (`split`), and around the call the TensorCore hands over the three arrays whole and gets them back whole,
  the result at the gathered contents (`st_intro`, `dn_elim`).
-/
import proofs.«202620_g33904471835419_cont_8to1_b_799_54_alg».proof.Proof.ScCommonK

noncomputable section

namespace Cert.K.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {U : Type} [URA U] [CountersIn U]

local notation "𝕄" => MT nD τ sig (HIx 1) (Elt F) ℕ U ℕ

variable (X : (d : Dev nD) → Buf (Elt F) (xLoc d)) (SRC : (d : Dev nD) → Buf (Elt F) (sLoc d))

/-! ## The result's elements: a SparseCore's are its sixteen workers', the array's the two SparseCores' -/

theorem coreSet_eq (c : ℕ) : coreSet c = (Finset.univ : Finset (Fin 16)).biUnion fun s => wkSet (16 * c + s.val) := by
  ext idx
  simp only [mem_coreSet, Finset.mem_biUnion, Finset.mem_univ, true_and, mem_wkSet]
  constructor
  · intro e
    exact ⟨⟨chunkOf idx % 32 % 16, Nat.mod_lt _ (by decide)⟩, by show chunkOf idx % 32 = 16 * c + chunkOf idx % 32 % 16; omega⟩
  · rintro ⟨s, e⟩
    have := s.isLt; omega

theorem wk_disjoint (c : ℕ) : ∀ s ∈ (Finset.univ : Finset (Fin 16)), ∀ s' ∈ (Finset.univ : Finset (Fin 16)), s ≠ s' →
    Disjoint (wkSet (16 * c + s.val)) (wkSet (16 * c + s'.val)) := by
  intro s _ s' _ hne
  rw [Finset.disjoint_left]
  intro idx h1 h2
  rw [mem_wkSet] at h1 h2
  exact hne (Fin.ext (by omega))

theorem univ_eq : (Finset.univ : Finset S320000x128.Idx) = (Finset.univ : Finset (Fin 2)).biUnion fun c => coreSet c.val := by
  ext idx
  simp only [Finset.mem_univ, Finset.mem_biUnion, true_and, mem_coreSet, true_iff]
  exact ⟨⟨chunkOf idx % 32 / 16, by omega⟩, rfl⟩

theorem core_disjoint : ∀ c ∈ (Finset.univ : Finset (Fin 2)), ∀ c' ∈ (Finset.univ : Finset (Fin 2)), c ≠ c' →
    Disjoint (coreSet c.val) (coreSet c'.val) := by
  intro c _ c' _ hne
  rw [Finset.disjoint_left]
  intro idx h1 h2
  rw [mem_coreSet] at h1 h2
  exact hne (Fin.ext (by omega))

/-! ## The split of a SparseCore's operands among its workers -/

omit [CountersIn U] in
theorem wk_any (d : Dev nD) (w : ℕ) (f : Buf (Elt F) (oLoc d)) :
    (oLoc d ↦[wkSet w]{fullShare} f : sProp 𝕄) ⊢ iprop(∃ f, oLoc d ↦[wkSet w]{fullShare} f) := by
  iintro H; iexists f; iexact H

omit [CountersIn U] in
theorem wk_anys (d : Dev nD) (c : ℕ) (f : Buf (Elt F) (oLoc d)) :
    (bigSep Finset.univ fun s : Fin 16 => (oLoc d ↦[wkSet (16 * c + s.val)]{fullShare} f : sProp 𝕄))
      ⊢ bigSep Finset.univ fun s : Fin 16 => iprop(∃ f, oLoc d ↦[wkSet (16 * c + s.val)]{fullShare} f) :=
  bigSep_mono fun s _ => wk_any d (16 * c + s.val) f

theorem split : (K (F := F)).VecSplit' (P (U := U) X SRC) 0 := by
  intro d c
  show (iprop((xLoc d ↦{coreShare c.val} X d) ∗ (sLoc d ↦{coreShare c.val} SRC d) ∗ ∃ f, oLoc d ↦[coreSet c.val]{fullShare} f) : sProp 𝕄)
    ⊢ |={Set.univ}=> iprop((bigSep Finset.univ fun s : Fin 16 =>
          iprop((xLoc d ↦{Transfers.shareTok (coreShare c.val) 16 s} X d) ∗ (sLoc d ↦{Transfers.shareTok (coreShare c.val) 16 s} SRC d)
            ∗ ∃ f, oLoc d ↦[wkSet (16 * c.val + s.val)]{fullShare} f))
      ∗ ((bigSep Finset.univ fun s : Fin 16 =>
          iprop((xLoc d ↦{Transfers.shareTok (coreShare c.val) 16 s} X d) ∗ (sLoc d ↦{Transfers.shareTok (coreShare c.val) 16 s} SRC d)
            ∗ oLoc d ↦[wkSet (16 * c.val + s.val)]{fullShare} GATH X SRC d))
          -∗ iprop((xLoc d ↦{coreShare c.val} X d) ∗ (sLoc d ↦{coreShare c.val} SRC d) ∗ oLoc d ↦[coreSet c.val]{fullShare} GATH X SRC d)))
  rw [bigSep_sep', bigSep_sep', bigSep_sep', bigSep_sep', coreSet_eq, pointsTo_biUnion Finset.univ _ (wk_disjoint c.val)]
  iintro ⟨Hx, Hs, %f, Ho⟩
  ihave Hx := (Transfers.pointsTo_toks_split (coreShare c.val) 16) $$ Hx
  ihave Hs := (Transfers.pointsTo_toks_split (coreShare c.val) 16) $$ Hs
  icases Hx with ⟨Hxr, Hxt⟩
  icases Hs with ⟨Hsr, Hst⟩
  ihave Ho := (Entails.of_eq (pointsTo_biUnion (q := fullShare) (f := f) (ℓ := oLoc d) Finset.univ _ (wk_disjoint c.val))) $$ Ho
  imodintro
  isplitl [Hxt Hst Ho]
  · isplitl [Hxt]; · iexact Hxt
    isplitl [Hst]; · iexact Hst
    iapply (wk_anys (U := U) d c.val f) $$ Ho
  · iintro ⟨Hxt, Hst, Ho⟩
    isplitl [Hxr Hxt]
    · iapply (Transfers.pointsTo_toks_join (coreShare c.val) 16); isplitl [Hxr] <;> iassumption
    isplitl [Hsr Hst]
    · iapply (Transfers.pointsTo_toks_join (coreShare c.val) 16); isplitl [Hsr] <;> iassumption
    iexact Ho

/-! ## The call, seen from the TensorCore -/

omit [CountersIn U] in
theorem core_any (d : Dev nD) (c : ℕ) (f : Buf (Elt F) (oLoc d)) :
    (oLoc d ↦[coreSet c]{fullShare} f : sProp 𝕄) ⊢ iprop(∃ f, oLoc d ↦[coreSet c]{fullShare} f) := by
  iintro H; iexists f; iexact H

omit [CountersIn U] in
theorem core_anys (d : Dev nD) (f : Buf (Elt F) (oLoc d)) :
    (bigSep Finset.univ fun c : Fin 2 => (oLoc d ↦[coreSet c.val]{fullShare} f : sProp 𝕄))
      ⊢ bigSep Finset.univ fun c : Fin 2 => iprop(∃ f, oLoc d ↦[coreSet c.val]{fullShare} f) :=
  bigSep_mono fun c _ => core_any d c.val f

/-- Before the call: the table, the list and the result whole are every SparseCore's operands and what the TensorCore
    keeps. -/
theorem st_intro (d : Dev nD) :
    (iprop((xLoc d ↦{fullShare} X d) ∗ (sLoc d ↦{fullShare} SRC d) ∗ ∃ f, oLoc d ↦{fullShare} f) : sProp 𝕄)
      ⊢ iprop((bigSep Finset.univ fun c : Fin ((K (F := F)).nCore 0) => (P (U := U) X SRC).st 0 d c) ∗ R X SRC d) := by
  show (iprop((xLoc d ↦{fullShare} X d) ∗ (sLoc d ↦{fullShare} SRC d) ∗ ∃ f, oLoc d ↦{fullShare} f) : sProp 𝕄)
    ⊢ iprop((bigSep Finset.univ fun c : Fin 2 =>
        iprop((xLoc d ↦{Transfers.shareTok fullShare 2 c} X d) ∗ (sLoc d ↦{Transfers.shareTok fullShare 2 c} SRC d) ∗ ∃ f, oLoc d ↦[coreSet c.val]{fullShare} f))
      ∗ ((xLoc d ↦{Transfers.shareDrop fullShare 2} X d) ∗ sLoc d ↦{Transfers.shareDrop fullShare 2} SRC d))
  rw [bigSep_sep', bigSep_sep']
  iintro ⟨Hx, Hs, %f, Ho⟩
  ihave Hx := (Transfers.pointsTo_toks_split fullShare 2) $$ Hx
  ihave Hs := (Transfers.pointsTo_toks_split fullShare 2) $$ Hs
  icases Hx with ⟨Hxr, Hxt⟩
  icases Hs with ⟨Hsr, Hst⟩
  ihave Ho := (Entails.of_eq (show (oLoc d ↦{fullShare} f : sProp 𝕄) = bigSep Finset.univ fun c : Fin 2 => oLoc d ↦[coreSet c.val]{fullShare} f by
    rw [← pointsTo_biUnion Finset.univ _ core_disjoint, ← univ_eq])) $$ Ho
  isplitl [Hxt Hst Ho]
  · isplitl [Hxt]; · iexact Hxt
    isplitl [Hst]; · iexact Hst
    iapply (core_anys (U := U) d f) $$ Ho
  · isplitl [Hxr] <;> iassumption

/-- After it: the same back, the result at the gathered contents. -/
theorem dn_elim (d : Dev nD) :
    (iprop((bigSep Finset.univ fun c : Fin ((K (F := F)).nCore 0) => (P (U := U) X SRC).dn 0 d c) ∗ R X SRC d) : sProp 𝕄)
      ⊢ iprop((xLoc d ↦{fullShare} X d) ∗ (sLoc d ↦{fullShare} SRC d) ∗ oLoc d ↦{fullShare} GATH X SRC d) := by
  show (iprop((bigSep Finset.univ fun c : Fin 2 =>
        iprop((xLoc d ↦{Transfers.shareTok fullShare 2 c} X d) ∗ (sLoc d ↦{Transfers.shareTok fullShare 2 c} SRC d) ∗ oLoc d ↦[coreSet c.val]{fullShare} GATH X SRC d))
      ∗ ((xLoc d ↦{Transfers.shareDrop fullShare 2} X d) ∗ sLoc d ↦{Transfers.shareDrop fullShare 2} SRC d)) : sProp 𝕄)
    ⊢ iprop((xLoc d ↦{fullShare} X d) ∗ (sLoc d ↦{fullShare} SRC d) ∗ oLoc d ↦{fullShare} GATH X SRC d)
  rw [bigSep_sep', bigSep_sep']
  iintro ⟨⟨Hxt, Hst, Ho⟩, Hxr, Hsr⟩
  isplitl [Hxr Hxt]
  · iapply (Transfers.pointsTo_toks_join fullShare 2); isplitl [Hxr] <;> iassumption
  isplitl [Hsr Hst]
  · iapply (Transfers.pointsTo_toks_join fullShare 2); isplitl [Hsr] <;> iassumption
  iapply (Entails.of_eq (show (bigSep Finset.univ fun c : Fin 2 => (oLoc d ↦[coreSet c.val]{fullShare} GATH X SRC d : sProp 𝕄)) = oLoc d ↦{fullShare} GATH X SRC d by
    rw [← pointsTo_biUnion Finset.univ _ core_disjoint, ← univ_eq]))
  iexact Ho

end Cert.K.Sc

end
-- ==== Proof.TopRunK.lean ====
/-
  The launch: the ghost state's launch element (the handshakes' rounds, the two pipelines' staging cells and duty
  tokens, no counter yet), the reading of the final memory off the held buffers, and the program's run — every weakly
  fair execution of the device's threads terminates with every unscoped buffer of the TensorCore at the contents of
  the return.
-/
import proofs.«202620_g33904471835419_cont_8to1_b_799_54_alg».proof.Proof.TopRegionsK
import proofs.«202620_g33904471835419_cont_8to1_b_799_54_alg».proof.Proof.ScTileK
import proofs.«202620_g33904471835419_cont_8to1_b_799_54_alg».proof.Proof.ScSplitK

noncomputable section

namespace Cert.K.Top

open Cert.Kernel Cert.Kernel.Gen Cert.K.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 1) (Elt F) ℕ UU ℕ

variable (m : (ℓ : Loc nD τ sig) → Buf (Elt F) ℓ) (ρ : Dev nD → PrngReg)

variable (Sc : Scat (F := F))

/-- The launch element: the handshake cells' rounds, the pipelines' cells and duty tokens, no counter. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), (1 : Counters)))

omit [FloatOps F] in
theorem ownU_split (a : UH) (b : UP) :
    (ownU ((a, (b, (1 : Counters))) : UU) : sProp 𝕄) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem Gd_all : ((bigSep Finset.univ fun d : Dev nD => Gd (F := F) d) : sProp 𝕄)
    = iprop((bigSep Finset.univ fun c : Dev nD => bigSep Finset.univ fun p : Fin 2 => Pipeline.cellsGhost (Pipeline.pin (pcfgs (F := F)) adm) (EP (F := F)) p c)
        ∗ (bigSep Finset.univ fun c : Dev nD => bigSep Finset.univ fun p : Fin 2 => (Pipeline.toksInit (Pipeline.pin (pcfgs (F := F)) adm) (EP (F := F)) p c : sProp 𝕄))) := by
  unfold Gd; simp only [bigSep_sep']

theorem Px_all : ((bigSep Finset.univ fun thr : Thread nD τ => bigSep Finset.univ fun q : Fin 1 => (P (F := F) (U := UU) (X m) (SRC m)).x q thr) : sProp 𝕄) = iprop(emp) := by
  have e (I : Type) (s : Finset I) : (bigSep s fun _ => iprop(emp)) = (iprop(emp) : sProp 𝕄) := bigSep_emp_const s
  simp only [P_x, e]

/-- The launch element gives the handshakes' rounds, every core its two pipelines' ghost state, and the kernels' proofs
    nothing (the gather's copies are counted, not scheduled). -/
theorem hu₀ : (ownU (u₀ (F := F)) : sProp 𝕄)
    ⊢ |={Set.univ}=> iprop(BI.own (EH (F := F) (initOf (K (F := F)).hsCells (K (F := F)).hsToks)) ∗ (bigSep Finset.univ fun d : Dev nD => Gd (F := F) d)
        ∗ bigSep Finset.univ fun thr : Thread nD τ => bigSep Finset.univ fun q : Fin 1 => (P (F := F) (U := UU) (X m) (SRC m)).x q thr) := by
  unfold u₀
  iintro Hu
  ihave H := (ownU_split (F := F) _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · iapply (Entails.of_eq (Gd_all (F := F)).symm); isplitl [Hg] <;> iassumption
  · iapply (Entails.of_eq (Px_all m).symm); iempintro

/-- What is read off the final state on device `d`: every unscoped buffer of its TensorCore at the contents of the return. -/
def fq (d : Dev nD) (s' : Phys nD τ sig (Elt F)) : Prop := ∀ b ∈ Pipeline.ucRefs τ sig, s'.mem.mem (d, b) = W7 m Sc d b

theorem hfin (d : Dev nD) (s' : Phys nD τ sig (Elt F)) : iprop(FIN m Sc d ∗ SI s') ⊢ (⌜fq m Sc d s'⌝ : sProp 𝕄) := by
  have h := pointsTo_read_all (Ix := HIx 1) (Name := ℕ) (U := UU) (Lvl := ℕ) (Pipeline.ucRefs τ sig) (fun b => ((d, b) : Loc nD τ sig)) (W7 m Sc d) s'
  exact h.trans sep_elim_left

/-- The run's post: on every device, every unscoped buffer of the TensorCore at the contents of the return. -/
def QC : PUnit × MemSt nD τ sig (Elt F) → Prop := fun r => ∀ c : Dev nD, ∀ b ∈ Pipeline.ucRefs τ sig, r.2.mem (c, b) = W7 m Sc c b

/-- Where the source words name rows and the destination words name nodes, every weakly fair execution of the device's
    threads — the TensorCore's program, the sequencers, the thirty-two tiles — terminates, nothing faulting, with every
    unscoped buffer at the contents of the return. -/
theorem run [∀ e, Nonempty (Elt F e)] (hSRC : ∀ d e, (SRC m d e).toNat < 10000) (hok : ∀ c, Sc.ok (V3 m) c) :
    θ_run (Cert.Kernel.defs (F := F)) (Cert.Kernel.threads (F := F)) ⟨m, fun _ => 0, ρ⟩ (QC m Sc) :=
  SparseCore.Cfg.θ_run_sc (K := K (F := F)) (D := D (F := F)) (𝒱 := 𝒱) (EH := EH (F := F)) (P := P (F := F) (U := UU) (X m) (SRC m)) facts v₀
    (fun q hq => match q with | 0 => nomatch hq)
    (fun q _ => match q with | 0 => tile (X m) (SRC m) hSRC)
    (fun q _ => match q with | 0 => SparseCore.Cfg.VecSplit.of_plain (split (X m) (SRC m)))
    m ρ main (fun d => Gd (F := F) d) (FIN m Sc) (u₀ (F := F)) (sep_elim_left.trans (hu₀ m))
    (hmain m ρ Sc (st_intro (X m) (SRC m)) (dn_elim (X m) (SRC m)) hok) (fq m Sc) (hfin m Sc) (QC m Sc) (fun _ h => h)

end Cert.K.Top

end
-- ==== Proof.HeadFinalK.lean ====
import proofs.«202620_g33904471835419_cont_8to1_b_799_54_alg».proof.Proof.HeadDataK

/-!
# The head region: the output array after the run

Point `t` writes back rows `1000 t … 1000 t + 999` of the `10000 × 1` output array, and the ten points' blocks
tile it. So after the run the array holds, at row `r`, the entry `r % 1000` of the block the body stored at point
`r / 1000`; the input arrays are as the region found them.
-/

set_option maxRecDepth 16384

noncomputable section

namespace Cert.K.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

-- the TensorCore's buffer contents when the region is entered
variable (V : (c : Dev nD) → (b : Ref sig .tc) → Buf (Elt F) ((c : Thread nD τ).loc b))

/-! ## The output window's blocks -/

/-- Point `t`'s output block is row-block `t` (and the one column-block): decided over the ten points. -/
theorem idx2_11 : ∀ t : Fin cfg2.N, win2_11.index t (0 : Fin 2) = t.val ∧ win2_11.index t (1 : Fin 2) = 0 :=
  (by decide +kernel : ∀ t : Fin grid2.N, win2_11.index t (0 : Fin 2) = t.val ∧ win2_11.index t (1 : Fin 2) = 0)

/-- The point whose block holds a given element of the output array: its row divided by 1000; -/
def ptOf (i : S10000x1.Idx) : Fin cfg2.N :=
  ⟨(i 0).val / 1000, by
    have h : (i 0).val < 10000 := (i 0).isLt
    show (i 0).val / 1000 < grid2.N
    rw [N_2]; omega⟩

/-- and where in that block the element sits: its row modulo 1000, column 0. -/
def rowOf (i : S10000x1.Idx) : S1000x1.Idx := fun a =>
  match a with
  | ⟨0, _⟩ => ⟨(i 0).val % 1000, Nat.mod_lt _ (by decide)⟩
  | ⟨1, _⟩ => ⟨0, Nat.zero_lt_one⟩

/-- What the output array ends holding: at each element, the entry of the block stored at the element's point. -/
def GOut (c : Dev nD) : S10000x1.Idx → Elt F .f32 := fun i => outAt V c (ptOf i) (rowOf i)

/-- An element of the array is in point `t`'s block iff each coordinate is in the block's range on its axis. -/
theorem mem_blk2_11 (t : Fin cfg2.N) (i : S10000x1.Idx) :
    i ∈ ((cfg2.win 11).blk t).view.set ↔ ∀ a : Fin 2, win2_11.index t a * S1000x1.size a ≤ (i a).val ∧ (i a).val < win2_11.index t a * S1000x1.size a + S1000x1.size a := by
  show i ∈ ((View.whole main_v13).slice (win2_11.rect t)).set ↔ _
  rw [View.set_slice_whole, Rect.mem_set_unit]
  exact Iff.rfl

/-- WHAT POINT `t` WRITES BACK is block `t` of `GOut`: element `j` of the block sits at row `1000 t + j 0`, whose
    point is `t` and whose place in the block is `j`. -/
theorem flushed2_11 (c : Dev nD) (B : Set (SemLoc sig × Ix)) (t : Fin cfg2.N) :
    (dat2 (Name := Name) (U := U) (Lvl := Lvl) V c B).flushed 11 t = ((cfg2.win 11).blk t).view.read (Elt F) (GOut V c) := by
  show (cfg2.win 11).cut (grid2.coords t) ((dat2 (Name := Name) (U := U) (Lvl := Lvl) V c B).after 11 t) = _
  rw [after2_11]
  obtain ⟨e0, e1⟩ := idx2_11 t
  funext j
  show outAt V c t j = GOut V c (((cfg2.win 11).blk t).view.emb j)
  have h0 : ((((cfg2.win 11).blk t).view.emb j) 0).val = win2_11.index t (0 : Fin 2) * 1000 + 1 * (j 0).val := rfl
  have hj0 : (j 0).val < 1000 := (j 0).isLt
  have hj1 : (j 1).val < 1 := (j 1).isLt
  have hp : ptOf (((cfg2.win 11).blk t).view.emb j) = t :=
    Fin.ext (by show ((((cfg2.win 11).blk t).view.emb j) 0).val / 1000 = t.val; rw [h0, e0]; omega)
  have hr : rowOf (((cfg2.win 11).blk t).view.emb j) = j := by
    funext a
    match a with
    | ⟨0, _⟩ => exact Fin.ext (by show ((((cfg2.win 11).blk t).view.emb j) 0).val % 1000 = (j 0).val; rw [h0, e0]; omega)
    | ⟨1, _⟩ => exact Fin.ext (by show 0 = (j 1).val; omega)
  unfold GOut; rw [hp, hr]

/-- Every element of the output array is in the block of its point, which writes back. -/
theorem cover2_11 (i : S10000x1.Idx) :
    ∃ t : Fin cfg2.N, (cfg2.win 11).flush t = true ∧ i ∈ ((cfg2.win 11).blk t).view.set := by
  refine ⟨ptOf i, flush2_11 _, ?_⟩
  rw [mem_blk2_11]
  obtain ⟨e0, e1⟩ := idx2_11 (ptOf i)
  have hi0 : (i 0).val < 10000 := (i 0).isLt
  have hi1 : (i 1).val < 1 := (i 1).isLt
  have hp : (ptOf i).val = (i 0).val / 1000 := rfl
  intro a
  match a with
  | ⟨0, _⟩ =>
    show win2_11.index (ptOf i) (0 : Fin 2) * 1000 ≤ (i 0).val ∧ (i 0).val < win2_11.index (ptOf i) (0 : Fin 2) * 1000 + 1000
    rw [e0, hp]; omega
  | ⟨1, _⟩ =>
    show win2_11.index (ptOf i) (1 : Fin 2) * 1 ≤ (i 1).val ∧ (i 1).val < win2_11.index (ptOf i) (1 : Fin 2) * 1 + 1
    rw [e1]; omega

/-! ## The arrays after the run -/

/-- THE OUTPUT ARRAY after the ten points: `GOut`. -/
theorem final2 (c : Dev nD) (B : Set (SemLoc sig × Ix)) : (dat2 (Name := Name) (U := U) (Lvl := Lvl) V c B).arrAt 11 cfg2.N = GOut V c :=
  (dat2 (Name := Name) (U := U) (Lvl := Lvl) V c B).arrAt_eq_of_cover 11 (GOut V c) (fun t _ => flushed2_11 V c B t) cover2_11

/-- An input array is never written: after any number of points it is as the region found it. -/
theorem arrAt2_in (c : Dev nD) (B : Set (SemLoc sig × Ix)) (w : Fin cfg2.W) (hw : (cfg2.win w).isOut = false) (n : Nat) :
    (dat2 (Name := Name) (U := U) (Lvl := Lvl) V c B).arrAt w n = V c (Pipeline.arrRef spec2 w) :=
  ((dat2 (Name := Name) (U := U) (Lvl := Lvl) V c B).arrAt_in w hw n).trans (A_eq2 V c B w)

end Cert.K.Head

end
-- ==== Proof.TopArgsK.lean ====
import proofs.«202620_g33904471835419_cont_8to1_b_799_54_alg».proof.Proof.TopRegionsK
import proofs.«202620_g33904471835419_cont_8to1_b_799_54_alg».proof.Proof.HeadFinalK

/-!
# The arguments come back as launched

Between the launch and the return a TensorCore's buffers pass through four stretches of host operations, the gather's
result, and the two kernel regions' write-backs. No host operation writes an argument, the gather writes elsewhere,
no argument is an array of the scatter region, and an argument that is an input window of the head region is never
written by it. So each argument's buffer holds at the return what it held at the launch; and the same chain stopped
at the head region's entry says the head region is handed the arguments as launched.
-/

noncomputable section

namespace Cert.K.Top

open Cert.Kernel Cert.Kernel.Gen Cert.K.Sc
open Idealize.ShloMosaic Idealize.ShloMosaic.TcCoe
open Idealize.ShloMosaic.SparseCore (S V T)
open Idealize.ShloMosaic.SparseCore.Cfg (HIx Pay)
open Idealize.SL Idealize.SL.RA Idealize.SL.Sem
open Idealize.ShloMosaic.StableHlo (after after_of_writes_sub devRef_ne_of_ne)
open Cert.K.Head (dat2 arrAt2_in)

variable {F : FTy → Type} [FloatOps F]

/-! ## What each stretch of host operations writes -/

/-- An operation whose one written buffer is among a list of references writes inside that list. -/
theorem writes_sub_of_mem {Wl : List (Ref sig .tc)} {op : HloOp τ sig (Elt F)} {y : Ref sig .tc}
    (hw : op.writes = {Proc.devRef .tc y}) (hy : y ∈ Wl) :
    op.writes ⊆ (Wl.map (Proc.devRef (τ := τ) .tc)).toFinset := by
  rw [hw, Finset.singleton_subset_iff, List.mem_toFinset]
  exact List.mem_map_of_mem hy

def ops0_w : List (Ref sig .tc) := [main_v0, main_v1]
def ops1_w : List (Ref sig .tc) := [main_v3, main_v4, main_v5]
def ops2_w : List (Ref sig .tc) := [main_v7, main_v8, main_v9, main_v10, main_v11, main_v12]
def ops3_w : List (Ref sig .tc) := [main_v14, main_cst, main_v15, main_v16]

theorem ops0_hw : (ops0 (F := F)).Forall fun op => op.writes ⊆ (ops0_w.map (Proc.devRef (τ := τ) .tc)).toFinset :=
  ⟨writes_sub_of_mem (y := main_v0) rfl (by decide), writes_sub_of_mem (y := main_v1) rfl (by decide)⟩
theorem ops1_hw : (ops1 (F := F)).Forall fun op => op.writes ⊆ (ops1_w.map (Proc.devRef (τ := τ) .tc)).toFinset :=
  ⟨writes_sub_of_mem (y := main_v3) rfl (by decide), writes_sub_of_mem (y := main_v4) rfl (by decide),
    writes_sub_of_mem (y := main_v5) rfl (by decide)⟩
theorem ops2_hw : (ops2 (F := F)).Forall fun op => op.writes ⊆ (ops2_w.map (Proc.devRef (τ := τ) .tc)).toFinset :=
  ⟨writes_sub_of_mem (y := main_v7) rfl (by decide), writes_sub_of_mem (y := main_v8) rfl (by decide),
    writes_sub_of_mem (y := main_v9) rfl (by decide), writes_sub_of_mem (y := main_v10) rfl (by decide),
    writes_sub_of_mem (y := main_v11) rfl (by decide), writes_sub_of_mem (y := main_v12) rfl (by decide)⟩
theorem ops3_hw : (ops3 (F := F)).Forall fun op => op.writes ⊆ (ops3_w.map (Proc.devRef (τ := τ) .tc)).toFinset :=
  ⟨writes_sub_of_mem (y := main_v14) rfl (by decide), writes_sub_of_mem (y := main_cst) rfl (by decide),
    writes_sub_of_mem (y := main_v15) rfl (by decide), writes_sub_of_mem (y := main_v16) rfl (by decide)⟩

/-! ## A buffer nothing writes, along the chain -/

variable (m : (ℓ : Loc nD τ sig) → Buf (Elt F) ℓ) (Sc : Scat (F := F)) (d : Dev nD)

/-- Up to the head region's entry nothing writes `b`: no host operation of the first three stretches, not the
    gather, and it is no array of the scatter region. -/
def Kept5 (b : Ref sig .tc) : Prop :=
  b ∉ ops0_w ∧ b ≠ main_v2 ∧ b ∉ ops1_w ∧ (∀ w, Pipeline.arrRef spec1 w ≠ b) ∧ b ∉ ops2_w
instance (b : Ref sig .tc) : Decidable (Kept5 b) := by unfold Kept5; infer_instance

/-- Through the head region and the last stretch as well: `b` is no array of the head region, or is an input's; and
    the last stretch does not write it. -/
def Kept7 (b : Ref sig .tc) : Prop :=
  Kept5 b ∧ ((∀ w, Pipeline.arrRef spec2 w ≠ b) ∨ ∃ w, Pipeline.arrRef spec2 w = b ∧ (cfg2.win w).isOut = false) ∧ b ∉ ops3_w
instance (b : Ref sig .tc) : Decidable (Kept7 b) := by unfold Kept7; infer_instance

theorem W3_keep {b : Ref sig .tc} (h0 : b ∉ ops0_w) (h2 : b ≠ main_v2) (h1 : b ∉ ops1_w) :
    W3 m d (Proc.devRef .tc b) = m (d, Proc.devRef .tc b) :=
  (after_of_writes_sub ops1 _ ops1_hw h1).trans
    ((show W2 m d (Proc.devRef .tc b) = W1 m d (Proc.devRef .tc b) from Function.update_of_ne (devRef_ne_of_ne h2) _ _).trans
      (after_of_writes_sub ops0 _ ops0_hw h0))

theorem W4_keep {b : Ref sig .tc} (h0 : b ∉ ops0_w) (h2 : b ≠ main_v2) (h1 : b ∉ ops1_w) (h3 : ∀ w, Pipeline.arrRef spec1 w ≠ b) :
    W4 m Sc d (Proc.devRef .tc b) = m (d, Proc.devRef .tc b) :=
  (W4_of_ne m Sc d b h3).trans (W3_keep m d h0 h2 h1)

/-- A buffer nothing writes up to the head region's entry is there as launched. -/
theorem W5_keep {b : Ref sig .tc} (h : Kept5 b) : W5 m Sc d (Proc.devRef .tc b) = m (d, Proc.devRef .tc b) :=
  (after_of_writes_sub ops2 _ ops2_hw h.2.2.2.2).trans (W4_keep m Sc d h.1 h.2.1 h.2.2.1 h.2.2.2.1)

/-- The head region leaves every buffer but its output array as it found it: an input array is never written. -/
theorem W6_keep {b : Ref sig .tc}
    (h : (∀ w, Pipeline.arrRef spec2 w ≠ b) ∨ ∃ w, Pipeline.arrRef spec2 w = b ∧ (cfg2.win w).isOut = false) :
    W6 m Sc d (Proc.devRef .tc b) = W5 m Sc d (Proc.devRef .tc b) := by
  rcases h with h | ⟨w, rfl, hw⟩
  · exact W6_of_ne m Sc d b h
  · exact (W6_arr m Sc d w).trans (arrAt2_in (V5 m Sc) d _ w hw cfg2.N)

/-- A buffer nothing writes comes back as launched. -/
theorem W7_keep {b : Ref sig .tc} (h : Kept7 b) : W7 m Sc d (Proc.devRef .tc b) = m (d, Proc.devRef .tc b) :=
  (after_of_writes_sub ops3 _ ops3_hw h.2.2).trans ((W6_keep m Sc d h.2.1).trans (W5_keep m Sc d h.1))

/-! ## The ten arguments come back as launched -/

theorem W7_arg0 : W7 m Sc d (Proc.devRef .tc main_arg0) = m (d, Proc.devRef .tc main_arg0) := W7_keep m Sc d (by decide)
theorem W7_arg1 : W7 m Sc d (Proc.devRef .tc main_arg1) = m (d, Proc.devRef .tc main_arg1) := W7_keep m Sc d (by decide)
theorem W7_arg2 : W7 m Sc d (Proc.devRef .tc main_arg2) = m (d, Proc.devRef .tc main_arg2) := W7_keep m Sc d (by decide)
theorem W7_arg3 : W7 m Sc d (Proc.devRef .tc main_arg3) = m (d, Proc.devRef .tc main_arg3) := W7_keep m Sc d (by decide)
theorem W7_arg4 : W7 m Sc d (Proc.devRef .tc main_arg4) = m (d, Proc.devRef .tc main_arg4) := W7_keep m Sc d (by decide)
theorem W7_arg5 : W7 m Sc d (Proc.devRef .tc main_arg5) = m (d, Proc.devRef .tc main_arg5) := W7_keep m Sc d (by decide)
theorem W7_arg6 : W7 m Sc d (Proc.devRef .tc main_arg6) = m (d, Proc.devRef .tc main_arg6) := W7_keep m Sc d (by decide)
theorem W7_arg7 : W7 m Sc d (Proc.devRef .tc main_arg7) = m (d, Proc.devRef .tc main_arg7) := W7_keep m Sc d (by decide)
theorem W7_arg8 : W7 m Sc d (Proc.devRef .tc main_arg8) = m (d, Proc.devRef .tc main_arg8) := W7_keep m Sc d (by decide)
theorem W7_arg9 : W7 m Sc d (Proc.devRef .tc main_arg9) = m (d, Proc.devRef .tc main_arg9) := W7_keep m Sc d (by decide)

/-- and are as launched when the head region is entered. -/
theorem W5_arg0 : W5 m Sc d (Proc.devRef .tc main_arg0) = m (d, Proc.devRef .tc main_arg0) := W5_keep m Sc d (by decide)
theorem W5_arg1 : W5 m Sc d (Proc.devRef .tc main_arg1) = m (d, Proc.devRef .tc main_arg1) := W5_keep m Sc d (by decide)
theorem W5_arg2 : W5 m Sc d (Proc.devRef .tc main_arg2) = m (d, Proc.devRef .tc main_arg2) := W5_keep m Sc d (by decide)
theorem W5_arg3 : W5 m Sc d (Proc.devRef .tc main_arg3) = m (d, Proc.devRef .tc main_arg3) := W5_keep m Sc d (by decide)
theorem W5_arg4 : W5 m Sc d (Proc.devRef .tc main_arg4) = m (d, Proc.devRef .tc main_arg4) := W5_keep m Sc d (by decide)
theorem W5_arg5 : W5 m Sc d (Proc.devRef .tc main_arg5) = m (d, Proc.devRef .tc main_arg5) := W5_keep m Sc d (by decide)
theorem W5_arg6 : W5 m Sc d (Proc.devRef .tc main_arg6) = m (d, Proc.devRef .tc main_arg6) := W5_keep m Sc d (by decide)
theorem W5_arg7 : W5 m Sc d (Proc.devRef .tc main_arg7) = m (d, Proc.devRef .tc main_arg7) := W5_keep m Sc d (by decide)
theorem W5_arg8 : W5 m Sc d (Proc.devRef .tc main_arg8) = m (d, Proc.devRef .tc main_arg8) := W5_keep m Sc d (by decide)
theorem W5_arg9 : W5 m Sc d (Proc.devRef .tc main_arg9) = m (d, Proc.devRef .tc main_arg9) := W5_keep m Sc d (by decide)

/-- The same for any of the ten at once. -/
theorem args_kept : ∀ b ∈ ([main_arg0, main_arg1, main_arg2, main_arg3, main_arg4, main_arg5, main_arg6, main_arg7, main_arg8, main_arg9] : List (Ref sig .tc)), Kept7 b := by decide
theorem W7_arg (b : Ref sig .tc) (hb : b ∈ ([main_arg0, main_arg1, main_arg2, main_arg3, main_arg4, main_arg5, main_arg6, main_arg7, main_arg8, main_arg9] : List (Ref sig .tc))) :
    W7 m Sc d (Proc.devRef .tc b) = m (d, Proc.devRef .tc b) := W7_keep m Sc d (args_kept b hb)
theorem W5_arg (b : Ref sig .tc) (hb : b ∈ ([main_arg0, main_arg1, main_arg2, main_arg3, main_arg4, main_arg5, main_arg6, main_arg7, main_arg8, main_arg9] : List (Ref sig .tc))) :
    W5 m Sc d (Proc.devRef .tc b) = m (d, Proc.devRef .tc b) := W5_keep m Sc d (args_kept b hb).1

end Cert.K.Top

end
-- ==== Proof.PreTopK.lean ====
/-
  The precondition at the two places the program reads the edge list.

  The source words the gather reads (`main_v1`) are row 0 of the edge array flattened, and the destination words the
  scatter reads (`main_v5`) are row 1 flattened and cut into chunks: slices and reshapes, so each word is a word of the
  edge array, which the precondition bounds by `[0, 9999]` (signed; hence below 10000 unsigned).
-/
import proofs.«202620_g33904471835419_cont_8to1_b_799_54_alg».proof.Proof.TopProgK
import proofs.«202620_g33904471835419_cont_8to1_b_799_54_alg».proof.Proof.PreRange
import Idealize.ShloMosaic.Lib.ValueLayout
import Idealize.ShloMosaic.Lib.Pipeline.Value

noncomputable section

namespace Cert.K.Top

open Cert.Kernel Cert.Kernel.Gen Cert.K.Sc
open Idealize.ShloMosaic Idealize.ShloMosaic.TcCoe
open Idealize.ShloMosaic.SparseCore (S V T)
open Idealize.SL.Sem
open Idealize.ShloMosaic.ValueIdx
open Idealize.ShloMosaic.StableHlo (after after_cons after_nil)

variable {F : FTy → Type} [FloatOps F]

variable (m : (ℓ : Loc nD τ sig) → Buf (Elt F) ℓ)

/-- A word in `[0, 9999]` read signed is below 10000 read unsigned. -/
theorem toNat_lt (w : BitVec 32) (h0 : 0 ≤ w.toInt) (h9 : w.toInt ≤ 9999) : w.toNat < 10000 := by
  rw [BitVec.toInt_eq_toNat_cond] at h0 h9
  split at h0 <;> omega

/-- Every source word is a word of the edge array. -/
theorem SRC_word (d : Dev nD) (e : S320000.Idx) : ∃ k, SRC m d e = m ((d.tc : Thread nD τ).loc main_arg1) k := by
  refine ⟨?_, ?_⟩
  swap
  show after ops0 (W0 m d) (Proc.devRef .tc main_v1) e = _
  after_results
  rfl

/-- The launch's edge array is still there after the first host stretch and the gather. -/
theorem W2_arg1 (d : Dev nD) : W2 m d (Proc.devRef .tc main_arg1) = m ((d.tc : Thread nD τ).loc main_arg1) := by
  unfold W2
  rw [Function.update_of_ne (by decide)]
  show after ops0 (W0 m d) (Proc.devRef .tc main_arg1) = _
  after_results

/-- Every destination word is a word of the edge array. -/
theorem DST_word (d : Dev nD) (i : S2500x1x128.Idx) : ∃ k, W3 m d (Proc.devRef .tc main_v5) i = m ((d.tc : Thread nD τ).loc main_arg1) k := by
  refine ⟨?_, ?_⟩
  swap
  show after ops1 (W2 m d) (Proc.devRef .tc main_v5) i = _
  after_results
  rw [W2_arg1]
  rfl

/-! ## The two readings, index by index -/

/-- Source word `e` is entry `(0, e)` of the edge array. -/
theorem SRC_read (d : Dev nD) (e : Fin 320000) :
    SRC m d (ix1 e) = m ((d.tc : Thread nD τ).loc main_arg1) (ix2 (0 : Fin 2) e) := by
  show after ops0 (W0 m d) (Proc.devRef .tc main_v1) (ix1 e) = _
  after_results
  show shapeCast S320000 (extractStridedSlice S1x320000 ![0, 0] (m ((d.tc : Thread nD τ).loc main_arg1)) slices_S2x320000_S1x320000_0_0)
    shapeCasts_S1x320000_S320000 (ix1 e) = _
  rw [shapeCast_1a_a_apply]
  exact extractStridedSlice_apply _ _ _ _ _ (fun a => by
    match a with
    | ⟨0, _⟩ => rfl
    | ⟨1, _⟩ => exact (Nat.zero_add _).symm)

/-- Word `j` of chunk `t` is edge `128 t + j`. -/
theorem edge_lt (t : Fin 2500) (j : Fin 128) : 128 * t.val + j.val < 320000 := by
  have := t.isLt; have := j.isLt; omega

/-- Destination word `j` of chunk `t` is entry `(1, 128 t + j)` of the edge array. -/
theorem DST_read (d : Dev nD) (t : Fin 2500) (j : Fin 128) :
    W3 m d (Proc.devRef .tc main_v5) (ix3 t (0 : Fin 1) j)
      = m ((d.tc : Thread nD τ).loc main_arg1) (ix2 (1 : Fin 2) ⟨128 * t.val + j.val, edge_lt t j⟩) := by
  show after ops1 (W2 m d) (Proc.devRef .tc main_v5) (ix3 t (0 : Fin 1) j) = _
  after_results
  rw [W2_arg1]
  show shapeCast S2500x1x128 (shapeCast S320000 (extractStridedSlice S1x320000 ![1, 0] (m ((d.tc : Thread nD τ).loc main_arg1)) slices_S2x320000_S1x320000_1_0)
    shapeCasts_S1x320000_S320000) shapeCasts_S320000_S2500x1x128 (ix3 t (0 : Fin 1) j) = _
  rw [shapeCast_apply _ _ _ (ix1 (⟨128 * t.val + j.val, edge_lt t j⟩ : Fin 320000)) (by
    rw [Shape.rowMajor_val_one, Shape.rowMajor_val_three]
    show 128 * t.val + j.val = (t.val * 1 + 0) * 128 + j.val
    omega)]
  rw [shapeCast_1a_a_apply]
  exact extractStridedSlice_apply _ _ _ _ _ (fun a => by
    match a with
    | ⟨0, _⟩ => rfl
    | ⟨1, _⟩ => exact (Nat.zero_add _).symm)

/-! ## The ranges -/

/-- The gather's offsets name rows of the table, from the edge array's range. -/
theorem hSRC_of_range (d : Dev nD)
    (hei : ∀ j, 0 ≤ (m ((d.tc : Thread nD τ).loc main_arg1) j).toInt ∧ (m ((d.tc : Thread nD τ).loc main_arg1) j).toInt ≤ 9999) :
    ∀ e, (SRC m d e).toNat < 10000 := by
  intro e
  obtain ⟨k, hk⟩ := SRC_word m d e
  rw [hk]; exact toNat_lt _ (hei k).1 (hei k).2

/-- The scatter's destinations name nodes, from the edge array's range. -/
theorem hDST_of_range (d : Dev nD)
    (hei : ∀ j, 0 ≤ (m ((d.tc : Thread nD τ).loc main_arg1) j).toInt ∧ (m ((d.tc : Thread nD τ).loc main_arg1) j).toInt ≤ 9999) :
    ∀ i, 0 ≤ (W3 m d (Proc.devRef .tc main_v5) i).toInt ∧ (W3 m d (Proc.devRef .tc main_v5) i).toInt ≤ 9999 := by
  intro i
  obtain ⟨k, hk⟩ := DST_word m d i
  rw [hk]; exact hei k

/-- The precondition on device `d`, as the claim spells it. -/
abbrev PreAt (d : Dev nD) : Prop :=
  Cert.Pre_input_domain.fn (F := F) (m ((d.tc : Thread nD τ).loc main_arg0)) (m ((d.tc : Thread nD τ).loc main_arg1)) (m ((d.tc : Thread nD τ).loc main_arg2))
    (m ((d.tc : Thread nD τ).loc main_arg3)) (m ((d.tc : Thread nD τ).loc main_arg4)) (m ((d.tc : Thread nD τ).loc main_arg5)) (m ((d.tc : Thread nD τ).loc main_arg6))
    (m ((d.tc : Thread nD τ).loc main_arg7)) (m ((d.tc : Thread nD τ).loc main_arg8)) (m ((d.tc : Thread nD τ).loc main_arg9)) = fun _ => 1#1

/-- The gather's offsets name rows of the table. -/
theorem hSRC_of (d : Dev nD) (h : PreAt m d) : ∀ e, (SRC m d e).toNat < 10000 := by
  intro e
  obtain ⟨k, hk⟩ := SRC_word m d e
  have hr := Cert.PreRange.edge_range _ _ _ _ _ _ _ _ _ _ h k
  rw [hk]; exact toNat_lt _ hr.1 hr.2

/-- The scatter's destinations name nodes. -/
theorem hDST_of (d : Dev nD) (h : PreAt m d) :
    ∀ i, 0 ≤ (W3 m d (Proc.devRef .tc main_v5) i).toInt ∧ (W3 m d (Proc.devRef .tc main_v5) i).toInt ≤ 9999 := by
  intro i
  obtain ⟨k, hk⟩ := DST_word m d i
  rw [hk]; exact Cert.PreRange.edge_range _ _ _ _ _ _ _ _ _ _ h k

end Cert.K.Top

end
-- ==== Proof.TopClaimsK.lean ====
/-
  The two statements the certificate's conjuncts are read off: under the precondition, every weakly fair execution of
  the device's threads terminates, nothing faulting, with the ten argument arrays as launched (at any float
  instance); and with the result array at the contents the program's valuations name.
-/
import proofs.«202620_g33904471835419_cont_8to1_b_799_54_alg».proof.Proof.TopRunK
import proofs.«202620_g33904471835419_cont_8to1_b_799_54_alg».proof.Proof.TopArgsK
import proofs.«202620_g33904471835419_cont_8to1_b_799_54_alg».proof.Proof.PreTopK

noncomputable section

namespace Cert.K.Top

open Cert.Kernel Cert.Kernel.Gen Cert.K.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 1) (Elt F) ℕ UU ℕ

variable (m : (ℓ : Loc nD τ sig) → Buf (Elt F) ℓ) (ρ : Dev nD → PrngReg)

variable (Sc : Scat (F := F))

/-- An unscoped TensorCore buffer is among those the run's post names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the run, with the arguments read off the buffers at the return (no host operation, no region and no
    SparseCore task writes one). -/
theorem frame_of [∀ e, Nonempty (Elt F e)] (hpre : ∀ c, PreAt m c) (hok : ∀ c, Sc.ok (V3 m) c) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c =>
    ⟨(h c _ (mem_uc main_arg0 (by decide))).trans (W7_arg0 m Sc c),
     (h c _ (mem_uc main_arg1 (by decide))).trans (W7_arg1 m Sc c),
     (h c _ (mem_uc main_arg2 (by decide))).trans (W7_arg2 m Sc c),
     (h c _ (mem_uc main_arg3 (by decide))).trans (W7_arg3 m Sc c),
     (h c _ (mem_uc main_arg4 (by decide))).trans (W7_arg4 m Sc c),
     (h c _ (mem_uc main_arg5 (by decide))).trans (W7_arg5 m Sc c),
     (h c _ (mem_uc main_arg6 (by decide))).trans (W7_arg6 m Sc c),
     (h c _ (mem_uc main_arg7 (by decide))).trans (W7_arg7 m Sc c),
     (h c _ (mem_uc main_arg8 (by decide))).trans (W7_arg8 m Sc c),
     (h c _ (mem_uc main_arg9 (by decide))).trans (W7_arg9 m Sc c)⟩)
    (run m ρ Sc (fun d => hSRC_of m d (hpre d)) hok)

/-- The same run with the result array named. -/
theorem value_run [∀ e, Nonempty (Elt F e)] (hpre : ∀ c, PreAt m c) (hok : ∀ c, Sc.ok (V3 m) c) :
    θ_run (Cert.Kernel.defs (F := F)) (Cert.Kernel.threads (F := F)) ⟨m, fun _ => 0, ρ⟩ (fun r => ∀ c : Dev nD,
      r.2.mem ((c.tc : Thread nD τ).loc main_v16) = W7 m Sc c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c =>
    ⟨h c _ (mem_uc main_v16 (by decide)),
     (h c _ (mem_uc main_arg0 (by decide))).trans (W7_arg0 m Sc c),
     (h c _ (mem_uc main_arg1 (by decide))).trans (W7_arg1 m Sc c),
     (h c _ (mem_uc main_arg2 (by decide))).trans (W7_arg2 m Sc c),
     (h c _ (mem_uc main_arg3 (by decide))).trans (W7_arg3 m Sc c),
     (h c _ (mem_uc main_arg4 (by decide))).trans (W7_arg4 m Sc c),
     (h c _ (mem_uc main_arg5 (by decide))).trans (W7_arg5 m Sc c),
     (h c _ (mem_uc main_arg6 (by decide))).trans (W7_arg6 m Sc c),
     (h c _ (mem_uc main_arg7 (by decide))).trans (W7_arg7 m Sc c),
     (h c _ (mem_uc main_arg8 (by decide))).trans (W7_arg8 m Sc c),
     (h c _ (mem_uc main_arg9 (by decide))).trans (W7_arg9 m Sc c)⟩)
    (run m ρ Sc (fun d => hSRC_of m d (hpre d)) hok)

end Cert.K.Top

end
-- ==== Proof.ScatChk.lean ====
import proofs.«202620_g33904471835419_cont_8to1_b_799_54_alg».proof.Proof.Gen.KernelIdeal
import Idealize.ShloMosaic.Lib.Pipeline.Frame

noncomputable section

namespace Cert.KI.Scat

open Cert.KernelIdeal Cert.KernelIdeal.Gen
open Idealize.ShloMosaic Idealize.ShloMosaic.TcCoe

variable {F : FTy → Type} [FloatOps F]

/-! ## The side condition of the block offset computed from a destination word

Each of the 128 edges of a grid point reads its destination word `v`, takes `blk = ⌊v / 8⌋` and touches the
block `[blk, blk + 1) × [0, 8) × [0, 128)` of the two `1250 × 8 × 128` accumulators. The block is inside the
array exactly when `blk ≤ 1249`; for a word that names a node, `0 ≤ v ≤ 9999`, it is. -/

/-- The offsets' side condition at each of the ten thousand node numbers, by evaluation. -/
theorem chk_table : ∀ n : Fin 10000, k1_chk1 (BitVec.ofNat 32 n.val) := by decide +kernel

/-- A word that names a node satisfies the side condition of its block's offsets. All 128 printed conditions
    are this one up to the names of the intermediate words, so each unfolds to it. -/
theorem chk_of_range (v : BitVec 32) (h0 : 0 ≤ v.toInt) (h1 : v.toInt ≤ 9999) : k1_chk1 v := by
  have hn : v.toNat < 10000 := by
    have := BitVec.toInt_eq_toNat_cond v; split at this <;> omega
  have := chk_table ⟨v.toNat, hn⟩
  simpa [BitVec.ofNat_toNat] using this

/-- A word read off a whole SMEM block whose every word names a node, does. -/
theorem word_range {arg1 : Memref sig .tc .smem S1x1x128 .i32} (harg1 : arg1.IsWhole) {x1 : S1x1x128.Idx → Elt F .i32}
    (hr : ∀ y, 0 ≤ (x1 y).toInt ∧ (x1 y).toInt ≤ 9999) (r : LoadRect S1x1x128) (j : r.shape.Idx) :
    0 ≤ (View.readAt (Elt F) arg1.view r (harg1.unread x1) j).toInt
      ∧ (View.readAt (Elt F) arg1.view r (harg1.unread x1) j).toInt ≤ 9999 := by
  rw [View.readAt_apply, harg1.read_unread]; exact hr _

/-- The condition of the body's one `scf.if`: the grid coordinate is zero. -/
abbrev cond1_0 (i : grid1.Coords) : Prop :=
  (Scalar.cmpi .ne (Scalar.extui (Scalar.cmpi .eq (BitVec.ofNat 32 (i 0).val) 0#32)) 0#32) = 1#1

/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

end Cert.KI.Scat

end
-- ==== Proof.ScatStep.lean ====
import proofs.«202620_g33904471835419_cont_8to1_b_799_54_alg».proof.Proof.ScatChk
import proofs.«202620_g33904471835419_cont_8to1_b_799_54_alg».proof.Proof.Gen.KernelIdeal.Skeleton
import Idealize.ShloMosaic.Lib.Pipeline.Value

/-!
# The scatter region: one edge's update, and a point's 128

An edge with destination word `v` and message row `ρ` changes one block of each accumulator: block
`⌊v / 8⌋` of the sums becomes itself plus `ρ` in sublane `v mod 8` (the indicator of the sublane times the row,
added), the same block of the counts becomes itself plus the indicator. Here that update is a function on whole
`1250 × 8 × 128` arrays (`stepAgg`, `stepDeg`), a grid point's update is the 128 of them in edge order
(`chunkAgg`, `chunkDeg`), and the same update on the raw contents of a buffer (`stepRaw`, `stepRawDeg`:
one store of the new block over the contents) reads as the function (`read_stepRaw`, `read_stepRawDeg`).
-/

set_option maxRecDepth 16384

noncomputable section

namespace Cert.KI.Scat

open Cert.KernelIdeal Cert.KernelIdeal.Gen
open Idealize.ShloMosaic Idealize.ShloMosaic.TcCoe

variable {F : FTy → Type} [FloatOps F]

/-! ## Rectangles -/

theorem inb_word (k : Nat) (hk : k < 128) : ∀ a, (![0, 0, k] : Fin 3 → Nat) a + S1x1x1.size a ≤ S1x1x128.size a := by
  intro a
  match a with
  | 0 => exact Nat.le_refl 1
  | 1 => exact Nat.le_refl 1
  | 2 => show k + 1 ≤ 128; omega

theorem inb_row (k : Nat) (hk : k < 128) : ∀ a, (![k, 0] : Fin 2 → Nat) a + S1x128.size a ≤ S128x128.size a := by
  intro a
  match a with
  | 0 => show k + 1 ≤ 128; omega
  | 1 => exact Nat.le_refl 128

/-- Cell `k` of the point's block of destination words. -/
abbrev rWord (k : Nat) (hk : k < 128) : Rect S1x1x128 := Rect.unit (s := S1x1x128) ![0, 0, k] S1x1x1.size (inb_word k hk)
/-- Row `k` of the point's block of message rows. -/
abbrev rRow (k : Nat) (hk : k < 128) : Rect S128x128 := Rect.unit (s := S128x128) ![k, 0] S1x128.size (inb_row k hk)
/-- The block of an accumulator the edge with destination word `w` touches. -/
abbrev rBlk (w : BitVec 32) (hw : k1_chk1 w) : Rect S1250x8x128 :=
  Rect.unit (s := S1250x8x128) (k1_off1 w) S1x8x128.size (k1_off1_inb w hw)

/-- Edge `k`'s destination word. -/
def wordOf (x1 : S1x1x128.Idx → Elt F .i32) (k : Nat) (hk : k < 128) : BitVec 32 :=
  View.ld x1 (rWord k hk) (Shape.Idx.first (show 0 < (1 : Nat) from Nat.one_pos))
/-- Edge `k`'s message row. -/
def rowOf (x2 : Vec F S128x128 .f32) (k : Nat) (hk : k < 128) : Vec F S1x128 .f32 := View.ld x2 (rRow k hk)

/-! ## One edge -/

/-- The sums after one edge: block `⌊w / 8⌋` has the row added in sublane `w mod 8`. (For a word that names
    no node the update is not defined by the program; the function leaves the array.) -/
def stepAgg (w : BitVec 32) (row : Vec F S1x128 .f32) (a : Vec F S1250x8x128 .f32) : Vec F S1250x8x128 .f32 :=
  if hw : k1_chk1 w then (rBlk w hw).overlay a (k1_pay5 w row (View.ld a (rBlk w hw))) else a

/-- The counts after one edge: block `⌊w / 8⌋` has the indicator of sublane `w mod 8` added. -/
def stepDeg (w : BitVec 32) (a : Vec F S1250x8x128 .f32) : Vec F S1250x8x128 .f32 :=
  if hw : k1_chk1 w then (rBlk w hw).overlay a (k1_pay6 (k1_pay4 (F := F) w) (View.ld a (rBlk w hw))) else a

/-! ## A point's 128 edges, in order -/

/-- The sums after the first `n` edges of a point whose words are `x1` and rows `x2`. -/
def aggUpTo (x1 : S1x1x128.Idx → Elt F .i32) (x2 : Vec F S128x128 .f32) (a : Vec F S1250x8x128 .f32) :
    (n : Nat) → n ≤ 128 → Vec F S1250x8x128 .f32
  | 0, _ => a
  | n + 1, h => stepAgg (wordOf x1 n (by omega)) (rowOf x2 n (by omega)) (aggUpTo x1 x2 a n (by omega))

/-- The counts after the first `n` edges. -/
def degUpTo (x1 : S1x1x128.Idx → Elt F .i32) (a : Vec F S1250x8x128 .f32) :
    (n : Nat) → n ≤ 128 → Vec F S1250x8x128 .f32
  | 0, _ => a
  | n + 1, h => stepDeg (wordOf x1 n (by omega)) (degUpTo x1 a n (by omega))

/-- A grid point's update of the sums, and of the counts. -/
def chunkAgg (x1 : S1x1x128.Idx → Elt F .i32) (x2 : Vec F S128x128 .f32) (a : Vec F S1250x8x128 .f32) : Vec F S1250x8x128 .f32 :=
  aggUpTo x1 x2 a 128 (Nat.le_refl _)
def chunkDeg (x1 : S1x1x128.Idx → Elt F .i32) (a : Vec F S1250x8x128 .f32) : Vec F S1250x8x128 .f32 :=
  degUpTo x1 a 128 (Nat.le_refl _)

/-- The array of zeros the first point stores over each accumulator. -/
def zeros : Vec F S1250x8x128 .f32 := k1_pay2 (F := F)

/-! ## The same on raw contents -/

/-- After one more store, a buffer reads as before with the store's rectangle replaced by its payload. -/
theorem read_writes_cons_overlay {sig : RefSig} {κ : Kind} {sp : Space} {s : Shape} {e : EltTy} {Val : EltTy → Type}
    (v : View sig κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons]
    exact View.read_slice_write_of_not_mem r _ _ _ (by rw [Rect.map_emb_univ]; exact hy)

variable (M : Memref sig .tc .vmem S1250x8x128 .f32)

/-- One edge's store into the sums' buffer: the new block written over the contents. -/
def stepRaw (w : BitVec 32) (hw : k1_chk1 w) (row : Vec F S1x128 .f32) (C : M.view.ty.Contents (Elt F)) : M.view.ty.Contents (Elt F) :=
  M.view.writes (Elt F) C
    [⟨rBlk w hw, k1_pay5 w row (View.readAt (Elt F) M.view (rBlk w hw).toLoadRect C)⟩]

/-- One edge's store into the counts' buffer. -/
def stepRawDeg (w : BitVec 32) (hw : k1_chk1 w) (C : M.view.ty.Contents (Elt F)) : M.view.ty.Contents (Elt F) :=
  M.view.writes (Elt F) C
    [⟨rBlk w hw, k1_pay6 (k1_pay4 (F := F) w) (View.readAt (Elt F) M.view (rBlk w hw).toLoadRect C)⟩]

theorem read_stepRaw (w : BitVec 32) (hw : k1_chk1 w) (row : Vec F S1x128 .f32) (C : M.view.ty.Contents (Elt F)) :
    M.view.read (Elt F) (stepRaw M w hw row C) = stepAgg w row (M.view.read (Elt F) C) := by
  unfold stepRaw stepAgg
  rw [dif_pos hw, read_writes_cons_overlay]
  rfl

theorem read_stepRawDeg (w : BitVec 32) (hw : k1_chk1 w) (C : M.view.ty.Contents (Elt F)) :
    M.view.read (Elt F) (stepRawDeg M w hw C) = stepDeg w (M.view.read (Elt F) C) := by
  unfold stepRawDeg stepDeg
  rw [dif_pos hw, read_writes_cons_overlay]
  rfl

end Cert.KI.Scat

end
-- ==== Proof.ScatData.lean ====
import proofs.«202620_g33904471835419_cont_8to1_b_799_54_alg».proof.Proof.ScatStep
import proofs.«202620_g33904471835419_cont_8to1_b_799_54_alg».proof.Proof.Gen.KernelIdeal.Launch
import proofs.«202620_g33904471835419_cont_8to1_b_799_54_alg».proof.Proof.Gen.KernelIdeal.Skeleton
import proofs.«202620_g33904471835419_cont_8to1_b_799_54_alg».proof.Proof.Gen.KernelIdeal.Points
import Idealize.ShloMosaic.Lib.Pipeline.Value
import Idealize.ShloMosaic.Lib.Tactic

/-!
# The scatter region: its data

The scatter runs over 2500 grid points. At point `t` it is handed the point's 128 destination words and the point's
128 message rows; its two outputs, the sums and the counts, are whole arrays whose staging buffers stay in place from
point to point and are written back after the last point only. So what the body finds in an accumulator at point
`t + 1` is what it left there at point `t`; at point 0 it finds anything, and stores zeros first.

This file names the blocks, the accumulators after each point (a recursion on the point: the point's update of the
previous point's, from zeros), and the proof data of the pipeline, with what each window's buffer holds when the body
runs.
-/

set_option maxRecDepth 16384

noncomputable section

namespace Cert.KI.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

-- the TensorCore's buffer contents when the region is entered: the parameter everything below is stated at
variable (V : (c : Dev nD) → (b : Ref sig .tc) → Buf (Elt F) ((c : Thread nD τ).loc b))

/-! ## The windows' blocks, and the accumulators point by point -/

/-- Window `w`'s block at point `t`, read off its array as the region finds it (`V`). -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The sums after point `n`: the point's 128 edges applied to the sums after point `n - 1`; to zeros at point 0. -/
def aggAt (c : Dev nD) : (n : ℕ) → n < cfg1.N → Vec F S1250x8x128 .f32
  | 0, h => chunkAgg (iblk1 V c 0 ⟨0, h⟩) (iblk1 V c 1 ⟨0, h⟩) zeros
  | n + 1, h => chunkAgg (iblk1 V c 0 ⟨n + 1, h⟩) (iblk1 V c 1 ⟨n + 1, h⟩) (aggAt c n (Nat.lt_of_succ_lt h))

/-- The counts after point `n`. -/
def degAt (c : Dev nD) : (n : ℕ) → n < cfg1.N → Vec F S1250x8x128 .f32
  | 0, h => chunkDeg (iblk1 V c 0 ⟨0, h⟩) zeros
  | n + 1, h => chunkDeg (iblk1 V c 0 ⟨n + 1, h⟩) (degAt c n (Nat.lt_of_succ_lt h))

/-! ## The pipeline's proof data -/

/-- The region's invariant on core `c`: the core's scoped buffers that are no staging buffer of this pipeline, at
    some contents each, and its generator register at some state. The body uses neither. -/
def ΦS (c : Dev nD) : sProp 𝕄 :=
  iprop(Pipeline.scopedRest (Ix := Ix) (Name := Name) (U := U) (Lvl := Lvl) (Val := Elt F) spec1 c ∗ ∃ r, prngReg c r)

/-- The proof data of the scatter pipeline on core `c`: the arrays as the region finds them; after the body at point
    `t` each input's buffer still at its block, the accumulators' at the sums and counts after the point; the
    invariant untouched; nothing owed; full shares; the recorded pairs within `B` throughout. -/
def dat1 (c : Dev nD) (B : Set (SemLoc sig × Ix)) : Dat τ (Elt F) Ix Name U Lvl cfg1 c where
  A w := V c (Pipeline.arrRef spec1 w)
  after w t := match w with
    | ⟨0, _⟩ => iblk1 V c 0 t
    | ⟨1, _⟩ => iblk1 V c 1 t
    | ⟨2, _⟩ => aggAt V c t.val t.isLt
    | ⟨3, _⟩ => degAt V c t.val t.isLt
  Φ _ := ΦS c
  q _ := fullShare
  owed _ := 0
  recorded _ := B

/-- The proof data's arrays are the region-entry contents. -/
theorem A_eq1 (c : Dev nD) (B : Set (SemLoc sig × Ix)) (w : Fin cfg1.W) :
    (dat1 (Name := Name) (U := U) (Lvl := Lvl) V c B).A w = V c (Pipeline.arrRef spec1 w) := by
  dsimp only [dat1]

/-- Nothing is owed at any point, and every array is held at the full share. -/
theorem owed1 (c : Dev nD) (B : Set (SemLoc sig × Ix)) (t) : (dat1 (Name := Name) (U := U) (Lvl := Lvl) V c B).owed t = 0 := rfl
theorem share1 (c : Dev nD) (B : Set (SemLoc sig × Ix)) (w : Fin cfg1.W) :
    (dat1 (Name := Name) (U := U) (Lvl := Lvl) V c B).share w = fullShare :=
  (dat1 V c B).share_full (fun _ => rfl) w
theorem recorded1 (c : Dev nD) (B : Set (SemLoc sig × Ix)) (t) :
    (dat1 (Name := Name) (U := U) (Lvl := Lvl) (F := F) V c B).recorded t = B := rfl
theorem Φ1 (c : Dev nD) (B : Set (SemLoc sig × Ix)) (t) :
    (dat1 (Name := Name) (U := U) (Lvl := Lvl) V c B).Φ t = ΦS c := rfl

section After
variable (c : Dev nD) (B : Set (SemLoc sig × Ix)) (t : Fin cfg1.N)
local notation "𝔡" => dat1 (Name := Name) (U := U) (Lvl := Lvl) V c B

/-- What the body leaves, window by window. -/
theorem after1_0 : (𝔡).after 0 t = iblk1 V c 0 t := by dsimp only [dat1]
theorem after1_1 : (𝔡).after 1 t = iblk1 V c 1 t := by dsimp only [dat1]
theorem after1_2 : (𝔡).after 2 t = aggAt V c t.val t.isLt := by dsimp only [dat1]
theorem after1_3 : (𝔡).after 3 t = degAt V c t.val t.isLt := by dsimp only [dat1]

end After

/-! ## What the body finds in each window's buffer -/

/-- An input window holds its block at every point (it is fetched at every point). -/
theorem before1_of_0 {c : Dev nD} (dat : Dat τ (Elt F) Ix Name U Lvl cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_of_1 {c : Dev nD} (dat : Dat τ (Elt F) Ix Name U Lvl cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (B : Set (SemLoc sig × Ix)) (t : Fin cfg1.N) (d) :
    (dat1 (Name := Name) (U := U) (Lvl := Lvl) V c B).before 0 t d = iblk1 V c 0 t :=
  before1_of_0 V (dat1 V c B) (A_eq1 V c B 0) (after1_0 V c B) t d
theorem before1_1 (c : Dev nD) (B : Set (SemLoc sig × Ix)) (t : Fin cfg1.N) (d) :
    (dat1 (Name := Name) (U := U) (Lvl := Lvl) V c B).before 1 t d = iblk1 V c 1 t :=
  before1_of_1 V (dat1 V c B) (A_eq1 V c B 1) (after1_1 V c B) t d

/-- No point but the last writes an accumulator back. -/
theorem noflush_2 (t : Fin cfg1.N) (ht : t.val ≠ 0) :
    (cfg1.win 2).flush ⟨t.val - 1, Nat.lt_of_le_of_lt (Nat.sub_le _ _) t.isLt⟩ = false := by
  have hN : t.val < 2500 := t.isLt
  cases hf : (cfg1.win 2).flush ⟨t.val - 1, Nat.lt_of_le_of_lt (Nat.sub_le _ _) t.isLt⟩ with
  | false => rfl
  | true => have := (flush1_2 _).mp hf; simp only at this; omega
theorem noflush_3 (t : Fin cfg1.N) (ht : t.val ≠ 0) :
    (cfg1.win 3).flush ⟨t.val - 1, Nat.lt_of_le_of_lt (Nat.sub_le _ _) t.isLt⟩ = false := by
  have hN : t.val < 2500 := t.isLt
  cases hf : (cfg1.win 3).flush ⟨t.val - 1, Nat.lt_of_le_of_lt (Nat.sub_le _ _) t.isLt⟩ with
  | false => rfl
  | true => have := (flush1_3 _).mp hf; simp only at this; omega

section Before
variable (c : Dev nD) (B : Set (SemLoc sig × Ix)) (t : Fin cfg1.N)
local notation "𝔡" => dat1 (Name := Name) (U := U) (Lvl := Lvl) V c B

/-- At the first point an accumulator's buffer holds anything. -/
theorem before1_2_first (h0 : t.val = 0) (d) : (𝔡).before 2 t d = d :=
  (𝔡).before_out_reset 2 rfl t (.inl h0) d
theorem before1_3_first (h0 : t.val = 0) (d) : (𝔡).before 3 t d = d :=
  (𝔡).before_out_reset 3 rfl t (.inl h0) d

/-- At a later point it holds what the body left at the point before. -/
theorem before1_2_later (ht : t.val ≠ 0) (d) :
    (𝔡).before 2 t d = aggAt V c (t.val - 1) (Nat.lt_of_le_of_lt (Nat.sub_le _ _) t.isLt) :=
  ((𝔡).before_out_kept 2 rfl t ht (noflush_2 t ht) (fun _ => rfl) (fun _ _ => rfl) d).trans (after1_2 V c B _)
theorem before1_3_later (ht : t.val ≠ 0) (d) :
    (𝔡).before 3 t d = degAt V c (t.val - 1) (Nat.lt_of_le_of_lt (Nat.sub_le _ _) t.isLt) :=
  ((𝔡).before_out_kept 3 rfl t ht (noflush_3 t ht) (fun _ => rfl) (fun _ _ => rfl) d).trans (after1_3 V c B _)

end Before

end Cert.KI.Scat

end
-- ==== Proof.ScatRun.lean ====
import proofs.«202620_g33904471835419_cont_8to1_b_799_54_alg».proof.Proof.ScatChk
import proofs.«202620_g33904471835419_cont_8to1_b_799_54_alg».proof.Proof.Gen.KernelIdeal.Skeleton
import proofs.«202620_g33904471835419_cont_8to1_b_799_54_alg».proof.Proof.Gen.KernelIdeal.Launch
import proofs.«202620_g33904471835419_cont_8to1_b_799_54_alg».proof.Proof.Gen.KernelIdeal.Points
import Idealize.ShloMosaic.Lib.Pipeline.Value
import Idealize.ShloMosaic.Lib.Tactic

/-!
# The scatter region: the body run once, at symbolic operands

At a grid point the body is handed the point's 128 destination words (an SMEM block), the point's 128 message
rows, and the two whole `1250 × 8 × 128` accumulators. At the first point it first stores zeros over both
accumulators. Then, edge by edge, it reads the destination word `v`, takes the block `⌊v / 8⌋` of each accumulator,
adds the edge's row (in the sublane `v mod 8`) to the one and the sublane's indicator to the other, and stores the
two blocks back.

The run below goes through the whole body once for each of the two cases of the one conditional. Each store is one
piece `⟨rectangle, payload⟩` over what the accumulator held before it; what the body leaves in an accumulator is the
list of its pieces (last first) written over what it was handed. The two lists are the witnesses the run finds.
-/

set_option maxRecDepth 16384

noncomputable section

namespace Cert.KI.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A word names a node. -/
def InRange (w : BitVec 32) : Prop := 0 ≤ w.toInt ∧ w.toInt ≤ 9999

/-- Such a word satisfies the side condition of its block's offsets. -/
theorem chk_of_inRange (w : BitVec 32) (h : InRange w) : k1_chk1 w := chk_of_range w h.1 h.2

/-- A word read off a whole SMEM block all of whose words name nodes names one. -/
theorem inRange_word {arg1 : Memref sig .tc .smem S1x1x128 .i32} (harg1 : arg1.IsWhole) {x1 : S1x1x128.Idx → Elt F .i32}
    (hr : ∀ y, InRange (x1 y)) (r : LoadRect S1x1x128) (j : r.shape.Idx) :
    InRange (View.readAt (Elt F) arg1.view r (harg1.unread x1) j) :=
  word_range harg1 hr r j

/-- The pieces stored into one accumulator, last first. -/
abbrev PL (F : FTy → Type) : Type := List (View.Piece (Elt F) S1250x8x128 .f32)

set_option maxHeartbeats 8000000 in
/-- THE BODY AT A LATER POINT. On whole staging memrefs — the words' at `x1`, every word naming a node, the rows' at `x2`, the accumulators' at `x3` and `x4` — the body runs to its return with the inputs as they were and each accumulator at its 128 pieces written over what it held; the pieces are the witnesses. -/
noncomputable def kernelRun_later (𝒱₀ : Variants) (c : Dev nD) (i : grid1.Coords)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (hc0 : ¬cond1_0 i)
    (x1 : S1x1x128.Idx → Elt F .i32) (x2 : Vec F S128x128 .f32) (x3 x4 : Vec F S1250x8x128 .f32)
    (hr : ∀ y, InRange (x1 y)) :
    { W : PL F × PL F //
      ∀ (E : Set Name) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ (iprop(owns (c : Thread nD τ) arg1 fullShare x1 ∗ owns (c : Thread nD τ) arg2 fullShare x2
                ∗ (arg3.view.loc (c : Thread nD τ) ↦[arg3.view.set]{fullShare} arg3.view.writes (Elt F) (harg3.unread x3) W.1)
                ∗ (arg4.view.loc (c : Thread nD τ) ↦[arg4.view.set]{fullShare} arg4.view.writes (Elt F) (harg4.unread x4) W.2)) -∗ K ⟨⟩))
          ⊢ wp frame (wpE (defs₀ (F := F)) 𝒱₀ c none) E (cc1__scat_body i arg1 harg1 arg2 harg2 arg3 harg3 arg4 harg4) K } := by
  refine ⟨⟨?_, ?_⟩, fun E K => ?run⟩
  case run =>
    simp only [cc1__scat_body_eq_skeleton]; unfold cc1__scat_body_skel
    unfold owns
    iintro ⟨⟨%f1, %hf1, H1⟩, ⟨%f2, %hf2, H2⟩, ⟨%f3, %hf3, H3⟩, ⟨%f4, %hf4, H4⟩, Hk⟩
    obtain rfl := harg1.eq_unread hf1; obtain rfl := harg2.eq_unread hf2
    obtain rfl := harg3.eq_unread hf3; obtain rfl := harg4.eq_unread hf4
    sl_exec_parts (disch := first | exact hc0 | exact chk_of_inRange _ (inRange_word harg1 hr _ _))
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    iexact H4

end Cert.KI.Scat

end
-- ==== Proof.ScatBodyCore.lean ====
import proofs.«202620_g33904471835419_cont_8to1_b_799_54_alg».proof.Proof.ScatData
import proofs.«202620_g33904471835419_cont_8to1_b_799_54_alg».proof.Proof.ScatRun

/-!
# The scatter region: the body obligation from the body's two triples

The body's triple comes in two cases. At a later point: the words' and the rows' buffers in and out at the same
contents, each accumulator from what it held to the point's update of it. At the first point: the accumulators from
anything to the point's update of zeros. Given the two triples, the obligation at a grid point is the one that applies,
at the point's blocks: at the first point an accumulator's buffer holds anything, at a later point what the body left at
the point before, which is the recursion the accumulators after each point are defined by.
-/

set_option maxRecDepth 16384

noncomputable section

namespace Cert.KI.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's two triples, as statements -/

/-- The body at a later point: the inputs' buffers as they were, each accumulator's at the point's update of what it held. -/
def LaterTriple (𝒱₀ : Variants) : Prop :=
  ∀ (c : Dev nD) (E : Set Name) (i : grid1.Coords)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (hc0 : ¬cond1_0 i) (x1 : S1x1x128.Idx → Elt F .i32) (x2 : Vec F S128x128 .f32) (x3 x4 : Vec F S1250x8x128 .f32)
    (hr : ∀ y, InRange (x1 y)) (K : PUnit → sProp 𝕄),
    iprop(owns (c : Thread nD τ) arg1 fullShare x1 ∗ owns (c : Thread nD τ) arg2 fullShare x2
        ∗ owns (c : Thread nD τ) arg3 fullShare x3 ∗ owns (c : Thread nD τ) arg4 fullShare x4
        ∗ (iprop(owns (c : Thread nD τ) arg1 fullShare x1 ∗ owns (c : Thread nD τ) arg2 fullShare x2
            ∗ owns (c : Thread nD τ) arg3 fullShare (chunkAgg x1 x2 x3) ∗ owns (c : Thread nD τ) arg4 fullShare (chunkDeg x1 x4)) -∗ K ⟨⟩))
      ⊢ wp frame (wpE (defs₀ (F := F)) 𝒱₀ c none) E (cc1__scat_body i arg1 harg1 arg2 harg2 arg3 harg3 arg4 harg4) K

/-- The body at the first point: each accumulator's buffer from anything to the point's update of zeros. -/
def FirstTriple (𝒱₀ : Variants) : Prop :=
  ∀ (c : Dev nD) (E : Set Name) (i : grid1.Coords)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (hc0 : cond1_0 i) (x1 : S1x1x128.Idx → Elt F .i32) (x2 : Vec F S128x128 .f32) (x3 x4 : Vec F S1250x8x128 .f32)
    (hr : ∀ y, InRange (x1 y)) (K : PUnit → sProp 𝕄),
    iprop(owns (c : Thread nD τ) arg1 fullShare x1 ∗ owns (c : Thread nD τ) arg2 fullShare x2
        ∗ owns (c : Thread nD τ) arg3 fullShare x3 ∗ owns (c : Thread nD τ) arg4 fullShare x4
        ∗ (iprop(owns (c : Thread nD τ) arg1 fullShare x1 ∗ owns (c : Thread nD τ) arg2 fullShare x2
            ∗ owns (c : Thread nD τ) arg3 fullShare (chunkAgg x1 x2 zeros) ∗ owns (c : Thread nD τ) arg4 fullShare (chunkDeg x1 zeros)) -∗ K ⟨⟩))
      ⊢ wp frame (wpE (defs₀ (F := F)) 𝒱₀ c none) E (cc1__scat_body i arg1 harg1 arg2 harg2 arg3 harg3 arg4 harg4) K

/-! ## The body obligation, at a generic point -/

-- the TensorCore's buffer contents when the region is entered
variable (V : (c : Dev nD) → (b : Ref sig .tc) → Buf (Elt F) ((c : Thread nD τ).loc b))

omit [DecidableEq Ix] [DecidableEq Name] [URA U] [Preorder Lvl] in
/-- The accumulators after a point, by the point: at the first point the update of zeros, -/
theorem aggAt_first (c : Dev nD) (t : Fin cfg1.N) (h0 : t.val = 0) :
    aggAt V c t.val t.isLt = chunkAgg (iblk1 V c 0 t) (iblk1 V c 1 t) zeros := by
  obtain ⟨n, hn⟩ := t
  cases n with
  | zero => rfl
  | succ n => exact absurd h0 (Nat.succ_ne_zero n)
omit [DecidableEq Ix] [DecidableEq Name] [URA U] [Preorder Lvl] in
theorem degAt_first (c : Dev nD) (t : Fin cfg1.N) (h0 : t.val = 0) :
    degAt V c t.val t.isLt = chunkDeg (iblk1 V c 0 t) zeros := by
  obtain ⟨n, hn⟩ := t
  cases n with
  | zero => rfl
  | succ n => exact absurd h0 (Nat.succ_ne_zero n)
omit [DecidableEq Ix] [DecidableEq Name] [URA U] [Preorder Lvl] in
/-- at a later point the update of the accumulators after the point before. -/
theorem aggAt_later (c : Dev nD) (t : Fin cfg1.N) (ht : t.val ≠ 0) :
    aggAt V c t.val t.isLt = chunkAgg (iblk1 V c 0 t) (iblk1 V c 1 t) (aggAt V c (t.val - 1) (Nat.lt_of_le_of_lt (Nat.sub_le _ _) t.isLt)) := by
  obtain ⟨n, hn⟩ := t
  cases n with
  | zero => exact absurd rfl ht
  | succ n => rfl
omit [DecidableEq Ix] [DecidableEq Name] [URA U] [Preorder Lvl] in
theorem degAt_later (c : Dev nD) (t : Fin cfg1.N) (ht : t.val ≠ 0) :
    degAt V c t.val t.isLt = chunkDeg (iblk1 V c 0 t) (degAt V c (t.val - 1) (Nat.lt_of_le_of_lt (Nat.sub_le _ _) t.isLt)) := by
  obtain ⟨n, hn⟩ := t
  cases n with
  | zero => exact absurd rfl ht
  | succ n => rfl

omit [DecidableEq Ix] [DecidableEq Name] [URA U] [Preorder Lvl] in
/-- Every word of a point's block of destination words is a word of the array. -/
theorem words_inRange (c : Dev nD) (hdst : ∀ i, InRange (V c main_v5 i)) (t : Fin cfg1.N) : ∀ y, InRange (iblk1 V c 0 t y) := by
  intro y
  unfold iblk1
  rw [View.read_apply]
  exact hdst _

/-- What the body is called with at point `t`: the invariant, what the core owes, and every window's current
    staging buffer at what it then holds, the windows one by one; -/
def bodyPre1 (c : Dev nD) (B : Set (SemLoc sig × Ix)) (ι : Ix) (t : Fin cfg1.N) : sProp 𝕄 :=
  iprop((dat1 (Name := Name) (U := U) (Lvl := Lvl) V c B).Φ t.castSucc ∗ (dat1 (Name := Name) (U := U) (Lvl := Lvl) V c B).owesAt ι t.castSucc
    ∗ (∃ d, owns (c : Thread nD τ) (st1_0 t) fullShare ((dat1 (Name := Name) (U := U) (Lvl := Lvl) V c B).before 0 t d))
    ∗ (∃ d, owns (c : Thread nD τ) (st1_1 t) fullShare ((dat1 (Name := Name) (U := U) (Lvl := Lvl) V c B).before 1 t d))
    ∗ (∃ d, owns (c : Thread nD τ) (st1_2 t) fullShare ((dat1 (Name := Name) (U := U) (Lvl := Lvl) V c B).before 2 t d))
    ∗ (∃ d, owns (c : Thread nD τ) (st1_3 t) fullShare ((dat1 (Name := Name) (U := U) (Lvl := Lvl) V c B).before 3 t d)))

/-- and what it returns. -/
def bodyPost1 (c : Dev nD) (B : Set (SemLoc sig × Ix)) (ι : Ix) (t : Fin cfg1.N) : sProp 𝕄 :=
  iprop((dat1 (Name := Name) (U := U) (Lvl := Lvl) V c B).Φ t.succ ∗ (dat1 (Name := Name) (U := U) (Lvl := Lvl) V c B).owesAt ι t.succ
    ∗ owns (c : Thread nD τ) (st1_0 t) fullShare ((dat1 (Name := Name) (U := U) (Lvl := Lvl) V c B).after 0 t)
    ∗ owns (c : Thread nD τ) (st1_1 t) fullShare ((dat1 (Name := Name) (U := U) (Lvl := Lvl) V c B).after 1 t)
    ∗ owns (c : Thread nD τ) (st1_2 t) fullShare ((dat1 (Name := Name) (U := U) (Lvl := Lvl) V c B).after 2 t)
    ∗ owns (c : Thread nD τ) (st1_3 t) fullShare ((dat1 (Name := Name) (U := U) (Lvl := Lvl) V c B).after 3 t))

set_option maxHeartbeats 1000000 in
/-- The body at any point, from the two triples: at the first point the accumulators' buffers hold anything and the
    first triple applies; at a later point they hold the accumulators after the point before and the later triple does. -/
theorem sound_body1_of (𝒱₀ : Variants) (hL : LaterTriple (F := F) (Ix := Ix) (Name := Name) (U := U) (Lvl := Lvl) 𝒱₀)
    (hF : FirstTriple (F := F) (Ix := Ix) (Name := Name) (U := U) (Lvl := Lvl) 𝒱₀)
    (ι : Ix) (c : Dev nD) (B : Set (SemLoc sig × Ix)) (hdst : ∀ i, InRange (V c main_v5 i)) (t : Fin cfg1.N) :
    bodyPre1 (Name := Name) (U := U) (Lvl := Lvl) V c B ι t
      ⊢ wp frame (wpE (defs₀ (F := F)) 𝒱₀ c none) Set.univ (bodyAt1 t) (fun _ => bodyPost1 (Name := Name) (U := U) (Lvl := Lvl) V c B ι t) := by
  unfold bodyPre1 bodyPost1 bodyAt1
  simp only [before1_0, before1_1]
  rw [show (dat1 (Name := Name) (U := U) (Lvl := Lvl) V c B).Φ t.succ = (dat1 (Name := Name) (U := U) (Lvl := Lvl) V c B).Φ t.castSucc from rfl,
    show (dat1 (Name := Name) (U := U) (Lvl := Lvl) V c B).owesAt ι t.succ = (dat1 (Name := Name) (U := U) (Lvl := Lvl) V c B).owesAt ι t.castSucc from rfl,
    after1_0, after1_1, after1_2, after1_3]
  have hr := words_inRange V c hdst t
  by_cases h0 : t.val = 0
  · have hc0 : cond1_0 (grid1.coords t) := (hcond1_0 t).mpr h0
    rw [aggAt_first V c t h0, degAt_first V c t h0]
    iintro ⟨HΦ, Ho, ⟨%d0, H0⟩, ⟨%d1, H1⟩, ⟨%d2, H2⟩, ⟨%d3, H3⟩⟩
    iapply (hF c Set.univ (grid1.coords t) _ _ _ _ _ _ _ _ hc0 (iblk1 V c 0 t) (iblk1 V c 1 t) _ _ hr _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hc0 : ¬cond1_0 (grid1.coords t) := fun h => h0 ((hcond1_0 t).mp h)
    simp only [before1_2_later V c B t h0, before1_3_later V c B t h0]
    rw [aggAt_later V c t h0, degAt_later V c t h0]
    iintro ⟨HΦ, Ho, ⟨%d0, H0⟩, ⟨%d1, H1⟩, ⟨%d2, H2⟩, ⟨%d3, H3⟩⟩
    iapply (hL c Set.univ (grid1.coords t) _ _ _ _ _ _ _ _ hc0 (iblk1 V c 0 t) (iblk1 V c 1 t) _ _ hr _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point, for any bound `B` on the recorded pairs, where the destination
    words name nodes. -/
theorem body1_of (𝒱₀ : Variants) (hL : LaterTriple (F := F) (Ix := Ix) (Name := Name) (U := U) (Lvl := Lvl) 𝒱₀)
    (hF : FirstTriple (F := F) (Ix := Ix) (Name := Name) (U := U) (Lvl := Lvl) 𝒱₀)
    (ι : Ix) (c : Dev nD) (B : Set (SemLoc sig × Ix)) (hdst : ∀ i, InRange (V c main_v5 i)) :
    BodyObligation (dat1 (F := F) (Name := Name) (U := U) (Lvl := Lvl) V c B) (defs₀ (F := F)) 𝒱₀ ι Set.univ := fun t => by
  rw [bigSep_W1, bigSep_W1]
  exact sound_body1_of V 𝒱₀ hL hF ι c B hdst t

end Cert.KI.Scat

end
-- ==== Proof.ScatSpell.lean ====
import proofs.«202620_g33904471835419_cont_8to1_b_799_54_alg».proof.Proof.ScatRun
import proofs.«202620_g33904471835419_cont_8to1_b_799_54_alg».proof.Proof.ScatStep

/-!
# The scatter region: a point's words and rows as the run spells them

The run reads edge `k`'s destination word and row off the raw contents of the two input staging buffers; read
through the buffers' views they are `wordOf` and `rowOf` of what the buffers hold.
-/

set_option maxRecDepth 16384

noncomputable section

namespace Cert.KI.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Spell
variable (arg1 : Memref sig .tc .smem S1x1x128 .i32) (harg1 : arg1.IsWhole) (arg2 : Memref sig .tc .vmem S128x128 .f32) (harg2 : arg2.IsWhole)
  (x1 : S1x1x128.Idx → Elt F .i32) (x2 : Vec F S128x128 .f32)

/-- Edge `k`'s destination word as the run reads it off the SMEM block. -/
abbrev wR (k : Nat) (hk : k < 128) : BitVec 32 :=
  View.readAt (Elt F) arg1.view (rWord k hk).toLoadRect (harg1.unread x1) (Shape.Idx.first (show 0 < (1 : Nat) from Nat.one_pos))
/-- Its side condition. -/
theorem hwR (hr : ∀ y, InRange (x1 y)) (k : Nat) (hk : k < 128) : k1_chk1 (wR arg1 harg1 x1 k hk) :=
  chk_of_inRange _ (inRange_word harg1 hr _ _)
/-- Edge `k`'s row as the run loads it. -/
abbrev rowR (k : Nat) (hk : k < 128) : Vec F S1x128 .f32 :=
  View.readAt (Elt F) arg2.view (rRow k hk).toLoadRect (harg2.unread x2)
end Spell

end Cert.KI.Scat

end
-- ==== Proof.ScatChainLA.lean ====
import proofs.«202620_g33904471835419_cont_8to1_b_799_54_alg».proof.Proof.ScatSpell

/-!
# The scatter region: what a later point leaves in the sums' accumulator

Edge by edge, the contents the run's pieces leave read as the first `k` edges' updates of what the accumulator
held: each step is one store of the edge's new block (by unfolding), read through the view.
-/

set_option maxRecDepth 16384

noncomputable section

namespace Cert.KI.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

section Chain

variable (c : Dev nD)
  (arg1 : Memref sig .tc .smem S1x1x128 .i32) (harg1 : arg1.IsWhole) (arg2 : Memref sig .tc .vmem S128x128 .f32) (harg2 : arg2.IsWhole)
  (arg3 : Memref sig .tc .vmem S1250x8x128 .f32) (harg3 : arg3.IsWhole) (arg4 : Memref sig .tc .vmem S1250x8x128 .f32) (harg4 : arg4.IsWhole)
  (x1 : S1x1x128.Idx → Elt F .i32) (x2 : Vec F S128x128 .f32) (x3 x4 : Vec F S1250x8x128 .f32) (hr : ∀ y, InRange (x1 y))
  (𝒱₀ : Variants) (i : grid1.Coords) (hc0 : ¬cond1_0 i)

local notation "X1" => arg1.view.read (Elt F) (harg1.unread x1)
local notation "X2" => arg2.view.read (Elt F) (harg2.unread x2)

theorem aggL_1 : arg3.view.read (Elt F) (arg3.view.writes (Elt F) (harg3.unread x3) (kernelRun_later.sl.H3_1 c arg1 harg1 arg2 harg2 arg3 harg3 x1 x2 x3 hr)) = aggUpTo X1 X2 x3 1 (by decide) := by
  have step : arg3.view.writes (Elt F) (harg3.unread x3) (kernelRun_later.sl.H3_1 c arg1 harg1 arg2 harg2 arg3 harg3 x1 x2 x3 hr)
      = stepRaw arg3 (wR arg1 harg1 x1 0 (by decide)) (hwR arg1 harg1 x1 hr 0 (by decide)) (rowR arg2 harg2 x2 0 (by decide)) (harg3.unread x3) := rfl
  rw [step, read_stepRaw, harg3.read_unread]; rfl

theorem aggL_2 : arg3.view.read (Elt F) (arg3.view.writes (Elt F) (harg3.unread x3) (kernelRun_later.sl.H3_2 c arg1 harg1 arg2 harg2 arg3 harg3 x1 x2 x3 hr)) = aggUpTo X1 X2 x3 2 (by decide) := by
  have step : arg3.view.writes (Elt F) (harg3.unread x3) (kernelRun_later.sl.H3_2 c arg1 harg1 arg2 harg2 arg3 harg3 x1 x2 x3 hr)
      = stepRaw arg3 (wR arg1 harg1 x1 1 (by decide)) (hwR arg1 harg1 x1 hr 1 (by decide)) (rowR arg2 harg2 x2 1 (by decide)) (arg3.view.writes (Elt F) (harg3.unread x3) (kernelRun_later.sl.H3_1 c arg1 harg1 arg2 harg2 arg3 harg3 x1 x2 x3 hr)) := rfl
  rw [step, read_stepRaw, aggL_1]; rfl

theorem aggL_3 : arg3.view.read (Elt F) (arg3.view.writes (Elt F) (harg3.unread x3) (kernelRun_later.sl.H3_3 c arg1 harg1 arg2 harg2 arg3 harg3 x1 x2 x3 hr)) = aggUpTo X1 X2 x3 3 (by decide) := by
  have step : arg3.view.writes (Elt F) (harg3.unread x3) (kernelRun_later.sl.H3_3 c arg1 harg1 arg2 harg2 arg3 harg3 x1 x2 x3 hr)
      = stepRaw arg3 (wR arg1 harg1 x1 2 (by decide)) (hwR arg1 harg1 x1 hr 2 (by decide)) (rowR arg2 harg2 x2 2 (by decide)) (arg3.view.writes (Elt F) (harg3.unread x3) (kernelRun_later.sl.H3_2 c arg1 harg1 arg2 harg2 arg3 harg3 x1 x2 x3 hr)) := rfl
  rw [step, read_stepRaw, aggL_2]; rfl

theorem aggL_4 : arg3.view.read (Elt F) (arg3.view.writes (Elt F) (harg3.unread x3) (kernelRun_later.sl.H3_4 c arg1 harg1 arg2 harg2 arg3 harg3 x1 x2 x3 hr)) = aggUpTo X1 X2 x3 4 (by decide) := by
  have step : arg3.view.writes (Elt F) (harg3.unread x3) (kernelRun_later.sl.H3_4 c arg1 harg1 arg2 harg2 arg3 harg3 x1 x2 x3 hr)
      = stepRaw arg3 (wR arg1 harg1 x1 3 (by decide)) (hwR arg1 harg1 x1 hr 3 (by decide)) (rowR arg2 harg2 x2 3 (by decide)) (arg3.view.writes (Elt F) (harg3.unread x3) (kernelRun_later.sl.H3_3 c arg1 harg1 arg2 harg2 arg3 harg3 x1 x2 x3 hr)) := rfl
  rw [step, read_stepRaw, aggL_3]; rfl

theorem aggL_5 : arg3.view.read (Elt F) (arg3.view.writes (Elt F) (harg3.unread x3) (kernelRun_later.sl.H3_5 c arg1 harg1 arg2 harg2 arg3 harg3 x1 x2 x3 hr)) = aggUpTo X1 X2 x3 5 (by decide) := by
  have step : arg3.view.writes (Elt F) (harg3.unread x3) (kernelRun_later.sl.H3_5 c arg1 harg1 arg2 harg2 arg3 harg3 x1 x2 x3 hr)
      = stepRaw arg3 (wR arg1 harg1 x1 4 (by decide)) (hwR arg1 harg1 x1 hr 4 (by decide)) (rowR arg2 harg2 x2 4 (by decide)) (arg3.view.writes (Elt F) (harg3.unread x3) (kernelRun_later.sl.H3_4 c arg1 harg1 arg2 harg2 arg3 harg3 x1 x2 x3 hr)) := rfl
  rw [step, read_stepRaw, aggL_4]; rfl

theorem aggL_6 : arg3.view.read (Elt F) (arg3.view.writes (Elt F) (harg3.unread x3) (kernelRun_later.sl.H3_6 c arg1 harg1 arg2 harg2 arg3 harg3 x1 x2 x3 hr)) = aggUpTo X1 X2 x3 6 (by decide) := by
  have step : arg3.view.writes (Elt F) (harg3.unread x3) (kernelRun_later.sl.H3_6 c arg1 harg1 arg2 harg2 arg3 harg3 x1 x2 x3 hr)
      = stepRaw arg3 (wR arg1 harg1 x1 5 (by decide)) (hwR arg1 harg1 x1 hr 5 (by decide)) (rowR arg2 harg2 x2 5 (by decide)) (arg3.view.writes (Elt F) (harg3.unread x3) (kernelRun_later.sl.H3_5 c arg1 harg1 arg2 harg2 arg3 harg3 x1 x2 x3 hr)) := rfl
  rw [step, read_stepRaw, aggL_5]; rfl

theorem aggL_7 : arg3.view.read (Elt F) (arg3.view.writes (Elt F) (harg3.unread x3) (kernelRun_later.sl.H3_7 c arg1 harg1 arg2 harg2 arg3 harg3 x1 x2 x3 hr)) = aggUpTo X1 X2 x3 7 (by decide) := by
  have step : arg3.view.writes (Elt F) (harg3.unread x3) (kernelRun_later.sl.H3_7 c arg1 harg1 arg2 harg2 arg3 harg3 x1 x2 x3 hr)
      = stepRaw arg3 (wR arg1 harg1 x1 6 (by decide)) (hwR arg1 harg1 x1 hr 6 (by decide)) (rowR arg2 harg2 x2 6 (by decide)) (arg3.view.writes (Elt F) (harg3.unread x3) (kernelRun_later.sl.H3_6 c arg1 harg1 arg2 harg2 arg3 harg3 x1 x2 x3 hr)) := rfl
  rw [step, read_stepRaw, aggL_6]; rfl

theorem aggL_8 : arg3.view.read (Elt F) (arg3.view.writes (Elt F) (harg3.unread x3) (kernelRun_later.sl.H3_8 c arg1 harg1 arg2 harg2 arg3 harg3 x1 x2 x3 hr)) = aggUpTo X1 X2 x3 8 (by decide) := by
  have step : arg3.view.writes (Elt F) (harg3.unread x3) (kernelRun_later.sl.H3_8 c arg1 harg1 arg2 harg2 arg3 harg3 x1 x2 x3 hr)
      = stepRaw arg3 (wR arg1 harg1 x1 7 (by decide)) (hwR arg1 harg1 x1 hr 7 (by decide)) (rowR arg2 harg2 x2 7 (by decide)) (arg3.view.writes (Elt F) (harg3.unread x3) (kernelRun_later.sl.H3_7 c arg1 harg1 arg2 harg2 arg3 harg3 x1 x2 x3 hr)) := rfl
  rw [step, read_stepRaw, aggL_7]; rfl

theorem aggL_9 : arg3.view.read (Elt F) (arg3.view.writes (Elt F) (harg3.unread x3) (kernelRun_later.sl.H3_9 c arg1 harg1 arg2 harg2 arg3 harg3 x1 x2 x3 hr)) = aggUpTo X1 X2 x3 9 (by decide) := by
  have step : arg3.view.writes (Elt F) (harg3.unread x3) (kernelRun_later.sl.H3_9 c arg1 harg1 arg2 harg2 arg3 harg3 x1 x2 x3 hr)
      = stepRaw arg3 (wR arg1 harg1 x1 8 (by decide)) (hwR arg1 harg1 x1 hr 8 (by decide)) (rowR arg2 harg2 x2 8 (by decide)) (arg3.view.writes (Elt F) (harg3.unread x3) (kernelRun_later.sl.H3_8 c arg1 harg1 arg2 harg2 arg3 harg3 x1 x2 x3 hr)) := rfl
  rw [step, read_stepRaw, aggL_8]; rfl

theorem aggL_10 : arg3.view.read (Elt F) (arg3.view.writes (Elt F) (harg3.unread x3) (kernelRun_later.sl.H3_10 c arg1 harg1 arg2 harg2 arg3 harg3 x1 x2 x3 hr)) = aggUpTo X1 X2 x3 10 (by decide) := by
  have step : arg3.view.writes (Elt F) (harg3.unread x3) (kernelRun_later.sl.H3_10 c arg1 harg1 arg2 harg2 arg3 harg3 x1 x2 x3 hr)
      = stepRaw arg3 (wR arg1 harg1 x1 9 (by decide)) (hwR arg1 harg1 x1 hr 9 (by decide)) (rowR arg2 harg2 x2 9 (by decide)) (arg3.view.writes (Elt F) (harg3.unread x3) (kernelRun_later.sl.H3_9 c arg1 harg1 arg2 harg2 arg3 harg3 x1 x2 x3 hr)) := rfl
  rw [step, read_stepRaw, aggL_9]; rfl

theorem aggL_11 : arg3.view.read (Elt F) (arg3.view.writes (Elt F) (harg3.unread x3) (kernelRun_later.sl.H3_11 c arg1 harg1 arg2 harg2 arg3 harg3 x1 x2 x3 hr)) = aggUpTo X1 X2 x3 11 (by decide) := by
  have step : arg3.view.writes (Elt F) (harg3.unread x3) (kernelRun_later.sl.H3_11 c arg1 harg1 arg2 harg2 arg3 harg3 x1 x2 x3 hr)
      = stepRaw arg3 (wR arg1 harg1 x1 10 (by decide)) (hwR arg1 harg1 x1 hr 10 (by decide)) (rowR arg2 harg2 x2 10 (by decide)) (arg3.view.writes (Elt F) (harg3.unread x3) (kernelRun_later.sl.H3_10 c arg1 harg1 arg2 harg2 arg3 harg3 x1 x2 x3 hr)) := rfl
  rw [step, read_stepRaw, aggL_10]; rfl

theorem aggL_12 : arg3.view.read (Elt F) (arg3.view.writes (Elt F) (harg3.unread x3) (kernelRun_later.sl.H3_12 c arg1 harg1 arg2 harg2 arg3 harg3 x1 x2 x3 hr)) = aggUpTo X1 X2 x3 12 (by decide) := by
  have step : arg3.view.writes (Elt F) (harg3.unread x3) (kernelRun_later.sl.H3_12 c arg1 harg1 arg2 harg2 arg3 harg3 x1 x2 x3 hr)
      = stepRaw arg3 (wR arg1 harg1 x1 11 (by decide)) (hwR arg1 harg1 x1 hr 11 (by decide)) (rowR arg2 harg2 x2 11 (by decide)) (arg3.view.writes (Elt F) (harg3.unread x3) (kernelRun_later.sl.H3_11 c arg1 harg1 arg2 harg2 arg3 harg3 x1 x2 x3 hr)) := rfl
  rw [step, read_stepRaw, aggL_11]; rfl

theorem aggL_13 : arg3.view.read (Elt F) (arg3.view.writes (Elt F) (harg3.unread x3) (kernelRun_later.sl.H3_13 c arg1 harg1 arg2 harg2 arg3 harg3 x1 x2 x3 hr)) = aggUpTo X1 X2 x3 13 (by decide) := by
  have step : arg3.view.writes (Elt F) (harg3.unread x3) (kernelRun_later.sl.H3_13 c arg1 harg1 arg2 harg2 arg3 harg3 x1 x2 x3 hr)
      = stepRaw arg3 (wR arg1 harg1 x1 12 (by decide)) (hwR arg1 harg1 x1 hr 12 (by decide)) (rowR arg2 harg2 x2 12 (by decide)) (arg3.view.writes (Elt F) (harg3.unread x3) (kernelRun_later.sl.H3_12 c arg1 harg1 arg2 harg2 arg3 harg3 x1 x2 x3 hr)) := rfl
  rw [step, read_stepRaw, aggL_12]; rfl

theorem aggL_14 : arg3.view.read (Elt F) (arg3.view.writes (Elt F) (harg3.unread x3) (kernelRun_later.sl.H3_14 c arg1 harg1 arg2 harg2 arg3 harg3 x1 x2 x3 hr)) = aggUpTo X1 X2 x3 14 (by decide) := by
  have step : arg3.view.writes (Elt F) (harg3.unread x3) (kernelRun_later.sl.H3_14 c arg1 harg1 arg2 harg2 arg3 harg3 x1 x2 x3 hr)
      = stepRaw arg3 (wR arg1 harg1 x1 13 (by decide)) (hwR arg1 harg1 x1 hr 13 (by decide)) (rowR arg2 harg2 x2 13 (by decide)) (arg3.view.writes (Elt F) (harg3.unread x3) (kernelRun_later.sl.H3_13 c arg1 harg1 arg2 harg2 arg3 harg3 x1 x2 x3 hr)) := rfl
  rw [step, read_stepRaw, aggL_13]; rfl

theorem aggL_15 : arg3.view.read (Elt F) (arg3.view.writes (Elt F) (harg3.unread x3) (kernelRun_later.sl.H3_15 c arg1 harg1 arg2 harg2 arg3 harg3 x1 x2 x3 hr)) = aggUpTo X1 X2 x3 15 (by decide) := by
  have step : arg3.view.writes (Elt F) (harg3.unread x3) (kernelRun_later.sl.H3_15 c arg1 harg1 arg2 harg2 arg3 harg3 x1 x2 x3 hr)
      = stepRaw arg3 (wR arg1 harg1 x1 14 (by decide)) (hwR arg1 harg1 x1 hr 14 (by decide)) (rowR arg2 harg2 x2 14 (by decide)) (arg3.view.writes (Elt F) (harg3.unread x3) (kernelRun_later.sl.H3_14 c arg1 harg1 arg2 harg2 arg3 harg3 x1 x2 x3 hr)) := rfl
  rw [step, read_stepRaw, aggL_14]; rfl

theorem aggL_16 : arg3.view.read (Elt F) (arg3.view.writes (Elt F) (harg3.unread x3) (kernelRun_later.sl.H3_16 c arg1 harg1 arg2 harg2 arg3 harg3 x1 x2 x3 hr)) = aggUpTo X1 X2 x3 16 (by decide) := by
  have step : arg3.view.writes (Elt F) (harg3.unread x3) (kernelRun_later.sl.H3_16 c arg1 harg1 arg2 harg2 arg3 harg3 x1 x2 x3 hr)
      = stepRaw arg3 (wR arg1 harg1 x1 15 (by decide)) (hwR arg1 harg1 x1 hr 15 (by decide)) (rowR arg2 harg2 x2 15 (by decide)) (arg3.view.writes (Elt F) (harg3.unread x3) (kernelRun_later.sl.H3_15 c arg1 harg1 arg2 harg2 arg3 harg3 x1 x2 x3 hr)) := rfl
  rw [step, read_stepRaw, aggL_15]; rfl

theorem aggL_17 : arg3.view.read (Elt F) (arg3.view.writes (Elt F) (harg3.unread x3) (kernelRun_later.sl.H3_17 c arg1 harg1 arg2 harg2 arg3 harg3 x1 x2 x3 hr)) = aggUpTo X1 X2 x3 17 (by decide) := by
  have step : arg3.view.writes (Elt F) (harg3.unread x3) (kernelRun_later.sl.H3_17 c arg1 harg1 arg2 harg2 arg3 harg3 x1 x2 x3 hr)
      = stepRaw arg3 (wR arg1 harg1 x1 16 (by decide)) (hwR arg1 harg1 x1 hr 16 (by decide)) (rowR arg2 harg2 x2 16 (by decide)) (arg3.view.writes (Elt F) (harg3.unread x3) (kernelRun_later.sl.H3_16 c arg1 harg1 arg2 harg2 arg3 harg3 x1 x2 x3 hr)) := rfl
  rw [step, read_stepRaw, aggL_16]; rfl

theorem aggL_18 : arg3.view.read (Elt F) (arg3.view.writes (Elt F) (harg3.unread x3) (kernelRun_later.sl.H3_18 c arg1 harg1 arg2 harg2 arg3 harg3 x1 x2 x3 hr)) = aggUpTo X1 X2 x3 18 (by decide) := by
  have step : arg3.view.writes (Elt F) (harg3.unread x3) (kernelRun_later.sl.H3_18 c arg1 harg1 arg2 harg2 arg3 harg3 x1 x2 x3 hr)
      = stepRaw arg3 (wR arg1 harg1 x1 17 (by decide)) (hwR arg1 harg1 x1 hr 17 (by decide)) (rowR arg2 harg2 x2 17 (by decide)) (arg3.view.writes (Elt F) (harg3.unread x3) (kernelRun_later.sl.H3_17 c arg1 harg1 arg2 harg2 arg3 harg3 x1 x2 x3 hr)) := rfl
  rw [step, read_stepRaw, aggL_17]; rfl

theorem aggL_19 : arg3.view.read (Elt F) (arg3.view.writes (Elt F) (harg3.unread x3) (kernelRun_later.sl.H3_19 c arg1 harg1 arg2 harg2 arg3 harg3 x1 x2 x3 hr)) = aggUpTo X1 X2 x3 19 (by decide) := by
  have step : arg3.view.writes (Elt F) (harg3.unread x3) (kernelRun_later.sl.H3_19 c arg1 harg1 arg2 harg2 arg3 harg3 x1 x2 x3 hr)
      = stepRaw arg3 (wR arg1 harg1 x1 18 (by decide)) (hwR arg1 harg1 x1 hr 18 (by decide)) (rowR arg2 harg2 x2 18 (by decide)) (arg3.view.writes (Elt F) (harg3.unread x3) (kernelRun_later.sl.H3_18 c arg1 harg1 arg2 harg2 arg3 harg3 x1 x2 x3 hr)) := rfl
  rw [step, read_stepRaw, aggL_18]; rfl

theorem aggL_20 : arg3.view.read (Elt F) (arg3.view.writes (Elt F) (harg3.unread x3) (kernelRun_later.sl.H3_20 c arg1 harg1 arg2 harg2 arg3 harg3 x1 x2 x3 hr)) = aggUpTo X1 X2 x3 20 (by decide) := by
  have step : arg3.view.writes (Elt F) (harg3.unread x3) (kernelRun_later.sl.H3_20 c arg1 harg1 arg2 harg2 arg3 harg3 x1 x2 x3 hr)
      = stepRaw arg3 (wR arg1 harg1 x1 19 (by decide)) (hwR arg1 harg1 x1 hr 19 (by decide)) (rowR arg2 harg2 x2 19 (by decide)) (arg3.view.writes (Elt F) (harg3.unread x3) (kernelRun_later.sl.H3_19 c arg1 harg1 arg2 harg2 arg3 harg3 x1 x2 x3 hr)) := rfl
  rw [step, read_stepRaw, aggL_19]; rfl

theorem aggL_21 : arg3.view.read (Elt F) (arg3.view.writes (Elt F) (harg3.unread x3) (kernelRun_later.sl.H3_21 c arg1 harg1 arg2 harg2 arg3 harg3 x1 x2 x3 hr)) = aggUpTo X1 X2 x3 21 (by decide) := by
  have step : arg3.view.writes (Elt F) (harg3.unread x3) (kernelRun_later.sl.H3_21 c arg1 harg1 arg2 harg2 arg3 harg3 x1 x2 x3 hr)
      = stepRaw arg3 (wR arg1 harg1 x1 20 (by decide)) (hwR arg1 harg1 x1 hr 20 (by decide)) (rowR arg2 harg2 x2 20 (by decide)) (arg3.view.writes (Elt F) (harg3.unread x3) (kernelRun_later.sl.H3_20 c arg1 harg1 arg2 harg2 arg3 harg3 x1 x2 x3 hr)) := rfl
  rw [step, read_stepRaw, aggL_20]; rfl

theorem aggL_22 : arg3.view.read (Elt F) (arg3.view.writes (Elt F) (harg3.unread x3) (kernelRun_later.sl.H3_22 c arg1 harg1 arg2 harg2 arg3 harg3 x1 x2 x3 hr)) = aggUpTo X1 X2 x3 22 (by decide) := by
  have step : arg3.view.writes (Elt F) (harg3.unread x3) (kernelRun_later.sl.H3_22 c arg1 harg1 arg2 harg2 arg3 harg3 x1 x2 x3 hr)
      = stepRaw arg3 (wR arg1 harg1 x1 21 (by decide)) (hwR arg1 harg1 x1 hr 21 (by decide)) (rowR arg2 harg2 x2 21 (by decide)) (arg3.view.writes (Elt F) (harg3.unread x3) (kernelRun_later.sl.H3_21 c arg1 harg1 arg2 harg2 arg3 harg3 x1 x2 x3 hr)) := rfl
  rw [step, read_stepRaw, aggL_21]; rfl

theorem aggL_23 : arg3.view.read (Elt F) (arg3.view.writes (Elt F) (harg3.unread x3) (kernelRun_later.sl.H3_23 c arg1 harg1 arg2 harg2 arg3 harg3 x1 x2 x3 hr)) = aggUpTo X1 X2 x3 23 (by decide) := by
  have step : arg3.view.writes (Elt F) (harg3.unread x3) (kernelRun_later.sl.H3_23 c arg1 harg1 arg2 harg2 arg3 harg3 x1 x2 x3 hr)
      = stepRaw arg3 (wR arg1 harg1 x1 22 (by decide)) (hwR arg1 harg1 x1 hr 22 (by decide)) (rowR arg2 harg2 x2 22 (by decide)) (arg3.view.writes (Elt F) (harg3.unread x3) (kernelRun_later.sl.H3_22 c arg1 harg1 arg2 harg2 arg3 harg3 x1 x2 x3 hr)) := rfl
  rw [step, read_stepRaw, aggL_22]; rfl

theorem aggL_24 : arg3.view.read (Elt F) (arg3.view.writes (Elt F) (harg3.unread x3) (kernelRun_later.sl.H3_24 c arg1 harg1 arg2 harg2 arg3 harg3 x1 x2 x3 hr)) = aggUpTo X1 X2 x3 24 (by decide) := by
  have step : arg3.view.writes (Elt F) (harg3.unread x3) (kernelRun_later.sl.H3_24 c arg1 harg1 arg2 harg2 arg3 harg3 x1 x2 x3 hr)
      = stepRaw arg3 (wR arg1 harg1 x1 23 (by decide)) (hwR arg1 harg1 x1 hr 23 (by decide)) (rowR arg2 harg2 x2 23 (by decide)) (arg3.view.writes (Elt F) (harg3.unread x3) (kernelRun_later.sl.H3_23 c arg1 harg1 arg2 harg2 arg3 harg3 x1 x2 x3 hr)) := rfl
  rw [step, read_stepRaw, aggL_23]; rfl

theorem aggL_25 : arg3.view.read (Elt F) (arg3.view.writes (Elt F) (harg3.unread x3) (kernelRun_later.sl.H3_25 c arg1 harg1 arg2 harg2 arg3 harg3 x1 x2 x3 hr)) = aggUpTo X1 X2 x3 25 (by decide) := by
  have step : arg3.view.writes (Elt F) (harg3.unread x3) (kernelRun_later.sl.H3_25 c arg1 harg1 arg2 harg2 arg3 harg3 x1 x2 x3 hr)
      = stepRaw arg3 (wR arg1 harg1 x1 24 (by decide)) (hwR arg1 harg1 x1 hr 24 (by decide)) (rowR arg2 harg2 x2 24 (by decide)) (arg3.view.writes (Elt F) (harg3.unread x3) (kernelRun_later.sl.H3_24 c arg1 harg1 arg2 harg2 arg3 harg3 x1 x2 x3 hr)) := rfl
  rw [step, read_stepRaw, aggL_24]; rfl

theorem aggL_26 : arg3.view.read (Elt F) (arg3.view.writes (Elt F) (harg3.unread x3) (kernelRun_later.sl.H3_26 c arg1 harg1 arg2 harg2 arg3 harg3 x1 x2 x3 hr)) = aggUpTo X1 X2 x3 26 (by decide) := by
  have step : arg3.view.writes (Elt F) (harg3.unread x3) (kernelRun_later.sl.H3_26 c arg1 harg1 arg2 harg2 arg3 harg3 x1 x2 x3 hr)
      = stepRaw arg3 (wR arg1 harg1 x1 25 (by decide)) (hwR arg1 harg1 x1 hr 25 (by decide)) (rowR arg2 harg2 x2 25 (by decide)) (arg3.view.writes (Elt F) (harg3.unread x3) (kernelRun_later.sl.H3_25 c arg1 harg1 arg2 harg2 arg3 harg3 x1 x2 x3 hr)) := rfl
  rw [step, read_stepRaw, aggL_25]; rfl

theorem aggL_27 : arg3.view.read (Elt F) (arg3.view.writes (Elt F) (harg3.unread x3) (kernelRun_later.sl.H3_27 c arg1 harg1 arg2 harg2 arg3 harg3 x1 x2 x3 hr)) = aggUpTo X1 X2 x3 27 (by decide) := by
  have step : arg3.view.writes (Elt F) (harg3.unread x3) (kernelRun_later.sl.H3_27 c arg1 harg1 arg2 harg2 arg3 harg3 x1 x2 x3 hr)
      = stepRaw arg3 (wR arg1 harg1 x1 26 (by decide)) (hwR arg1 harg1 x1 hr 26 (by decide)) (rowR arg2 harg2 x2 26 (by decide)) (arg3.view.writes (Elt F) (harg3.unread x3) (kernelRun_later.sl.H3_26 c arg1 harg1 arg2 harg2 arg3 harg3 x1 x2 x3 hr)) := rfl
  rw [step, read_stepRaw, aggL_26]; rfl

theorem aggL_28 : arg3.view.read (Elt F) (arg3.view.writes (Elt F) (harg3.unread x3) (kernelRun_later.sl.H3_28 c arg1 harg1 arg2 harg2 arg3 harg3 x1 x2 x3 hr)) = aggUpTo X1 X2 x3 28 (by decide) := by
  have step : arg3.view.writes (Elt F) (harg3.unread x3) (kernelRun_later.sl.H3_28 c arg1 harg1 arg2 harg2 arg3 harg3 x1 x2 x3 hr)
      = stepRaw arg3 (wR arg1 harg1 x1 27 (by decide)) (hwR arg1 harg1 x1 hr 27 (by decide)) (rowR arg2 harg2 x2 27 (by decide)) (arg3.view.writes (Elt F) (harg3.unread x3) (kernelRun_later.sl.H3_27 c arg1 harg1 arg2 harg2 arg3 harg3 x1 x2 x3 hr)) := rfl
  rw [step, read_stepRaw, aggL_27]; rfl

theorem aggL_29 : arg3.view.read (Elt F) (arg3.view.writes (Elt F) (harg3.unread x3) (kernelRun_later.sl.H3_29 c arg1 harg1 arg2 harg2 arg3 harg3 x1 x2 x3 hr)) = aggUpTo X1 X2 x3 29 (by decide) := by
  have step : arg3.view.writes (Elt F) (harg3.unread x3) (kernelRun_later.sl.H3_29 c arg1 harg1 arg2 harg2 arg3 harg3 x1 x2 x3 hr)
      = stepRaw arg3 (wR arg1 harg1 x1 28 (by decide)) (hwR arg1 harg1 x1 hr 28 (by decide)) (rowR arg2 harg2 x2 28 (by decide)) (arg3.view.writes (Elt F) (harg3.unread x3) (kernelRun_later.sl.H3_28 c arg1 harg1 arg2 harg2 arg3 harg3 x1 x2 x3 hr)) := rfl
  rw [step, read_stepRaw, aggL_28]; rfl

theorem aggL_30 : arg3.view.read (Elt F) (arg3.view.writes (Elt F) (harg3.unread x3) (kernelRun_later.sl.H3_30 c arg1 harg1 arg2 harg2 arg3 harg3 x1 x2 x3 hr)) = aggUpTo X1 X2 x3 30 (by decide) := by
  have step : arg3.view.writes (Elt F) (harg3.unread x3) (kernelRun_later.sl.H3_30 c arg1 harg1 arg2 harg2 arg3 harg3 x1 x2 x3 hr)
      = stepRaw arg3 (wR arg1 harg1 x1 29 (by decide)) (hwR arg1 harg1 x1 hr 29 (by decide)) (rowR arg2 harg2 x2 29 (by decide)) (arg3.view.writes (Elt F) (harg3.unread x3) (kernelRun_later.sl.H3_29 c arg1 harg1 arg2 harg2 arg3 harg3 x1 x2 x3 hr)) := rfl
  rw [step, read_stepRaw, aggL_29]; rfl

theorem aggL_31 : arg3.view.read (Elt F) (arg3.view.writes (Elt F) (harg3.unread x3) (kernelRun_later.sl.H3_31 c arg1 harg1 arg2 harg2 arg3 harg3 x1 x2 x3 hr)) = aggUpTo X1 X2 x3 31 (by decide) := by
  have step : arg3.view.writes (Elt F) (harg3.unread x3) (kernelRun_later.sl.H3_31 c arg1 harg1 arg2 harg2 arg3 harg3 x1 x2 x3 hr)
      = stepRaw arg3 (wR arg1 harg1 x1 30 (by decide)) (hwR arg1 harg1 x1 hr 30 (by decide)) (rowR arg2 harg2 x2 30 (by decide)) (arg3.view.writes (Elt F) (harg3.unread x3) (kernelRun_later.sl.H3_30 c arg1 harg1 arg2 harg2 arg3 harg3 x1 x2 x3 hr)) := rfl
  rw [step, read_stepRaw, aggL_30]; rfl

theorem aggL_32 : arg3.view.read (Elt F) (arg3.view.writes (Elt F) (harg3.unread x3) (kernelRun_later.sl.H3_32 c arg1 harg1 arg2 harg2 arg3 harg3 x1 x2 x3 hr)) = aggUpTo X1 X2 x3 32 (by decide) := by
  have step : arg3.view.writes (Elt F) (harg3.unread x3) (kernelRun_later.sl.H3_32 c arg1 harg1 arg2 harg2 arg3 harg3 x1 x2 x3 hr)
      = stepRaw arg3 (wR arg1 harg1 x1 31 (by decide)) (hwR arg1 harg1 x1 hr 31 (by decide)) (rowR arg2 harg2 x2 31 (by decide)) (arg3.view.writes (Elt F) (harg3.unread x3) (kernelRun_later.sl.H3_31 c arg1 harg1 arg2 harg2 arg3 harg3 x1 x2 x3 hr)) := rfl
  rw [step, read_stepRaw, aggL_31]; rfl

theorem aggL_33 : arg3.view.read (Elt F) (arg3.view.writes (Elt F) (harg3.unread x3) (kernelRun_later.sl.H3_33 c arg1 harg1 arg2 harg2 arg3 harg3 x1 x2 x3 hr)) = aggUpTo X1 X2 x3 33 (by decide) := by
  have step : arg3.view.writes (Elt F) (harg3.unread x3) (kernelRun_later.sl.H3_33 c arg1 harg1 arg2 harg2 arg3 harg3 x1 x2 x3 hr)
      = stepRaw arg3 (wR arg1 harg1 x1 32 (by decide)) (hwR arg1 harg1 x1 hr 32 (by decide)) (rowR arg2 harg2 x2 32 (by decide)) (arg3.view.writes (Elt F) (harg3.unread x3) (kernelRun_later.sl.H3_32 c arg1 harg1 arg2 harg2 arg3 harg3 x1 x2 x3 hr)) := rfl
  rw [step, read_stepRaw, aggL_32]; rfl

theorem aggL_34 : arg3.view.read (Elt F) (arg3.view.writes (Elt F) (harg3.unread x3) (kernelRun_later.sl.H3_34 c arg1 harg1 arg2 harg2 arg3 harg3 x1 x2 x3 hr)) = aggUpTo X1 X2 x3 34 (by decide) := by
  have step : arg3.view.writes (Elt F) (harg3.unread x3) (kernelRun_later.sl.H3_34 c arg1 harg1 arg2 harg2 arg3 harg3 x1 x2 x3 hr)
      = stepRaw arg3 (wR arg1 harg1 x1 33 (by decide)) (hwR arg1 harg1 x1 hr 33 (by decide)) (rowR arg2 harg2 x2 33 (by decide)) (arg3.view.writes (Elt F) (harg3.unread x3) (kernelRun_later.sl.H3_33 c arg1 harg1 arg2 harg2 arg3 harg3 x1 x2 x3 hr)) := rfl
  rw [step, read_stepRaw, aggL_33]; rfl

theorem aggL_35 : arg3.view.read (Elt F) (arg3.view.writes (Elt F) (harg3.unread x3) (kernelRun_later.sl.H3_35 c arg1 harg1 arg2 harg2 arg3 harg3 x1 x2 x3 hr)) = aggUpTo X1 X2 x3 35 (by decide) := by
  have step : arg3.view.writes (Elt F) (harg3.unread x3) (kernelRun_later.sl.H3_35 c arg1 harg1 arg2 harg2 arg3 harg3 x1 x2 x3 hr)
      = stepRaw arg3 (wR arg1 harg1 x1 34 (by decide)) (hwR arg1 harg1 x1 hr 34 (by decide)) (rowR arg2 harg2 x2 34 (by decide)) (arg3.view.writes (Elt F) (harg3.unread x3) (kernelRun_later.sl.H3_34 c arg1 harg1 arg2 harg2 arg3 harg3 x1 x2 x3 hr)) := rfl
  rw [step, read_stepRaw, aggL_34]; rfl

theorem aggL_36 : arg3.view.read (Elt F) (arg3.view.writes (Elt F) (harg3.unread x3) (kernelRun_later.sl.H3_36 c arg1 harg1 arg2 harg2 arg3 harg3 x1 x2 x3 hr)) = aggUpTo X1 X2 x3 36 (by decide) := by
  have step : arg3.view.writes (Elt F) (harg3.unread x3) (kernelRun_later.sl.H3_36 c arg1 harg1 arg2 harg2 arg3 harg3 x1 x2 x3 hr)
      = stepRaw arg3 (wR arg1 harg1 x1 35 (by decide)) (hwR arg1 harg1 x1 hr 35 (by decide)) (rowR arg2 harg2 x2 35 (by decide)) (arg3.view.writes (Elt F) (harg3.unread x3) (kernelRun_later.sl.H3_35 c arg1 harg1 arg2 harg2 arg3 harg3 x1 x2 x3 hr)) := rfl
  rw [step, read_stepRaw, aggL_35]; rfl

theorem aggL_37 : arg3.view.read (Elt F) (arg3.view.writes (Elt F) (harg3.unread x3) (kernelRun_later.sl.H3_37 c arg1 harg1 arg2 harg2 arg3 harg3 x1 x2 x3 hr)) = aggUpTo X1 X2 x3 37 (by decide) := by
  have step : arg3.view.writes (Elt F) (harg3.unread x3) (kernelRun_later.sl.H3_37 c arg1 harg1 arg2 harg2 arg3 harg3 x1 x2 x3 hr)
      = stepRaw arg3 (wR arg1 harg1 x1 36 (by decide)) (hwR arg1 harg1 x1 hr 36 (by decide)) (rowR arg2 harg2 x2 36 (by decide)) (arg3.view.writes (Elt F) (harg3.unread x3) (kernelRun_later.sl.H3_36 c arg1 harg1 arg2 harg2 arg3 harg3 x1 x2 x3 hr)) := rfl
  rw [step, read_stepRaw, aggL_36]; rfl

theorem aggL_38 : arg3.view.read (Elt F) (arg3.view.writes (Elt F) (harg3.unread x3) (kernelRun_later.sl.H3_38 c arg1 harg1 arg2 harg2 arg3 harg3 x1 x2 x3 hr)) = aggUpTo X1 X2 x3 38 (by decide) := by
  have step : arg3.view.writes (Elt F) (harg3.unread x3) (kernelRun_later.sl.H3_38 c arg1 harg1 arg2 harg2 arg3 harg3 x1 x2 x3 hr)
      = stepRaw arg3 (wR arg1 harg1 x1 37 (by decide)) (hwR arg1 harg1 x1 hr 37 (by decide)) (rowR arg2 harg2 x2 37 (by decide)) (arg3.view.writes (Elt F) (harg3.unread x3) (kernelRun_later.sl.H3_37 c arg1 harg1 arg2 harg2 arg3 harg3 x1 x2 x3 hr)) := rfl
  rw [step, read_stepRaw, aggL_37]; rfl

theorem aggL_39 : arg3.view.read (Elt F) (arg3.view.writes (Elt F) (harg3.unread x3) (kernelRun_later.sl.H3_39 c arg1 harg1 arg2 harg2 arg3 harg3 x1 x2 x3 hr)) = aggUpTo X1 X2 x3 39 (by decide) := by
  have step : arg3.view.writes (Elt F) (harg3.unread x3) (kernelRun_later.sl.H3_39 c arg1 harg1 arg2 harg2 arg3 harg3 x1 x2 x3 hr)
      = stepRaw arg3 (wR arg1 harg1 x1 38 (by decide)) (hwR arg1 harg1 x1 hr 38 (by decide)) (rowR arg2 harg2 x2 38 (by decide)) (arg3.view.writes (Elt F) (harg3.unread x3) (kernelRun_later.sl.H3_38 c arg1 harg1 arg2 harg2 arg3 harg3 x1 x2 x3 hr)) := rfl
  rw [step, read_stepRaw, aggL_38]; rfl

theorem aggL_40 : arg3.view.read (Elt F) (arg3.view.writes (Elt F) (harg3.unread x3) (kernelRun_later.sl.H3_40 c arg1 harg1 arg2 harg2 arg3 harg3 x1 x2 x3 hr)) = aggUpTo X1 X2 x3 40 (by decide) := by
  have step : arg3.view.writes (Elt F) (harg3.unread x3) (kernelRun_later.sl.H3_40 c arg1 harg1 arg2 harg2 arg3 harg3 x1 x2 x3 hr)
      = stepRaw arg3 (wR arg1 harg1 x1 39 (by decide)) (hwR arg1 harg1 x1 hr 39 (by decide)) (rowR arg2 harg2 x2 39 (by decide)) (arg3.view.writes (Elt F) (harg3.unread x3) (kernelRun_later.sl.H3_39 c arg1 harg1 arg2 harg2 arg3 harg3 x1 x2 x3 hr)) := rfl
  rw [step, read_stepRaw, aggL_39]; rfl

theorem aggL_41 : arg3.view.read (Elt F) (arg3.view.writes (Elt F) (harg3.unread x3) (kernelRun_later.sl.H3_41 c arg1 harg1 arg2 harg2 arg3 harg3 x1 x2 x3 hr)) = aggUpTo X1 X2 x3 41 (by decide) := by
  have step : arg3.view.writes (Elt F) (harg3.unread x3) (kernelRun_later.sl.H3_41 c arg1 harg1 arg2 harg2 arg3 harg3 x1 x2 x3 hr)
      = stepRaw arg3 (wR arg1 harg1 x1 40 (by decide)) (hwR arg1 harg1 x1 hr 40 (by decide)) (rowR arg2 harg2 x2 40 (by decide)) (arg3.view.writes (Elt F) (harg3.unread x3) (kernelRun_later.sl.H3_40 c arg1 harg1 arg2 harg2 arg3 harg3 x1 x2 x3 hr)) := rfl
  rw [step, read_stepRaw, aggL_40]; rfl

theorem aggL_42 : arg3.view.read (Elt F) (arg3.view.writes (Elt F) (harg3.unread x3) (kernelRun_later.sl.H3_42 c arg1 harg1 arg2 harg2 arg3 harg3 x1 x2 x3 hr)) = aggUpTo X1 X2 x3 42 (by decide) := by
  have step : arg3.view.writes (Elt F) (harg3.unread x3) (kernelRun_later.sl.H3_42 c arg1 harg1 arg2 harg2 arg3 harg3 x1 x2 x3 hr)
      = stepRaw arg3 (wR arg1 harg1 x1 41 (by decide)) (hwR arg1 harg1 x1 hr 41 (by decide)) (rowR arg2 harg2 x2 41 (by decide)) (arg3.view.writes (Elt F) (harg3.unread x3) (kernelRun_later.sl.H3_41 c arg1 harg1 arg2 harg2 arg3 harg3 x1 x2 x3 hr)) := rfl
  rw [step, read_stepRaw, aggL_41]; rfl

theorem aggL_43 : arg3.view.read (Elt F) (arg3.view.writes (Elt F) (harg3.unread x3) (kernelRun_later.sl.H3_43 c arg1 harg1 arg2 harg2 arg3 harg3 x1 x2 x3 hr)) = aggUpTo X1 X2 x3 43 (by decide) := by
  have step : arg3.view.writes (Elt F) (harg3.unread x3) (kernelRun_later.sl.H3_43 c arg1 harg1 arg2 harg2 arg3 harg3 x1 x2 x3 hr)
      = stepRaw arg3 (wR arg1 harg1 x1 42 (by decide)) (hwR arg1 harg1 x1 hr 42 (by decide)) (rowR arg2 harg2 x2 42 (by decide)) (arg3.view.writes (Elt F) (harg3.unread x3) (kernelRun_later.sl.H3_42 c arg1 harg1 arg2 harg2 arg3 harg3 x1 x2 x3 hr)) := rfl
  rw [step, read_stepRaw, aggL_42]; rfl

theorem aggL_44 : arg3.view.read (Elt F) (arg3.view.writes (Elt F) (harg3.unread x3) (kernelRun_later.sl.H3_44 c arg1 harg1 arg2 harg2 arg3 harg3 x1 x2 x3 hr)) = aggUpTo X1 X2 x3 44 (by decide) := by
  have step : arg3.view.writes (Elt F) (harg3.unread x3) (kernelRun_later.sl.H3_44 c arg1 harg1 arg2 harg2 arg3 harg3 x1 x2 x3 hr)
      = stepRaw arg3 (wR arg1 harg1 x1 43 (by decide)) (hwR arg1 harg1 x1 hr 43 (by decide)) (rowR arg2 harg2 x2 43 (by decide)) (arg3.view.writes (Elt F) (harg3.unread x3) (kernelRun_later.sl.H3_43 c arg1 harg1 arg2 harg2 arg3 harg3 x1 x2 x3 hr)) := rfl
  rw [step, read_stepRaw, aggL_43]; rfl

theorem aggL_45 : arg3.view.read (Elt F) (arg3.view.writes (Elt F) (harg3.unread x3) (kernelRun_later.sl.H3_45 c arg1 harg1 arg2 harg2 arg3 harg3 x1 x2 x3 hr)) = aggUpTo X1 X2 x3 45 (by decide) := by
  have step : arg3.view.writes (Elt F) (harg3.unread x3) (kernelRun_later.sl.H3_45 c arg1 harg1 arg2 harg2 arg3 harg3 x1 x2 x3 hr)
      = stepRaw arg3 (wR arg1 harg1 x1 44 (by decide)) (hwR arg1 harg1 x1 hr 44 (by decide)) (rowR arg2 harg2 x2 44 (by decide)) (arg3.view.writes (Elt F) (harg3.unread x3) (kernelRun_later.sl.H3_44 c arg1 harg1 arg2 harg2 arg3 harg3 x1 x2 x3 hr)) := rfl
  rw [step, read_stepRaw, aggL_44]; rfl

theorem aggL_46 : arg3.view.read (Elt F) (arg3.view.writes (Elt F) (harg3.unread x3) (kernelRun_later.sl.H3_46 c arg1 harg1 arg2 harg2 arg3 harg3 x1 x2 x3 hr)) = aggUpTo X1 X2 x3 46 (by decide) := by
  have step : arg3.view.writes (Elt F) (harg3.unread x3) (kernelRun_later.sl.H3_46 c arg1 harg1 arg2 harg2 arg3 harg3 x1 x2 x3 hr)
      = stepRaw arg3 (wR arg1 harg1 x1 45 (by decide)) (hwR arg1 harg1 x1 hr 45 (by decide)) (rowR arg2 harg2 x2 45 (by decide)) (arg3.view.writes (Elt F) (harg3.unread x3) (kernelRun_later.sl.H3_45 c arg1 harg1 arg2 harg2 arg3 harg3 x1 x2 x3 hr)) := rfl
  rw [step, read_stepRaw, aggL_45]; rfl

theorem aggL_47 : arg3.view.read (Elt F) (arg3.view.writes (Elt F) (harg3.unread x3) (kernelRun_later.sl.H3_47 c arg1 harg1 arg2 harg2 arg3 harg3 x1 x2 x3 hr)) = aggUpTo X1 X2 x3 47 (by decide) := by
  have step : arg3.view.writes (Elt F) (harg3.unread x3) (kernelRun_later.sl.H3_47 c arg1 harg1 arg2 harg2 arg3 harg3 x1 x2 x3 hr)
      = stepRaw arg3 (wR arg1 harg1 x1 46 (by decide)) (hwR arg1 harg1 x1 hr 46 (by decide)) (rowR arg2 harg2 x2 46 (by decide)) (arg3.view.writes (Elt F) (harg3.unread x3) (kernelRun_later.sl.H3_46 c arg1 harg1 arg2 harg2 arg3 harg3 x1 x2 x3 hr)) := rfl
  rw [step, read_stepRaw, aggL_46]; rfl

theorem aggL_48 : arg3.view.read (Elt F) (arg3.view.writes (Elt F) (harg3.unread x3) (kernelRun_later.sl.H3_48 c arg1 harg1 arg2 harg2 arg3 harg3 x1 x2 x3 hr)) = aggUpTo X1 X2 x3 48 (by decide) := by
  have step : arg3.view.writes (Elt F) (harg3.unread x3) (kernelRun_later.sl.H3_48 c arg1 harg1 arg2 harg2 arg3 harg3 x1 x2 x3 hr)
      = stepRaw arg3 (wR arg1 harg1 x1 47 (by decide)) (hwR arg1 harg1 x1 hr 47 (by decide)) (rowR arg2 harg2 x2 47 (by decide)) (arg3.view.writes (Elt F) (harg3.unread x3) (kernelRun_later.sl.H3_47 c arg1 harg1 arg2 harg2 arg3 harg3 x1 x2 x3 hr)) := rfl
  rw [step, read_stepRaw, aggL_47]; rfl

theorem aggL_49 : arg3.view.read (Elt F) (arg3.view.writes (Elt F) (harg3.unread x3) (kernelRun_later.sl.H3_49 c arg1 harg1 arg2 harg2 arg3 harg3 x1 x2 x3 hr)) = aggUpTo X1 X2 x3 49 (by decide) := by
  have step : arg3.view.writes (Elt F) (harg3.unread x3) (kernelRun_later.sl.H3_49 c arg1 harg1 arg2 harg2 arg3 harg3 x1 x2 x3 hr)
      = stepRaw arg3 (wR arg1 harg1 x1 48 (by decide)) (hwR arg1 harg1 x1 hr 48 (by decide)) (rowR arg2 harg2 x2 48 (by decide)) (arg3.view.writes (Elt F) (harg3.unread x3) (kernelRun_later.sl.H3_48 c arg1 harg1 arg2 harg2 arg3 harg3 x1 x2 x3 hr)) := rfl
  rw [step, read_stepRaw, aggL_48]; rfl

theorem aggL_50 : arg3.view.read (Elt F) (arg3.view.writes (Elt F) (harg3.unread x3) (kernelRun_later.sl.H3_50 c arg1 harg1 arg2 harg2 arg3 harg3 x1 x2 x3 hr)) = aggUpTo X1 X2 x3 50 (by decide) := by
  have step : arg3.view.writes (Elt F) (harg3.unread x3) (kernelRun_later.sl.H3_50 c arg1 harg1 arg2 harg2 arg3 harg3 x1 x2 x3 hr)
      = stepRaw arg3 (wR arg1 harg1 x1 49 (by decide)) (hwR arg1 harg1 x1 hr 49 (by decide)) (rowR arg2 harg2 x2 49 (by decide)) (arg3.view.writes (Elt F) (harg3.unread x3) (kernelRun_later.sl.H3_49 c arg1 harg1 arg2 harg2 arg3 harg3 x1 x2 x3 hr)) := rfl
  rw [step, read_stepRaw, aggL_49]; rfl

theorem aggL_51 : arg3.view.read (Elt F) (arg3.view.writes (Elt F) (harg3.unread x3) (kernelRun_later.sl.H3_51 c arg1 harg1 arg2 harg2 arg3 harg3 x1 x2 x3 hr)) = aggUpTo X1 X2 x3 51 (by decide) := by
  have step : arg3.view.writes (Elt F) (harg3.unread x3) (kernelRun_later.sl.H3_51 c arg1 harg1 arg2 harg2 arg3 harg3 x1 x2 x3 hr)
      = stepRaw arg3 (wR arg1 harg1 x1 50 (by decide)) (hwR arg1 harg1 x1 hr 50 (by decide)) (rowR arg2 harg2 x2 50 (by decide)) (arg3.view.writes (Elt F) (harg3.unread x3) (kernelRun_later.sl.H3_50 c arg1 harg1 arg2 harg2 arg3 harg3 x1 x2 x3 hr)) := rfl
  rw [step, read_stepRaw, aggL_50]; rfl

theorem aggL_52 : arg3.view.read (Elt F) (arg3.view.writes (Elt F) (harg3.unread x3) (kernelRun_later.sl.H3_52 c arg1 harg1 arg2 harg2 arg3 harg3 x1 x2 x3 hr)) = aggUpTo X1 X2 x3 52 (by decide) := by
  have step : arg3.view.writes (Elt F) (harg3.unread x3) (kernelRun_later.sl.H3_52 c arg1 harg1 arg2 harg2 arg3 harg3 x1 x2 x3 hr)
      = stepRaw arg3 (wR arg1 harg1 x1 51 (by decide)) (hwR arg1 harg1 x1 hr 51 (by decide)) (rowR arg2 harg2 x2 51 (by decide)) (arg3.view.writes (Elt F) (harg3.unread x3) (kernelRun_later.sl.H3_51 c arg1 harg1 arg2 harg2 arg3 harg3 x1 x2 x3 hr)) := rfl
  rw [step, read_stepRaw, aggL_51]; rfl

theorem aggL_53 : arg3.view.read (Elt F) (arg3.view.writes (Elt F) (harg3.unread x3) (kernelRun_later.sl.H3_53 c arg1 harg1 arg2 harg2 arg3 harg3 x1 x2 x3 hr)) = aggUpTo X1 X2 x3 53 (by decide) := by
  have step : arg3.view.writes (Elt F) (harg3.unread x3) (kernelRun_later.sl.H3_53 c arg1 harg1 arg2 harg2 arg3 harg3 x1 x2 x3 hr)
      = stepRaw arg3 (wR arg1 harg1 x1 52 (by decide)) (hwR arg1 harg1 x1 hr 52 (by decide)) (rowR arg2 harg2 x2 52 (by decide)) (arg3.view.writes (Elt F) (harg3.unread x3) (kernelRun_later.sl.H3_52 c arg1 harg1 arg2 harg2 arg3 harg3 x1 x2 x3 hr)) := rfl
  rw [step, read_stepRaw, aggL_52]; rfl

theorem aggL_54 : arg3.view.read (Elt F) (arg3.view.writes (Elt F) (harg3.unread x3) (kernelRun_later.sl.H3_54 c arg1 harg1 arg2 harg2 arg3 harg3 x1 x2 x3 hr)) = aggUpTo X1 X2 x3 54 (by decide) := by
  have step : arg3.view.writes (Elt F) (harg3.unread x3) (kernelRun_later.sl.H3_54 c arg1 harg1 arg2 harg2 arg3 harg3 x1 x2 x3 hr)
      = stepRaw arg3 (wR arg1 harg1 x1 53 (by decide)) (hwR arg1 harg1 x1 hr 53 (by decide)) (rowR arg2 harg2 x2 53 (by decide)) (arg3.view.writes (Elt F) (harg3.unread x3) (kernelRun_later.sl.H3_53 c arg1 harg1 arg2 harg2 arg3 harg3 x1 x2 x3 hr)) := rfl
  rw [step, read_stepRaw, aggL_53]; rfl

theorem aggL_55 : arg3.view.read (Elt F) (arg3.view.writes (Elt F) (harg3.unread x3) (kernelRun_later.sl.H3_55 c arg1 harg1 arg2 harg2 arg3 harg3 x1 x2 x3 hr)) = aggUpTo X1 X2 x3 55 (by decide) := by
  have step : arg3.view.writes (Elt F) (harg3.unread x3) (kernelRun_later.sl.H3_55 c arg1 harg1 arg2 harg2 arg3 harg3 x1 x2 x3 hr)
      = stepRaw arg3 (wR arg1 harg1 x1 54 (by decide)) (hwR arg1 harg1 x1 hr 54 (by decide)) (rowR arg2 harg2 x2 54 (by decide)) (arg3.view.writes (Elt F) (harg3.unread x3) (kernelRun_later.sl.H3_54 c arg1 harg1 arg2 harg2 arg3 harg3 x1 x2 x3 hr)) := rfl
  rw [step, read_stepRaw, aggL_54]; rfl

theorem aggL_56 : arg3.view.read (Elt F) (arg3.view.writes (Elt F) (harg3.unread x3) (kernelRun_later.sl.H3_56 c arg1 harg1 arg2 harg2 arg3 harg3 x1 x2 x3 hr)) = aggUpTo X1 X2 x3 56 (by decide) := by
  have step : arg3.view.writes (Elt F) (harg3.unread x3) (kernelRun_later.sl.H3_56 c arg1 harg1 arg2 harg2 arg3 harg3 x1 x2 x3 hr)
      = stepRaw arg3 (wR arg1 harg1 x1 55 (by decide)) (hwR arg1 harg1 x1 hr 55 (by decide)) (rowR arg2 harg2 x2 55 (by decide)) (arg3.view.writes (Elt F) (harg3.unread x3) (kernelRun_later.sl.H3_55 c arg1 harg1 arg2 harg2 arg3 harg3 x1 x2 x3 hr)) := rfl
  rw [step, read_stepRaw, aggL_55]; rfl

theorem aggL_57 : arg3.view.read (Elt F) (arg3.view.writes (Elt F) (harg3.unread x3) (kernelRun_later.sl.H3_57 c arg1 harg1 arg2 harg2 arg3 harg3 x1 x2 x3 hr)) = aggUpTo X1 X2 x3 57 (by decide) := by
  have step : arg3.view.writes (Elt F) (harg3.unread x3) (kernelRun_later.sl.H3_57 c arg1 harg1 arg2 harg2 arg3 harg3 x1 x2 x3 hr)
      = stepRaw arg3 (wR arg1 harg1 x1 56 (by decide)) (hwR arg1 harg1 x1 hr 56 (by decide)) (rowR arg2 harg2 x2 56 (by decide)) (arg3.view.writes (Elt F) (harg3.unread x3) (kernelRun_later.sl.H3_56 c arg1 harg1 arg2 harg2 arg3 harg3 x1 x2 x3 hr)) := rfl
  rw [step, read_stepRaw, aggL_56]; rfl

theorem aggL_58 : arg3.view.read (Elt F) (arg3.view.writes (Elt F) (harg3.unread x3) (kernelRun_later.sl.H3_58 c arg1 harg1 arg2 harg2 arg3 harg3 x1 x2 x3 hr)) = aggUpTo X1 X2 x3 58 (by decide) := by
  have step : arg3.view.writes (Elt F) (harg3.unread x3) (kernelRun_later.sl.H3_58 c arg1 harg1 arg2 harg2 arg3 harg3 x1 x2 x3 hr)
      = stepRaw arg3 (wR arg1 harg1 x1 57 (by decide)) (hwR arg1 harg1 x1 hr 57 (by decide)) (rowR arg2 harg2 x2 57 (by decide)) (arg3.view.writes (Elt F) (harg3.unread x3) (kernelRun_later.sl.H3_57 c arg1 harg1 arg2 harg2 arg3 harg3 x1 x2 x3 hr)) := rfl
  rw [step, read_stepRaw, aggL_57]; rfl

theorem aggL_59 : arg3.view.read (Elt F) (arg3.view.writes (Elt F) (harg3.unread x3) (kernelRun_later.sl.H3_59 c arg1 harg1 arg2 harg2 arg3 harg3 x1 x2 x3 hr)) = aggUpTo X1 X2 x3 59 (by decide) := by
  have step : arg3.view.writes (Elt F) (harg3.unread x3) (kernelRun_later.sl.H3_59 c arg1 harg1 arg2 harg2 arg3 harg3 x1 x2 x3 hr)
      = stepRaw arg3 (wR arg1 harg1 x1 58 (by decide)) (hwR arg1 harg1 x1 hr 58 (by decide)) (rowR arg2 harg2 x2 58 (by decide)) (arg3.view.writes (Elt F) (harg3.unread x3) (kernelRun_later.sl.H3_58 c arg1 harg1 arg2 harg2 arg3 harg3 x1 x2 x3 hr)) := rfl
  rw [step, read_stepRaw, aggL_58]; rfl

theorem aggL_60 : arg3.view.read (Elt F) (arg3.view.writes (Elt F) (harg3.unread x3) (kernelRun_later.sl.H3_60 c arg1 harg1 arg2 harg2 arg3 harg3 x1 x2 x3 hr)) = aggUpTo X1 X2 x3 60 (by decide) := by
  have step : arg3.view.writes (Elt F) (harg3.unread x3) (kernelRun_later.sl.H3_60 c arg1 harg1 arg2 harg2 arg3 harg3 x1 x2 x3 hr)
      = stepRaw arg3 (wR arg1 harg1 x1 59 (by decide)) (hwR arg1 harg1 x1 hr 59 (by decide)) (rowR arg2 harg2 x2 59 (by decide)) (arg3.view.writes (Elt F) (harg3.unread x3) (kernelRun_later.sl.H3_59 c arg1 harg1 arg2 harg2 arg3 harg3 x1 x2 x3 hr)) := rfl
  rw [step, read_stepRaw, aggL_59]; rfl

theorem aggL_61 : arg3.view.read (Elt F) (arg3.view.writes (Elt F) (harg3.unread x3) (kernelRun_later.sl.H3_61 c arg1 harg1 arg2 harg2 arg3 harg3 x1 x2 x3 hr)) = aggUpTo X1 X2 x3 61 (by decide) := by
  have step : arg3.view.writes (Elt F) (harg3.unread x3) (kernelRun_later.sl.H3_61 c arg1 harg1 arg2 harg2 arg3 harg3 x1 x2 x3 hr)
      = stepRaw arg3 (wR arg1 harg1 x1 60 (by decide)) (hwR arg1 harg1 x1 hr 60 (by decide)) (rowR arg2 harg2 x2 60 (by decide)) (arg3.view.writes (Elt F) (harg3.unread x3) (kernelRun_later.sl.H3_60 c arg1 harg1 arg2 harg2 arg3 harg3 x1 x2 x3 hr)) := rfl
  rw [step, read_stepRaw, aggL_60]; rfl

theorem aggL_62 : arg3.view.read (Elt F) (arg3.view.writes (Elt F) (harg3.unread x3) (kernelRun_later.sl.H3_62 c arg1 harg1 arg2 harg2 arg3 harg3 x1 x2 x3 hr)) = aggUpTo X1 X2 x3 62 (by decide) := by
  have step : arg3.view.writes (Elt F) (harg3.unread x3) (kernelRun_later.sl.H3_62 c arg1 harg1 arg2 harg2 arg3 harg3 x1 x2 x3 hr)
      = stepRaw arg3 (wR arg1 harg1 x1 61 (by decide)) (hwR arg1 harg1 x1 hr 61 (by decide)) (rowR arg2 harg2 x2 61 (by decide)) (arg3.view.writes (Elt F) (harg3.unread x3) (kernelRun_later.sl.H3_61 c arg1 harg1 arg2 harg2 arg3 harg3 x1 x2 x3 hr)) := rfl
  rw [step, read_stepRaw, aggL_61]; rfl

theorem aggL_63 : arg3.view.read (Elt F) (arg3.view.writes (Elt F) (harg3.unread x3) (kernelRun_later.sl.H3_63 c arg1 harg1 arg2 harg2 arg3 harg3 x1 x2 x3 hr)) = aggUpTo X1 X2 x3 63 (by decide) := by
  have step : arg3.view.writes (Elt F) (harg3.unread x3) (kernelRun_later.sl.H3_63 c arg1 harg1 arg2 harg2 arg3 harg3 x1 x2 x3 hr)
      = stepRaw arg3 (wR arg1 harg1 x1 62 (by decide)) (hwR arg1 harg1 x1 hr 62 (by decide)) (rowR arg2 harg2 x2 62 (by decide)) (arg3.view.writes (Elt F) (harg3.unread x3) (kernelRun_later.sl.H3_62 c arg1 harg1 arg2 harg2 arg3 harg3 x1 x2 x3 hr)) := rfl
  rw [step, read_stepRaw, aggL_62]; rfl

theorem aggL_64 : arg3.view.read (Elt F) (arg3.view.writes (Elt F) (harg3.unread x3) (kernelRun_later.sl.H3_64 c arg1 harg1 arg2 harg2 arg3 harg3 x1 x2 x3 hr)) = aggUpTo X1 X2 x3 64 (by decide) := by
  have step : arg3.view.writes (Elt F) (harg3.unread x3) (kernelRun_later.sl.H3_64 c arg1 harg1 arg2 harg2 arg3 harg3 x1 x2 x3 hr)
      = stepRaw arg3 (wR arg1 harg1 x1 63 (by decide)) (hwR arg1 harg1 x1 hr 63 (by decide)) (rowR arg2 harg2 x2 63 (by decide)) (arg3.view.writes (Elt F) (harg3.unread x3) (kernelRun_later.sl.H3_63 c arg1 harg1 arg2 harg2 arg3 harg3 x1 x2 x3 hr)) := rfl
  rw [step, read_stepRaw, aggL_63]; rfl

theorem aggL_65 : arg3.view.read (Elt F) (arg3.view.writes (Elt F) (harg3.unread x3) (kernelRun_later.sl.H3_65 c arg1 harg1 arg2 harg2 arg3 harg3 x1 x2 x3 hr)) = aggUpTo X1 X2 x3 65 (by decide) := by
  have step : arg3.view.writes (Elt F) (harg3.unread x3) (kernelRun_later.sl.H3_65 c arg1 harg1 arg2 harg2 arg3 harg3 x1 x2 x3 hr)
      = stepRaw arg3 (wR arg1 harg1 x1 64 (by decide)) (hwR arg1 harg1 x1 hr 64 (by decide)) (rowR arg2 harg2 x2 64 (by decide)) (arg3.view.writes (Elt F) (harg3.unread x3) (kernelRun_later.sl.H3_64 c arg1 harg1 arg2 harg2 arg3 harg3 x1 x2 x3 hr)) := rfl
  rw [step, read_stepRaw, aggL_64]; rfl

theorem aggL_66 : arg3.view.read (Elt F) (arg3.view.writes (Elt F) (harg3.unread x3) (kernelRun_later.sl.H3_66 c arg1 harg1 arg2 harg2 arg3 harg3 x1 x2 x3 hr)) = aggUpTo X1 X2 x3 66 (by decide) := by
  have step : arg3.view.writes (Elt F) (harg3.unread x3) (kernelRun_later.sl.H3_66 c arg1 harg1 arg2 harg2 arg3 harg3 x1 x2 x3 hr)
      = stepRaw arg3 (wR arg1 harg1 x1 65 (by decide)) (hwR arg1 harg1 x1 hr 65 (by decide)) (rowR arg2 harg2 x2 65 (by decide)) (arg3.view.writes (Elt F) (harg3.unread x3) (kernelRun_later.sl.H3_65 c arg1 harg1 arg2 harg2 arg3 harg3 x1 x2 x3 hr)) := rfl
  rw [step, read_stepRaw, aggL_65]; rfl

theorem aggL_67 : arg3.view.read (Elt F) (arg3.view.writes (Elt F) (harg3.unread x3) (kernelRun_later.sl.H3_67 c arg1 harg1 arg2 harg2 arg3 harg3 x1 x2 x3 hr)) = aggUpTo X1 X2 x3 67 (by decide) := by
  have step : arg3.view.writes (Elt F) (harg3.unread x3) (kernelRun_later.sl.H3_67 c arg1 harg1 arg2 harg2 arg3 harg3 x1 x2 x3 hr)
      = stepRaw arg3 (wR arg1 harg1 x1 66 (by decide)) (hwR arg1 harg1 x1 hr 66 (by decide)) (rowR arg2 harg2 x2 66 (by decide)) (arg3.view.writes (Elt F) (harg3.unread x3) (kernelRun_later.sl.H3_66 c arg1 harg1 arg2 harg2 arg3 harg3 x1 x2 x3 hr)) := rfl
  rw [step, read_stepRaw, aggL_66]; rfl

theorem aggL_68 : arg3.view.read (Elt F) (arg3.view.writes (Elt F) (harg3.unread x3) (kernelRun_later.sl.H3_68 c arg1 harg1 arg2 harg2 arg3 harg3 x1 x2 x3 hr)) = aggUpTo X1 X2 x3 68 (by decide) := by
  have step : arg3.view.writes (Elt F) (harg3.unread x3) (kernelRun_later.sl.H3_68 c arg1 harg1 arg2 harg2 arg3 harg3 x1 x2 x3 hr)
      = stepRaw arg3 (wR arg1 harg1 x1 67 (by decide)) (hwR arg1 harg1 x1 hr 67 (by decide)) (rowR arg2 harg2 x2 67 (by decide)) (arg3.view.writes (Elt F) (harg3.unread x3) (kernelRun_later.sl.H3_67 c arg1 harg1 arg2 harg2 arg3 harg3 x1 x2 x3 hr)) := rfl
  rw [step, read_stepRaw, aggL_67]; rfl

theorem aggL_69 : arg3.view.read (Elt F) (arg3.view.writes (Elt F) (harg3.unread x3) (kernelRun_later.sl.H3_69 c arg1 harg1 arg2 harg2 arg3 harg3 x1 x2 x3 hr)) = aggUpTo X1 X2 x3 69 (by decide) := by
  have step : arg3.view.writes (Elt F) (harg3.unread x3) (kernelRun_later.sl.H3_69 c arg1 harg1 arg2 harg2 arg3 harg3 x1 x2 x3 hr)
      = stepRaw arg3 (wR arg1 harg1 x1 68 (by decide)) (hwR arg1 harg1 x1 hr 68 (by decide)) (rowR arg2 harg2 x2 68 (by decide)) (arg3.view.writes (Elt F) (harg3.unread x3) (kernelRun_later.sl.H3_68 c arg1 harg1 arg2 harg2 arg3 harg3 x1 x2 x3 hr)) := rfl
  rw [step, read_stepRaw, aggL_68]; rfl

theorem aggL_70 : arg3.view.read (Elt F) (arg3.view.writes (Elt F) (harg3.unread x3) (kernelRun_later.sl.H3_70 c arg1 harg1 arg2 harg2 arg3 harg3 x1 x2 x3 hr)) = aggUpTo X1 X2 x3 70 (by decide) := by
  have step : arg3.view.writes (Elt F) (harg3.unread x3) (kernelRun_later.sl.H3_70 c arg1 harg1 arg2 harg2 arg3 harg3 x1 x2 x3 hr)
      = stepRaw arg3 (wR arg1 harg1 x1 69 (by decide)) (hwR arg1 harg1 x1 hr 69 (by decide)) (rowR arg2 harg2 x2 69 (by decide)) (arg3.view.writes (Elt F) (harg3.unread x3) (kernelRun_later.sl.H3_69 c arg1 harg1 arg2 harg2 arg3 harg3 x1 x2 x3 hr)) := rfl
  rw [step, read_stepRaw, aggL_69]; rfl

theorem aggL_71 : arg3.view.read (Elt F) (arg3.view.writes (Elt F) (harg3.unread x3) (kernelRun_later.sl.H3_71 c arg1 harg1 arg2 harg2 arg3 harg3 x1 x2 x3 hr)) = aggUpTo X1 X2 x3 71 (by decide) := by
  have step : arg3.view.writes (Elt F) (harg3.unread x3) (kernelRun_later.sl.H3_71 c arg1 harg1 arg2 harg2 arg3 harg3 x1 x2 x3 hr)
      = stepRaw arg3 (wR arg1 harg1 x1 70 (by decide)) (hwR arg1 harg1 x1 hr 70 (by decide)) (rowR arg2 harg2 x2 70 (by decide)) (arg3.view.writes (Elt F) (harg3.unread x3) (kernelRun_later.sl.H3_70 c arg1 harg1 arg2 harg2 arg3 harg3 x1 x2 x3 hr)) := rfl
  rw [step, read_stepRaw, aggL_70]; rfl

theorem aggL_72 : arg3.view.read (Elt F) (arg3.view.writes (Elt F) (harg3.unread x3) (kernelRun_later.sl.H3_72 c arg1 harg1 arg2 harg2 arg3 harg3 x1 x2 x3 hr)) = aggUpTo X1 X2 x3 72 (by decide) := by
  have step : arg3.view.writes (Elt F) (harg3.unread x3) (kernelRun_later.sl.H3_72 c arg1 harg1 arg2 harg2 arg3 harg3 x1 x2 x3 hr)
      = stepRaw arg3 (wR arg1 harg1 x1 71 (by decide)) (hwR arg1 harg1 x1 hr 71 (by decide)) (rowR arg2 harg2 x2 71 (by decide)) (arg3.view.writes (Elt F) (harg3.unread x3) (kernelRun_later.sl.H3_71 c arg1 harg1 arg2 harg2 arg3 harg3 x1 x2 x3 hr)) := rfl
  rw [step, read_stepRaw, aggL_71]; rfl

theorem aggL_73 : arg3.view.read (Elt F) (arg3.view.writes (Elt F) (harg3.unread x3) (kernelRun_later.sl.H3_73 c arg1 harg1 arg2 harg2 arg3 harg3 x1 x2 x3 hr)) = aggUpTo X1 X2 x3 73 (by decide) := by
  have step : arg3.view.writes (Elt F) (harg3.unread x3) (kernelRun_later.sl.H3_73 c arg1 harg1 arg2 harg2 arg3 harg3 x1 x2 x3 hr)
      = stepRaw arg3 (wR arg1 harg1 x1 72 (by decide)) (hwR arg1 harg1 x1 hr 72 (by decide)) (rowR arg2 harg2 x2 72 (by decide)) (arg3.view.writes (Elt F) (harg3.unread x3) (kernelRun_later.sl.H3_72 c arg1 harg1 arg2 harg2 arg3 harg3 x1 x2 x3 hr)) := rfl
  rw [step, read_stepRaw, aggL_72]; rfl

theorem aggL_74 : arg3.view.read (Elt F) (arg3.view.writes (Elt F) (harg3.unread x3) (kernelRun_later.sl.H3_74 c arg1 harg1 arg2 harg2 arg3 harg3 x1 x2 x3 hr)) = aggUpTo X1 X2 x3 74 (by decide) := by
  have step : arg3.view.writes (Elt F) (harg3.unread x3) (kernelRun_later.sl.H3_74 c arg1 harg1 arg2 harg2 arg3 harg3 x1 x2 x3 hr)
      = stepRaw arg3 (wR arg1 harg1 x1 73 (by decide)) (hwR arg1 harg1 x1 hr 73 (by decide)) (rowR arg2 harg2 x2 73 (by decide)) (arg3.view.writes (Elt F) (harg3.unread x3) (kernelRun_later.sl.H3_73 c arg1 harg1 arg2 harg2 arg3 harg3 x1 x2 x3 hr)) := rfl
  rw [step, read_stepRaw, aggL_73]; rfl

theorem aggL_75 : arg3.view.read (Elt F) (arg3.view.writes (Elt F) (harg3.unread x3) (kernelRun_later.sl.H3_75 c arg1 harg1 arg2 harg2 arg3 harg3 x1 x2 x3 hr)) = aggUpTo X1 X2 x3 75 (by decide) := by
  have step : arg3.view.writes (Elt F) (harg3.unread x3) (kernelRun_later.sl.H3_75 c arg1 harg1 arg2 harg2 arg3 harg3 x1 x2 x3 hr)
      = stepRaw arg3 (wR arg1 harg1 x1 74 (by decide)) (hwR arg1 harg1 x1 hr 74 (by decide)) (rowR arg2 harg2 x2 74 (by decide)) (arg3.view.writes (Elt F) (harg3.unread x3) (kernelRun_later.sl.H3_74 c arg1 harg1 arg2 harg2 arg3 harg3 x1 x2 x3 hr)) := rfl
  rw [step, read_stepRaw, aggL_74]; rfl

theorem aggL_76 : arg3.view.read (Elt F) (arg3.view.writes (Elt F) (harg3.unread x3) (kernelRun_later.sl.H3_76 c arg1 harg1 arg2 harg2 arg3 harg3 x1 x2 x3 hr)) = aggUpTo X1 X2 x3 76 (by decide) := by
  have step : arg3.view.writes (Elt F) (harg3.unread x3) (kernelRun_later.sl.H3_76 c arg1 harg1 arg2 harg2 arg3 harg3 x1 x2 x3 hr)
      = stepRaw arg3 (wR arg1 harg1 x1 75 (by decide)) (hwR arg1 harg1 x1 hr 75 (by decide)) (rowR arg2 harg2 x2 75 (by decide)) (arg3.view.writes (Elt F) (harg3.unread x3) (kernelRun_later.sl.H3_75 c arg1 harg1 arg2 harg2 arg3 harg3 x1 x2 x3 hr)) := rfl
  rw [step, read_stepRaw, aggL_75]; rfl

theorem aggL_77 : arg3.view.read (Elt F) (arg3.view.writes (Elt F) (harg3.unread x3) (kernelRun_later.sl.H3_77 c arg1 harg1 arg2 harg2 arg3 harg3 x1 x2 x3 hr)) = aggUpTo X1 X2 x3 77 (by decide) := by
  have step : arg3.view.writes (Elt F) (harg3.unread x3) (kernelRun_later.sl.H3_77 c arg1 harg1 arg2 harg2 arg3 harg3 x1 x2 x3 hr)
      = stepRaw arg3 (wR arg1 harg1 x1 76 (by decide)) (hwR arg1 harg1 x1 hr 76 (by decide)) (rowR arg2 harg2 x2 76 (by decide)) (arg3.view.writes (Elt F) (harg3.unread x3) (kernelRun_later.sl.H3_76 c arg1 harg1 arg2 harg2 arg3 harg3 x1 x2 x3 hr)) := rfl
  rw [step, read_stepRaw, aggL_76]; rfl

theorem aggL_78 : arg3.view.read (Elt F) (arg3.view.writes (Elt F) (harg3.unread x3) (kernelRun_later.sl.H3_78 c arg1 harg1 arg2 harg2 arg3 harg3 x1 x2 x3 hr)) = aggUpTo X1 X2 x3 78 (by decide) := by
  have step : arg3.view.writes (Elt F) (harg3.unread x3) (kernelRun_later.sl.H3_78 c arg1 harg1 arg2 harg2 arg3 harg3 x1 x2 x3 hr)
      = stepRaw arg3 (wR arg1 harg1 x1 77 (by decide)) (hwR arg1 harg1 x1 hr 77 (by decide)) (rowR arg2 harg2 x2 77 (by decide)) (arg3.view.writes (Elt F) (harg3.unread x3) (kernelRun_later.sl.H3_77 c arg1 harg1 arg2 harg2 arg3 harg3 x1 x2 x3 hr)) := rfl
  rw [step, read_stepRaw, aggL_77]; rfl

theorem aggL_79 : arg3.view.read (Elt F) (arg3.view.writes (Elt F) (harg3.unread x3) (kernelRun_later.sl.H3_79 c arg1 harg1 arg2 harg2 arg3 harg3 x1 x2 x3 hr)) = aggUpTo X1 X2 x3 79 (by decide) := by
  have step : arg3.view.writes (Elt F) (harg3.unread x3) (kernelRun_later.sl.H3_79 c arg1 harg1 arg2 harg2 arg3 harg3 x1 x2 x3 hr)
      = stepRaw arg3 (wR arg1 harg1 x1 78 (by decide)) (hwR arg1 harg1 x1 hr 78 (by decide)) (rowR arg2 harg2 x2 78 (by decide)) (arg3.view.writes (Elt F) (harg3.unread x3) (kernelRun_later.sl.H3_78 c arg1 harg1 arg2 harg2 arg3 harg3 x1 x2 x3 hr)) := rfl
  rw [step, read_stepRaw, aggL_78]; rfl

theorem aggL_80 : arg3.view.read (Elt F) (arg3.view.writes (Elt F) (harg3.unread x3) (kernelRun_later.sl.H3_80 c arg1 harg1 arg2 harg2 arg3 harg3 x1 x2 x3 hr)) = aggUpTo X1 X2 x3 80 (by decide) := by
  have step : arg3.view.writes (Elt F) (harg3.unread x3) (kernelRun_later.sl.H3_80 c arg1 harg1 arg2 harg2 arg3 harg3 x1 x2 x3 hr)
      = stepRaw arg3 (wR arg1 harg1 x1 79 (by decide)) (hwR arg1 harg1 x1 hr 79 (by decide)) (rowR arg2 harg2 x2 79 (by decide)) (arg3.view.writes (Elt F) (harg3.unread x3) (kernelRun_later.sl.H3_79 c arg1 harg1 arg2 harg2 arg3 harg3 x1 x2 x3 hr)) := rfl
  rw [step, read_stepRaw, aggL_79]; rfl

theorem aggL_81 : arg3.view.read (Elt F) (arg3.view.writes (Elt F) (harg3.unread x3) (kernelRun_later.sl.H3_81 c arg1 harg1 arg2 harg2 arg3 harg3 x1 x2 x3 hr)) = aggUpTo X1 X2 x3 81 (by decide) := by
  have step : arg3.view.writes (Elt F) (harg3.unread x3) (kernelRun_later.sl.H3_81 c arg1 harg1 arg2 harg2 arg3 harg3 x1 x2 x3 hr)
      = stepRaw arg3 (wR arg1 harg1 x1 80 (by decide)) (hwR arg1 harg1 x1 hr 80 (by decide)) (rowR arg2 harg2 x2 80 (by decide)) (arg3.view.writes (Elt F) (harg3.unread x3) (kernelRun_later.sl.H3_80 c arg1 harg1 arg2 harg2 arg3 harg3 x1 x2 x3 hr)) := rfl
  rw [step, read_stepRaw, aggL_80]; rfl

theorem aggL_82 : arg3.view.read (Elt F) (arg3.view.writes (Elt F) (harg3.unread x3) (kernelRun_later.sl.H3_82 c arg1 harg1 arg2 harg2 arg3 harg3 x1 x2 x3 hr)) = aggUpTo X1 X2 x3 82 (by decide) := by
  have step : arg3.view.writes (Elt F) (harg3.unread x3) (kernelRun_later.sl.H3_82 c arg1 harg1 arg2 harg2 arg3 harg3 x1 x2 x3 hr)
      = stepRaw arg3 (wR arg1 harg1 x1 81 (by decide)) (hwR arg1 harg1 x1 hr 81 (by decide)) (rowR arg2 harg2 x2 81 (by decide)) (arg3.view.writes (Elt F) (harg3.unread x3) (kernelRun_later.sl.H3_81 c arg1 harg1 arg2 harg2 arg3 harg3 x1 x2 x3 hr)) := rfl
  rw [step, read_stepRaw, aggL_81]; rfl

theorem aggL_83 : arg3.view.read (Elt F) (arg3.view.writes (Elt F) (harg3.unread x3) (kernelRun_later.sl.H3_83 c arg1 harg1 arg2 harg2 arg3 harg3 x1 x2 x3 hr)) = aggUpTo X1 X2 x3 83 (by decide) := by
  have step : arg3.view.writes (Elt F) (harg3.unread x3) (kernelRun_later.sl.H3_83 c arg1 harg1 arg2 harg2 arg3 harg3 x1 x2 x3 hr)
      = stepRaw arg3 (wR arg1 harg1 x1 82 (by decide)) (hwR arg1 harg1 x1 hr 82 (by decide)) (rowR arg2 harg2 x2 82 (by decide)) (arg3.view.writes (Elt F) (harg3.unread x3) (kernelRun_later.sl.H3_82 c arg1 harg1 arg2 harg2 arg3 harg3 x1 x2 x3 hr)) := rfl
  rw [step, read_stepRaw, aggL_82]; rfl

theorem aggL_84 : arg3.view.read (Elt F) (arg3.view.writes (Elt F) (harg3.unread x3) (kernelRun_later.sl.H3_84 c arg1 harg1 arg2 harg2 arg3 harg3 x1 x2 x3 hr)) = aggUpTo X1 X2 x3 84 (by decide) := by
  have step : arg3.view.writes (Elt F) (harg3.unread x3) (kernelRun_later.sl.H3_84 c arg1 harg1 arg2 harg2 arg3 harg3 x1 x2 x3 hr)
      = stepRaw arg3 (wR arg1 harg1 x1 83 (by decide)) (hwR arg1 harg1 x1 hr 83 (by decide)) (rowR arg2 harg2 x2 83 (by decide)) (arg3.view.writes (Elt F) (harg3.unread x3) (kernelRun_later.sl.H3_83 c arg1 harg1 arg2 harg2 arg3 harg3 x1 x2 x3 hr)) := rfl
  rw [step, read_stepRaw, aggL_83]; rfl

theorem aggL_85 : arg3.view.read (Elt F) (arg3.view.writes (Elt F) (harg3.unread x3) (kernelRun_later.sl.H3_85 c arg1 harg1 arg2 harg2 arg3 harg3 x1 x2 x3 hr)) = aggUpTo X1 X2 x3 85 (by decide) := by
  have step : arg3.view.writes (Elt F) (harg3.unread x3) (kernelRun_later.sl.H3_85 c arg1 harg1 arg2 harg2 arg3 harg3 x1 x2 x3 hr)
      = stepRaw arg3 (wR arg1 harg1 x1 84 (by decide)) (hwR arg1 harg1 x1 hr 84 (by decide)) (rowR arg2 harg2 x2 84 (by decide)) (arg3.view.writes (Elt F) (harg3.unread x3) (kernelRun_later.sl.H3_84 c arg1 harg1 arg2 harg2 arg3 harg3 x1 x2 x3 hr)) := rfl
  rw [step, read_stepRaw, aggL_84]; rfl

theorem aggL_86 : arg3.view.read (Elt F) (arg3.view.writes (Elt F) (harg3.unread x3) (kernelRun_later.sl.H3_86 c arg1 harg1 arg2 harg2 arg3 harg3 x1 x2 x3 hr)) = aggUpTo X1 X2 x3 86 (by decide) := by
  have step : arg3.view.writes (Elt F) (harg3.unread x3) (kernelRun_later.sl.H3_86 c arg1 harg1 arg2 harg2 arg3 harg3 x1 x2 x3 hr)
      = stepRaw arg3 (wR arg1 harg1 x1 85 (by decide)) (hwR arg1 harg1 x1 hr 85 (by decide)) (rowR arg2 harg2 x2 85 (by decide)) (arg3.view.writes (Elt F) (harg3.unread x3) (kernelRun_later.sl.H3_85 c arg1 harg1 arg2 harg2 arg3 harg3 x1 x2 x3 hr)) := rfl
  rw [step, read_stepRaw, aggL_85]; rfl

theorem aggL_87 : arg3.view.read (Elt F) (arg3.view.writes (Elt F) (harg3.unread x3) (kernelRun_later.sl.H3_87 c arg1 harg1 arg2 harg2 arg3 harg3 x1 x2 x3 hr)) = aggUpTo X1 X2 x3 87 (by decide) := by
  have step : arg3.view.writes (Elt F) (harg3.unread x3) (kernelRun_later.sl.H3_87 c arg1 harg1 arg2 harg2 arg3 harg3 x1 x2 x3 hr)
      = stepRaw arg3 (wR arg1 harg1 x1 86 (by decide)) (hwR arg1 harg1 x1 hr 86 (by decide)) (rowR arg2 harg2 x2 86 (by decide)) (arg3.view.writes (Elt F) (harg3.unread x3) (kernelRun_later.sl.H3_86 c arg1 harg1 arg2 harg2 arg3 harg3 x1 x2 x3 hr)) := rfl
  rw [step, read_stepRaw, aggL_86]; rfl

theorem aggL_88 : arg3.view.read (Elt F) (arg3.view.writes (Elt F) (harg3.unread x3) (kernelRun_later.sl.H3_88 c arg1 harg1 arg2 harg2 arg3 harg3 x1 x2 x3 hr)) = aggUpTo X1 X2 x3 88 (by decide) := by
  have step : arg3.view.writes (Elt F) (harg3.unread x3) (kernelRun_later.sl.H3_88 c arg1 harg1 arg2 harg2 arg3 harg3 x1 x2 x3 hr)
      = stepRaw arg3 (wR arg1 harg1 x1 87 (by decide)) (hwR arg1 harg1 x1 hr 87 (by decide)) (rowR arg2 harg2 x2 87 (by decide)) (arg3.view.writes (Elt F) (harg3.unread x3) (kernelRun_later.sl.H3_87 c arg1 harg1 arg2 harg2 arg3 harg3 x1 x2 x3 hr)) := rfl
  rw [step, read_stepRaw, aggL_87]; rfl

theorem aggL_89 : arg3.view.read (Elt F) (arg3.view.writes (Elt F) (harg3.unread x3) (kernelRun_later.sl.H3_89 c arg1 harg1 arg2 harg2 arg3 harg3 x1 x2 x3 hr)) = aggUpTo X1 X2 x3 89 (by decide) := by
  have step : arg3.view.writes (Elt F) (harg3.unread x3) (kernelRun_later.sl.H3_89 c arg1 harg1 arg2 harg2 arg3 harg3 x1 x2 x3 hr)
      = stepRaw arg3 (wR arg1 harg1 x1 88 (by decide)) (hwR arg1 harg1 x1 hr 88 (by decide)) (rowR arg2 harg2 x2 88 (by decide)) (arg3.view.writes (Elt F) (harg3.unread x3) (kernelRun_later.sl.H3_88 c arg1 harg1 arg2 harg2 arg3 harg3 x1 x2 x3 hr)) := rfl
  rw [step, read_stepRaw, aggL_88]; rfl

theorem aggL_90 : arg3.view.read (Elt F) (arg3.view.writes (Elt F) (harg3.unread x3) (kernelRun_later.sl.H3_90 c arg1 harg1 arg2 harg2 arg3 harg3 x1 x2 x3 hr)) = aggUpTo X1 X2 x3 90 (by decide) := by
  have step : arg3.view.writes (Elt F) (harg3.unread x3) (kernelRun_later.sl.H3_90 c arg1 harg1 arg2 harg2 arg3 harg3 x1 x2 x3 hr)
      = stepRaw arg3 (wR arg1 harg1 x1 89 (by decide)) (hwR arg1 harg1 x1 hr 89 (by decide)) (rowR arg2 harg2 x2 89 (by decide)) (arg3.view.writes (Elt F) (harg3.unread x3) (kernelRun_later.sl.H3_89 c arg1 harg1 arg2 harg2 arg3 harg3 x1 x2 x3 hr)) := rfl
  rw [step, read_stepRaw, aggL_89]; rfl

theorem aggL_91 : arg3.view.read (Elt F) (arg3.view.writes (Elt F) (harg3.unread x3) (kernelRun_later.sl.H3_91 c arg1 harg1 arg2 harg2 arg3 harg3 x1 x2 x3 hr)) = aggUpTo X1 X2 x3 91 (by decide) := by
  have step : arg3.view.writes (Elt F) (harg3.unread x3) (kernelRun_later.sl.H3_91 c arg1 harg1 arg2 harg2 arg3 harg3 x1 x2 x3 hr)
      = stepRaw arg3 (wR arg1 harg1 x1 90 (by decide)) (hwR arg1 harg1 x1 hr 90 (by decide)) (rowR arg2 harg2 x2 90 (by decide)) (arg3.view.writes (Elt F) (harg3.unread x3) (kernelRun_later.sl.H3_90 c arg1 harg1 arg2 harg2 arg3 harg3 x1 x2 x3 hr)) := rfl
  rw [step, read_stepRaw, aggL_90]; rfl

theorem aggL_92 : arg3.view.read (Elt F) (arg3.view.writes (Elt F) (harg3.unread x3) (kernelRun_later.sl.H3_92 c arg1 harg1 arg2 harg2 arg3 harg3 x1 x2 x3 hr)) = aggUpTo X1 X2 x3 92 (by decide) := by
  have step : arg3.view.writes (Elt F) (harg3.unread x3) (kernelRun_later.sl.H3_92 c arg1 harg1 arg2 harg2 arg3 harg3 x1 x2 x3 hr)
      = stepRaw arg3 (wR arg1 harg1 x1 91 (by decide)) (hwR arg1 harg1 x1 hr 91 (by decide)) (rowR arg2 harg2 x2 91 (by decide)) (arg3.view.writes (Elt F) (harg3.unread x3) (kernelRun_later.sl.H3_91 c arg1 harg1 arg2 harg2 arg3 harg3 x1 x2 x3 hr)) := rfl
  rw [step, read_stepRaw, aggL_91]; rfl

theorem aggL_93 : arg3.view.read (Elt F) (arg3.view.writes (Elt F) (harg3.unread x3) (kernelRun_later.sl.H3_93 c arg1 harg1 arg2 harg2 arg3 harg3 x1 x2 x3 hr)) = aggUpTo X1 X2 x3 93 (by decide) := by
  have step : arg3.view.writes (Elt F) (harg3.unread x3) (kernelRun_later.sl.H3_93 c arg1 harg1 arg2 harg2 arg3 harg3 x1 x2 x3 hr)
      = stepRaw arg3 (wR arg1 harg1 x1 92 (by decide)) (hwR arg1 harg1 x1 hr 92 (by decide)) (rowR arg2 harg2 x2 92 (by decide)) (arg3.view.writes (Elt F) (harg3.unread x3) (kernelRun_later.sl.H3_92 c arg1 harg1 arg2 harg2 arg3 harg3 x1 x2 x3 hr)) := rfl
  rw [step, read_stepRaw, aggL_92]; rfl

theorem aggL_94 : arg3.view.read (Elt F) (arg3.view.writes (Elt F) (harg3.unread x3) (kernelRun_later.sl.H3_94 c arg1 harg1 arg2 harg2 arg3 harg3 x1 x2 x3 hr)) = aggUpTo X1 X2 x3 94 (by decide) := by
  have step : arg3.view.writes (Elt F) (harg3.unread x3) (kernelRun_later.sl.H3_94 c arg1 harg1 arg2 harg2 arg3 harg3 x1 x2 x3 hr)
      = stepRaw arg3 (wR arg1 harg1 x1 93 (by decide)) (hwR arg1 harg1 x1 hr 93 (by decide)) (rowR arg2 harg2 x2 93 (by decide)) (arg3.view.writes (Elt F) (harg3.unread x3) (kernelRun_later.sl.H3_93 c arg1 harg1 arg2 harg2 arg3 harg3 x1 x2 x3 hr)) := rfl
  rw [step, read_stepRaw, aggL_93]; rfl

theorem aggL_95 : arg3.view.read (Elt F) (arg3.view.writes (Elt F) (harg3.unread x3) (kernelRun_later.sl.H3_95 c arg1 harg1 arg2 harg2 arg3 harg3 x1 x2 x3 hr)) = aggUpTo X1 X2 x3 95 (by decide) := by
  have step : arg3.view.writes (Elt F) (harg3.unread x3) (kernelRun_later.sl.H3_95 c arg1 harg1 arg2 harg2 arg3 harg3 x1 x2 x3 hr)
      = stepRaw arg3 (wR arg1 harg1 x1 94 (by decide)) (hwR arg1 harg1 x1 hr 94 (by decide)) (rowR arg2 harg2 x2 94 (by decide)) (arg3.view.writes (Elt F) (harg3.unread x3) (kernelRun_later.sl.H3_94 c arg1 harg1 arg2 harg2 arg3 harg3 x1 x2 x3 hr)) := rfl
  rw [step, read_stepRaw, aggL_94]; rfl

theorem aggL_96 : arg3.view.read (Elt F) (arg3.view.writes (Elt F) (harg3.unread x3) (kernelRun_later.sl.H3_96 c arg1 harg1 arg2 harg2 arg3 harg3 x1 x2 x3 hr)) = aggUpTo X1 X2 x3 96 (by decide) := by
  have step : arg3.view.writes (Elt F) (harg3.unread x3) (kernelRun_later.sl.H3_96 c arg1 harg1 arg2 harg2 arg3 harg3 x1 x2 x3 hr)
      = stepRaw arg3 (wR arg1 harg1 x1 95 (by decide)) (hwR arg1 harg1 x1 hr 95 (by decide)) (rowR arg2 harg2 x2 95 (by decide)) (arg3.view.writes (Elt F) (harg3.unread x3) (kernelRun_later.sl.H3_95 c arg1 harg1 arg2 harg2 arg3 harg3 x1 x2 x3 hr)) := rfl
  rw [step, read_stepRaw, aggL_95]; rfl

theorem aggL_97 : arg3.view.read (Elt F) (arg3.view.writes (Elt F) (harg3.unread x3) (kernelRun_later.sl.H3_97 c arg1 harg1 arg2 harg2 arg3 harg3 x1 x2 x3 hr)) = aggUpTo X1 X2 x3 97 (by decide) := by
  have step : arg3.view.writes (Elt F) (harg3.unread x3) (kernelRun_later.sl.H3_97 c arg1 harg1 arg2 harg2 arg3 harg3 x1 x2 x3 hr)
      = stepRaw arg3 (wR arg1 harg1 x1 96 (by decide)) (hwR arg1 harg1 x1 hr 96 (by decide)) (rowR arg2 harg2 x2 96 (by decide)) (arg3.view.writes (Elt F) (harg3.unread x3) (kernelRun_later.sl.H3_96 c arg1 harg1 arg2 harg2 arg3 harg3 x1 x2 x3 hr)) := rfl
  rw [step, read_stepRaw, aggL_96]; rfl

theorem aggL_98 : arg3.view.read (Elt F) (arg3.view.writes (Elt F) (harg3.unread x3) (kernelRun_later.sl.H3_98 c arg1 harg1 arg2 harg2 arg3 harg3 x1 x2 x3 hr)) = aggUpTo X1 X2 x3 98 (by decide) := by
  have step : arg3.view.writes (Elt F) (harg3.unread x3) (kernelRun_later.sl.H3_98 c arg1 harg1 arg2 harg2 arg3 harg3 x1 x2 x3 hr)
      = stepRaw arg3 (wR arg1 harg1 x1 97 (by decide)) (hwR arg1 harg1 x1 hr 97 (by decide)) (rowR arg2 harg2 x2 97 (by decide)) (arg3.view.writes (Elt F) (harg3.unread x3) (kernelRun_later.sl.H3_97 c arg1 harg1 arg2 harg2 arg3 harg3 x1 x2 x3 hr)) := rfl
  rw [step, read_stepRaw, aggL_97]; rfl

theorem aggL_99 : arg3.view.read (Elt F) (arg3.view.writes (Elt F) (harg3.unread x3) (kernelRun_later.sl.H3_99 c arg1 harg1 arg2 harg2 arg3 harg3 x1 x2 x3 hr)) = aggUpTo X1 X2 x3 99 (by decide) := by
  have step : arg3.view.writes (Elt F) (harg3.unread x3) (kernelRun_later.sl.H3_99 c arg1 harg1 arg2 harg2 arg3 harg3 x1 x2 x3 hr)
      = stepRaw arg3 (wR arg1 harg1 x1 98 (by decide)) (hwR arg1 harg1 x1 hr 98 (by decide)) (rowR arg2 harg2 x2 98 (by decide)) (arg3.view.writes (Elt F) (harg3.unread x3) (kernelRun_later.sl.H3_98 c arg1 harg1 arg2 harg2 arg3 harg3 x1 x2 x3 hr)) := rfl
  rw [step, read_stepRaw, aggL_98]; rfl

theorem aggL_100 : arg3.view.read (Elt F) (arg3.view.writes (Elt F) (harg3.unread x3) (kernelRun_later.sl.H3_100 c arg1 harg1 arg2 harg2 arg3 harg3 x1 x2 x3 hr)) = aggUpTo X1 X2 x3 100 (by decide) := by
  have step : arg3.view.writes (Elt F) (harg3.unread x3) (kernelRun_later.sl.H3_100 c arg1 harg1 arg2 harg2 arg3 harg3 x1 x2 x3 hr)
      = stepRaw arg3 (wR arg1 harg1 x1 99 (by decide)) (hwR arg1 harg1 x1 hr 99 (by decide)) (rowR arg2 harg2 x2 99 (by decide)) (arg3.view.writes (Elt F) (harg3.unread x3) (kernelRun_later.sl.H3_99 c arg1 harg1 arg2 harg2 arg3 harg3 x1 x2 x3 hr)) := rfl
  rw [step, read_stepRaw, aggL_99]; rfl

theorem aggL_101 : arg3.view.read (Elt F) (arg3.view.writes (Elt F) (harg3.unread x3) (kernelRun_later.sl.H3_101 c arg1 harg1 arg2 harg2 arg3 harg3 x1 x2 x3 hr)) = aggUpTo X1 X2 x3 101 (by decide) := by
  have step : arg3.view.writes (Elt F) (harg3.unread x3) (kernelRun_later.sl.H3_101 c arg1 harg1 arg2 harg2 arg3 harg3 x1 x2 x3 hr)
      = stepRaw arg3 (wR arg1 harg1 x1 100 (by decide)) (hwR arg1 harg1 x1 hr 100 (by decide)) (rowR arg2 harg2 x2 100 (by decide)) (arg3.view.writes (Elt F) (harg3.unread x3) (kernelRun_later.sl.H3_100 c arg1 harg1 arg2 harg2 arg3 harg3 x1 x2 x3 hr)) := rfl
  rw [step, read_stepRaw, aggL_100]; rfl

theorem aggL_102 : arg3.view.read (Elt F) (arg3.view.writes (Elt F) (harg3.unread x3) (kernelRun_later.sl.H3_102 c arg1 harg1 arg2 harg2 arg3 harg3 x1 x2 x3 hr)) = aggUpTo X1 X2 x3 102 (by decide) := by
  have step : arg3.view.writes (Elt F) (harg3.unread x3) (kernelRun_later.sl.H3_102 c arg1 harg1 arg2 harg2 arg3 harg3 x1 x2 x3 hr)
      = stepRaw arg3 (wR arg1 harg1 x1 101 (by decide)) (hwR arg1 harg1 x1 hr 101 (by decide)) (rowR arg2 harg2 x2 101 (by decide)) (arg3.view.writes (Elt F) (harg3.unread x3) (kernelRun_later.sl.H3_101 c arg1 harg1 arg2 harg2 arg3 harg3 x1 x2 x3 hr)) := rfl
  rw [step, read_stepRaw, aggL_101]; rfl

theorem aggL_103 : arg3.view.read (Elt F) (arg3.view.writes (Elt F) (harg3.unread x3) (kernelRun_later.sl.H3_103 c arg1 harg1 arg2 harg2 arg3 harg3 x1 x2 x3 hr)) = aggUpTo X1 X2 x3 103 (by decide) := by
  have step : arg3.view.writes (Elt F) (harg3.unread x3) (kernelRun_later.sl.H3_103 c arg1 harg1 arg2 harg2 arg3 harg3 x1 x2 x3 hr)
      = stepRaw arg3 (wR arg1 harg1 x1 102 (by decide)) (hwR arg1 harg1 x1 hr 102 (by decide)) (rowR arg2 harg2 x2 102 (by decide)) (arg3.view.writes (Elt F) (harg3.unread x3) (kernelRun_later.sl.H3_102 c arg1 harg1 arg2 harg2 arg3 harg3 x1 x2 x3 hr)) := rfl
  rw [step, read_stepRaw, aggL_102]; rfl

theorem aggL_104 : arg3.view.read (Elt F) (arg3.view.writes (Elt F) (harg3.unread x3) (kernelRun_later.sl.H3_104 c arg1 harg1 arg2 harg2 arg3 harg3 x1 x2 x3 hr)) = aggUpTo X1 X2 x3 104 (by decide) := by
  have step : arg3.view.writes (Elt F) (harg3.unread x3) (kernelRun_later.sl.H3_104 c arg1 harg1 arg2 harg2 arg3 harg3 x1 x2 x3 hr)
      = stepRaw arg3 (wR arg1 harg1 x1 103 (by decide)) (hwR arg1 harg1 x1 hr 103 (by decide)) (rowR arg2 harg2 x2 103 (by decide)) (arg3.view.writes (Elt F) (harg3.unread x3) (kernelRun_later.sl.H3_103 c arg1 harg1 arg2 harg2 arg3 harg3 x1 x2 x3 hr)) := rfl
  rw [step, read_stepRaw, aggL_103]; rfl

theorem aggL_105 : arg3.view.read (Elt F) (arg3.view.writes (Elt F) (harg3.unread x3) (kernelRun_later.sl.H3_105 c arg1 harg1 arg2 harg2 arg3 harg3 x1 x2 x3 hr)) = aggUpTo X1 X2 x3 105 (by decide) := by
  have step : arg3.view.writes (Elt F) (harg3.unread x3) (kernelRun_later.sl.H3_105 c arg1 harg1 arg2 harg2 arg3 harg3 x1 x2 x3 hr)
      = stepRaw arg3 (wR arg1 harg1 x1 104 (by decide)) (hwR arg1 harg1 x1 hr 104 (by decide)) (rowR arg2 harg2 x2 104 (by decide)) (arg3.view.writes (Elt F) (harg3.unread x3) (kernelRun_later.sl.H3_104 c arg1 harg1 arg2 harg2 arg3 harg3 x1 x2 x3 hr)) := rfl
  rw [step, read_stepRaw, aggL_104]; rfl

theorem aggL_106 : arg3.view.read (Elt F) (arg3.view.writes (Elt F) (harg3.unread x3) (kernelRun_later.sl.H3_106 c arg1 harg1 arg2 harg2 arg3 harg3 x1 x2 x3 hr)) = aggUpTo X1 X2 x3 106 (by decide) := by
  have step : arg3.view.writes (Elt F) (harg3.unread x3) (kernelRun_later.sl.H3_106 c arg1 harg1 arg2 harg2 arg3 harg3 x1 x2 x3 hr)
      = stepRaw arg3 (wR arg1 harg1 x1 105 (by decide)) (hwR arg1 harg1 x1 hr 105 (by decide)) (rowR arg2 harg2 x2 105 (by decide)) (arg3.view.writes (Elt F) (harg3.unread x3) (kernelRun_later.sl.H3_105 c arg1 harg1 arg2 harg2 arg3 harg3 x1 x2 x3 hr)) := rfl
  rw [step, read_stepRaw, aggL_105]; rfl

theorem aggL_107 : arg3.view.read (Elt F) (arg3.view.writes (Elt F) (harg3.unread x3) (kernelRun_later.sl.H3_107 c arg1 harg1 arg2 harg2 arg3 harg3 x1 x2 x3 hr)) = aggUpTo X1 X2 x3 107 (by decide) := by
  have step : arg3.view.writes (Elt F) (harg3.unread x3) (kernelRun_later.sl.H3_107 c arg1 harg1 arg2 harg2 arg3 harg3 x1 x2 x3 hr)
      = stepRaw arg3 (wR arg1 harg1 x1 106 (by decide)) (hwR arg1 harg1 x1 hr 106 (by decide)) (rowR arg2 harg2 x2 106 (by decide)) (arg3.view.writes (Elt F) (harg3.unread x3) (kernelRun_later.sl.H3_106 c arg1 harg1 arg2 harg2 arg3 harg3 x1 x2 x3 hr)) := rfl
  rw [step, read_stepRaw, aggL_106]; rfl

theorem aggL_108 : arg3.view.read (Elt F) (arg3.view.writes (Elt F) (harg3.unread x3) (kernelRun_later.sl.H3_108 c arg1 harg1 arg2 harg2 arg3 harg3 x1 x2 x3 hr)) = aggUpTo X1 X2 x3 108 (by decide) := by
  have step : arg3.view.writes (Elt F) (harg3.unread x3) (kernelRun_later.sl.H3_108 c arg1 harg1 arg2 harg2 arg3 harg3 x1 x2 x3 hr)
      = stepRaw arg3 (wR arg1 harg1 x1 107 (by decide)) (hwR arg1 harg1 x1 hr 107 (by decide)) (rowR arg2 harg2 x2 107 (by decide)) (arg3.view.writes (Elt F) (harg3.unread x3) (kernelRun_later.sl.H3_107 c arg1 harg1 arg2 harg2 arg3 harg3 x1 x2 x3 hr)) := rfl
  rw [step, read_stepRaw, aggL_107]; rfl

theorem aggL_109 : arg3.view.read (Elt F) (arg3.view.writes (Elt F) (harg3.unread x3) (kernelRun_later.sl.H3_109 c arg1 harg1 arg2 harg2 arg3 harg3 x1 x2 x3 hr)) = aggUpTo X1 X2 x3 109 (by decide) := by
  have step : arg3.view.writes (Elt F) (harg3.unread x3) (kernelRun_later.sl.H3_109 c arg1 harg1 arg2 harg2 arg3 harg3 x1 x2 x3 hr)
      = stepRaw arg3 (wR arg1 harg1 x1 108 (by decide)) (hwR arg1 harg1 x1 hr 108 (by decide)) (rowR arg2 harg2 x2 108 (by decide)) (arg3.view.writes (Elt F) (harg3.unread x3) (kernelRun_later.sl.H3_108 c arg1 harg1 arg2 harg2 arg3 harg3 x1 x2 x3 hr)) := rfl
  rw [step, read_stepRaw, aggL_108]; rfl

theorem aggL_110 : arg3.view.read (Elt F) (arg3.view.writes (Elt F) (harg3.unread x3) (kernelRun_later.sl.H3_110 c arg1 harg1 arg2 harg2 arg3 harg3 x1 x2 x3 hr)) = aggUpTo X1 X2 x3 110 (by decide) := by
  have step : arg3.view.writes (Elt F) (harg3.unread x3) (kernelRun_later.sl.H3_110 c arg1 harg1 arg2 harg2 arg3 harg3 x1 x2 x3 hr)
      = stepRaw arg3 (wR arg1 harg1 x1 109 (by decide)) (hwR arg1 harg1 x1 hr 109 (by decide)) (rowR arg2 harg2 x2 109 (by decide)) (arg3.view.writes (Elt F) (harg3.unread x3) (kernelRun_later.sl.H3_109 c arg1 harg1 arg2 harg2 arg3 harg3 x1 x2 x3 hr)) := rfl
  rw [step, read_stepRaw, aggL_109]; rfl

theorem aggL_111 : arg3.view.read (Elt F) (arg3.view.writes (Elt F) (harg3.unread x3) (kernelRun_later.sl.H3_111 c arg1 harg1 arg2 harg2 arg3 harg3 x1 x2 x3 hr)) = aggUpTo X1 X2 x3 111 (by decide) := by
  have step : arg3.view.writes (Elt F) (harg3.unread x3) (kernelRun_later.sl.H3_111 c arg1 harg1 arg2 harg2 arg3 harg3 x1 x2 x3 hr)
      = stepRaw arg3 (wR arg1 harg1 x1 110 (by decide)) (hwR arg1 harg1 x1 hr 110 (by decide)) (rowR arg2 harg2 x2 110 (by decide)) (arg3.view.writes (Elt F) (harg3.unread x3) (kernelRun_later.sl.H3_110 c arg1 harg1 arg2 harg2 arg3 harg3 x1 x2 x3 hr)) := rfl
  rw [step, read_stepRaw, aggL_110]; rfl

theorem aggL_112 : arg3.view.read (Elt F) (arg3.view.writes (Elt F) (harg3.unread x3) (kernelRun_later.sl.H3_112 c arg1 harg1 arg2 harg2 arg3 harg3 x1 x2 x3 hr)) = aggUpTo X1 X2 x3 112 (by decide) := by
  have step : arg3.view.writes (Elt F) (harg3.unread x3) (kernelRun_later.sl.H3_112 c arg1 harg1 arg2 harg2 arg3 harg3 x1 x2 x3 hr)
      = stepRaw arg3 (wR arg1 harg1 x1 111 (by decide)) (hwR arg1 harg1 x1 hr 111 (by decide)) (rowR arg2 harg2 x2 111 (by decide)) (arg3.view.writes (Elt F) (harg3.unread x3) (kernelRun_later.sl.H3_111 c arg1 harg1 arg2 harg2 arg3 harg3 x1 x2 x3 hr)) := rfl
  rw [step, read_stepRaw, aggL_111]; rfl

theorem aggL_113 : arg3.view.read (Elt F) (arg3.view.writes (Elt F) (harg3.unread x3) (kernelRun_later.sl.H3_113 c arg1 harg1 arg2 harg2 arg3 harg3 x1 x2 x3 hr)) = aggUpTo X1 X2 x3 113 (by decide) := by
  have step : arg3.view.writes (Elt F) (harg3.unread x3) (kernelRun_later.sl.H3_113 c arg1 harg1 arg2 harg2 arg3 harg3 x1 x2 x3 hr)
      = stepRaw arg3 (wR arg1 harg1 x1 112 (by decide)) (hwR arg1 harg1 x1 hr 112 (by decide)) (rowR arg2 harg2 x2 112 (by decide)) (arg3.view.writes (Elt F) (harg3.unread x3) (kernelRun_later.sl.H3_112 c arg1 harg1 arg2 harg2 arg3 harg3 x1 x2 x3 hr)) := rfl
  rw [step, read_stepRaw, aggL_112]; rfl

theorem aggL_114 : arg3.view.read (Elt F) (arg3.view.writes (Elt F) (harg3.unread x3) (kernelRun_later.sl.H3_114 c arg1 harg1 arg2 harg2 arg3 harg3 x1 x2 x3 hr)) = aggUpTo X1 X2 x3 114 (by decide) := by
  have step : arg3.view.writes (Elt F) (harg3.unread x3) (kernelRun_later.sl.H3_114 c arg1 harg1 arg2 harg2 arg3 harg3 x1 x2 x3 hr)
      = stepRaw arg3 (wR arg1 harg1 x1 113 (by decide)) (hwR arg1 harg1 x1 hr 113 (by decide)) (rowR arg2 harg2 x2 113 (by decide)) (arg3.view.writes (Elt F) (harg3.unread x3) (kernelRun_later.sl.H3_113 c arg1 harg1 arg2 harg2 arg3 harg3 x1 x2 x3 hr)) := rfl
  rw [step, read_stepRaw, aggL_113]; rfl

theorem aggL_115 : arg3.view.read (Elt F) (arg3.view.writes (Elt F) (harg3.unread x3) (kernelRun_later.sl.H3_115 c arg1 harg1 arg2 harg2 arg3 harg3 x1 x2 x3 hr)) = aggUpTo X1 X2 x3 115 (by decide) := by
  have step : arg3.view.writes (Elt F) (harg3.unread x3) (kernelRun_later.sl.H3_115 c arg1 harg1 arg2 harg2 arg3 harg3 x1 x2 x3 hr)
      = stepRaw arg3 (wR arg1 harg1 x1 114 (by decide)) (hwR arg1 harg1 x1 hr 114 (by decide)) (rowR arg2 harg2 x2 114 (by decide)) (arg3.view.writes (Elt F) (harg3.unread x3) (kernelRun_later.sl.H3_114 c arg1 harg1 arg2 harg2 arg3 harg3 x1 x2 x3 hr)) := rfl
  rw [step, read_stepRaw, aggL_114]; rfl

theorem aggL_116 : arg3.view.read (Elt F) (arg3.view.writes (Elt F) (harg3.unread x3) (kernelRun_later.sl.H3_116 c arg1 harg1 arg2 harg2 arg3 harg3 x1 x2 x3 hr)) = aggUpTo X1 X2 x3 116 (by decide) := by
  have step : arg3.view.writes (Elt F) (harg3.unread x3) (kernelRun_later.sl.H3_116 c arg1 harg1 arg2 harg2 arg3 harg3 x1 x2 x3 hr)
      = stepRaw arg3 (wR arg1 harg1 x1 115 (by decide)) (hwR arg1 harg1 x1 hr 115 (by decide)) (rowR arg2 harg2 x2 115 (by decide)) (arg3.view.writes (Elt F) (harg3.unread x3) (kernelRun_later.sl.H3_115 c arg1 harg1 arg2 harg2 arg3 harg3 x1 x2 x3 hr)) := rfl
  rw [step, read_stepRaw, aggL_115]; rfl

theorem aggL_117 : arg3.view.read (Elt F) (arg3.view.writes (Elt F) (harg3.unread x3) (kernelRun_later.sl.H3_117 c arg1 harg1 arg2 harg2 arg3 harg3 x1 x2 x3 hr)) = aggUpTo X1 X2 x3 117 (by decide) := by
  have step : arg3.view.writes (Elt F) (harg3.unread x3) (kernelRun_later.sl.H3_117 c arg1 harg1 arg2 harg2 arg3 harg3 x1 x2 x3 hr)
      = stepRaw arg3 (wR arg1 harg1 x1 116 (by decide)) (hwR arg1 harg1 x1 hr 116 (by decide)) (rowR arg2 harg2 x2 116 (by decide)) (arg3.view.writes (Elt F) (harg3.unread x3) (kernelRun_later.sl.H3_116 c arg1 harg1 arg2 harg2 arg3 harg3 x1 x2 x3 hr)) := rfl
  rw [step, read_stepRaw, aggL_116]; rfl

theorem aggL_118 : arg3.view.read (Elt F) (arg3.view.writes (Elt F) (harg3.unread x3) (kernelRun_later.sl.H3_118 c arg1 harg1 arg2 harg2 arg3 harg3 x1 x2 x3 hr)) = aggUpTo X1 X2 x3 118 (by decide) := by
  have step : arg3.view.writes (Elt F) (harg3.unread x3) (kernelRun_later.sl.H3_118 c arg1 harg1 arg2 harg2 arg3 harg3 x1 x2 x3 hr)
      = stepRaw arg3 (wR arg1 harg1 x1 117 (by decide)) (hwR arg1 harg1 x1 hr 117 (by decide)) (rowR arg2 harg2 x2 117 (by decide)) (arg3.view.writes (Elt F) (harg3.unread x3) (kernelRun_later.sl.H3_117 c arg1 harg1 arg2 harg2 arg3 harg3 x1 x2 x3 hr)) := rfl
  rw [step, read_stepRaw, aggL_117]; rfl

theorem aggL_119 : arg3.view.read (Elt F) (arg3.view.writes (Elt F) (harg3.unread x3) (kernelRun_later.sl.H3_119 c arg1 harg1 arg2 harg2 arg3 harg3 x1 x2 x3 hr)) = aggUpTo X1 X2 x3 119 (by decide) := by
  have step : arg3.view.writes (Elt F) (harg3.unread x3) (kernelRun_later.sl.H3_119 c arg1 harg1 arg2 harg2 arg3 harg3 x1 x2 x3 hr)
      = stepRaw arg3 (wR arg1 harg1 x1 118 (by decide)) (hwR arg1 harg1 x1 hr 118 (by decide)) (rowR arg2 harg2 x2 118 (by decide)) (arg3.view.writes (Elt F) (harg3.unread x3) (kernelRun_later.sl.H3_118 c arg1 harg1 arg2 harg2 arg3 harg3 x1 x2 x3 hr)) := rfl
  rw [step, read_stepRaw, aggL_118]; rfl

theorem aggL_120 : arg3.view.read (Elt F) (arg3.view.writes (Elt F) (harg3.unread x3) (kernelRun_later.sl.H3_120 c arg1 harg1 arg2 harg2 arg3 harg3 x1 x2 x3 hr)) = aggUpTo X1 X2 x3 120 (by decide) := by
  have step : arg3.view.writes (Elt F) (harg3.unread x3) (kernelRun_later.sl.H3_120 c arg1 harg1 arg2 harg2 arg3 harg3 x1 x2 x3 hr)
      = stepRaw arg3 (wR arg1 harg1 x1 119 (by decide)) (hwR arg1 harg1 x1 hr 119 (by decide)) (rowR arg2 harg2 x2 119 (by decide)) (arg3.view.writes (Elt F) (harg3.unread x3) (kernelRun_later.sl.H3_119 c arg1 harg1 arg2 harg2 arg3 harg3 x1 x2 x3 hr)) := rfl
  rw [step, read_stepRaw, aggL_119]; rfl

theorem aggL_121 : arg3.view.read (Elt F) (arg3.view.writes (Elt F) (harg3.unread x3) (kernelRun_later.sl.H3_121 c arg1 harg1 arg2 harg2 arg3 harg3 x1 x2 x3 hr)) = aggUpTo X1 X2 x3 121 (by decide) := by
  have step : arg3.view.writes (Elt F) (harg3.unread x3) (kernelRun_later.sl.H3_121 c arg1 harg1 arg2 harg2 arg3 harg3 x1 x2 x3 hr)
      = stepRaw arg3 (wR arg1 harg1 x1 120 (by decide)) (hwR arg1 harg1 x1 hr 120 (by decide)) (rowR arg2 harg2 x2 120 (by decide)) (arg3.view.writes (Elt F) (harg3.unread x3) (kernelRun_later.sl.H3_120 c arg1 harg1 arg2 harg2 arg3 harg3 x1 x2 x3 hr)) := rfl
  rw [step, read_stepRaw, aggL_120]; rfl

theorem aggL_122 : arg3.view.read (Elt F) (arg3.view.writes (Elt F) (harg3.unread x3) (kernelRun_later.sl.H3_122 c arg1 harg1 arg2 harg2 arg3 harg3 x1 x2 x3 hr)) = aggUpTo X1 X2 x3 122 (by decide) := by
  have step : arg3.view.writes (Elt F) (harg3.unread x3) (kernelRun_later.sl.H3_122 c arg1 harg1 arg2 harg2 arg3 harg3 x1 x2 x3 hr)
      = stepRaw arg3 (wR arg1 harg1 x1 121 (by decide)) (hwR arg1 harg1 x1 hr 121 (by decide)) (rowR arg2 harg2 x2 121 (by decide)) (arg3.view.writes (Elt F) (harg3.unread x3) (kernelRun_later.sl.H3_121 c arg1 harg1 arg2 harg2 arg3 harg3 x1 x2 x3 hr)) := rfl
  rw [step, read_stepRaw, aggL_121]; rfl

theorem aggL_123 : arg3.view.read (Elt F) (arg3.view.writes (Elt F) (harg3.unread x3) (kernelRun_later.sl.H3_123 c arg1 harg1 arg2 harg2 arg3 harg3 x1 x2 x3 hr)) = aggUpTo X1 X2 x3 123 (by decide) := by
  have step : arg3.view.writes (Elt F) (harg3.unread x3) (kernelRun_later.sl.H3_123 c arg1 harg1 arg2 harg2 arg3 harg3 x1 x2 x3 hr)
      = stepRaw arg3 (wR arg1 harg1 x1 122 (by decide)) (hwR arg1 harg1 x1 hr 122 (by decide)) (rowR arg2 harg2 x2 122 (by decide)) (arg3.view.writes (Elt F) (harg3.unread x3) (kernelRun_later.sl.H3_122 c arg1 harg1 arg2 harg2 arg3 harg3 x1 x2 x3 hr)) := rfl
  rw [step, read_stepRaw, aggL_122]; rfl

theorem aggL_124 : arg3.view.read (Elt F) (arg3.view.writes (Elt F) (harg3.unread x3) (kernelRun_later.sl.H3_124 c arg1 harg1 arg2 harg2 arg3 harg3 x1 x2 x3 hr)) = aggUpTo X1 X2 x3 124 (by decide) := by
  have step : arg3.view.writes (Elt F) (harg3.unread x3) (kernelRun_later.sl.H3_124 c arg1 harg1 arg2 harg2 arg3 harg3 x1 x2 x3 hr)
      = stepRaw arg3 (wR arg1 harg1 x1 123 (by decide)) (hwR arg1 harg1 x1 hr 123 (by decide)) (rowR arg2 harg2 x2 123 (by decide)) (arg3.view.writes (Elt F) (harg3.unread x3) (kernelRun_later.sl.H3_123 c arg1 harg1 arg2 harg2 arg3 harg3 x1 x2 x3 hr)) := rfl
  rw [step, read_stepRaw, aggL_123]; rfl

theorem aggL_125 : arg3.view.read (Elt F) (arg3.view.writes (Elt F) (harg3.unread x3) (kernelRun_later.sl.H3_125 c arg1 harg1 arg2 harg2 arg3 harg3 x1 x2 x3 hr)) = aggUpTo X1 X2 x3 125 (by decide) := by
  have step : arg3.view.writes (Elt F) (harg3.unread x3) (kernelRun_later.sl.H3_125 c arg1 harg1 arg2 harg2 arg3 harg3 x1 x2 x3 hr)
      = stepRaw arg3 (wR arg1 harg1 x1 124 (by decide)) (hwR arg1 harg1 x1 hr 124 (by decide)) (rowR arg2 harg2 x2 124 (by decide)) (arg3.view.writes (Elt F) (harg3.unread x3) (kernelRun_later.sl.H3_124 c arg1 harg1 arg2 harg2 arg3 harg3 x1 x2 x3 hr)) := rfl
  rw [step, read_stepRaw, aggL_124]; rfl

theorem aggL_126 : arg3.view.read (Elt F) (arg3.view.writes (Elt F) (harg3.unread x3) (kernelRun_later.sl.H3_126 c arg1 harg1 arg2 harg2 arg3 harg3 x1 x2 x3 hr)) = aggUpTo X1 X2 x3 126 (by decide) := by
  have step : arg3.view.writes (Elt F) (harg3.unread x3) (kernelRun_later.sl.H3_126 c arg1 harg1 arg2 harg2 arg3 harg3 x1 x2 x3 hr)
      = stepRaw arg3 (wR arg1 harg1 x1 125 (by decide)) (hwR arg1 harg1 x1 hr 125 (by decide)) (rowR arg2 harg2 x2 125 (by decide)) (arg3.view.writes (Elt F) (harg3.unread x3) (kernelRun_later.sl.H3_125 c arg1 harg1 arg2 harg2 arg3 harg3 x1 x2 x3 hr)) := rfl
  rw [step, read_stepRaw, aggL_125]; rfl

theorem aggL_127 : arg3.view.read (Elt F) (arg3.view.writes (Elt F) (harg3.unread x3) (kernelRun_later.sl.H3_127 c arg1 harg1 arg2 harg2 arg3 harg3 x1 x2 x3 hr)) = aggUpTo X1 X2 x3 127 (by decide) := by
  have step : arg3.view.writes (Elt F) (harg3.unread x3) (kernelRun_later.sl.H3_127 c arg1 harg1 arg2 harg2 arg3 harg3 x1 x2 x3 hr)
      = stepRaw arg3 (wR arg1 harg1 x1 126 (by decide)) (hwR arg1 harg1 x1 hr 126 (by decide)) (rowR arg2 harg2 x2 126 (by decide)) (arg3.view.writes (Elt F) (harg3.unread x3) (kernelRun_later.sl.H3_126 c arg1 harg1 arg2 harg2 arg3 harg3 x1 x2 x3 hr)) := rfl
  rw [step, read_stepRaw, aggL_126]; rfl

theorem aggL_128 : arg3.view.read (Elt F) (arg3.view.writes (Elt F) (harg3.unread x3) (kernelRun_later (Ix := Ix) (Name := Name) (U := U) (Lvl := Lvl) 𝒱₀ c i arg1 harg1 arg2 harg2 arg3 harg3 arg4 harg4 hc0 x1 x2 x3 x4 hr).1.1) = aggUpTo X1 X2 x3 128 (by decide) := by
  have step : arg3.view.writes (Elt F) (harg3.unread x3) (kernelRun_later (Ix := Ix) (Name := Name) (U := U) (Lvl := Lvl) 𝒱₀ c i arg1 harg1 arg2 harg2 arg3 harg3 arg4 harg4 hc0 x1 x2 x3 x4 hr).1.1
      = stepRaw arg3 (wR arg1 harg1 x1 127 (by decide)) (hwR arg1 harg1 x1 hr 127 (by decide)) (rowR arg2 harg2 x2 127 (by decide)) (arg3.view.writes (Elt F) (harg3.unread x3) (kernelRun_later.sl.H3_127 c arg1 harg1 arg2 harg2 arg3 harg3 x1 x2 x3 hr)) := rfl
  rw [step, read_stepRaw, aggL_127]; rfl

/-- WHAT THE POINT LEAVES: its 128 updates of what the accumulator held. -/
theorem later_agg : arg3.view.read (Elt F) (arg3.view.writes (Elt F) (harg3.unread x3) (kernelRun_later (Ix := Ix) (Name := Name) (U := U) (Lvl := Lvl) 𝒱₀ c i arg1 harg1 arg2 harg2 arg3 harg3 arg4 harg4 hc0 x1 x2 x3 x4 hr).1.1) = chunkAgg x1 x2 x3 := by
  have h := aggL_128 c arg1 harg1 arg2 harg2 arg3 harg3 arg4 harg4 x1 x2 x3 x4 hr 𝒱₀ i hc0 (Ix := Ix) (Name := Name) (U := U) (Lvl := Lvl)
  rw [harg1.read_unread, harg2.read_unread] at h
  exact h

end Chain

end Cert.KI.Scat

end
-- ==== Proof.ScatChainLD.lean ====
import proofs.«202620_g33904471835419_cont_8to1_b_799_54_alg».proof.Proof.ScatSpell

/-!
# The scatter region: what a later point leaves in the counts' accumulator

Edge by edge, the contents the run's pieces leave read as the first `k` edges' updates of what the accumulator
held: each step is one store of the edge's new block (by unfolding), read through the view.
-/

set_option maxRecDepth 16384

noncomputable section

namespace Cert.KI.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

section Chain

variable (c : Dev nD)
  (arg1 : Memref sig .tc .smem S1x1x128 .i32) (harg1 : arg1.IsWhole) (arg2 : Memref sig .tc .vmem S128x128 .f32) (harg2 : arg2.IsWhole)
  (arg3 : Memref sig .tc .vmem S1250x8x128 .f32) (harg3 : arg3.IsWhole) (arg4 : Memref sig .tc .vmem S1250x8x128 .f32) (harg4 : arg4.IsWhole)
  (x1 : S1x1x128.Idx → Elt F .i32) (x2 : Vec F S128x128 .f32) (x3 x4 : Vec F S1250x8x128 .f32) (hr : ∀ y, InRange (x1 y))
  (𝒱₀ : Variants) (i : grid1.Coords) (hc0 : ¬cond1_0 i)

local notation "X1" => arg1.view.read (Elt F) (harg1.unread x1)
local notation "X2" => arg2.view.read (Elt F) (harg2.unread x2)

theorem degL_1 : arg4.view.read (Elt F) (arg4.view.writes (Elt F) (harg4.unread x4) (kernelRun_later.sl.H4_1 c arg1 harg1 arg4 harg4 x1 x4 hr)) = degUpTo X1 x4 1 (by decide) := by
  have step : arg4.view.writes (Elt F) (harg4.unread x4) (kernelRun_later.sl.H4_1 c arg1 harg1 arg4 harg4 x1 x4 hr)
      = stepRawDeg arg4 (wR arg1 harg1 x1 0 (by decide)) (hwR arg1 harg1 x1 hr 0 (by decide)) (harg4.unread x4) := rfl
  rw [step, read_stepRawDeg, harg4.read_unread]; rfl

theorem degL_2 : arg4.view.read (Elt F) (arg4.view.writes (Elt F) (harg4.unread x4) (kernelRun_later.sl.H4_2 c arg1 harg1 arg4 harg4 x1 x4 hr)) = degUpTo X1 x4 2 (by decide) := by
  have step : arg4.view.writes (Elt F) (harg4.unread x4) (kernelRun_later.sl.H4_2 c arg1 harg1 arg4 harg4 x1 x4 hr)
      = stepRawDeg arg4 (wR arg1 harg1 x1 1 (by decide)) (hwR arg1 harg1 x1 hr 1 (by decide)) (arg4.view.writes (Elt F) (harg4.unread x4) (kernelRun_later.sl.H4_1 c arg1 harg1 arg4 harg4 x1 x4 hr)) := rfl
  rw [step, read_stepRawDeg, degL_1]; rfl

theorem degL_3 : arg4.view.read (Elt F) (arg4.view.writes (Elt F) (harg4.unread x4) (kernelRun_later.sl.H4_3 c arg1 harg1 arg4 harg4 x1 x4 hr)) = degUpTo X1 x4 3 (by decide) := by
  have step : arg4.view.writes (Elt F) (harg4.unread x4) (kernelRun_later.sl.H4_3 c arg1 harg1 arg4 harg4 x1 x4 hr)
      = stepRawDeg arg4 (wR arg1 harg1 x1 2 (by decide)) (hwR arg1 harg1 x1 hr 2 (by decide)) (arg4.view.writes (Elt F) (harg4.unread x4) (kernelRun_later.sl.H4_2 c arg1 harg1 arg4 harg4 x1 x4 hr)) := rfl
  rw [step, read_stepRawDeg, degL_2]; rfl

theorem degL_4 : arg4.view.read (Elt F) (arg4.view.writes (Elt F) (harg4.unread x4) (kernelRun_later.sl.H4_4 c arg1 harg1 arg4 harg4 x1 x4 hr)) = degUpTo X1 x4 4 (by decide) := by
  have step : arg4.view.writes (Elt F) (harg4.unread x4) (kernelRun_later.sl.H4_4 c arg1 harg1 arg4 harg4 x1 x4 hr)
      = stepRawDeg arg4 (wR arg1 harg1 x1 3 (by decide)) (hwR arg1 harg1 x1 hr 3 (by decide)) (arg4.view.writes (Elt F) (harg4.unread x4) (kernelRun_later.sl.H4_3 c arg1 harg1 arg4 harg4 x1 x4 hr)) := rfl
  rw [step, read_stepRawDeg, degL_3]; rfl

theorem degL_5 : arg4.view.read (Elt F) (arg4.view.writes (Elt F) (harg4.unread x4) (kernelRun_later.sl.H4_5 c arg1 harg1 arg4 harg4 x1 x4 hr)) = degUpTo X1 x4 5 (by decide) := by
  have step : arg4.view.writes (Elt F) (harg4.unread x4) (kernelRun_later.sl.H4_5 c arg1 harg1 arg4 harg4 x1 x4 hr)
      = stepRawDeg arg4 (wR arg1 harg1 x1 4 (by decide)) (hwR arg1 harg1 x1 hr 4 (by decide)) (arg4.view.writes (Elt F) (harg4.unread x4) (kernelRun_later.sl.H4_4 c arg1 harg1 arg4 harg4 x1 x4 hr)) := rfl
  rw [step, read_stepRawDeg, degL_4]; rfl

theorem degL_6 : arg4.view.read (Elt F) (arg4.view.writes (Elt F) (harg4.unread x4) (kernelRun_later.sl.H4_6 c arg1 harg1 arg4 harg4 x1 x4 hr)) = degUpTo X1 x4 6 (by decide) := by
  have step : arg4.view.writes (Elt F) (harg4.unread x4) (kernelRun_later.sl.H4_6 c arg1 harg1 arg4 harg4 x1 x4 hr)
      = stepRawDeg arg4 (wR arg1 harg1 x1 5 (by decide)) (hwR arg1 harg1 x1 hr 5 (by decide)) (arg4.view.writes (Elt F) (harg4.unread x4) (kernelRun_later.sl.H4_5 c arg1 harg1 arg4 harg4 x1 x4 hr)) := rfl
  rw [step, read_stepRawDeg, degL_5]; rfl

theorem degL_7 : arg4.view.read (Elt F) (arg4.view.writes (Elt F) (harg4.unread x4) (kernelRun_later.sl.H4_7 c arg1 harg1 arg4 harg4 x1 x4 hr)) = degUpTo X1 x4 7 (by decide) := by
  have step : arg4.view.writes (Elt F) (harg4.unread x4) (kernelRun_later.sl.H4_7 c arg1 harg1 arg4 harg4 x1 x4 hr)
      = stepRawDeg arg4 (wR arg1 harg1 x1 6 (by decide)) (hwR arg1 harg1 x1 hr 6 (by decide)) (arg4.view.writes (Elt F) (harg4.unread x4) (kernelRun_later.sl.H4_6 c arg1 harg1 arg4 harg4 x1 x4 hr)) := rfl
  rw [step, read_stepRawDeg, degL_6]; rfl

theorem degL_8 : arg4.view.read (Elt F) (arg4.view.writes (Elt F) (harg4.unread x4) (kernelRun_later.sl.H4_8 c arg1 harg1 arg4 harg4 x1 x4 hr)) = degUpTo X1 x4 8 (by decide) := by
  have step : arg4.view.writes (Elt F) (harg4.unread x4) (kernelRun_later.sl.H4_8 c arg1 harg1 arg4 harg4 x1 x4 hr)
      = stepRawDeg arg4 (wR arg1 harg1 x1 7 (by decide)) (hwR arg1 harg1 x1 hr 7 (by decide)) (arg4.view.writes (Elt F) (harg4.unread x4) (kernelRun_later.sl.H4_7 c arg1 harg1 arg4 harg4 x1 x4 hr)) := rfl
  rw [step, read_stepRawDeg, degL_7]; rfl

theorem degL_9 : arg4.view.read (Elt F) (arg4.view.writes (Elt F) (harg4.unread x4) (kernelRun_later.sl.H4_9 c arg1 harg1 arg4 harg4 x1 x4 hr)) = degUpTo X1 x4 9 (by decide) := by
  have step : arg4.view.writes (Elt F) (harg4.unread x4) (kernelRun_later.sl.H4_9 c arg1 harg1 arg4 harg4 x1 x4 hr)
      = stepRawDeg arg4 (wR arg1 harg1 x1 8 (by decide)) (hwR arg1 harg1 x1 hr 8 (by decide)) (arg4.view.writes (Elt F) (harg4.unread x4) (kernelRun_later.sl.H4_8 c arg1 harg1 arg4 harg4 x1 x4 hr)) := rfl
  rw [step, read_stepRawDeg, degL_8]; rfl

theorem degL_10 : arg4.view.read (Elt F) (arg4.view.writes (Elt F) (harg4.unread x4) (kernelRun_later.sl.H4_10 c arg1 harg1 arg4 harg4 x1 x4 hr)) = degUpTo X1 x4 10 (by decide) := by
  have step : arg4.view.writes (Elt F) (harg4.unread x4) (kernelRun_later.sl.H4_10 c arg1 harg1 arg4 harg4 x1 x4 hr)
      = stepRawDeg arg4 (wR arg1 harg1 x1 9 (by decide)) (hwR arg1 harg1 x1 hr 9 (by decide)) (arg4.view.writes (Elt F) (harg4.unread x4) (kernelRun_later.sl.H4_9 c arg1 harg1 arg4 harg4 x1 x4 hr)) := rfl
  rw [step, read_stepRawDeg, degL_9]; rfl

theorem degL_11 : arg4.view.read (Elt F) (arg4.view.writes (Elt F) (harg4.unread x4) (kernelRun_later.sl.H4_11 c arg1 harg1 arg4 harg4 x1 x4 hr)) = degUpTo X1 x4 11 (by decide) := by
  have step : arg4.view.writes (Elt F) (harg4.unread x4) (kernelRun_later.sl.H4_11 c arg1 harg1 arg4 harg4 x1 x4 hr)
      = stepRawDeg arg4 (wR arg1 harg1 x1 10 (by decide)) (hwR arg1 harg1 x1 hr 10 (by decide)) (arg4.view.writes (Elt F) (harg4.unread x4) (kernelRun_later.sl.H4_10 c arg1 harg1 arg4 harg4 x1 x4 hr)) := rfl
  rw [step, read_stepRawDeg, degL_10]; rfl

theorem degL_12 : arg4.view.read (Elt F) (arg4.view.writes (Elt F) (harg4.unread x4) (kernelRun_later.sl.H4_12 c arg1 harg1 arg4 harg4 x1 x4 hr)) = degUpTo X1 x4 12 (by decide) := by
  have step : arg4.view.writes (Elt F) (harg4.unread x4) (kernelRun_later.sl.H4_12 c arg1 harg1 arg4 harg4 x1 x4 hr)
      = stepRawDeg arg4 (wR arg1 harg1 x1 11 (by decide)) (hwR arg1 harg1 x1 hr 11 (by decide)) (arg4.view.writes (Elt F) (harg4.unread x4) (kernelRun_later.sl.H4_11 c arg1 harg1 arg4 harg4 x1 x4 hr)) := rfl
  rw [step, read_stepRawDeg, degL_11]; rfl

theorem degL_13 : arg4.view.read (Elt F) (arg4.view.writes (Elt F) (harg4.unread x4) (kernelRun_later.sl.H4_13 c arg1 harg1 arg4 harg4 x1 x4 hr)) = degUpTo X1 x4 13 (by decide) := by
  have step : arg4.view.writes (Elt F) (harg4.unread x4) (kernelRun_later.sl.H4_13 c arg1 harg1 arg4 harg4 x1 x4 hr)
      = stepRawDeg arg4 (wR arg1 harg1 x1 12 (by decide)) (hwR arg1 harg1 x1 hr 12 (by decide)) (arg4.view.writes (Elt F) (harg4.unread x4) (kernelRun_later.sl.H4_12 c arg1 harg1 arg4 harg4 x1 x4 hr)) := rfl
  rw [step, read_stepRawDeg, degL_12]; rfl

theorem degL_14 : arg4.view.read (Elt F) (arg4.view.writes (Elt F) (harg4.unread x4) (kernelRun_later.sl.H4_14 c arg1 harg1 arg4 harg4 x1 x4 hr)) = degUpTo X1 x4 14 (by decide) := by
  have step : arg4.view.writes (Elt F) (harg4.unread x4) (kernelRun_later.sl.H4_14 c arg1 harg1 arg4 harg4 x1 x4 hr)
      = stepRawDeg arg4 (wR arg1 harg1 x1 13 (by decide)) (hwR arg1 harg1 x1 hr 13 (by decide)) (arg4.view.writes (Elt F) (harg4.unread x4) (kernelRun_later.sl.H4_13 c arg1 harg1 arg4 harg4 x1 x4 hr)) := rfl
  rw [step, read_stepRawDeg, degL_13]; rfl

theorem degL_15 : arg4.view.read (Elt F) (arg4.view.writes (Elt F) (harg4.unread x4) (kernelRun_later.sl.H4_15 c arg1 harg1 arg4 harg4 x1 x4 hr)) = degUpTo X1 x4 15 (by decide) := by
  have step : arg4.view.writes (Elt F) (harg4.unread x4) (kernelRun_later.sl.H4_15 c arg1 harg1 arg4 harg4 x1 x4 hr)
      = stepRawDeg arg4 (wR arg1 harg1 x1 14 (by decide)) (hwR arg1 harg1 x1 hr 14 (by decide)) (arg4.view.writes (Elt F) (harg4.unread x4) (kernelRun_later.sl.H4_14 c arg1 harg1 arg4 harg4 x1 x4 hr)) := rfl
  rw [step, read_stepRawDeg, degL_14]; rfl

theorem degL_16 : arg4.view.read (Elt F) (arg4.view.writes (Elt F) (harg4.unread x4) (kernelRun_later.sl.H4_16 c arg1 harg1 arg4 harg4 x1 x4 hr)) = degUpTo X1 x4 16 (by decide) := by
  have step : arg4.view.writes (Elt F) (harg4.unread x4) (kernelRun_later.sl.H4_16 c arg1 harg1 arg4 harg4 x1 x4 hr)
      = stepRawDeg arg4 (wR arg1 harg1 x1 15 (by decide)) (hwR arg1 harg1 x1 hr 15 (by decide)) (arg4.view.writes (Elt F) (harg4.unread x4) (kernelRun_later.sl.H4_15 c arg1 harg1 arg4 harg4 x1 x4 hr)) := rfl
  rw [step, read_stepRawDeg, degL_15]; rfl

theorem degL_17 : arg4.view.read (Elt F) (arg4.view.writes (Elt F) (harg4.unread x4) (kernelRun_later.sl.H4_17 c arg1 harg1 arg4 harg4 x1 x4 hr)) = degUpTo X1 x4 17 (by decide) := by
  have step : arg4.view.writes (Elt F) (harg4.unread x4) (kernelRun_later.sl.H4_17 c arg1 harg1 arg4 harg4 x1 x4 hr)
      = stepRawDeg arg4 (wR arg1 harg1 x1 16 (by decide)) (hwR arg1 harg1 x1 hr 16 (by decide)) (arg4.view.writes (Elt F) (harg4.unread x4) (kernelRun_later.sl.H4_16 c arg1 harg1 arg4 harg4 x1 x4 hr)) := rfl
  rw [step, read_stepRawDeg, degL_16]; rfl

theorem degL_18 : arg4.view.read (Elt F) (arg4.view.writes (Elt F) (harg4.unread x4) (kernelRun_later.sl.H4_18 c arg1 harg1 arg4 harg4 x1 x4 hr)) = degUpTo X1 x4 18 (by decide) := by
  have step : arg4.view.writes (Elt F) (harg4.unread x4) (kernelRun_later.sl.H4_18 c arg1 harg1 arg4 harg4 x1 x4 hr)
      = stepRawDeg arg4 (wR arg1 harg1 x1 17 (by decide)) (hwR arg1 harg1 x1 hr 17 (by decide)) (arg4.view.writes (Elt F) (harg4.unread x4) (kernelRun_later.sl.H4_17 c arg1 harg1 arg4 harg4 x1 x4 hr)) := rfl
  rw [step, read_stepRawDeg, degL_17]; rfl

theorem degL_19 : arg4.view.read (Elt F) (arg4.view.writes (Elt F) (harg4.unread x4) (kernelRun_later.sl.H4_19 c arg1 harg1 arg4 harg4 x1 x4 hr)) = degUpTo X1 x4 19 (by decide) := by
  have step : arg4.view.writes (Elt F) (harg4.unread x4) (kernelRun_later.sl.H4_19 c arg1 harg1 arg4 harg4 x1 x4 hr)
      = stepRawDeg arg4 (wR arg1 harg1 x1 18 (by decide)) (hwR arg1 harg1 x1 hr 18 (by decide)) (arg4.view.writes (Elt F) (harg4.unread x4) (kernelRun_later.sl.H4_18 c arg1 harg1 arg4 harg4 x1 x4 hr)) := rfl
  rw [step, read_stepRawDeg, degL_18]; rfl

theorem degL_20 : arg4.view.read (Elt F) (arg4.view.writes (Elt F) (harg4.unread x4) (kernelRun_later.sl.H4_20 c arg1 harg1 arg4 harg4 x1 x4 hr)) = degUpTo X1 x4 20 (by decide) := by
  have step : arg4.view.writes (Elt F) (harg4.unread x4) (kernelRun_later.sl.H4_20 c arg1 harg1 arg4 harg4 x1 x4 hr)
      = stepRawDeg arg4 (wR arg1 harg1 x1 19 (by decide)) (hwR arg1 harg1 x1 hr 19 (by decide)) (arg4.view.writes (Elt F) (harg4.unread x4) (kernelRun_later.sl.H4_19 c arg1 harg1 arg4 harg4 x1 x4 hr)) := rfl
  rw [step, read_stepRawDeg, degL_19]; rfl

theorem degL_21 : arg4.view.read (Elt F) (arg4.view.writes (Elt F) (harg4.unread x4) (kernelRun_later.sl.H4_21 c arg1 harg1 arg4 harg4 x1 x4 hr)) = degUpTo X1 x4 21 (by decide) := by
  have step : arg4.view.writes (Elt F) (harg4.unread x4) (kernelRun_later.sl.H4_21 c arg1 harg1 arg4 harg4 x1 x4 hr)
      = stepRawDeg arg4 (wR arg1 harg1 x1 20 (by decide)) (hwR arg1 harg1 x1 hr 20 (by decide)) (arg4.view.writes (Elt F) (harg4.unread x4) (kernelRun_later.sl.H4_20 c arg1 harg1 arg4 harg4 x1 x4 hr)) := rfl
  rw [step, read_stepRawDeg, degL_20]; rfl

theorem degL_22 : arg4.view.read (Elt F) (arg4.view.writes (Elt F) (harg4.unread x4) (kernelRun_later.sl.H4_22 c arg1 harg1 arg4 harg4 x1 x4 hr)) = degUpTo X1 x4 22 (by decide) := by
  have step : arg4.view.writes (Elt F) (harg4.unread x4) (kernelRun_later.sl.H4_22 c arg1 harg1 arg4 harg4 x1 x4 hr)
      = stepRawDeg arg4 (wR arg1 harg1 x1 21 (by decide)) (hwR arg1 harg1 x1 hr 21 (by decide)) (arg4.view.writes (Elt F) (harg4.unread x4) (kernelRun_later.sl.H4_21 c arg1 harg1 arg4 harg4 x1 x4 hr)) := rfl
  rw [step, read_stepRawDeg, degL_21]; rfl

theorem degL_23 : arg4.view.read (Elt F) (arg4.view.writes (Elt F) (harg4.unread x4) (kernelRun_later.sl.H4_23 c arg1 harg1 arg4 harg4 x1 x4 hr)) = degUpTo X1 x4 23 (by decide) := by
  have step : arg4.view.writes (Elt F) (harg4.unread x4) (kernelRun_later.sl.H4_23 c arg1 harg1 arg4 harg4 x1 x4 hr)
      = stepRawDeg arg4 (wR arg1 harg1 x1 22 (by decide)) (hwR arg1 harg1 x1 hr 22 (by decide)) (arg4.view.writes (Elt F) (harg4.unread x4) (kernelRun_later.sl.H4_22 c arg1 harg1 arg4 harg4 x1 x4 hr)) := rfl
  rw [step, read_stepRawDeg, degL_22]; rfl

theorem degL_24 : arg4.view.read (Elt F) (arg4.view.writes (Elt F) (harg4.unread x4) (kernelRun_later.sl.H4_24 c arg1 harg1 arg4 harg4 x1 x4 hr)) = degUpTo X1 x4 24 (by decide) := by
  have step : arg4.view.writes (Elt F) (harg4.unread x4) (kernelRun_later.sl.H4_24 c arg1 harg1 arg4 harg4 x1 x4 hr)
      = stepRawDeg arg4 (wR arg1 harg1 x1 23 (by decide)) (hwR arg1 harg1 x1 hr 23 (by decide)) (arg4.view.writes (Elt F) (harg4.unread x4) (kernelRun_later.sl.H4_23 c arg1 harg1 arg4 harg4 x1 x4 hr)) := rfl
  rw [step, read_stepRawDeg, degL_23]; rfl

theorem degL_25 : arg4.view.read (Elt F) (arg4.view.writes (Elt F) (harg4.unread x4) (kernelRun_later.sl.H4_25 c arg1 harg1 arg4 harg4 x1 x4 hr)) = degUpTo X1 x4 25 (by decide) := by
  have step : arg4.view.writes (Elt F) (harg4.unread x4) (kernelRun_later.sl.H4_25 c arg1 harg1 arg4 harg4 x1 x4 hr)
      = stepRawDeg arg4 (wR arg1 harg1 x1 24 (by decide)) (hwR arg1 harg1 x1 hr 24 (by decide)) (arg4.view.writes (Elt F) (harg4.unread x4) (kernelRun_later.sl.H4_24 c arg1 harg1 arg4 harg4 x1 x4 hr)) := rfl
  rw [step, read_stepRawDeg, degL_24]; rfl

theorem degL_26 : arg4.view.read (Elt F) (arg4.view.writes (Elt F) (harg4.unread x4) (kernelRun_later.sl.H4_26 c arg1 harg1 arg4 harg4 x1 x4 hr)) = degUpTo X1 x4 26 (by decide) := by
  have step : arg4.view.writes (Elt F) (harg4.unread x4) (kernelRun_later.sl.H4_26 c arg1 harg1 arg4 harg4 x1 x4 hr)
      = stepRawDeg arg4 (wR arg1 harg1 x1 25 (by decide)) (hwR arg1 harg1 x1 hr 25 (by decide)) (arg4.view.writes (Elt F) (harg4.unread x4) (kernelRun_later.sl.H4_25 c arg1 harg1 arg4 harg4 x1 x4 hr)) := rfl
  rw [step, read_stepRawDeg, degL_25]; rfl

theorem degL_27 : arg4.view.read (Elt F) (arg4.view.writes (Elt F) (harg4.unread x4) (kernelRun_later.sl.H4_27 c arg1 harg1 arg4 harg4 x1 x4 hr)) = degUpTo X1 x4 27 (by decide) := by
  have step : arg4.view.writes (Elt F) (harg4.unread x4) (kernelRun_later.sl.H4_27 c arg1 harg1 arg4 harg4 x1 x4 hr)
      = stepRawDeg arg4 (wR arg1 harg1 x1 26 (by decide)) (hwR arg1 harg1 x1 hr 26 (by decide)) (arg4.view.writes (Elt F) (harg4.unread x4) (kernelRun_later.sl.H4_26 c arg1 harg1 arg4 harg4 x1 x4 hr)) := rfl
  rw [step, read_stepRawDeg, degL_26]; rfl

theorem degL_28 : arg4.view.read (Elt F) (arg4.view.writes (Elt F) (harg4.unread x4) (kernelRun_later.sl.H4_28 c arg1 harg1 arg4 harg4 x1 x4 hr)) = degUpTo X1 x4 28 (by decide) := by
  have step : arg4.view.writes (Elt F) (harg4.unread x4) (kernelRun_later.sl.H4_28 c arg1 harg1 arg4 harg4 x1 x4 hr)
      = stepRawDeg arg4 (wR arg1 harg1 x1 27 (by decide)) (hwR arg1 harg1 x1 hr 27 (by decide)) (arg4.view.writes (Elt F) (harg4.unread x4) (kernelRun_later.sl.H4_27 c arg1 harg1 arg4 harg4 x1 x4 hr)) := rfl
  rw [step, read_stepRawDeg, degL_27]; rfl

theorem degL_29 : arg4.view.read (Elt F) (arg4.view.writes (Elt F) (harg4.unread x4) (kernelRun_later.sl.H4_29 c arg1 harg1 arg4 harg4 x1 x4 hr)) = degUpTo X1 x4 29 (by decide) := by
  have step : arg4.view.writes (Elt F) (harg4.unread x4) (kernelRun_later.sl.H4_29 c arg1 harg1 arg4 harg4 x1 x4 hr)
      = stepRawDeg arg4 (wR arg1 harg1 x1 28 (by decide)) (hwR arg1 harg1 x1 hr 28 (by decide)) (arg4.view.writes (Elt F) (harg4.unread x4) (kernelRun_later.sl.H4_28 c arg1 harg1 arg4 harg4 x1 x4 hr)) := rfl
  rw [step, read_stepRawDeg, degL_28]; rfl

theorem degL_30 : arg4.view.read (Elt F) (arg4.view.writes (Elt F) (harg4.unread x4) (kernelRun_later.sl.H4_30 c arg1 harg1 arg4 harg4 x1 x4 hr)) = degUpTo X1 x4 30 (by decide) := by
  have step : arg4.view.writes (Elt F) (harg4.unread x4) (kernelRun_later.sl.H4_30 c arg1 harg1 arg4 harg4 x1 x4 hr)
      = stepRawDeg arg4 (wR arg1 harg1 x1 29 (by decide)) (hwR arg1 harg1 x1 hr 29 (by decide)) (arg4.view.writes (Elt F) (harg4.unread x4) (kernelRun_later.sl.H4_29 c arg1 harg1 arg4 harg4 x1 x4 hr)) := rfl
  rw [step, read_stepRawDeg, degL_29]; rfl

theorem degL_31 : arg4.view.read (Elt F) (arg4.view.writes (Elt F) (harg4.unread x4) (kernelRun_later.sl.H4_31 c arg1 harg1 arg4 harg4 x1 x4 hr)) = degUpTo X1 x4 31 (by decide) := by
  have step : arg4.view.writes (Elt F) (harg4.unread x4) (kernelRun_later.sl.H4_31 c arg1 harg1 arg4 harg4 x1 x4 hr)
      = stepRawDeg arg4 (wR arg1 harg1 x1 30 (by decide)) (hwR arg1 harg1 x1 hr 30 (by decide)) (arg4.view.writes (Elt F) (harg4.unread x4) (kernelRun_later.sl.H4_30 c arg1 harg1 arg4 harg4 x1 x4 hr)) := rfl
  rw [step, read_stepRawDeg, degL_30]; rfl

theorem degL_32 : arg4.view.read (Elt F) (arg4.view.writes (Elt F) (harg4.unread x4) (kernelRun_later.sl.H4_32 c arg1 harg1 arg4 harg4 x1 x4 hr)) = degUpTo X1 x4 32 (by decide) := by
  have step : arg4.view.writes (Elt F) (harg4.unread x4) (kernelRun_later.sl.H4_32 c arg1 harg1 arg4 harg4 x1 x4 hr)
      = stepRawDeg arg4 (wR arg1 harg1 x1 31 (by decide)) (hwR arg1 harg1 x1 hr 31 (by decide)) (arg4.view.writes (Elt F) (harg4.unread x4) (kernelRun_later.sl.H4_31 c arg1 harg1 arg4 harg4 x1 x4 hr)) := rfl
  rw [step, read_stepRawDeg, degL_31]; rfl

theorem degL_33 : arg4.view.read (Elt F) (arg4.view.writes (Elt F) (harg4.unread x4) (kernelRun_later.sl.H4_33 c arg1 harg1 arg4 harg4 x1 x4 hr)) = degUpTo X1 x4 33 (by decide) := by
  have step : arg4.view.writes (Elt F) (harg4.unread x4) (kernelRun_later.sl.H4_33 c arg1 harg1 arg4 harg4 x1 x4 hr)
      = stepRawDeg arg4 (wR arg1 harg1 x1 32 (by decide)) (hwR arg1 harg1 x1 hr 32 (by decide)) (arg4.view.writes (Elt F) (harg4.unread x4) (kernelRun_later.sl.H4_32 c arg1 harg1 arg4 harg4 x1 x4 hr)) := rfl
  rw [step, read_stepRawDeg, degL_32]; rfl

theorem degL_34 : arg4.view.read (Elt F) (arg4.view.writes (Elt F) (harg4.unread x4) (kernelRun_later.sl.H4_34 c arg1 harg1 arg4 harg4 x1 x4 hr)) = degUpTo X1 x4 34 (by decide) := by
  have step : arg4.view.writes (Elt F) (harg4.unread x4) (kernelRun_later.sl.H4_34 c arg1 harg1 arg4 harg4 x1 x4 hr)
      = stepRawDeg arg4 (wR arg1 harg1 x1 33 (by decide)) (hwR arg1 harg1 x1 hr 33 (by decide)) (arg4.view.writes (Elt F) (harg4.unread x4) (kernelRun_later.sl.H4_33 c arg1 harg1 arg4 harg4 x1 x4 hr)) := rfl
  rw [step, read_stepRawDeg, degL_33]; rfl

theorem degL_35 : arg4.view.read (Elt F) (arg4.view.writes (Elt F) (harg4.unread x4) (kernelRun_later.sl.H4_35 c arg1 harg1 arg4 harg4 x1 x4 hr)) = degUpTo X1 x4 35 (by decide) := by
  have step : arg4.view.writes (Elt F) (harg4.unread x4) (kernelRun_later.sl.H4_35 c arg1 harg1 arg4 harg4 x1 x4 hr)
      = stepRawDeg arg4 (wR arg1 harg1 x1 34 (by decide)) (hwR arg1 harg1 x1 hr 34 (by decide)) (arg4.view.writes (Elt F) (harg4.unread x4) (kernelRun_later.sl.H4_34 c arg1 harg1 arg4 harg4 x1 x4 hr)) := rfl
  rw [step, read_stepRawDeg, degL_34]; rfl

theorem degL_36 : arg4.view.read (Elt F) (arg4.view.writes (Elt F) (harg4.unread x4) (kernelRun_later.sl.H4_36 c arg1 harg1 arg4 harg4 x1 x4 hr)) = degUpTo X1 x4 36 (by decide) := by
  have step : arg4.view.writes (Elt F) (harg4.unread x4) (kernelRun_later.sl.H4_36 c arg1 harg1 arg4 harg4 x1 x4 hr)
      = stepRawDeg arg4 (wR arg1 harg1 x1 35 (by decide)) (hwR arg1 harg1 x1 hr 35 (by decide)) (arg4.view.writes (Elt F) (harg4.unread x4) (kernelRun_later.sl.H4_35 c arg1 harg1 arg4 harg4 x1 x4 hr)) := rfl
  rw [step, read_stepRawDeg, degL_35]; rfl

theorem degL_37 : arg4.view.read (Elt F) (arg4.view.writes (Elt F) (harg4.unread x4) (kernelRun_later.sl.H4_37 c arg1 harg1 arg4 harg4 x1 x4 hr)) = degUpTo X1 x4 37 (by decide) := by
  have step : arg4.view.writes (Elt F) (harg4.unread x4) (kernelRun_later.sl.H4_37 c arg1 harg1 arg4 harg4 x1 x4 hr)
      = stepRawDeg arg4 (wR arg1 harg1 x1 36 (by decide)) (hwR arg1 harg1 x1 hr 36 (by decide)) (arg4.view.writes (Elt F) (harg4.unread x4) (kernelRun_later.sl.H4_36 c arg1 harg1 arg4 harg4 x1 x4 hr)) := rfl
  rw [step, read_stepRawDeg, degL_36]; rfl

theorem degL_38 : arg4.view.read (Elt F) (arg4.view.writes (Elt F) (harg4.unread x4) (kernelRun_later.sl.H4_38 c arg1 harg1 arg4 harg4 x1 x4 hr)) = degUpTo X1 x4 38 (by decide) := by
  have step : arg4.view.writes (Elt F) (harg4.unread x4) (kernelRun_later.sl.H4_38 c arg1 harg1 arg4 harg4 x1 x4 hr)
      = stepRawDeg arg4 (wR arg1 harg1 x1 37 (by decide)) (hwR arg1 harg1 x1 hr 37 (by decide)) (arg4.view.writes (Elt F) (harg4.unread x4) (kernelRun_later.sl.H4_37 c arg1 harg1 arg4 harg4 x1 x4 hr)) := rfl
  rw [step, read_stepRawDeg, degL_37]; rfl

theorem degL_39 : arg4.view.read (Elt F) (arg4.view.writes (Elt F) (harg4.unread x4) (kernelRun_later.sl.H4_39 c arg1 harg1 arg4 harg4 x1 x4 hr)) = degUpTo X1 x4 39 (by decide) := by
  have step : arg4.view.writes (Elt F) (harg4.unread x4) (kernelRun_later.sl.H4_39 c arg1 harg1 arg4 harg4 x1 x4 hr)
      = stepRawDeg arg4 (wR arg1 harg1 x1 38 (by decide)) (hwR arg1 harg1 x1 hr 38 (by decide)) (arg4.view.writes (Elt F) (harg4.unread x4) (kernelRun_later.sl.H4_38 c arg1 harg1 arg4 harg4 x1 x4 hr)) := rfl
  rw [step, read_stepRawDeg, degL_38]; rfl

theorem degL_40 : arg4.view.read (Elt F) (arg4.view.writes (Elt F) (harg4.unread x4) (kernelRun_later.sl.H4_40 c arg1 harg1 arg4 harg4 x1 x4 hr)) = degUpTo X1 x4 40 (by decide) := by
  have step : arg4.view.writes (Elt F) (harg4.unread x4) (kernelRun_later.sl.H4_40 c arg1 harg1 arg4 harg4 x1 x4 hr)
      = stepRawDeg arg4 (wR arg1 harg1 x1 39 (by decide)) (hwR arg1 harg1 x1 hr 39 (by decide)) (arg4.view.writes (Elt F) (harg4.unread x4) (kernelRun_later.sl.H4_39 c arg1 harg1 arg4 harg4 x1 x4 hr)) := rfl
  rw [step, read_stepRawDeg, degL_39]; rfl

theorem degL_41 : arg4.view.read (Elt F) (arg4.view.writes (Elt F) (harg4.unread x4) (kernelRun_later.sl.H4_41 c arg1 harg1 arg4 harg4 x1 x4 hr)) = degUpTo X1 x4 41 (by decide) := by
  have step : arg4.view.writes (Elt F) (harg4.unread x4) (kernelRun_later.sl.H4_41 c arg1 harg1 arg4 harg4 x1 x4 hr)
      = stepRawDeg arg4 (wR arg1 harg1 x1 40 (by decide)) (hwR arg1 harg1 x1 hr 40 (by decide)) (arg4.view.writes (Elt F) (harg4.unread x4) (kernelRun_later.sl.H4_40 c arg1 harg1 arg4 harg4 x1 x4 hr)) := rfl
  rw [step, read_stepRawDeg, degL_40]; rfl

theorem degL_42 : arg4.view.read (Elt F) (arg4.view.writes (Elt F) (harg4.unread x4) (kernelRun_later.sl.H4_42 c arg1 harg1 arg4 harg4 x1 x4 hr)) = degUpTo X1 x4 42 (by decide) := by
  have step : arg4.view.writes (Elt F) (harg4.unread x4) (kernelRun_later.sl.H4_42 c arg1 harg1 arg4 harg4 x1 x4 hr)
      = stepRawDeg arg4 (wR arg1 harg1 x1 41 (by decide)) (hwR arg1 harg1 x1 hr 41 (by decide)) (arg4.view.writes (Elt F) (harg4.unread x4) (kernelRun_later.sl.H4_41 c arg1 harg1 arg4 harg4 x1 x4 hr)) := rfl
  rw [step, read_stepRawDeg, degL_41]; rfl

theorem degL_43 : arg4.view.read (Elt F) (arg4.view.writes (Elt F) (harg4.unread x4) (kernelRun_later.sl.H4_43 c arg1 harg1 arg4 harg4 x1 x4 hr)) = degUpTo X1 x4 43 (by decide) := by
  have step : arg4.view.writes (Elt F) (harg4.unread x4) (kernelRun_later.sl.H4_43 c arg1 harg1 arg4 harg4 x1 x4 hr)
      = stepRawDeg arg4 (wR arg1 harg1 x1 42 (by decide)) (hwR arg1 harg1 x1 hr 42 (by decide)) (arg4.view.writes (Elt F) (harg4.unread x4) (kernelRun_later.sl.H4_42 c arg1 harg1 arg4 harg4 x1 x4 hr)) := rfl
  rw [step, read_stepRawDeg, degL_42]; rfl

theorem degL_44 : arg4.view.read (Elt F) (arg4.view.writes (Elt F) (harg4.unread x4) (kernelRun_later.sl.H4_44 c arg1 harg1 arg4 harg4 x1 x4 hr)) = degUpTo X1 x4 44 (by decide) := by
  have step : arg4.view.writes (Elt F) (harg4.unread x4) (kernelRun_later.sl.H4_44 c arg1 harg1 arg4 harg4 x1 x4 hr)
      = stepRawDeg arg4 (wR arg1 harg1 x1 43 (by decide)) (hwR arg1 harg1 x1 hr 43 (by decide)) (arg4.view.writes (Elt F) (harg4.unread x4) (kernelRun_later.sl.H4_43 c arg1 harg1 arg4 harg4 x1 x4 hr)) := rfl
  rw [step, read_stepRawDeg, degL_43]; rfl

theorem degL_45 : arg4.view.read (Elt F) (arg4.view.writes (Elt F) (harg4.unread x4) (kernelRun_later.sl.H4_45 c arg1 harg1 arg4 harg4 x1 x4 hr)) = degUpTo X1 x4 45 (by decide) := by
  have step : arg4.view.writes (Elt F) (harg4.unread x4) (kernelRun_later.sl.H4_45 c arg1 harg1 arg4 harg4 x1 x4 hr)
      = stepRawDeg arg4 (wR arg1 harg1 x1 44 (by decide)) (hwR arg1 harg1 x1 hr 44 (by decide)) (arg4.view.writes (Elt F) (harg4.unread x4) (kernelRun_later.sl.H4_44 c arg1 harg1 arg4 harg4 x1 x4 hr)) := rfl
  rw [step, read_stepRawDeg, degL_44]; rfl

theorem degL_46 : arg4.view.read (Elt F) (arg4.view.writes (Elt F) (harg4.unread x4) (kernelRun_later.sl.H4_46 c arg1 harg1 arg4 harg4 x1 x4 hr)) = degUpTo X1 x4 46 (by decide) := by
  have step : arg4.view.writes (Elt F) (harg4.unread x4) (kernelRun_later.sl.H4_46 c arg1 harg1 arg4 harg4 x1 x4 hr)
      = stepRawDeg arg4 (wR arg1 harg1 x1 45 (by decide)) (hwR arg1 harg1 x1 hr 45 (by decide)) (arg4.view.writes (Elt F) (harg4.unread x4) (kernelRun_later.sl.H4_45 c arg1 harg1 arg4 harg4 x1 x4 hr)) := rfl
  rw [step, read_stepRawDeg, degL_45]; rfl

theorem degL_47 : arg4.view.read (Elt F) (arg4.view.writes (Elt F) (harg4.unread x4) (kernelRun_later.sl.H4_47 c arg1 harg1 arg4 harg4 x1 x4 hr)) = degUpTo X1 x4 47 (by decide) := by
  have step : arg4.view.writes (Elt F) (harg4.unread x4) (kernelRun_later.sl.H4_47 c arg1 harg1 arg4 harg4 x1 x4 hr)
      = stepRawDeg arg4 (wR arg1 harg1 x1 46 (by decide)) (hwR arg1 harg1 x1 hr 46 (by decide)) (arg4.view.writes (Elt F) (harg4.unread x4) (kernelRun_later.sl.H4_46 c arg1 harg1 arg4 harg4 x1 x4 hr)) := rfl
  rw [step, read_stepRawDeg, degL_46]; rfl

theorem degL_48 : arg4.view.read (Elt F) (arg4.view.writes (Elt F) (harg4.unread x4) (kernelRun_later.sl.H4_48 c arg1 harg1 arg4 harg4 x1 x4 hr)) = degUpTo X1 x4 48 (by decide) := by
  have step : arg4.view.writes (Elt F) (harg4.unread x4) (kernelRun_later.sl.H4_48 c arg1 harg1 arg4 harg4 x1 x4 hr)
      = stepRawDeg arg4 (wR arg1 harg1 x1 47 (by decide)) (hwR arg1 harg1 x1 hr 47 (by decide)) (arg4.view.writes (Elt F) (harg4.unread x4) (kernelRun_later.sl.H4_47 c arg1 harg1 arg4 harg4 x1 x4 hr)) := rfl
  rw [step, read_stepRawDeg, degL_47]; rfl

theorem degL_49 : arg4.view.read (Elt F) (arg4.view.writes (Elt F) (harg4.unread x4) (kernelRun_later.sl.H4_49 c arg1 harg1 arg4 harg4 x1 x4 hr)) = degUpTo X1 x4 49 (by decide) := by
  have step : arg4.view.writes (Elt F) (harg4.unread x4) (kernelRun_later.sl.H4_49 c arg1 harg1 arg4 harg4 x1 x4 hr)
      = stepRawDeg arg4 (wR arg1 harg1 x1 48 (by decide)) (hwR arg1 harg1 x1 hr 48 (by decide)) (arg4.view.writes (Elt F) (harg4.unread x4) (kernelRun_later.sl.H4_48 c arg1 harg1 arg4 harg4 x1 x4 hr)) := rfl
  rw [step, read_stepRawDeg, degL_48]; rfl

theorem degL_50 : arg4.view.read (Elt F) (arg4.view.writes (Elt F) (harg4.unread x4) (kernelRun_later.sl.H4_50 c arg1 harg1 arg4 harg4 x1 x4 hr)) = degUpTo X1 x4 50 (by decide) := by
  have step : arg4.view.writes (Elt F) (harg4.unread x4) (kernelRun_later.sl.H4_50 c arg1 harg1 arg4 harg4 x1 x4 hr)
      = stepRawDeg arg4 (wR arg1 harg1 x1 49 (by decide)) (hwR arg1 harg1 x1 hr 49 (by decide)) (arg4.view.writes (Elt F) (harg4.unread x4) (kernelRun_later.sl.H4_49 c arg1 harg1 arg4 harg4 x1 x4 hr)) := rfl
  rw [step, read_stepRawDeg, degL_49]; rfl

theorem degL_51 : arg4.view.read (Elt F) (arg4.view.writes (Elt F) (harg4.unread x4) (kernelRun_later.sl.H4_51 c arg1 harg1 arg4 harg4 x1 x4 hr)) = degUpTo X1 x4 51 (by decide) := by
  have step : arg4.view.writes (Elt F) (harg4.unread x4) (kernelRun_later.sl.H4_51 c arg1 harg1 arg4 harg4 x1 x4 hr)
      = stepRawDeg arg4 (wR arg1 harg1 x1 50 (by decide)) (hwR arg1 harg1 x1 hr 50 (by decide)) (arg4.view.writes (Elt F) (harg4.unread x4) (kernelRun_later.sl.H4_50 c arg1 harg1 arg4 harg4 x1 x4 hr)) := rfl
  rw [step, read_stepRawDeg, degL_50]; rfl

theorem degL_52 : arg4.view.read (Elt F) (arg4.view.writes (Elt F) (harg4.unread x4) (kernelRun_later.sl.H4_52 c arg1 harg1 arg4 harg4 x1 x4 hr)) = degUpTo X1 x4 52 (by decide) := by
  have step : arg4.view.writes (Elt F) (harg4.unread x4) (kernelRun_later.sl.H4_52 c arg1 harg1 arg4 harg4 x1 x4 hr)
      = stepRawDeg arg4 (wR arg1 harg1 x1 51 (by decide)) (hwR arg1 harg1 x1 hr 51 (by decide)) (arg4.view.writes (Elt F) (harg4.unread x4) (kernelRun_later.sl.H4_51 c arg1 harg1 arg4 harg4 x1 x4 hr)) := rfl
  rw [step, read_stepRawDeg, degL_51]; rfl

theorem degL_53 : arg4.view.read (Elt F) (arg4.view.writes (Elt F) (harg4.unread x4) (kernelRun_later.sl.H4_53 c arg1 harg1 arg4 harg4 x1 x4 hr)) = degUpTo X1 x4 53 (by decide) := by
  have step : arg4.view.writes (Elt F) (harg4.unread x4) (kernelRun_later.sl.H4_53 c arg1 harg1 arg4 harg4 x1 x4 hr)
      = stepRawDeg arg4 (wR arg1 harg1 x1 52 (by decide)) (hwR arg1 harg1 x1 hr 52 (by decide)) (arg4.view.writes (Elt F) (harg4.unread x4) (kernelRun_later.sl.H4_52 c arg1 harg1 arg4 harg4 x1 x4 hr)) := rfl
  rw [step, read_stepRawDeg, degL_52]; rfl

theorem degL_54 : arg4.view.read (Elt F) (arg4.view.writes (Elt F) (harg4.unread x4) (kernelRun_later.sl.H4_54 c arg1 harg1 arg4 harg4 x1 x4 hr)) = degUpTo X1 x4 54 (by decide) := by
  have step : arg4.view.writes (Elt F) (harg4.unread x4) (kernelRun_later.sl.H4_54 c arg1 harg1 arg4 harg4 x1 x4 hr)
      = stepRawDeg arg4 (wR arg1 harg1 x1 53 (by decide)) (hwR arg1 harg1 x1 hr 53 (by decide)) (arg4.view.writes (Elt F) (harg4.unread x4) (kernelRun_later.sl.H4_53 c arg1 harg1 arg4 harg4 x1 x4 hr)) := rfl
  rw [step, read_stepRawDeg, degL_53]; rfl

theorem degL_55 : arg4.view.read (Elt F) (arg4.view.writes (Elt F) (harg4.unread x4) (kernelRun_later.sl.H4_55 c arg1 harg1 arg4 harg4 x1 x4 hr)) = degUpTo X1 x4 55 (by decide) := by
  have step : arg4.view.writes (Elt F) (harg4.unread x4) (kernelRun_later.sl.H4_55 c arg1 harg1 arg4 harg4 x1 x4 hr)
      = stepRawDeg arg4 (wR arg1 harg1 x1 54 (by decide)) (hwR arg1 harg1 x1 hr 54 (by decide)) (arg4.view.writes (Elt F) (harg4.unread x4) (kernelRun_later.sl.H4_54 c arg1 harg1 arg4 harg4 x1 x4 hr)) := rfl
  rw [step, read_stepRawDeg, degL_54]; rfl

theorem degL_56 : arg4.view.read (Elt F) (arg4.view.writes (Elt F) (harg4.unread x4) (kernelRun_later.sl.H4_56 c arg1 harg1 arg4 harg4 x1 x4 hr)) = degUpTo X1 x4 56 (by decide) := by
  have step : arg4.view.writes (Elt F) (harg4.unread x4) (kernelRun_later.sl.H4_56 c arg1 harg1 arg4 harg4 x1 x4 hr)
      = stepRawDeg arg4 (wR arg1 harg1 x1 55 (by decide)) (hwR arg1 harg1 x1 hr 55 (by decide)) (arg4.view.writes (Elt F) (harg4.unread x4) (kernelRun_later.sl.H4_55 c arg1 harg1 arg4 harg4 x1 x4 hr)) := rfl
  rw [step, read_stepRawDeg, degL_55]; rfl

theorem degL_57 : arg4.view.read (Elt F) (arg4.view.writes (Elt F) (harg4.unread x4) (kernelRun_later.sl.H4_57 c arg1 harg1 arg4 harg4 x1 x4 hr)) = degUpTo X1 x4 57 (by decide) := by
  have step : arg4.view.writes (Elt F) (harg4.unread x4) (kernelRun_later.sl.H4_57 c arg1 harg1 arg4 harg4 x1 x4 hr)
      = stepRawDeg arg4 (wR arg1 harg1 x1 56 (by decide)) (hwR arg1 harg1 x1 hr 56 (by decide)) (arg4.view.writes (Elt F) (harg4.unread x4) (kernelRun_later.sl.H4_56 c arg1 harg1 arg4 harg4 x1 x4 hr)) := rfl
  rw [step, read_stepRawDeg, degL_56]; rfl

theorem degL_58 : arg4.view.read (Elt F) (arg4.view.writes (Elt F) (harg4.unread x4) (kernelRun_later.sl.H4_58 c arg1 harg1 arg4 harg4 x1 x4 hr)) = degUpTo X1 x4 58 (by decide) := by
  have step : arg4.view.writes (Elt F) (harg4.unread x4) (kernelRun_later.sl.H4_58 c arg1 harg1 arg4 harg4 x1 x4 hr)
      = stepRawDeg arg4 (wR arg1 harg1 x1 57 (by decide)) (hwR arg1 harg1 x1 hr 57 (by decide)) (arg4.view.writes (Elt F) (harg4.unread x4) (kernelRun_later.sl.H4_57 c arg1 harg1 arg4 harg4 x1 x4 hr)) := rfl
  rw [step, read_stepRawDeg, degL_57]; rfl

theorem degL_59 : arg4.view.read (Elt F) (arg4.view.writes (Elt F) (harg4.unread x4) (kernelRun_later.sl.H4_59 c arg1 harg1 arg4 harg4 x1 x4 hr)) = degUpTo X1 x4 59 (by decide) := by
  have step : arg4.view.writes (Elt F) (harg4.unread x4) (kernelRun_later.sl.H4_59 c arg1 harg1 arg4 harg4 x1 x4 hr)
      = stepRawDeg arg4 (wR arg1 harg1 x1 58 (by decide)) (hwR arg1 harg1 x1 hr 58 (by decide)) (arg4.view.writes (Elt F) (harg4.unread x4) (kernelRun_later.sl.H4_58 c arg1 harg1 arg4 harg4 x1 x4 hr)) := rfl
  rw [step, read_stepRawDeg, degL_58]; rfl

theorem degL_60 : arg4.view.read (Elt F) (arg4.view.writes (Elt F) (harg4.unread x4) (kernelRun_later.sl.H4_60 c arg1 harg1 arg4 harg4 x1 x4 hr)) = degUpTo X1 x4 60 (by decide) := by
  have step : arg4.view.writes (Elt F) (harg4.unread x4) (kernelRun_later.sl.H4_60 c arg1 harg1 arg4 harg4 x1 x4 hr)
      = stepRawDeg arg4 (wR arg1 harg1 x1 59 (by decide)) (hwR arg1 harg1 x1 hr 59 (by decide)) (arg4.view.writes (Elt F) (harg4.unread x4) (kernelRun_later.sl.H4_59 c arg1 harg1 arg4 harg4 x1 x4 hr)) := rfl
  rw [step, read_stepRawDeg, degL_59]; rfl

theorem degL_61 : arg4.view.read (Elt F) (arg4.view.writes (Elt F) (harg4.unread x4) (kernelRun_later.sl.H4_61 c arg1 harg1 arg4 harg4 x1 x4 hr)) = degUpTo X1 x4 61 (by decide) := by
  have step : arg4.view.writes (Elt F) (harg4.unread x4) (kernelRun_later.sl.H4_61 c arg1 harg1 arg4 harg4 x1 x4 hr)
      = stepRawDeg arg4 (wR arg1 harg1 x1 60 (by decide)) (hwR arg1 harg1 x1 hr 60 (by decide)) (arg4.view.writes (Elt F) (harg4.unread x4) (kernelRun_later.sl.H4_60 c arg1 harg1 arg4 harg4 x1 x4 hr)) := rfl
  rw [step, read_stepRawDeg, degL_60]; rfl

theorem degL_62 : arg4.view.read (Elt F) (arg4.view.writes (Elt F) (harg4.unread x4) (kernelRun_later.sl.H4_62 c arg1 harg1 arg4 harg4 x1 x4 hr)) = degUpTo X1 x4 62 (by decide) := by
  have step : arg4.view.writes (Elt F) (harg4.unread x4) (kernelRun_later.sl.H4_62 c arg1 harg1 arg4 harg4 x1 x4 hr)
      = stepRawDeg arg4 (wR arg1 harg1 x1 61 (by decide)) (hwR arg1 harg1 x1 hr 61 (by decide)) (arg4.view.writes (Elt F) (harg4.unread x4) (kernelRun_later.sl.H4_61 c arg1 harg1 arg4 harg4 x1 x4 hr)) := rfl
  rw [step, read_stepRawDeg, degL_61]; rfl

theorem degL_63 : arg4.view.read (Elt F) (arg4.view.writes (Elt F) (harg4.unread x4) (kernelRun_later.sl.H4_63 c arg1 harg1 arg4 harg4 x1 x4 hr)) = degUpTo X1 x4 63 (by decide) := by
  have step : arg4.view.writes (Elt F) (harg4.unread x4) (kernelRun_later.sl.H4_63 c arg1 harg1 arg4 harg4 x1 x4 hr)
      = stepRawDeg arg4 (wR arg1 harg1 x1 62 (by decide)) (hwR arg1 harg1 x1 hr 62 (by decide)) (arg4.view.writes (Elt F) (harg4.unread x4) (kernelRun_later.sl.H4_62 c arg1 harg1 arg4 harg4 x1 x4 hr)) := rfl
  rw [step, read_stepRawDeg, degL_62]; rfl

theorem degL_64 : arg4.view.read (Elt F) (arg4.view.writes (Elt F) (harg4.unread x4) (kernelRun_later.sl.H4_64 c arg1 harg1 arg4 harg4 x1 x4 hr)) = degUpTo X1 x4 64 (by decide) := by
  have step : arg4.view.writes (Elt F) (harg4.unread x4) (kernelRun_later.sl.H4_64 c arg1 harg1 arg4 harg4 x1 x4 hr)
      = stepRawDeg arg4 (wR arg1 harg1 x1 63 (by decide)) (hwR arg1 harg1 x1 hr 63 (by decide)) (arg4.view.writes (Elt F) (harg4.unread x4) (kernelRun_later.sl.H4_63 c arg1 harg1 arg4 harg4 x1 x4 hr)) := rfl
  rw [step, read_stepRawDeg, degL_63]; rfl

theorem degL_65 : arg4.view.read (Elt F) (arg4.view.writes (Elt F) (harg4.unread x4) (kernelRun_later.sl.H4_65 c arg1 harg1 arg4 harg4 x1 x4 hr)) = degUpTo X1 x4 65 (by decide) := by
  have step : arg4.view.writes (Elt F) (harg4.unread x4) (kernelRun_later.sl.H4_65 c arg1 harg1 arg4 harg4 x1 x4 hr)
      = stepRawDeg arg4 (wR arg1 harg1 x1 64 (by decide)) (hwR arg1 harg1 x1 hr 64 (by decide)) (arg4.view.writes (Elt F) (harg4.unread x4) (kernelRun_later.sl.H4_64 c arg1 harg1 arg4 harg4 x1 x4 hr)) := rfl
  rw [step, read_stepRawDeg, degL_64]; rfl

theorem degL_66 : arg4.view.read (Elt F) (arg4.view.writes (Elt F) (harg4.unread x4) (kernelRun_later.sl.H4_66 c arg1 harg1 arg4 harg4 x1 x4 hr)) = degUpTo X1 x4 66 (by decide) := by
  have step : arg4.view.writes (Elt F) (harg4.unread x4) (kernelRun_later.sl.H4_66 c arg1 harg1 arg4 harg4 x1 x4 hr)
      = stepRawDeg arg4 (wR arg1 harg1 x1 65 (by decide)) (hwR arg1 harg1 x1 hr 65 (by decide)) (arg4.view.writes (Elt F) (harg4.unread x4) (kernelRun_later.sl.H4_65 c arg1 harg1 arg4 harg4 x1 x4 hr)) := rfl
  rw [step, read_stepRawDeg, degL_65]; rfl

theorem degL_67 : arg4.view.read (Elt F) (arg4.view.writes (Elt F) (harg4.unread x4) (kernelRun_later.sl.H4_67 c arg1 harg1 arg4 harg4 x1 x4 hr)) = degUpTo X1 x4 67 (by decide) := by
  have step : arg4.view.writes (Elt F) (harg4.unread x4) (kernelRun_later.sl.H4_67 c arg1 harg1 arg4 harg4 x1 x4 hr)
      = stepRawDeg arg4 (wR arg1 harg1 x1 66 (by decide)) (hwR arg1 harg1 x1 hr 66 (by decide)) (arg4.view.writes (Elt F) (harg4.unread x4) (kernelRun_later.sl.H4_66 c arg1 harg1 arg4 harg4 x1 x4 hr)) := rfl
  rw [step, read_stepRawDeg, degL_66]; rfl

theorem degL_68 : arg4.view.read (Elt F) (arg4.view.writes (Elt F) (harg4.unread x4) (kernelRun_later.sl.H4_68 c arg1 harg1 arg4 harg4 x1 x4 hr)) = degUpTo X1 x4 68 (by decide) := by
  have step : arg4.view.writes (Elt F) (harg4.unread x4) (kernelRun_later.sl.H4_68 c arg1 harg1 arg4 harg4 x1 x4 hr)
      = stepRawDeg arg4 (wR arg1 harg1 x1 67 (by decide)) (hwR arg1 harg1 x1 hr 67 (by decide)) (arg4.view.writes (Elt F) (harg4.unread x4) (kernelRun_later.sl.H4_67 c arg1 harg1 arg4 harg4 x1 x4 hr)) := rfl
  rw [step, read_stepRawDeg, degL_67]; rfl

theorem degL_69 : arg4.view.read (Elt F) (arg4.view.writes (Elt F) (harg4.unread x4) (kernelRun_later.sl.H4_69 c arg1 harg1 arg4 harg4 x1 x4 hr)) = degUpTo X1 x4 69 (by decide) := by
  have step : arg4.view.writes (Elt F) (harg4.unread x4) (kernelRun_later.sl.H4_69 c arg1 harg1 arg4 harg4 x1 x4 hr)
      = stepRawDeg arg4 (wR arg1 harg1 x1 68 (by decide)) (hwR arg1 harg1 x1 hr 68 (by decide)) (arg4.view.writes (Elt F) (harg4.unread x4) (kernelRun_later.sl.H4_68 c arg1 harg1 arg4 harg4 x1 x4 hr)) := rfl
  rw [step, read_stepRawDeg, degL_68]; rfl

theorem degL_70 : arg4.view.read (Elt F) (arg4.view.writes (Elt F) (harg4.unread x4) (kernelRun_later.sl.H4_70 c arg1 harg1 arg4 harg4 x1 x4 hr)) = degUpTo X1 x4 70 (by decide) := by
  have step : arg4.view.writes (Elt F) (harg4.unread x4) (kernelRun_later.sl.H4_70 c arg1 harg1 arg4 harg4 x1 x4 hr)
      = stepRawDeg arg4 (wR arg1 harg1 x1 69 (by decide)) (hwR arg1 harg1 x1 hr 69 (by decide)) (arg4.view.writes (Elt F) (harg4.unread x4) (kernelRun_later.sl.H4_69 c arg1 harg1 arg4 harg4 x1 x4 hr)) := rfl
  rw [step, read_stepRawDeg, degL_69]; rfl

theorem degL_71 : arg4.view.read (Elt F) (arg4.view.writes (Elt F) (harg4.unread x4) (kernelRun_later.sl.H4_71 c arg1 harg1 arg4 harg4 x1 x4 hr)) = degUpTo X1 x4 71 (by decide) := by
  have step : arg4.view.writes (Elt F) (harg4.unread x4) (kernelRun_later.sl.H4_71 c arg1 harg1 arg4 harg4 x1 x4 hr)
      = stepRawDeg arg4 (wR arg1 harg1 x1 70 (by decide)) (hwR arg1 harg1 x1 hr 70 (by decide)) (arg4.view.writes (Elt F) (harg4.unread x4) (kernelRun_later.sl.H4_70 c arg1 harg1 arg4 harg4 x1 x4 hr)) := rfl
  rw [step, read_stepRawDeg, degL_70]; rfl

theorem degL_72 : arg4.view.read (Elt F) (arg4.view.writes (Elt F) (harg4.unread x4) (kernelRun_later.sl.H4_72 c arg1 harg1 arg4 harg4 x1 x4 hr)) = degUpTo X1 x4 72 (by decide) := by
  have step : arg4.view.writes (Elt F) (harg4.unread x4) (kernelRun_later.sl.H4_72 c arg1 harg1 arg4 harg4 x1 x4 hr)
      = stepRawDeg arg4 (wR arg1 harg1 x1 71 (by decide)) (hwR arg1 harg1 x1 hr 71 (by decide)) (arg4.view.writes (Elt F) (harg4.unread x4) (kernelRun_later.sl.H4_71 c arg1 harg1 arg4 harg4 x1 x4 hr)) := rfl
  rw [step, read_stepRawDeg, degL_71]; rfl

theorem degL_73 : arg4.view.read (Elt F) (arg4.view.writes (Elt F) (harg4.unread x4) (kernelRun_later.sl.H4_73 c arg1 harg1 arg4 harg4 x1 x4 hr)) = degUpTo X1 x4 73 (by decide) := by
  have step : arg4.view.writes (Elt F) (harg4.unread x4) (kernelRun_later.sl.H4_73 c arg1 harg1 arg4 harg4 x1 x4 hr)
      = stepRawDeg arg4 (wR arg1 harg1 x1 72 (by decide)) (hwR arg1 harg1 x1 hr 72 (by decide)) (arg4.view.writes (Elt F) (harg4.unread x4) (kernelRun_later.sl.H4_72 c arg1 harg1 arg4 harg4 x1 x4 hr)) := rfl
  rw [step, read_stepRawDeg, degL_72]; rfl

theorem degL_74 : arg4.view.read (Elt F) (arg4.view.writes (Elt F) (harg4.unread x4) (kernelRun_later.sl.H4_74 c arg1 harg1 arg4 harg4 x1 x4 hr)) = degUpTo X1 x4 74 (by decide) := by
  have step : arg4.view.writes (Elt F) (harg4.unread x4) (kernelRun_later.sl.H4_74 c arg1 harg1 arg4 harg4 x1 x4 hr)
      = stepRawDeg arg4 (wR arg1 harg1 x1 73 (by decide)) (hwR arg1 harg1 x1 hr 73 (by decide)) (arg4.view.writes (Elt F) (harg4.unread x4) (kernelRun_later.sl.H4_73 c arg1 harg1 arg4 harg4 x1 x4 hr)) := rfl
  rw [step, read_stepRawDeg, degL_73]; rfl

theorem degL_75 : arg4.view.read (Elt F) (arg4.view.writes (Elt F) (harg4.unread x4) (kernelRun_later.sl.H4_75 c arg1 harg1 arg4 harg4 x1 x4 hr)) = degUpTo X1 x4 75 (by decide) := by
  have step : arg4.view.writes (Elt F) (harg4.unread x4) (kernelRun_later.sl.H4_75 c arg1 harg1 arg4 harg4 x1 x4 hr)
      = stepRawDeg arg4 (wR arg1 harg1 x1 74 (by decide)) (hwR arg1 harg1 x1 hr 74 (by decide)) (arg4.view.writes (Elt F) (harg4.unread x4) (kernelRun_later.sl.H4_74 c arg1 harg1 arg4 harg4 x1 x4 hr)) := rfl
  rw [step, read_stepRawDeg, degL_74]; rfl

theorem degL_76 : arg4.view.read (Elt F) (arg4.view.writes (Elt F) (harg4.unread x4) (kernelRun_later.sl.H4_76 c arg1 harg1 arg4 harg4 x1 x4 hr)) = degUpTo X1 x4 76 (by decide) := by
  have step : arg4.view.writes (Elt F) (harg4.unread x4) (kernelRun_later.sl.H4_76 c arg1 harg1 arg4 harg4 x1 x4 hr)
      = stepRawDeg arg4 (wR arg1 harg1 x1 75 (by decide)) (hwR arg1 harg1 x1 hr 75 (by decide)) (arg4.view.writes (Elt F) (harg4.unread x4) (kernelRun_later.sl.H4_75 c arg1 harg1 arg4 harg4 x1 x4 hr)) := rfl
  rw [step, read_stepRawDeg, degL_75]; rfl

theorem degL_77 : arg4.view.read (Elt F) (arg4.view.writes (Elt F) (harg4.unread x4) (kernelRun_later.sl.H4_77 c arg1 harg1 arg4 harg4 x1 x4 hr)) = degUpTo X1 x4 77 (by decide) := by
  have step : arg4.view.writes (Elt F) (harg4.unread x4) (kernelRun_later.sl.H4_77 c arg1 harg1 arg4 harg4 x1 x4 hr)
      = stepRawDeg arg4 (wR arg1 harg1 x1 76 (by decide)) (hwR arg1 harg1 x1 hr 76 (by decide)) (arg4.view.writes (Elt F) (harg4.unread x4) (kernelRun_later.sl.H4_76 c arg1 harg1 arg4 harg4 x1 x4 hr)) := rfl
  rw [step, read_stepRawDeg, degL_76]; rfl

theorem degL_78 : arg4.view.read (Elt F) (arg4.view.writes (Elt F) (harg4.unread x4) (kernelRun_later.sl.H4_78 c arg1 harg1 arg4 harg4 x1 x4 hr)) = degUpTo X1 x4 78 (by decide) := by
  have step : arg4.view.writes (Elt F) (harg4.unread x4) (kernelRun_later.sl.H4_78 c arg1 harg1 arg4 harg4 x1 x4 hr)
      = stepRawDeg arg4 (wR arg1 harg1 x1 77 (by decide)) (hwR arg1 harg1 x1 hr 77 (by decide)) (arg4.view.writes (Elt F) (harg4.unread x4) (kernelRun_later.sl.H4_77 c arg1 harg1 arg4 harg4 x1 x4 hr)) := rfl
  rw [step, read_stepRawDeg, degL_77]; rfl

theorem degL_79 : arg4.view.read (Elt F) (arg4.view.writes (Elt F) (harg4.unread x4) (kernelRun_later.sl.H4_79 c arg1 harg1 arg4 harg4 x1 x4 hr)) = degUpTo X1 x4 79 (by decide) := by
  have step : arg4.view.writes (Elt F) (harg4.unread x4) (kernelRun_later.sl.H4_79 c arg1 harg1 arg4 harg4 x1 x4 hr)
      = stepRawDeg arg4 (wR arg1 harg1 x1 78 (by decide)) (hwR arg1 harg1 x1 hr 78 (by decide)) (arg4.view.writes (Elt F) (harg4.unread x4) (kernelRun_later.sl.H4_78 c arg1 harg1 arg4 harg4 x1 x4 hr)) := rfl
  rw [step, read_stepRawDeg, degL_78]; rfl

theorem degL_80 : arg4.view.read (Elt F) (arg4.view.writes (Elt F) (harg4.unread x4) (kernelRun_later.sl.H4_80 c arg1 harg1 arg4 harg4 x1 x4 hr)) = degUpTo X1 x4 80 (by decide) := by
  have step : arg4.view.writes (Elt F) (harg4.unread x4) (kernelRun_later.sl.H4_80 c arg1 harg1 arg4 harg4 x1 x4 hr)
      = stepRawDeg arg4 (wR arg1 harg1 x1 79 (by decide)) (hwR arg1 harg1 x1 hr 79 (by decide)) (arg4.view.writes (Elt F) (harg4.unread x4) (kernelRun_later.sl.H4_79 c arg1 harg1 arg4 harg4 x1 x4 hr)) := rfl
  rw [step, read_stepRawDeg, degL_79]; rfl

theorem degL_81 : arg4.view.read (Elt F) (arg4.view.writes (Elt F) (harg4.unread x4) (kernelRun_later.sl.H4_81 c arg1 harg1 arg4 harg4 x1 x4 hr)) = degUpTo X1 x4 81 (by decide) := by
  have step : arg4.view.writes (Elt F) (harg4.unread x4) (kernelRun_later.sl.H4_81 c arg1 harg1 arg4 harg4 x1 x4 hr)
      = stepRawDeg arg4 (wR arg1 harg1 x1 80 (by decide)) (hwR arg1 harg1 x1 hr 80 (by decide)) (arg4.view.writes (Elt F) (harg4.unread x4) (kernelRun_later.sl.H4_80 c arg1 harg1 arg4 harg4 x1 x4 hr)) := rfl
  rw [step, read_stepRawDeg, degL_80]; rfl

theorem degL_82 : arg4.view.read (Elt F) (arg4.view.writes (Elt F) (harg4.unread x4) (kernelRun_later.sl.H4_82 c arg1 harg1 arg4 harg4 x1 x4 hr)) = degUpTo X1 x4 82 (by decide) := by
  have step : arg4.view.writes (Elt F) (harg4.unread x4) (kernelRun_later.sl.H4_82 c arg1 harg1 arg4 harg4 x1 x4 hr)
      = stepRawDeg arg4 (wR arg1 harg1 x1 81 (by decide)) (hwR arg1 harg1 x1 hr 81 (by decide)) (arg4.view.writes (Elt F) (harg4.unread x4) (kernelRun_later.sl.H4_81 c arg1 harg1 arg4 harg4 x1 x4 hr)) := rfl
  rw [step, read_stepRawDeg, degL_81]; rfl

theorem degL_83 : arg4.view.read (Elt F) (arg4.view.writes (Elt F) (harg4.unread x4) (kernelRun_later.sl.H4_83 c arg1 harg1 arg4 harg4 x1 x4 hr)) = degUpTo X1 x4 83 (by decide) := by
  have step : arg4.view.writes (Elt F) (harg4.unread x4) (kernelRun_later.sl.H4_83 c arg1 harg1 arg4 harg4 x1 x4 hr)
      = stepRawDeg arg4 (wR arg1 harg1 x1 82 (by decide)) (hwR arg1 harg1 x1 hr 82 (by decide)) (arg4.view.writes (Elt F) (harg4.unread x4) (kernelRun_later.sl.H4_82 c arg1 harg1 arg4 harg4 x1 x4 hr)) := rfl
  rw [step, read_stepRawDeg, degL_82]; rfl

theorem degL_84 : arg4.view.read (Elt F) (arg4.view.writes (Elt F) (harg4.unread x4) (kernelRun_later.sl.H4_84 c arg1 harg1 arg4 harg4 x1 x4 hr)) = degUpTo X1 x4 84 (by decide) := by
  have step : arg4.view.writes (Elt F) (harg4.unread x4) (kernelRun_later.sl.H4_84 c arg1 harg1 arg4 harg4 x1 x4 hr)
      = stepRawDeg arg4 (wR arg1 harg1 x1 83 (by decide)) (hwR arg1 harg1 x1 hr 83 (by decide)) (arg4.view.writes (Elt F) (harg4.unread x4) (kernelRun_later.sl.H4_83 c arg1 harg1 arg4 harg4 x1 x4 hr)) := rfl
  rw [step, read_stepRawDeg, degL_83]; rfl

theorem degL_85 : arg4.view.read (Elt F) (arg4.view.writes (Elt F) (harg4.unread x4) (kernelRun_later.sl.H4_85 c arg1 harg1 arg4 harg4 x1 x4 hr)) = degUpTo X1 x4 85 (by decide) := by
  have step : arg4.view.writes (Elt F) (harg4.unread x4) (kernelRun_later.sl.H4_85 c arg1 harg1 arg4 harg4 x1 x4 hr)
      = stepRawDeg arg4 (wR arg1 harg1 x1 84 (by decide)) (hwR arg1 harg1 x1 hr 84 (by decide)) (arg4.view.writes (Elt F) (harg4.unread x4) (kernelRun_later.sl.H4_84 c arg1 harg1 arg4 harg4 x1 x4 hr)) := rfl
  rw [step, read_stepRawDeg, degL_84]; rfl

theorem degL_86 : arg4.view.read (Elt F) (arg4.view.writes (Elt F) (harg4.unread x4) (kernelRun_later.sl.H4_86 c arg1 harg1 arg4 harg4 x1 x4 hr)) = degUpTo X1 x4 86 (by decide) := by
  have step : arg4.view.writes (Elt F) (harg4.unread x4) (kernelRun_later.sl.H4_86 c arg1 harg1 arg4 harg4 x1 x4 hr)
      = stepRawDeg arg4 (wR arg1 harg1 x1 85 (by decide)) (hwR arg1 harg1 x1 hr 85 (by decide)) (arg4.view.writes (Elt F) (harg4.unread x4) (kernelRun_later.sl.H4_85 c arg1 harg1 arg4 harg4 x1 x4 hr)) := rfl
  rw [step, read_stepRawDeg, degL_85]; rfl

theorem degL_87 : arg4.view.read (Elt F) (arg4.view.writes (Elt F) (harg4.unread x4) (kernelRun_later.sl.H4_87 c arg1 harg1 arg4 harg4 x1 x4 hr)) = degUpTo X1 x4 87 (by decide) := by
  have step : arg4.view.writes (Elt F) (harg4.unread x4) (kernelRun_later.sl.H4_87 c arg1 harg1 arg4 harg4 x1 x4 hr)
      = stepRawDeg arg4 (wR arg1 harg1 x1 86 (by decide)) (hwR arg1 harg1 x1 hr 86 (by decide)) (arg4.view.writes (Elt F) (harg4.unread x4) (kernelRun_later.sl.H4_86 c arg1 harg1 arg4 harg4 x1 x4 hr)) := rfl
  rw [step, read_stepRawDeg, degL_86]; rfl

theorem degL_88 : arg4.view.read (Elt F) (arg4.view.writes (Elt F) (harg4.unread x4) (kernelRun_later.sl.H4_88 c arg1 harg1 arg4 harg4 x1 x4 hr)) = degUpTo X1 x4 88 (by decide) := by
  have step : arg4.view.writes (Elt F) (harg4.unread x4) (kernelRun_later.sl.H4_88 c arg1 harg1 arg4 harg4 x1 x4 hr)
      = stepRawDeg arg4 (wR arg1 harg1 x1 87 (by decide)) (hwR arg1 harg1 x1 hr 87 (by decide)) (arg4.view.writes (Elt F) (harg4.unread x4) (kernelRun_later.sl.H4_87 c arg1 harg1 arg4 harg4 x1 x4 hr)) := rfl
  rw [step, read_stepRawDeg, degL_87]; rfl

theorem degL_89 : arg4.view.read (Elt F) (arg4.view.writes (Elt F) (harg4.unread x4) (kernelRun_later.sl.H4_89 c arg1 harg1 arg4 harg4 x1 x4 hr)) = degUpTo X1 x4 89 (by decide) := by
  have step : arg4.view.writes (Elt F) (harg4.unread x4) (kernelRun_later.sl.H4_89 c arg1 harg1 arg4 harg4 x1 x4 hr)
      = stepRawDeg arg4 (wR arg1 harg1 x1 88 (by decide)) (hwR arg1 harg1 x1 hr 88 (by decide)) (arg4.view.writes (Elt F) (harg4.unread x4) (kernelRun_later.sl.H4_88 c arg1 harg1 arg4 harg4 x1 x4 hr)) := rfl
  rw [step, read_stepRawDeg, degL_88]; rfl

theorem degL_90 : arg4.view.read (Elt F) (arg4.view.writes (Elt F) (harg4.unread x4) (kernelRun_later.sl.H4_90 c arg1 harg1 arg4 harg4 x1 x4 hr)) = degUpTo X1 x4 90 (by decide) := by
  have step : arg4.view.writes (Elt F) (harg4.unread x4) (kernelRun_later.sl.H4_90 c arg1 harg1 arg4 harg4 x1 x4 hr)
      = stepRawDeg arg4 (wR arg1 harg1 x1 89 (by decide)) (hwR arg1 harg1 x1 hr 89 (by decide)) (arg4.view.writes (Elt F) (harg4.unread x4) (kernelRun_later.sl.H4_89 c arg1 harg1 arg4 harg4 x1 x4 hr)) := rfl
  rw [step, read_stepRawDeg, degL_89]; rfl

theorem degL_91 : arg4.view.read (Elt F) (arg4.view.writes (Elt F) (harg4.unread x4) (kernelRun_later.sl.H4_91 c arg1 harg1 arg4 harg4 x1 x4 hr)) = degUpTo X1 x4 91 (by decide) := by
  have step : arg4.view.writes (Elt F) (harg4.unread x4) (kernelRun_later.sl.H4_91 c arg1 harg1 arg4 harg4 x1 x4 hr)
      = stepRawDeg arg4 (wR arg1 harg1 x1 90 (by decide)) (hwR arg1 harg1 x1 hr 90 (by decide)) (arg4.view.writes (Elt F) (harg4.unread x4) (kernelRun_later.sl.H4_90 c arg1 harg1 arg4 harg4 x1 x4 hr)) := rfl
  rw [step, read_stepRawDeg, degL_90]; rfl

theorem degL_92 : arg4.view.read (Elt F) (arg4.view.writes (Elt F) (harg4.unread x4) (kernelRun_later.sl.H4_92 c arg1 harg1 arg4 harg4 x1 x4 hr)) = degUpTo X1 x4 92 (by decide) := by
  have step : arg4.view.writes (Elt F) (harg4.unread x4) (kernelRun_later.sl.H4_92 c arg1 harg1 arg4 harg4 x1 x4 hr)
      = stepRawDeg arg4 (wR arg1 harg1 x1 91 (by decide)) (hwR arg1 harg1 x1 hr 91 (by decide)) (arg4.view.writes (Elt F) (harg4.unread x4) (kernelRun_later.sl.H4_91 c arg1 harg1 arg4 harg4 x1 x4 hr)) := rfl
  rw [step, read_stepRawDeg, degL_91]; rfl

theorem degL_93 : arg4.view.read (Elt F) (arg4.view.writes (Elt F) (harg4.unread x4) (kernelRun_later.sl.H4_93 c arg1 harg1 arg4 harg4 x1 x4 hr)) = degUpTo X1 x4 93 (by decide) := by
  have step : arg4.view.writes (Elt F) (harg4.unread x4) (kernelRun_later.sl.H4_93 c arg1 harg1 arg4 harg4 x1 x4 hr)
      = stepRawDeg arg4 (wR arg1 harg1 x1 92 (by decide)) (hwR arg1 harg1 x1 hr 92 (by decide)) (arg4.view.writes (Elt F) (harg4.unread x4) (kernelRun_later.sl.H4_92 c arg1 harg1 arg4 harg4 x1 x4 hr)) := rfl
  rw [step, read_stepRawDeg, degL_92]; rfl

theorem degL_94 : arg4.view.read (Elt F) (arg4.view.writes (Elt F) (harg4.unread x4) (kernelRun_later.sl.H4_94 c arg1 harg1 arg4 harg4 x1 x4 hr)) = degUpTo X1 x4 94 (by decide) := by
  have step : arg4.view.writes (Elt F) (harg4.unread x4) (kernelRun_later.sl.H4_94 c arg1 harg1 arg4 harg4 x1 x4 hr)
      = stepRawDeg arg4 (wR arg1 harg1 x1 93 (by decide)) (hwR arg1 harg1 x1 hr 93 (by decide)) (arg4.view.writes (Elt F) (harg4.unread x4) (kernelRun_later.sl.H4_93 c arg1 harg1 arg4 harg4 x1 x4 hr)) := rfl
  rw [step, read_stepRawDeg, degL_93]; rfl

theorem degL_95 : arg4.view.read (Elt F) (arg4.view.writes (Elt F) (harg4.unread x4) (kernelRun_later.sl.H4_95 c arg1 harg1 arg4 harg4 x1 x4 hr)) = degUpTo X1 x4 95 (by decide) := by
  have step : arg4.view.writes (Elt F) (harg4.unread x4) (kernelRun_later.sl.H4_95 c arg1 harg1 arg4 harg4 x1 x4 hr)
      = stepRawDeg arg4 (wR arg1 harg1 x1 94 (by decide)) (hwR arg1 harg1 x1 hr 94 (by decide)) (arg4.view.writes (Elt F) (harg4.unread x4) (kernelRun_later.sl.H4_94 c arg1 harg1 arg4 harg4 x1 x4 hr)) := rfl
  rw [step, read_stepRawDeg, degL_94]; rfl

theorem degL_96 : arg4.view.read (Elt F) (arg4.view.writes (Elt F) (harg4.unread x4) (kernelRun_later.sl.H4_96 c arg1 harg1 arg4 harg4 x1 x4 hr)) = degUpTo X1 x4 96 (by decide) := by
  have step : arg4.view.writes (Elt F) (harg4.unread x4) (kernelRun_later.sl.H4_96 c arg1 harg1 arg4 harg4 x1 x4 hr)
      = stepRawDeg arg4 (wR arg1 harg1 x1 95 (by decide)) (hwR arg1 harg1 x1 hr 95 (by decide)) (arg4.view.writes (Elt F) (harg4.unread x4) (kernelRun_later.sl.H4_95 c arg1 harg1 arg4 harg4 x1 x4 hr)) := rfl
  rw [step, read_stepRawDeg, degL_95]; rfl

theorem degL_97 : arg4.view.read (Elt F) (arg4.view.writes (Elt F) (harg4.unread x4) (kernelRun_later.sl.H4_97 c arg1 harg1 arg4 harg4 x1 x4 hr)) = degUpTo X1 x4 97 (by decide) := by
  have step : arg4.view.writes (Elt F) (harg4.unread x4) (kernelRun_later.sl.H4_97 c arg1 harg1 arg4 harg4 x1 x4 hr)
      = stepRawDeg arg4 (wR arg1 harg1 x1 96 (by decide)) (hwR arg1 harg1 x1 hr 96 (by decide)) (arg4.view.writes (Elt F) (harg4.unread x4) (kernelRun_later.sl.H4_96 c arg1 harg1 arg4 harg4 x1 x4 hr)) := rfl
  rw [step, read_stepRawDeg, degL_96]; rfl

theorem degL_98 : arg4.view.read (Elt F) (arg4.view.writes (Elt F) (harg4.unread x4) (kernelRun_later.sl.H4_98 c arg1 harg1 arg4 harg4 x1 x4 hr)) = degUpTo X1 x4 98 (by decide) := by
  have step : arg4.view.writes (Elt F) (harg4.unread x4) (kernelRun_later.sl.H4_98 c arg1 harg1 arg4 harg4 x1 x4 hr)
      = stepRawDeg arg4 (wR arg1 harg1 x1 97 (by decide)) (hwR arg1 harg1 x1 hr 97 (by decide)) (arg4.view.writes (Elt F) (harg4.unread x4) (kernelRun_later.sl.H4_97 c arg1 harg1 arg4 harg4 x1 x4 hr)) := rfl
  rw [step, read_stepRawDeg, degL_97]; rfl

theorem degL_99 : arg4.view.read (Elt F) (arg4.view.writes (Elt F) (harg4.unread x4) (kernelRun_later.sl.H4_99 c arg1 harg1 arg4 harg4 x1 x4 hr)) = degUpTo X1 x4 99 (by decide) := by
  have step : arg4.view.writes (Elt F) (harg4.unread x4) (kernelRun_later.sl.H4_99 c arg1 harg1 arg4 harg4 x1 x4 hr)
      = stepRawDeg arg4 (wR arg1 harg1 x1 98 (by decide)) (hwR arg1 harg1 x1 hr 98 (by decide)) (arg4.view.writes (Elt F) (harg4.unread x4) (kernelRun_later.sl.H4_98 c arg1 harg1 arg4 harg4 x1 x4 hr)) := rfl
  rw [step, read_stepRawDeg, degL_98]; rfl

theorem degL_100 : arg4.view.read (Elt F) (arg4.view.writes (Elt F) (harg4.unread x4) (kernelRun_later.sl.H4_100 c arg1 harg1 arg4 harg4 x1 x4 hr)) = degUpTo X1 x4 100 (by decide) := by
  have step : arg4.view.writes (Elt F) (harg4.unread x4) (kernelRun_later.sl.H4_100 c arg1 harg1 arg4 harg4 x1 x4 hr)
      = stepRawDeg arg4 (wR arg1 harg1 x1 99 (by decide)) (hwR arg1 harg1 x1 hr 99 (by decide)) (arg4.view.writes (Elt F) (harg4.unread x4) (kernelRun_later.sl.H4_99 c arg1 harg1 arg4 harg4 x1 x4 hr)) := rfl
  rw [step, read_stepRawDeg, degL_99]; rfl

theorem degL_101 : arg4.view.read (Elt F) (arg4.view.writes (Elt F) (harg4.unread x4) (kernelRun_later.sl.H4_101 c arg1 harg1 arg4 harg4 x1 x4 hr)) = degUpTo X1 x4 101 (by decide) := by
  have step : arg4.view.writes (Elt F) (harg4.unread x4) (kernelRun_later.sl.H4_101 c arg1 harg1 arg4 harg4 x1 x4 hr)
      = stepRawDeg arg4 (wR arg1 harg1 x1 100 (by decide)) (hwR arg1 harg1 x1 hr 100 (by decide)) (arg4.view.writes (Elt F) (harg4.unread x4) (kernelRun_later.sl.H4_100 c arg1 harg1 arg4 harg4 x1 x4 hr)) := rfl
  rw [step, read_stepRawDeg, degL_100]; rfl

theorem degL_102 : arg4.view.read (Elt F) (arg4.view.writes (Elt F) (harg4.unread x4) (kernelRun_later.sl.H4_102 c arg1 harg1 arg4 harg4 x1 x4 hr)) = degUpTo X1 x4 102 (by decide) := by
  have step : arg4.view.writes (Elt F) (harg4.unread x4) (kernelRun_later.sl.H4_102 c arg1 harg1 arg4 harg4 x1 x4 hr)
      = stepRawDeg arg4 (wR arg1 harg1 x1 101 (by decide)) (hwR arg1 harg1 x1 hr 101 (by decide)) (arg4.view.writes (Elt F) (harg4.unread x4) (kernelRun_later.sl.H4_101 c arg1 harg1 arg4 harg4 x1 x4 hr)) := rfl
  rw [step, read_stepRawDeg, degL_101]; rfl

theorem degL_103 : arg4.view.read (Elt F) (arg4.view.writes (Elt F) (harg4.unread x4) (kernelRun_later.sl.H4_103 c arg1 harg1 arg4 harg4 x1 x4 hr)) = degUpTo X1 x4 103 (by decide) := by
  have step : arg4.view.writes (Elt F) (harg4.unread x4) (kernelRun_later.sl.H4_103 c arg1 harg1 arg4 harg4 x1 x4 hr)
      = stepRawDeg arg4 (wR arg1 harg1 x1 102 (by decide)) (hwR arg1 harg1 x1 hr 102 (by decide)) (arg4.view.writes (Elt F) (harg4.unread x4) (kernelRun_later.sl.H4_102 c arg1 harg1 arg4 harg4 x1 x4 hr)) := rfl
  rw [step, read_stepRawDeg, degL_102]; rfl

theorem degL_104 : arg4.view.read (Elt F) (arg4.view.writes (Elt F) (harg4.unread x4) (kernelRun_later.sl.H4_104 c arg1 harg1 arg4 harg4 x1 x4 hr)) = degUpTo X1 x4 104 (by decide) := by
  have step : arg4.view.writes (Elt F) (harg4.unread x4) (kernelRun_later.sl.H4_104 c arg1 harg1 arg4 harg4 x1 x4 hr)
      = stepRawDeg arg4 (wR arg1 harg1 x1 103 (by decide)) (hwR arg1 harg1 x1 hr 103 (by decide)) (arg4.view.writes (Elt F) (harg4.unread x4) (kernelRun_later.sl.H4_103 c arg1 harg1 arg4 harg4 x1 x4 hr)) := rfl
  rw [step, read_stepRawDeg, degL_103]; rfl

theorem degL_105 : arg4.view.read (Elt F) (arg4.view.writes (Elt F) (harg4.unread x4) (kernelRun_later.sl.H4_105 c arg1 harg1 arg4 harg4 x1 x4 hr)) = degUpTo X1 x4 105 (by decide) := by
  have step : arg4.view.writes (Elt F) (harg4.unread x4) (kernelRun_later.sl.H4_105 c arg1 harg1 arg4 harg4 x1 x4 hr)
      = stepRawDeg arg4 (wR arg1 harg1 x1 104 (by decide)) (hwR arg1 harg1 x1 hr 104 (by decide)) (arg4.view.writes (Elt F) (harg4.unread x4) (kernelRun_later.sl.H4_104 c arg1 harg1 arg4 harg4 x1 x4 hr)) := rfl
  rw [step, read_stepRawDeg, degL_104]; rfl

theorem degL_106 : arg4.view.read (Elt F) (arg4.view.writes (Elt F) (harg4.unread x4) (kernelRun_later.sl.H4_106 c arg1 harg1 arg4 harg4 x1 x4 hr)) = degUpTo X1 x4 106 (by decide) := by
  have step : arg4.view.writes (Elt F) (harg4.unread x4) (kernelRun_later.sl.H4_106 c arg1 harg1 arg4 harg4 x1 x4 hr)
      = stepRawDeg arg4 (wR arg1 harg1 x1 105 (by decide)) (hwR arg1 harg1 x1 hr 105 (by decide)) (arg4.view.writes (Elt F) (harg4.unread x4) (kernelRun_later.sl.H4_105 c arg1 harg1 arg4 harg4 x1 x4 hr)) := rfl
  rw [step, read_stepRawDeg, degL_105]; rfl

theorem degL_107 : arg4.view.read (Elt F) (arg4.view.writes (Elt F) (harg4.unread x4) (kernelRun_later.sl.H4_107 c arg1 harg1 arg4 harg4 x1 x4 hr)) = degUpTo X1 x4 107 (by decide) := by
  have step : arg4.view.writes (Elt F) (harg4.unread x4) (kernelRun_later.sl.H4_107 c arg1 harg1 arg4 harg4 x1 x4 hr)
      = stepRawDeg arg4 (wR arg1 harg1 x1 106 (by decide)) (hwR arg1 harg1 x1 hr 106 (by decide)) (arg4.view.writes (Elt F) (harg4.unread x4) (kernelRun_later.sl.H4_106 c arg1 harg1 arg4 harg4 x1 x4 hr)) := rfl
  rw [step, read_stepRawDeg, degL_106]; rfl

theorem degL_108 : arg4.view.read (Elt F) (arg4.view.writes (Elt F) (harg4.unread x4) (kernelRun_later.sl.H4_108 c arg1 harg1 arg4 harg4 x1 x4 hr)) = degUpTo X1 x4 108 (by decide) := by
  have step : arg4.view.writes (Elt F) (harg4.unread x4) (kernelRun_later.sl.H4_108 c arg1 harg1 arg4 harg4 x1 x4 hr)
      = stepRawDeg arg4 (wR arg1 harg1 x1 107 (by decide)) (hwR arg1 harg1 x1 hr 107 (by decide)) (arg4.view.writes (Elt F) (harg4.unread x4) (kernelRun_later.sl.H4_107 c arg1 harg1 arg4 harg4 x1 x4 hr)) := rfl
  rw [step, read_stepRawDeg, degL_107]; rfl

theorem degL_109 : arg4.view.read (Elt F) (arg4.view.writes (Elt F) (harg4.unread x4) (kernelRun_later.sl.H4_109 c arg1 harg1 arg4 harg4 x1 x4 hr)) = degUpTo X1 x4 109 (by decide) := by
  have step : arg4.view.writes (Elt F) (harg4.unread x4) (kernelRun_later.sl.H4_109 c arg1 harg1 arg4 harg4 x1 x4 hr)
      = stepRawDeg arg4 (wR arg1 harg1 x1 108 (by decide)) (hwR arg1 harg1 x1 hr 108 (by decide)) (arg4.view.writes (Elt F) (harg4.unread x4) (kernelRun_later.sl.H4_108 c arg1 harg1 arg4 harg4 x1 x4 hr)) := rfl
  rw [step, read_stepRawDeg, degL_108]; rfl

theorem degL_110 : arg4.view.read (Elt F) (arg4.view.writes (Elt F) (harg4.unread x4) (kernelRun_later.sl.H4_110 c arg1 harg1 arg4 harg4 x1 x4 hr)) = degUpTo X1 x4 110 (by decide) := by
  have step : arg4.view.writes (Elt F) (harg4.unread x4) (kernelRun_later.sl.H4_110 c arg1 harg1 arg4 harg4 x1 x4 hr)
      = stepRawDeg arg4 (wR arg1 harg1 x1 109 (by decide)) (hwR arg1 harg1 x1 hr 109 (by decide)) (arg4.view.writes (Elt F) (harg4.unread x4) (kernelRun_later.sl.H4_109 c arg1 harg1 arg4 harg4 x1 x4 hr)) := rfl
  rw [step, read_stepRawDeg, degL_109]; rfl

theorem degL_111 : arg4.view.read (Elt F) (arg4.view.writes (Elt F) (harg4.unread x4) (kernelRun_later.sl.H4_111 c arg1 harg1 arg4 harg4 x1 x4 hr)) = degUpTo X1 x4 111 (by decide) := by
  have step : arg4.view.writes (Elt F) (harg4.unread x4) (kernelRun_later.sl.H4_111 c arg1 harg1 arg4 harg4 x1 x4 hr)
      = stepRawDeg arg4 (wR arg1 harg1 x1 110 (by decide)) (hwR arg1 harg1 x1 hr 110 (by decide)) (arg4.view.writes (Elt F) (harg4.unread x4) (kernelRun_later.sl.H4_110 c arg1 harg1 arg4 harg4 x1 x4 hr)) := rfl
  rw [step, read_stepRawDeg, degL_110]; rfl

theorem degL_112 : arg4.view.read (Elt F) (arg4.view.writes (Elt F) (harg4.unread x4) (kernelRun_later.sl.H4_112 c arg1 harg1 arg4 harg4 x1 x4 hr)) = degUpTo X1 x4 112 (by decide) := by
  have step : arg4.view.writes (Elt F) (harg4.unread x4) (kernelRun_later.sl.H4_112 c arg1 harg1 arg4 harg4 x1 x4 hr)
      = stepRawDeg arg4 (wR arg1 harg1 x1 111 (by decide)) (hwR arg1 harg1 x1 hr 111 (by decide)) (arg4.view.writes (Elt F) (harg4.unread x4) (kernelRun_later.sl.H4_111 c arg1 harg1 arg4 harg4 x1 x4 hr)) := rfl
  rw [step, read_stepRawDeg, degL_111]; rfl

theorem degL_113 : arg4.view.read (Elt F) (arg4.view.writes (Elt F) (harg4.unread x4) (kernelRun_later.sl.H4_113 c arg1 harg1 arg4 harg4 x1 x4 hr)) = degUpTo X1 x4 113 (by decide) := by
  have step : arg4.view.writes (Elt F) (harg4.unread x4) (kernelRun_later.sl.H4_113 c arg1 harg1 arg4 harg4 x1 x4 hr)
      = stepRawDeg arg4 (wR arg1 harg1 x1 112 (by decide)) (hwR arg1 harg1 x1 hr 112 (by decide)) (arg4.view.writes (Elt F) (harg4.unread x4) (kernelRun_later.sl.H4_112 c arg1 harg1 arg4 harg4 x1 x4 hr)) := rfl
  rw [step, read_stepRawDeg, degL_112]; rfl

theorem degL_114 : arg4.view.read (Elt F) (arg4.view.writes (Elt F) (harg4.unread x4) (kernelRun_later.sl.H4_114 c arg1 harg1 arg4 harg4 x1 x4 hr)) = degUpTo X1 x4 114 (by decide) := by
  have step : arg4.view.writes (Elt F) (harg4.unread x4) (kernelRun_later.sl.H4_114 c arg1 harg1 arg4 harg4 x1 x4 hr)
      = stepRawDeg arg4 (wR arg1 harg1 x1 113 (by decide)) (hwR arg1 harg1 x1 hr 113 (by decide)) (arg4.view.writes (Elt F) (harg4.unread x4) (kernelRun_later.sl.H4_113 c arg1 harg1 arg4 harg4 x1 x4 hr)) := rfl
  rw [step, read_stepRawDeg, degL_113]; rfl

theorem degL_115 : arg4.view.read (Elt F) (arg4.view.writes (Elt F) (harg4.unread x4) (kernelRun_later.sl.H4_115 c arg1 harg1 arg4 harg4 x1 x4 hr)) = degUpTo X1 x4 115 (by decide) := by
  have step : arg4.view.writes (Elt F) (harg4.unread x4) (kernelRun_later.sl.H4_115 c arg1 harg1 arg4 harg4 x1 x4 hr)
      = stepRawDeg arg4 (wR arg1 harg1 x1 114 (by decide)) (hwR arg1 harg1 x1 hr 114 (by decide)) (arg4.view.writes (Elt F) (harg4.unread x4) (kernelRun_later.sl.H4_114 c arg1 harg1 arg4 harg4 x1 x4 hr)) := rfl
  rw [step, read_stepRawDeg, degL_114]; rfl

theorem degL_116 : arg4.view.read (Elt F) (arg4.view.writes (Elt F) (harg4.unread x4) (kernelRun_later.sl.H4_116 c arg1 harg1 arg4 harg4 x1 x4 hr)) = degUpTo X1 x4 116 (by decide) := by
  have step : arg4.view.writes (Elt F) (harg4.unread x4) (kernelRun_later.sl.H4_116 c arg1 harg1 arg4 harg4 x1 x4 hr)
      = stepRawDeg arg4 (wR arg1 harg1 x1 115 (by decide)) (hwR arg1 harg1 x1 hr 115 (by decide)) (arg4.view.writes (Elt F) (harg4.unread x4) (kernelRun_later.sl.H4_115 c arg1 harg1 arg4 harg4 x1 x4 hr)) := rfl
  rw [step, read_stepRawDeg, degL_115]; rfl

theorem degL_117 : arg4.view.read (Elt F) (arg4.view.writes (Elt F) (harg4.unread x4) (kernelRun_later.sl.H4_117 c arg1 harg1 arg4 harg4 x1 x4 hr)) = degUpTo X1 x4 117 (by decide) := by
  have step : arg4.view.writes (Elt F) (harg4.unread x4) (kernelRun_later.sl.H4_117 c arg1 harg1 arg4 harg4 x1 x4 hr)
      = stepRawDeg arg4 (wR arg1 harg1 x1 116 (by decide)) (hwR arg1 harg1 x1 hr 116 (by decide)) (arg4.view.writes (Elt F) (harg4.unread x4) (kernelRun_later.sl.H4_116 c arg1 harg1 arg4 harg4 x1 x4 hr)) := rfl
  rw [step, read_stepRawDeg, degL_116]; rfl

theorem degL_118 : arg4.view.read (Elt F) (arg4.view.writes (Elt F) (harg4.unread x4) (kernelRun_later.sl.H4_118 c arg1 harg1 arg4 harg4 x1 x4 hr)) = degUpTo X1 x4 118 (by decide) := by
  have step : arg4.view.writes (Elt F) (harg4.unread x4) (kernelRun_later.sl.H4_118 c arg1 harg1 arg4 harg4 x1 x4 hr)
      = stepRawDeg arg4 (wR arg1 harg1 x1 117 (by decide)) (hwR arg1 harg1 x1 hr 117 (by decide)) (arg4.view.writes (Elt F) (harg4.unread x4) (kernelRun_later.sl.H4_117 c arg1 harg1 arg4 harg4 x1 x4 hr)) := rfl
  rw [step, read_stepRawDeg, degL_117]; rfl

theorem degL_119 : arg4.view.read (Elt F) (arg4.view.writes (Elt F) (harg4.unread x4) (kernelRun_later.sl.H4_119 c arg1 harg1 arg4 harg4 x1 x4 hr)) = degUpTo X1 x4 119 (by decide) := by
  have step : arg4.view.writes (Elt F) (harg4.unread x4) (kernelRun_later.sl.H4_119 c arg1 harg1 arg4 harg4 x1 x4 hr)
      = stepRawDeg arg4 (wR arg1 harg1 x1 118 (by decide)) (hwR arg1 harg1 x1 hr 118 (by decide)) (arg4.view.writes (Elt F) (harg4.unread x4) (kernelRun_later.sl.H4_118 c arg1 harg1 arg4 harg4 x1 x4 hr)) := rfl
  rw [step, read_stepRawDeg, degL_118]; rfl

theorem degL_120 : arg4.view.read (Elt F) (arg4.view.writes (Elt F) (harg4.unread x4) (kernelRun_later.sl.H4_120 c arg1 harg1 arg4 harg4 x1 x4 hr)) = degUpTo X1 x4 120 (by decide) := by
  have step : arg4.view.writes (Elt F) (harg4.unread x4) (kernelRun_later.sl.H4_120 c arg1 harg1 arg4 harg4 x1 x4 hr)
      = stepRawDeg arg4 (wR arg1 harg1 x1 119 (by decide)) (hwR arg1 harg1 x1 hr 119 (by decide)) (arg4.view.writes (Elt F) (harg4.unread x4) (kernelRun_later.sl.H4_119 c arg1 harg1 arg4 harg4 x1 x4 hr)) := rfl
  rw [step, read_stepRawDeg, degL_119]; rfl

theorem degL_121 : arg4.view.read (Elt F) (arg4.view.writes (Elt F) (harg4.unread x4) (kernelRun_later.sl.H4_121 c arg1 harg1 arg4 harg4 x1 x4 hr)) = degUpTo X1 x4 121 (by decide) := by
  have step : arg4.view.writes (Elt F) (harg4.unread x4) (kernelRun_later.sl.H4_121 c arg1 harg1 arg4 harg4 x1 x4 hr)
      = stepRawDeg arg4 (wR arg1 harg1 x1 120 (by decide)) (hwR arg1 harg1 x1 hr 120 (by decide)) (arg4.view.writes (Elt F) (harg4.unread x4) (kernelRun_later.sl.H4_120 c arg1 harg1 arg4 harg4 x1 x4 hr)) := rfl
  rw [step, read_stepRawDeg, degL_120]; rfl

theorem degL_122 : arg4.view.read (Elt F) (arg4.view.writes (Elt F) (harg4.unread x4) (kernelRun_later.sl.H4_122 c arg1 harg1 arg4 harg4 x1 x4 hr)) = degUpTo X1 x4 122 (by decide) := by
  have step : arg4.view.writes (Elt F) (harg4.unread x4) (kernelRun_later.sl.H4_122 c arg1 harg1 arg4 harg4 x1 x4 hr)
      = stepRawDeg arg4 (wR arg1 harg1 x1 121 (by decide)) (hwR arg1 harg1 x1 hr 121 (by decide)) (arg4.view.writes (Elt F) (harg4.unread x4) (kernelRun_later.sl.H4_121 c arg1 harg1 arg4 harg4 x1 x4 hr)) := rfl
  rw [step, read_stepRawDeg, degL_121]; rfl

theorem degL_123 : arg4.view.read (Elt F) (arg4.view.writes (Elt F) (harg4.unread x4) (kernelRun_later.sl.H4_123 c arg1 harg1 arg4 harg4 x1 x4 hr)) = degUpTo X1 x4 123 (by decide) := by
  have step : arg4.view.writes (Elt F) (harg4.unread x4) (kernelRun_later.sl.H4_123 c arg1 harg1 arg4 harg4 x1 x4 hr)
      = stepRawDeg arg4 (wR arg1 harg1 x1 122 (by decide)) (hwR arg1 harg1 x1 hr 122 (by decide)) (arg4.view.writes (Elt F) (harg4.unread x4) (kernelRun_later.sl.H4_122 c arg1 harg1 arg4 harg4 x1 x4 hr)) := rfl
  rw [step, read_stepRawDeg, degL_122]; rfl

theorem degL_124 : arg4.view.read (Elt F) (arg4.view.writes (Elt F) (harg4.unread x4) (kernelRun_later.sl.H4_124 c arg1 harg1 arg4 harg4 x1 x4 hr)) = degUpTo X1 x4 124 (by decide) := by
  have step : arg4.view.writes (Elt F) (harg4.unread x4) (kernelRun_later.sl.H4_124 c arg1 harg1 arg4 harg4 x1 x4 hr)
      = stepRawDeg arg4 (wR arg1 harg1 x1 123 (by decide)) (hwR arg1 harg1 x1 hr 123 (by decide)) (arg4.view.writes (Elt F) (harg4.unread x4) (kernelRun_later.sl.H4_123 c arg1 harg1 arg4 harg4 x1 x4 hr)) := rfl
  rw [step, read_stepRawDeg, degL_123]; rfl

theorem degL_125 : arg4.view.read (Elt F) (arg4.view.writes (Elt F) (harg4.unread x4) (kernelRun_later.sl.H4_125 c arg1 harg1 arg4 harg4 x1 x4 hr)) = degUpTo X1 x4 125 (by decide) := by
  have step : arg4.view.writes (Elt F) (harg4.unread x4) (kernelRun_later.sl.H4_125 c arg1 harg1 arg4 harg4 x1 x4 hr)
      = stepRawDeg arg4 (wR arg1 harg1 x1 124 (by decide)) (hwR arg1 harg1 x1 hr 124 (by decide)) (arg4.view.writes (Elt F) (harg4.unread x4) (kernelRun_later.sl.H4_124 c arg1 harg1 arg4 harg4 x1 x4 hr)) := rfl
  rw [step, read_stepRawDeg, degL_124]; rfl

theorem degL_126 : arg4.view.read (Elt F) (arg4.view.writes (Elt F) (harg4.unread x4) (kernelRun_later.sl.H4_126 c arg1 harg1 arg4 harg4 x1 x4 hr)) = degUpTo X1 x4 126 (by decide) := by
  have step : arg4.view.writes (Elt F) (harg4.unread x4) (kernelRun_later.sl.H4_126 c arg1 harg1 arg4 harg4 x1 x4 hr)
      = stepRawDeg arg4 (wR arg1 harg1 x1 125 (by decide)) (hwR arg1 harg1 x1 hr 125 (by decide)) (arg4.view.writes (Elt F) (harg4.unread x4) (kernelRun_later.sl.H4_125 c arg1 harg1 arg4 harg4 x1 x4 hr)) := rfl
  rw [step, read_stepRawDeg, degL_125]; rfl

theorem degL_127 : arg4.view.read (Elt F) (arg4.view.writes (Elt F) (harg4.unread x4) (kernelRun_later.sl.H4_127 c arg1 harg1 arg4 harg4 x1 x4 hr)) = degUpTo X1 x4 127 (by decide) := by
  have step : arg4.view.writes (Elt F) (harg4.unread x4) (kernelRun_later.sl.H4_127 c arg1 harg1 arg4 harg4 x1 x4 hr)
      = stepRawDeg arg4 (wR arg1 harg1 x1 126 (by decide)) (hwR arg1 harg1 x1 hr 126 (by decide)) (arg4.view.writes (Elt F) (harg4.unread x4) (kernelRun_later.sl.H4_126 c arg1 harg1 arg4 harg4 x1 x4 hr)) := rfl
  rw [step, read_stepRawDeg, degL_126]; rfl

theorem degL_128 : arg4.view.read (Elt F) (arg4.view.writes (Elt F) (harg4.unread x4) (kernelRun_later (Ix := Ix) (Name := Name) (U := U) (Lvl := Lvl) 𝒱₀ c i arg1 harg1 arg2 harg2 arg3 harg3 arg4 harg4 hc0 x1 x2 x3 x4 hr).1.2) = degUpTo X1 x4 128 (by decide) := by
  have step : arg4.view.writes (Elt F) (harg4.unread x4) (kernelRun_later (Ix := Ix) (Name := Name) (U := U) (Lvl := Lvl) 𝒱₀ c i arg1 harg1 arg2 harg2 arg3 harg3 arg4 harg4 hc0 x1 x2 x3 x4 hr).1.2
      = stepRawDeg arg4 (wR arg1 harg1 x1 127 (by decide)) (hwR arg1 harg1 x1 hr 127 (by decide)) (arg4.view.writes (Elt F) (harg4.unread x4) (kernelRun_later.sl.H4_127 c arg1 harg1 arg4 harg4 x1 x4 hr)) := rfl
  rw [step, read_stepRawDeg, degL_127]; rfl

/-- WHAT THE POINT LEAVES: its 128 updates of what the accumulator held. -/
theorem later_deg : arg4.view.read (Elt F) (arg4.view.writes (Elt F) (harg4.unread x4) (kernelRun_later (Ix := Ix) (Name := Name) (U := U) (Lvl := Lvl) 𝒱₀ c i arg1 harg1 arg2 harg2 arg3 harg3 arg4 harg4 hc0 x1 x2 x3 x4 hr).1.2) = chunkDeg x1 x4 := by
  have h := degL_128 c arg1 harg1 arg2 harg2 arg3 harg3 arg4 harg4 x1 x2 x3 x4 hr 𝒱₀ i hc0 (Ix := Ix) (Name := Name) (U := U) (Lvl := Lvl)
  rw [harg1.read_unread] at h
  exact h

end Chain

end Cert.KI.Scat

end
-- ==== Proof.ScatBodyL.lean ====
import proofs.«202620_g33904471835419_cont_8to1_b_799_54_alg».proof.Proof.ScatBodyCore
import proofs.«202620_g33904471835419_cont_8to1_b_799_54_alg».proof.Proof.ScatChainLA
import proofs.«202620_g33904471835419_cont_8to1_b_799_54_alg».proof.Proof.ScatChainLD

/-!
# The scatter region: the body's triple at a later point

The run of the body at a later point leaves each accumulator at its 128 stores over what it held; read back, the
stores are the point's update. So the triple: the accumulators from what they held to the update of it.
-/

set_option maxRecDepth 16384

noncomputable section

namespace Cert.KI.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The body at a later point. -/
theorem sound_kernel1_later (𝒱₀ : Variants) : LaterTriple (F := F) (Ix := Ix) (Name := Name) (U := U) (Lvl := Lvl) 𝒱₀ := by
  intro c E i arg1 harg1 arg2 harg2 arg3 harg3 arg4 harg4 hc0 x1 x2 x3 x4 hr K
  iintro ⟨H1, H2, H3, H4, Hk⟩
  iapply ((kernelRun_later (Ix := Ix) (Name := Name) (U := U) (Lvl := Lvl) 𝒱₀ c i arg1 harg1 arg2 harg2 arg3 harg3 arg4 harg4 hc0 x1 x2 x3 x4 hr).2 E K)
  isplitl [H1]; · iexact H1
  isplitl [H2]; · iexact H2
  isplitl [H3]; · iexact H3
  isplitl [H4]; · iexact H4
  iintro ⟨H1, H2, H3, H4⟩
  iapply Hk
  isplitl [H1]; · iexact H1
  isplitl [H2]; · iexact H2
  isplitl [H3]
  · unfold owns; iexists _; isplitr
    swap; · iexact H3
    ipureintro
    exact later_agg c arg1 harg1 arg2 harg2 arg3 harg3 arg4 harg4 x1 x2 x3 x4 hr 𝒱₀ i hc0
  · unfold owns; iexists _; isplitr
    swap; · iexact H4
    ipureintro
    exact later_deg c arg1 harg1 arg2 harg2 arg3 harg3 arg4 harg4 x1 x2 x3 x4 hr 𝒱₀ i hc0

end Cert.KI.Scat

end
-- ==== Proof.ScatRun0.lean ====
import proofs.«202620_g33904471835419_cont_8to1_b_799_54_alg».proof.Proof.ScatRun
import proofs.«202620_g33904471835419_cont_8to1_b_799_54_alg».proof.Proof.ScatStep

/-!
# The scatter region: the body at the first point

The grid coordinate enters the body through one condition only, the test that opens the body: is this the first
point? Where it holds the body first reads each accumulator whole and stores zeros over it; where it fails it does
nothing there; from then on the body is the same text, and no later statement mentions the coordinate. So the body at
the first point IS the two zero stores followed by the body as at a later point — an equation between programs,
by unfolding the part that holds the condition and re-associating the sequencing.

After the two stores each accumulator reads as the array of zeros whatever it held. So the run at the first point
is: the two stores, then the later point's run from accumulators at zeros; the pieces it leaves are the later
point's, written over zeros, and do not depend on what the accumulators held.
-/

set_option maxRecDepth 65536

noncomputable section

namespace Cert.KI.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- What the body does at the first point before anything else: each accumulator read whole and overwritten with zeros. -/
def zeroStores (arg3 : Memref sig .tc .vmem S1250x8x128 .f32) (arg4 : Memref sig .tc .vmem S1250x8x128 .f32) :
    Prog (TpuEff nD τ sig (Elt F) Λ₀ .tc) PUnit := do
  let _v : Vec F S1250x8x128 .f32 ← Prog.lift (.load arg3 (Rect.unit (s := S1250x8x128) ![0, 0, 0] S1250x8x128.size inb_S1250x8x128_S1250x8x128_0_0_0).toLoadRect (View.loadsAt_vmem h_S1250x8x128))
  Prog.lift (.store arg3 (Rect.unit (s := S1250x8x128) ![0, 0, 0] S1250x8x128.size inb_S1250x8x128_S1250x8x128_0_0_0) (k1_pay2 (F := F)) Finset.univ (View.stores_vmem_bits_univ h_S1250x8x128 rfl) (.inl rfl))
  let _w : Vec F S1250x8x128 .f32 ← Prog.lift (.load arg4 (Rect.unit (s := S1250x8x128) ![0, 0, 0] S1250x8x128.size inb_S1250x8x128_S1250x8x128_0_0_0).toLoadRect (View.loadsAt_vmem h_S1250x8x128))
  Prog.lift (.store arg4 (Rect.unit (s := S1250x8x128) ![0, 0, 0] S1250x8x128.size inb_S1250x8x128_S1250x8x128_0_0_0) (k1_pay3 (F := F)) Finset.univ (View.stores_vmem_bits_univ h_S1250x8x128 rfl) (.inl rfl))

set_option maxHeartbeats 4000000 in
/-- The first part of the body at a point where the condition holds is the two zero stores, then the same part at a
    point where it does not: the grid coordinate enters the part through the condition only. -/
theorem part1_first (i0 i1 : grid1.Coords) (hc0 : cond1_0 i0) (hc1 : ¬cond1_0 i1)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole) :
    k1_part1 (F := F) i0 arg1 harg1 arg2 harg2 arg3 harg3 arg4 harg4
      = zeroStores arg3 arg4 >>= fun _ => k1_part1 (F := F) i1 arg1 harg1 arg2 harg2 arg3 harg3 arg4 harg4 := by
  unfold k1_part1 zeroStores
  simp only [dif_pos hc0, dif_neg hc1, bind_assoc, pure_bind]
  rfl

set_option maxHeartbeats 16000000 in
/-- The same for the level-two part that begins with it: every later part takes the grid coordinate and does not use it. -/
theorem part141_first (i0 i1 : grid1.Coords) (hc0 : cond1_0 i0) (hc1 : ¬cond1_0 i1)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole) :
    k1_part141 (F := F) i0 arg1 harg1 arg2 harg2 arg3 harg3 arg4 harg4
      = zeroStores arg3 arg4 >>= fun _ => k1_part141 (F := F) i1 arg1 harg1 arg2 harg2 arg3 harg3 arg4 harg4 := by
  unfold k1_part141
  rw [part1_first i0 i1 hc0 hc1, bind_assoc]
  rfl

set_option maxHeartbeats 16000000 in
/-- THE BODY AT THE FIRST POINT is the two zero stores followed by the body at a later point. -/
theorem body_first (i0 i1 : grid1.Coords) (hc0 : cond1_0 i0) (hc1 : ¬cond1_0 i1)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole) :
    cc1__scat_body (F := F) i0 arg1 harg1 arg2 harg2 arg3 harg3 arg4 harg4
      = zeroStores arg3 arg4 >>= fun _ => cc1__scat_body (F := F) i1 arg1 harg1 arg2 harg2 arg3 harg3 arg4 harg4 := by
  unfold cc1__scat_body
  rw [part141_first i0 i1 hc0 hc1, bind_assoc]
  rfl

/-- The zero offsets, however they are spelt. -/
theorem hz3 : (![0, 0, 0] : Fin 3 → Nat) = fun _ => 0 := funext fun a => by fin_cases a <;> rfl

/-- One store over the whole accumulator leaves its payload, whatever the accumulator held. -/
theorem read_whole_store (M : Memref sig .tc .vmem S1250x8x128 .f32) (f : M.view.ty.Contents (Elt F)) (p : Vec F S1250x8x128 .f32) :
    M.view.read (Elt F) (M.view.writes (Elt F) f
      [⟨Rect.unit (s := S1250x8x128) ![0, 0, 0] S1250x8x128.size inb_S1250x8x128_S1250x8x128_0_0_0, p⟩]) = p := by
  refine (View.read_writes_eq_canon _ _ _ (fun y => ⟨_, List.mem_singleton_self _,
    View.mem_set_unit_zero hz3 inb_S1250x8x128_S1250x8x128_0_0_0 y⟩)).trans ?_
  rw [View.canon_unit_zero hz3]

/-- The counts' zero store stores the same zeros as the sums'. -/
theorem pay3_eq_zeros : (k1_pay3 (F := F)) = zeros := rfl

/-- A fixed later grid point, and that the body's condition fails there. -/
def iLater : grid1.Coords := grid1.coords ⟨1, by decide⟩
theorem hc_later : ¬cond1_0 iLater := fun h => absurd ((hcond1_0 ⟨1, by decide⟩).mp h) (by decide)

set_option maxHeartbeats 4000000 in
/-- The two zero stores, before any continuation: each accumulator ends at one store of zeros over what it held. -/
theorem wp_zeroStores (𝒱₀ : Variants) (c : Dev nD)
    (arg3 : Memref sig .tc .vmem S1250x8x128 .f32) (harg3 : arg3.IsWhole) (arg4 : Memref sig .tc .vmem S1250x8x128 .f32) (harg4 : arg4.IsWhole)
    (x3 x4 : Vec F S1250x8x128 .f32) (E : Set Name) (Q : PUnit → sProp 𝕄) :
    iprop((arg3.view.loc (c : Thread nD τ) ↦[arg3.view.set]{fullShare} harg3.unread x3)
        ∗ (arg4.view.loc (c : Thread nD τ) ↦[arg4.view.set]{fullShare} harg4.unread x4)
        ∗ (iprop((arg3.view.loc (c : Thread nD τ) ↦[arg3.view.set]{fullShare} arg3.view.writes (Elt F) (harg3.unread x3)
                  [⟨Rect.unit (s := S1250x8x128) ![0, 0, 0] S1250x8x128.size inb_S1250x8x128_S1250x8x128_0_0_0, k1_pay2 (F := F)⟩])
              ∗ (arg4.view.loc (c : Thread nD τ) ↦[arg4.view.set]{fullShare} arg4.view.writes (Elt F) (harg4.unread x4)
                  [⟨Rect.unit (s := S1250x8x128) ![0, 0, 0] S1250x8x128.size inb_S1250x8x128_S1250x8x128_0_0_0, k1_pay3 (F := F)⟩])) -∗ Q ⟨⟩))
      ⊢ wp frame (wpE (defs₀ (F := F)) 𝒱₀ c none) E (zeroStores arg3 arg4) Q := by
  unfold zeroStores
  iintro ⟨H3, H4, Hk⟩
  sl_exec
  sl_step
  iapply Hk
  isplitl [H3]; · iexact H3
  iexact H4

set_option maxHeartbeats 8000000 in
/-- THE BODY AT THE FIRST POINT, from the body at a later point: the two zero stores run, each accumulator then reads
    as zeros whatever it held, and the rest is the later point's run from zeros. The pieces are the later point's. -/
noncomputable def kernelRun_first (𝒱₀ : Variants) (c : Dev nD) (i : grid1.Coords)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (hc0 : cond1_0 i)
    (x1 : S1x1x128.Idx → Elt F .i32) (x2 : Vec F S128x128 .f32)
    (hr : ∀ y, InRange (x1 y)) :
    { W : PL F × PL F //
      ∀ (x3 x4 : Vec F S1250x8x128 .f32) (E : Set Name) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ (iprop(owns (c : Thread nD τ) arg1 fullShare x1 ∗ owns (c : Thread nD τ) arg2 fullShare x2
                ∗ (arg3.view.loc (c : Thread nD τ) ↦[arg3.view.set]{fullShare} arg3.view.writes (Elt F) (harg3.unread zeros) W.1)
                ∗ (arg4.view.loc (c : Thread nD τ) ↦[arg4.view.set]{fullShare} arg4.view.writes (Elt F) (harg4.unread zeros) W.2)) -∗ K ⟨⟩))
          ⊢ wp frame (wpE (defs₀ (F := F)) 𝒱₀ c none) E (cc1__scat_body i arg1 harg1 arg2 harg2 arg3 harg3 arg4 harg4) K } :=
  ⟨(kernelRun_later (Ix := Ix) (Name := Name) (U := U) (Lvl := Lvl) 𝒱₀ c iLater arg1 harg1 arg2 harg2 arg3 harg3 arg4 harg4 hc_later x1 x2 zeros zeros hr).1,
   fun x3 x4 E K => by
    rw [body_first i iLater hc0 hc_later, wp_bind]
    iintro ⟨H1, H2, H3, H4, Hk⟩
    unfold owns
    icases H3 with ⟨%f3, %hf3, H3⟩
    icases H4 with ⟨%f4, %hf4, H4⟩
    obtain rfl := harg3.eq_unread hf3; obtain rfl := harg4.eq_unread hf4
    iapply (wp_zeroStores 𝒱₀ c arg3 harg3 arg4 harg4 x3 x4 E _) $$ [H1 H2 H3 H4 Hk]
    isplitl [H3]; · iexact H3
    isplitl [H4]; · iexact H4
    iintro ⟨H3, H4⟩
    iapply ((kernelRun_later (Ix := Ix) (Name := Name) (U := U) (Lvl := Lvl) 𝒱₀ c iLater arg1 harg1 arg2 harg2 arg3 harg3 arg4 harg4 hc_later x1 x2 zeros zeros hr).2 E K) $$ [H1 H2 H3 H4 Hk]
    unfold owns
    isplitl [H1]; · iexact H1
    isplitl [H2]; · iexact H2
    isplitl [H3]
    · iexists (arg3.view.writes (Elt F) (harg3.unread x3) [⟨Rect.unit (s := S1250x8x128) ![0, 0, 0] S1250x8x128.size inb_S1250x8x128_S1250x8x128_0_0_0, k1_pay2 (F := F)⟩])
      isplitr; · ipureintro; exact read_whole_store arg3 (harg3.unread x3) (k1_pay2 (F := F))
      iexact H3
    isplitl [H4]
    · iexists (arg4.view.writes (Elt F) (harg4.unread x4) [⟨Rect.unit (s := S1250x8x128) ![0, 0, 0] S1250x8x128.size inb_S1250x8x128_S1250x8x128_0_0_0, k1_pay3 (F := F)⟩])
      isplitr; · ipureintro; exact read_whole_store arg4 (harg4.unread x4) (k1_pay3 (F := F))
      iexact H4
    iexact Hk⟩

end Cert.KI.Scat

end
-- ==== Proof.ScatChainFA.lean ====
import proofs.«202620_g33904471835419_cont_8to1_b_799_54_alg».proof.Proof.ScatRun0
import proofs.«202620_g33904471835419_cont_8to1_b_799_54_alg».proof.Proof.ScatChainLA

/-!
# The scatter region: what the first point leaves in the sums' accumulator

The first point's run is the later point's run from accumulators at zeros, after the two zero stores. So what it
leaves in the sums' accumulator reads as the point's 128 updates of the array of zeros.
-/

noncomputable section

namespace Cert.KI.Scat

open Cert.KernelIdeal Cert.KernelIdeal.Gen
open Idealize.ShloMosaic Idealize.ShloMosaic.TcCoe
open Idealize.SL Idealize.SL.RA Idealize.SL.Sem

variable {F : FTy → Type} [FloatOps F]
variable {Ix : Type} [DecidableEq Ix] {Name : Type} [DecidableEq Name] {U : Type} [URA U] {Lvl : Type} [Preorder Lvl]

/-- WHAT THE FIRST POINT LEAVES: its 128 updates of zeros. -/
theorem first_agg (c : Dev nD)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (x1 : S1x1x128.Idx → Elt F .i32) (x2 : Vec F S128x128 .f32) (hr : ∀ y, InRange (x1 y))
    (𝒱₀ : Variants) (i : grid1.Coords) (hc0 : cond1_0 i) :
    arg3.view.read (Elt F) (arg3.view.writes (Elt F) (harg3.unread zeros)
      (kernelRun_first (Ix := Ix) (Name := Name) (U := U) (Lvl := Lvl) 𝒱₀ c i arg1 harg1 arg2 harg2 arg3 harg3 arg4 harg4 hc0 x1 x2 hr).1.1)
      = chunkAgg x1 x2 zeros :=
  later_agg (Ix := Ix) (Name := Name) (U := U) (Lvl := Lvl) (c := c) (arg1 := arg1) (harg1 := harg1) (arg2 := arg2) (harg2 := harg2)
    (arg3 := arg3) (harg3 := harg3) (arg4 := arg4) (harg4 := harg4) (x1 := x1) (x2 := x2) (x3 := zeros) (x4 := zeros) (hr := hr)
    (𝒱₀ := 𝒱₀) (i := iLater) (hc0 := hc_later)

end Cert.KI.Scat

end
-- ==== Proof.ScatChainFD.lean ====
import proofs.«202620_g33904471835419_cont_8to1_b_799_54_alg».proof.Proof.ScatRun0
import proofs.«202620_g33904471835419_cont_8to1_b_799_54_alg».proof.Proof.ScatChainLD

/-!
# The scatter region: what the first point leaves in the counts' accumulator

The first point's run is the later point's run from accumulators at zeros, after the two zero stores. So what it
leaves in the counts' accumulator reads as the point's 128 updates of the array of zeros.
-/

noncomputable section

namespace Cert.KI.Scat

open Cert.KernelIdeal Cert.KernelIdeal.Gen
open Idealize.ShloMosaic Idealize.ShloMosaic.TcCoe
open Idealize.SL Idealize.SL.RA Idealize.SL.Sem

variable {F : FTy → Type} [FloatOps F]
variable {Ix : Type} [DecidableEq Ix] {Name : Type} [DecidableEq Name] {U : Type} [URA U] {Lvl : Type} [Preorder Lvl]

/-- WHAT THE FIRST POINT LEAVES: its 128 updates of zeros. -/
theorem first_deg (c : Dev nD)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (x1 : S1x1x128.Idx → Elt F .i32) (x2 : Vec F S128x128 .f32) (hr : ∀ y, InRange (x1 y))
    (𝒱₀ : Variants) (i : grid1.Coords) (hc0 : cond1_0 i) :
    arg4.view.read (Elt F) (arg4.view.writes (Elt F) (harg4.unread zeros)
      (kernelRun_first (Ix := Ix) (Name := Name) (U := U) (Lvl := Lvl) 𝒱₀ c i arg1 harg1 arg2 harg2 arg3 harg3 arg4 harg4 hc0 x1 x2 hr).1.2)
      = chunkDeg x1 zeros :=
  later_deg (Ix := Ix) (Name := Name) (U := U) (Lvl := Lvl) (c := c) (arg1 := arg1) (harg1 := harg1) (arg2 := arg2) (harg2 := harg2)
    (arg3 := arg3) (harg3 := harg3) (arg4 := arg4) (harg4 := harg4) (x1 := x1) (x2 := x2) (x3 := zeros) (x4 := zeros) (hr := hr)
    (𝒱₀ := 𝒱₀) (i := iLater) (hc0 := hc_later)

end Cert.KI.Scat

end
-- ==== Proof.ScatBodyF.lean ====
import proofs.«202620_g33904471835419_cont_8to1_b_799_54_alg».proof.Proof.ScatBodyCore
import proofs.«202620_g33904471835419_cont_8to1_b_799_54_alg».proof.Proof.ScatRun0
import proofs.«202620_g33904471835419_cont_8to1_b_799_54_alg».proof.Proof.ScatChainFA
import proofs.«202620_g33904471835419_cont_8to1_b_799_54_alg».proof.Proof.ScatChainFD

/-!
# The scatter region: the body's triple at the first point

At the first point the body stores zeros over each accumulator before its 128 edges, so whatever the accumulators
held, the run leaves each at its 128 stores over zeros; read back, the stores are the point's update of zeros.
-/

set_option maxRecDepth 16384

noncomputable section

namespace Cert.KI.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The body at the first point. -/
theorem sound_kernel1_first (𝒱₀ : Variants) : FirstTriple (F := F) (Ix := Ix) (Name := Name) (U := U) (Lvl := Lvl) 𝒱₀ := by
  intro c E i arg1 harg1 arg2 harg2 arg3 harg3 arg4 harg4 hc0 x1 x2 x3 x4 hr K
  iintro ⟨H1, H2, H3, H4, Hk⟩
  iapply ((kernelRun_first (Ix := Ix) (Name := Name) (U := U) (Lvl := Lvl) 𝒱₀ c i arg1 harg1 arg2 harg2 arg3 harg3 arg4 harg4 hc0 x1 x2 hr).2 x3 x4 E K)
  isplitl [H1]; · iexact H1
  isplitl [H2]; · iexact H2
  isplitl [H3]; · iexact H3
  isplitl [H4]; · iexact H4
  iintro ⟨H1, H2, H3, H4⟩
  iapply Hk
  isplitl [H1]; · iexact H1
  isplitl [H2]; · iexact H2
  isplitl [H3]
  · unfold owns; iexists _; isplitr
    swap; · iexact H3
    ipureintro
    exact first_agg c arg1 harg1 arg2 harg2 arg3 harg3 arg4 harg4 x1 x2 hr 𝒱₀ i hc0
  · unfold owns; iexists _; isplitr
    swap; · iexact H4
    ipureintro
    exact first_deg c arg1 harg1 arg2 harg2 arg3 harg3 arg4 harg4 x1 x2 hr 𝒱₀ i hc0

end Cert.KI.Scat

end
-- ==== Proof.ScatBody.lean ====
import proofs.«202620_g33904471835419_cont_8to1_b_799_54_alg».proof.Proof.ScatBodyL
import proofs.«202620_g33904471835419_cont_8to1_b_799_54_alg».proof.Proof.ScatBodyF

/-!
# The scatter region: the body obligation

The obligation at every grid point, from the body's two triples: where the destination words name nodes.
-/

set_option maxRecDepth 16384

noncomputable section

namespace Cert.KI.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

-- the TensorCore's buffer contents when the region is entered
variable (V : (c : Dev nD) → (b : Ref sig .tc) → Buf (Elt F) ((c : Thread nD τ).loc b))

/-- The library's body obligation for the scatter's proof data, at every point, for any bound `B` on the recorded
    pairs, where every destination word names a node. -/
theorem body1 (𝒱₀ : Variants) (ι : Ix) (c : Dev nD) (B : Set (SemLoc sig × Ix)) (hdst : ∀ i, InRange (V c main_v5 i)) :
    BodyObligation (dat1 (F := F) (Name := Name) (U := U) (Lvl := Lvl) V c B) (defs₀ (F := F)) 𝒱₀ ι Set.univ :=
  body1_of V 𝒱₀ (sound_kernel1_later 𝒱₀) (sound_kernel1_first 𝒱₀) ι c B hdst

/-- The same in the form a region record takes. -/
theorem body1_loose (𝒱₀ : Variants) (ι : Ix) (c : Dev nD) (B : Set (SemLoc sig × Ix)) (hdst : ∀ i, InRange (V c main_v5 i)) :
    Pipeline.BodyObligationLoose (dat1 (F := F) (Name := Name) (U := U) (Lvl := Lvl) V c B) (defs₀ (F := F)) 𝒱₀ ι Set.univ :=
  (body1 V 𝒱₀ ι c B hdst).loose

end Cert.KI.Scat

end
-- ==== Proof.TopScat.lean ====
/-
  The scatter region's proof data and body obligation, in the form the program's run takes them: the region's arrays at
  the entry contents, the invariant the scoped rest and the generator register, nothing owed, the recorded pairs the
  given bound; the obligation where every destination word of the region's chunks names a node.
-/
import proofs.«202620_g33904471835419_cont_8to1_b_799_54_alg».proof.Proof.TopRegions
import proofs.«202620_g33904471835419_cont_8to1_b_799_54_alg».proof.Proof.ScatBody
import proofs.«202620_g33904471835419_cont_8to1_b_799_54_alg».proof.Proof.PreTop

noncomputable section

namespace Cert.KI.Top

open Cert.KernelIdeal Cert.KernelIdeal.Gen Cert.KI.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 1) (Elt F) ℕ UU ℕ

variable (m : (ℓ : Loc nD τ sig) → Buf (Elt F) ℓ) (ρ : Dev nD → PrngReg)

/-- The scatter region, for the run. -/
def scat : Scat (F := F) where
  dat V c B := Cert.KI.Scat.dat1 (Ix := HIx 1) (Name := ℕ) (U := UU) (Lvl := ℕ) V c B
  A_eq V c B w := Cert.KI.Scat.A_eq1 V c B w
  owed V c B t := Cert.KI.Scat.owed1 V c B t
  share V c B w := Cert.KI.Scat.share1 V c B w
  recorded V c B t := Cert.KI.Scat.recorded1 V c B t
  inv V c B t := Cert.KI.Scat.Φ1 V c B t
  ok V c := ∀ i, Cert.KI.Scat.InRange (V c main_v5 i)
  body V c B h := Cert.KI.Scat.body1_loose V 𝒱₀ (none : HIx 1) c B h

/-- Under the precondition the destination words name nodes. -/
theorem scat_ok (c : Dev nD) (hpre : PreAt m c) : (scat (F := F)).ok (V3 m) c := hDST_of m c hpre

end Cert.KI.Top

end
-- ==== Proof.ScatChkK.lean ====
import proofs.«202620_g33904471835419_cont_8to1_b_799_54_alg».proof.Proof.Gen.Kernel
import Idealize.ShloMosaic.Lib.Pipeline.Frame

noncomputable section

namespace Cert.K.Scat

open Cert.Kernel Cert.Kernel.Gen
open Idealize.ShloMosaic Idealize.ShloMosaic.TcCoe

variable {F : FTy → Type} [FloatOps F]

/-! ## The side condition of the block offset computed from a destination word

Each of the 128 edges of a grid point reads its destination word `v`, takes `blk = ⌊v / 8⌋` and touches the
block `[blk, blk + 1) × [0, 8) × [0, 128)` of the two `1250 × 8 × 128` accumulators. The block is inside the
array exactly when `blk ≤ 1249`; for a word that names a node, `0 ≤ v ≤ 9999`, it is. -/

/-- The offsets' side condition at each of the ten thousand node numbers, by evaluation. -/
theorem chk_table : ∀ n : Fin 10000, k1_chk1 (BitVec.ofNat 32 n.val) := by decide +kernel

/-- A word that names a node satisfies the side condition of its block's offsets. All 128 printed conditions
    are this one up to the names of the intermediate words, so each unfolds to it. -/
theorem chk_of_range (v : BitVec 32) (h0 : 0 ≤ v.toInt) (h1 : v.toInt ≤ 9999) : k1_chk1 v := by
  have hn : v.toNat < 10000 := by
    have := BitVec.toInt_eq_toNat_cond v; split at this <;> omega
  have := chk_table ⟨v.toNat, hn⟩
  simpa [BitVec.ofNat_toNat] using this

/-- A word read off a whole SMEM block whose every word names a node, does. -/
theorem word_range {arg1 : Memref sig .tc .smem S1x1x128 .i32} (harg1 : arg1.IsWhole) {x1 : S1x1x128.Idx → Elt F .i32}
    (hr : ∀ y, 0 ≤ (x1 y).toInt ∧ (x1 y).toInt ≤ 9999) (r : LoadRect S1x1x128) (j : r.shape.Idx) :
    0 ≤ (View.readAt (Elt F) arg1.view r (harg1.unread x1) j).toInt
      ∧ (View.readAt (Elt F) arg1.view r (harg1.unread x1) j).toInt ≤ 9999 := by
  rw [View.readAt_apply, harg1.read_unread]; exact hr _

/-- The condition of the body's one `scf.if`: the grid coordinate is zero. -/
abbrev cond1_0 (i : grid1.Coords) : Prop :=
  (Scalar.cmpi .ne (Scalar.extui (Scalar.cmpi .eq (BitVec.ofNat 32 (i 0).val) 0#32)) 0#32) = 1#1

/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

end Cert.K.Scat

end
-- ==== Proof.ScatStepK.lean ====
import proofs.«202620_g33904471835419_cont_8to1_b_799_54_alg».proof.Proof.ScatChkK
import proofs.«202620_g33904471835419_cont_8to1_b_799_54_alg».proof.Proof.Gen.Kernel.Skeleton
import Idealize.ShloMosaic.Lib.Pipeline.Value

/-!
# The scatter region: one edge's update, and a point's 128

An edge with destination word `v` and message row `ρ` changes one block of each accumulator: block
`⌊v / 8⌋` of the sums becomes itself plus `ρ` in sublane `v mod 8` (the indicator of the sublane times the row,
added), the same block of the counts becomes itself plus the indicator. Here that update is a function on whole
`1250 × 8 × 128` arrays (`stepAgg`, `stepDeg`), a grid point's update is the 128 of them in edge order
(`chunkAgg`, `chunkDeg`), and the same update on the raw contents of a buffer (`stepRaw`, `stepRawDeg`:
one store of the new block over the contents) reads as the function (`read_stepRaw`, `read_stepRawDeg`).
-/

set_option maxRecDepth 16384

noncomputable section

namespace Cert.K.Scat

open Cert.Kernel Cert.Kernel.Gen
open Idealize.ShloMosaic Idealize.ShloMosaic.TcCoe

variable {F : FTy → Type} [FloatOps F]

/-! ## Rectangles -/

theorem inb_word (k : Nat) (hk : k < 128) : ∀ a, (![0, 0, k] : Fin 3 → Nat) a + S1x1x1.size a ≤ S1x1x128.size a := by
  intro a
  match a with
  | 0 => exact Nat.le_refl 1
  | 1 => exact Nat.le_refl 1
  | 2 => show k + 1 ≤ 128; omega

theorem inb_row (k : Nat) (hk : k < 128) : ∀ a, (![k, 0] : Fin 2 → Nat) a + S1x128.size a ≤ S128x128.size a := by
  intro a
  match a with
  | 0 => show k + 1 ≤ 128; omega
  | 1 => exact Nat.le_refl 128

/-- Cell `k` of the point's block of destination words. -/
abbrev rWord (k : Nat) (hk : k < 128) : Rect S1x1x128 := Rect.unit (s := S1x1x128) ![0, 0, k] S1x1x1.size (inb_word k hk)
/-- Row `k` of the point's block of message rows. -/
abbrev rRow (k : Nat) (hk : k < 128) : Rect S128x128 := Rect.unit (s := S128x128) ![k, 0] S1x128.size (inb_row k hk)
/-- The block of an accumulator the edge with destination word `w` touches. -/
abbrev rBlk (w : BitVec 32) (hw : k1_chk1 w) : Rect S1250x8x128 :=
  Rect.unit (s := S1250x8x128) (k1_off1 w) S1x8x128.size (k1_off1_inb w hw)

/-- Edge `k`'s destination word. -/
def wordOf (x1 : S1x1x128.Idx → Elt F .i32) (k : Nat) (hk : k < 128) : BitVec 32 :=
  View.ld x1 (rWord k hk) (Shape.Idx.first (show 0 < (1 : Nat) from Nat.one_pos))
/-- Edge `k`'s message row. -/
def rowOf (x2 : Vec F S128x128 .f32) (k : Nat) (hk : k < 128) : Vec F S1x128 .f32 := View.ld x2 (rRow k hk)

/-! ## One edge -/

/-- The sums after one edge: block `⌊w / 8⌋` has the row added in sublane `w mod 8`. (For a word that names
    no node the update is not defined by the program; the function leaves the array.) -/
def stepAgg (w : BitVec 32) (row : Vec F S1x128 .f32) (a : Vec F S1250x8x128 .f32) : Vec F S1250x8x128 .f32 :=
  if hw : k1_chk1 w then (rBlk w hw).overlay a (k1_pay5 w row (View.ld a (rBlk w hw))) else a

/-- The counts after one edge: block `⌊w / 8⌋` has the indicator of sublane `w mod 8` added. -/
def stepDeg (w : BitVec 32) (a : Vec F S1250x8x128 .f32) : Vec F S1250x8x128 .f32 :=
  if hw : k1_chk1 w then (rBlk w hw).overlay a (k1_pay6 (k1_pay4 (F := F) w) (View.ld a (rBlk w hw))) else a

/-! ## A point's 128 edges, in order -/

/-- The sums after the first `n` edges of a point whose words are `x1` and rows `x2`. -/
def aggUpTo (x1 : S1x1x128.Idx → Elt F .i32) (x2 : Vec F S128x128 .f32) (a : Vec F S1250x8x128 .f32) :
    (n : Nat) → n ≤ 128 → Vec F S1250x8x128 .f32
  | 0, _ => a
  | n + 1, h => stepAgg (wordOf x1 n (by omega)) (rowOf x2 n (by omega)) (aggUpTo x1 x2 a n (by omega))

/-- The counts after the first `n` edges. -/
def degUpTo (x1 : S1x1x128.Idx → Elt F .i32) (a : Vec F S1250x8x128 .f32) :
    (n : Nat) → n ≤ 128 → Vec F S1250x8x128 .f32
  | 0, _ => a
  | n + 1, h => stepDeg (wordOf x1 n (by omega)) (degUpTo x1 a n (by omega))

/-- A grid point's update of the sums, and of the counts. -/
def chunkAgg (x1 : S1x1x128.Idx → Elt F .i32) (x2 : Vec F S128x128 .f32) (a : Vec F S1250x8x128 .f32) : Vec F S1250x8x128 .f32 :=
  aggUpTo x1 x2 a 128 (Nat.le_refl _)
def chunkDeg (x1 : S1x1x128.Idx → Elt F .i32) (a : Vec F S1250x8x128 .f32) : Vec F S1250x8x128 .f32 :=
  degUpTo x1 a 128 (Nat.le_refl _)

/-- The array of zeros the first point stores over each accumulator. -/
def zeros : Vec F S1250x8x128 .f32 := k1_pay2 (F := F)

/-! ## The same on raw contents -/

/-- After one more store, a buffer reads as before with the store's rectangle replaced by its payload. -/
theorem read_writes_cons_overlay {sig : RefSig} {κ : Kind} {sp : Space} {s : Shape} {e : EltTy} {Val : EltTy → Type}
    (v : View sig κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons]
    exact View.read_slice_write_of_not_mem r _ _ _ (by rw [Rect.map_emb_univ]; exact hy)

variable (M : Memref sig .tc .vmem S1250x8x128 .f32)

/-- One edge's store into the sums' buffer: the new block written over the contents. -/
def stepRaw (w : BitVec 32) (hw : k1_chk1 w) (row : Vec F S1x128 .f32) (C : M.view.ty.Contents (Elt F)) : M.view.ty.Contents (Elt F) :=
  M.view.writes (Elt F) C
    [⟨rBlk w hw, k1_pay5 w row (View.readAt (Elt F) M.view (rBlk w hw).toLoadRect C)⟩]

/-- One edge's store into the counts' buffer. -/
def stepRawDeg (w : BitVec 32) (hw : k1_chk1 w) (C : M.view.ty.Contents (Elt F)) : M.view.ty.Contents (Elt F) :=
  M.view.writes (Elt F) C
    [⟨rBlk w hw, k1_pay6 (k1_pay4 (F := F) w) (View.readAt (Elt F) M.view (rBlk w hw).toLoadRect C)⟩]

theorem read_stepRaw (w : BitVec 32) (hw : k1_chk1 w) (row : Vec F S1x128 .f32) (C : M.view.ty.Contents (Elt F)) :
    M.view.read (Elt F) (stepRaw M w hw row C) = stepAgg w row (M.view.read (Elt F) C) := by
  unfold stepRaw stepAgg
  rw [dif_pos hw, read_writes_cons_overlay]
  rfl

theorem read_stepRawDeg (w : BitVec 32) (hw : k1_chk1 w) (C : M.view.ty.Contents (Elt F)) :
    M.view.read (Elt F) (stepRawDeg M w hw C) = stepDeg w (M.view.read (Elt F) C) := by
  unfold stepRawDeg stepDeg
  rw [dif_pos hw, read_writes_cons_overlay]
  rfl

end Cert.K.Scat

end
-- ==== Proof.ScatDataK.lean ====
import proofs.«202620_g33904471835419_cont_8to1_b_799_54_alg».proof.Proof.ScatStepK
import proofs.«202620_g33904471835419_cont_8to1_b_799_54_alg».proof.Proof.Gen.Kernel.Launch
import proofs.«202620_g33904471835419_cont_8to1_b_799_54_alg».proof.Proof.Gen.Kernel.Skeleton
import proofs.«202620_g33904471835419_cont_8to1_b_799_54_alg».proof.Proof.Gen.Kernel.Points
import Idealize.ShloMosaic.Lib.Pipeline.Value
import Idealize.ShloMosaic.Lib.Tactic

/-!
# The scatter region: its data

The scatter runs over 2500 grid points. At point `t` it is handed the point's 128 destination words and the point's
128 message rows; its two outputs, the sums and the counts, are whole arrays whose staging buffers stay in place from
point to point and are written back after the last point only. So what the body finds in an accumulator at point
`t + 1` is what it left there at point `t`; at point 0 it finds anything, and stores zeros first.

This file names the blocks, the accumulators after each point (a recursion on the point: the point's update of the
previous point's, from zeros), and the proof data of the pipeline, with what each window's buffer holds when the body
runs.
-/

set_option maxRecDepth 16384

noncomputable section

namespace Cert.K.Scat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

local notation "𝕄" => MT nD τ sig Ix (Elt F) Name U Lvl

-- the TensorCore's buffer contents when the region is entered: the parameter everything below is stated at
variable (V : (c : Dev nD) → (b : Ref sig .tc) → Buf (Elt F) ((c : Thread nD τ).loc b))

/-! ## The windows' blocks, and the accumulators point by point -/

/-- Window `w`'s block at point `t`, read off its array as the region finds it (`V`). -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The sums after point `n`: the point's 128 edges applied to the sums after point `n - 1`; to zeros at point 0. -/
def aggAt (c : Dev nD) : (n : ℕ) → n < cfg1.N → Vec F S1250x8x128 .f32
  | 0, h => chunkAgg (iblk1 V c 0 ⟨0, h⟩) (iblk1 V c 1 ⟨0, h⟩) zeros
  | n + 1, h => chunkAgg (iblk1 V c 0 ⟨n + 1, h⟩) (iblk1 V c 1 ⟨n + 1, h⟩) (aggAt c n (Nat.lt_of_succ_lt h))

/-- The counts after point `n`. -/
def degAt (c : Dev nD) : (n : ℕ) → n < cfg1.N → Vec F S1250x8x128 .f32
  | 0, h => chunkDeg (iblk1 V c 0 ⟨0, h⟩) zeros
  | n + 1, h => chunkDeg (iblk1 V c 0 ⟨n + 1, h⟩) (degAt c n (Nat.lt_of_succ_lt h))

/-! ## The pipeline's proof data -/

/-- The region's invariant on core `c`: the core's scoped buffers that are no staging buffer of this pipeline, at
    some contents each, and its generator register at some state. The body uses neither. -/
def ΦS (c : Dev nD) : sProp 𝕄 :=
  iprop(Pipeline.scopedRest (Ix := Ix) (Name := Name) (U := U) (Lvl := Lvl) (Val := Elt F) spec1 c ∗ ∃ r, prngReg c r)

/-- The proof data of the scatter pipeline on core `c`: the arrays as the region finds them; after the body at point
    `t` each input's buffer still at its block, the accumulators' at the sums and counts after the point; the
    invariant untouched; nothing owed; full shares; the recorded pairs within `B` throughout. -/
def dat1 (c : Dev nD) (B : Set (SemLoc sig × Ix)) : Dat τ (Elt F) Ix Name U Lvl cfg1 c where
  A w := V c (Pipeline.arrRef spec1 w)
  after w t := match w with
    | ⟨0, _⟩ => iblk1 V c 0 t
    | ⟨1, _⟩ => iblk1 V c 1 t
    | ⟨2, _⟩ => aggAt V c t.val t.isLt
    | ⟨3, _⟩ => degAt V c t.val t.isLt
  Φ _ := ΦS c
  q _ := fullShare
  owed _ := 0
  recorded _ := B

/-- The proof data's arrays are the region-entry contents. -/
theorem A_eq1 (c : Dev nD) (B : Set (SemLoc sig × Ix)) (w : Fin cfg1.W) :
    (dat1 (Name := Name) (U := U) (Lvl := Lvl) V c B).A w = V c (Pipeline.arrRef spec1 w) := by
  dsimp only [dat1]

/-- Nothing is owed at any point, and every array is held at the full share. -/
theorem owed1 (c : Dev nD) (B : Set (SemLoc sig × Ix)) (t) : (dat1 (Name := Name) (U := U) (Lvl := Lvl) V c B).owed t = 0 := rfl
theorem share1 (c : Dev nD) (B : Set (SemLoc sig × Ix)) (w : Fin cfg1.W) :
    (dat1 (Name := Name) (U := U) (Lvl := Lvl) V c B).share w = fullShare :=
  (dat1 V c B).share_full (fun _ => rfl) w
theorem recorded1 (c : Dev nD) (B : Set (SemLoc sig × Ix)) (t) :
    (dat1 (Name := Name) (U := U) (Lvl := Lvl) (F := F) V c B).recorded t = B := rfl
theorem Φ1 (c : Dev nD) (B : Set (SemLoc sig × Ix)) (t) :
    (dat1 (Name := Name) (U := U) (Lvl := Lvl) V c B).Φ t = ΦS c := rfl

section After
variable (c : Dev nD) (B : Set (SemLoc sig × Ix)) (t : Fin cfg1.N)
local notation "𝔡" => dat1 (Name := Name) (U := U) (Lvl := Lvl) V c B

/-- What the body leaves, window by window. -/
theorem after1_0 : (𝔡).after 0 t = iblk1 V c 0 t := by dsimp only [dat1]
theorem after1_1 : (𝔡).after 1 t = iblk1 V c 1 t := by dsimp only [dat1]
theorem after1_2 : (𝔡).after 2 t = aggAt V c t.val t.isLt := by dsimp only [dat1]
theorem after1_3 : (𝔡).after 3 t = degAt V c t.val t.isLt := by dsimp only [dat1]

end After

/-! ## What the body finds in each window's buffer -/

/-- An input window holds its block at every point (it is fetched at every point). -/
theorem before1_of_0 {c : Dev nD} (dat : Dat τ (Elt F) Ix Name U Lvl cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_of_1 {c : Dev nD} (dat : Dat τ (Elt F) Ix Name U Lvl cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (B : Set (SemLoc sig × Ix)) (t : Fin cfg1.N) (d) :
    (dat1 (Name := Name) (U := U) (Lvl := Lvl) V c B).before 0 t d = iblk1 V c 0 t :=
  before1_of_0 V (dat1 V c B) (A_eq1 V c B 0) (after1_0 V c B) t d
theorem before1_1 (c : Dev nD) (B : Set (SemLoc sig × Ix)) (t : Fin cfg1.N) (d) :
    (dat1 (Name := Name) (U := U) (Lvl := Lvl) V c B).before 1 t d = iblk1 V c 1 t :=
  before1_of_1 V (dat1 V c B) (A_eq1 V c B 1) (after1_1 V c B) t d

/-- No point but the last writes an accumulator back. -/
theorem noflush_2 (t : Fin cfg1.N) (ht : t.val ≠ 0) :
    (cfg1.win 2).flush ⟨t.val - 1, Nat.lt_of_le_of_lt (Nat.sub_le _ _) t.isLt⟩ = false := by
  have hN : t.val < 2500 := t.isLt
  cases hf : (cfg1.win 2).flush ⟨t.val - 1, Nat.lt_of_le_of_lt (Nat.sub_le _ _) t.isLt⟩ with
  | false => rfl
  | true => have := (flush1_2 _).mp hf; simp only at this; omega
theorem noflush_3 (t : Fin cfg1.N) (ht : t.val ≠ 0) :
    (cfg1.win 3).flush ⟨t.val - 1, Nat.lt_of_le_of_lt (Nat.sub_le _ _) t.isLt⟩ = false := by
  have hN : t.val < 2500 := t.isLt
  cases hf : (cfg1.win 3).flush ⟨t.val - 1, Nat.lt_of_le_of_lt (Nat.sub_le _ _) t.isLt⟩ with
  | false => rfl
  | true => have := (flush1_3 _).mp hf; simp only at this; omega

section Before
variable (c : Dev nD) (B : Set (SemLoc sig × Ix)) (t : Fin cfg1.N)
local notation "𝔡" => dat1 (Name := Name) (U := U) (Lvl := Lvl) V c B

/-- At the first point an accumulator's buffer holds anything. -/
theorem before1_2_first (h0 : t.val = 0) (d) : (𝔡).before 2 t d = d :=
  (𝔡).before_out_reset 2 rfl t (.inl h0) d
theorem before1_3_first (h0 : t.val = 0) (d) : (𝔡).before 3 t d = d :=
  (𝔡).before_out_reset 3 rfl t (.inl h0) d

/-- At a later point it holds what the body left at the point before. -/
theorem before1_2_later (ht : t.val ≠ 0) (d) :
    (𝔡).before 2 t d = aggAt V c (t.val - 1) (Nat.lt_of_le_of_lt (Nat.sub_le _ _) t.isLt) :=
  ((𝔡).before_out_kept 2 rfl t ht (noflush_2 t ht) (fun _ => rfl) (fun _ _ => rfl) d).trans (after1_2 V c B _)
theorem before1_3_later (ht : t.val ≠ 0) (d) :
    (𝔡).before 3 t d = degAt V c (t.val - 1) (Nat.lt_of_le_of_lt (Nat.sub_le _ _) t.isLt) :=
  ((𝔡).before_out_kept 3 rfl t ht (noflush_3 t ht) (fun _ => rfl) (fun _ _ => rfl) d).trans (after1_3 V c B _)

end Before

end Cert.K.Scat

end
-- ==== Proof.ScatRunK.lean ====
import proofs.«202620_g33904471835419_cont_8to1_b_799_54_alg».proof.Proof.ScatChkK
import proofs.«202620_g33904471835419_cont_8to1_b_799_54_alg».proof.Proof.Gen.Kernel.Skeleton
import proofs.«202620_g33904471835419_cont_8to1_b_799_54_alg».proof.Proof.Gen.Kernel.Launch
import proofs.«202620_g33904471835419_cont_8to1_b_799_54_alg».proof.Proof.Gen.Kernel.Points
import Idealize.ShloMosaic.Lib.Pipeline.Value
import Idealize.ShloMosaic.Lib.Tactic

/-!
# The scatter region: the body run once, at symbolic operands

At a grid point the body is handed the point's 128 destination words (an SMEM block), the point's 128 message
rows, and the two whole `1250 × 8 × 128` accumulators. At the first point it first stores zeros over both
accumulators. Then, edge by edge, it reads the destination word `v`, takes the block `⌊v / 8⌋` of each accumulator,
adds the edge's row (in the sublane `v mod 8`) to the one and the sublane's indicator to the other, and stores the
two blocks back.

The run below goes through the whole body once for each of the two cases of the one conditional. Each store is one
piece `⟨rectangle, payload⟩` over what the accumulator held before it; what the body leaves in an accumulator is the
list of its pieces (last first) written over what it was handed. The two lists are the witnesses the run finds.
-/

set_option maxRecDepth 16384

noncomputable section

namespace Cert.K.Scat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A word names a node. -/
def InRange (w : BitVec 32) : Prop := 0 ≤ w.toInt ∧ w.toInt ≤ 9999

/-- Such a word satisfies the side condition of its block's offsets. -/
theorem chk_of_inRange (w : BitVec 32) (h : InRange w) : k1_chk1 w := chk_of_range w h.1 h.2

/-- A word read off a whole SMEM block all of whose words name nodes names one. -/
theorem inRange_word {arg1 : Memref sig .tc .smem S1x1x128 .i32} (harg1 : arg1.IsWhole) {x1 : S1x1x128.Idx → Elt F .i32}
    (hr : ∀ y, InRange (x1 y)) (r : LoadRect S1x1x128) (j : r.shape.Idx) :
    InRange (View.readAt (Elt F) arg1.view r (harg1.unread x1) j) :=
  word_range harg1 hr r j

/-- The pieces stored into one accumulator, last first. -/
abbrev PL (F : FTy → Type) : Type := List (View.Piece (Elt F) S1250x8x128 .f32)

set_option maxHeartbeats 8000000 in
/-- THE BODY AT A LATER POINT. On whole staging memrefs — the words' at `x1`, every word naming a node, the rows' at `x2`, the accumulators' at `x3` and `x4` — the body runs to its return with the inputs as they were and each accumulator at its 128 pieces written over what it held; the pieces are the witnesses. -/
noncomputable def kernelRun_later (𝒱₀ : Variants) (c : Dev nD) (i : grid1.Coords)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (hc0 : ¬cond1_0 i)
    (x1 : S1x1x128.Idx → Elt F .i32) (x2 : Vec F S128x128 .f32) (x3 x4 : Vec F S1250x8x128 .f32)
    (hr : ∀ y, InRange (x1 y)) :
    { W : PL F × PL F //
      ∀ (E : Set Name) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ (iprop(owns (c : Thread nD τ) arg1 fullShare x1 ∗ owns (c : Thread nD τ) arg2 fullShare x2
                ∗ (arg3.view.loc (c : Thread nD τ) ↦[arg3.view.set]{fullShare} arg3.view.writes (Elt F) (harg3.unread x3) W.1)
                ∗ (arg4.view.loc (c : Thread nD τ) ↦[arg4.view.set]{fullShare} arg4.view.writes (Elt F) (harg4.unread x4) W.2)) -∗ K ⟨⟩))
          ⊢ wp frame (wpE (defs₀ (F := F)) 𝒱₀ c none) E (cc1__scat_body i arg1 harg1 arg2 harg2 arg3 harg3 arg4 harg4) K } := by
  refine ⟨⟨?_, ?_⟩, fun E K => ?run⟩
  case run =>
    simp only [cc1__scat_body_eq_skeleton]; unfold cc1__scat_body_skel
    unfold owns
    iintro ⟨⟨%f1, %hf1, H1⟩, ⟨%f2, %hf2, H2⟩, ⟨%f3, %hf3, H3⟩, ⟨%f4, %hf4, H4⟩, Hk⟩
    obtain rfl := harg1.eq_unread hf1; obtain rfl := harg2.eq_unread hf2
    obtain rfl := harg3.eq_unread hf3; obtain rfl := harg4.eq_unread hf4
    sl_exec_parts (disch := first | exact hc0 | exact chk_of_inRange _ (inRange_word harg1 hr _ _))
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    iexact H4

end Cert.K.Scat

end
-- ==== Proof.ScatBodyCoreK.lean ====
import proofs.«202620_g33904471835419_cont_8to1_b_799_54_alg».proof.Proof.ScatDataK
import proofs.«202620_g33904471835419_cont_8to1_b_799_54_alg».proof.Proof.ScatRunK

/-!
# The scatter region: the body obligation from the body's two triples

The body's triple comes in two cases. At a later point: the words' and the rows' buffers in and out at the same
contents, each accumulator from what it held to the point's update of it. At the first point: the accumulators from
anything to the point's update of zeros. Given the two triples, the obligation at a grid point is the one that applies,
at the point's blocks: at the first point an accumulator's buffer holds anything, at a later point what the body left at
the point before, which is the recursion the accumulators after each point are defined by.
-/

set_option maxRecDepth 16384

noncomputable section

namespace Cert.K.Scat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's two triples, as statements -/

/-- The body at a later point: the inputs' buffers as they were, each accumulator's at the point's update of what it held. -/
def LaterTriple (𝒱₀ : Variants) : Prop :=
  ∀ (c : Dev nD) (E : Set Name) (i : grid1.Coords)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (hc0 : ¬cond1_0 i) (x1 : S1x1x128.Idx → Elt F .i32) (x2 : Vec F S128x128 .f32) (x3 x4 : Vec F S1250x8x128 .f32)
    (hr : ∀ y, InRange (x1 y)) (K : PUnit → sProp 𝕄),
    iprop(owns (c : Thread nD τ) arg1 fullShare x1 ∗ owns (c : Thread nD τ) arg2 fullShare x2
        ∗ owns (c : Thread nD τ) arg3 fullShare x3 ∗ owns (c : Thread nD τ) arg4 fullShare x4
        ∗ (iprop(owns (c : Thread nD τ) arg1 fullShare x1 ∗ owns (c : Thread nD τ) arg2 fullShare x2
            ∗ owns (c : Thread nD τ) arg3 fullShare (chunkAgg x1 x2 x3) ∗ owns (c : Thread nD τ) arg4 fullShare (chunkDeg x1 x4)) -∗ K ⟨⟩))
      ⊢ wp frame (wpE (defs₀ (F := F)) 𝒱₀ c none) E (cc1__scat_body i arg1 harg1 arg2 harg2 arg3 harg3 arg4 harg4) K

/-- The body at the first point: each accumulator's buffer from anything to the point's update of zeros. -/
def FirstTriple (𝒱₀ : Variants) : Prop :=
  ∀ (c : Dev nD) (E : Set Name) (i : grid1.Coords)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (hc0 : cond1_0 i) (x1 : S1x1x128.Idx → Elt F .i32) (x2 : Vec F S128x128 .f32) (x3 x4 : Vec F S1250x8x128 .f32)
    (hr : ∀ y, InRange (x1 y)) (K : PUnit → sProp 𝕄),
    iprop(owns (c : Thread nD τ) arg1 fullShare x1 ∗ owns (c : Thread nD τ) arg2 fullShare x2
        ∗ owns (c : Thread nD τ) arg3 fullShare x3 ∗ owns (c : Thread nD τ) arg4 fullShare x4
        ∗ (iprop(owns (c : Thread nD τ) arg1 fullShare x1 ∗ owns (c : Thread nD τ) arg2 fullShare x2
            ∗ owns (c : Thread nD τ) arg3 fullShare (chunkAgg x1 x2 zeros) ∗ owns (c : Thread nD τ) arg4 fullShare (chunkDeg x1 zeros)) -∗ K ⟨⟩))
      ⊢ wp frame (wpE (defs₀ (F := F)) 𝒱₀ c none) E (cc1__scat_body i arg1 harg1 arg2 harg2 arg3 harg3 arg4 harg4) K

/-! ## The body obligation, at a generic point -/

-- the TensorCore's buffer contents when the region is entered
variable (V : (c : Dev nD) → (b : Ref sig .tc) → Buf (Elt F) ((c : Thread nD τ).loc b))

omit [DecidableEq Ix] [DecidableEq Name] [URA U] [Preorder Lvl] in
/-- The accumulators after a point, by the point: at the first point the update of zeros, -/
theorem aggAt_first (c : Dev nD) (t : Fin cfg1.N) (h0 : t.val = 0) :
    aggAt V c t.val t.isLt = chunkAgg (iblk1 V c 0 t) (iblk1 V c 1 t) zeros := by
  obtain ⟨n, hn⟩ := t
  cases n with
  | zero => rfl
  | succ n => exact absurd h0 (Nat.succ_ne_zero n)
omit [DecidableEq Ix] [DecidableEq Name] [URA U] [Preorder Lvl] in
theorem degAt_first (c : Dev nD) (t : Fin cfg1.N) (h0 : t.val = 0) :
    degAt V c t.val t.isLt = chunkDeg (iblk1 V c 0 t) zeros := by
  obtain ⟨n, hn⟩ := t
  cases n with
  | zero => rfl
  | succ n => exact absurd h0 (Nat.succ_ne_zero n)
omit [DecidableEq Ix] [DecidableEq Name] [URA U] [Preorder Lvl] in
/-- at a later point the update of the accumulators after the point before. -/
theorem aggAt_later (c : Dev nD) (t : Fin cfg1.N) (ht : t.val ≠ 0) :
    aggAt V c t.val t.isLt = chunkAgg (iblk1 V c 0 t) (iblk1 V c 1 t) (aggAt V c (t.val - 1) (Nat.lt_of_le_of_lt (Nat.sub_le _ _) t.isLt)) := by
  obtain ⟨n, hn⟩ := t
  cases n with
  | zero => exact absurd rfl ht
  | succ n => rfl
omit [DecidableEq Ix] [DecidableEq Name] [URA U] [Preorder Lvl] in
theorem degAt_later (c : Dev nD) (t : Fin cfg1.N) (ht : t.val ≠ 0) :
    degAt V c t.val t.isLt = chunkDeg (iblk1 V c 0 t) (degAt V c (t.val - 1) (Nat.lt_of_le_of_lt (Nat.sub_le _ _) t.isLt)) := by
  obtain ⟨n, hn⟩ := t
  cases n with
  | zero => exact absurd rfl ht
  | succ n => rfl

omit [DecidableEq Ix] [DecidableEq Name] [URA U] [Preorder Lvl] in
/-- Every word of a point's block of destination words is a word of the array. -/
theorem words_inRange (c : Dev nD) (hdst : ∀ i, InRange (V c main_v5 i)) (t : Fin cfg1.N) : ∀ y, InRange (iblk1 V c 0 t y) := by
  intro y
  unfold iblk1
  rw [View.read_apply]
  exact hdst _

/-- What the body is called with at point `t`: the invariant, what the core owes, and every window's current
    staging buffer at what it then holds, the windows one by one; -/
def bodyPre1 (c : Dev nD) (B : Set (SemLoc sig × Ix)) (ι : Ix) (t : Fin cfg1.N) : sProp 𝕄 :=
  iprop((dat1 (Name := Name) (U := U) (Lvl := Lvl) V c B).Φ t.castSucc ∗ (dat1 (Name := Name) (U := U) (Lvl := Lvl) V c B).owesAt ι t.castSucc
    ∗ (∃ d, owns (c : Thread nD τ) (st1_0 t) fullShare ((dat1 (Name := Name) (U := U) (Lvl := Lvl) V c B).before 0 t d))
    ∗ (∃ d, owns (c : Thread nD τ) (st1_1 t) fullShare ((dat1 (Name := Name) (U := U) (Lvl := Lvl) V c B).before 1 t d))
    ∗ (∃ d, owns (c : Thread nD τ) (st1_2 t) fullShare ((dat1 (Name := Name) (U := U) (Lvl := Lvl) V c B).before 2 t d))
    ∗ (∃ d, owns (c : Thread nD τ) (st1_3 t) fullShare ((dat1 (Name := Name) (U := U) (Lvl := Lvl) V c B).before 3 t d)))

/-- and what it returns. -/
def bodyPost1 (c : Dev nD) (B : Set (SemLoc sig × Ix)) (ι : Ix) (t : Fin cfg1.N) : sProp 𝕄 :=
  iprop((dat1 (Name := Name) (U := U) (Lvl := Lvl) V c B).Φ t.succ ∗ (dat1 (Name := Name) (U := U) (Lvl := Lvl) V c B).owesAt ι t.succ
    ∗ owns (c : Thread nD τ) (st1_0 t) fullShare ((dat1 (Name := Name) (U := U) (Lvl := Lvl) V c B).after 0 t)
    ∗ owns (c : Thread nD τ) (st1_1 t) fullShare ((dat1 (Name := Name) (U := U) (Lvl := Lvl) V c B).after 1 t)
    ∗ owns (c : Thread nD τ) (st1_2 t) fullShare ((dat1 (Name := Name) (U := U) (Lvl := Lvl) V c B).after 2 t)
    ∗ owns (c : Thread nD τ) (st1_3 t) fullShare ((dat1 (Name := Name) (U := U) (Lvl := Lvl) V c B).after 3 t))

set_option maxHeartbeats 1000000 in
/-- The body at any point, from the two triples: at the first point the accumulators' buffers hold anything and the
    first triple applies; at a later point they hold the accumulators after the point before and the later triple does. -/
theorem sound_body1_of (𝒱₀ : Variants) (hL : LaterTriple (F := F) (Ix := Ix) (Name := Name) (U := U) (Lvl := Lvl) 𝒱₀)
    (hF : FirstTriple (F := F) (Ix := Ix) (Name := Name) (U := U) (Lvl := Lvl) 𝒱₀)
    (ι : Ix) (c : Dev nD) (B : Set (SemLoc sig × Ix)) (hdst : ∀ i, InRange (V c main_v5 i)) (t : Fin cfg1.N) :
    bodyPre1 (Name := Name) (U := U) (Lvl := Lvl) V c B ι t
      ⊢ wp frame (wpE (defs₀ (F := F)) 𝒱₀ c none) Set.univ (bodyAt1 t) (fun _ => bodyPost1 (Name := Name) (U := U) (Lvl := Lvl) V c B ι t) := by
  unfold bodyPre1 bodyPost1 bodyAt1
  simp only [before1_0, before1_1]
  rw [show (dat1 (Name := Name) (U := U) (Lvl := Lvl) V c B).Φ t.succ = (dat1 (Name := Name) (U := U) (Lvl := Lvl) V c B).Φ t.castSucc from rfl,
    show (dat1 (Name := Name) (U := U) (Lvl := Lvl) V c B).owesAt ι t.succ = (dat1 (Name := Name) (U := U) (Lvl := Lvl) V c B).owesAt ι t.castSucc from rfl,
    after1_0, after1_1, after1_2, after1_3]
  have hr := words_inRange V c hdst t
  by_cases h0 : t.val = 0
  · have hc0 : cond1_0 (grid1.coords t) := (hcond1_0 t).mpr h0
    rw [aggAt_first V c t h0, degAt_first V c t h0]
    iintro ⟨HΦ, Ho, ⟨%d0, H0⟩, ⟨%d1, H1⟩, ⟨%d2, H2⟩, ⟨%d3, H3⟩⟩
    iapply (hF c Set.univ (grid1.coords t) _ _ _ _ _ _ _ _ hc0 (iblk1 V c 0 t) (iblk1 V c 1 t) _ _ hr _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hc0 : ¬cond1_0 (grid1.coords t) := fun h => h0 ((hcond1_0 t).mp h)
    simp only [before1_2_later V c B t h0, before1_3_later V c B t h0]
    rw [aggAt_later V c t h0, degAt_later V c t h0]
    iintro ⟨HΦ, Ho, ⟨%d0, H0⟩, ⟨%d1, H1⟩, ⟨%d2, H2⟩, ⟨%d3, H3⟩⟩
    iapply (hL c Set.univ (grid1.coords t) _ _ _ _ _ _ _ _ hc0 (iblk1 V c 0 t) (iblk1 V c 1 t) _ _ hr _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point, for any bound `B` on the recorded pairs, where the destination
    words name nodes. -/
theorem body1_of (𝒱₀ : Variants) (hL : LaterTriple (F := F) (Ix := Ix) (Name := Name) (U := U) (Lvl := Lvl) 𝒱₀)
    (hF : FirstTriple (F := F) (Ix := Ix) (Name := Name) (U := U) (Lvl := Lvl) 𝒱₀)
    (ι : Ix) (c : Dev nD) (B : Set (SemLoc sig × Ix)) (hdst : ∀ i, InRange (V c main_v5 i)) :
    BodyObligation (dat1 (F := F) (Name := Name) (U := U) (Lvl := Lvl) V c B) (defs₀ (F := F)) 𝒱₀ ι Set.univ := fun t => by
  rw [bigSep_W1, bigSep_W1]
  exact sound_body1_of V 𝒱₀ hL hF ι c B hdst t

end Cert.K.Scat

end
-- ==== Proof.ScatSpellK.lean ====
import proofs.«202620_g33904471835419_cont_8to1_b_799_54_alg».proof.Proof.ScatRunK
import proofs.«202620_g33904471835419_cont_8to1_b_799_54_alg».proof.Proof.ScatStepK

/-!
# The scatter region: a point's words and rows as the run spells them

The run reads edge `k`'s destination word and row off the raw contents of the two input staging buffers; read
through the buffers' views they are `wordOf` and `rowOf` of what the buffers hold.
-/

set_option maxRecDepth 16384

noncomputable section

namespace Cert.K.Scat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Spell
variable (arg1 : Memref sig .tc .smem S1x1x128 .i32) (harg1 : arg1.IsWhole) (arg2 : Memref sig .tc .vmem S128x128 .f32) (harg2 : arg2.IsWhole)
  (x1 : S1x1x128.Idx → Elt F .i32) (x2 : Vec F S128x128 .f32)

/-- Edge `k`'s destination word as the run reads it off the SMEM block. -/
abbrev wR (k : Nat) (hk : k < 128) : BitVec 32 :=
  View.readAt (Elt F) arg1.view (rWord k hk).toLoadRect (harg1.unread x1) (Shape.Idx.first (show 0 < (1 : Nat) from Nat.one_pos))
/-- Its side condition. -/
theorem hwR (hr : ∀ y, InRange (x1 y)) (k : Nat) (hk : k < 128) : k1_chk1 (wR arg1 harg1 x1 k hk) :=
  chk_of_inRange _ (inRange_word harg1 hr _ _)
/-- Edge `k`'s row as the run loads it. -/
abbrev rowR (k : Nat) (hk : k < 128) : Vec F S1x128 .f32 :=
  View.readAt (Elt F) arg2.view (rRow k hk).toLoadRect (harg2.unread x2)
end Spell

end Cert.K.Scat

end
-- ==== Proof.ScatChainLAK.lean ====
import proofs.«202620_g33904471835419_cont_8to1_b_799_54_alg».proof.Proof.ScatSpellK

/-!
# The scatter region: what a later point leaves in the sums' accumulator

Edge by edge, the contents the run's pieces leave read as the first `k` edges' updates of what the accumulator
held: each step is one store of the edge's new block (by unfolding), read through the view.
-/

set_option maxRecDepth 16384

noncomputable section

namespace Cert.K.Scat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

section Chain

variable (c : Dev nD)
  (arg1 : Memref sig .tc .smem S1x1x128 .i32) (harg1 : arg1.IsWhole) (arg2 : Memref sig .tc .vmem S128x128 .f32) (harg2 : arg2.IsWhole)
  (arg3 : Memref sig .tc .vmem S1250x8x128 .f32) (harg3 : arg3.IsWhole) (arg4 : Memref sig .tc .vmem S1250x8x128 .f32) (harg4 : arg4.IsWhole)
  (x1 : S1x1x128.Idx → Elt F .i32) (x2 : Vec F S128x128 .f32) (x3 x4 : Vec F S1250x8x128 .f32) (hr : ∀ y, InRange (x1 y))
  (𝒱₀ : Variants) (i : grid1.Coords) (hc0 : ¬cond1_0 i)

local notation "X1" => arg1.view.read (Elt F) (harg1.unread x1)
local notation "X2" => arg2.view.read (Elt F) (harg2.unread x2)

theorem aggL_1 : arg3.view.read (Elt F) (arg3.view.writes (Elt F) (harg3.unread x3) (kernelRun_later.sl.H3_1 c arg1 harg1 arg2 harg2 arg3 harg3 x1 x2 x3 hr)) = aggUpTo X1 X2 x3 1 (by decide) := by
  have step : arg3.view.writes (Elt F) (harg3.unread x3) (kernelRun_later.sl.H3_1 c arg1 harg1 arg2 harg2 arg3 harg3 x1 x2 x3 hr)
      = stepRaw arg3 (wR arg1 harg1 x1 0 (by decide)) (hwR arg1 harg1 x1 hr 0 (by decide)) (rowR arg2 harg2 x2 0 (by decide)) (harg3.unread x3) := rfl
  rw [step, read_stepRaw, harg3.read_unread]; rfl

theorem aggL_2 : arg3.view.read (Elt F) (arg3.view.writes (Elt F) (harg3.unread x3) (kernelRun_later.sl.H3_2 c arg1 harg1 arg2 harg2 arg3 harg3 x1 x2 x3 hr)) = aggUpTo X1 X2 x3 2 (by decide) := by
  have step : arg3.view.writes (Elt F) (harg3.unread x3) (kernelRun_later.sl.H3_2 c arg1 harg1 arg2 harg2 arg3 harg3 x1 x2 x3 hr)
      = stepRaw arg3 (wR arg1 harg1 x1 1 (by decide)) (hwR arg1 harg1 x1 hr 1 (by decide)) (rowR arg2 harg2 x2 1 (by decide)) (arg3.view.writes (Elt F) (harg3.unread x3) (kernelRun_later.sl.H3_1 c arg1 harg1 arg2 harg2 arg3 harg3 x1 x2 x3 hr)) := rfl
  rw [step, read_stepRaw, aggL_1]; rfl

theorem aggL_3 : arg3.view.read (Elt F) (arg3.view.writes (Elt F) (harg3.unread x3) (kernelRun_later.sl.H3_3 c arg1 harg1 arg2 harg2 arg3 harg3 x1 x2 x3 hr)) = aggUpTo X1 X2 x3 3 (by decide) := by
  have step : arg3.view.writes (Elt F) (harg3.unread x3) (kernelRun_later.sl.H3_3 c arg1 harg1 arg2 harg2 arg3 harg3 x1 x2 x3 hr)
      = stepRaw arg3 (wR arg1 harg1 x1 2 (by decide)) (hwR arg1 harg1 x1 hr 2 (by decide)) (rowR arg2 harg2 x2 2 (by decide)) (arg3.view.writes (Elt F) (harg3.unread x3) (kernelRun_later.sl.H3_2 c arg1 harg1 arg2 harg2 arg3 harg3 x1 x2 x3 hr)) := rfl
  rw [step, read_stepRaw, aggL_2]; rfl

theorem aggL_4 : arg3.view.read (Elt F) (arg3.view.writes (Elt F) (harg3.unread x3) (kernelRun_later.sl.H3_4 c arg1 harg1 arg2 harg2 arg3 harg3 x1 x2 x3 hr)) = aggUpTo X1 X2 x3 4 (by decide) := by
  have step : arg3.view.writes (Elt F) (harg3.unread x3) (kernelRun_later.sl.H3_4 c arg1 harg1 arg2 harg2 arg3 harg3 x1 x2 x3 hr)
      = stepRaw arg3 (wR arg1 harg1 x1 3 (by decide)) (hwR arg1 harg1 x1 hr 3 (by decide)) (rowR arg2 harg2 x2 3 (by decide)) (arg3.view.writes (Elt F) (harg3.unread x3) (kernelRun_later.sl.H3_3 c arg1 harg1 arg2 harg2 arg3 harg3 x1 x2 x3 hr)) := rfl
  rw [step, read_stepRaw, aggL_3]; rfl

theorem aggL_5 : arg3.view.read (Elt F) (arg3.view.writes (Elt F) (harg3.unread x3) (kernelRun_later.sl.H3_5 c arg1 harg1 arg2 harg2 arg3 harg3 x1 x2 x3 hr)) = aggUpTo X1 X2 x3 5 (by decide) := by
  have step : arg3.view.writes (Elt F) (harg3.unread x3) (kernelRun_later.sl.H3_5 c arg1 harg1 arg2 harg2 arg3 harg3 x1 x2 x3 hr)
      = stepRaw arg3 (wR arg1 harg1 x1 4 (by decide)) (hwR arg1 harg1 x1 hr 4 (by decide)) (rowR arg2 harg2 x2 4 (by decide)) (arg3.view.writes (Elt F) (harg3.unread x3) (kernelRun_later.sl.H3_4 c arg1 harg1 arg2 harg2 arg3 harg3 x1 x2 x3 hr)) := rfl
  rw [step, read_stepRaw, aggL_4]; rfl

theorem aggL_6 : arg3.view.read (Elt F) (arg3.view.writes (Elt F) (harg3.unread x3) (kernelRun_later.sl.H3_6 c arg1 harg1 arg2 harg2 arg3 harg3 x1 x2 x3 hr)) = aggUpTo X1 X2 x3 6 (by decide) := by
  have step : arg3.view.writes (Elt F) (harg3.unread x3) (kernelRun_later.sl.H3_6 c arg1 harg1 arg2 harg2 arg3 harg3 x1 x2 x3 hr)
      = stepRaw arg3 (wR arg1 harg1 x1 5 (by decide)) (hwR arg1 harg1 x1 hr 5 (by decide)) (rowR arg2 harg2 x2 5 (by decide)) (arg3.view.writes (Elt F) (harg3.unread x3) (kernelRun_later.sl.H3_5 c arg1 harg1 arg2 harg2 arg3 harg3 x1 x2 x3 hr)) := rfl
  rw [step, read_stepRaw, aggL_5]; rfl

theorem aggL_7 : arg3.view.read (Elt F) (arg3.view.writes (Elt F) (harg3.unread x3) (kernelRun_later.sl.H3_7 c arg1 harg1 arg2 harg2 arg3 harg3 x1 x2 x3 hr)) = aggUpTo X1 X2 x3 7 (by decide) := by
  have step : arg3.view.writes (Elt F) (harg3.unread x3) (kernelRun_later.sl.H3_7 c arg1 harg1 arg2 harg2 arg3 harg3 x1 x2 x3 hr)
      = stepRaw arg3 (wR arg1 harg1 x1 6 (by decide)) (hwR arg1 harg1 x1 hr 6 (by decide)) (rowR arg2 harg2 x2 6 (by decide)) (arg3.view.writes (Elt F) (harg3.unread x3) (kernelRun_later.sl.H3_6 c arg1 harg1 arg2 harg2 arg3 harg3 x1 x2 x3 hr)) := rfl
  rw [step, read_stepRaw, aggL_6]; rfl

theorem aggL_8 : arg3.view.read (Elt F) (arg3.view.writes (Elt F) (harg3.unread x3) (kernelRun_later.sl.H3_8 c arg1 harg1 arg2 harg2 arg3 harg3 x1 x2 x3 hr)) = aggUpTo X1 X2 x3 8 (by decide) := by
  have step : arg3.view.writes (Elt F) (harg3.unread x3) (kernelRun_later.sl.H3_8 c arg1 harg1 arg2 harg2 arg3 harg3 x1 x2 x3 hr)
      = stepRaw arg3 (wR arg1 harg1 x1 7 (by decide)) (hwR arg1 harg1 x1 hr 7 (by decide)) (rowR arg2 harg2 x2 7 (by decide)) (arg3.view.writes (Elt F) (harg3.unread x3) (kernelRun_later.sl.H3_7 c arg1 harg1 arg2 harg2 arg3 harg3 x1 x2 x3 hr)) := rfl
  rw [step, read_stepRaw, aggL_7]; rfl

theorem aggL_9 : arg3.view.read (Elt F) (arg3.view.writes (Elt F) (harg3.unread x3) (kernelRun_later.sl.H3_9 c arg1 harg1 arg2 harg2 arg3 harg3 x1 x2 x3 hr)) = aggUpTo X1 X2 x3 9 (by decide) := by
  have step : arg3.view.writes (Elt F) (harg3.unread x3) (kernelRun_later.sl.H3_9 c arg1 harg1 arg2 harg2 arg3 harg3 x1 x2 x3 hr)
      = stepRaw arg3 (wR arg1 harg1 x1 8 (by decide)) (hwR arg1 harg1 x1 hr 8 (by decide)) (rowR arg2 harg2 x2 8 (by decide)) (arg3.view.writes (Elt F) (harg3.unread x3) (kernelRun_later.sl.H3_8 c arg1 harg1 arg2 harg2 arg3 harg3 x1 x2 x3 hr)) := rfl
  rw [step, read_stepRaw, aggL_8]; rfl

theorem aggL_10 : arg3.view.read (Elt F) (arg3.view.writes (Elt F) (harg3.unread x3) (kernelRun_later.sl.H3_10 c arg1 harg1 arg2 harg2 arg3 harg3 x1 x2 x3 hr)) = aggUpTo X1 X2 x3 10 (by decide) := by
  have step : arg3.view.writes (Elt F) (harg3.unread x3) (kernelRun_later.sl.H3_10 c arg1 harg1 arg2 harg2 arg3 harg3 x1 x2 x3 hr)
      = stepRaw arg3 (wR arg1 harg1 x1 9 (by decide)) (hwR arg1 harg1 x1 hr 9 (by decide)) (rowR arg2 harg2 x2 9 (by decide)) (arg3.view.writes (Elt F) (harg3.unread x3) (kernelRun_later.sl.H3_9 c arg1 harg1 arg2 harg2 arg3 harg3 x1 x2 x3 hr)) := rfl
  rw [step, read_stepRaw, aggL_9]; rfl

theorem aggL_11 : arg3.view.read (Elt F) (arg3.view.writes (Elt F) (harg3.unread x3) (kernelRun_later.sl.H3_11 c arg1 harg1 arg2 harg2 arg3 harg3 x1 x2 x3 hr)) = aggUpTo X1 X2 x3 11 (by decide) := by
  have step : arg3.view.writes (Elt F) (harg3.unread x3) (kernelRun_later.sl.H3_11 c arg1 harg1 arg2 harg2 arg3 harg3 x1 x2 x3 hr)
      = stepRaw arg3 (wR arg1 harg1 x1 10 (by decide)) (hwR arg1 harg1 x1 hr 10 (by decide)) (rowR arg2 harg2 x2 10 (by decide)) (arg3.view.writes (Elt F) (harg3.unread x3) (kernelRun_later.sl.H3_10 c arg1 harg1 arg2 harg2 arg3 harg3 x1 x2 x3 hr)) := rfl
  rw [step, read_stepRaw, aggL_10]; rfl

theorem aggL_12 : arg3.view.read (Elt F) (arg3.view.writes (Elt F) (harg3.unread x3) (kernelRun_later.sl.H3_12 c arg1 harg1 arg2 harg2 arg3 harg3 x1 x2 x3 hr)) = aggUpTo X1 X2 x3 12 (by decide) := by
  have step : arg3.view.writes (Elt F) (harg3.unread x3) (kernelRun_later.sl.H3_12 c arg1 harg1 arg2 harg2 arg3 harg3 x1 x2 x3 hr)
      = stepRaw arg3 (wR arg1 harg1 x1 11 (by decide)) (hwR arg1 harg1 x1 hr 11 (by decide)) (rowR arg2 harg2 x2 11 (by decide)) (arg3.view.writes (Elt F) (harg3.unread x3) (kernelRun_later.sl.H3_11 c arg1 harg1 arg2 harg2 arg3 harg3 x1 x2 x3 hr)) := rfl
  rw [step, read_stepRaw, aggL_11]; rfl

theorem aggL_13 : arg3.view.read (Elt F) (arg3.view.writes (Elt F) (harg3.unread x3) (kernelRun_later.sl.H3_13 c arg1 harg1 arg2 harg2 arg3 harg3 x1 x2 x3 hr)) = aggUpTo X1 X2 x3 13 (by decide) := by
  have step : arg3.view.writes (Elt F) (harg3.unread x3) (kernelRun_later.sl.H3_13 c arg1 harg1 arg2 harg2 arg3 harg3 x1 x2 x3 hr)
      = stepRaw arg3 (wR arg1 harg1 x1 12 (by decide)) (hwR arg1 harg1 x1 hr 12 (by decide)) (rowR arg2 harg2 x2 12 (by decide)) (arg3.view.writes (Elt F) (harg3.unread x3) (kernelRun_later.sl.H3_12 c arg1 harg1 arg2 harg2 arg3 harg3 x1 x2 x3 hr)) := rfl
  rw [step, read_stepRaw, aggL_12]; rfl

theorem aggL_14 : arg3.view.read (Elt F) (arg3.view.writes (Elt F) (harg3.unread x3) (kernelRun_later.sl.H3_14 c arg1 harg1 arg2 harg2 arg3 harg3 x1 x2 x3 hr)) = aggUpTo X1 X2 x3 14 (by decide) := by
  have step : arg3.view.writes (Elt F) (harg3.unread x3) (kernelRun_later.sl.H3_14 c arg1 harg1 arg2 harg2 arg3 harg3 x1 x2 x3 hr)
      = stepRaw arg3 (wR arg1 harg1 x1 13 (by decide)) (hwR arg1 harg1 x1 hr 13 (by decide)) (rowR arg2 harg2 x2 13 (by decide)) (arg3.view.writes (Elt F) (harg3.unread x3) (kernelRun_later.sl.H3_13 c arg1 harg1 arg2 harg2 arg3 harg3 x1 x2 x3 hr)) := rfl
  rw [step, read_stepRaw, aggL_13]; rfl

theorem aggL_15 : arg3.view.read (Elt F) (arg3.view.writes (Elt F) (harg3.unread x3) (kernelRun_later.sl.H3_15 c arg1 harg1 arg2 harg2 arg3 harg3 x1 x2 x3 hr)) = aggUpTo X1 X2 x3 15 (by decide) := by
  have step : arg3.view.writes (Elt F) (harg3.unread x3) (kernelRun_later.sl.H3_15 c arg1 harg1 arg2 harg2 arg3 harg3 x1 x2 x3 hr)
      = stepRaw arg3 (wR arg1 harg1 x1 14 (by decide)) (hwR arg1 harg1 x1 hr 14 (by decide)) (rowR arg2 harg2 x2 14 (by decide)) (arg3.view.writes (Elt F) (harg3.unread x3) (kernelRun_later.sl.H3_14 c arg1 harg1 arg2 harg2 arg3 harg3 x1 x2 x3 hr)) := rfl
  rw [step, read_stepRaw, aggL_14]; rfl

theorem aggL_16 : arg3.view.read (Elt F) (arg3.view.writes (Elt F) (harg3.unread x3) (kernelRun_later.sl.H3_16 c arg1 harg1 arg2 harg2 arg3 harg3 x1 x2 x3 hr)) = aggUpTo X1 X2 x3 16 (by decide) := by
  have step : arg3.view.writes (Elt F) (harg3.unread x3) (kernelRun_later.sl.H3_16 c arg1 harg1 arg2 harg2 arg3 harg3 x1 x2 x3 hr)
      = stepRaw arg3 (wR arg1 harg1 x1 15 (by decide)) (hwR arg1 harg1 x1 hr 15 (by decide)) (rowR arg2 harg2 x2 15 (by decide)) (arg3.view.writes (Elt F) (harg3.unread x3) (kernelRun_later.sl.H3_15 c arg1 harg1 arg2 harg2 arg3 harg3 x1 x2 x3 hr)) := rfl
  rw [step, read_stepRaw, aggL_15]; rfl

theorem aggL_17 : arg3.view.read (Elt F) (arg3.view.writes (Elt F) (harg3.unread x3) (kernelRun_later.sl.H3_17 c arg1 harg1 arg2 harg2 arg3 harg3 x1 x2 x3 hr)) = aggUpTo X1 X2 x3 17 (by decide) := by
  have step : arg3.view.writes (Elt F) (harg3.unread x3) (kernelRun_later.sl.H3_17 c arg1 harg1 arg2 harg2 arg3 harg3 x1 x2 x3 hr)
      = stepRaw arg3 (wR arg1 harg1 x1 16 (by decide)) (hwR arg1 harg1 x1 hr 16 (by decide)) (rowR arg2 harg2 x2 16 (by decide)) (arg3.view.writes (Elt F) (harg3.unread x3) (kernelRun_later.sl.H3_16 c arg1 harg1 arg2 harg2 arg3 harg3 x1 x2 x3 hr)) := rfl
  rw [step, read_stepRaw, aggL_16]; rfl

theorem aggL_18 : arg3.view.read (Elt F) (arg3.view.writes (Elt F) (harg3.unread x3) (kernelRun_later.sl.H3_18 c arg1 harg1 arg2 harg2 arg3 harg3 x1 x2 x3 hr)) = aggUpTo X1 X2 x3 18 (by decide) := by
  have step : arg3.view.writes (Elt F) (harg3.unread x3) (kernelRun_later.sl.H3_18 c arg1 harg1 arg2 harg2 arg3 harg3 x1 x2 x3 hr)
      = stepRaw arg3 (wR arg1 harg1 x1 17 (by decide)) (hwR arg1 harg1 x1 hr 17 (by decide)) (rowR arg2 harg2 x2 17 (by decide)) (arg3.view.writes (Elt F) (harg3.unread x3) (kernelRun_later.sl.H3_17 c arg1 harg1 arg2 harg2 arg3 harg3 x1 x2 x3 hr)) := rfl
  rw [step, read_stepRaw, aggL_17]; rfl

theorem aggL_19 : arg3.view.read (Elt F) (arg3.view.writes (Elt F) (harg3.unread x3) (kernelRun_later.sl.H3_19 c arg1 harg1 arg2 harg2 arg3 harg3 x1 x2 x3 hr)) = aggUpTo X1 X2 x3 19 (by decide) := by
  have step : arg3.view.writes (Elt F) (harg3.unread x3) (kernelRun_later.sl.H3_19 c arg1 harg1 arg2 harg2 arg3 harg3 x1 x2 x3 hr)
      = stepRaw arg3 (wR arg1 harg1 x1 18 (by decide)) (hwR arg1 harg1 x1 hr 18 (by decide)) (rowR arg2 harg2 x2 18 (by decide)) (arg3.view.writes (Elt F) (harg3.unread x3) (kernelRun_later.sl.H3_18 c arg1 harg1 arg2 harg2 arg3 harg3 x1 x2 x3 hr)) := rfl
  rw [step, read_stepRaw, aggL_18]; rfl

theorem aggL_20 : arg3.view.read (Elt F) (arg3.view.writes (Elt F) (harg3.unread x3) (kernelRun_later.sl.H3_20 c arg1 harg1 arg2 harg2 arg3 harg3 x1 x2 x3 hr)) = aggUpTo X1 X2 x3 20 (by decide) := by
  have step : arg3.view.writes (Elt F) (harg3.unread x3) (kernelRun_later.sl.H3_20 c arg1 harg1 arg2 harg2 arg3 harg3 x1 x2 x3 hr)
      = stepRaw arg3 (wR arg1 harg1 x1 19 (by decide)) (hwR arg1 harg1 x1 hr 19 (by decide)) (rowR arg2 harg2 x2 19 (by decide)) (arg3.view.writes (Elt F) (harg3.unread x3) (kernelRun_later.sl.H3_19 c arg1 harg1 arg2 harg2 arg3 harg3 x1 x2 x3 hr)) := rfl
  rw [step, read_stepRaw, aggL_19]; rfl

theorem aggL_21 : arg3.view.read (Elt F) (arg3.view.writes (Elt F) (harg3.unread x3) (kernelRun_later.sl.H3_21 c arg1 harg1 arg2 harg2 arg3 harg3 x1 x2 x3 hr)) = aggUpTo X1 X2 x3 21 (by decide) := by
  have step : arg3.view.writes (Elt F) (harg3.unread x3) (kernelRun_later.sl.H3_21 c arg1 harg1 arg2 harg2 arg3 harg3 x1 x2 x3 hr)
      = stepRaw arg3 (wR arg1 harg1 x1 20 (by decide)) (hwR arg1 harg1 x1 hr 20 (by decide)) (rowR arg2 harg2 x2 20 (by decide)) (arg3.view.writes (Elt F) (harg3.unread x3) (kernelRun_later.sl.H3_20 c arg1 harg1 arg2 harg2 arg3 harg3 x1 x2 x3 hr)) := rfl
  rw [step, read_stepRaw, aggL_20]; rfl

theorem aggL_22 : arg3.view.read (Elt F) (arg3.view.writes (Elt F) (harg3.unread x3) (kernelRun_later.sl.H3_22 c arg1 harg1 arg2 harg2 arg3 harg3 x1 x2 x3 hr)) = aggUpTo X1 X2 x3 22 (by decide) := by
  have step : arg3.view.writes (Elt F) (harg3.unread x3) (kernelRun_later.sl.H3_22 c arg1 harg1 arg2 harg2 arg3 harg3 x1 x2 x3 hr)
      = stepRaw arg3 (wR arg1 harg1 x1 21 (by decide)) (hwR arg1 harg1 x1 hr 21 (by decide)) (rowR arg2 harg2 x2 21 (by decide)) (arg3.view.writes (Elt F) (harg3.unread x3) (kernelRun_later.sl.H3_21 c arg1 harg1 arg2 harg2 arg3 harg3 x1 x2 x3 hr)) := rfl
  rw [step, read_stepRaw, aggL_21]; rfl

theorem aggL_23 : arg3.view.read (Elt F) (arg3.view.writes (Elt F) (harg3.unread x3) (kernelRun_later.sl.H3_23 c arg1 harg1 arg2 harg2 arg3 harg3 x1 x2 x3 hr)) = aggUpTo X1 X2 x3 23 (by decide) := by
  have step : arg3.view.writes (Elt F) (harg3.unread x3) (kernelRun_later.sl.H3_23 c arg1 harg1 arg2 harg2 arg3 harg3 x1 x2 x3 hr)
      = stepRaw arg3 (wR arg1 harg1 x1 22 (by decide)) (hwR arg1 harg1 x1 hr 22 (by decide)) (rowR arg2 harg2 x2 22 (by decide)) (arg3.view.writes (Elt F) (harg3.unread x3) (kernelRun_later.sl.H3_22 c arg1 harg1 arg2 harg2 arg3 harg3 x1 x2 x3 hr)) := rfl
  rw [step, read_stepRaw, aggL_22]; rfl

theorem aggL_24 : arg3.view.read (Elt F) (arg3.view.writes (Elt F) (harg3.unread x3) (kernelRun_later.sl.H3_24 c arg1 harg1 arg2 harg2 arg3 harg3 x1 x2 x3 hr)) = aggUpTo X1 X2 x3 24 (by decide) := by
  have step : arg3.view.writes (Elt F) (harg3.unread x3) (kernelRun_later.sl.H3_24 c arg1 harg1 arg2 harg2 arg3 harg3 x1 x2 x3 hr)
      = stepRaw arg3 (wR arg1 harg1 x1 23 (by decide)) (hwR arg1 harg1 x1 hr 23 (by decide)) (rowR arg2 harg2 x2 23 (by decide)) (arg3.view.writes (Elt F) (harg3.unread x3) (kernelRun_later.sl.H3_23 c arg1 harg1 arg2 harg2 arg3 harg3 x1 x2 x3 hr)) := rfl
  rw [step, read_stepRaw, aggL_23]; rfl

theorem aggL_25 : arg3.view.read (Elt F) (arg3.view.writes (Elt F) (harg3.unread x3) (kernelRun_later.sl.H3_25 c arg1 harg1 arg2 harg2 arg3 harg3 x1 x2 x3 hr)) = aggUpTo X1 X2 x3 25 (by decide) := by
  have step : arg3.view.writes (Elt F) (harg3.unread x3) (kernelRun_later.sl.H3_25 c arg1 harg1 arg2 harg2 arg3 harg3 x1 x2 x3 hr)
      = stepRaw arg3 (wR arg1 harg1 x1 24 (by decide)) (hwR arg1 harg1 x1 hr 24 (by decide)) (rowR arg2 harg2 x2 24 (by decide)) (arg3.view.writes (Elt F) (harg3.unread x3) (kernelRun_later.sl.H3_24 c arg1 harg1 arg2 harg2 arg3 harg3 x1 x2 x3 hr)) := rfl
  rw [step, read_stepRaw, aggL_24]; rfl

theorem aggL_26 : arg3.view.read (Elt F) (arg3.view.writes (Elt F) (harg3.unread x3) (kernelRun_later.sl.H3_26 c arg1 harg1 arg2 harg2 arg3 harg3 x1 x2 x3 hr)) = aggUpTo X1 X2 x3 26 (by decide) := by
  have step : arg3.view.writes (Elt F) (harg3.unread x3) (kernelRun_later.sl.H3_26 c arg1 harg1 arg2 harg2 arg3 harg3 x1 x2 x3 hr)
      = stepRaw arg3 (wR arg1 harg1 x1 25 (by decide)) (hwR arg1 harg1 x1 hr 25 (by decide)) (rowR arg2 harg2 x2 25 (by decide)) (arg3.view.writes (Elt F) (harg3.unread x3) (kernelRun_later.sl.H3_25 c arg1 harg1 arg2 harg2 arg3 harg3 x1 x2 x3 hr)) := rfl
  rw [step, read_stepRaw, aggL_25]; rfl

theorem aggL_27 : arg3.view.read (Elt F) (arg3.view.writes (Elt F) (harg3.unread x3) (kernelRun_later.sl.H3_27 c arg1 harg1 arg2 harg2 arg3 harg3 x1 x2 x3 hr)) = aggUpTo X1 X2 x3 27 (by decide) := by
  have step : arg3.view.writes (Elt F) (harg3.unread x3) (kernelRun_later.sl.H3_27 c arg1 harg1 arg2 harg2 arg3 harg3 x1 x2 x3 hr)
      = stepRaw arg3 (wR arg1 harg1 x1 26 (by decide)) (hwR arg1 harg1 x1 hr 26 (by decide)) (rowR arg2 harg2 x2 26 (by decide)) (arg3.view.writes (Elt F) (harg3.unread x3) (kernelRun_later.sl.H3_26 c arg1 harg1 arg2 harg2 arg3 harg3 x1 x2 x3 hr)) := rfl
  rw [step, read_stepRaw, aggL_26]; rfl

theorem aggL_28 : arg3.view.read (Elt F) (arg3.view.writes (Elt F) (harg3.unread x3) (kernelRun_later.sl.H3_28 c arg1 harg1 arg2 harg2 arg3 harg3 x1 x2 x3 hr)) = aggUpTo X1 X2 x3 28 (by decide) := by
  have step : arg3.view.writes (Elt F) (harg3.unread x3) (kernelRun_later.sl.H3_28 c arg1 harg1 arg2 harg2 arg3 harg3 x1 x2 x3 hr)
      = stepRaw arg3 (wR arg1 harg1 x1 27 (by decide)) (hwR arg1 harg1 x1 hr 27 (by decide)) (rowR arg2 harg2 x2 27 (by decide)) (arg3.view.writes (Elt F) (harg3.unread x3) (kernelRun_later.sl.H3_27 c arg1 harg1 arg2 harg2 arg3 harg3 x1 x2 x3 hr)) := rfl
  rw [step, read_stepRaw, aggL_27]; rfl

theorem aggL_29 : arg3.view.read (Elt F) (arg3.view.writes (Elt F) (harg3.unread x3) (kernelRun_later.sl.H3_29 c arg1 harg1 arg2 harg2 arg3 harg3 x1 x2 x3 hr)) = aggUpTo X1 X2 x3 29 (by decide) := by
  have step : arg3.view.writes (Elt F) (harg3.unread x3) (kernelRun_later.sl.H3_29 c arg1 harg1 arg2 harg2 arg3 harg3 x1 x2 x3 hr)
      = stepRaw arg3 (wR arg1 harg1 x1 28 (by decide)) (hwR arg1 harg1 x1 hr 28 (by decide)) (rowR arg2 harg2 x2 28 (by decide)) (arg3.view.writes (Elt F) (harg3.unread x3) (kernelRun_later.sl.H3_28 c arg1 harg1 arg2 harg2 arg3 harg3 x1 x2 x3 hr)) := rfl
  rw [step, read_stepRaw, aggL_28]; rfl

theorem aggL_30 : arg3.view.read (Elt F) (arg3.view.writes (Elt F) (harg3.unread x3) (kernelRun_later.sl.H3_30 c arg1 harg1 arg2 harg2 arg3 harg3 x1 x2 x3 hr)) = aggUpTo X1 X2 x3 30 (by decide) := by
  have step : arg3.view.writes (Elt F) (harg3.unread x3) (kernelRun_later.sl.H3_30 c arg1 harg1 arg2 harg2 arg3 harg3 x1 x2 x3 hr)
      = stepRaw arg3 (wR arg1 harg1 x1 29 (by decide)) (hwR arg1 harg1 x1 hr 29 (by decide)) (rowR arg2 harg2 x2 29 (by decide)) (arg3.view.writes (Elt F) (harg3.unread x3) (kernelRun_later.sl.H3_29 c arg1 harg1 arg2 harg2 arg3 harg3 x1 x2 x3 hr)) := rfl
  rw [step, read_stepRaw, aggL_29]; rfl

theorem aggL_31 : arg3.view.read (Elt F) (arg3.view.writes (Elt F) (harg3.unread x3) (kernelRun_later.sl.H3_31 c arg1 harg1 arg2 harg2 arg3 harg3 x1 x2 x3 hr)) = aggUpTo X1 X2 x3 31 (by decide) := by
  have step : arg3.view.writes (Elt F) (harg3.unread x3) (kernelRun_later.sl.H3_31 c arg1 harg1 arg2 harg2 arg3 harg3 x1 x2 x3 hr)
      = stepRaw arg3 (wR arg1 harg1 x1 30 (by decide)) (hwR arg1 harg1 x1 hr 30 (by decide)) (rowR arg2 harg2 x2 30 (by decide)) (arg3.view.writes (Elt F) (harg3.unread x3) (kernelRun_later.sl.H3_30 c arg1 harg1 arg2 harg2 arg3 harg3 x1 x2 x3 hr)) := rfl
  rw [step, read_stepRaw, aggL_30]; rfl

theorem aggL_32 : arg3.view.read (Elt F) (arg3.view.writes (Elt F) (harg3.unread x3) (kernelRun_later.sl.H3_32 c arg1 harg1 arg2 harg2 arg3 harg3 x1 x2 x3 hr)) = aggUpTo X1 X2 x3 32 (by decide) := by
  have step : arg3.view.writes (Elt F) (harg3.unread x3) (kernelRun_later.sl.H3_32 c arg1 harg1 arg2 harg2 arg3 harg3 x1 x2 x3 hr)
      = stepRaw arg3 (wR arg1 harg1 x1 31 (by decide)) (hwR arg1 harg1 x1 hr 31 (by decide)) (rowR arg2 harg2 x2 31 (by decide)) (arg3.view.writes (Elt F) (harg3.unread x3) (kernelRun_later.sl.H3_31 c arg1 harg1 arg2 harg2 arg3 harg3 x1 x2 x3 hr)) := rfl
  rw [step, read_stepRaw, aggL_31]; rfl

theorem aggL_33 : arg3.view.read (Elt F) (arg3.view.writes (Elt F) (harg3.unread x3) (kernelRun_later.sl.H3_33 c arg1 harg1 arg2 harg2 arg3 harg3 x1 x2 x3 hr)) = aggUpTo X1 X2 x3 33 (by decide) := by
  have step : arg3.view.writes (Elt F) (harg3.unread x3) (kernelRun_later.sl.H3_33 c arg1 harg1 arg2 harg2 arg3 harg3 x1 x2 x3 hr)
      = stepRaw arg3 (wR arg1 harg1 x1 32 (by decide)) (hwR arg1 harg1 x1 hr 32 (by decide)) (rowR arg2 harg2 x2 32 (by decide)) (arg3.view.writes (Elt F) (harg3.unread x3) (kernelRun_later.sl.H3_32 c arg1 harg1 arg2 harg2 arg3 harg3 x1 x2 x3 hr)) := rfl
  rw [step, read_stepRaw, aggL_32]; rfl

theorem aggL_34 : arg3.view.read (Elt F) (arg3.view.writes (Elt F) (harg3.unread x3) (kernelRun_later.sl.H3_34 c arg1 harg1 arg2 harg2 arg3 harg3 x1 x2 x3 hr)) = aggUpTo X1 X2 x3 34 (by decide) := by
  have step : arg3.view.writes (Elt F) (harg3.unread x3) (kernelRun_later.sl.H3_34 c arg1 harg1 arg2 harg2 arg3 harg3 x1 x2 x3 hr)
      = stepRaw arg3 (wR arg1 harg1 x1 33 (by decide)) (hwR arg1 harg1 x1 hr 33 (by decide)) (rowR arg2 harg2 x2 33 (by decide)) (arg3.view.writes (Elt F) (harg3.unread x3) (kernelRun_later.sl.H3_33 c arg1 harg1 arg2 harg2 arg3 harg3 x1 x2 x3 hr)) := rfl
  rw [step, read_stepRaw, aggL_33]; rfl

theorem aggL_35 : arg3.view.read (Elt F) (arg3.view.writes (Elt F) (harg3.unread x3) (kernelRun_later.sl.H3_35 c arg1 harg1 arg2 harg2 arg3 harg3 x1 x2 x3 hr)) = aggUpTo X1 X2 x3 35 (by decide) := by
  have step : arg3.view.writes (Elt F) (harg3.unread x3) (kernelRun_later.sl.H3_35 c arg1 harg1 arg2 harg2 arg3 harg3 x1 x2 x3 hr)
      = stepRaw arg3 (wR arg1 harg1 x1 34 (by decide)) (hwR arg1 harg1 x1 hr 34 (by decide)) (rowR arg2 harg2 x2 34 (by decide)) (arg3.view.writes (Elt F) (harg3.unread x3) (kernelRun_later.sl.H3_34 c arg1 harg1 arg2 harg2 arg3 harg3 x1 x2 x3 hr)) := rfl
  rw [step, read_stepRaw, aggL_34]; rfl

theorem aggL_36 : arg3.view.read (Elt F) (arg3.view.writes (Elt F) (harg3.unread x3) (kernelRun_later.sl.H3_36 c arg1 harg1 arg2 harg2 arg3 harg3 x1 x2 x3 hr)) = aggUpTo X1 X2 x3 36 (by decide) := by
  have step : arg3.view.writes (Elt F) (harg3.unread x3) (kernelRun_later.sl.H3_36 c arg1 harg1 arg2 harg2 arg3 harg3 x1 x2 x3 hr)
      = stepRaw arg3 (wR arg1 harg1 x1 35 (by decide)) (hwR arg1 harg1 x1 hr 35 (by decide)) (rowR arg2 harg2 x2 35 (by decide)) (arg3.view.writes (Elt F) (harg3.unread x3) (kernelRun_later.sl.H3_35 c arg1 harg1 arg2 harg2 arg3 harg3 x1 x2 x3 hr)) := rfl
  rw [step, read_stepRaw, aggL_35]; rfl

theorem aggL_37 : arg3.view.read (Elt F) (arg3.view.writes (Elt F) (harg3.unread x3) (kernelRun_later.sl.H3_37 c arg1 harg1 arg2 harg2 arg3 harg3 x1 x2 x3 hr)) = aggUpTo X1 X2 x3 37 (by decide) := by
  have step : arg3.view.writes (Elt F) (harg3.unread x3) (kernelRun_later.sl.H3_37 c arg1 harg1 arg2 harg2 arg3 harg3 x1 x2 x3 hr)
      = stepRaw arg3 (wR arg1 harg1 x1 36 (by decide)) (hwR arg1 harg1 x1 hr 36 (by decide)) (rowR arg2 harg2 x2 36 (by decide)) (arg3.view.writes (Elt F) (harg3.unread x3) (kernelRun_later.sl.H3_36 c arg1 harg1 arg2 harg2 arg3 harg3 x1 x2 x3 hr)) := rfl
  rw [step, read_stepRaw, aggL_36]; rfl

theorem aggL_38 : arg3.view.read (Elt F) (arg3.view.writes (Elt F) (harg3.unread x3) (kernelRun_later.sl.H3_38 c arg1 harg1 arg2 harg2 arg3 harg3 x1 x2 x3 hr)) = aggUpTo X1 X2 x3 38 (by decide) := by
  have step : arg3.view.writes (Elt F) (harg3.unread x3) (kernelRun_later.sl.H3_38 c arg1 harg1 arg2 harg2 arg3 harg3 x1 x2 x3 hr)
      = stepRaw arg3 (wR arg1 harg1 x1 37 (by decide)) (hwR arg1 harg1 x1 hr 37 (by decide)) (rowR arg2 harg2 x2 37 (by decide)) (arg3.view.writes (Elt F) (harg3.unread x3) (kernelRun_later.sl.H3_37 c arg1 harg1 arg2 harg2 arg3 harg3 x1 x2 x3 hr)) := rfl
  rw [step, read_stepRaw, aggL_37]; rfl

theorem aggL_39 : arg3.view.read (Elt F) (arg3.view.writes (Elt F) (harg3.unread x3) (kernelRun_later.sl.H3_39 c arg1 harg1 arg2 harg2 arg3 harg3 x1 x2 x3 hr)) = aggUpTo X1 X2 x3 39 (by decide) := by
  have step : arg3.view.writes (Elt F) (harg3.unread x3) (kernelRun_later.sl.H3_39 c arg1 harg1 arg2 harg2 arg3 harg3 x1 x2 x3 hr)
      = stepRaw arg3 (wR arg1 harg1 x1 38 (by decide)) (hwR arg1 harg1 x1 hr 38 (by decide)) (rowR arg2 harg2 x2 38 (by decide)) (arg3.view.writes (Elt F) (harg3.unread x3) (kernelRun_later.sl.H3_38 c arg1 harg1 arg2 harg2 arg3 harg3 x1 x2 x3 hr)) := rfl
  rw [step, read_stepRaw, aggL_38]; rfl

theorem aggL_40 : arg3.view.read (Elt F) (arg3.view.writes (Elt F) (harg3.unread x3) (kernelRun_later.sl.H3_40 c arg1 harg1 arg2 harg2 arg3 harg3 x1 x2 x3 hr)) = aggUpTo X1 X2 x3 40 (by decide) := by
  have step : arg3.view.writes (Elt F) (harg3.unread x3) (kernelRun_later.sl.H3_40 c arg1 harg1 arg2 harg2 arg3 harg3 x1 x2 x3 hr)
      = stepRaw arg3 (wR arg1 harg1 x1 39 (by decide)) (hwR arg1 harg1 x1 hr 39 (by decide)) (rowR arg2 harg2 x2 39 (by decide)) (arg3.view.writes (Elt F) (harg3.unread x3) (kernelRun_later.sl.H3_39 c arg1 harg1 arg2 harg2 arg3 harg3 x1 x2 x3 hr)) := rfl
  rw [step, read_stepRaw, aggL_39]; rfl

theorem aggL_41 : arg3.view.read (Elt F) (arg3.view.writes (Elt F) (harg3.unread x3) (kernelRun_later.sl.H3_41 c arg1 harg1 arg2 harg2 arg3 harg3 x1 x2 x3 hr)) = aggUpTo X1 X2 x3 41 (by decide) := by
  have step : arg3.view.writes (Elt F) (harg3.unread x3) (kernelRun_later.sl.H3_41 c arg1 harg1 arg2 harg2 arg3 harg3 x1 x2 x3 hr)
      = stepRaw arg3 (wR arg1 harg1 x1 40 (by decide)) (hwR arg1 harg1 x1 hr 40 (by decide)) (rowR arg2 harg2 x2 40 (by decide)) (arg3.view.writes (Elt F) (harg3.unread x3) (kernelRun_later.sl.H3_40 c arg1 harg1 arg2 harg2 arg3 harg3 x1 x2 x3 hr)) := rfl
  rw [step, read_stepRaw, aggL_40]; rfl

theorem aggL_42 : arg3.view.read (Elt F) (arg3.view.writes (Elt F) (harg3.unread x3) (kernelRun_later.sl.H3_42 c arg1 harg1 arg2 harg2 arg3 harg3 x1 x2 x3 hr)) = aggUpTo X1 X2 x3 42 (by decide) := by
  have step : arg3.view.writes (Elt F) (harg3.unread x3) (kernelRun_later.sl.H3_42 c arg1 harg1 arg2 harg2 arg3 harg3 x1 x2 x3 hr)
      = stepRaw arg3 (wR arg1 harg1 x1 41 (by decide)) (hwR arg1 harg1 x1 hr 41 (by decide)) (rowR arg2 harg2 x2 41 (by decide)) (arg3.view.writes (Elt F) (harg3.unread x3) (kernelRun_later.sl.H3_41 c arg1 harg1 arg2 harg2 arg3 harg3 x1 x2 x3 hr)) := rfl
  rw [step, read_stepRaw, aggL_41]; rfl

theorem aggL_43 : arg3.view.read (Elt F) (arg3.view.writes (Elt F) (harg3.unread x3) (kernelRun_later.sl.H3_43 c arg1 harg1 arg2 harg2 arg3 harg3 x1 x2 x3 hr)) = aggUpTo X1 X2 x3 43 (by decide) := by
  have step : arg3.view.writes (Elt F) (harg3.unread x3) (kernelRun_later.sl.H3_43 c arg1 harg1 arg2 harg2 arg3 harg3 x1 x2 x3 hr)
      = stepRaw arg3 (wR arg1 harg1 x1 42 (by decide)) (hwR arg1 harg1 x1 hr 42 (by decide)) (rowR arg2 harg2 x2 42 (by decide)) (arg3.view.writes (Elt F) (harg3.unread x3) (kernelRun_later.sl.H3_42 c arg1 harg1 arg2 harg2 arg3 harg3 x1 x2 x3 hr)) := rfl
  rw [step, read_stepRaw, aggL_42]; rfl

theorem aggL_44 : arg3.view.read (Elt F) (arg3.view.writes (Elt F) (harg3.unread x3) (kernelRun_later.sl.H3_44 c arg1 harg1 arg2 harg2 arg3 harg3 x1 x2 x3 hr)) = aggUpTo X1 X2 x3 44 (by decide) := by
  have step : arg3.view.writes (Elt F) (harg3.unread x3) (kernelRun_later.sl.H3_44 c arg1 harg1 arg2 harg2 arg3 harg3 x1 x2 x3 hr)
      = stepRaw arg3 (wR arg1 harg1 x1 43 (by decide)) (hwR arg1 harg1 x1 hr 43 (by decide)) (rowR arg2 harg2 x2 43 (by decide)) (arg3.view.writes (Elt F) (harg3.unread x3) (kernelRun_later.sl.H3_43 c arg1 harg1 arg2 harg2 arg3 harg3 x1 x2 x3 hr)) := rfl
  rw [step, read_stepRaw, aggL_43]; rfl

theorem aggL_45 : arg3.view.read (Elt F) (arg3.view.writes (Elt F) (harg3.unread x3) (kernelRun_later.sl.H3_45 c arg1 harg1 arg2 harg2 arg3 harg3 x1 x2 x3 hr)) = aggUpTo X1 X2 x3 45 (by decide) := by
  have step : arg3.view.writes (Elt F) (harg3.unread x3) (kernelRun_later.sl.H3_45 c arg1 harg1 arg2 harg2 arg3 harg3 x1 x2 x3 hr)
      = stepRaw arg3 (wR arg1 harg1 x1 44 (by decide)) (hwR arg1 harg1 x1 hr 44 (by decide)) (rowR arg2 harg2 x2 44 (by decide)) (arg3.view.writes (Elt F) (harg3.unread x3) (kernelRun_later.sl.H3_44 c arg1 harg1 arg2 harg2 arg3 harg3 x1 x2 x3 hr)) := rfl
  rw [step, read_stepRaw, aggL_44]; rfl

theorem aggL_46 : arg3.view.read (Elt F) (arg3.view.writes (Elt F) (harg3.unread x3) (kernelRun_later.sl.H3_46 c arg1 harg1 arg2 harg2 arg3 harg3 x1 x2 x3 hr)) = aggUpTo X1 X2 x3 46 (by decide) := by
  have step : arg3.view.writes (Elt F) (harg3.unread x3) (kernelRun_later.sl.H3_46 c arg1 harg1 arg2 harg2 arg3 harg3 x1 x2 x3 hr)
      = stepRaw arg3 (wR arg1 harg1 x1 45 (by decide)) (hwR arg1 harg1 x1 hr 45 (by decide)) (rowR arg2 harg2 x2 45 (by decide)) (arg3.view.writes (Elt F) (harg3.unread x3) (kernelRun_later.sl.H3_45 c arg1 harg1 arg2 harg2 arg3 harg3 x1 x2 x3 hr)) := rfl
  rw [step, read_stepRaw, aggL_45]; rfl

theorem aggL_47 : arg3.view.read (Elt F) (arg3.view.writes (Elt F) (harg3.unread x3) (kernelRun_later.sl.H3_47 c arg1 harg1 arg2 harg2 arg3 harg3 x1 x2 x3 hr)) = aggUpTo X1 X2 x3 47 (by decide) := by
  have step : arg3.view.writes (Elt F) (harg3.unread x3) (kernelRun_later.sl.H3_47 c arg1 harg1 arg2 harg2 arg3 harg3 x1 x2 x3 hr)
      = stepRaw arg3 (wR arg1 harg1 x1 46 (by decide)) (hwR arg1 harg1 x1 hr 46 (by decide)) (rowR arg2 harg2 x2 46 (by decide)) (arg3.view.writes (Elt F) (harg3.unread x3) (kernelRun_later.sl.H3_46 c arg1 harg1 arg2 harg2 arg3 harg3 x1 x2 x3 hr)) := rfl
  rw [step, read_stepRaw, aggL_46]; rfl

theorem aggL_48 : arg3.view.read (Elt F) (arg3.view.writes (Elt F) (harg3.unread x3) (kernelRun_later.sl.H3_48 c arg1 harg1 arg2 harg2 arg3 harg3 x1 x2 x3 hr)) = aggUpTo X1 X2 x3 48 (by decide) := by
  have step : arg3.view.writes (Elt F) (harg3.unread x3) (kernelRun_later.sl.H3_48 c arg1 harg1 arg2 harg2 arg3 harg3 x1 x2 x3 hr)
      = stepRaw arg3 (wR arg1 harg1 x1 47 (by decide)) (hwR arg1 harg1 x1 hr 47 (by decide)) (rowR arg2 harg2 x2 47 (by decide)) (arg3.view.writes (Elt F) (harg3.unread x3) (kernelRun_later.sl.H3_47 c arg1 harg1 arg2 harg2 arg3 harg3 x1 x2 x3 hr)) := rfl
  rw [step, read_stepRaw, aggL_47]; rfl

theorem aggL_49 : arg3.view.read (Elt F) (arg3.view.writes (Elt F) (harg3.unread x3) (kernelRun_later.sl.H3_49 c arg1 harg1 arg2 harg2 arg3 harg3 x1 x2 x3 hr)) = aggUpTo X1 X2 x3 49 (by decide) := by
  have step : arg3.view.writes (Elt F) (harg3.unread x3) (kernelRun_later.sl.H3_49 c arg1 harg1 arg2 harg2 arg3 harg3 x1 x2 x3 hr)
      = stepRaw arg3 (wR arg1 harg1 x1 48 (by decide)) (hwR arg1 harg1 x1 hr 48 (by decide)) (rowR arg2 harg2 x2 48 (by decide)) (arg3.view.writes (Elt F) (harg3.unread x3) (kernelRun_later.sl.H3_48 c arg1 harg1 arg2 harg2 arg3 harg3 x1 x2 x3 hr)) := rfl
  rw [step, read_stepRaw, aggL_48]; rfl

theorem aggL_50 : arg3.view.read (Elt F) (arg3.view.writes (Elt F) (harg3.unread x3) (kernelRun_later.sl.H3_50 c arg1 harg1 arg2 harg2 arg3 harg3 x1 x2 x3 hr)) = aggUpTo X1 X2 x3 50 (by decide) := by
  have step : arg3.view.writes (Elt F) (harg3.unread x3) (kernelRun_later.sl.H3_50 c arg1 harg1 arg2 harg2 arg3 harg3 x1 x2 x3 hr)
      = stepRaw arg3 (wR arg1 harg1 x1 49 (by decide)) (hwR arg1 harg1 x1 hr 49 (by decide)) (rowR arg2 harg2 x2 49 (by decide)) (arg3.view.writes (Elt F) (harg3.unread x3) (kernelRun_later.sl.H3_49 c arg1 harg1 arg2 harg2 arg3 harg3 x1 x2 x3 hr)) := rfl
  rw [step, read_stepRaw, aggL_49]; rfl

theorem aggL_51 : arg3.view.read (Elt F) (arg3.view.writes (Elt F) (harg3.unread x3) (kernelRun_later.sl.H3_51 c arg1 harg1 arg2 harg2 arg3 harg3 x1 x2 x3 hr)) = aggUpTo X1 X2 x3 51 (by decide) := by
  have step : arg3.view.writes (Elt F) (harg3.unread x3) (kernelRun_later.sl.H3_51 c arg1 harg1 arg2 harg2 arg3 harg3 x1 x2 x3 hr)
      = stepRaw arg3 (wR arg1 harg1 x1 50 (by decide)) (hwR arg1 harg1 x1 hr 50 (by decide)) (rowR arg2 harg2 x2 50 (by decide)) (arg3.view.writes (Elt F) (harg3.unread x3) (kernelRun_later.sl.H3_50 c arg1 harg1 arg2 harg2 arg3 harg3 x1 x2 x3 hr)) := rfl
  rw [step, read_stepRaw, aggL_50]; rfl

theorem aggL_52 : arg3.view.read (Elt F) (arg3.view.writes (Elt F) (harg3.unread x3) (kernelRun_later.sl.H3_52 c arg1 harg1 arg2 harg2 arg3 harg3 x1 x2 x3 hr)) = aggUpTo X1 X2 x3 52 (by decide) := by
  have step : arg3.view.writes (Elt F) (harg3.unread x3) (kernelRun_later.sl.H3_52 c arg1 harg1 arg2 harg2 arg3 harg3 x1 x2 x3 hr)
      = stepRaw arg3 (wR arg1 harg1 x1 51 (by decide)) (hwR arg1 harg1 x1 hr 51 (by decide)) (rowR arg2 harg2 x2 51 (by decide)) (arg3.view.writes (Elt F) (harg3.unread x3) (kernelRun_later.sl.H3_51 c arg1 harg1 arg2 harg2 arg3 harg3 x1 x2 x3 hr)) := rfl
  rw [step, read_stepRaw, aggL_51]; rfl

theorem aggL_53 : arg3.view.read (Elt F) (arg3.view.writes (Elt F) (harg3.unread x3) (kernelRun_later.sl.H3_53 c arg1 harg1 arg2 harg2 arg3 harg3 x1 x2 x3 hr)) = aggUpTo X1 X2 x3 53 (by decide) := by
  have step : arg3.view.writes (Elt F) (harg3.unread x3) (kernelRun_later.sl.H3_53 c arg1 harg1 arg2 harg2 arg3 harg3 x1 x2 x3 hr)
      = stepRaw arg3 (wR arg1 harg1 x1 52 (by decide)) (hwR arg1 harg1 x1 hr 52 (by decide)) (rowR arg2 harg2 x2 52 (by decide)) (arg3.view.writes (Elt F) (harg3.unread x3) (kernelRun_later.sl.H3_52 c arg1 harg1 arg2 harg2 arg3 harg3 x1 x2 x3 hr)) := rfl
  rw [step, read_stepRaw, aggL_52]; rfl

theorem aggL_54 : arg3.view.read (Elt F) (arg3.view.writes (Elt F) (harg3.unread x3) (kernelRun_later.sl.H3_54 c arg1 harg1 arg2 harg2 arg3 harg3 x1 x2 x3 hr)) = aggUpTo X1 X2 x3 54 (by decide) := by
  have step : arg3.view.writes (Elt F) (harg3.unread x3) (kernelRun_later.sl.H3_54 c arg1 harg1 arg2 harg2 arg3 harg3 x1 x2 x3 hr)
      = stepRaw arg3 (wR arg1 harg1 x1 53 (by decide)) (hwR arg1 harg1 x1 hr 53 (by decide)) (rowR arg2 harg2 x2 53 (by decide)) (arg3.view.writes (Elt F) (harg3.unread x3) (kernelRun_later.sl.H3_53 c arg1 harg1 arg2 harg2 arg3 harg3 x1 x2 x3 hr)) := rfl
  rw [step, read_stepRaw, aggL_53]; rfl

theorem aggL_55 : arg3.view.read (Elt F) (arg3.view.writes (Elt F) (harg3.unread x3) (kernelRun_later.sl.H3_55 c arg1 harg1 arg2 harg2 arg3 harg3 x1 x2 x3 hr)) = aggUpTo X1 X2 x3 55 (by decide) := by
  have step : arg3.view.writes (Elt F) (harg3.unread x3) (kernelRun_later.sl.H3_55 c arg1 harg1 arg2 harg2 arg3 harg3 x1 x2 x3 hr)
      = stepRaw arg3 (wR arg1 harg1 x1 54 (by decide)) (hwR arg1 harg1 x1 hr 54 (by decide)) (rowR arg2 harg2 x2 54 (by decide)) (arg3.view.writes (Elt F) (harg3.unread x3) (kernelRun_later.sl.H3_54 c arg1 harg1 arg2 harg2 arg3 harg3 x1 x2 x3 hr)) := rfl
  rw [step, read_stepRaw, aggL_54]; rfl

theorem aggL_56 : arg3.view.read (Elt F) (arg3.view.writes (Elt F) (harg3.unread x3) (kernelRun_later.sl.H3_56 c arg1 harg1 arg2 harg2 arg3 harg3 x1 x2 x3 hr)) = aggUpTo X1 X2 x3 56 (by decide) := by
  have step : arg3.view.writes (Elt F) (harg3.unread x3) (kernelRun_later.sl.H3_56 c arg1 harg1 arg2 harg2 arg3 harg3 x1 x2 x3 hr)
      = stepRaw arg3 (wR arg1 harg1 x1 55 (by decide)) (hwR arg1 harg1 x1 hr 55 (by decide)) (rowR arg2 harg2 x2 55 (by decide)) (arg3.view.writes (Elt F) (harg3.unread x3) (kernelRun_later.sl.H3_55 c arg1 harg1 arg2 harg2 arg3 harg3 x1 x2 x3 hr)) := rfl
  rw [step, read_stepRaw, aggL_55]; rfl

theorem aggL_57 : arg3.view.read (Elt F) (arg3.view.writes (Elt F) (harg3.unread x3) (kernelRun_later.sl.H3_57 c arg1 harg1 arg2 harg2 arg3 harg3 x1 x2 x3 hr)) = aggUpTo X1 X2 x3 57 (by decide) := by
  have step : arg3.view.writes (Elt F) (harg3.unread x3) (kernelRun_later.sl.H3_57 c arg1 harg1 arg2 harg2 arg3 harg3 x1 x2 x3 hr)
      = stepRaw arg3 (wR arg1 harg1 x1 56 (by decide)) (hwR arg1 harg1 x1 hr 56 (by decide)) (rowR arg2 harg2 x2 56 (by decide)) (arg3.view.writes (Elt F) (harg3.unread x3) (kernelRun_later.sl.H3_56 c arg1 harg1 arg2 harg2 arg3 harg3 x1 x2 x3 hr)) := rfl
  rw [step, read_stepRaw, aggL_56]; rfl

theorem aggL_58 : arg3.view.read (Elt F) (arg3.view.writes (Elt F) (harg3.unread x3) (kernelRun_later.sl.H3_58 c arg1 harg1 arg2 harg2 arg3 harg3 x1 x2 x3 hr)) = aggUpTo X1 X2 x3 58 (by decide) := by
  have step : arg3.view.writes (Elt F) (harg3.unread x3) (kernelRun_later.sl.H3_58 c arg1 harg1 arg2 harg2 arg3 harg3 x1 x2 x3 hr)
      = stepRaw arg3 (wR arg1 harg1 x1 57 (by decide)) (hwR arg1 harg1 x1 hr 57 (by decide)) (rowR arg2 harg2 x2 57 (by decide)) (arg3.view.writes (Elt F) (harg3.unread x3) (kernelRun_later.sl.H3_57 c arg1 harg1 arg2 harg2 arg3 harg3 x1 x2 x3 hr)) := rfl
  rw [step, read_stepRaw, aggL_57]; rfl

theorem aggL_59 : arg3.view.read (Elt F) (arg3.view.writes (Elt F) (harg3.unread x3) (kernelRun_later.sl.H3_59 c arg1 harg1 arg2 harg2 arg3 harg3 x1 x2 x3 hr)) = aggUpTo X1 X2 x3 59 (by decide) := by
  have step : arg3.view.writes (Elt F) (harg3.unread x3) (kernelRun_later.sl.H3_59 c arg1 harg1 arg2 harg2 arg3 harg3 x1 x2 x3 hr)
      = stepRaw arg3 (wR arg1 harg1 x1 58 (by decide)) (hwR arg1 harg1 x1 hr 58 (by decide)) (rowR arg2 harg2 x2 58 (by decide)) (arg3.view.writes (Elt F) (harg3.unread x3) (kernelRun_later.sl.H3_58 c arg1 harg1 arg2 harg2 arg3 harg3 x1 x2 x3 hr)) := rfl
  rw [step, read_stepRaw, aggL_58]; rfl

theorem aggL_60 : arg3.view.read (Elt F) (arg3.view.writes (Elt F) (harg3.unread x3) (kernelRun_later.sl.H3_60 c arg1 harg1 arg2 harg2 arg3 harg3 x1 x2 x3 hr)) = aggUpTo X1 X2 x3 60 (by decide) := by
  have step : arg3.view.writes (Elt F) (harg3.unread x3) (kernelRun_later.sl.H3_60 c arg1 harg1 arg2 harg2 arg3 harg3 x1 x2 x3 hr)
      = stepRaw arg3 (wR arg1 harg1 x1 59 (by decide)) (hwR arg1 harg1 x1 hr 59 (by decide)) (rowR arg2 harg2 x2 59 (by decide)) (arg3.view.writes (Elt F) (harg3.unread x3) (kernelRun_later.sl.H3_59 c arg1 harg1 arg2 harg2 arg3 harg3 x1 x2 x3 hr)) := rfl
  rw [step, read_stepRaw, aggL_59]; rfl

theorem aggL_61 : arg3.view.read (Elt F) (arg3.view.writes (Elt F) (harg3.unread x3) (kernelRun_later.sl.H3_61 c arg1 harg1 arg2 harg2 arg3 harg3 x1 x2 x3 hr)) = aggUpTo X1 X2 x3 61 (by decide) := by
  have step : arg3.view.writes (Elt F) (harg3.unread x3) (kernelRun_later.sl.H3_61 c arg1 harg1 arg2 harg2 arg3 harg3 x1 x2 x3 hr)
      = stepRaw arg3 (wR arg1 harg1 x1 60 (by decide)) (hwR arg1 harg1 x1 hr 60 (by decide)) (rowR arg2 harg2 x2 60 (by decide)) (arg3.view.writes (Elt F) (harg3.unread x3) (kernelRun_later.sl.H3_60 c arg1 harg1 arg2 harg2 arg3 harg3 x1 x2 x3 hr)) := rfl
  rw [step, read_stepRaw, aggL_60]; rfl

theorem aggL_62 : arg3.view.read (Elt F) (arg3.view.writes (Elt F) (harg3.unread x3) (kernelRun_later.sl.H3_62 c arg1 harg1 arg2 harg2 arg3 harg3 x1 x2 x3 hr)) = aggUpTo X1 X2 x3 62 (by decide) := by
  have step : arg3.view.writes (Elt F) (harg3.unread x3) (kernelRun_later.sl.H3_62 c arg1 harg1 arg2 harg2 arg3 harg3 x1 x2 x3 hr)
      = stepRaw arg3 (wR arg1 harg1 x1 61 (by decide)) (hwR arg1 harg1 x1 hr 61 (by decide)) (rowR arg2 harg2 x2 61 (by decide)) (arg3.view.writes (Elt F) (harg3.unread x3) (kernelRun_later.sl.H3_61 c arg1 harg1 arg2 harg2 arg3 harg3 x1 x2 x3 hr)) := rfl
  rw [step, read_stepRaw, aggL_61]; rfl

theorem aggL_63 : arg3.view.read (Elt F) (arg3.view.writes (Elt F) (harg3.unread x3) (kernelRun_later.sl.H3_63 c arg1 harg1 arg2 harg2 arg3 harg3 x1 x2 x3 hr)) = aggUpTo X1 X2 x3 63 (by decide) := by
  have step : arg3.view.writes (Elt F) (harg3.unread x3) (kernelRun_later.sl.H3_63 c arg1 harg1 arg2 harg2 arg3 harg3 x1 x2 x3 hr)
      = stepRaw arg3 (wR arg1 harg1 x1 62 (by decide)) (hwR arg1 harg1 x1 hr 62 (by decide)) (rowR arg2 harg2 x2 62 (by decide)) (arg3.view.writes (Elt F) (harg3.unread x3) (kernelRun_later.sl.H3_62 c arg1 harg1 arg2 harg2 arg3 harg3 x1 x2 x3 hr)) := rfl
  rw [step, read_stepRaw, aggL_62]; rfl

theorem aggL_64 : arg3.view.read (Elt F) (arg3.view.writes (Elt F) (harg3.unread x3) (kernelRun_later.sl.H3_64 c arg1 harg1 arg2 harg2 arg3 harg3 x1 x2 x3 hr)) = aggUpTo X1 X2 x3 64 (by decide) := by
  have step : arg3.view.writes (Elt F) (harg3.unread x3) (kernelRun_later.sl.H3_64 c arg1 harg1 arg2 harg2 arg3 harg3 x1 x2 x3 hr)
      = stepRaw arg3 (wR arg1 harg1 x1 63 (by decide)) (hwR arg1 harg1 x1 hr 63 (by decide)) (rowR arg2 harg2 x2 63 (by decide)) (arg3.view.writes (Elt F) (harg3.unread x3) (kernelRun_later.sl.H3_63 c arg1 harg1 arg2 harg2 arg3 harg3 x1 x2 x3 hr)) := rfl
  rw [step, read_stepRaw, aggL_63]; rfl

theorem aggL_65 : arg3.view.read (Elt F) (arg3.view.writes (Elt F) (harg3.unread x3) (kernelRun_later.sl.H3_65 c arg1 harg1 arg2 harg2 arg3 harg3 x1 x2 x3 hr)) = aggUpTo X1 X2 x3 65 (by decide) := by
  have step : arg3.view.writes (Elt F) (harg3.unread x3) (kernelRun_later.sl.H3_65 c arg1 harg1 arg2 harg2 arg3 harg3 x1 x2 x3 hr)
      = stepRaw arg3 (wR arg1 harg1 x1 64 (by decide)) (hwR arg1 harg1 x1 hr 64 (by decide)) (rowR arg2 harg2 x2 64 (by decide)) (arg3.view.writes (Elt F) (harg3.unread x3) (kernelRun_later.sl.H3_64 c arg1 harg1 arg2 harg2 arg3 harg3 x1 x2 x3 hr)) := rfl
  rw [step, read_stepRaw, aggL_64]; rfl

theorem aggL_66 : arg3.view.read (Elt F) (arg3.view.writes (Elt F) (harg3.unread x3) (kernelRun_later.sl.H3_66 c arg1 harg1 arg2 harg2 arg3 harg3 x1 x2 x3 hr)) = aggUpTo X1 X2 x3 66 (by decide) := by
  have step : arg3.view.writes (Elt F) (harg3.unread x3) (kernelRun_later.sl.H3_66 c arg1 harg1 arg2 harg2 arg3 harg3 x1 x2 x3 hr)
      = stepRaw arg3 (wR arg1 harg1 x1 65 (by decide)) (hwR arg1 harg1 x1 hr 65 (by decide)) (rowR arg2 harg2 x2 65 (by decide)) (arg3.view.writes (Elt F) (harg3.unread x3) (kernelRun_later.sl.H3_65 c arg1 harg1 arg2 harg2 arg3 harg3 x1 x2 x3 hr)) := rfl
  rw [step, read_stepRaw, aggL_65]; rfl

theorem aggL_67 : arg3.view.read (Elt F) (arg3.view.writes (Elt F) (harg3.unread x3) (kernelRun_later.sl.H3_67 c arg1 harg1 arg2 harg2 arg3 harg3 x1 x2 x3 hr)) = aggUpTo X1 X2 x3 67 (by decide) := by
  have step : arg3.view.writes (Elt F) (harg3.unread x3) (kernelRun_later.sl.H3_67 c arg1 harg1 arg2 harg2 arg3 harg3 x1 x2 x3 hr)
      = stepRaw arg3 (wR arg1 harg1 x1 66 (by decide)) (hwR arg1 harg1 x1 hr 66 (by decide)) (rowR arg2 harg2 x2 66 (by decide)) (arg3.view.writes (Elt F) (harg3.unread x3) (kernelRun_later.sl.H3_66 c arg1 harg1 arg2 harg2 arg3 harg3 x1 x2 x3 hr)) := rfl
  rw [step, read_stepRaw, aggL_66]; rfl

theorem aggL_68 : arg3.view.read (Elt F) (arg3.view.writes (Elt F) (harg3.unread x3) (kernelRun_later.sl.H3_68 c arg1 harg1 arg2 harg2 arg3 harg3 x1 x2 x3 hr)) = aggUpTo X1 X2 x3 68 (by decide) := by
  have step : arg3.view.writes (Elt F) (harg3.unread x3) (kernelRun_later.sl.H3_68 c arg1 harg1 arg2 harg2 arg3 harg3 x1 x2 x3 hr)
      = stepRaw arg3 (wR arg1 harg1 x1 67 (by decide)) (hwR arg1 harg1 x1 hr 67 (by decide)) (rowR arg2 harg2 x2 67 (by decide)) (arg3.view.writes (Elt F) (harg3.unread x3) (kernelRun_later.sl.H3_67 c arg1 harg1 arg2 harg2 arg3 harg3 x1 x2 x3 hr)) := rfl
  rw [step, read_stepRaw, aggL_67]; rfl

theorem aggL_69 : arg3.view.read (Elt F) (arg3.view.writes (Elt F) (harg3.unread x3) (kernelRun_later.sl.H3_69 c arg1 harg1 arg2 harg2 arg3 harg3 x1 x2 x3 hr)) = aggUpTo X1 X2 x3 69 (by decide) := by
  have step : arg3.view.writes (Elt F) (harg3.unread x3) (kernelRun_later.sl.H3_69 c arg1 harg1 arg2 harg2 arg3 harg3 x1 x2 x3 hr)
      = stepRaw arg3 (wR arg1 harg1 x1 68 (by decide)) (hwR arg1 harg1 x1 hr 68 (by decide)) (rowR arg2 harg2 x2 68 (by decide)) (arg3.view.writes (Elt F) (harg3.unread x3) (kernelRun_later.sl.H3_68 c arg1 harg1 arg2 harg2 arg3 harg3 x1 x2 x3 hr)) := rfl
  rw [step, read_stepRaw, aggL_68]; rfl

theorem aggL_70 : arg3.view.read (Elt F) (arg3.view.writes (Elt F) (harg3.unread x3) (kernelRun_later.sl.H3_70 c arg1 harg1 arg2 harg2 arg3 harg3 x1 x2 x3 hr)) = aggUpTo X1 X2 x3 70 (by decide) := by
  have step : arg3.view.writes (Elt F) (harg3.unread x3) (kernelRun_later.sl.H3_70 c arg1 harg1 arg2 harg2 arg3 harg3 x1 x2 x3 hr)
      = stepRaw arg3 (wR arg1 harg1 x1 69 (by decide)) (hwR arg1 harg1 x1 hr 69 (by decide)) (rowR arg2 harg2 x2 69 (by decide)) (arg3.view.writes (Elt F) (harg3.unread x3) (kernelRun_later.sl.H3_69 c arg1 harg1 arg2 harg2 arg3 harg3 x1 x2 x3 hr)) := rfl
  rw [step, read_stepRaw, aggL_69]; rfl

theorem aggL_71 : arg3.view.read (Elt F) (arg3.view.writes (Elt F) (harg3.unread x3) (kernelRun_later.sl.H3_71 c arg1 harg1 arg2 harg2 arg3 harg3 x1 x2 x3 hr)) = aggUpTo X1 X2 x3 71 (by decide) := by
  have step : arg3.view.writes (Elt F) (harg3.unread x3) (kernelRun_later.sl.H3_71 c arg1 harg1 arg2 harg2 arg3 harg3 x1 x2 x3 hr)
      = stepRaw arg3 (wR arg1 harg1 x1 70 (by decide)) (hwR arg1 harg1 x1 hr 70 (by decide)) (rowR arg2 harg2 x2 70 (by decide)) (arg3.view.writes (Elt F) (harg3.unread x3) (kernelRun_later.sl.H3_70 c arg1 harg1 arg2 harg2 arg3 harg3 x1 x2 x3 hr)) := rfl
  rw [step, read_stepRaw, aggL_70]; rfl

theorem aggL_72 : arg3.view.read (Elt F) (arg3.view.writes (Elt F) (harg3.unread x3) (kernelRun_later.sl.H3_72 c arg1 harg1 arg2 harg2 arg3 harg3 x1 x2 x3 hr)) = aggUpTo X1 X2 x3 72 (by decide) := by
  have step : arg3.view.writes (Elt F) (harg3.unread x3) (kernelRun_later.sl.H3_72 c arg1 harg1 arg2 harg2 arg3 harg3 x1 x2 x3 hr)
      = stepRaw arg3 (wR arg1 harg1 x1 71 (by decide)) (hwR arg1 harg1 x1 hr 71 (by decide)) (rowR arg2 harg2 x2 71 (by decide)) (arg3.view.writes (Elt F) (harg3.unread x3) (kernelRun_later.sl.H3_71 c arg1 harg1 arg2 harg2 arg3 harg3 x1 x2 x3 hr)) := rfl
  rw [step, read_stepRaw, aggL_71]; rfl

theorem aggL_73 : arg3.view.read (Elt F) (arg3.view.writes (Elt F) (harg3.unread x3) (kernelRun_later.sl.H3_73 c arg1 harg1 arg2 harg2 arg3 harg3 x1 x2 x3 hr)) = aggUpTo X1 X2 x3 73 (by decide) := by
  have step : arg3.view.writes (Elt F) (harg3.unread x3) (kernelRun_later.sl.H3_73 c arg1 harg1 arg2 harg2 arg3 harg3 x1 x2 x3 hr)
      = stepRaw arg3 (wR arg1 harg1 x1 72 (by decide)) (hwR arg1 harg1 x1 hr 72 (by decide)) (rowR arg2 harg2 x2 72 (by decide)) (arg3.view.writes (Elt F) (harg3.unread x3) (kernelRun_later.sl.H3_72 c arg1 harg1 arg2 harg2 arg3 harg3 x1 x2 x3 hr)) := rfl
  rw [step, read_stepRaw, aggL_72]; rfl

theorem aggL_74 : arg3.view.read (Elt F) (arg3.view.writes (Elt F) (harg3.unread x3) (kernelRun_later.sl.H3_74 c arg1 harg1 arg2 harg2 arg3 harg3 x1 x2 x3 hr)) = aggUpTo X1 X2 x3 74 (by decide) := by
  have step : arg3.view.writes (Elt F) (harg3.unread x3) (kernelRun_later.sl.H3_74 c arg1 harg1 arg2 harg2 arg3 harg3 x1 x2 x3 hr)
      = stepRaw arg3 (wR arg1 harg1 x1 73 (by decide)) (hwR arg1 harg1 x1 hr 73 (by decide)) (rowR arg2 harg2 x2 73 (by decide)) (arg3.view.writes (Elt F) (harg3.unread x3) (kernelRun_later.sl.H3_73 c arg1 harg1 arg2 harg2 arg3 harg3 x1 x2 x3 hr)) := rfl
  rw [step, read_stepRaw, aggL_73]; rfl

theorem aggL_75 : arg3.view.read (Elt F) (arg3.view.writes (Elt F) (harg3.unread x3) (kernelRun_later.sl.H3_75 c arg1 harg1 arg2 harg2 arg3 harg3 x1 x2 x3 hr)) = aggUpTo X1 X2 x3 75 (by decide) := by
  have step : arg3.view.writes (Elt F) (harg3.unread x3) (kernelRun_later.sl.H3_75 c arg1 harg1 arg2 harg2 arg3 harg3 x1 x2 x3 hr)
      = stepRaw arg3 (wR arg1 harg1 x1 74 (by decide)) (hwR arg1 harg1 x1 hr 74 (by decide)) (rowR arg2 harg2 x2 74 (by decide)) (arg3.view.writes (Elt F) (harg3.unread x3) (kernelRun_later.sl.H3_74 c arg1 harg1 arg2 harg2 arg3 harg3 x1 x2 x3 hr)) := rfl
  rw [step, read_stepRaw, aggL_74]; rfl

theorem aggL_76 : arg3.view.read (Elt F) (arg3.view.writes (Elt F) (harg3.unread x3) (kernelRun_later.sl.H3_76 c arg1 harg1 arg2 harg2 arg3 harg3 x1 x2 x3 hr)) = aggUpTo X1 X2 x3 76 (by decide) := by
  have step : arg3.view.writes (Elt F) (harg3.unread x3) (kernelRun_later.sl.H3_76 c arg1 harg1 arg2 harg2 arg3 harg3 x1 x2 x3 hr)
      = stepRaw arg3 (wR arg1 harg1 x1 75 (by decide)) (hwR arg1 harg1 x1 hr 75 (by decide)) (rowR arg2 harg2 x2 75 (by decide)) (arg3.view.writes (Elt F) (harg3.unread x3) (kernelRun_later.sl.H3_75 c arg1 harg1 arg2 harg2 arg3 harg3 x1 x2 x3 hr)) := rfl
  rw [step, read_stepRaw, aggL_75]; rfl

theorem aggL_77 : arg3.view.read (Elt F) (arg3.view.writes (Elt F) (harg3.unread x3) (kernelRun_later.sl.H3_77 c arg1 harg1 arg2 harg2 arg3 harg3 x1 x2 x3 hr)) = aggUpTo X1 X2 x3 77 (by decide) := by
  have step : arg3.view.writes (Elt F) (harg3.unread x3) (kernelRun_later.sl.H3_77 c arg1 harg1 arg2 harg2 arg3 harg3 x1 x2 x3 hr)
      = stepRaw arg3 (wR arg1 harg1 x1 76 (by decide)) (hwR arg1 harg1 x1 hr 76 (by decide)) (rowR arg2 harg2 x2 76 (by decide)) (arg3.view.writes (Elt F) (harg3.unread x3) (kernelRun_later.sl.H3_76 c arg1 harg1 arg2 harg2 arg3 harg3 x1 x2 x3 hr)) := rfl
  rw [step, read_stepRaw, aggL_76]; rfl

theorem aggL_78 : arg3.view.read (Elt F) (arg3.view.writes (Elt F) (harg3.unread x3) (kernelRun_later.sl.H3_78 c arg1 harg1 arg2 harg2 arg3 harg3 x1 x2 x3 hr)) = aggUpTo X1 X2 x3 78 (by decide) := by
  have step : arg3.view.writes (Elt F) (harg3.unread x3) (kernelRun_later.sl.H3_78 c arg1 harg1 arg2 harg2 arg3 harg3 x1 x2 x3 hr)
      = stepRaw arg3 (wR arg1 harg1 x1 77 (by decide)) (hwR arg1 harg1 x1 hr 77 (by decide)) (rowR arg2 harg2 x2 77 (by decide)) (arg3.view.writes (Elt F) (harg3.unread x3) (kernelRun_later.sl.H3_77 c arg1 harg1 arg2 harg2 arg3 harg3 x1 x2 x3 hr)) := rfl
  rw [step, read_stepRaw, aggL_77]; rfl

theorem aggL_79 : arg3.view.read (Elt F) (arg3.view.writes (Elt F) (harg3.unread x3) (kernelRun_later.sl.H3_79 c arg1 harg1 arg2 harg2 arg3 harg3 x1 x2 x3 hr)) = aggUpTo X1 X2 x3 79 (by decide) := by
  have step : arg3.view.writes (Elt F) (harg3.unread x3) (kernelRun_later.sl.H3_79 c arg1 harg1 arg2 harg2 arg3 harg3 x1 x2 x3 hr)
      = stepRaw arg3 (wR arg1 harg1 x1 78 (by decide)) (hwR arg1 harg1 x1 hr 78 (by decide)) (rowR arg2 harg2 x2 78 (by decide)) (arg3.view.writes (Elt F) (harg3.unread x3) (kernelRun_later.sl.H3_78 c arg1 harg1 arg2 harg2 arg3 harg3 x1 x2 x3 hr)) := rfl
  rw [step, read_stepRaw, aggL_78]; rfl

theorem aggL_80 : arg3.view.read (Elt F) (arg3.view.writes (Elt F) (harg3.unread x3) (kernelRun_later.sl.H3_80 c arg1 harg1 arg2 harg2 arg3 harg3 x1 x2 x3 hr)) = aggUpTo X1 X2 x3 80 (by decide) := by
  have step : arg3.view.writes (Elt F) (harg3.unread x3) (kernelRun_later.sl.H3_80 c arg1 harg1 arg2 harg2 arg3 harg3 x1 x2 x3 hr)
      = stepRaw arg3 (wR arg1 harg1 x1 79 (by decide)) (hwR arg1 harg1 x1 hr 79 (by decide)) (rowR arg2 harg2 x2 79 (by decide)) (arg3.view.writes (Elt F) (harg3.unread x3) (kernelRun_later.sl.H3_79 c arg1 harg1 arg2 harg2 arg3 harg3 x1 x2 x3 hr)) := rfl
  rw [step, read_stepRaw, aggL_79]; rfl

theorem aggL_81 : arg3.view.read (Elt F) (arg3.view.writes (Elt F) (harg3.unread x3) (kernelRun_later.sl.H3_81 c arg1 harg1 arg2 harg2 arg3 harg3 x1 x2 x3 hr)) = aggUpTo X1 X2 x3 81 (by decide) := by
  have step : arg3.view.writes (Elt F) (harg3.unread x3) (kernelRun_later.sl.H3_81 c arg1 harg1 arg2 harg2 arg3 harg3 x1 x2 x3 hr)
      = stepRaw arg3 (wR arg1 harg1 x1 80 (by decide)) (hwR arg1 harg1 x1 hr 80 (by decide)) (rowR arg2 harg2 x2 80 (by decide)) (arg3.view.writes (Elt F) (harg3.unread x3) (kernelRun_later.sl.H3_80 c arg1 harg1 arg2 harg2 arg3 harg3 x1 x2 x3 hr)) := rfl
  rw [step, read_stepRaw, aggL_80]; rfl

theorem aggL_82 : arg3.view.read (Elt F) (arg3.view.writes (Elt F) (harg3.unread x3) (kernelRun_later.sl.H3_82 c arg1 harg1 arg2 harg2 arg3 harg3 x1 x2 x3 hr)) = aggUpTo X1 X2 x3 82 (by decide) := by
  have step : arg3.view.writes (Elt F) (harg3.unread x3) (kernelRun_later.sl.H3_82 c arg1 harg1 arg2 harg2 arg3 harg3 x1 x2 x3 hr)
      = stepRaw arg3 (wR arg1 harg1 x1 81 (by decide)) (hwR arg1 harg1 x1 hr 81 (by decide)) (rowR arg2 harg2 x2 81 (by decide)) (arg3.view.writes (Elt F) (harg3.unread x3) (kernelRun_later.sl.H3_81 c arg1 harg1 arg2 harg2 arg3 harg3 x1 x2 x3 hr)) := rfl
  rw [step, read_stepRaw, aggL_81]; rfl

theorem aggL_83 : arg3.view.read (Elt F) (arg3.view.writes (Elt F) (harg3.unread x3) (kernelRun_later.sl.H3_83 c arg1 harg1 arg2 harg2 arg3 harg3 x1 x2 x3 hr)) = aggUpTo X1 X2 x3 83 (by decide) := by
  have step : arg3.view.writes (Elt F) (harg3.unread x3) (kernelRun_later.sl.H3_83 c arg1 harg1 arg2 harg2 arg3 harg3 x1 x2 x3 hr)
      = stepRaw arg3 (wR arg1 harg1 x1 82 (by decide)) (hwR arg1 harg1 x1 hr 82 (by decide)) (rowR arg2 harg2 x2 82 (by decide)) (arg3.view.writes (Elt F) (harg3.unread x3) (kernelRun_later.sl.H3_82 c arg1 harg1 arg2 harg2 arg3 harg3 x1 x2 x3 hr)) := rfl
  rw [step, read_stepRaw, aggL_82]; rfl

theorem aggL_84 : arg3.view.read (Elt F) (arg3.view.writes (Elt F) (harg3.unread x3) (kernelRun_later.sl.H3_84 c arg1 harg1 arg2 harg2 arg3 harg3 x1 x2 x3 hr)) = aggUpTo X1 X2 x3 84 (by decide) := by
  have step : arg3.view.writes (Elt F) (harg3.unread x3) (kernelRun_later.sl.H3_84 c arg1 harg1 arg2 harg2 arg3 harg3 x1 x2 x3 hr)
      = stepRaw arg3 (wR arg1 harg1 x1 83 (by decide)) (hwR arg1 harg1 x1 hr 83 (by decide)) (rowR arg2 harg2 x2 83 (by decide)) (arg3.view.writes (Elt F) (harg3.unread x3) (kernelRun_later.sl.H3_83 c arg1 harg1 arg2 harg2 arg3 harg3 x1 x2 x3 hr)) := rfl
  rw [step, read_stepRaw, aggL_83]; rfl

theorem aggL_85 : arg3.view.read (Elt F) (arg3.view.writes (Elt F) (harg3.unread x3) (kernelRun_later.sl.H3_85 c arg1 harg1 arg2 harg2 arg3 harg3 x1 x2 x3 hr)) = aggUpTo X1 X2 x3 85 (by decide) := by
  have step : arg3.view.writes (Elt F) (harg3.unread x3) (kernelRun_later.sl.H3_85 c arg1 harg1 arg2 harg2 arg3 harg3 x1 x2 x3 hr)
      = stepRaw arg3 (wR arg1 harg1 x1 84 (by decide)) (hwR arg1 harg1 x1 hr 84 (by decide)) (rowR arg2 harg2 x2 84 (by decide)) (arg3.view.writes (Elt F) (harg3.unread x3) (kernelRun_later.sl.H3_84 c arg1 harg1 arg2 harg2 arg3 harg3 x1 x2 x3 hr)) := rfl
  rw [step, read_stepRaw, aggL_84]; rfl

theorem aggL_86 : arg3.view.read (Elt F) (arg3.view.writes (Elt F) (harg3.unread x3) (kernelRun_later.sl.H3_86 c arg1 harg1 arg2 harg2 arg3 harg3 x1 x2 x3 hr)) = aggUpTo X1 X2 x3 86 (by decide) := by
  have step : arg3.view.writes (Elt F) (harg3.unread x3) (kernelRun_later.sl.H3_86 c arg1 harg1 arg2 harg2 arg3 harg3 x1 x2 x3 hr)
      = stepRaw arg3 (wR arg1 harg1 x1 85 (by decide)) (hwR arg1 harg1 x1 hr 85 (by decide)) (rowR arg2 harg2 x2 85 (by decide)) (arg3.view.writes (Elt F) (harg3.unread x3) (kernelRun_later.sl.H3_85 c arg1 harg1 arg2 harg2 arg3 harg3 x1 x2 x3 hr)) := rfl
  rw [step, read_stepRaw, aggL_85]; rfl

theorem aggL_87 : arg3.view.read (Elt F) (arg3.view.writes (Elt F) (harg3.unread x3) (kernelRun_later.sl.H3_87 c arg1 harg1 arg2 harg2 arg3 harg3 x1 x2 x3 hr)) = aggUpTo X1 X2 x3 87 (by decide) := by
  have step : arg3.view.writes (Elt F) (harg3.unread x3) (kernelRun_later.sl.H3_87 c arg1 harg1 arg2 harg2 arg3 harg3 x1 x2 x3 hr)
      = stepRaw arg3 (wR arg1 harg1 x1 86 (by decide)) (hwR arg1 harg1 x1 hr 86 (by decide)) (rowR arg2 harg2 x2 86 (by decide)) (arg3.view.writes (Elt F) (harg3.unread x3) (kernelRun_later.sl.H3_86 c arg1 harg1 arg2 harg2 arg3 harg3 x1 x2 x3 hr)) := rfl
  rw [step, read_stepRaw, aggL_86]; rfl

theorem aggL_88 : arg3.view.read (Elt F) (arg3.view.writes (Elt F) (harg3.unread x3) (kernelRun_later.sl.H3_88 c arg1 harg1 arg2 harg2 arg3 harg3 x1 x2 x3 hr)) = aggUpTo X1 X2 x3 88 (by decide) := by
  have step : arg3.view.writes (Elt F) (harg3.unread x3) (kernelRun_later.sl.H3_88 c arg1 harg1 arg2 harg2 arg3 harg3 x1 x2 x3 hr)
      = stepRaw arg3 (wR arg1 harg1 x1 87 (by decide)) (hwR arg1 harg1 x1 hr 87 (by decide)) (rowR arg2 harg2 x2 87 (by decide)) (arg3.view.writes (Elt F) (harg3.unread x3) (kernelRun_later.sl.H3_87 c arg1 harg1 arg2 harg2 arg3 harg3 x1 x2 x3 hr)) := rfl
  rw [step, read_stepRaw, aggL_87]; rfl

theorem aggL_89 : arg3.view.read (Elt F) (arg3.view.writes (Elt F) (harg3.unread x3) (kernelRun_later.sl.H3_89 c arg1 harg1 arg2 harg2 arg3 harg3 x1 x2 x3 hr)) = aggUpTo X1 X2 x3 89 (by decide) := by
  have step : arg3.view.writes (Elt F) (harg3.unread x3) (kernelRun_later.sl.H3_89 c arg1 harg1 arg2 harg2 arg3 harg3 x1 x2 x3 hr)
      = stepRaw arg3 (wR arg1 harg1 x1 88 (by decide)) (hwR arg1 harg1 x1 hr 88 (by decide)) (rowR arg2 harg2 x2 88 (by decide)) (arg3.view.writes (Elt F) (harg3.unread x3) (kernelRun_later.sl.H3_88 c arg1 harg1 arg2 harg2 arg3 harg3 x1 x2 x3 hr)) := rfl
  rw [step, read_stepRaw, aggL_88]; rfl

theorem aggL_90 : arg3.view.read (Elt F) (arg3.view.writes (Elt F) (harg3.unread x3) (kernelRun_later.sl.H3_90 c arg1 harg1 arg2 harg2 arg3 harg3 x1 x2 x3 hr)) = aggUpTo X1 X2 x3 90 (by decide) := by
  have step : arg3.view.writes (Elt F) (harg3.unread x3) (kernelRun_later.sl.H3_90 c arg1 harg1 arg2 harg2 arg3 harg3 x1 x2 x3 hr)
      = stepRaw arg3 (wR arg1 harg1 x1 89 (by decide)) (hwR arg1 harg1 x1 hr 89 (by decide)) (rowR arg2 harg2 x2 89 (by decide)) (arg3.view.writes (Elt F) (harg3.unread x3) (kernelRun_later.sl.H3_89 c arg1 harg1 arg2 harg2 arg3 harg3 x1 x2 x3 hr)) := rfl
  rw [step, read_stepRaw, aggL_89]; rfl

theorem aggL_91 : arg3.view.read (Elt F) (arg3.view.writes (Elt F) (harg3.unread x3) (kernelRun_later.sl.H3_91 c arg1 harg1 arg2 harg2 arg3 harg3 x1 x2 x3 hr)) = aggUpTo X1 X2 x3 91 (by decide) := by
  have step : arg3.view.writes (Elt F) (harg3.unread x3) (kernelRun_later.sl.H3_91 c arg1 harg1 arg2 harg2 arg3 harg3 x1 x2 x3 hr)
      = stepRaw arg3 (wR arg1 harg1 x1 90 (by decide)) (hwR arg1 harg1 x1 hr 90 (by decide)) (rowR arg2 harg2 x2 90 (by decide)) (arg3.view.writes (Elt F) (harg3.unread x3) (kernelRun_later.sl.H3_90 c arg1 harg1 arg2 harg2 arg3 harg3 x1 x2 x3 hr)) := rfl
  rw [step, read_stepRaw, aggL_90]; rfl

theorem aggL_92 : arg3.view.read (Elt F) (arg3.view.writes (Elt F) (harg3.unread x3) (kernelRun_later.sl.H3_92 c arg1 harg1 arg2 harg2 arg3 harg3 x1 x2 x3 hr)) = aggUpTo X1 X2 x3 92 (by decide) := by
  have step : arg3.view.writes (Elt F) (harg3.unread x3) (kernelRun_later.sl.H3_92 c arg1 harg1 arg2 harg2 arg3 harg3 x1 x2 x3 hr)
      = stepRaw arg3 (wR arg1 harg1 x1 91 (by decide)) (hwR arg1 harg1 x1 hr 91 (by decide)) (rowR arg2 harg2 x2 91 (by decide)) (arg3.view.writes (Elt F) (harg3.unread x3) (kernelRun_later.sl.H3_91 c arg1 harg1 arg2 harg2 arg3 harg3 x1 x2 x3 hr)) := rfl
  rw [step, read_stepRaw, aggL_91]; rfl

theorem aggL_93 : arg3.view.read (Elt F) (arg3.view.writes (Elt F) (harg3.unread x3) (kernelRun_later.sl.H3_93 c arg1 harg1 arg2 harg2 arg3 harg3 x1 x2 x3 hr)) = aggUpTo X1 X2 x3 93 (by decide) := by
  have step : arg3.view.writes (Elt F) (harg3.unread x3) (kernelRun_later.sl.H3_93 c arg1 harg1 arg2 harg2 arg3 harg3 x1 x2 x3 hr)
      = stepRaw arg3 (wR arg1 harg1 x1 92 (by decide)) (hwR arg1 harg1 x1 hr 92 (by decide)) (rowR arg2 harg2 x2 92 (by decide)) (arg3.view.writes (Elt F) (harg3.unread x3) (kernelRun_later.sl.H3_92 c arg1 harg1 arg2 harg2 arg3 harg3 x1 x2 x3 hr)) := rfl
  rw [step, read_stepRaw, aggL_92]; rfl

theorem aggL_94 : arg3.view.read (Elt F) (arg3.view.writes (Elt F) (harg3.unread x3) (kernelRun_later.sl.H3_94 c arg1 harg1 arg2 harg2 arg3 harg3 x1 x2 x3 hr)) = aggUpTo X1 X2 x3 94 (by decide) := by
  have step : arg3.view.writes (Elt F) (harg3.unread x3) (kernelRun_later.sl.H3_94 c arg1 harg1 arg2 harg2 arg3 harg3 x1 x2 x3 hr)
      = stepRaw arg3 (wR arg1 harg1 x1 93 (by decide)) (hwR arg1 harg1 x1 hr 93 (by decide)) (rowR arg2 harg2 x2 93 (by decide)) (arg3.view.writes (Elt F) (harg3.unread x3) (kernelRun_later.sl.H3_93 c arg1 harg1 arg2 harg2 arg3 harg3 x1 x2 x3 hr)) := rfl
  rw [step, read_stepRaw, aggL_93]; rfl

theorem aggL_95 : arg3.view.read (Elt F) (arg3.view.writes (Elt F) (harg3.unread x3) (kernelRun_later.sl.H3_95 c arg1 harg1 arg2 harg2 arg3 harg3 x1 x2 x3 hr)) = aggUpTo X1 X2 x3 95 (by decide) := by
  have step : arg3.view.writes (Elt F) (harg3.unread x3) (kernelRun_later.sl.H3_95 c arg1 harg1 arg2 harg2 arg3 harg3 x1 x2 x3 hr)
      = stepRaw arg3 (wR arg1 harg1 x1 94 (by decide)) (hwR arg1 harg1 x1 hr 94 (by decide)) (rowR arg2 harg2 x2 94 (by decide)) (arg3.view.writes (Elt F) (harg3.unread x3) (kernelRun_later.sl.H3_94 c arg1 harg1 arg2 harg2 arg3 harg3 x1 x2 x3 hr)) := rfl
  rw [step, read_stepRaw, aggL_94]; rfl

theorem aggL_96 : arg3.view.read (Elt F) (arg3.view.writes (Elt F) (harg3.unread x3) (kernelRun_later.sl.H3_96 c arg1 harg1 arg2 harg2 arg3 harg3 x1 x2 x3 hr)) = aggUpTo X1 X2 x3 96 (by decide) := by
  have step : arg3.view.writes (Elt F) (harg3.unread x3) (kernelRun_later.sl.H3_96 c arg1 harg1 arg2 harg2 arg3 harg3 x1 x2 x3 hr)
      = stepRaw arg3 (wR arg1 harg1 x1 95 (by decide)) (hwR arg1 harg1 x1 hr 95 (by decide)) (rowR arg2 harg2 x2 95 (by decide)) (arg3.view.writes (Elt F) (harg3.unread x3) (kernelRun_later.sl.H3_95 c arg1 harg1 arg2 harg2 arg3 harg3 x1 x2 x3 hr)) := rfl
  rw [step, read_stepRaw, aggL_95]; rfl

theorem aggL_97 : arg3.view.read (Elt F) (arg3.view.writes (Elt F) (harg3.unread x3) (kernelRun_later.sl.H3_97 c arg1 harg1 arg2 harg2 arg3 harg3 x1 x2 x3 hr)) = aggUpTo X1 X2 x3 97 (by decide) := by
  have step : arg3.view.writes (Elt F) (harg3.unread x3) (kernelRun_later.sl.H3_97 c arg1 harg1 arg2 harg2 arg3 harg3 x1 x2 x3 hr)
      = stepRaw arg3 (wR arg1 harg1 x1 96 (by decide)) (hwR arg1 harg1 x1 hr 96 (by decide)) (rowR arg2 harg2 x2 96 (by decide)) (arg3.view.writes (Elt F) (harg3.unread x3) (kernelRun_later.sl.H3_96 c arg1 harg1 arg2 harg2 arg3 harg3 x1 x2 x3 hr)) := rfl
  rw [step, read_stepRaw, aggL_96]; rfl

theorem aggL_98 : arg3.view.read (Elt F) (arg3.view.writes (Elt F) (harg3.unread x3) (kernelRun_later.sl.H3_98 c arg1 harg1 arg2 harg2 arg3 harg3 x1 x2 x3 hr)) = aggUpTo X1 X2 x3 98 (by decide) := by
  have step : arg3.view.writes (Elt F) (harg3.unread x3) (kernelRun_later.sl.H3_98 c arg1 harg1 arg2 harg2 arg3 harg3 x1 x2 x3 hr)
      = stepRaw arg3 (wR arg1 harg1 x1 97 (by decide)) (hwR arg1 harg1 x1 hr 97 (by decide)) (rowR arg2 harg2 x2 97 (by decide)) (arg3.view.writes (Elt F) (harg3.unread x3) (kernelRun_later.sl.H3_97 c arg1 harg1 arg2 harg2 arg3 harg3 x1 x2 x3 hr)) := rfl
  rw [step, read_stepRaw, aggL_97]; rfl

theorem aggL_99 : arg3.view.read (Elt F) (arg3.view.writes (Elt F) (harg3.unread x3) (kernelRun_later.sl.H3_99 c arg1 harg1 arg2 harg2 arg3 harg3 x1 x2 x3 hr)) = aggUpTo X1 X2 x3 99 (by decide) := by
  have step : arg3.view.writes (Elt F) (harg3.unread x3) (kernelRun_later.sl.H3_99 c arg1 harg1 arg2 harg2 arg3 harg3 x1 x2 x3 hr)
      = stepRaw arg3 (wR arg1 harg1 x1 98 (by decide)) (hwR arg1 harg1 x1 hr 98 (by decide)) (rowR arg2 harg2 x2 98 (by decide)) (arg3.view.writes (Elt F) (harg3.unread x3) (kernelRun_later.sl.H3_98 c arg1 harg1 arg2 harg2 arg3 harg3 x1 x2 x3 hr)) := rfl
  rw [step, read_stepRaw, aggL_98]; rfl

theorem aggL_100 : arg3.view.read (Elt F) (arg3.view.writes (Elt F) (harg3.unread x3) (kernelRun_later.sl.H3_100 c arg1 harg1 arg2 harg2 arg3 harg3 x1 x2 x3 hr)) = aggUpTo X1 X2 x3 100 (by decide) := by
  have step : arg3.view.writes (Elt F) (harg3.unread x3) (kernelRun_later.sl.H3_100 c arg1 harg1 arg2 harg2 arg3 harg3 x1 x2 x3 hr)
      = stepRaw arg3 (wR arg1 harg1 x1 99 (by decide)) (hwR arg1 harg1 x1 hr 99 (by decide)) (rowR arg2 harg2 x2 99 (by decide)) (arg3.view.writes (Elt F) (harg3.unread x3) (kernelRun_later.sl.H3_99 c arg1 harg1 arg2 harg2 arg3 harg3 x1 x2 x3 hr)) := rfl
  rw [step, read_stepRaw, aggL_99]; rfl

theorem aggL_101 : arg3.view.read (Elt F) (arg3.view.writes (Elt F) (harg3.unread x3) (kernelRun_later.sl.H3_101 c arg1 harg1 arg2 harg2 arg3 harg3 x1 x2 x3 hr)) = aggUpTo X1 X2 x3 101 (by decide) := by
  have step : arg3.view.writes (Elt F) (harg3.unread x3) (kernelRun_later.sl.H3_101 c arg1 harg1 arg2 harg2 arg3 harg3 x1 x2 x3 hr)
      = stepRaw arg3 (wR arg1 harg1 x1 100 (by decide)) (hwR arg1 harg1 x1 hr 100 (by decide)) (rowR arg2 harg2 x2 100 (by decide)) (arg3.view.writes (Elt F) (harg3.unread x3) (kernelRun_later.sl.H3_100 c arg1 harg1 arg2 harg2 arg3 harg3 x1 x2 x3 hr)) := rfl
  rw [step, read_stepRaw, aggL_100]; rfl

theorem aggL_102 : arg3.view.read (Elt F) (arg3.view.writes (Elt F) (harg3.unread x3) (kernelRun_later.sl.H3_102 c arg1 harg1 arg2 harg2 arg3 harg3 x1 x2 x3 hr)) = aggUpTo X1 X2 x3 102 (by decide) := by
  have step : arg3.view.writes (Elt F) (harg3.unread x3) (kernelRun_later.sl.H3_102 c arg1 harg1 arg2 harg2 arg3 harg3 x1 x2 x3 hr)
      = stepRaw arg3 (wR arg1 harg1 x1 101 (by decide)) (hwR arg1 harg1 x1 hr 101 (by decide)) (rowR arg2 harg2 x2 101 (by decide)) (arg3.view.writes (Elt F) (harg3.unread x3) (kernelRun_later.sl.H3_101 c arg1 harg1 arg2 harg2 arg3 harg3 x1 x2 x3 hr)) := rfl
  rw [step, read_stepRaw, aggL_101]; rfl

theorem aggL_103 : arg3.view.read (Elt F) (arg3.view.writes (Elt F) (harg3.unread x3) (kernelRun_later.sl.H3_103 c arg1 harg1 arg2 harg2 arg3 harg3 x1 x2 x3 hr)) = aggUpTo X1 X2 x3 103 (by decide) := by
  have step : arg3.view.writes (Elt F) (harg3.unread x3) (kernelRun_later.sl.H3_103 c arg1 harg1 arg2 harg2 arg3 harg3 x1 x2 x3 hr)
      = stepRaw arg3 (wR arg1 harg1 x1 102 (by decide)) (hwR arg1 harg1 x1 hr 102 (by decide)) (rowR arg2 harg2 x2 102 (by decide)) (arg3.view.writes (Elt F) (harg3.unread x3) (kernelRun_later.sl.H3_102 c arg1 harg1 arg2 harg2 arg3 harg3 x1 x2 x3 hr)) := rfl
  rw [step, read_stepRaw, aggL_102]; rfl

theorem aggL_104 : arg3.view.read (Elt F) (arg3.view.writes (Elt F) (harg3.unread x3) (kernelRun_later.sl.H3_104 c arg1 harg1 arg2 harg2 arg3 harg3 x1 x2 x3 hr)) = aggUpTo X1 X2 x3 104 (by decide) := by
  have step : arg3.view.writes (Elt F) (harg3.unread x3) (kernelRun_later.sl.H3_104 c arg1 harg1 arg2 harg2 arg3 harg3 x1 x2 x3 hr)
      = stepRaw arg3 (wR arg1 harg1 x1 103 (by decide)) (hwR arg1 harg1 x1 hr 103 (by decide)) (rowR arg2 harg2 x2 103 (by decide)) (arg3.view.writes (Elt F) (harg3.unread x3) (kernelRun_later.sl.H3_103 c arg1 harg1 arg2 harg2 arg3 harg3 x1 x2 x3 hr)) := rfl
  rw [step, read_stepRaw, aggL_103]; rfl

theorem aggL_105 : arg3.view.read (Elt F) (arg3.view.writes (Elt F) (harg3.unread x3) (kernelRun_later.sl.H3_105 c arg1 harg1 arg2 harg2 arg3 harg3 x1 x2 x3 hr)) = aggUpTo X1 X2 x3 105 (by decide) := by
  have step : arg3.view.writes (Elt F) (harg3.unread x3) (kernelRun_later.sl.H3_105 c arg1 harg1 arg2 harg2 arg3 harg3 x1 x2 x3 hr)
      = stepRaw arg3 (wR arg1 harg1 x1 104 (by decide)) (hwR arg1 harg1 x1 hr 104 (by decide)) (rowR arg2 harg2 x2 104 (by decide)) (arg3.view.writes (Elt F) (harg3.unread x3) (kernelRun_later.sl.H3_104 c arg1 harg1 arg2 harg2 arg3 harg3 x1 x2 x3 hr)) := rfl
  rw [step, read_stepRaw, aggL_104]; rfl

theorem aggL_106 : arg3.view.read (Elt F) (arg3.view.writes (Elt F) (harg3.unread x3) (kernelRun_later.sl.H3_106 c arg1 harg1 arg2 harg2 arg3 harg3 x1 x2 x3 hr)) = aggUpTo X1 X2 x3 106 (by decide) := by
  have step : arg3.view.writes (Elt F) (harg3.unread x3) (kernelRun_later.sl.H3_106 c arg1 harg1 arg2 harg2 arg3 harg3 x1 x2 x3 hr)
      = stepRaw arg3 (wR arg1 harg1 x1 105 (by decide)) (hwR arg1 harg1 x1 hr 105 (by decide)) (rowR arg2 harg2 x2 105 (by decide)) (arg3.view.writes (Elt F) (harg3.unread x3) (kernelRun_later.sl.H3_105 c arg1 harg1 arg2 harg2 arg3 harg3 x1 x2 x3 hr)) := rfl
  rw [step, read_stepRaw, aggL_105]; rfl

theorem aggL_107 : arg3.view.read (Elt F) (arg3.view.writes (Elt F) (harg3.unread x3) (kernelRun_later.sl.H3_107 c arg1 harg1 arg2 harg2 arg3 harg3 x1 x2 x3 hr)) = aggUpTo X1 X2 x3 107 (by decide) := by
  have step : arg3.view.writes (Elt F) (harg3.unread x3) (kernelRun_later.sl.H3_107 c arg1 harg1 arg2 harg2 arg3 harg3 x1 x2 x3 hr)
      = stepRaw arg3 (wR arg1 harg1 x1 106 (by decide)) (hwR arg1 harg1 x1 hr 106 (by decide)) (rowR arg2 harg2 x2 106 (by decide)) (arg3.view.writes (Elt F) (harg3.unread x3) (kernelRun_later.sl.H3_106 c arg1 harg1 arg2 harg2 arg3 harg3 x1 x2 x3 hr)) := rfl
  rw [step, read_stepRaw, aggL_106]; rfl

theorem aggL_108 : arg3.view.read (Elt F) (arg3.view.writes (Elt F) (harg3.unread x3) (kernelRun_later.sl.H3_108 c arg1 harg1 arg2 harg2 arg3 harg3 x1 x2 x3 hr)) = aggUpTo X1 X2 x3 108 (by decide) := by
  have step : arg3.view.writes (Elt F) (harg3.unread x3) (kernelRun_later.sl.H3_108 c arg1 harg1 arg2 harg2 arg3 harg3 x1 x2 x3 hr)
      = stepRaw arg3 (wR arg1 harg1 x1 107 (by decide)) (hwR arg1 harg1 x1 hr 107 (by decide)) (rowR arg2 harg2 x2 107 (by decide)) (arg3.view.writes (Elt F) (harg3.unread x3) (kernelRun_later.sl.H3_107 c arg1 harg1 arg2 harg2 arg3 harg3 x1 x2 x3 hr)) := rfl
  rw [step, read_stepRaw, aggL_107]; rfl

theorem aggL_109 : arg3.view.read (Elt F) (arg3.view.writes (Elt F) (harg3.unread x3) (kernelRun_later.sl.H3_109 c arg1 harg1 arg2 harg2 arg3 harg3 x1 x2 x3 hr)) = aggUpTo X1 X2 x3 109 (by decide) := by
  have step : arg3.view.writes (Elt F) (harg3.unread x3) (kernelRun_later.sl.H3_109 c arg1 harg1 arg2 harg2 arg3 harg3 x1 x2 x3 hr)
      = stepRaw arg3 (wR arg1 harg1 x1 108 (by decide)) (hwR arg1 harg1 x1 hr 108 (by decide)) (rowR arg2 harg2 x2 108 (by decide)) (arg3.view.writes (Elt F) (harg3.unread x3) (kernelRun_later.sl.H3_108 c arg1 harg1 arg2 harg2 arg3 harg3 x1 x2 x3 hr)) := rfl
  rw [step, read_stepRaw, aggL_108]; rfl

theorem aggL_110 : arg3.view.read (Elt F) (arg3.view.writes (Elt F) (harg3.unread x3) (kernelRun_later.sl.H3_110 c arg1 harg1 arg2 harg2 arg3 harg3 x1 x2 x3 hr)) = aggUpTo X1 X2 x3 110 (by decide) := by
  have step : arg3.view.writes (Elt F) (harg3.unread x3) (kernelRun_later.sl.H3_110 c arg1 harg1 arg2 harg2 arg3 harg3 x1 x2 x3 hr)
      = stepRaw arg3 (wR arg1 harg1 x1 109 (by decide)) (hwR arg1 harg1 x1 hr 109 (by decide)) (rowR arg2 harg2 x2 109 (by decide)) (arg3.view.writes (Elt F) (harg3.unread x3) (kernelRun_later.sl.H3_109 c arg1 harg1 arg2 harg2 arg3 harg3 x1 x2 x3 hr)) := rfl
  rw [step, read_stepRaw, aggL_109]; rfl

theorem aggL_111 : arg3.view.read (Elt F) (arg3.view.writes (Elt F) (harg3.unread x3) (kernelRun_later.sl.H3_111 c arg1 harg1 arg2 harg2 arg3 harg3 x1 x2 x3 hr)) = aggUpTo X1 X2 x3 111 (by decide) := by
  have step : arg3.view.writes (Elt F) (harg3.unread x3) (kernelRun_later.sl.H3_111 c arg1 harg1 arg2 harg2 arg3 harg3 x1 x2 x3 hr)
      = stepRaw arg3 (wR arg1 harg1 x1 110 (by decide)) (hwR arg1 harg1 x1 hr 110 (by decide)) (rowR arg2 harg2 x2 110 (by decide)) (arg3.view.writes (Elt F) (harg3.unread x3) (kernelRun_later.sl.H3_110 c arg1 harg1 arg2 harg2 arg3 harg3 x1 x2 x3 hr)) := rfl
  rw [step, read_stepRaw, aggL_110]; rfl

theorem aggL_112 : arg3.view.read (Elt F) (arg3.view.writes (Elt F) (harg3.unread x3) (kernelRun_later.sl.H3_112 c arg1 harg1 arg2 harg2 arg3 harg3 x1 x2 x3 hr)) = aggUpTo X1 X2 x3 112 (by decide) := by
  have step : arg3.view.writes (Elt F) (harg3.unread x3) (kernelRun_later.sl.H3_112 c arg1 harg1 arg2 harg2 arg3 harg3 x1 x2 x3 hr)
      = stepRaw arg3 (wR arg1 harg1 x1 111 (by decide)) (hwR arg1 harg1 x1 hr 111 (by decide)) (rowR arg2 harg2 x2 111 (by decide)) (arg3.view.writes (Elt F) (harg3.unread x3) (kernelRun_later.sl.H3_111 c arg1 harg1 arg2 harg2 arg3 harg3 x1 x2 x3 hr)) := rfl
  rw [step, read_stepRaw, aggL_111]; rfl

theorem aggL_113 : arg3.view.read (Elt F) (arg3.view.writes (Elt F) (harg3.unread x3) (kernelRun_later.sl.H3_113 c arg1 harg1 arg2 harg2 arg3 harg3 x1 x2 x3 hr)) = aggUpTo X1 X2 x3 113 (by decide) := by
  have step : arg3.view.writes (Elt F) (harg3.unread x3) (kernelRun_later.sl.H3_113 c arg1 harg1 arg2 harg2 arg3 harg3 x1 x2 x3 hr)
      = stepRaw arg3 (wR arg1 harg1 x1 112 (by decide)) (hwR arg1 harg1 x1 hr 112 (by decide)) (rowR arg2 harg2 x2 112 (by decide)) (arg3.view.writes (Elt F) (harg3.unread x3) (kernelRun_later.sl.H3_112 c arg1 harg1 arg2 harg2 arg3 harg3 x1 x2 x3 hr)) := rfl
  rw [step, read_stepRaw, aggL_112]; rfl

theorem aggL_114 : arg3.view.read (Elt F) (arg3.view.writes (Elt F) (harg3.unread x3) (kernelRun_later.sl.H3_114 c arg1 harg1 arg2 harg2 arg3 harg3 x1 x2 x3 hr)) = aggUpTo X1 X2 x3 114 (by decide) := by
  have step : arg3.view.writes (Elt F) (harg3.unread x3) (kernelRun_later.sl.H3_114 c arg1 harg1 arg2 harg2 arg3 harg3 x1 x2 x3 hr)
      = stepRaw arg3 (wR arg1 harg1 x1 113 (by decide)) (hwR arg1 harg1 x1 hr 113 (by decide)) (rowR arg2 harg2 x2 113 (by decide)) (arg3.view.writes (Elt F) (harg3.unread x3) (kernelRun_later.sl.H3_113 c arg1 harg1 arg2 harg2 arg3 harg3 x1 x2 x3 hr)) := rfl
  rw [step, read_stepRaw, aggL_113]; rfl

theorem aggL_115 : arg3.view.read (Elt F) (arg3.view.writes (Elt F) (harg3.unread x3) (kernelRun_later.sl.H3_115 c arg1 harg1 arg2 harg2 arg3 harg3 x1 x2 x3 hr)) = aggUpTo X1 X2 x3 115 (by decide) := by
  have step : arg3.view.writes (Elt F) (harg3.unread x3) (kernelRun_later.sl.H3_115 c arg1 harg1 arg2 harg2 arg3 harg3 x1 x2 x3 hr)
      = stepRaw arg3 (wR arg1 harg1 x1 114 (by decide)) (hwR arg1 harg1 x1 hr 114 (by decide)) (rowR arg2 harg2 x2 114 (by decide)) (arg3.view.writes (Elt F) (harg3.unread x3) (kernelRun_later.sl.H3_114 c arg1 harg1 arg2 harg2 arg3 harg3 x1 x2 x3 hr)) := rfl
  rw [step, read_stepRaw, aggL_114]; rfl

theorem aggL_116 : arg3.view.read (Elt F) (arg3.view.writes (Elt F) (harg3.unread x3) (kernelRun_later.sl.H3_116 c arg1 harg1 arg2 harg2 arg3 harg3 x1 x2 x3 hr)) = aggUpTo X1 X2 x3 116 (by decide) := by
  have step : arg3.view.writes (Elt F) (harg3.unread x3) (kernelRun_later.sl.H3_116 c arg1 harg1 arg2 harg2 arg3 harg3 x1 x2 x3 hr)
      = stepRaw arg3 (wR arg1 harg1 x1 115 (by decide)) (hwR arg1 harg1 x1 hr 115 (by decide)) (rowR arg2 harg2 x2 115 (by decide)) (arg3.view.writes (Elt F) (harg3.unread x3) (kernelRun_later.sl.H3_115 c arg1 harg1 arg2 harg2 arg3 harg3 x1 x2 x3 hr)) := rfl
  rw [step, read_stepRaw, aggL_115]; rfl

theorem aggL_117 : arg3.view.read (Elt F) (arg3.view.writes (Elt F) (harg3.unread x3) (kernelRun_later.sl.H3_117 c arg1 harg1 arg2 harg2 arg3 harg3 x1 x2 x3 hr)) = aggUpTo X1 X2 x3 117 (by decide) := by
  have step : arg3.view.writes (Elt F) (harg3.unread x3) (kernelRun_later.sl.H3_117 c arg1 harg1 arg2 harg2 arg3 harg3 x1 x2 x3 hr)
      = stepRaw arg3 (wR arg1 harg1 x1 116 (by decide)) (hwR arg1 harg1 x1 hr 116 (by decide)) (rowR arg2 harg2 x2 116 (by decide)) (arg3.view.writes (Elt F) (harg3.unread x3) (kernelRun_later.sl.H3_116 c arg1 harg1 arg2 harg2 arg3 harg3 x1 x2 x3 hr)) := rfl
  rw [step, read_stepRaw, aggL_116]; rfl

theorem aggL_118 : arg3.view.read (Elt F) (arg3.view.writes (Elt F) (harg3.unread x3) (kernelRun_later.sl.H3_118 c arg1 harg1 arg2 harg2 arg3 harg3 x1 x2 x3 hr)) = aggUpTo X1 X2 x3 118 (by decide) := by
  have step : arg3.view.writes (Elt F) (harg3.unread x3) (kernelRun_later.sl.H3_118 c arg1 harg1 arg2 harg2 arg3 harg3 x1 x2 x3 hr)
      = stepRaw arg3 (wR arg1 harg1 x1 117 (by decide)) (hwR arg1 harg1 x1 hr 117 (by decide)) (rowR arg2 harg2 x2 117 (by decide)) (arg3.view.writes (Elt F) (harg3.unread x3) (kernelRun_later.sl.H3_117 c arg1 harg1 arg2 harg2 arg3 harg3 x1 x2 x3 hr)) := rfl
  rw [step, read_stepRaw, aggL_117]; rfl

theorem aggL_119 : arg3.view.read (Elt F) (arg3.view.writes (Elt F) (harg3.unread x3) (kernelRun_later.sl.H3_119 c arg1 harg1 arg2 harg2 arg3 harg3 x1 x2 x3 hr)) = aggUpTo X1 X2 x3 119 (by decide) := by
  have step : arg3.view.writes (Elt F) (harg3.unread x3) (kernelRun_later.sl.H3_119 c arg1 harg1 arg2 harg2 arg3 harg3 x1 x2 x3 hr)
      = stepRaw arg3 (wR arg1 harg1 x1 118 (by decide)) (hwR arg1 harg1 x1 hr 118 (by decide)) (rowR arg2 harg2 x2 118 (by decide)) (arg3.view.writes (Elt F) (harg3.unread x3) (kernelRun_later.sl.H3_118 c arg1 harg1 arg2 harg2 arg3 harg3 x1 x2 x3 hr)) := rfl
  rw [step, read_stepRaw, aggL_118]; rfl

theorem aggL_120 : arg3.view.read (Elt F) (arg3.view.writes (Elt F) (harg3.unread x3) (kernelRun_later.sl.H3_120 c arg1 harg1 arg2 harg2 arg3 harg3 x1 x2 x3 hr)) = aggUpTo X1 X2 x3 120 (by decide) := by
  have step : arg3.view.writes (Elt F) (harg3.unread x3) (kernelRun_later.sl.H3_120 c arg1 harg1 arg2 harg2 arg3 harg3 x1 x2 x3 hr)
      = stepRaw arg3 (wR arg1 harg1 x1 119 (by decide)) (hwR arg1 harg1 x1 hr 119 (by decide)) (rowR arg2 harg2 x2 119 (by decide)) (arg3.view.writes (Elt F) (harg3.unread x3) (kernelRun_later.sl.H3_119 c arg1 harg1 arg2 harg2 arg3 harg3 x1 x2 x3 hr)) := rfl
  rw [step, read_stepRaw, aggL_119]; rfl

theorem aggL_121 : arg3.view.read (Elt F) (arg3.view.writes (Elt F) (harg3.unread x3) (kernelRun_later.sl.H3_121 c arg1 harg1 arg2 harg2 arg3 harg3 x1 x2 x3 hr)) = aggUpTo X1 X2 x3 121 (by decide) := by
  have step : arg3.view.writes (Elt F) (harg3.unread x3) (kernelRun_later.sl.H3_121 c arg1 harg1 arg2 harg2 arg3 harg3 x1 x2 x3 hr)
      = stepRaw arg3 (wR arg1 harg1 x1 120 (by decide)) (hwR arg1 harg1 x1 hr 120 (by decide)) (rowR arg2 harg2 x2 120 (by decide)) (arg3.view.writes (Elt F) (harg3.unread x3) (kernelRun_later.sl.H3_120 c arg1 harg1 arg2 harg2 arg3 harg3 x1 x2 x3 hr)) := rfl
  rw [step, read_stepRaw, aggL_120]; rfl

theorem aggL_122 : arg3.view.read (Elt F) (arg3.view.writes (Elt F) (harg3.unread x3) (kernelRun_later.sl.H3_122 c arg1 harg1 arg2 harg2 arg3 harg3 x1 x2 x3 hr)) = aggUpTo X1 X2 x3 122 (by decide) := by
  have step : arg3.view.writes (Elt F) (harg3.unread x3) (kernelRun_later.sl.H3_122 c arg1 harg1 arg2 harg2 arg3 harg3 x1 x2 x3 hr)
      = stepRaw arg3 (wR arg1 harg1 x1 121 (by decide)) (hwR arg1 harg1 x1 hr 121 (by decide)) (rowR arg2 harg2 x2 121 (by decide)) (arg3.view.writes (Elt F) (harg3.unread x3) (kernelRun_later.sl.H3_121 c arg1 harg1 arg2 harg2 arg3 harg3 x1 x2 x3 hr)) := rfl
  rw [step, read_stepRaw, aggL_121]; rfl

theorem aggL_123 : arg3.view.read (Elt F) (arg3.view.writes (Elt F) (harg3.unread x3) (kernelRun_later.sl.H3_123 c arg1 harg1 arg2 harg2 arg3 harg3 x1 x2 x3 hr)) = aggUpTo X1 X2 x3 123 (by decide) := by
  have step : arg3.view.writes (Elt F) (harg3.unread x3) (kernelRun_later.sl.H3_123 c arg1 harg1 arg2 harg2 arg3 harg3 x1 x2 x3 hr)
      = stepRaw arg3 (wR arg1 harg1 x1 122 (by decide)) (hwR arg1 harg1 x1 hr 122 (by decide)) (rowR arg2 harg2 x2 122 (by decide)) (arg3.view.writes (Elt F) (harg3.unread x3) (kernelRun_later.sl.H3_122 c arg1 harg1 arg2 harg2 arg3 harg3 x1 x2 x3 hr)) := rfl
  rw [step, read_stepRaw, aggL_122]; rfl

theorem aggL_124 : arg3.view.read (Elt F) (arg3.view.writes (Elt F) (harg3.unread x3) (kernelRun_later.sl.H3_124 c arg1 harg1 arg2 harg2 arg3 harg3 x1 x2 x3 hr)) = aggUpTo X1 X2 x3 124 (by decide) := by
  have step : arg3.view.writes (Elt F) (harg3.unread x3) (kernelRun_later.sl.H3_124 c arg1 harg1 arg2 harg2 arg3 harg3 x1 x2 x3 hr)
      = stepRaw arg3 (wR arg1 harg1 x1 123 (by decide)) (hwR arg1 harg1 x1 hr 123 (by decide)) (rowR arg2 harg2 x2 123 (by decide)) (arg3.view.writes (Elt F) (harg3.unread x3) (kernelRun_later.sl.H3_123 c arg1 harg1 arg2 harg2 arg3 harg3 x1 x2 x3 hr)) := rfl
  rw [step, read_stepRaw, aggL_123]; rfl

theorem aggL_125 : arg3.view.read (Elt F) (arg3.view.writes (Elt F) (harg3.unread x3) (kernelRun_later.sl.H3_125 c arg1 harg1 arg2 harg2 arg3 harg3 x1 x2 x3 hr)) = aggUpTo X1 X2 x3 125 (by decide) := by
  have step : arg3.view.writes (Elt F) (harg3.unread x3) (kernelRun_later.sl.H3_125 c arg1 harg1 arg2 harg2 arg3 harg3 x1 x2 x3 hr)
      = stepRaw arg3 (wR arg1 harg1 x1 124 (by decide)) (hwR arg1 harg1 x1 hr 124 (by decide)) (rowR arg2 harg2 x2 124 (by decide)) (arg3.view.writes (Elt F) (harg3.unread x3) (kernelRun_later.sl.H3_124 c arg1 harg1 arg2 harg2 arg3 harg3 x1 x2 x3 hr)) := rfl
  rw [step, read_stepRaw, aggL_124]; rfl

theorem aggL_126 : arg3.view.read (Elt F) (arg3.view.writes (Elt F) (harg3.unread x3) (kernelRun_later.sl.H3_126 c arg1 harg1 arg2 harg2 arg3 harg3 x1 x2 x3 hr)) = aggUpTo X1 X2 x3 126 (by decide) := by
  have step : arg3.view.writes (Elt F) (harg3.unread x3) (kernelRun_later.sl.H3_126 c arg1 harg1 arg2 harg2 arg3 harg3 x1 x2 x3 hr)
      = stepRaw arg3 (wR arg1 harg1 x1 125 (by decide)) (hwR arg1 harg1 x1 hr 125 (by decide)) (rowR arg2 harg2 x2 125 (by decide)) (arg3.view.writes (Elt F) (harg3.unread x3) (kernelRun_later.sl.H3_125 c arg1 harg1 arg2 harg2 arg3 harg3 x1 x2 x3 hr)) := rfl
  rw [step, read_stepRaw, aggL_125]; rfl

theorem aggL_127 : arg3.view.read (Elt F) (arg3.view.writes (Elt F) (harg3.unread x3) (kernelRun_later.sl.H3_127 c arg1 harg1 arg2 harg2 arg3 harg3 x1 x2 x3 hr)) = aggUpTo X1 X2 x3 127 (by decide) := by
  have step : arg3.view.writes (Elt F) (harg3.unread x3) (kernelRun_later.sl.H3_127 c arg1 harg1 arg2 harg2 arg3 harg3 x1 x2 x3 hr)
      = stepRaw arg3 (wR arg1 harg1 x1 126 (by decide)) (hwR arg1 harg1 x1 hr 126 (by decide)) (rowR arg2 harg2 x2 126 (by decide)) (arg3.view.writes (Elt F) (harg3.unread x3) (kernelRun_later.sl.H3_126 c arg1 harg1 arg2 harg2 arg3 harg3 x1 x2 x3 hr)) := rfl
  rw [step, read_stepRaw, aggL_126]; rfl

theorem aggL_128 : arg3.view.read (Elt F) (arg3.view.writes (Elt F) (harg3.unread x3) (kernelRun_later (Ix := Ix) (Name := Name) (U := U) (Lvl := Lvl) 𝒱₀ c i arg1 harg1 arg2 harg2 arg3 harg3 arg4 harg4 hc0 x1 x2 x3 x4 hr).1.1) = aggUpTo X1 X2 x3 128 (by decide) := by
  have step : arg3.view.writes (Elt F) (harg3.unread x3) (kernelRun_later (Ix := Ix) (Name := Name) (U := U) (Lvl := Lvl) 𝒱₀ c i arg1 harg1 arg2 harg2 arg3 harg3 arg4 harg4 hc0 x1 x2 x3 x4 hr).1.1
      = stepRaw arg3 (wR arg1 harg1 x1 127 (by decide)) (hwR arg1 harg1 x1 hr 127 (by decide)) (rowR arg2 harg2 x2 127 (by decide)) (arg3.view.writes (Elt F) (harg3.unread x3) (kernelRun_later.sl.H3_127 c arg1 harg1 arg2 harg2 arg3 harg3 x1 x2 x3 hr)) := rfl
  rw [step, read_stepRaw, aggL_127]; rfl

/-- WHAT THE POINT LEAVES: its 128 updates of what the accumulator held. -/
theorem later_agg : arg3.view.read (Elt F) (arg3.view.writes (Elt F) (harg3.unread x3) (kernelRun_later (Ix := Ix) (Name := Name) (U := U) (Lvl := Lvl) 𝒱₀ c i arg1 harg1 arg2 harg2 arg3 harg3 arg4 harg4 hc0 x1 x2 x3 x4 hr).1.1) = chunkAgg x1 x2 x3 := by
  have h := aggL_128 c arg1 harg1 arg2 harg2 arg3 harg3 arg4 harg4 x1 x2 x3 x4 hr 𝒱₀ i hc0 (Ix := Ix) (Name := Name) (U := U) (Lvl := Lvl)
  rw [harg1.read_unread, harg2.read_unread] at h
  exact h

end Chain

end Cert.K.Scat

end
-- ==== Proof.ScatChainLDK.lean ====
import proofs.«202620_g33904471835419_cont_8to1_b_799_54_alg».proof.Proof.ScatSpellK

/-!
# The scatter region: what a later point leaves in the counts' accumulator

Edge by edge, the contents the run's pieces leave read as the first `k` edges' updates of what the accumulator
held: each step is one store of the edge's new block (by unfolding), read through the view.
-/

set_option maxRecDepth 16384

noncomputable section

namespace Cert.K.Scat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

section Chain

variable (c : Dev nD)
  (arg1 : Memref sig .tc .smem S1x1x128 .i32) (harg1 : arg1.IsWhole) (arg2 : Memref sig .tc .vmem S128x128 .f32) (harg2 : arg2.IsWhole)
  (arg3 : Memref sig .tc .vmem S1250x8x128 .f32) (harg3 : arg3.IsWhole) (arg4 : Memref sig .tc .vmem S1250x8x128 .f32) (harg4 : arg4.IsWhole)
  (x1 : S1x1x128.Idx → Elt F .i32) (x2 : Vec F S128x128 .f32) (x3 x4 : Vec F S1250x8x128 .f32) (hr : ∀ y, InRange (x1 y))
  (𝒱₀ : Variants) (i : grid1.Coords) (hc0 : ¬cond1_0 i)

local notation "X1" => arg1.view.read (Elt F) (harg1.unread x1)
local notation "X2" => arg2.view.read (Elt F) (harg2.unread x2)

theorem degL_1 : arg4.view.read (Elt F) (arg4.view.writes (Elt F) (harg4.unread x4) (kernelRun_later.sl.H4_1 c arg1 harg1 arg4 harg4 x1 x4 hr)) = degUpTo X1 x4 1 (by decide) := by
  have step : arg4.view.writes (Elt F) (harg4.unread x4) (kernelRun_later.sl.H4_1 c arg1 harg1 arg4 harg4 x1 x4 hr)
      = stepRawDeg arg4 (wR arg1 harg1 x1 0 (by decide)) (hwR arg1 harg1 x1 hr 0 (by decide)) (harg4.unread x4) := rfl
  rw [step, read_stepRawDeg, harg4.read_unread]; rfl

theorem degL_2 : arg4.view.read (Elt F) (arg4.view.writes (Elt F) (harg4.unread x4) (kernelRun_later.sl.H4_2 c arg1 harg1 arg4 harg4 x1 x4 hr)) = degUpTo X1 x4 2 (by decide) := by
  have step : arg4.view.writes (Elt F) (harg4.unread x4) (kernelRun_later.sl.H4_2 c arg1 harg1 arg4 harg4 x1 x4 hr)
      = stepRawDeg arg4 (wR arg1 harg1 x1 1 (by decide)) (hwR arg1 harg1 x1 hr 1 (by decide)) (arg4.view.writes (Elt F) (harg4.unread x4) (kernelRun_later.sl.H4_1 c arg1 harg1 arg4 harg4 x1 x4 hr)) := rfl
  rw [step, read_stepRawDeg, degL_1]; rfl

theorem degL_3 : arg4.view.read (Elt F) (arg4.view.writes (Elt F) (harg4.unread x4) (kernelRun_later.sl.H4_3 c arg1 harg1 arg4 harg4 x1 x4 hr)) = degUpTo X1 x4 3 (by decide) := by
  have step : arg4.view.writes (Elt F) (harg4.unread x4) (kernelRun_later.sl.H4_3 c arg1 harg1 arg4 harg4 x1 x4 hr)
      = stepRawDeg arg4 (wR arg1 harg1 x1 2 (by decide)) (hwR arg1 harg1 x1 hr 2 (by decide)) (arg4.view.writes (Elt F) (harg4.unread x4) (kernelRun_later.sl.H4_2 c arg1 harg1 arg4 harg4 x1 x4 hr)) := rfl
  rw [step, read_stepRawDeg, degL_2]; rfl

theorem degL_4 : arg4.view.read (Elt F) (arg4.view.writes (Elt F) (harg4.unread x4) (kernelRun_later.sl.H4_4 c arg1 harg1 arg4 harg4 x1 x4 hr)) = degUpTo X1 x4 4 (by decide) := by
  have step : arg4.view.writes (Elt F) (harg4.unread x4) (kernelRun_later.sl.H4_4 c arg1 harg1 arg4 harg4 x1 x4 hr)
      = stepRawDeg arg4 (wR arg1 harg1 x1 3 (by decide)) (hwR arg1 harg1 x1 hr 3 (by decide)) (arg4.view.writes (Elt F) (harg4.unread x4) (kernelRun_later.sl.H4_3 c arg1 harg1 arg4 harg4 x1 x4 hr)) := rfl
  rw [step, read_stepRawDeg, degL_3]; rfl

theorem degL_5 : arg4.view.read (Elt F) (arg4.view.writes (Elt F) (harg4.unread x4) (kernelRun_later.sl.H4_5 c arg1 harg1 arg4 harg4 x1 x4 hr)) = degUpTo X1 x4 5 (by decide) := by
  have step : arg4.view.writes (Elt F) (harg4.unread x4) (kernelRun_later.sl.H4_5 c arg1 harg1 arg4 harg4 x1 x4 hr)
      = stepRawDeg arg4 (wR arg1 harg1 x1 4 (by decide)) (hwR arg1 harg1 x1 hr 4 (by decide)) (arg4.view.writes (Elt F) (harg4.unread x4) (kernelRun_later.sl.H4_4 c arg1 harg1 arg4 harg4 x1 x4 hr)) := rfl
  rw [step, read_stepRawDeg, degL_4]; rfl

theorem degL_6 : arg4.view.read (Elt F) (arg4.view.writes (Elt F) (harg4.unread x4) (kernelRun_later.sl.H4_6 c arg1 harg1 arg4 harg4 x1 x4 hr)) = degUpTo X1 x4 6 (by decide) := by
  have step : arg4.view.writes (Elt F) (harg4.unread x4) (kernelRun_later.sl.H4_6 c arg1 harg1 arg4 harg4 x1 x4 hr)
      = stepRawDeg arg4 (wR arg1 harg1 x1 5 (by decide)) (hwR arg1 harg1 x1 hr 5 (by decide)) (arg4.view.writes (Elt F) (harg4.unread x4) (kernelRun_later.sl.H4_5 c arg1 harg1 arg4 harg4 x1 x4 hr)) := rfl
  rw [step, read_stepRawDeg, degL_5]; rfl

theorem degL_7 : arg4.view.read (Elt F) (arg4.view.writes (Elt F) (harg4.unread x4) (kernelRun_later.sl.H4_7 c arg1 harg1 arg4 harg4 x1 x4 hr)) = degUpTo X1 x4 7 (by decide) := by
  have step : arg4.view.writes (Elt F) (harg4.unread x4) (kernelRun_later.sl.H4_7 c arg1 harg1 arg4 harg4 x1 x4 hr)
      = stepRawDeg arg4 (wR arg1 harg1 x1 6 (by decide)) (hwR arg1 harg1 x1 hr 6 (by decide)) (arg4.view.writes (Elt F) (harg4.unread x4) (kernelRun_later.sl.H4_6 c arg1 harg1 arg4 harg4 x1 x4 hr)) := rfl
  rw [step, read_stepRawDeg, degL_6]; rfl

theorem degL_8 : arg4.view.read (Elt F) (arg4.view.writes (Elt F) (harg4.unread x4) (kernelRun_later.sl.H4_8 c arg1 harg1 arg4 harg4 x1 x4 hr)) = degUpTo X1 x4 8 (by decide) := by
  have step : arg4.view.writes (Elt F) (harg4.unread x4) (kernelRun_later.sl.H4_8 c arg1 harg1 arg4 harg4 x1 x4 hr)
      = stepRawDeg arg4 (wR arg1 harg1 x1 7 (by decide)) (hwR arg1 harg1 x1 hr 7 (by decide)) (arg4.view.writes (Elt F) (harg4.unread x4) (kernelRun_later.sl.H4_7 c arg1 harg1 arg4 harg4 x1 x4 hr)) := rfl
  rw [step, read_stepRawDeg, degL_7]; rfl

theorem degL_9 : arg4.view.read (Elt F) (arg4.view.writes (Elt F) (harg4.unread x4) (kernelRun_later.sl.H4_9 c arg1 harg1 arg4 harg4 x1 x4 hr)) = degUpTo X1 x4 9 (by decide) := by
  have step : arg4.view.writes (Elt F) (harg4.unread x4) (kernelRun_later.sl.H4_9 c arg1 harg1 arg4 harg4 x1 x4 hr)
      = stepRawDeg arg4 (wR arg1 harg1 x1 8 (by decide)) (hwR arg1 harg1 x1 hr 8 (by decide)) (arg4.view.writes (Elt F) (harg4.unread x4) (kernelRun_later.sl.H4_8 c arg1 harg1 arg4 harg4 x1 x4 hr)) := rfl
  rw [step, read_stepRawDeg, degL_8]; rfl

theorem degL_10 : arg4.view.read (Elt F) (arg4.view.writes (Elt F) (harg4.unread x4) (kernelRun_later.sl.H4_10 c arg1 harg1 arg4 harg4 x1 x4 hr)) = degUpTo X1 x4 10 (by decide) := by
  have step : arg4.view.writes (Elt F) (harg4.unread x4) (kernelRun_later.sl.H4_10 c arg1 harg1 arg4 harg4 x1 x4 hr)
      = stepRawDeg arg4 (wR arg1 harg1 x1 9 (by decide)) (hwR arg1 harg1 x1 hr 9 (by decide)) (arg4.view.writes (Elt F) (harg4.unread x4) (kernelRun_later.sl.H4_9 c arg1 harg1 arg4 harg4 x1 x4 hr)) := rfl
  rw [step, read_stepRawDeg, degL_9]; rfl

theorem degL_11 : arg4.view.read (Elt F) (arg4.view.writes (Elt F) (harg4.unread x4) (kernelRun_later.sl.H4_11 c arg1 harg1 arg4 harg4 x1 x4 hr)) = degUpTo X1 x4 11 (by decide) := by
  have step : arg4.view.writes (Elt F) (harg4.unread x4) (kernelRun_later.sl.H4_11 c arg1 harg1 arg4 harg4 x1 x4 hr)
      = stepRawDeg arg4 (wR arg1 harg1 x1 10 (by decide)) (hwR arg1 harg1 x1 hr 10 (by decide)) (arg4.view.writes (Elt F) (harg4.unread x4) (kernelRun_later.sl.H4_10 c arg1 harg1 arg4 harg4 x1 x4 hr)) := rfl
  rw [step, read_stepRawDeg, degL_10]; rfl

theorem degL_12 : arg4.view.read (Elt F) (arg4.view.writes (Elt F) (harg4.unread x4) (kernelRun_later.sl.H4_12 c arg1 harg1 arg4 harg4 x1 x4 hr)) = degUpTo X1 x4 12 (by decide) := by
  have step : arg4.view.writes (Elt F) (harg4.unread x4) (kernelRun_later.sl.H4_12 c arg1 harg1 arg4 harg4 x1 x4 hr)
      = stepRawDeg arg4 (wR arg1 harg1 x1 11 (by decide)) (hwR arg1 harg1 x1 hr 11 (by decide)) (arg4.view.writes (Elt F) (harg4.unread x4) (kernelRun_later.sl.H4_11 c arg1 harg1 arg4 harg4 x1 x4 hr)) := rfl
  rw [step, read_stepRawDeg, degL_11]; rfl

theorem degL_13 : arg4.view.read (Elt F) (arg4.view.writes (Elt F) (harg4.unread x4) (kernelRun_later.sl.H4_13 c arg1 harg1 arg4 harg4 x1 x4 hr)) = degUpTo X1 x4 13 (by decide) := by
  have step : arg4.view.writes (Elt F) (harg4.unread x4) (kernelRun_later.sl.H4_13 c arg1 harg1 arg4 harg4 x1 x4 hr)
      = stepRawDeg arg4 (wR arg1 harg1 x1 12 (by decide)) (hwR arg1 harg1 x1 hr 12 (by decide)) (arg4.view.writes (Elt F) (harg4.unread x4) (kernelRun_later.sl.H4_12 c arg1 harg1 arg4 harg4 x1 x4 hr)) := rfl
  rw [step, read_stepRawDeg, degL_12]; rfl

theorem degL_14 : arg4.view.read (Elt F) (arg4.view.writes (Elt F) (harg4.unread x4) (kernelRun_later.sl.H4_14 c arg1 harg1 arg4 harg4 x1 x4 hr)) = degUpTo X1 x4 14 (by decide) := by
  have step : arg4.view.writes (Elt F) (harg4.unread x4) (kernelRun_later.sl.H4_14 c arg1 harg1 arg4 harg4 x1 x4 hr)
      = stepRawDeg arg4 (wR arg1 harg1 x1 13 (by decide)) (hwR arg1 harg1 x1 hr 13 (by decide)) (arg4.view.writes (Elt F) (harg4.unread x4) (kernelRun_later.sl.H4_13 c arg1 harg1 arg4 harg4 x1 x4 hr)) := rfl
  rw [step, read_stepRawDeg, degL_13]; rfl

theorem degL_15 : arg4.view.read (Elt F) (arg4.view.writes (Elt F) (harg4.unread x4) (kernelRun_later.sl.H4_15 c arg1 harg1 arg4 harg4 x1 x4 hr)) = degUpTo X1 x4 15 (by decide) := by
  have step : arg4.view.writes (Elt F) (harg4.unread x4) (kernelRun_later.sl.H4_15 c arg1 harg1 arg4 harg4 x1 x4 hr)
      = stepRawDeg arg4 (wR arg1 harg1 x1 14 (by decide)) (hwR arg1 harg1 x1 hr 14 (by decide)) (arg4.view.writes (Elt F) (harg4.unread x4) (kernelRun_later.sl.H4_14 c arg1 harg1 arg4 harg4 x1 x4 hr)) := rfl
  rw [step, read_stepRawDeg, degL_14]; rfl

theorem degL_16 : arg4.view.read (Elt F) (arg4.view.writes (Elt F) (harg4.unread x4) (kernelRun_later.sl.H4_16 c arg1 harg1 arg4 harg4 x1 x4 hr)) = degUpTo X1 x4 16 (by decide) := by
  have step : arg4.view.writes (Elt F) (harg4.unread x4) (kernelRun_later.sl.H4_16 c arg1 harg1 arg4 harg4 x1 x4 hr)
      = stepRawDeg arg4 (wR arg1 harg1 x1 15 (by decide)) (hwR arg1 harg1 x1 hr 15 (by decide)) (arg4.view.writes (Elt F) (harg4.unread x4) (kernelRun_later.sl.H4_15 c arg1 harg1 arg4 harg4 x1 x4 hr)) := rfl
  rw [step, read_stepRawDeg, degL_15]; rfl

theorem degL_17 : arg4.view.read (Elt F) (arg4.view.writes (Elt F) (harg4.unread x4) (kernelRun_later.sl.H4_17 c arg1 harg1 arg4 harg4 x1 x4 hr)) = degUpTo X1 x4 17 (by decide) := by
  have step : arg4.view.writes (Elt F) (harg4.unread x4) (kernelRun_later.sl.H4_17 c arg1 harg1 arg4 harg4 x1 x4 hr)
      = stepRawDeg arg4 (wR arg1 harg1 x1 16 (by decide)) (hwR arg1 harg1 x1 hr 16 (by decide)) (arg4.view.writes (Elt F) (harg4.unread x4) (kernelRun_later.sl.H4_16 c arg1 harg1 arg4 harg4 x1 x4 hr)) := rfl
  rw [step, read_stepRawDeg, degL_16]; rfl

theorem degL_18 : arg4.view.read (Elt F) (arg4.view.writes (Elt F) (harg4.unread x4) (kernelRun_later.sl.H4_18 c arg1 harg1 arg4 harg4 x1 x4 hr)) = degUpTo X1 x4 18 (by decide) := by
  have step : arg4.view.writes (Elt F) (harg4.unread x4) (kernelRun_later.sl.H4_18 c arg1 harg1 arg4 harg4 x1 x4 hr)
      = stepRawDeg arg4 (wR arg1 harg1 x1 17 (by decide)) (hwR arg1 harg1 x1 hr 17 (by decide)) (arg4.view.writes (Elt F) (harg4.unread x4) (kernelRun_later.sl.H4_17 c arg1 harg1 arg4 harg4 x1 x4 hr)) := rfl
  rw [step, read_stepRawDeg, degL_17]; rfl

theorem degL_19 : arg4.view.read (Elt F) (arg4.view.writes (Elt F) (harg4.unread x4) (kernelRun_later.sl.H4_19 c arg1 harg1 arg4 harg4 x1 x4 hr)) = degUpTo X1 x4 19 (by decide) := by
  have step : arg4.view.writes (Elt F) (harg4.unread x4) (kernelRun_later.sl.H4_19 c arg1 harg1 arg4 harg4 x1 x4 hr)
      = stepRawDeg arg4 (wR arg1 harg1 x1 18 (by decide)) (hwR arg1 harg1 x1 hr 18 (by decide)) (arg4.view.writes (Elt F) (harg4.unread x4) (kernelRun_later.sl.H4_18 c arg1 harg1 arg4 harg4 x1 x4 hr)) := rfl
  rw [step, read_stepRawDeg, degL_18]; rfl

theorem degL_20 : arg4.view.read (Elt F) (arg4.view.writes (Elt F) (harg4.unread x4) (kernelRun_later.sl.H4_20 c arg1 harg1 arg4 harg4 x1 x4 hr)) = degUpTo X1 x4 20 (by decide) := by
  have step : arg4.view.writes (Elt F) (harg4.unread x4) (kernelRun_later.sl.H4_20 c arg1 harg1 arg4 harg4 x1 x4 hr)
      = stepRawDeg arg4 (wR arg1 harg1 x1 19 (by decide)) (hwR arg1 harg1 x1 hr 19 (by decide)) (arg4.view.writes (Elt F) (harg4.unread x4) (kernelRun_later.sl.H4_19 c arg1 harg1 arg4 harg4 x1 x4 hr)) := rfl
  rw [step, read_stepRawDeg, degL_19]; rfl

theorem degL_21 : arg4.view.read (Elt F) (arg4.view.writes (Elt F) (harg4.unread x4) (kernelRun_later.sl.H4_21 c arg1 harg1 arg4 harg4 x1 x4 hr)) = degUpTo X1 x4 21 (by decide) := by
  have step : arg4.view.writes (Elt F) (harg4.unread x4) (kernelRun_later.sl.H4_21 c arg1 harg1 arg4 harg4 x1 x4 hr)
      = stepRawDeg arg4 (wR arg1 harg1 x1 20 (by decide)) (hwR arg1 harg1 x1 hr 20 (by decide)) (arg4.view.writes (Elt F) (harg4.unread x4) (kernelRun_later.sl.H4_20 c arg1 harg1 arg4 harg4 x1 x4 hr)) := rfl
  rw [step, read_stepRawDeg, degL_20]; rfl

theorem degL_22 : arg4.view.read (Elt F) (arg4.view.writes (Elt F) (harg4.unread x4) (kernelRun_later.sl.H4_22 c arg1 harg1 arg4 harg4 x1 x4 hr)) = degUpTo X1 x4 22 (by decide) := by
  have step : arg4.view.writes (Elt F) (harg4.unread x4) (kernelRun_later.sl.H4_22 c arg1 harg1 arg4 harg4 x1 x4 hr)
      = stepRawDeg arg4 (wR arg1 harg1 x1 21 (by decide)) (hwR arg1 harg1 x1 hr 21 (by decide)) (arg4.view.writes (Elt F) (harg4.unread x4) (kernelRun_later.sl.H4_21 c arg1 harg1 arg4 harg4 x1 x4 hr)) := rfl
  rw [step, read_stepRawDeg, degL_21]; rfl

theorem degL_23 : arg4.view.read (Elt F) (arg4.view.writes (Elt F) (harg4.unread x4) (kernelRun_later.sl.H4_23 c arg1 harg1 arg4 harg4 x1 x4 hr)) = degUpTo X1 x4 23 (by decide) := by
  have step : arg4.view.writes (Elt F) (harg4.unread x4) (kernelRun_later.sl.H4_23 c arg1 harg1 arg4 harg4 x1 x4 hr)
      = stepRawDeg arg4 (wR arg1 harg1 x1 22 (by decide)) (hwR arg1 harg1 x1 hr 22 (by decide)) (arg4.view.writes (Elt F) (harg4.unread x4) (kernelRun_later.sl.H4_22 c arg1 harg1 arg4 harg4 x1 x4 hr)) := rfl
  rw [step, read_stepRawDeg, degL_22]; rfl

theorem degL_24 : arg4.view.read (Elt F) (arg4.view.writes (Elt F) (harg4.unread x4) (kernelRun_later.sl.H4_24 c arg1 harg1 arg4 harg4 x1 x4 hr)) = degUpTo X1 x4 24 (by decide) := by
  have step : arg4.view.writes (Elt F) (harg4.unread x4) (kernelRun_later.sl.H4_24 c arg1 harg1 arg4 harg4 x1 x4 hr)
      = stepRawDeg arg4 (wR arg1 harg1 x1 23 (by decide)) (hwR arg1 harg1 x1 hr 23 (by decide)) (arg4.view.writes (Elt F) (harg4.unread x4) (kernelRun_later.sl.H4_23 c arg1 harg1 arg4 harg4 x1 x4 hr)) := rfl
  rw [step, read_stepRawDeg, degL_23]; rfl

theorem degL_25 : arg4.view.read (Elt F) (arg4.view.writes (Elt F) (harg4.unread x4) (kernelRun_later.sl.H4_25 c arg1 harg1 arg4 harg4 x1 x4 hr)) = degUpTo X1 x4 25 (by decide) := by
  have step : arg4.view.writes (Elt F) (harg4.unread x4) (kernelRun_later.sl.H4_25 c arg1 harg1 arg4 harg4 x1 x4 hr)
      = stepRawDeg arg4 (wR arg1 harg1 x1 24 (by decide)) (hwR arg1 harg1 x1 hr 24 (by decide)) (arg4.view.writes (Elt F) (harg4.unread x4) (kernelRun_later.sl.H4_24 c arg1 harg1 arg4 harg4 x1 x4 hr)) := rfl
  rw [step, read_stepRawDeg, degL_24]; rfl

theorem degL_26 : arg4.view.read (Elt F) (arg4.view.writes (Elt F) (harg4.unread x4) (kernelRun_later.sl.H4_26 c arg1 harg1 arg4 harg4 x1 x4 hr)) = degUpTo X1 x4 26 (by decide) := by
  have step : arg4.view.writes (Elt F) (harg4.unread x4) (kernelRun_later.sl.H4_26 c arg1 harg1 arg4 harg4 x1 x4 hr)
      = stepRawDeg arg4 (wR arg1 harg1 x1 25 (by decide)) (hwR arg1 harg1 x1 hr 25 (by decide)) (arg4.view.writes (Elt F) (harg4.unread x4) (kernelRun_later.sl.H4_25 c arg1 harg1 arg4 harg4 x1 x4 hr)) := rfl
  rw [step, read_stepRawDeg, degL_25]; rfl

theorem degL_27 : arg4.view.read (Elt F) (arg4.view.writes (Elt F) (harg4.unread x4) (kernelRun_later.sl.H4_27 c arg1 harg1 arg4 harg4 x1 x4 hr)) = degUpTo X1 x4 27 (by decide) := by
  have step : arg4.view.writes (Elt F) (harg4.unread x4) (kernelRun_later.sl.H4_27 c arg1 harg1 arg4 harg4 x1 x4 hr)
      = stepRawDeg arg4 (wR arg1 harg1 x1 26 (by decide)) (hwR arg1 harg1 x1 hr 26 (by decide)) (arg4.view.writes (Elt F) (harg4.unread x4) (kernelRun_later.sl.H4_26 c arg1 harg1 arg4 harg4 x1 x4 hr)) := rfl
  rw [step, read_stepRawDeg, degL_26]; rfl

theorem degL_28 : arg4.view.read (Elt F) (arg4.view.writes (Elt F) (harg4.unread x4) (kernelRun_later.sl.H4_28 c arg1 harg1 arg4 harg4 x1 x4 hr)) = degUpTo X1 x4 28 (by decide) := by
  have step : arg4.view.writes (Elt F) (harg4.unread x4) (kernelRun_later.sl.H4_28 c arg1 harg1 arg4 harg4 x1 x4 hr)
      = stepRawDeg arg4 (wR arg1 harg1 x1 27 (by decide)) (hwR arg1 harg1 x1 hr 27 (by decide)) (arg4.view.writes (Elt F) (harg4.unread x4) (kernelRun_later.sl.H4_27 c arg1 harg1 arg4 harg4 x1 x4 hr)) := rfl
  rw [step, read_stepRawDeg, degL_27]; rfl

theorem degL_29 : arg4.view.read (Elt F) (arg4.view.writes (Elt F) (harg4.unread x4) (kernelRun_later.sl.H4_29 c arg1 harg1 arg4 harg4 x1 x4 hr)) = degUpTo X1 x4 29 (by decide) := by
  have step : arg4.view.writes (Elt F) (harg4.unread x4) (kernelRun_later.sl.H4_29 c arg1 harg1 arg4 harg4 x1 x4 hr)
      = stepRawDeg arg4 (wR arg1 harg1 x1 28 (by decide)) (hwR arg1 harg1 x1 hr 28 (by decide)) (arg4.view.writes (Elt F) (harg4.unread x4) (kernelRun_later.sl.H4_28 c arg1 harg1 arg4 harg4 x1 x4 hr)) := rfl
  rw [step, read_stepRawDeg, degL_28]; rfl

theorem degL_30 : arg4.view.read (Elt F) (arg4.view.writes (Elt F) (harg4.unread x4) (kernelRun_later.sl.H4_30 c arg1 harg1 arg4 harg4 x1 x4 hr)) = degUpTo X1 x4 30 (by decide) := by
  have step : arg4.view.writes (Elt F) (harg4.unread x4) (kernelRun_later.sl.H4_30 c arg1 harg1 arg4 harg4 x1 x4 hr)
      = stepRawDeg arg4 (wR arg1 harg1 x1 29 (by decide)) (hwR arg1 harg1 x1 hr 29 (by decide)) (arg4.view.writes (Elt F) (harg4.unread x4) (kernelRun_later.sl.H4_29 c arg1 harg1 arg4 harg4 x1 x4 hr)) := rfl
  rw [step, read_stepRawDeg, degL_29]; rfl

theorem degL_31 : arg4.view.read (Elt F) (arg4.view.writes (Elt F) (harg4.unread x4) (kernelRun_later.sl.H4_31 c arg1 harg1 arg4 harg4 x1 x4 hr)) = degUpTo X1 x4 31 (by decide) := by
  have step : arg4.view.writes (Elt F) (harg4.unread x4) (kernelRun_later.sl.H4_31 c arg1 harg1 arg4 harg4 x1 x4 hr)
      = stepRawDeg arg4 (wR arg1 harg1 x1 30 (by decide)) (hwR arg1 harg1 x1 hr 30 (by decide)) (arg4.view.writes (Elt F) (harg4.unread x4) (kernelRun_later.sl.H4_30 c arg1 harg1 arg4 harg4 x1 x4 hr)) := rfl
  rw [step, read_stepRawDeg, degL_30]; rfl

theorem degL_32 : arg4.view.read (Elt F) (arg4.view.writes (Elt F) (harg4.unread x4) (kernelRun_later.sl.H4_32 c arg1 harg1 arg4 harg4 x1 x4 hr)) = degUpTo X1 x4 32 (by decide) := by
  have step : arg4.view.writes (Elt F) (harg4.unread x4) (kernelRun_later.sl.H4_32 c arg1 harg1 arg4 harg4 x1 x4 hr)
      = stepRawDeg arg4 (wR arg1 harg1 x1 31 (by decide)) (hwR arg1 harg1 x1 hr 31 (by decide)) (arg4.view.writes (Elt F) (harg4.unread x4) (kernelRun_later.sl.H4_31 c arg1 harg1 arg4 harg4 x1 x4 hr)) := rfl
  rw [step, read_stepRawDeg, degL_31]; rfl

theorem degL_33 : arg4.view.read (Elt F) (arg4.view.writes (Elt F) (harg4.unread x4) (kernelRun_later.sl.H4_33 c arg1 harg1 arg4 harg4 x1 x4 hr)) = degUpTo X1 x4 33 (by decide) := by
  have step : arg4.view.writes (Elt F) (harg4.unread x4) (kernelRun_later.sl.H4_33 c arg1 harg1 arg4 harg4 x1 x4 hr)
      = stepRawDeg arg4 (wR arg1 harg1 x1 32 (by decide)) (hwR arg1 harg1 x1 hr 32 (by decide)) (arg4.view.writes (Elt F) (harg4.unread x4) (kernelRun_later.sl.H4_32 c arg1 harg1 arg4 harg4 x1 x4 hr)) := rfl
  rw [step, read_stepRawDeg, degL_32]; rfl

theorem degL_34 : arg4.view.read (Elt F) (arg4.view.writes (Elt F) (harg4.unread x4) (kernelRun_later.sl.H4_34 c arg1 harg1 arg4 harg4 x1 x4 hr)) = degUpTo X1 x4 34 (by decide) := by
  have step : arg4.view.writes (Elt F) (harg4.unread x4) (kernelRun_later.sl.H4_34 c arg1 harg1 arg4 harg4 x1 x4 hr)
      = stepRawDeg arg4 (wR arg1 harg1 x1 33 (by decide)) (hwR arg1 harg1 x1 hr 33 (by decide)) (arg4.view.writes (Elt F) (harg4.unread x4) (kernelRun_later.sl.H4_33 c arg1 harg1 arg4 harg4 x1 x4 hr)) := rfl
  rw [step, read_stepRawDeg, degL_33]; rfl

theorem degL_35 : arg4.view.read (Elt F) (arg4.view.writes (Elt F) (harg4.unread x4) (kernelRun_later.sl.H4_35 c arg1 harg1 arg4 harg4 x1 x4 hr)) = degUpTo X1 x4 35 (by decide) := by
  have step : arg4.view.writes (Elt F) (harg4.unread x4) (kernelRun_later.sl.H4_35 c arg1 harg1 arg4 harg4 x1 x4 hr)
      = stepRawDeg arg4 (wR arg1 harg1 x1 34 (by decide)) (hwR arg1 harg1 x1 hr 34 (by decide)) (arg4.view.writes (Elt F) (harg4.unread x4) (kernelRun_later.sl.H4_34 c arg1 harg1 arg4 harg4 x1 x4 hr)) := rfl
  rw [step, read_stepRawDeg, degL_34]; rfl

theorem degL_36 : arg4.view.read (Elt F) (arg4.view.writes (Elt F) (harg4.unread x4) (kernelRun_later.sl.H4_36 c arg1 harg1 arg4 harg4 x1 x4 hr)) = degUpTo X1 x4 36 (by decide) := by
  have step : arg4.view.writes (Elt F) (harg4.unread x4) (kernelRun_later.sl.H4_36 c arg1 harg1 arg4 harg4 x1 x4 hr)
      = stepRawDeg arg4 (wR arg1 harg1 x1 35 (by decide)) (hwR arg1 harg1 x1 hr 35 (by decide)) (arg4.view.writes (Elt F) (harg4.unread x4) (kernelRun_later.sl.H4_35 c arg1 harg1 arg4 harg4 x1 x4 hr)) := rfl
  rw [step, read_stepRawDeg, degL_35]; rfl

theorem degL_37 : arg4.view.read (Elt F) (arg4.view.writes (Elt F) (harg4.unread x4) (kernelRun_later.sl.H4_37 c arg1 harg1 arg4 harg4 x1 x4 hr)) = degUpTo X1 x4 37 (by decide) := by
  have step : arg4.view.writes (Elt F) (harg4.unread x4) (kernelRun_later.sl.H4_37 c arg1 harg1 arg4 harg4 x1 x4 hr)
      = stepRawDeg arg4 (wR arg1 harg1 x1 36 (by decide)) (hwR arg1 harg1 x1 hr 36 (by decide)) (arg4.view.writes (Elt F) (harg4.unread x4) (kernelRun_later.sl.H4_36 c arg1 harg1 arg4 harg4 x1 x4 hr)) := rfl
  rw [step, read_stepRawDeg, degL_36]; rfl

theorem degL_38 : arg4.view.read (Elt F) (arg4.view.writes (Elt F) (harg4.unread x4) (kernelRun_later.sl.H4_38 c arg1 harg1 arg4 harg4 x1 x4 hr)) = degUpTo X1 x4 38 (by decide) := by
  have step : arg4.view.writes (Elt F) (harg4.unread x4) (kernelRun_later.sl.H4_38 c arg1 harg1 arg4 harg4 x1 x4 hr)
      = stepRawDeg arg4 (wR arg1 harg1 x1 37 (by decide)) (hwR arg1 harg1 x1 hr 37 (by decide)) (arg4.view.writes (Elt F) (harg4.unread x4) (kernelRun_later.sl.H4_37 c arg1 harg1 arg4 harg4 x1 x4 hr)) := rfl
  rw [step, read_stepRawDeg, degL_37]; rfl

theorem degL_39 : arg4.view.read (Elt F) (arg4.view.writes (Elt F) (harg4.unread x4) (kernelRun_later.sl.H4_39 c arg1 harg1 arg4 harg4 x1 x4 hr)) = degUpTo X1 x4 39 (by decide) := by
  have step : arg4.view.writes (Elt F) (harg4.unread x4) (kernelRun_later.sl.H4_39 c arg1 harg1 arg4 harg4 x1 x4 hr)
      = stepRawDeg arg4 (wR arg1 harg1 x1 38 (by decide)) (hwR arg1 harg1 x1 hr 38 (by decide)) (arg4.view.writes (Elt F) (harg4.unread x4) (kernelRun_later.sl.H4_38 c arg1 harg1 arg4 harg4 x1 x4 hr)) := rfl
  rw [step, read_stepRawDeg, degL_38]; rfl

theorem degL_40 : arg4.view.read (Elt F) (arg4.view.writes (Elt F) (harg4.unread x4) (kernelRun_later.sl.H4_40 c arg1 harg1 arg4 harg4 x1 x4 hr)) = degUpTo X1 x4 40 (by decide) := by
  have step : arg4.view.writes (Elt F) (harg4.unread x4) (kernelRun_later.sl.H4_40 c arg1 harg1 arg4 harg4 x1 x4 hr)
      = stepRawDeg arg4 (wR arg1 harg1 x1 39 (by decide)) (hwR arg1 harg1 x1 hr 39 (by decide)) (arg4.view.writes (Elt F) (harg4.unread x4) (kernelRun_later.sl.H4_39 c arg1 harg1 arg4 harg4 x1 x4 hr)) := rfl
  rw [step, read_stepRawDeg, degL_39]; rfl

theorem degL_41 : arg4.view.read (Elt F) (arg4.view.writes (Elt F) (harg4.unread x4) (kernelRun_later.sl.H4_41 c arg1 harg1 arg4 harg4 x1 x4 hr)) = degUpTo X1 x4 41 (by decide) := by
  have step : arg4.view.writes (Elt F) (harg4.unread x4) (kernelRun_later.sl.H4_41 c arg1 harg1 arg4 harg4 x1 x4 hr)
      = stepRawDeg arg4 (wR arg1 harg1 x1 40 (by decide)) (hwR arg1 harg1 x1 hr 40 (by decide)) (arg4.view.writes (Elt F) (harg4.unread x4) (kernelRun_later.sl.H4_40 c arg1 harg1 arg4 harg4 x1 x4 hr)) := rfl
  rw [step, read_stepRawDeg, degL_40]; rfl

theorem degL_42 : arg4.view.read (Elt F) (arg4.view.writes (Elt F) (harg4.unread x4) (kernelRun_later.sl.H4_42 c arg1 harg1 arg4 harg4 x1 x4 hr)) = degUpTo X1 x4 42 (by decide) := by
  have step : arg4.view.writes (Elt F) (harg4.unread x4) (kernelRun_later.sl.H4_42 c arg1 harg1 arg4 harg4 x1 x4 hr)
      = stepRawDeg arg4 (wR arg1 harg1 x1 41 (by decide)) (hwR arg1 harg1 x1 hr 41 (by decide)) (arg4.view.writes (Elt F) (harg4.unread x4) (kernelRun_later.sl.H4_41 c arg1 harg1 arg4 harg4 x1 x4 hr)) := rfl
  rw [step, read_stepRawDeg, degL_41]; rfl

theorem degL_43 : arg4.view.read (Elt F) (arg4.view.writes (Elt F) (harg4.unread x4) (kernelRun_later.sl.H4_43 c arg1 harg1 arg4 harg4 x1 x4 hr)) = degUpTo X1 x4 43 (by decide) := by
  have step : arg4.view.writes (Elt F) (harg4.unread x4) (kernelRun_later.sl.H4_43 c arg1 harg1 arg4 harg4 x1 x4 hr)
      = stepRawDeg arg4 (wR arg1 harg1 x1 42 (by decide)) (hwR arg1 harg1 x1 hr 42 (by decide)) (arg4.view.writes (Elt F) (harg4.unread x4) (kernelRun_later.sl.H4_42 c arg1 harg1 arg4 harg4 x1 x4 hr)) := rfl
  rw [step, read_stepRawDeg, degL_42]; rfl

theorem degL_44 : arg4.view.read (Elt F) (arg4.view.writes (Elt F) (harg4.unread x4) (kernelRun_later.sl.H4_44 c arg1 harg1 arg4 harg4 x1 x4 hr)) = degUpTo X1 x4 44 (by decide) := by
  have step : arg4.view.writes (Elt F) (harg4.unread x4) (kernelRun_later.sl.H4_44 c arg1 harg1 arg4 harg4 x1 x4 hr)
      = stepRawDeg arg4 (wR arg1 harg1 x1 43 (by decide)) (hwR arg1 harg1 x1 hr 43 (by decide)) (arg4.view.writes (Elt F) (harg4.unread x4) (kernelRun_later.sl.H4_43 c arg1 harg1 arg4 harg4 x1 x4 hr)) := rfl
  rw [step, read_stepRawDeg, degL_43]; rfl

theorem degL_45 : arg4.view.read (Elt F) (arg4.view.writes (Elt F) (harg4.unread x4) (kernelRun_later.sl.H4_45 c arg1 harg1 arg4 harg4 x1 x4 hr)) = degUpTo X1 x4 45 (by decide) := by
  have step : arg4.view.writes (Elt F) (harg4.unread x4) (kernelRun_later.sl.H4_45 c arg1 harg1 arg4 harg4 x1 x4 hr)
      = stepRawDeg arg4 (wR arg1 harg1 x1 44 (by decide)) (hwR arg1 harg1 x1 hr 44 (by decide)) (arg4.view.writes (Elt F) (harg4.unread x4) (kernelRun_later.sl.H4_44 c arg1 harg1 arg4 harg4 x1 x4 hr)) := rfl
  rw [step, read_stepRawDeg, degL_44]; rfl

theorem degL_46 : arg4.view.read (Elt F) (arg4.view.writes (Elt F) (harg4.unread x4) (kernelRun_later.sl.H4_46 c arg1 harg1 arg4 harg4 x1 x4 hr)) = degUpTo X1 x4 46 (by decide) := by
  have step : arg4.view.writes (Elt F) (harg4.unread x4) (kernelRun_later.sl.H4_46 c arg1 harg1 arg4 harg4 x1 x4 hr)
      = stepRawDeg arg4 (wR arg1 harg1 x1 45 (by decide)) (hwR arg1 harg1 x1 hr 45 (by decide)) (arg4.view.writes (Elt F) (harg4.unread x4) (kernelRun_later.sl.H4_45 c arg1 harg1 arg4 harg4 x1 x4 hr)) := rfl
  rw [step, read_stepRawDeg, degL_45]; rfl

theorem degL_47 : arg4.view.read (Elt F) (arg4.view.writes (Elt F) (harg4.unread x4) (kernelRun_later.sl.H4_47 c arg1 harg1 arg4 harg4 x1 x4 hr)) = degUpTo X1 x4 47 (by decide) := by
  have step : arg4.view.writes (Elt F) (harg4.unread x4) (kernelRun_later.sl.H4_47 c arg1 harg1 arg4 harg4 x1 x4 hr)
      = stepRawDeg arg4 (wR arg1 harg1 x1 46 (by decide)) (hwR arg1 harg1 x1 hr 46 (by decide)) (arg4.view.writes (Elt F) (harg4.unread x4) (kernelRun_later.sl.H4_46 c arg1 harg1 arg4 harg4 x1 x4 hr)) := rfl
  rw [step, read_stepRawDeg, degL_46]; rfl

theorem degL_48 : arg4.view.read (Elt F) (arg4.view.writes (Elt F) (harg4.unread x4) (kernelRun_later.sl.H4_48 c arg1 harg1 arg4 harg4 x1 x4 hr)) = degUpTo X1 x4 48 (by decide) := by
  have step : arg4.view.writes (Elt F) (harg4.unread x4) (kernelRun_later.sl.H4_48 c arg1 harg1 arg4 harg4 x1 x4 hr)
      = stepRawDeg arg4 (wR arg1 harg1 x1 47 (by decide)) (hwR arg1 harg1 x1 hr 47 (by decide)) (arg4.view.writes (Elt F) (harg4.unread x4) (kernelRun_later.sl.H4_47 c arg1 harg1 arg4 harg4 x1 x4 hr)) := rfl
  rw [step, read_stepRawDeg, degL_47]; rfl

theorem degL_49 : arg4.view.read (Elt F) (arg4.view.writes (Elt F) (harg4.unread x4) (kernelRun_later.sl.H4_49 c arg1 harg1 arg4 harg4 x1 x4 hr)) = degUpTo X1 x4 49 (by decide) := by
  have step : arg4.view.writes (Elt F) (harg4.unread x4) (kernelRun_later.sl.H4_49 c arg1 harg1 arg4 harg4 x1 x4 hr)
      = stepRawDeg arg4 (wR arg1 harg1 x1 48 (by decide)) (hwR arg1 harg1 x1 hr 48 (by decide)) (arg4.view.writes (Elt F) (harg4.unread x4) (kernelRun_later.sl.H4_48 c arg1 harg1 arg4 harg4 x1 x4 hr)) := rfl
  rw [step, read_stepRawDeg, degL_48]; rfl

theorem degL_50 : arg4.view.read (Elt F) (arg4.view.writes (Elt F) (harg4.unread x4) (kernelRun_later.sl.H4_50 c arg1 harg1 arg4 harg4 x1 x4 hr)) = degUpTo X1 x4 50 (by decide) := by
  have step : arg4.view.writes (Elt F) (harg4.unread x4) (kernelRun_later.sl.H4_50 c arg1 harg1 arg4 harg4 x1 x4 hr)
      = stepRawDeg arg4 (wR arg1 harg1 x1 49 (by decide)) (hwR arg1 harg1 x1 hr 49 (by decide)) (arg4.view.writes (Elt F) (harg4.unread x4) (kernelRun_later.sl.H4_49 c arg1 harg1 arg4 harg4 x1 x4 hr)) := rfl
  rw [step, read_stepRawDeg, degL_49]; rfl

theorem degL_51 : arg4.view.read (Elt F) (arg4.view.writes (Elt F) (harg4.unread x4) (kernelRun_later.sl.H4_51 c arg1 harg1 arg4 harg4 x1 x4 hr)) = degUpTo X1 x4 51 (by decide) := by
  have step : arg4.view.writes (Elt F) (harg4.unread x4) (kernelRun_later.sl.H4_51 c arg1 harg1 arg4 harg4 x1 x4 hr)
      = stepRawDeg arg4 (wR arg1 harg1 x1 50 (by decide)) (hwR arg1 harg1 x1 hr 50 (by decide)) (arg4.view.writes (Elt F) (harg4.unread x4) (kernelRun_later.sl.H4_50 c arg1 harg1 arg4 harg4 x1 x4 hr)) := rfl
  rw [step, read_stepRawDeg, degL_50]; rfl

theorem degL_52 : arg4.view.read (Elt F) (arg4.view.writes (Elt F) (harg4.unread x4) (kernelRun_later.sl.H4_52 c arg1 harg1 arg4 harg4 x1 x4 hr)) = degUpTo X1 x4 52 (by decide) := by
  have step : arg4.view.writes (Elt F) (harg4.unread x4) (kernelRun_later.sl.H4_52 c arg1 harg1 arg4 harg4 x1 x4 hr)
      = stepRawDeg arg4 (wR arg1 harg1 x1 51 (by decide)) (hwR arg1 harg1 x1 hr 51 (by decide)) (arg4.view.writes (Elt F) (harg4.unread x4) (kernelRun_later.sl.H4_51 c arg1 harg1 arg4 harg4 x1 x4 hr)) := rfl
  rw [step, read_stepRawDeg, degL_51]; rfl

theorem degL_53 : arg4.view.read (Elt F) (arg4.view.writes (Elt F) (harg4.unread x4) (kernelRun_later.sl.H4_53 c arg1 harg1 arg4 harg4 x1 x4 hr)) = degUpTo X1 x4 53 (by decide) := by
  have step : arg4.view.writes (Elt F) (harg4.unread x4) (kernelRun_later.sl.H4_53 c arg1 harg1 arg4 harg4 x1 x4 hr)
      = stepRawDeg arg4 (wR arg1 harg1 x1 52 (by decide)) (hwR arg1 harg1 x1 hr 52 (by decide)) (arg4.view.writes (Elt F) (harg4.unread x4) (kernelRun_later.sl.H4_52 c arg1 harg1 arg4 harg4 x1 x4 hr)) := rfl
  rw [step, read_stepRawDeg, degL_52]; rfl

theorem degL_54 : arg4.view.read (Elt F) (arg4.view.writes (Elt F) (harg4.unread x4) (kernelRun_later.sl.H4_54 c arg1 harg1 arg4 harg4 x1 x4 hr)) = degUpTo X1 x4 54 (by decide) := by
  have step : arg4.view.writes (Elt F) (harg4.unread x4) (kernelRun_later.sl.H4_54 c arg1 harg1 arg4 harg4 x1 x4 hr)
      = stepRawDeg arg4 (wR arg1 harg1 x1 53 (by decide)) (hwR arg1 harg1 x1 hr 53 (by decide)) (arg4.view.writes (Elt F) (harg4.unread x4) (kernelRun_later.sl.H4_53 c arg1 harg1 arg4 harg4 x1 x4 hr)) := rfl
  rw [step, read_stepRawDeg, degL_53]; rfl

theorem degL_55 : arg4.view.read (Elt F) (arg4.view.writes (Elt F) (harg4.unread x4) (kernelRun_later.sl.H4_55 c arg1 harg1 arg4 harg4 x1 x4 hr)) = degUpTo X1 x4 55 (by decide) := by
  have step : arg4.view.writes (Elt F) (harg4.unread x4) (kernelRun_later.sl.H4_55 c arg1 harg1 arg4 harg4 x1 x4 hr)
      = stepRawDeg arg4 (wR arg1 harg1 x1 54 (by decide)) (hwR arg1 harg1 x1 hr 54 (by decide)) (arg4.view.writes (Elt F) (harg4.unread x4) (kernelRun_later.sl.H4_54 c arg1 harg1 arg4 harg4 x1 x4 hr)) := rfl
  rw [step, read_stepRawDeg, degL_54]; rfl

theorem degL_56 : arg4.view.read (Elt F) (arg4.view.writes (Elt F) (harg4.unread x4) (kernelRun_later.sl.H4_56 c arg1 harg1 arg4 harg4 x1 x4 hr)) = degUpTo X1 x4 56 (by decide) := by
  have step : arg4.view.writes (Elt F) (harg4.unread x4) (kernelRun_later.sl.H4_56 c arg1 harg1 arg4 harg4 x1 x4 hr)
      = stepRawDeg arg4 (wR arg1 harg1 x1 55 (by decide)) (hwR arg1 harg1 x1 hr 55 (by decide)) (arg4.view.writes (Elt F) (harg4.unread x4) (kernelRun_later.sl.H4_55 c arg1 harg1 arg4 harg4 x1 x4 hr)) := rfl
  rw [step, read_stepRawDeg, degL_55]; rfl

theorem degL_57 : arg4.view.read (Elt F) (arg4.view.writes (Elt F) (harg4.unread x4) (kernelRun_later.sl.H4_57 c arg1 harg1 arg4 harg4 x1 x4 hr)) = degUpTo X1 x4 57 (by decide) := by
  have step : arg4.view.writes (Elt F) (harg4.unread x4) (kernelRun_later.sl.H4_57 c arg1 harg1 arg4 harg4 x1 x4 hr)
      = stepRawDeg arg4 (wR arg1 harg1 x1 56 (by decide)) (hwR arg1 harg1 x1 hr 56 (by decide)) (arg4.view.writes (Elt F) (harg4.unread x4) (kernelRun_later.sl.H4_56 c arg1 harg1 arg4 harg4 x1 x4 hr)) := rfl
  rw [step, read_stepRawDeg, degL_56]; rfl

theorem degL_58 : arg4.view.read (Elt F) (arg4.view.writes (Elt F) (harg4.unread x4) (kernelRun_later.sl.H4_58 c arg1 harg1 arg4 harg4 x1 x4 hr)) = degUpTo X1 x4 58 (by decide) := by
  have step : arg4.view.writes (Elt F) (harg4.unread x4) (kernelRun_later.sl.H4_58 c arg1 harg1 arg4 harg4 x1 x4 hr)
      = stepRawDeg arg4 (wR arg1 harg1 x1 57 (by decide)) (hwR arg1 harg1 x1 hr 57 (by decide)) (arg4.view.writes (Elt F) (harg4.unread x4) (kernelRun_later.sl.H4_57 c arg1 harg1 arg4 harg4 x1 x4 hr)) := rfl
  rw [step, read_stepRawDeg, degL_57]; rfl

theorem degL_59 : arg4.view.read (Elt F) (arg4.view.writes (Elt F) (harg4.unread x4) (kernelRun_later.sl.H4_59 c arg1 harg1 arg4 harg4 x1 x4 hr)) = degUpTo X1 x4 59 (by decide) := by
  have step : arg4.view.writes (Elt F) (harg4.unread x4) (kernelRun_later.sl.H4_59 c arg1 harg1 arg4 harg4 x1 x4 hr)
      = stepRawDeg arg4 (wR arg1 harg1 x1 58 (by decide)) (hwR arg1 harg1 x1 hr 58 (by decide)) (arg4.view.writes (Elt F) (harg4.unread x4) (kernelRun_later.sl.H4_58 c arg1 harg1 arg4 harg4 x1 x4 hr)) := rfl
  rw [step, read_stepRawDeg, degL_58]; rfl

theorem degL_60 : arg4.view.read (Elt F) (arg4.view.writes (Elt F) (harg4.unread x4) (kernelRun_later.sl.H4_60 c arg1 harg1 arg4 harg4 x1 x4 hr)) = degUpTo X1 x4 60 (by decide) := by
  have step : arg4.view.writes (Elt F) (harg4.unread x4) (kernelRun_later.sl.H4_60 c arg1 harg1 arg4 harg4 x1 x4 hr)
      = stepRawDeg arg4 (wR arg1 harg1 x1 59 (by decide)) (hwR arg1 harg1 x1 hr 59 (by decide)) (arg4.view.writes (Elt F) (harg4.unread x4) (kernelRun_later.sl.H4_59 c arg1 harg1 arg4 harg4 x1 x4 hr)) := rfl
  rw [step, read_stepRawDeg, degL_59]; rfl

theorem degL_61 : arg4.view.read (Elt F) (arg4.view.writes (Elt F) (harg4.unread x4) (kernelRun_later.sl.H4_61 c arg1 harg1 arg4 harg4 x1 x4 hr)) = degUpTo X1 x4 61 (by decide) := by
  have step : arg4.view.writes (Elt F) (harg4.unread x4) (kernelRun_later.sl.H4_61 c arg1 harg1 arg4 harg4 x1 x4 hr)
      = stepRawDeg arg4 (wR arg1 harg1 x1 60 (by decide)) (hwR arg1 harg1 x1 hr 60 (by decide)) (arg4.view.writes (Elt F) (harg4.unread x4) (kernelRun_later.sl.H4_60 c arg1 harg1 arg4 harg4 x1 x4 hr)) := rfl
  rw [step, read_stepRawDeg, degL_60]; rfl

theorem degL_62 : arg4.view.read (Elt F) (arg4.view.writes (Elt F) (harg4.unread x4) (kernelRun_later.sl.H4_62 c arg1 harg1 arg4 harg4 x1 x4 hr)) = degUpTo X1 x4 62 (by decide) := by
  have step : arg4.view.writes (Elt F) (harg4.unread x4) (kernelRun_later.sl.H4_62 c arg1 harg1 arg4 harg4 x1 x4 hr)
      = stepRawDeg arg4 (wR arg1 harg1 x1 61 (by decide)) (hwR arg1 harg1 x1 hr 61 (by decide)) (arg4.view.writes (Elt F) (harg4.unread x4) (kernelRun_later.sl.H4_61 c arg1 harg1 arg4 harg4 x1 x4 hr)) := rfl
  rw [step, read_stepRawDeg, degL_61]; rfl

theorem degL_63 : arg4.view.read (Elt F) (arg4.view.writes (Elt F) (harg4.unread x4) (kernelRun_later.sl.H4_63 c arg1 harg1 arg4 harg4 x1 x4 hr)) = degUpTo X1 x4 63 (by decide) := by
  have step : arg4.view.writes (Elt F) (harg4.unread x4) (kernelRun_later.sl.H4_63 c arg1 harg1 arg4 harg4 x1 x4 hr)
      = stepRawDeg arg4 (wR arg1 harg1 x1 62 (by decide)) (hwR arg1 harg1 x1 hr 62 (by decide)) (arg4.view.writes (Elt F) (harg4.unread x4) (kernelRun_later.sl.H4_62 c arg1 harg1 arg4 harg4 x1 x4 hr)) := rfl
  rw [step, read_stepRawDeg, degL_62]; rfl

theorem degL_64 : arg4.view.read (Elt F) (arg4.view.writes (Elt F) (harg4.unread x4) (kernelRun_later.sl.H4_64 c arg1 harg1 arg4 harg4 x1 x4 hr)) = degUpTo X1 x4 64 (by decide) := by
  have step : arg4.view.writes (Elt F) (harg4.unread x4) (kernelRun_later.sl.H4_64 c arg1 harg1 arg4 harg4 x1 x4 hr)
      = stepRawDeg arg4 (wR arg1 harg1 x1 63 (by decide)) (hwR arg1 harg1 x1 hr 63 (by decide)) (arg4.view.writes (Elt F) (harg4.unread x4) (kernelRun_later.sl.H4_63 c arg1 harg1 arg4 harg4 x1 x4 hr)) := rfl
  rw [step, read_stepRawDeg, degL_63]; rfl

theorem degL_65 : arg4.view.read (Elt F) (arg4.view.writes (Elt F) (harg4.unread x4) (kernelRun_later.sl.H4_65 c arg1 harg1 arg4 harg4 x1 x4 hr)) = degUpTo X1 x4 65 (by decide) := by
  have step : arg4.view.writes (Elt F) (harg4.unread x4) (kernelRun_later.sl.H4_65 c arg1 harg1 arg4 harg4 x1 x4 hr)
      = stepRawDeg arg4 (wR arg1 harg1 x1 64 (by decide)) (hwR arg1 harg1 x1 hr 64 (by decide)) (arg4.view.writes (Elt F) (harg4.unread x4) (kernelRun_later.sl.H4_64 c arg1 harg1 arg4 harg4 x1 x4 hr)) := rfl
  rw [step, read_stepRawDeg, degL_64]; rfl

theorem degL_66 : arg4.view.read (Elt F) (arg4.view.writes (Elt F) (harg4.unread x4) (kernelRun_later.sl.H4_66 c arg1 harg1 arg4 harg4 x1 x4 hr)) = degUpTo X1 x4 66 (by decide) := by
  have step : arg4.view.writes (Elt F) (harg4.unread x4) (kernelRun_later.sl.H4_66 c arg1 harg1 arg4 harg4 x1 x4 hr)
      = stepRawDeg arg4 (wR arg1 harg1 x1 65 (by decide)) (hwR arg1 harg1 x1 hr 65 (by decide)) (arg4.view.writes (Elt F) (harg4.unread x4) (kernelRun_later.sl.H4_65 c arg1 harg1 arg4 harg4 x1 x4 hr)) := rfl
  rw [step, read_stepRawDeg, degL_65]; rfl

theorem degL_67 : arg4.view.read (Elt F) (arg4.view.writes (Elt F) (harg4.unread x4) (kernelRun_later.sl.H4_67 c arg1 harg1 arg4 harg4 x1 x4 hr)) = degUpTo X1 x4 67 (by decide) := by
  have step : arg4.view.writes (Elt F) (harg4.unread x4) (kernelRun_later.sl.H4_67 c arg1 harg1 arg4 harg4 x1 x4 hr)
      = stepRawDeg arg4 (wR arg1 harg1 x1 66 (by decide)) (hwR arg1 harg1 x1 hr 66 (by decide)) (arg4.view.writes (Elt F) (harg4.unread x4) (kernelRun_later.sl.H4_66 c arg1 harg1 arg4 harg4 x1 x4 hr)) := rfl
  rw [step, read_stepRawDeg, degL_66]; rfl

theorem degL_68 : arg4.view.read (Elt F) (arg4.view.writes (Elt F) (harg4.unread x4) (kernelRun_later.sl.H4_68 c arg1 harg1 arg4 harg4 x1 x4 hr)) = degUpTo X1 x4 68 (by decide) := by
  have step : arg4.view.writes (Elt F) (harg4.unread x4) (kernelRun_later.sl.H4_68 c arg1 harg1 arg4 harg4 x1 x4 hr)
      = stepRawDeg arg4 (wR arg1 harg1 x1 67 (by decide)) (hwR arg1 harg1 x1 hr 67 (by decide)) (arg4.view.writes (Elt F) (harg4.unread x4) (kernelRun_later.sl.H4_67 c arg1 harg1 arg4 harg4 x1 x4 hr)) := rfl
  rw [step, read_stepRawDeg, degL_67]; rfl

theorem degL_69 : arg4.view.read (Elt F) (arg4.view.writes (Elt F) (harg4.unread x4) (kernelRun_later.sl.H4_69 c arg1 harg1 arg4 harg4 x1 x4 hr)) = degUpTo X1 x4 69 (by decide) := by
  have step : arg4.view.writes (Elt F) (harg4.unread x4) (kernelRun_later.sl.H4_69 c arg1 harg1 arg4 harg4 x1 x4 hr)
      = stepRawDeg arg4 (wR arg1 harg1 x1 68 (by decide)) (hwR arg1 harg1 x1 hr 68 (by decide)) (arg4.view.writes (Elt F) (harg4.unread x4) (kernelRun_later.sl.H4_68 c arg1 harg1 arg4 harg4 x1 x4 hr)) := rfl
  rw [step, read_stepRawDeg, degL_68]; rfl

theorem degL_70 : arg4.view.read (Elt F) (arg4.view.writes (Elt F) (harg4.unread x4) (kernelRun_later.sl.H4_70 c arg1 harg1 arg4 harg4 x1 x4 hr)) = degUpTo X1 x4 70 (by decide) := by
  have step : arg4.view.writes (Elt F) (harg4.unread x4) (kernelRun_later.sl.H4_70 c arg1 harg1 arg4 harg4 x1 x4 hr)
      = stepRawDeg arg4 (wR arg1 harg1 x1 69 (by decide)) (hwR arg1 harg1 x1 hr 69 (by decide)) (arg4.view.writes (Elt F) (harg4.unread x4) (kernelRun_later.sl.H4_69 c arg1 harg1 arg4 harg4 x1 x4 hr)) := rfl
  rw [step, read_stepRawDeg, degL_69]; rfl

theorem degL_71 : arg4.view.read (Elt F) (arg4.view.writes (Elt F) (harg4.unread x4) (kernelRun_later.sl.H4_71 c arg1 harg1 arg4 harg4 x1 x4 hr)) = degUpTo X1 x4 71 (by decide) := by
  have step : arg4.view.writes (Elt F) (harg4.unread x4) (kernelRun_later.sl.H4_71 c arg1 harg1 arg4 harg4 x1 x4 hr)
      = stepRawDeg arg4 (wR arg1 harg1 x1 70 (by decide)) (hwR arg1 harg1 x1 hr 70 (by decide)) (arg4.view.writes (Elt F) (harg4.unread x4) (kernelRun_later.sl.H4_70 c arg1 harg1 arg4 harg4 x1 x4 hr)) := rfl
  rw [step, read_stepRawDeg, degL_70]; rfl

theorem degL_72 : arg4.view.read (Elt F) (arg4.view.writes (Elt F) (harg4.unread x4) (kernelRun_later.sl.H4_72 c arg1 harg1 arg4 harg4 x1 x4 hr)) = degUpTo X1 x4 72 (by decide) := by
  have step : arg4.view.writes (Elt F) (harg4.unread x4) (kernelRun_later.sl.H4_72 c arg1 harg1 arg4 harg4 x1 x4 hr)
      = stepRawDeg arg4 (wR arg1 harg1 x1 71 (by decide)) (hwR arg1 harg1 x1 hr 71 (by decide)) (arg4.view.writes (Elt F) (harg4.unread x4) (kernelRun_later.sl.H4_71 c arg1 harg1 arg4 harg4 x1 x4 hr)) := rfl
  rw [step, read_stepRawDeg, degL_71]; rfl

theorem degL_73 : arg4.view.read (Elt F) (arg4.view.writes (Elt F) (harg4.unread x4) (kernelRun_later.sl.H4_73 c arg1 harg1 arg4 harg4 x1 x4 hr)) = degUpTo X1 x4 73 (by decide) := by
  have step : arg4.view.writes (Elt F) (harg4.unread x4) (kernelRun_later.sl.H4_73 c arg1 harg1 arg4 harg4 x1 x4 hr)
      = stepRawDeg arg4 (wR arg1 harg1 x1 72 (by decide)) (hwR arg1 harg1 x1 hr 72 (by decide)) (arg4.view.writes (Elt F) (harg4.unread x4) (kernelRun_later.sl.H4_72 c arg1 harg1 arg4 harg4 x1 x4 hr)) := rfl
  rw [step, read_stepRawDeg, degL_72]; rfl

theorem degL_74 : arg4.view.read (Elt F) (arg4.view.writes (Elt F) (harg4.unread x4) (kernelRun_later.sl.H4_74 c arg1 harg1 arg4 harg4 x1 x4 hr)) = degUpTo X1 x4 74 (by decide) := by
  have step : arg4.view.writes (Elt F) (harg4.unread x4) (kernelRun_later.sl.H4_74 c arg1 harg1 arg4 harg4 x1 x4 hr)
      = stepRawDeg arg4 (wR arg1 harg1 x1 73 (by decide)) (hwR arg1 harg1 x1 hr 73 (by decide)) (arg4.view.writes (Elt F) (harg4.unread x4) (kernelRun_later.sl.H4_73 c arg1 harg1 arg4 harg4 x1 x4 hr)) := rfl
  rw [step, read_stepRawDeg, degL_73]; rfl

theorem degL_75 : arg4.view.read (Elt F) (arg4.view.writes (Elt F) (harg4.unread x4) (kernelRun_later.sl.H4_75 c arg1 harg1 arg4 harg4 x1 x4 hr)) = degUpTo X1 x4 75 (by decide) := by
  have step : arg4.view.writes (Elt F) (harg4.unread x4) (kernelRun_later.sl.H4_75 c arg1 harg1 arg4 harg4 x1 x4 hr)
      = stepRawDeg arg4 (wR arg1 harg1 x1 74 (by decide)) (hwR arg1 harg1 x1 hr 74 (by decide)) (arg4.view.writes (Elt F) (harg4.unread x4) (kernelRun_later.sl.H4_74 c arg1 harg1 arg4 harg4 x1 x4 hr)) := rfl
  rw [step, read_stepRawDeg, degL_74]; rfl

theorem degL_76 : arg4.view.read (Elt F) (arg4.view.writes (Elt F) (harg4.unread x4) (kernelRun_later.sl.H4_76 c arg1 harg1 arg4 harg4 x1 x4 hr)) = degUpTo X1 x4 76 (by decide) := by
  have step : arg4.view.writes (Elt F) (harg4.unread x4) (kernelRun_later.sl.H4_76 c arg1 harg1 arg4 harg4 x1 x4 hr)
      = stepRawDeg arg4 (wR arg1 harg1 x1 75 (by decide)) (hwR arg1 harg1 x1 hr 75 (by decide)) (arg4.view.writes (Elt F) (harg4.unread x4) (kernelRun_later.sl.H4_75 c arg1 harg1 arg4 harg4 x1 x4 hr)) := rfl
  rw [step, read_stepRawDeg, degL_75]; rfl

theorem degL_77 : arg4.view.read (Elt F) (arg4.view.writes (Elt F) (harg4.unread x4) (kernelRun_later.sl.H4_77 c arg1 harg1 arg4 harg4 x1 x4 hr)) = degUpTo X1 x4 77 (by decide) := by
  have step : arg4.view.writes (Elt F) (harg4.unread x4) (kernelRun_later.sl.H4_77 c arg1 harg1 arg4 harg4 x1 x4 hr)
      = stepRawDeg arg4 (wR arg1 harg1 x1 76 (by decide)) (hwR arg1 harg1 x1 hr 76 (by decide)) (arg4.view.writes (Elt F) (harg4.unread x4) (kernelRun_later.sl.H4_76 c arg1 harg1 arg4 harg4 x1 x4 hr)) := rfl
  rw [step, read_stepRawDeg, degL_76]; rfl

theorem degL_78 : arg4.view.read (Elt F) (arg4.view.writes (Elt F) (harg4.unread x4) (kernelRun_later.sl.H4_78 c arg1 harg1 arg4 harg4 x1 x4 hr)) = degUpTo X1 x4 78 (by decide) := by
  have step : arg4.view.writes (Elt F) (harg4.unread x4) (kernelRun_later.sl.H4_78 c arg1 harg1 arg4 harg4 x1 x4 hr)
      = stepRawDeg arg4 (wR arg1 harg1 x1 77 (by decide)) (hwR arg1 harg1 x1 hr 77 (by decide)) (arg4.view.writes (Elt F) (harg4.unread x4) (kernelRun_later.sl.H4_77 c arg1 harg1 arg4 harg4 x1 x4 hr)) := rfl
  rw [step, read_stepRawDeg, degL_77]; rfl

theorem degL_79 : arg4.view.read (Elt F) (arg4.view.writes (Elt F) (harg4.unread x4) (kernelRun_later.sl.H4_79 c arg1 harg1 arg4 harg4 x1 x4 hr)) = degUpTo X1 x4 79 (by decide) := by
  have step : arg4.view.writes (Elt F) (harg4.unread x4) (kernelRun_later.sl.H4_79 c arg1 harg1 arg4 harg4 x1 x4 hr)
      = stepRawDeg arg4 (wR arg1 harg1 x1 78 (by decide)) (hwR arg1 harg1 x1 hr 78 (by decide)) (arg4.view.writes (Elt F) (harg4.unread x4) (kernelRun_later.sl.H4_78 c arg1 harg1 arg4 harg4 x1 x4 hr)) := rfl
  rw [step, read_stepRawDeg, degL_78]; rfl

theorem degL_80 : arg4.view.read (Elt F) (arg4.view.writes (Elt F) (harg4.unread x4) (kernelRun_later.sl.H4_80 c arg1 harg1 arg4 harg4 x1 x4 hr)) = degUpTo X1 x4 80 (by decide) := by
  have step : arg4.view.writes (Elt F) (harg4.unread x4) (kernelRun_later.sl.H4_80 c arg1 harg1 arg4 harg4 x1 x4 hr)
      = stepRawDeg arg4 (wR arg1 harg1 x1 79 (by decide)) (hwR arg1 harg1 x1 hr 79 (by decide)) (arg4.view.writes (Elt F) (harg4.unread x4) (kernelRun_later.sl.H4_79 c arg1 harg1 arg4 harg4 x1 x4 hr)) := rfl
  rw [step, read_stepRawDeg, degL_79]; rfl

theorem degL_81 : arg4.view.read (Elt F) (arg4.view.writes (Elt F) (harg4.unread x4) (kernelRun_later.sl.H4_81 c arg1 harg1 arg4 harg4 x1 x4 hr)) = degUpTo X1 x4 81 (by decide) := by
  have step : arg4.view.writes (Elt F) (harg4.unread x4) (kernelRun_later.sl.H4_81 c arg1 harg1 arg4 harg4 x1 x4 hr)
      = stepRawDeg arg4 (wR arg1 harg1 x1 80 (by decide)) (hwR arg1 harg1 x1 hr 80 (by decide)) (arg4.view.writes (Elt F) (harg4.unread x4) (kernelRun_later.sl.H4_80 c arg1 harg1 arg4 harg4 x1 x4 hr)) := rfl
  rw [step, read_stepRawDeg, degL_80]; rfl

theorem degL_82 : arg4.view.read (Elt F) (arg4.view.writes (Elt F) (harg4.unread x4) (kernelRun_later.sl.H4_82 c arg1 harg1 arg4 harg4 x1 x4 hr)) = degUpTo X1 x4 82 (by decide) := by
  have step : arg4.view.writes (Elt F) (harg4.unread x4) (kernelRun_later.sl.H4_82 c arg1 harg1 arg4 harg4 x1 x4 hr)
      = stepRawDeg arg4 (wR arg1 harg1 x1 81 (by decide)) (hwR arg1 harg1 x1 hr 81 (by decide)) (arg4.view.writes (Elt F) (harg4.unread x4) (kernelRun_later.sl.H4_81 c arg1 harg1 arg4 harg4 x1 x4 hr)) := rfl
  rw [step, read_stepRawDeg, degL_81]; rfl

theorem degL_83 : arg4.view.read (Elt F) (arg4.view.writes (Elt F) (harg4.unread x4) (kernelRun_later.sl.H4_83 c arg1 harg1 arg4 harg4 x1 x4 hr)) = degUpTo X1 x4 83 (by decide) := by
  have step : arg4.view.writes (Elt F) (harg4.unread x4) (kernelRun_later.sl.H4_83 c arg1 harg1 arg4 harg4 x1 x4 hr)
      = stepRawDeg arg4 (wR arg1 harg1 x1 82 (by decide)) (hwR arg1 harg1 x1 hr 82 (by decide)) (arg4.view.writes (Elt F) (harg4.unread x4) (kernelRun_later.sl.H4_82 c arg1 harg1 arg4 harg4 x1 x4 hr)) := rfl
  rw [step, read_stepRawDeg, degL_82]; rfl

theorem degL_84 : arg4.view.read (Elt F) (arg4.view.writes (Elt F) (harg4.unread x4) (kernelRun_later.sl.H4_84 c arg1 harg1 arg4 harg4 x1 x4 hr)) = degUpTo X1 x4 84 (by decide) := by
  have step : arg4.view.writes (Elt F) (harg4.unread x4) (kernelRun_later.sl.H4_84 c arg1 harg1 arg4 harg4 x1 x4 hr)
      = stepRawDeg arg4 (wR arg1 harg1 x1 83 (by decide)) (hwR arg1 harg1 x1 hr 83 (by decide)) (arg4.view.writes (Elt F) (harg4.unread x4) (kernelRun_later.sl.H4_83 c arg1 harg1 arg4 harg4 x1 x4 hr)) := rfl
  rw [step, read_stepRawDeg, degL_83]; rfl

theorem degL_85 : arg4.view.read (Elt F) (arg4.view.writes (Elt F) (harg4.unread x4) (kernelRun_later.sl.H4_85 c arg1 harg1 arg4 harg4 x1 x4 hr)) = degUpTo X1 x4 85 (by decide) := by
  have step : arg4.view.writes (Elt F) (harg4.unread x4) (kernelRun_later.sl.H4_85 c arg1 harg1 arg4 harg4 x1 x4 hr)
      = stepRawDeg arg4 (wR arg1 harg1 x1 84 (by decide)) (hwR arg1 harg1 x1 hr 84 (by decide)) (arg4.view.writes (Elt F) (harg4.unread x4) (kernelRun_later.sl.H4_84 c arg1 harg1 arg4 harg4 x1 x4 hr)) := rfl
  rw [step, read_stepRawDeg, degL_84]; rfl

theorem degL_86 : arg4.view.read (Elt F) (arg4.view.writes (Elt F) (harg4.unread x4) (kernelRun_later.sl.H4_86 c arg1 harg1 arg4 harg4 x1 x4 hr)) = degUpTo X1 x4 86 (by decide) := by
  have step : arg4.view.writes (Elt F) (harg4.unread x4) (kernelRun_later.sl.H4_86 c arg1 harg1 arg4 harg4 x1 x4 hr)
      = stepRawDeg arg4 (wR arg1 harg1 x1 85 (by decide)) (hwR arg1 harg1 x1 hr 85 (by decide)) (arg4.view.writes (Elt F) (harg4.unread x4) (kernelRun_later.sl.H4_85 c arg1 harg1 arg4 harg4 x1 x4 hr)) := rfl
  rw [step, read_stepRawDeg, degL_85]; rfl

theorem degL_87 : arg4.view.read (Elt F) (arg4.view.writes (Elt F) (harg4.unread x4) (kernelRun_later.sl.H4_87 c arg1 harg1 arg4 harg4 x1 x4 hr)) = degUpTo X1 x4 87 (by decide) := by
  have step : arg4.view.writes (Elt F) (harg4.unread x4) (kernelRun_later.sl.H4_87 c arg1 harg1 arg4 harg4 x1 x4 hr)
      = stepRawDeg arg4 (wR arg1 harg1 x1 86 (by decide)) (hwR arg1 harg1 x1 hr 86 (by decide)) (arg4.view.writes (Elt F) (harg4.unread x4) (kernelRun_later.sl.H4_86 c arg1 harg1 arg4 harg4 x1 x4 hr)) := rfl
  rw [step, read_stepRawDeg, degL_86]; rfl

theorem degL_88 : arg4.view.read (Elt F) (arg4.view.writes (Elt F) (harg4.unread x4) (kernelRun_later.sl.H4_88 c arg1 harg1 arg4 harg4 x1 x4 hr)) = degUpTo X1 x4 88 (by decide) := by
  have step : arg4.view.writes (Elt F) (harg4.unread x4) (kernelRun_later.sl.H4_88 c arg1 harg1 arg4 harg4 x1 x4 hr)
      = stepRawDeg arg4 (wR arg1 harg1 x1 87 (by decide)) (hwR arg1 harg1 x1 hr 87 (by decide)) (arg4.view.writes (Elt F) (harg4.unread x4) (kernelRun_later.sl.H4_87 c arg1 harg1 arg4 harg4 x1 x4 hr)) := rfl
  rw [step, read_stepRawDeg, degL_87]; rfl

theorem degL_89 : arg4.view.read (Elt F) (arg4.view.writes (Elt F) (harg4.unread x4) (kernelRun_later.sl.H4_89 c arg1 harg1 arg4 harg4 x1 x4 hr)) = degUpTo X1 x4 89 (by decide) := by
  have step : arg4.view.writes (Elt F) (harg4.unread x4) (kernelRun_later.sl.H4_89 c arg1 harg1 arg4 harg4 x1 x4 hr)
      = stepRawDeg arg4 (wR arg1 harg1 x1 88 (by decide)) (hwR arg1 harg1 x1 hr 88 (by decide)) (arg4.view.writes (Elt F) (harg4.unread x4) (kernelRun_later.sl.H4_88 c arg1 harg1 arg4 harg4 x1 x4 hr)) := rfl
  rw [step, read_stepRawDeg, degL_88]; rfl

theorem degL_90 : arg4.view.read (Elt F) (arg4.view.writes (Elt F) (harg4.unread x4) (kernelRun_later.sl.H4_90 c arg1 harg1 arg4 harg4 x1 x4 hr)) = degUpTo X1 x4 90 (by decide) := by
  have step : arg4.view.writes (Elt F) (harg4.unread x4) (kernelRun_later.sl.H4_90 c arg1 harg1 arg4 harg4 x1 x4 hr)
      = stepRawDeg arg4 (wR arg1 harg1 x1 89 (by decide)) (hwR arg1 harg1 x1 hr 89 (by decide)) (arg4.view.writes (Elt F) (harg4.unread x4) (kernelRun_later.sl.H4_89 c arg1 harg1 arg4 harg4 x1 x4 hr)) := rfl
  rw [step, read_stepRawDeg, degL_89]; rfl

theorem degL_91 : arg4.view.read (Elt F) (arg4.view.writes (Elt F) (harg4.unread x4) (kernelRun_later.sl.H4_91 c arg1 harg1 arg4 harg4 x1 x4 hr)) = degUpTo X1 x4 91 (by decide) := by
  have step : arg4.view.writes (Elt F) (harg4.unread x4) (kernelRun_later.sl.H4_91 c arg1 harg1 arg4 harg4 x1 x4 hr)
      = stepRawDeg arg4 (wR arg1 harg1 x1 90 (by decide)) (hwR arg1 harg1 x1 hr 90 (by decide)) (arg4.view.writes (Elt F) (harg4.unread x4) (kernelRun_later.sl.H4_90 c arg1 harg1 arg4 harg4 x1 x4 hr)) := rfl
  rw [step, read_stepRawDeg, degL_90]; rfl

theorem degL_92 : arg4.view.read (Elt F) (arg4.view.writes (Elt F) (harg4.unread x4) (kernelRun_later.sl.H4_92 c arg1 harg1 arg4 harg4 x1 x4 hr)) = degUpTo X1 x4 92 (by decide) := by
  have step : arg4.view.writes (Elt F) (harg4.unread x4) (kernelRun_later.sl.H4_92 c arg1 harg1 arg4 harg4 x1 x4 hr)
      = stepRawDeg arg4 (wR arg1 harg1 x1 91 (by decide)) (hwR arg1 harg1 x1 hr 91 (by decide)) (arg4.view.writes (Elt F) (harg4.unread x4) (kernelRun_later.sl.H4_91 c arg1 harg1 arg4 harg4 x1 x4 hr)) := rfl
  rw [step, read_stepRawDeg, degL_91]; rfl

theorem degL_93 : arg4.view.read (Elt F) (arg4.view.writes (Elt F) (harg4.unread x4) (kernelRun_later.sl.H4_93 c arg1 harg1 arg4 harg4 x1 x4 hr)) = degUpTo X1 x4 93 (by decide) := by
  have step : arg4.view.writes (Elt F) (harg4.unread x4) (kernelRun_later.sl.H4_93 c arg1 harg1 arg4 harg4 x1 x4 hr)
      = stepRawDeg arg4 (wR arg1 harg1 x1 92 (by decide)) (hwR arg1 harg1 x1 hr 92 (by decide)) (arg4.view.writes (Elt F) (harg4.unread x4) (kernelRun_later.sl.H4_92 c arg1 harg1 arg4 harg4 x1 x4 hr)) := rfl
  rw [step, read_stepRawDeg, degL_92]; rfl

theorem degL_94 : arg4.view.read (Elt F) (arg4.view.writes (Elt F) (harg4.unread x4) (kernelRun_later.sl.H4_94 c arg1 harg1 arg4 harg4 x1 x4 hr)) = degUpTo X1 x4 94 (by decide) := by
  have step : arg4.view.writes (Elt F) (harg4.unread x4) (kernelRun_later.sl.H4_94 c arg1 harg1 arg4 harg4 x1 x4 hr)
      = stepRawDeg arg4 (wR arg1 harg1 x1 93 (by decide)) (hwR arg1 harg1 x1 hr 93 (by decide)) (arg4.view.writes (Elt F) (harg4.unread x4) (kernelRun_later.sl.H4_93 c arg1 harg1 arg4 harg4 x1 x4 hr)) := rfl
  rw [step, read_stepRawDeg, degL_93]; rfl

theorem degL_95 : arg4.view.read (Elt F) (arg4.view.writes (Elt F) (harg4.unread x4) (kernelRun_later.sl.H4_95 c arg1 harg1 arg4 harg4 x1 x4 hr)) = degUpTo X1 x4 95 (by decide) := by
  have step : arg4.view.writes (Elt F) (harg4.unread x4) (kernelRun_later.sl.H4_95 c arg1 harg1 arg4 harg4 x1 x4 hr)
      = stepRawDeg arg4 (wR arg1 harg1 x1 94 (by decide)) (hwR arg1 harg1 x1 hr 94 (by decide)) (arg4.view.writes (Elt F) (harg4.unread x4) (kernelRun_later.sl.H4_94 c arg1 harg1 arg4 harg4 x1 x4 hr)) := rfl
  rw [step, read_stepRawDeg, degL_94]; rfl

theorem degL_96 : arg4.view.read (Elt F) (arg4.view.writes (Elt F) (harg4.unread x4) (kernelRun_later.sl.H4_96 c arg1 harg1 arg4 harg4 x1 x4 hr)) = degUpTo X1 x4 96 (by decide) := by
  have step : arg4.view.writes (Elt F) (harg4.unread x4) (kernelRun_later.sl.H4_96 c arg1 harg1 arg4 harg4 x1 x4 hr)
      = stepRawDeg arg4 (wR arg1 harg1 x1 95 (by decide)) (hwR arg1 harg1 x1 hr 95 (by decide)) (arg4.view.writes (Elt F) (harg4.unread x4) (kernelRun_later.sl.H4_95 c arg1 harg1 arg4 harg4 x1 x4 hr)) := rfl
  rw [step, read_stepRawDeg, degL_95]; rfl

theorem degL_97 : arg4.view.read (Elt F) (arg4.view.writes (Elt F) (harg4.unread x4) (kernelRun_later.sl.H4_97 c arg1 harg1 arg4 harg4 x1 x4 hr)) = degUpTo X1 x4 97 (by decide) := by
  have step : arg4.view.writes (Elt F) (harg4.unread x4) (kernelRun_later.sl.H4_97 c arg1 harg1 arg4 harg4 x1 x4 hr)
      = stepRawDeg arg4 (wR arg1 harg1 x1 96 (by decide)) (hwR arg1 harg1 x1 hr 96 (by decide)) (arg4.view.writes (Elt F) (harg4.unread x4) (kernelRun_later.sl.H4_96 c arg1 harg1 arg4 harg4 x1 x4 hr)) := rfl
  rw [step, read_stepRawDeg, degL_96]; rfl

theorem degL_98 : arg4.view.read (Elt F) (arg4.view.writes (Elt F) (harg4.unread x4) (kernelRun_later.sl.H4_98 c arg1 harg1 arg4 harg4 x1 x4 hr)) = degUpTo X1 x4 98 (by decide) := by
  have step : arg4.view.writes (Elt F) (harg4.unread x4) (kernelRun_later.sl.H4_98 c arg1 harg1 arg4 harg4 x1 x4 hr)
      = stepRawDeg arg4 (wR arg1 harg1 x1 97 (by decide)) (hwR arg1 harg1 x1 hr 97 (by decide)) (arg4.view.writes (Elt F) (harg4.unread x4) (kernelRun_later.sl.H4_97 c arg1 harg1 arg4 harg4 x1 x4 hr)) := rfl
  rw [step, read_stepRawDeg, degL_97]; rfl

theorem degL_99 : arg4.view.read (Elt F) (arg4.view.writes (Elt F) (harg4.unread x4) (kernelRun_later.sl.H4_99 c arg1 harg1 arg4 harg4 x1 x4 hr)) = degUpTo X1 x4 99 (by decide) := by
  have step : arg4.view.writes (Elt F) (harg4.unread x4) (kernelRun_later.sl.H4_99 c arg1 harg1 arg4 harg4 x1 x4 hr)
      = stepRawDeg arg4 (wR arg1 harg1 x1 98 (by decide)) (hwR arg1 harg1 x1 hr 98 (by decide)) (arg4.view.writes (Elt F) (harg4.unread x4) (kernelRun_later.sl.H4_98 c arg1 harg1 arg4 harg4 x1 x4 hr)) := rfl
  rw [step, read_stepRawDeg, degL_98]; rfl

theorem degL_100 : arg4.view.read (Elt F) (arg4.view.writes (Elt F) (harg4.unread x4) (kernelRun_later.sl.H4_100 c arg1 harg1 arg4 harg4 x1 x4 hr)) = degUpTo X1 x4 100 (by decide) := by
  have step : arg4.view.writes (Elt F) (harg4.unread x4) (kernelRun_later.sl.H4_100 c arg1 harg1 arg4 harg4 x1 x4 hr)
      = stepRawDeg arg4 (wR arg1 harg1 x1 99 (by decide)) (hwR arg1 harg1 x1 hr 99 (by decide)) (arg4.view.writes (Elt F) (harg4.unread x4) (kernelRun_later.sl.H4_99 c arg1 harg1 arg4 harg4 x1 x4 hr)) := rfl
  rw [step, read_stepRawDeg, degL_99]; rfl

theorem degL_101 : arg4.view.read (Elt F) (arg4.view.writes (Elt F) (harg4.unread x4) (kernelRun_later.sl.H4_101 c arg1 harg1 arg4 harg4 x1 x4 hr)) = degUpTo X1 x4 101 (by decide) := by
  have step : arg4.view.writes (Elt F) (harg4.unread x4) (kernelRun_later.sl.H4_101 c arg1 harg1 arg4 harg4 x1 x4 hr)
      = stepRawDeg arg4 (wR arg1 harg1 x1 100 (by decide)) (hwR arg1 harg1 x1 hr 100 (by decide)) (arg4.view.writes (Elt F) (harg4.unread x4) (kernelRun_later.sl.H4_100 c arg1 harg1 arg4 harg4 x1 x4 hr)) := rfl
  rw [step, read_stepRawDeg, degL_100]; rfl

theorem degL_102 : arg4.view.read (Elt F) (arg4.view.writes (Elt F) (harg4.unread x4) (kernelRun_later.sl.H4_102 c arg1 harg1 arg4 harg4 x1 x4 hr)) = degUpTo X1 x4 102 (by decide) := by
  have step : arg4.view.writes (Elt F) (harg4.unread x4) (kernelRun_later.sl.H4_102 c arg1 harg1 arg4 harg4 x1 x4 hr)
      = stepRawDeg arg4 (wR arg1 harg1 x1 101 (by decide)) (hwR arg1 harg1 x1 hr 101 (by decide)) (arg4.view.writes (Elt F) (harg4.unread x4) (kernelRun_later.sl.H4_101 c arg1 harg1 arg4 harg4 x1 x4 hr)) := rfl
  rw [step, read_stepRawDeg, degL_101]; rfl

theorem degL_103 : arg4.view.read (Elt F) (arg4.view.writes (Elt F) (harg4.unread x4) (kernelRun_later.sl.H4_103 c arg1 harg1 arg4 harg4 x1 x4 hr)) = degUpTo X1 x4 103 (by decide) := by
  have step : arg4.view.writes (Elt F) (harg4.unread x4) (kernelRun_later.sl.H4_103 c arg1 harg1 arg4 harg4 x1 x4 hr)
      = stepRawDeg arg4 (wR arg1 harg1 x1 102 (by decide)) (hwR arg1 harg1 x1 hr 102 (by decide)) (arg4.view.writes (Elt F) (harg4.unread x4) (kernelRun_later.sl.H4_102 c arg1 harg1 arg4 harg4 x1 x4 hr)) := rfl
  rw [step, read_stepRawDeg, degL_102]; rfl

theorem degL_104 : arg4.view.read (Elt F) (arg4.view.writes (Elt F) (harg4.unread x4) (kernelRun_later.sl.H4_104 c arg1 harg1 arg4 harg4 x1 x4 hr)) = degUpTo X1 x4 104 (by decide) := by
  have step : arg4.view.writes (Elt F) (harg4.unread x4) (kernelRun_later.sl.H4_104 c arg1 harg1 arg4 harg4 x1 x4 hr)
      = stepRawDeg arg4 (wR arg1 harg1 x1 103 (by decide)) (hwR arg1 harg1 x1 hr 103 (by decide)) (arg4.view.writes (Elt F) (harg4.unread x4) (kernelRun_later.sl.H4_103 c arg1 harg1 arg4 harg4 x1 x4 hr)) := rfl
  rw [step, read_stepRawDeg, degL_103]; rfl

theorem degL_105 : arg4.view.read (Elt F) (arg4.view.writes (Elt F) (harg4.unread x4) (kernelRun_later.sl.H4_105 c arg1 harg1 arg4 harg4 x1 x4 hr)) = degUpTo X1 x4 105 (by decide) := by
  have step : arg4.view.writes (Elt F) (harg4.unread x4) (kernelRun_later.sl.H4_105 c arg1 harg1 arg4 harg4 x1 x4 hr)
      = stepRawDeg arg4 (wR arg1 harg1 x1 104 (by decide)) (hwR arg1 harg1 x1 hr 104 (by decide)) (arg4.view.writes (Elt F) (harg4.unread x4) (kernelRun_later.sl.H4_104 c arg1 harg1 arg4 harg4 x1 x4 hr)) := rfl
  rw [step, read_stepRawDeg, degL_104]; rfl

theorem degL_106 : arg4.view.read (Elt F) (arg4.view.writes (Elt F) (harg4.unread x4) (kernelRun_later.sl.H4_106 c arg1 harg1 arg4 harg4 x1 x4 hr)) = degUpTo X1 x4 106 (by decide) := by
  have step : arg4.view.writes (Elt F) (harg4.unread x4) (kernelRun_later.sl.H4_106 c arg1 harg1 arg4 harg4 x1 x4 hr)
      = stepRawDeg arg4 (wR arg1 harg1 x1 105 (by decide)) (hwR arg1 harg1 x1 hr 105 (by decide)) (arg4.view.writes (Elt F) (harg4.unread x4) (kernelRun_later.sl.H4_105 c arg1 harg1 arg4 harg4 x1 x4 hr)) := rfl
  rw [step, read_stepRawDeg, degL_105]; rfl

theorem degL_107 : arg4.view.read (Elt F) (arg4.view.writes (Elt F) (harg4.unread x4) (kernelRun_later.sl.H4_107 c arg1 harg1 arg4 harg4 x1 x4 hr)) = degUpTo X1 x4 107 (by decide) := by
  have step : arg4.view.writes (Elt F) (harg4.unread x4) (kernelRun_later.sl.H4_107 c arg1 harg1 arg4 harg4 x1 x4 hr)
      = stepRawDeg arg4 (wR arg1 harg1 x1 106 (by decide)) (hwR arg1 harg1 x1 hr 106 (by decide)) (arg4.view.writes (Elt F) (harg4.unread x4) (kernelRun_later.sl.H4_106 c arg1 harg1 arg4 harg4 x1 x4 hr)) := rfl
  rw [step, read_stepRawDeg, degL_106]; rfl

theorem degL_108 : arg4.view.read (Elt F) (arg4.view.writes (Elt F) (harg4.unread x4) (kernelRun_later.sl.H4_108 c arg1 harg1 arg4 harg4 x1 x4 hr)) = degUpTo X1 x4 108 (by decide) := by
  have step : arg4.view.writes (Elt F) (harg4.unread x4) (kernelRun_later.sl.H4_108 c arg1 harg1 arg4 harg4 x1 x4 hr)
      = stepRawDeg arg4 (wR arg1 harg1 x1 107 (by decide)) (hwR arg1 harg1 x1 hr 107 (by decide)) (arg4.view.writes (Elt F) (harg4.unread x4) (kernelRun_later.sl.H4_107 c arg1 harg1 arg4 harg4 x1 x4 hr)) := rfl
  rw [step, read_stepRawDeg, degL_107]; rfl

theorem degL_109 : arg4.view.read (Elt F) (arg4.view.writes (Elt F) (harg4.unread x4) (kernelRun_later.sl.H4_109 c arg1 harg1 arg4 harg4 x1 x4 hr)) = degUpTo X1 x4 109 (by decide) := by
  have step : arg4.view.writes (Elt F) (harg4.unread x4) (kernelRun_later.sl.H4_109 c arg1 harg1 arg4 harg4 x1 x4 hr)
      = stepRawDeg arg4 (wR arg1 harg1 x1 108 (by decide)) (hwR arg1 harg1 x1 hr 108 (by decide)) (arg4.view.writes (Elt F) (harg4.unread x4) (kernelRun_later.sl.H4_108 c arg1 harg1 arg4 harg4 x1 x4 hr)) := rfl
  rw [step, read_stepRawDeg, degL_108]; rfl

theorem degL_110 : arg4.view.read (Elt F) (arg4.view.writes (Elt F) (harg4.unread x4) (kernelRun_later.sl.H4_110 c arg1 harg1 arg4 harg4 x1 x4 hr)) = degUpTo X1 x4 110 (by decide) := by
  have step : arg4.view.writes (Elt F) (harg4.unread x4) (kernelRun_later.sl.H4_110 c arg1 harg1 arg4 harg4 x1 x4 hr)
      = stepRawDeg arg4 (wR arg1 harg1 x1 109 (by decide)) (hwR arg1 harg1 x1 hr 109 (by decide)) (arg4.view.writes (Elt F) (harg4.unread x4) (kernelRun_later.sl.H4_109 c arg1 harg1 arg4 harg4 x1 x4 hr)) := rfl
  rw [step, read_stepRawDeg, degL_109]; rfl

theorem degL_111 : arg4.view.read (Elt F) (arg4.view.writes (Elt F) (harg4.unread x4) (kernelRun_later.sl.H4_111 c arg1 harg1 arg4 harg4 x1 x4 hr)) = degUpTo X1 x4 111 (by decide) := by
  have step : arg4.view.writes (Elt F) (harg4.unread x4) (kernelRun_later.sl.H4_111 c arg1 harg1 arg4 harg4 x1 x4 hr)
      = stepRawDeg arg4 (wR arg1 harg1 x1 110 (by decide)) (hwR arg1 harg1 x1 hr 110 (by decide)) (arg4.view.writes (Elt F) (harg4.unread x4) (kernelRun_later.sl.H4_110 c arg1 harg1 arg4 harg4 x1 x4 hr)) := rfl
  rw [step, read_stepRawDeg, degL_110]; rfl

theorem degL_112 : arg4.view.read (Elt F) (arg4.view.writes (Elt F) (harg4.unread x4) (kernelRun_later.sl.H4_112 c arg1 harg1 arg4 harg4 x1 x4 hr)) = degUpTo X1 x4 112 (by decide) := by
  have step : arg4.view.writes (Elt F) (harg4.unread x4) (kernelRun_later.sl.H4_112 c arg1 harg1 arg4 harg4 x1 x4 hr)
      = stepRawDeg arg4 (wR arg1 harg1 x1 111 (by decide)) (hwR arg1 harg1 x1 hr 111 (by decide)) (arg4.view.writes (Elt F) (harg4.unread x4) (kernelRun_later.sl.H4_111 c arg1 harg1 arg4 harg4 x1 x4 hr)) := rfl
  rw [step, read_stepRawDeg, degL_111]; rfl

theorem degL_113 : arg4.view.read (Elt F) (arg4.view.writes (Elt F) (harg4.unread x4) (kernelRun_later.sl.H4_113 c arg1 harg1 arg4 harg4 x1 x4 hr)) = degUpTo X1 x4 113 (by decide) := by
  have step : arg4.view.writes (Elt F) (harg4.unread x4) (kernelRun_later.sl.H4_113 c arg1 harg1 arg4 harg4 x1 x4 hr)
      = stepRawDeg arg4 (wR arg1 harg1 x1 112 (by decide)) (hwR arg1 harg1 x1 hr 112 (by decide)) (arg4.view.writes (Elt F) (harg4.unread x4) (kernelRun_later.sl.H4_112 c arg1 harg1 arg4 harg4 x1 x4 hr)) := rfl
  rw [step, read_stepRawDeg, degL_112]; rfl

theorem degL_114 : arg4.view.read (Elt F) (arg4.view.writes (Elt F) (harg4.unread x4) (kernelRun_later.sl.H4_114 c arg1 harg1 arg4 harg4 x1 x4 hr)) = degUpTo X1 x4 114 (by decide) := by
  have step : arg4.view.writes (Elt F) (harg4.unread x4) (kernelRun_later.sl.H4_114 c arg1 harg1 arg4 harg4 x1 x4 hr)
      = stepRawDeg arg4 (wR arg1 harg1 x1 113 (by decide)) (hwR arg1 harg1 x1 hr 113 (by decide)) (arg4.view.writes (Elt F) (harg4.unread x4) (kernelRun_later.sl.H4_113 c arg1 harg1 arg4 harg4 x1 x4 hr)) := rfl
  rw [step, read_stepRawDeg, degL_113]; rfl

theorem degL_115 : arg4.view.read (Elt F) (arg4.view.writes (Elt F) (harg4.unread x4) (kernelRun_later.sl.H4_115 c arg1 harg1 arg4 harg4 x1 x4 hr)) = degUpTo X1 x4 115 (by decide) := by
  have step : arg4.view.writes (Elt F) (harg4.unread x4) (kernelRun_later.sl.H4_115 c arg1 harg1 arg4 harg4 x1 x4 hr)
      = stepRawDeg arg4 (wR arg1 harg1 x1 114 (by decide)) (hwR arg1 harg1 x1 hr 114 (by decide)) (arg4.view.writes (Elt F) (harg4.unread x4) (kernelRun_later.sl.H4_114 c arg1 harg1 arg4 harg4 x1 x4 hr)) := rfl
  rw [step, read_stepRawDeg, degL_114]; rfl

theorem degL_116 : arg4.view.read (Elt F) (arg4.view.writes (Elt F) (harg4.unread x4) (kernelRun_later.sl.H4_116 c arg1 harg1 arg4 harg4 x1 x4 hr)) = degUpTo X1 x4 116 (by decide) := by
  have step : arg4.view.writes (Elt F) (harg4.unread x4) (kernelRun_later.sl.H4_116 c arg1 harg1 arg4 harg4 x1 x4 hr)
      = stepRawDeg arg4 (wR arg1 harg1 x1 115 (by decide)) (hwR arg1 harg1 x1 hr 115 (by decide)) (arg4.view.writes (Elt F) (harg4.unread x4) (kernelRun_later.sl.H4_115 c arg1 harg1 arg4 harg4 x1 x4 hr)) := rfl
  rw [step, read_stepRawDeg, degL_115]; rfl

theorem degL_117 : arg4.view.read (Elt F) (arg4.view.writes (Elt F) (harg4.unread x4) (kernelRun_later.sl.H4_117 c arg1 harg1 arg4 harg4 x1 x4 hr)) = degUpTo X1 x4 117 (by decide) := by
  have step : arg4.view.writes (Elt F) (harg4.unread x4) (kernelRun_later.sl.H4_117 c arg1 harg1 arg4 harg4 x1 x4 hr)
      = stepRawDeg arg4 (wR arg1 harg1 x1 116 (by decide)) (hwR arg1 harg1 x1 hr 116 (by decide)) (arg4.view.writes (Elt F) (harg4.unread x4) (kernelRun_later.sl.H4_116 c arg1 harg1 arg4 harg4 x1 x4 hr)) := rfl
  rw [step, read_stepRawDeg, degL_116]; rfl

theorem degL_118 : arg4.view.read (Elt F) (arg4.view.writes (Elt F) (harg4.unread x4) (kernelRun_later.sl.H4_118 c arg1 harg1 arg4 harg4 x1 x4 hr)) = degUpTo X1 x4 118 (by decide) := by
  have step : arg4.view.writes (Elt F) (harg4.unread x4) (kernelRun_later.sl.H4_118 c arg1 harg1 arg4 harg4 x1 x4 hr)
      = stepRawDeg arg4 (wR arg1 harg1 x1 117 (by decide)) (hwR arg1 harg1 x1 hr 117 (by decide)) (arg4.view.writes (Elt F) (harg4.unread x4) (kernelRun_later.sl.H4_117 c arg1 harg1 arg4 harg4 x1 x4 hr)) := rfl
  rw [step, read_stepRawDeg, degL_117]; rfl

theorem degL_119 : arg4.view.read (Elt F) (arg4.view.writes (Elt F) (harg4.unread x4) (kernelRun_later.sl.H4_119 c arg1 harg1 arg4 harg4 x1 x4 hr)) = degUpTo X1 x4 119 (by decide) := by
  have step : arg4.view.writes (Elt F) (harg4.unread x4) (kernelRun_later.sl.H4_119 c arg1 harg1 arg4 harg4 x1 x4 hr)
      = stepRawDeg arg4 (wR arg1 harg1 x1 118 (by decide)) (hwR arg1 harg1 x1 hr 118 (by decide)) (arg4.view.writes (Elt F) (harg4.unread x4) (kernelRun_later.sl.H4_118 c arg1 harg1 arg4 harg4 x1 x4 hr)) := rfl
  rw [step, read_stepRawDeg, degL_118]; rfl

theorem degL_120 : arg4.view.read (Elt F) (arg4.view.writes (Elt F) (harg4.unread x4) (kernelRun_later.sl.H4_120 c arg1 harg1 arg4 harg4 x1 x4 hr)) = degUpTo X1 x4 120 (by decide) := by
  have step : arg4.view.writes (Elt F) (harg4.unread x4) (kernelRun_later.sl.H4_120 c arg1 harg1 arg4 harg4 x1 x4 hr)
      = stepRawDeg arg4 (wR arg1 harg1 x1 119 (by decide)) (hwR arg1 harg1 x1 hr 119 (by decide)) (arg4.view.writes (Elt F) (harg4.unread x4) (kernelRun_later.sl.H4_119 c arg1 harg1 arg4 harg4 x1 x4 hr)) := rfl
  rw [step, read_stepRawDeg, degL_119]; rfl

theorem degL_121 : arg4.view.read (Elt F) (arg4.view.writes (Elt F) (harg4.unread x4) (kernelRun_later.sl.H4_121 c arg1 harg1 arg4 harg4 x1 x4 hr)) = degUpTo X1 x4 121 (by decide) := by
  have step : arg4.view.writes (Elt F) (harg4.unread x4) (kernelRun_later.sl.H4_121 c arg1 harg1 arg4 harg4 x1 x4 hr)
      = stepRawDeg arg4 (wR arg1 harg1 x1 120 (by decide)) (hwR arg1 harg1 x1 hr 120 (by decide)) (arg4.view.writes (Elt F) (harg4.unread x4) (kernelRun_later.sl.H4_120 c arg1 harg1 arg4 harg4 x1 x4 hr)) := rfl
  rw [step, read_stepRawDeg, degL_120]; rfl

theorem degL_122 : arg4.view.read (Elt F) (arg4.view.writes (Elt F) (harg4.unread x4) (kernelRun_later.sl.H4_122 c arg1 harg1 arg4 harg4 x1 x4 hr)) = degUpTo X1 x4 122 (by decide) := by
  have step : arg4.view.writes (Elt F) (harg4.unread x4) (kernelRun_later.sl.H4_122 c arg1 harg1 arg4 harg4 x1 x4 hr)
      = stepRawDeg arg4 (wR arg1 harg1 x1 121 (by decide)) (hwR arg1 harg1 x1 hr 121 (by decide)) (arg4.view.writes (Elt F) (harg4.unread x4) (kernelRun_later.sl.H4_121 c arg1 harg1 arg4 harg4 x1 x4 hr)) := rfl
  rw [step, read_stepRawDeg, degL_121]; rfl

theorem degL_123 : arg4.view.read (Elt F) (arg4.view.writes (Elt F) (harg4.unread x4) (kernelRun_later.sl.H4_123 c arg1 harg1 arg4 harg4 x1 x4 hr)) = degUpTo X1 x4 123 (by decide) := by
  have step : arg4.view.writes (Elt F) (harg4.unread x4) (kernelRun_later.sl.H4_123 c arg1 harg1 arg4 harg4 x1 x4 hr)
      = stepRawDeg arg4 (wR arg1 harg1 x1 122 (by decide)) (hwR arg1 harg1 x1 hr 122 (by decide)) (arg4.view.writes (Elt F) (harg4.unread x4) (kernelRun_later.sl.H4_122 c arg1 harg1 arg4 harg4 x1 x4 hr)) := rfl
  rw [step, read_stepRawDeg, degL_122]; rfl

theorem degL_124 : arg4.view.read (Elt F) (arg4.view.writes (Elt F) (harg4.unread x4) (kernelRun_later.sl.H4_124 c arg1 harg1 arg4 harg4 x1 x4 hr)) = degUpTo X1 x4 124 (by decide) := by
  have step : arg4.view.writes (Elt F) (harg4.unread x4) (kernelRun_later.sl.H4_124 c arg1 harg1 arg4 harg4 x1 x4 hr)
      = stepRawDeg arg4 (wR arg1 harg1 x1 123 (by decide)) (hwR arg1 harg1 x1 hr 123 (by decide)) (arg4.view.writes (Elt F) (harg4.unread x4) (kernelRun_later.sl.H4_123 c arg1 harg1 arg4 harg4 x1 x4 hr)) := rfl
  rw [step, read_stepRawDeg, degL_123]; rfl

theorem degL_125 : arg4.view.read (Elt F) (arg4.view.writes (Elt F) (harg4.unread x4) (kernelRun_later.sl.H4_125 c arg1 harg1 arg4 harg4 x1 x4 hr)) = degUpTo X1 x4 125 (by decide) := by
  have step : arg4.view.writes (Elt F) (harg4.unread x4) (kernelRun_later.sl.H4_125 c arg1 harg1 arg4 harg4 x1 x4 hr)
      = stepRawDeg arg4 (wR arg1 harg1 x1 124 (by decide)) (hwR arg1 harg1 x1 hr 124 (by decide)) (arg4.view.writes (Elt F) (harg4.unread x4) (kernelRun_later.sl.H4_124 c arg1 harg1 arg4 harg4 x1 x4 hr)) := rfl
  rw [step, read_stepRawDeg, degL_124]; rfl

theorem degL_126 : arg4.view.read (Elt F) (arg4.view.writes (Elt F) (harg4.unread x4) (kernelRun_later.sl.H4_126 c arg1 harg1 arg4 harg4 x1 x4 hr)) = degUpTo X1 x4 126 (by decide) := by
  have step : arg4.view.writes (Elt F) (harg4.unread x4) (kernelRun_later.sl.H4_126 c arg1 harg1 arg4 harg4 x1 x4 hr)
      = stepRawDeg arg4 (wR arg1 harg1 x1 125 (by decide)) (hwR arg1 harg1 x1 hr 125 (by decide)) (arg4.view.writes (Elt F) (harg4.unread x4) (kernelRun_later.sl.H4_125 c arg1 harg1 arg4 harg4 x1 x4 hr)) := rfl
  rw [step, read_stepRawDeg, degL_125]; rfl

theorem degL_127 : arg4.view.read (Elt F) (arg4.view.writes (Elt F) (harg4.unread x4) (kernelRun_later.sl.H4_127 c arg1 harg1 arg4 harg4 x1 x4 hr)) = degUpTo X1 x4 127 (by decide) := by
  have step : arg4.view.writes (Elt F) (harg4.unread x4) (kernelRun_later.sl.H4_127 c arg1 harg1 arg4 harg4 x1 x4 hr)
      = stepRawDeg arg4 (wR arg1 harg1 x1 126 (by decide)) (hwR arg1 harg1 x1 hr 126 (by decide)) (arg4.view.writes (Elt F) (harg4.unread x4) (kernelRun_later.sl.H4_126 c arg1 harg1 arg4 harg4 x1 x4 hr)) := rfl
  rw [step, read_stepRawDeg, degL_126]; rfl

theorem degL_128 : arg4.view.read (Elt F) (arg4.view.writes (Elt F) (harg4.unread x4) (kernelRun_later (Ix := Ix) (Name := Name) (U := U) (Lvl := Lvl) 𝒱₀ c i arg1 harg1 arg2 harg2 arg3 harg3 arg4 harg4 hc0 x1 x2 x3 x4 hr).1.2) = degUpTo X1 x4 128 (by decide) := by
  have step : arg4.view.writes (Elt F) (harg4.unread x4) (kernelRun_later (Ix := Ix) (Name := Name) (U := U) (Lvl := Lvl) 𝒱₀ c i arg1 harg1 arg2 harg2 arg3 harg3 arg4 harg4 hc0 x1 x2 x3 x4 hr).1.2
      = stepRawDeg arg4 (wR arg1 harg1 x1 127 (by decide)) (hwR arg1 harg1 x1 hr 127 (by decide)) (arg4.view.writes (Elt F) (harg4.unread x4) (kernelRun_later.sl.H4_127 c arg1 harg1 arg4 harg4 x1 x4 hr)) := rfl
  rw [step, read_stepRawDeg, degL_127]; rfl

/-- WHAT THE POINT LEAVES: its 128 updates of what the accumulator held. -/
theorem later_deg : arg4.view.read (Elt F) (arg4.view.writes (Elt F) (harg4.unread x4) (kernelRun_later (Ix := Ix) (Name := Name) (U := U) (Lvl := Lvl) 𝒱₀ c i arg1 harg1 arg2 harg2 arg3 harg3 arg4 harg4 hc0 x1 x2 x3 x4 hr).1.2) = chunkDeg x1 x4 := by
  have h := degL_128 c arg1 harg1 arg2 harg2 arg3 harg3 arg4 harg4 x1 x2 x3 x4 hr 𝒱₀ i hc0 (Ix := Ix) (Name := Name) (U := U) (Lvl := Lvl)
  rw [harg1.read_unread] at h
  exact h

end Chain

end Cert.K.Scat

end
-- ==== Proof.ScatBodyLK.lean ====
import proofs.«202620_g33904471835419_cont_8to1_b_799_54_alg».proof.Proof.ScatBodyCoreK
import proofs.«202620_g33904471835419_cont_8to1_b_799_54_alg».proof.Proof.ScatChainLAK
import proofs.«202620_g33904471835419_cont_8to1_b_799_54_alg».proof.Proof.ScatChainLDK

/-!
# The scatter region: the body's triple at a later point

The run of the body at a later point leaves each accumulator at its 128 stores over what it held; read back, the
stores are the point's update. So the triple: the accumulators from what they held to the update of it.
-/

set_option maxRecDepth 16384

noncomputable section

namespace Cert.K.Scat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The body at a later point. -/
theorem sound_kernel1_later (𝒱₀ : Variants) : LaterTriple (F := F) (Ix := Ix) (Name := Name) (U := U) (Lvl := Lvl) 𝒱₀ := by
  intro c E i arg1 harg1 arg2 harg2 arg3 harg3 arg4 harg4 hc0 x1 x2 x3 x4 hr K
  iintro ⟨H1, H2, H3, H4, Hk⟩
  iapply ((kernelRun_later (Ix := Ix) (Name := Name) (U := U) (Lvl := Lvl) 𝒱₀ c i arg1 harg1 arg2 harg2 arg3 harg3 arg4 harg4 hc0 x1 x2 x3 x4 hr).2 E K)
  isplitl [H1]; · iexact H1
  isplitl [H2]; · iexact H2
  isplitl [H3]; · iexact H3
  isplitl [H4]; · iexact H4
  iintro ⟨H1, H2, H3, H4⟩
  iapply Hk
  isplitl [H1]; · iexact H1
  isplitl [H2]; · iexact H2
  isplitl [H3]
  · unfold owns; iexists _; isplitr
    swap; · iexact H3
    ipureintro
    exact later_agg c arg1 harg1 arg2 harg2 arg3 harg3 arg4 harg4 x1 x2 x3 x4 hr 𝒱₀ i hc0
  · unfold owns; iexists _; isplitr
    swap; · iexact H4
    ipureintro
    exact later_deg c arg1 harg1 arg2 harg2 arg3 harg3 arg4 harg4 x1 x2 x3 x4 hr 𝒱₀ i hc0

end Cert.K.Scat

end
-- ==== Proof.ScatRun0K.lean ====
import proofs.«202620_g33904471835419_cont_8to1_b_799_54_alg».proof.Proof.ScatRunK
import proofs.«202620_g33904471835419_cont_8to1_b_799_54_alg».proof.Proof.ScatStepK

/-!
# The scatter region: the body at the first point

The grid coordinate enters the body through one condition only, the test that opens the body: is this the first
point? Where it holds the body first reads each accumulator whole and stores zeros over it; where it fails it does
nothing there; from then on the body is the same text, and no later statement mentions the coordinate. So the body at
the first point IS the two zero stores followed by the body as at a later point — an equation between programs,
by unfolding the part that holds the condition and re-associating the sequencing.

After the two stores each accumulator reads as the array of zeros whatever it held. So the run at the first point
is: the two stores, then the later point's run from accumulators at zeros; the pieces it leaves are the later
point's, written over zeros, and do not depend on what the accumulators held.
-/

set_option maxRecDepth 65536

noncomputable section

namespace Cert.K.Scat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- What the body does at the first point before anything else: each accumulator read whole and overwritten with zeros. -/
def zeroStores (arg3 : Memref sig .tc .vmem S1250x8x128 .f32) (arg4 : Memref sig .tc .vmem S1250x8x128 .f32) :
    Prog (TpuEff nD τ sig (Elt F) Λ₀ .tc) PUnit := do
  let _v : Vec F S1250x8x128 .f32 ← Prog.lift (.load arg3 (Rect.unit (s := S1250x8x128) ![0, 0, 0] S1250x8x128.size inb_S1250x8x128_S1250x8x128_0_0_0).toLoadRect (View.loadsAt_vmem h_S1250x8x128))
  Prog.lift (.store arg3 (Rect.unit (s := S1250x8x128) ![0, 0, 0] S1250x8x128.size inb_S1250x8x128_S1250x8x128_0_0_0) (k1_pay2 (F := F)) Finset.univ (View.stores_vmem_bits_univ h_S1250x8x128 rfl) (.inl rfl))
  let _w : Vec F S1250x8x128 .f32 ← Prog.lift (.load arg4 (Rect.unit (s := S1250x8x128) ![0, 0, 0] S1250x8x128.size inb_S1250x8x128_S1250x8x128_0_0_0).toLoadRect (View.loadsAt_vmem h_S1250x8x128))
  Prog.lift (.store arg4 (Rect.unit (s := S1250x8x128) ![0, 0, 0] S1250x8x128.size inb_S1250x8x128_S1250x8x128_0_0_0) (k1_pay3 (F := F)) Finset.univ (View.stores_vmem_bits_univ h_S1250x8x128 rfl) (.inl rfl))

set_option maxHeartbeats 4000000 in
/-- The first part of the body at a point where the condition holds is the two zero stores, then the same part at a
    point where it does not: the grid coordinate enters the part through the condition only. -/
theorem part1_first (i0 i1 : grid1.Coords) (hc0 : cond1_0 i0) (hc1 : ¬cond1_0 i1)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole) :
    k1_part1 (F := F) i0 arg1 harg1 arg2 harg2 arg3 harg3 arg4 harg4
      = zeroStores arg3 arg4 >>= fun _ => k1_part1 (F := F) i1 arg1 harg1 arg2 harg2 arg3 harg3 arg4 harg4 := by
  unfold k1_part1 zeroStores
  simp only [dif_pos hc0, dif_neg hc1, bind_assoc, pure_bind]
  rfl

set_option maxHeartbeats 16000000 in
/-- The same for the level-two part that begins with it: every later part takes the grid coordinate and does not use it. -/
theorem part141_first (i0 i1 : grid1.Coords) (hc0 : cond1_0 i0) (hc1 : ¬cond1_0 i1)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole) :
    k1_part141 (F := F) i0 arg1 harg1 arg2 harg2 arg3 harg3 arg4 harg4
      = zeroStores arg3 arg4 >>= fun _ => k1_part141 (F := F) i1 arg1 harg1 arg2 harg2 arg3 harg3 arg4 harg4 := by
  unfold k1_part141
  rw [part1_first i0 i1 hc0 hc1, bind_assoc]
  rfl

set_option maxHeartbeats 16000000 in
/-- THE BODY AT THE FIRST POINT is the two zero stores followed by the body at a later point. -/
theorem body_first (i0 i1 : grid1.Coords) (hc0 : cond1_0 i0) (hc1 : ¬cond1_0 i1)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole) :
    cc1__scat_body (F := F) i0 arg1 harg1 arg2 harg2 arg3 harg3 arg4 harg4
      = zeroStores arg3 arg4 >>= fun _ => cc1__scat_body (F := F) i1 arg1 harg1 arg2 harg2 arg3 harg3 arg4 harg4 := by
  unfold cc1__scat_body
  rw [part141_first i0 i1 hc0 hc1, bind_assoc]
  rfl

/-- The zero offsets, however they are spelt. -/
theorem hz3 : (![0, 0, 0] : Fin 3 → Nat) = fun _ => 0 := funext fun a => by fin_cases a <;> rfl

/-- One store over the whole accumulator leaves its payload, whatever the accumulator held. -/
theorem read_whole_store (M : Memref sig .tc .vmem S1250x8x128 .f32) (f : M.view.ty.Contents (Elt F)) (p : Vec F S1250x8x128 .f32) :
    M.view.read (Elt F) (M.view.writes (Elt F) f
      [⟨Rect.unit (s := S1250x8x128) ![0, 0, 0] S1250x8x128.size inb_S1250x8x128_S1250x8x128_0_0_0, p⟩]) = p := by
  refine (View.read_writes_eq_canon _ _ _ (fun y => ⟨_, List.mem_singleton_self _,
    View.mem_set_unit_zero hz3 inb_S1250x8x128_S1250x8x128_0_0_0 y⟩)).trans ?_
  rw [View.canon_unit_zero hz3]

/-- The counts' zero store stores the same zeros as the sums'. -/
theorem pay3_eq_zeros : (k1_pay3 (F := F)) = zeros := rfl

/-- A fixed later grid point, and that the body's condition fails there. -/
def iLater : grid1.Coords := grid1.coords ⟨1, by decide⟩
theorem hc_later : ¬cond1_0 iLater := fun h => absurd ((hcond1_0 ⟨1, by decide⟩).mp h) (by decide)

set_option maxHeartbeats 4000000 in
/-- The two zero stores, before any continuation: each accumulator ends at one store of zeros over what it held. -/
theorem wp_zeroStores (𝒱₀ : Variants) (c : Dev nD)
    (arg3 : Memref sig .tc .vmem S1250x8x128 .f32) (harg3 : arg3.IsWhole) (arg4 : Memref sig .tc .vmem S1250x8x128 .f32) (harg4 : arg4.IsWhole)
    (x3 x4 : Vec F S1250x8x128 .f32) (E : Set Name) (Q : PUnit → sProp 𝕄) :
    iprop((arg3.view.loc (c : Thread nD τ) ↦[arg3.view.set]{fullShare} harg3.unread x3)
        ∗ (arg4.view.loc (c : Thread nD τ) ↦[arg4.view.set]{fullShare} harg4.unread x4)
        ∗ (iprop((arg3.view.loc (c : Thread nD τ) ↦[arg3.view.set]{fullShare} arg3.view.writes (Elt F) (harg3.unread x3)
                  [⟨Rect.unit (s := S1250x8x128) ![0, 0, 0] S1250x8x128.size inb_S1250x8x128_S1250x8x128_0_0_0, k1_pay2 (F := F)⟩])
              ∗ (arg4.view.loc (c : Thread nD τ) ↦[arg4.view.set]{fullShare} arg4.view.writes (Elt F) (harg4.unread x4)
                  [⟨Rect.unit (s := S1250x8x128) ![0, 0, 0] S1250x8x128.size inb_S1250x8x128_S1250x8x128_0_0_0, k1_pay3 (F := F)⟩])) -∗ Q ⟨⟩))
      ⊢ wp frame (wpE (defs₀ (F := F)) 𝒱₀ c none) E (zeroStores arg3 arg4) Q := by
  unfold zeroStores
  iintro ⟨H3, H4, Hk⟩
  sl_exec
  sl_step
  iapply Hk
  isplitl [H3]; · iexact H3
  iexact H4

set_option maxHeartbeats 8000000 in
/-- THE BODY AT THE FIRST POINT, from the body at a later point: the two zero stores run, each accumulator then reads
    as zeros whatever it held, and the rest is the later point's run from zeros. The pieces are the later point's. -/
noncomputable def kernelRun_first (𝒱₀ : Variants) (c : Dev nD) (i : grid1.Coords)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (hc0 : cond1_0 i)
    (x1 : S1x1x128.Idx → Elt F .i32) (x2 : Vec F S128x128 .f32)
    (hr : ∀ y, InRange (x1 y)) :
    { W : PL F × PL F //
      ∀ (x3 x4 : Vec F S1250x8x128 .f32) (E : Set Name) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ (iprop(owns (c : Thread nD τ) arg1 fullShare x1 ∗ owns (c : Thread nD τ) arg2 fullShare x2
                ∗ (arg3.view.loc (c : Thread nD τ) ↦[arg3.view.set]{fullShare} arg3.view.writes (Elt F) (harg3.unread zeros) W.1)
                ∗ (arg4.view.loc (c : Thread nD τ) ↦[arg4.view.set]{fullShare} arg4.view.writes (Elt F) (harg4.unread zeros) W.2)) -∗ K ⟨⟩))
          ⊢ wp frame (wpE (defs₀ (F := F)) 𝒱₀ c none) E (cc1__scat_body i arg1 harg1 arg2 harg2 arg3 harg3 arg4 harg4) K } :=
  ⟨(kernelRun_later (Ix := Ix) (Name := Name) (U := U) (Lvl := Lvl) 𝒱₀ c iLater arg1 harg1 arg2 harg2 arg3 harg3 arg4 harg4 hc_later x1 x2 zeros zeros hr).1,
   fun x3 x4 E K => by
    rw [body_first i iLater hc0 hc_later, wp_bind]
    iintro ⟨H1, H2, H3, H4, Hk⟩
    unfold owns
    icases H3 with ⟨%f3, %hf3, H3⟩
    icases H4 with ⟨%f4, %hf4, H4⟩
    obtain rfl := harg3.eq_unread hf3; obtain rfl := harg4.eq_unread hf4
    iapply (wp_zeroStores 𝒱₀ c arg3 harg3 arg4 harg4 x3 x4 E _) $$ [H1 H2 H3 H4 Hk]
    isplitl [H3]; · iexact H3
    isplitl [H4]; · iexact H4
    iintro ⟨H3, H4⟩
    iapply ((kernelRun_later (Ix := Ix) (Name := Name) (U := U) (Lvl := Lvl) 𝒱₀ c iLater arg1 harg1 arg2 harg2 arg3 harg3 arg4 harg4 hc_later x1 x2 zeros zeros hr).2 E K) $$ [H1 H2 H3 H4 Hk]
    unfold owns
    isplitl [H1]; · iexact H1
    isplitl [H2]; · iexact H2
    isplitl [H3]
    · iexists (arg3.view.writes (Elt F) (harg3.unread x3) [⟨Rect.unit (s := S1250x8x128) ![0, 0, 0] S1250x8x128.size inb_S1250x8x128_S1250x8x128_0_0_0, k1_pay2 (F := F)⟩])
      isplitr; · ipureintro; exact read_whole_store arg3 (harg3.unread x3) (k1_pay2 (F := F))
      iexact H3
    isplitl [H4]
    · iexists (arg4.view.writes (Elt F) (harg4.unread x4) [⟨Rect.unit (s := S1250x8x128) ![0, 0, 0] S1250x8x128.size inb_S1250x8x128_S1250x8x128_0_0_0, k1_pay3 (F := F)⟩])
      isplitr; · ipureintro; exact read_whole_store arg4 (harg4.unread x4) (k1_pay3 (F := F))
      iexact H4
    iexact Hk⟩

end Cert.K.Scat

end
-- ==== Proof.ScatChainFAK.lean ====
import proofs.«202620_g33904471835419_cont_8to1_b_799_54_alg».proof.Proof.ScatRun0K
import proofs.«202620_g33904471835419_cont_8to1_b_799_54_alg».proof.Proof.ScatChainLAK

/-!
# The scatter region: what the first point leaves in the sums' accumulator

The first point's run is the later point's run from accumulators at zeros, after the two zero stores. So what it
leaves in the sums' accumulator reads as the point's 128 updates of the array of zeros.
-/

noncomputable section

namespace Cert.K.Scat

open Cert.Kernel Cert.Kernel.Gen
open Idealize.ShloMosaic Idealize.ShloMosaic.TcCoe
open Idealize.SL Idealize.SL.RA Idealize.SL.Sem

variable {F : FTy → Type} [FloatOps F]
variable {Ix : Type} [DecidableEq Ix] {Name : Type} [DecidableEq Name] {U : Type} [URA U] {Lvl : Type} [Preorder Lvl]

/-- WHAT THE FIRST POINT LEAVES: its 128 updates of zeros. -/
theorem first_agg (c : Dev nD)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (x1 : S1x1x128.Idx → Elt F .i32) (x2 : Vec F S128x128 .f32) (hr : ∀ y, InRange (x1 y))
    (𝒱₀ : Variants) (i : grid1.Coords) (hc0 : cond1_0 i) :
    arg3.view.read (Elt F) (arg3.view.writes (Elt F) (harg3.unread zeros)
      (kernelRun_first (Ix := Ix) (Name := Name) (U := U) (Lvl := Lvl) 𝒱₀ c i arg1 harg1 arg2 harg2 arg3 harg3 arg4 harg4 hc0 x1 x2 hr).1.1)
      = chunkAgg x1 x2 zeros :=
  later_agg (Ix := Ix) (Name := Name) (U := U) (Lvl := Lvl) (c := c) (arg1 := arg1) (harg1 := harg1) (arg2 := arg2) (harg2 := harg2)
    (arg3 := arg3) (harg3 := harg3) (arg4 := arg4) (harg4 := harg4) (x1 := x1) (x2 := x2) (x3 := zeros) (x4 := zeros) (hr := hr)
    (𝒱₀ := 𝒱₀) (i := iLater) (hc0 := hc_later)

end Cert.K.Scat

end
-- ==== Proof.ScatChainFDK.lean ====
import proofs.«202620_g33904471835419_cont_8to1_b_799_54_alg».proof.Proof.ScatRun0K
import proofs.«202620_g33904471835419_cont_8to1_b_799_54_alg».proof.Proof.ScatChainLDK

/-!
# The scatter region: what the first point leaves in the counts' accumulator

The first point's run is the later point's run from accumulators at zeros, after the two zero stores. So what it
leaves in the counts' accumulator reads as the point's 128 updates of the array of zeros.
-/

noncomputable section

namespace Cert.K.Scat

open Cert.Kernel Cert.Kernel.Gen
open Idealize.ShloMosaic Idealize.ShloMosaic.TcCoe
open Idealize.SL Idealize.SL.RA Idealize.SL.Sem

variable {F : FTy → Type} [FloatOps F]
variable {Ix : Type} [DecidableEq Ix] {Name : Type} [DecidableEq Name] {U : Type} [URA U] {Lvl : Type} [Preorder Lvl]

/-- WHAT THE FIRST POINT LEAVES: its 128 updates of zeros. -/
theorem first_deg (c : Dev nD)
    (arg1 : Memref sig .tc .smem S1x1x128 .i32) (harg1 : arg1.IsWhole) (arg2 : Memref sig .tc .vmem S128x128 .f32) (harg2 : arg2.IsWhole)
    (arg3 : Memref sig .tc .vmem S1250x8x128 .f32) (harg3 : arg3.IsWhole) (arg4 : Memref sig .tc .vmem S1250x8x128 .f32) (harg4 : arg4.IsWhole)
    (x1 : S1x1x128.Idx → Elt F .i32) (x2 : Vec F S128x128 .f32) (hr : ∀ y, InRange (x1 y))
    (𝒱₀ : Variants) (i : grid1.Coords) (hc0 : cond1_0 i) :
    arg4.view.read (Elt F) (arg4.view.writes (Elt F) (harg4.unread zeros)
      (kernelRun_first (Ix := Ix) (Name := Name) (U := U) (Lvl := Lvl) 𝒱₀ c i arg1 harg1 arg2 harg2 arg3 harg3 arg4 harg4 hc0 x1 x2 hr).1.2)
      = chunkDeg x1 zeros :=
  later_deg (Ix := Ix) (Name := Name) (U := U) (Lvl := Lvl) (c := c) (arg1 := arg1) (harg1 := harg1) (arg2 := arg2) (harg2 := harg2)
    (arg3 := arg3) (harg3 := harg3) (arg4 := arg4) (harg4 := harg4) (x1 := x1) (x2 := x2) (x3 := zeros) (x4 := zeros) (hr := hr)
    (𝒱₀ := 𝒱₀) (i := iLater) (hc0 := hc_later)

end Cert.K.Scat

end
-- ==== Proof.ScatBodyFK.lean ====
import proofs.«202620_g33904471835419_cont_8to1_b_799_54_alg».proof.Proof.ScatBodyCoreK
import proofs.«202620_g33904471835419_cont_8to1_b_799_54_alg».proof.Proof.ScatRun0K
import proofs.«202620_g33904471835419_cont_8to1_b_799_54_alg».proof.Proof.ScatChainFAK
import proofs.«202620_g33904471835419_cont_8to1_b_799_54_alg».proof.Proof.ScatChainFDK

/-!
# The scatter region: the body's triple at the first point

At the first point the body stores zeros over each accumulator before its 128 edges, so whatever the accumulators
held, the run leaves each at its 128 stores over zeros; read back, the stores are the point's update of zeros.
-/

set_option maxRecDepth 16384

noncomputable section

namespace Cert.K.Scat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The body at the first point. -/
theorem sound_kernel1_first (𝒱₀ : Variants) : FirstTriple (F := F) (Ix := Ix) (Name := Name) (U := U) (Lvl := Lvl) 𝒱₀ := by
  intro c E i arg1 harg1 arg2 harg2 arg3 harg3 arg4 harg4 hc0 x1 x2 x3 x4 hr K
  iintro ⟨H1, H2, H3, H4, Hk⟩
  iapply ((kernelRun_first (Ix := Ix) (Name := Name) (U := U) (Lvl := Lvl) 𝒱₀ c i arg1 harg1 arg2 harg2 arg3 harg3 arg4 harg4 hc0 x1 x2 hr).2 x3 x4 E K)
  isplitl [H1]; · iexact H1
  isplitl [H2]; · iexact H2
  isplitl [H3]; · iexact H3
  isplitl [H4]; · iexact H4
  iintro ⟨H1, H2, H3, H4⟩
  iapply Hk
  isplitl [H1]; · iexact H1
  isplitl [H2]; · iexact H2
  isplitl [H3]
  · unfold owns; iexists _; isplitr
    swap; · iexact H3
    ipureintro
    exact first_agg c arg1 harg1 arg2 harg2 arg3 harg3 arg4 harg4 x1 x2 hr 𝒱₀ i hc0
  · unfold owns; iexists _; isplitr
    swap; · iexact H4
    ipureintro
    exact first_deg c arg1 harg1 arg2 harg2 arg3 harg3 arg4 harg4 x1 x2 hr 𝒱₀ i hc0

end Cert.K.Scat

end
-- ==== Proof.ScatBodyK.lean ====
import proofs.«202620_g33904471835419_cont_8to1_b_799_54_alg».proof.Proof.ScatBodyLK
import proofs.«202620_g33904471835419_cont_8to1_b_799_54_alg».proof.Proof.ScatBodyFK

/-!
# The scatter region: the body obligation

The obligation at every grid point, from the body's two triples: where the destination words name nodes.
-/

set_option maxRecDepth 16384

noncomputable section

namespace Cert.K.Scat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

-- the TensorCore's buffer contents when the region is entered
variable (V : (c : Dev nD) → (b : Ref sig .tc) → Buf (Elt F) ((c : Thread nD τ).loc b))

/-- The library's body obligation for the scatter's proof data, at every point, for any bound `B` on the recorded
    pairs, where every destination word names a node. -/
theorem body1 (𝒱₀ : Variants) (ι : Ix) (c : Dev nD) (B : Set (SemLoc sig × Ix)) (hdst : ∀ i, InRange (V c main_v5 i)) :
    BodyObligation (dat1 (F := F) (Name := Name) (U := U) (Lvl := Lvl) V c B) (defs₀ (F := F)) 𝒱₀ ι Set.univ :=
  body1_of V 𝒱₀ (sound_kernel1_later 𝒱₀) (sound_kernel1_first 𝒱₀) ι c B hdst

/-- The same in the form a region record takes. -/
theorem body1_loose (𝒱₀ : Variants) (ι : Ix) (c : Dev nD) (B : Set (SemLoc sig × Ix)) (hdst : ∀ i, InRange (V c main_v5 i)) :
    Pipeline.BodyObligationLoose (dat1 (F := F) (Name := Name) (U := U) (Lvl := Lvl) V c B) (defs₀ (F := F)) 𝒱₀ ι Set.univ :=
  (body1 V 𝒱₀ ι c B hdst).loose

end Cert.K.Scat

end
-- ==== Proof.TopScatK.lean ====
/-
  The scatter region's proof data and body obligation, in the form the program's run takes them: the region's arrays at
  the entry contents, the invariant the scoped rest and the generator register, nothing owed, the recorded pairs the
  given bound; the obligation where every destination word of the region's chunks names a node.
-/
import proofs.«202620_g33904471835419_cont_8to1_b_799_54_alg».proof.Proof.TopRegionsK
import proofs.«202620_g33904471835419_cont_8to1_b_799_54_alg».proof.Proof.ScatBodyK
import proofs.«202620_g33904471835419_cont_8to1_b_799_54_alg».proof.Proof.PreTopK

noncomputable section

namespace Cert.K.Top

open Cert.Kernel Cert.Kernel.Gen Cert.K.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 1) (Elt F) ℕ UU ℕ

variable (m : (ℓ : Loc nD τ sig) → Buf (Elt F) ℓ) (ρ : Dev nD → PrngReg)

/-- The scatter region, for the run. -/
def scat : Scat (F := F) where
  dat V c B := Cert.K.Scat.dat1 (Ix := HIx 1) (Name := ℕ) (U := UU) (Lvl := ℕ) V c B
  A_eq V c B w := Cert.K.Scat.A_eq1 V c B w
  owed V c B t := Cert.K.Scat.owed1 V c B t
  share V c B w := Cert.K.Scat.share1 V c B w
  recorded V c B t := Cert.K.Scat.recorded1 V c B t
  inv V c B t := Cert.K.Scat.Φ1 V c B t
  ok V c := ∀ i, Cert.K.Scat.InRange (V c main_v5 i)
  body V c B h := Cert.K.Scat.body1_loose V 𝒱₀ (none : HIx 1) c B h

/-- Under the precondition the destination words name nodes. -/
theorem scat_ok (c : Dev nD) (hpre : PreAt m c) : (scat (F := F)).ok (V3 m) c := hDST_of m c hpre

end Cert.K.Top

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibColumn.lean ====
/-
  A per-row scalar held as an n x 1 column, read at an entry.

  A tiled program keeps one scalar per row of an n x h matrix (a degree normaliser, a reciprocal degree) as an
  n x 1 column. Spread across the row — as a kernel body does with a broadcast, or the host with a
  broadcast-in-dimension along both axes — entry (p, q) is the column's entry (p, 0). The column itself is the
  length-n vector recast to n x 1 (a reshape, or a broadcast-in-dimension along axis 0): entry (p, 0) is the
  vector's entry p.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- Kernel form: an `[n, 1]` column broadcast to `[n, h]` reads, at `(p, q)`, the column at `(p, 0)`. -/
theorem broadcastTo_col_apply {n h : ℕ} (v : (⟨2, ![n, 1]⟩ : Shape).Idx → α)
    (hb : (⟨2, ![n, 1]⟩ : Shape).Broadcasts ⟨2, ![n, h]⟩) (p : Fin n) (q : Fin h) :
    broadcastTo ⟨2, ![n, h]⟩ v hb (ix2 p q) = v (ix2 p 0) :=
  broadcastTo_apply v hb (ix2 p q) (ix2 p (0 : Fin 1)) (fun a => by
    match a with
    | ⟨0, _⟩ =>
      show p.val = if n = 1 then 0 else p.val
      split_ifs with hn
      · have := p.isLt; omega
      · rfl
    | ⟨1, _⟩ => rfl)

/-- Host form: an `[n, 1]` column broadcast in dimension (axes 0 and 1) to `[n, h]` reads, at `(p, q)`, the column at
    `(p, 0)`. -/
theorem broadcastInDim_col_apply {n h : ℕ} (v : (⟨2, ![n, 1]⟩ : Shape).Idx → α)
    (hb : (⟨2, ![n, 1]⟩ : Shape).BroadcastsInDim ⟨2, ![n, h]⟩ ![0, 1]) (p : Fin n) (q : Fin h) :
    broadcastInDim ⟨2, ![n, h]⟩ ![0, 1] hb v (ix2 p q) = v (ix2 p 0) :=
  broadcastInDim_apply _ hb v (ix2 p q) (ix2 p (0 : Fin 1)) (fun a => by
    match a with
    | ⟨0, _⟩ =>
      show p.val = if n = 1 then 0 else p.val
      split_ifs with hn
      · have := p.isLt; omega
      · rfl
    | ⟨1, _⟩ => rfl)

/-- A length-`n` vector recast to the `[n, 1]` column reads, at `(p, 0)`, the vector at `p`. -/
theorem shapeCast_col_apply {n : ℕ} (v : (⟨1, ![n]⟩ : Shape).Idx → α)
    (hc : (⟨1, ![n]⟩ : Shape).ShapeCasts ⟨2, ![n, 1]⟩) (p : Fin n) :
    shapeCast ⟨2, ![n, 1]⟩ v hc (ix2 p 0) = v (ix1 p) := by
  refine shapeCast_apply v hc _ _ ?_
  rw [Shape.rowMajor_val_two, Shape.rowMajor_val_one]
  show p.val = p.val * 1 + 0
  omega

/-- A length-`n` vector broadcast in dimension (along axis 0) to the `[n, 1]` column reads, at `(p, 0)`, the vector at `p`. -/
theorem broadcastInDim_vec_col_apply {n : ℕ} (v : (⟨1, ![n]⟩ : Shape).Idx → α)
    (hb : (⟨1, ![n]⟩ : Shape).BroadcastsInDim ⟨2, ![n, 1]⟩ ![0]) (p : Fin n) :
    broadcastInDim ⟨2, ![n, 1]⟩ ![0] hb v (ix2 p 0) = v (ix1 p) :=
  broadcastInDim_apply _ hb v (ix2 p (0 : Fin 1)) (ix1 p) (fun a => by
    match a with
    | ⟨0, _⟩ =>
      show p.val = if n = 1 then 0 else p.val
      split_ifs with hn
      · have := p.isLt; omega
      · rfl)

/-- A length-`h` vector recast to the `[1, h]` row reads, at `(0, q)`, the vector at `q`. -/
theorem shapeCast_row_apply {h : ℕ} (v : (⟨1, ![h]⟩ : Shape).Idx → α)
    (hc : (⟨1, ![h]⟩ : Shape).ShapeCasts ⟨2, ![1, h]⟩) (q : Fin h) :
    shapeCast ⟨2, ![1, h]⟩ v hc (ix2 0 q) = v (ix1 q) := by
  refine shapeCast_apply v hc _ _ ?_
  rw [Shape.rowMajor_val_two, Shape.rowMajor_val_one]
  show q.val = 0 * h + q.val
  omega

/-- Kernel form: a `[1, h]` row broadcast to `[n, h]` reads, at `(p, q)`, the row at `(0, q)`. -/
theorem broadcastTo_row_apply {n h : ℕ} (v : (⟨2, ![1, h]⟩ : Shape).Idx → α)
    (hb : (⟨2, ![1, h]⟩ : Shape).Broadcasts ⟨2, ![n, h]⟩) (p : Fin n) (q : Fin h) :
    broadcastTo ⟨2, ![n, h]⟩ v hb (ix2 p q) = v (ix2 0 q) :=
  broadcastTo_apply v hb (ix2 p q) (ix2 (0 : Fin 1) q) (fun a => by
    match a with
    | ⟨0, _⟩ => rfl
    | ⟨1, _⟩ =>
      show q.val = if h = 1 then 0 else q.val
      split_ifs with hh
      · have := q.isLt; omega
      · rfl)

end Cert.LibColumn

end
-- ==== Proof.HeadValue.lean ====
import proofs.«202620_g33904471835419_cont_8to1_b_799_54_alg».proof.Proof.HeadBody
import proofs.«202620_g33904471835419_cont_8to1_b_799_54_alg».proof.Proof.HeadFinal
import proofs.«202620_g33904471835419_cont_8to1_b_799_54_alg».proof.Proof.LibMatmulRead
import proofs.«202620_g33904471835419_cont_8to1_b_799_54_alg».proof.Proof.LibColumn

/-!
# The head region at the ideal instance: the stored block read at a row

Over the extended reals the block the body stores is, row by row, a small network applied to that row of the
inputs. With `xr`, `ar` the row of the features and of the summed messages and `d` the row's degree:

  z₀ k = ar k / max d 1
  h q  = max (Σ_k z₀ k · Wc[k, q] + bc[q]) 0
  u q  = h q + xr q
  a₁ q = leaky (Σ_k u k · W1[k, q] + b1[q])
  a₂ q = leaky (Σ_k a₁ k · W2[k, q] + b2[q])
  z    = Σ_k a₂ k · W3[k, 0] + b3
  out  = max z 0 + log1p (exp (0 − |z|))

where `leaky v` is `v` when `v ≥ 0` and a fixed small multiple of `v` otherwise. Each matrix product is a plain sum
over the contracted axis, because it is accumulated into an all-zero block.
-/

set_option maxRecDepth 16384

noncomputable section

namespace Cert.KI.Head

open Cert.KernelIdeal Cert.KernelIdeal.Gen
open Idealize.ShloMosaic Idealize.ShloMosaic.TcCoe Idealize.ShloMosaic.ValueIdx Idealize.ShloMosaic.MatmulRead
open Idealize.SL Idealize.SL.RA Idealize.SL.Sem
open scoped BigOperators

/-! ## The network on one row -/

/-- The float words the body names: zero, one, and the rectifier's slope. -/
abbrev w0 : Ideal .f32 := Scalar.ofBits .f32 0x00000000#32
abbrev w1 : Ideal .f32 := Scalar.ofBits .f32 0x3F800000#32
abbrev wSlope : Ideal .f32 := Scalar.ofBits .f32 0x3C23D70A#32

/-- The leaky rectifier: `v` where `v ≥ 0`, the slope times `v` elsewhere. -/
def leaky (v : Ideal .f32) : Ideal .f32 := Scalar.select (FloatOps.cmpf .oge v w0) v (wSlope * v)

section Row
variable (xr ar : Fin 128 → Ideal .f32) (d : Ideal .f32)
  (Wc : Vec Ideal S128x128 .f32) (bc : Vec Ideal S1x128 .f32) (W1 : Vec Ideal S128x128 .f32) (b1 : Vec Ideal S1x128 .f32)
  (W2 : Vec Ideal S128x128 .f32) (b2 : Vec Ideal S1x128 .f32) (W3 : Vec Ideal S128x1 .f32) (b3 : Vec Ideal S1x1 .f32)

/-- The row of summed messages divided by the clipped degree. -/
def rZ0 (k : Fin 128) : Ideal .f32 := Ideal.div (ar k) (max d w1)
/-- The first layer, rectified. -/
def rH (q : Fin 128) : Ideal .f32 := max ((∑ k : Fin 128, rZ0 ar d k * Wc (ix2 k q)) + bc (ix2 0 q)) w0
/-- The residual: the first layer plus the row of features. -/
def rU (q : Fin 128) : Ideal .f32 := rH ar d Wc bc q + xr q
/-- The second layer. -/
def rA1 (q : Fin 128) : Ideal .f32 := leaky ((∑ k : Fin 128, rU xr ar d Wc bc k * W1 (ix2 k q)) + b1 (ix2 0 q))
/-- The third layer. -/
def rA2 (q : Fin 128) : Ideal .f32 := leaky ((∑ k : Fin 128, rA1 xr ar d Wc bc W1 b1 k * W2 (ix2 k q)) + b2 (ix2 0 q))
/-- The last layer, one column. -/
def rZ : Ideal .f32 := (∑ k : Fin 128, rA2 xr ar d Wc bc W1 b1 W2 b2 k * W3 (ix2 k 0)) + b3 (ix2 0 0)
/-- The row's output: the softplus of the last layer, written as the body writes it. -/
def headRow : Ideal .f32 :=
  max (rZ xr ar d Wc bc W1 b1 W2 b2 W3 b3) w0
    + FloatOps.log1p (FloatOps.exp (w0 - FloatOps.absf (rZ xr ar d Wc bc W1 b1 W2 b2 W3 b3)))

end Row

/-! ## The stored block, stage by stage, as vectors -/

section Stages
variable (x agg deg : Vec Ideal S1000x128 .f32)
  (Wc : Vec Ideal S128x128 .f32) (bc : Vec Ideal S1x128 .f32) (W1 : Vec Ideal S128x128 .f32) (b1 : Vec Ideal S1x128 .f32)
  (W2 : Vec Ideal S128x128 .f32) (b2 : Vec Ideal S1x128 .f32) (W3 : Vec Ideal S128x1 .f32) (b3 : Vec Ideal S1x1 .f32)

/-- A bias row spread over the 1000 rows. -/
abbrev biasRows (b : Vec Ideal S1x128 .f32) : FVec Ideal S1000x128 .f32 :=
  broadcastTo S1000x128 (shapeCast S1x128 (View.ld b rB) shapeCasts_S1x128_S1x128) broadcasts_S1x128_S1000x128
/-- The leaky rectifier on a block. -/
abbrev leakyV (v : FVec Ideal S1000x128 .f32) : FVec Ideal S1000x128 .f32 :=
  select (cmpf .oge v (broadcast S1000x128 w0)) v (mulf (broadcast S1000x128 wSlope) v)

def sZ0 : FVec Ideal S1000x128 .f32 :=
  divf (shapeCast S1000x128 (View.ld agg rRows) shapeCasts_S1000x128_S1000x128)
    (broadcastTo S1000x128
      (maximumf (shapeCast S1000x1 (View.ld deg rCol0) shapeCasts_S1000x1_S1000x1) (broadcast S1000x1 w1))
      broadcasts_S1000x1_S1000x128)
def sH : FVec Ideal S1000x128 .f32 :=
  maximumf (addf (matmul (φ₁ := .f32) (φ₂ := .f32) dot_S1000x128_S128x128_S1000x128_1_0_0_1_n_n none (sZ0 agg deg) (View.ld Wc rW : FVec Ideal S128x128 .f32)
      (constant S1000x128 .f32 0x00000000#32)) (biasRows bc)) (broadcast S1000x128 w0)
def sU : FVec Ideal S1000x128 .f32 := addf (sH agg deg Wc bc) (View.ld x rRows)
def sA1 : FVec Ideal S1000x128 .f32 :=
  leakyV (addf (matmul (φ₁ := .f32) (φ₂ := .f32) dot_S1000x128_S128x128_S1000x128_1_0_0_1_n_n none (sU x agg deg Wc bc) (View.ld W1 rW : FVec Ideal S128x128 .f32)
      (constant S1000x128 .f32 0x00000000#32)) (biasRows b1))
def sA2 : FVec Ideal S1000x128 .f32 :=
  leakyV (addf (matmul (φ₁ := .f32) (φ₂ := .f32) dot_S1000x128_S128x128_S1000x128_1_0_0_1_n_n none (sA1 x agg deg Wc bc W1 b1) (View.ld W2 rW : FVec Ideal S128x128 .f32)
      (constant S1000x128 .f32 0x00000000#32)) (biasRows b2))
def sZ : FVec Ideal S1000x1 .f32 :=
  addf (matmul (φ₁ := .f32) (φ₂ := .f32) dot_S1000x128_S128x1_S1000x1_1_0_0_1_n_n none (sA2 x agg deg Wc bc W1 b1 W2 b2) (View.ld W3 rW3 : FVec Ideal S128x1 .f32)
      (constant S1000x1 .f32 0x00000000#32))
    (broadcastTo S1000x1 (shapeCast S1x1 (View.ld b3 rB3) shapeCasts_S1x1_S1x1) broadcasts_S1x1_S1000x1)
def sOut : FVec Ideal S1000x1 .f32 :=
  addf (maximumf (sZ x agg deg Wc bc W1 b1 W2 b2 W3 b3) (broadcast S1000x1 w0))
    (log1p (exp (subf (broadcast S1000x1 w0) (absf (sZ x agg deg Wc bc W1 b1 W2 b2 W3 b3)))))

/-- The stored block is the last stage: the payloads' chains of bindings, substituted. -/
theorem rowsOut_eq_stages : rowsOut x agg deg Wc bc W1 b1 W2 b2 W3 b3 = sOut x agg deg Wc bc W1 b1 W2 b2 W3 b3 := rfl

end Stages

/-! ## The stages read at an index -/

section Apply
variable (x agg deg : Vec Ideal S1000x128 .f32)
  (Wc : Vec Ideal S128x128 .f32) (bc : Vec Ideal S1x128 .f32) (W1 : Vec Ideal S128x128 .f32) (b1 : Vec Ideal S1x128 .f32)
  (W2 : Vec Ideal S128x128 .f32) (b2 : Vec Ideal S1x128 .f32) (W3 : Vec Ideal S128x1 .f32) (b3 : Vec Ideal S1x1 .f32)

/-- The unary operations at an index apply to the element. -/
theorem absf_at {s : Shape} (v : FVec Ideal s .f32) (i : s.Idx) : absf v i = FloatOps.absf (v i) := rfl
theorem exp_at {s : Shape} (v : FVec Ideal s .f32) (i : s.Idx) : exp v i = FloatOps.exp (v i) := rfl
theorem log1p_at {s : Shape} (v : FVec Ideal s .f32) (i : s.Idx) : log1p v i = FloatOps.log1p (v i) := rfl

/-- A load through a whole-block rectangle reads the block. -/
theorem ld_rows (X : Vec Ideal S1000x128 .f32) : View.ld X rRows = X := View.ld_unit_zero hz2 _ X
theorem ld_W (X : Vec Ideal S128x128 .f32) : View.ld X rW = X := View.ld_unit_zero hz2 _ X
theorem ld_B (X : Vec Ideal S1x128 .f32) : View.ld X rB = X := View.ld_unit_zero hz2 _ X
theorem ld_W3 (X : Vec Ideal S128x1 .f32) : View.ld X rW3 = X := View.ld_unit_zero hz2 _ X
theorem ld_B3 (X : Vec Ideal S1x1 .f32) : View.ld X rB3 = X := View.ld_unit_zero hz2 _ X
/-- The load of column 0 reads, at row `p`, the block's entry `(p, 0)`. -/
theorem ld_col0 (X : Vec Ideal S1000x128 .f32) (p : Fin 1000) : View.ld X rCol0 (ix2 p 0) = X (ix2 p 0) := by
  show X (rCol0.idx (ix2 p 0)) = X (ix2 p 0)
  congr 1; funext a; apply Fin.ext
  match a with
  | ⟨0, _⟩ => show 0 + 1 * p.val = p.val; omega
  | ⟨1, _⟩ => rfl

/-- The body's casts of a loaded block to its own shape, with the load, read the block. -/
theorem castRows (X : Vec Ideal S1000x128 .f32) :
    shapeCast S1000x128 (View.ld X rRows) shapeCasts_S1000x128_S1000x128 = X :=
  (shapeCast_self (View.ld X rRows) shapeCasts_S1000x128_S1000x128).trans (ld_rows X)
theorem castB (b : Vec Ideal S1x128 .f32) : shapeCast S1x128 (View.ld b rB) shapeCasts_S1x128_S1x128 = b :=
  (shapeCast_self (View.ld b rB) shapeCasts_S1x128_S1x128).trans (ld_B b)
theorem castB3 (b : Vec Ideal S1x1 .f32) : shapeCast S1x1 (View.ld b rB3) shapeCasts_S1x1_S1x1 = b :=
  (shapeCast_self (View.ld b rB3) shapeCasts_S1x1_S1x1).trans (ld_B3 b)
theorem castCol0 (X : Vec Ideal S1000x128 .f32) (p : Fin 1000) :
    shapeCast S1000x1 (View.ld X rCol0) shapeCasts_S1000x1_S1000x1 (ix2 p 0) = X (ix2 p 0) :=
  (congrFun (shapeCast_self (View.ld X rCol0) shapeCasts_S1000x1_S1000x1) (ix2 p 0)).trans (ld_col0 X p)

/-- A bias row spread over the rows reads, at `(p, q)`, the bias at `q`. -/
theorem biasRows_apply (b : Vec Ideal S1x128 .f32) (p : Fin 1000) (q : Fin 128) : biasRows b (ix2 p q) = b (ix2 0 q) := by
  show broadcastTo S1000x128 (shapeCast S1x128 (View.ld b rB) shapeCasts_S1x128_S1x128) broadcasts_S1x128_S1000x128 (ix2 p q) = _
  rw [Cert.LibColumn.broadcastTo_row_apply, castB]

/-- The two matrix products into a zero block, at an entry: the plain sums. -/
theorem mm128 (lhs : FVec Ideal S1000x128 .f32) (rhs : FVec Ideal S128x128 .f32) (p : Fin 1000) (q : Fin 128) :
    matmul (φ₁ := .f32) (φ₂ := .f32) dot_S1000x128_S128x128_S1000x128_1_0_0_1_n_n none lhs rhs (constant S1000x128 .f32 0x00000000#32) (ix2 p q)
      = ∑ k : Fin 128, lhs (ix2 p k) * rhs (ix2 k q) :=
  matmul_zero_ix2 (D := dot_S1000x128_S128x128_S1000x128_1_0_0_1_n_n) ⟨rfl, rfl, rfl, rfl, rfl, rfl⟩ rfl rfl none lhs rhs p q
theorem mm1 (lhs : FVec Ideal S1000x128 .f32) (rhs : FVec Ideal S128x1 .f32) (p : Fin 1000) (q : Fin 1) :
    matmul (φ₁ := .f32) (φ₂ := .f32) dot_S1000x128_S128x1_S1000x1_1_0_0_1_n_n none lhs rhs (constant S1000x1 .f32 0x00000000#32) (ix2 p q)
      = ∑ k : Fin 128, lhs (ix2 p k) * rhs (ix2 k q) :=
  matmul_zero_ix2 (D := dot_S1000x128_S128x1_S1000x1_1_0_0_1_n_n) ⟨rfl, rfl, rfl, rfl, rfl, rfl⟩ rfl rfl none lhs rhs p q

variable (p : Fin 1000)

theorem sZ0_apply (k : Fin 128) : sZ0 agg deg (ix2 p k) = rZ0 (fun k => agg (ix2 p k)) (deg (ix2 p 0)) k := by
  unfold sZ0 rZ0
  rw [divf_apply, castRows, Cert.LibColumn.broadcastTo_col_apply, maximumf_apply, castCol0, broadcast_apply]

theorem sH_apply (q : Fin 128) : sH agg deg Wc bc (ix2 p q) = rH (fun k => agg (ix2 p k)) (deg (ix2 p 0)) Wc bc q := by
  unfold sH rH
  rw [maximumf_apply, addf_apply, broadcast_apply, biasRows_apply, mm128, ld_W]
  simp only [sZ0_apply]

theorem sU_apply (q : Fin 128) : sU x agg deg Wc bc (ix2 p q) = rU (fun k => x (ix2 p k)) (fun k => agg (ix2 p k)) (deg (ix2 p 0)) Wc bc q := by
  unfold sU rU
  rw [addf_apply, sH_apply, ld_rows]

theorem sA1_apply (q : Fin 128) : sA1 x agg deg Wc bc W1 b1 (ix2 p q) = rA1 (fun k => x (ix2 p k)) (fun k => agg (ix2 p k)) (deg (ix2 p 0)) Wc bc W1 b1 q := by
  unfold sA1 rA1 leaky leakyV
  rw [select_apply, cmpf_apply, mulf_apply, broadcast_apply, broadcast_apply, addf_apply, biasRows_apply, mm128, ld_W]
  simp only [sU_apply]

theorem sA2_apply (q : Fin 128) : sA2 x agg deg Wc bc W1 b1 W2 b2 (ix2 p q) = rA2 (fun k => x (ix2 p k)) (fun k => agg (ix2 p k)) (deg (ix2 p 0)) Wc bc W1 b1 W2 b2 q := by
  unfold sA2 rA2 leaky leakyV
  rw [select_apply, cmpf_apply, mulf_apply, broadcast_apply, broadcast_apply, addf_apply, biasRows_apply, mm128, ld_W]
  simp only [sA1_apply]

theorem sZ_apply : sZ x agg deg Wc bc W1 b1 W2 b2 W3 b3 (ix2 p 0) = rZ (fun k => x (ix2 p k)) (fun k => agg (ix2 p k)) (deg (ix2 p 0)) Wc bc W1 b1 W2 b2 W3 b3 := by
  unfold sZ rZ
  rw [addf_apply, mm1, ld_W3, Cert.LibColumn.broadcastTo_row_apply, castB3]
  simp only [sA2_apply]

/-- THE STORED BLOCK AT ROW `p`: the network on that row of the features and of the summed messages and on the
    row's degree (column 0 of the degree block). -/
theorem rowsOut_apply : rowsOut x agg deg Wc bc W1 b1 W2 b2 W3 b3 (ix2 p 0)
    = headRow (fun k => x (ix2 p k)) (fun k => agg (ix2 p k)) (deg (ix2 p 0)) Wc bc W1 b1 W2 b2 W3 b3 := by
  rw [rowsOut_eq_stages]
  unfold sOut headRow
  rw [addf_apply, maximumf_apply, broadcast_apply, log1p_at, exp_at, subf_apply, broadcast_apply, absf_at, sZ_apply]

end Apply

/-! ## From the blocks to the arrays -/

section Arrays
-- the TensorCore's buffer contents when the region is entered, at the ideal instance
variable (V : (c : Dev nD) → (b : Ref sig .tc) → Buf (Elt Ideal) ((c : Thread nD τ).loc b))

/-- The input windows' block indices, decided over the ten points: the three row-blocked inputs move with the
    point, the weights and biases stay at block 0. -/
theorem idx2_in : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0) :=
  (by decide +kernel : ∀ t : Fin grid2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0))

/-- A row-blocked input's block at point `t`, at `(p, k)`, is the array at row `1000 t + p`. -/
theorem iblk2_0_apply (c : Dev nD) (t : Fin cfg2.N) (p : Fin 1000) (k : Fin 128) (r : Fin 10000)
    (hr : r.val = 1000 * t.val + p.val) : iblk2 V c 0 t (ix2 p k) = V c main_arg0 (ix2 r k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩⟩ := idx2_in t
  show V c main_arg0 (((cfg2.win 0).blk t).view.emb (ix2 p k)) = V c main_arg0 (ix2 r k)
  congr 1; funext a; apply Fin.ext
  match a with
  | ⟨0, _⟩ => show win2_0.index t (0 : Fin 2) * 1000 + 1 * p.val = r.val; rw [e0a, hr]; omega
  | ⟨1, _⟩ => show win2_0.index t (1 : Fin 2) * 128 + 1 * k.val = k.val; rw [e0b]; omega

theorem iblk2_1_apply (c : Dev nD) (t : Fin cfg2.N) (p : Fin 1000) (k : Fin 128) (r : Fin 10000)
    (hr : r.val = 1000 * t.val + p.val) : iblk2 V c 1 t (ix2 p k) = V c main_v7 (ix2 r k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩⟩ := idx2_in t
  show V c main_v7 (((cfg2.win 1).blk t).view.emb (ix2 p k)) = V c main_v7 (ix2 r k)
  congr 1; funext a; apply Fin.ext
  match a with
  | ⟨0, _⟩ => show win2_1.index t (0 : Fin 2) * 1000 + 1 * p.val = r.val; rw [e1a, hr]; omega
  | ⟨1, _⟩ => show win2_1.index t (1 : Fin 2) * 128 + 1 * k.val = k.val; rw [e1b]; omega

theorem iblk2_2_apply (c : Dev nD) (t : Fin cfg2.N) (p : Fin 1000) (k : Fin 128) (r : Fin 10000)
    (hr : r.val = 1000 * t.val + p.val) : iblk2 V c 2 t (ix2 p k) = V c main_v8 (ix2 r k) := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩⟩ := idx2_in t
  show V c main_v8 (((cfg2.win 2).blk t).view.emb (ix2 p k)) = V c main_v8 (ix2 r k)
  congr 1; funext a; apply Fin.ext
  match a with
  | ⟨0, _⟩ => show win2_2.index t (0 : Fin 2) * 1000 + 1 * p.val = r.val; rw [e2a, hr]; omega
  | ⟨1, _⟩ => show win2_2.index t (1 : Fin 2) * 128 + 1 * k.val = k.val; rw [e2b]; omega

/-- A weight's or a bias's block is the whole array, at every point. -/
theorem iblk2_3_eq (c : Dev nD) (t : Fin cfg2.N) : iblk2 V c 3 t = V c main_arg2 := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩⟩ := idx2_in t
  funext j
  show V c main_arg2 (((cfg2.win 3).blk t).view.emb j) = V c main_arg2 j
  congr 1; funext a; apply Fin.ext
  match a with
  | ⟨0, _⟩ => show win2_3.index t (0 : Fin 2) * 128 + 1 * (j 0).val = (j 0).val; rw [e3a]; omega
  | ⟨1, _⟩ => show win2_3.index t (1 : Fin 2) * 128 + 1 * (j 1).val = (j 1).val; rw [e3b]; omega

theorem iblk2_4_eq (c : Dev nD) (t : Fin cfg2.N) : iblk2 V c 4 t = V c main_v9 := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩⟩ := idx2_in t
  funext j
  show V c main_v9 (((cfg2.win 4).blk t).view.emb j) = V c main_v9 j
  congr 1; funext a; apply Fin.ext
  match a with
  | ⟨0, _⟩ => show win2_4.index t (0 : Fin 2) * 1 + 1 * (j 0).val = (j 0).val; rw [e4a]; omega
  | ⟨1, _⟩ => show win2_4.index t (1 : Fin 2) * 128 + 1 * (j 1).val = (j 1).val; rw [e4b]; omega

theorem iblk2_5_eq (c : Dev nD) (t : Fin cfg2.N) : iblk2 V c 5 t = V c main_arg4 := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩⟩ := idx2_in t
  funext j
  show V c main_arg4 (((cfg2.win 5).blk t).view.emb j) = V c main_arg4 j
  congr 1; funext a; apply Fin.ext
  match a with
  | ⟨0, _⟩ => show win2_5.index t (0 : Fin 2) * 128 + 1 * (j 0).val = (j 0).val; rw [e5a]; omega
  | ⟨1, _⟩ => show win2_5.index t (1 : Fin 2) * 128 + 1 * (j 1).val = (j 1).val; rw [e5b]; omega

theorem iblk2_6_eq (c : Dev nD) (t : Fin cfg2.N) : iblk2 V c 6 t = V c main_v10 := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩⟩ := idx2_in t
  funext j
  show V c main_v10 (((cfg2.win 6).blk t).view.emb j) = V c main_v10 j
  congr 1; funext a; apply Fin.ext
  match a with
  | ⟨0, _⟩ => show win2_6.index t (0 : Fin 2) * 1 + 1 * (j 0).val = (j 0).val; rw [e6a]; omega
  | ⟨1, _⟩ => show win2_6.index t (1 : Fin 2) * 128 + 1 * (j 1).val = (j 1).val; rw [e6b]; omega

theorem iblk2_7_eq (c : Dev nD) (t : Fin cfg2.N) : iblk2 V c 7 t = V c main_arg6 := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩⟩ := idx2_in t
  funext j
  show V c main_arg6 (((cfg2.win 7).blk t).view.emb j) = V c main_arg6 j
  congr 1; funext a; apply Fin.ext
  match a with
  | ⟨0, _⟩ => show win2_7.index t (0 : Fin 2) * 128 + 1 * (j 0).val = (j 0).val; rw [e7a]; omega
  | ⟨1, _⟩ => show win2_7.index t (1 : Fin 2) * 128 + 1 * (j 1).val = (j 1).val; rw [e7b]; omega

theorem iblk2_8_eq (c : Dev nD) (t : Fin cfg2.N) : iblk2 V c 8 t = V c main_v11 := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩⟩ := idx2_in t
  funext j
  show V c main_v11 (((cfg2.win 8).blk t).view.emb j) = V c main_v11 j
  congr 1; funext a; apply Fin.ext
  match a with
  | ⟨0, _⟩ => show win2_8.index t (0 : Fin 2) * 1 + 1 * (j 0).val = (j 0).val; rw [e8a]; omega
  | ⟨1, _⟩ => show win2_8.index t (1 : Fin 2) * 128 + 1 * (j 1).val = (j 1).val; rw [e8b]; omega

theorem iblk2_9_eq (c : Dev nD) (t : Fin cfg2.N) : iblk2 V c 9 t = V c main_arg8 := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩⟩ := idx2_in t
  funext j
  show V c main_arg8 (((cfg2.win 9).blk t).view.emb j) = V c main_arg8 j
  congr 1; funext a; apply Fin.ext
  match a with
  | ⟨0, _⟩ => show win2_9.index t (0 : Fin 2) * 128 + 1 * (j 0).val = (j 0).val; rw [e9a]; omega
  | ⟨1, _⟩ => show win2_9.index t (1 : Fin 2) * 1 + 1 * (j 1).val = (j 1).val; rw [e9b]; omega

theorem iblk2_10_eq (c : Dev nD) (t : Fin cfg2.N) : iblk2 V c 10 t = V c main_v12 := by
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩, ⟨e10a, e10b⟩⟩ := idx2_in t
  funext j
  show V c main_v12 (((cfg2.win 10).blk t).view.emb j) = V c main_v12 j
  congr 1; funext a; apply Fin.ext
  match a with
  | ⟨0, _⟩ => show win2_10.index t (0 : Fin 2) * 1 + 1 * (j 0).val = (j 0).val; rw [e10a]; omega
  | ⟨1, _⟩ => show win2_10.index t (1 : Fin 2) * 1 + 1 * (j 1).val = (j 1).val; rw [e10b]; omega

/-- THE OUTPUT ARRAY AT ROW `i 0`: the network on that row of the feature array and of the summed-message array
    and on that row's degree (column 0 of the degree array), with the weights and biases as the region finds them. -/
theorem GOut_apply (c : Dev nD) (i : S10000x1.Idx) :
    GOut V c i = headRow (fun k => V c main_arg0 (ix2 (i 0) k)) (fun k => V c main_v7 (ix2 (i 0) k)) (V c main_v8 (ix2 (i 0) 0))
      (V c main_arg2) (V c main_v9) (V c main_arg4) (V c main_v10) (V c main_arg6) (V c main_v11) (V c main_arg8) (V c main_v12) := by
  have hi0 : (i 0).val < 10000 := (i 0).isLt
  have hrow : rowOf i = ix2 (⟨(i 0).val % 1000, Nat.mod_lt _ (by decide)⟩ : Fin 1000) (0 : Fin 1) := by
    funext a
    match a with
    | ⟨0, _⟩ => rfl
    | ⟨1, _⟩ => rfl
  have hr : (i 0).val = 1000 * (ptOf i).val + (⟨(i 0).val % 1000, Nat.mod_lt _ (by decide)⟩ : Fin 1000).val := by
    show (i 0).val = 1000 * ((i 0).val / 1000) + (i 0).val % 1000
    omega
  unfold GOut outAt
  rw [hrow, rowsOut_apply]
  simp only [iblk2_0_apply V c (ptOf i) _ _ (i 0) hr, iblk2_1_apply V c (ptOf i) _ _ (i 0) hr, iblk2_2_apply V c (ptOf i) _ _ (i 0) hr,
    iblk2_3_eq, iblk2_4_eq, iblk2_5_eq, iblk2_6_eq, iblk2_7_eq, iblk2_8_eq, iblk2_9_eq, iblk2_10_eq]

variable {Ix : Type} [DecidableEq Ix] {Name : Type} [DecidableEq Name] {U : Type} [URA U] {Lvl : Type}

/-- THE OUTPUT ARRAY AFTER THE RUN, at the ideal instance: at every row the network on that row of the inputs. -/
theorem final2_ideal (c : Dev nD) (B : Set (SemLoc sig × Ix)) :
    (dat2 (F := Ideal) (Name := Name) (U := U) (Lvl := Lvl) V c B).arrAt 11 cfg2.N
      = fun i : S10000x1.Idx =>
          headRow (fun k => V c main_arg0 (ix2 (i 0) k)) (fun k => V c main_v7 (ix2 (i 0) k)) (V c main_v8 (ix2 (i 0) 0))
            (V c main_arg2) (V c main_v9) (V c main_arg4) (V c main_v10) (V c main_arg6) (V c main_v11) (V c main_arg8) (V c main_v12) :=
  (final2 V c B).trans (funext fun i => GOut_apply V c i)

end Arrays

end Cert.KI.Head

end
-- ==== Proof.RefRunOps.lean ====
/-
  The reference program as a straight line. @main of the reference calls six outlined functions (an
  index-wrapping, range-masked row lookup, a clip from below, a relu, two leaky relus, a softplus); inlined at
  their call sites the program is a line of 96 host operations. This module lists them, shows @main is that
  line, and shows that the line writes none of the ten arguments.
-/
import proofs.«202620_g33904471835419_cont_8to1_b_799_54_alg».proof.Defs
import proofs.«202620_g33904471835419_cont_8to1_b_799_54_alg».proof.Proof.Gen.ReferenceIdeal
import proofs.«202620_g33904471835419_cont_8to1_b_799_54_alg».proof.Proof.Gen.Pre_input_domain
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's 96 operations in order, each callee's operations in place of its call, over that call's buffers. -/
abbrev ops : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.TRef.nullary main_call0.c (constantI S_ 32 0#32),
    StableHlo.TRef.unary main_call0.c main_call0.v0 (broadcastInDim S320000 ![] bcast_S_S320000),
    StableHlo.TRef.binary (.of main_v1 : StableHlo.TRef sig ⟨S320000, .i32⟩) main_call0.v0 main_call0.v1 (cmpi .slt),
    StableHlo.TRef.nullary main_call0.c_0 (constantI S_ 32 10000#32),
    StableHlo.TRef.unary main_call0.c_0 main_call0.v2 (broadcastInDim S320000 ![] bcast_S_S320000),
    StableHlo.TRef.binary (.of main_v1 : StableHlo.TRef sig ⟨S320000, .i32⟩) main_call0.v2 main_call0.v3 addi,
    StableHlo.TRef.ternary main_call0.v1 main_call0.v3 (.of main_v1 : StableHlo.TRef sig ⟨S320000, .i32⟩) main_call0.call0.v0 select,
    StableHlo.TRef.unary main_call0.call0.v0 main_call0.v5 (broadcastInDim S320000x1 ![0] bcast_S320000_S320000x1_0),
    StableHlo.TRef.nullary main_call0.c_1 (constantI S1 32 9999#32),
    StableHlo.TRef.nullary main_call0.c_2 (constantI S_ 32 0#32),
    StableHlo.TRef.unary main_call0.c_2 main_call0.v6 (broadcastInDim S320000x1 ![] bcast_S_S320000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S320000x1 ![0, 1] bcast_S1x1_S320000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S320000x1_S320000_d1 h_S_),
    StableHlo.TRef.binary (.of main_arg0 : StableHlo.TRef sig ⟨S10000x128, .f32⟩) main_call0.v5 main_call0.v13 (fun x i => Host.gather gather_S10000x128_S320000x1_S320000x128_1_0_n_n_0_1_1128 x i),
    StableHlo.TRef.unary main_call0.v12 main_call0.v14 (broadcastInDim S320000x128 ![0] bcast_S320000_S320000x128_0),
    StableHlo.TRef.nullary main_call0.cst (constant S_ .f32 0x7FC00000#32),
    StableHlo.TRef.unary main_call0.cst main_call0.v15 (broadcastInDim S320000x128 ![] bcast_S_S320000x128),
    StableHlo.TRef.ternary main_call0.v14 main_call0.v13 main_call0.v15 main_call0.v16 select,
    StableHlo.nullary main_cst (constant S_ .f32 0x00000000#32),
    StableHlo.unary main_cst main_v5 (broadcastInDim S10000x128 ![] bcast_S_S10000x128 : (⟨S_, .f32⟩ : BufTy).Contents (Elt F) → (⟨S10000x128, .f32⟩ : BufTy).Contents (Elt F)),
    StableHlo.unary main_v3 main_v6 (broadcastInDim S320000x1 ![0] bcast_S320000_S320000x1_0 : (⟨S320000, .i32⟩ : BufTy).Contents (Elt F) → (⟨S320000x1, .i32⟩ : BufTy).Contents (Elt F)),
    StableHlo.ternary main_v5 main_v6 main_v4 main_v7 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    StableHlo.nullary main_cst_0 (constant S_ .f32 0x3F800000#32),
    StableHlo.unary main_cst_0 main_v8 (broadcastInDim S320000 ![] bcast_S_S320000 : (⟨S_, .f32⟩ : BufTy).Contents (Elt F) → (⟨S320000, .f32⟩ : BufTy).Contents (Elt F)),
    StableHlo.nullary main_cst_1 (constant S_ .f32 0x00000000#32),
    StableHlo.unary main_cst_1 main_v9 (broadcastInDim S10000 ![] bcast_S_S10000 : (⟨S_, .f32⟩ : BufTy).Contents (Elt F) → (⟨S10000, .f32⟩ : BufTy).Contents (Elt F)),
    StableHlo.unary main_v3 main_v10 (broadcastInDim S320000x1 ![0] bcast_S320000_S320000x1_0 : (⟨S320000, .i32⟩ : BufTy).Contents (Elt F) → (⟨S320000x1, .i32⟩ : BufTy).Contents (Elt F)),
    StableHlo.ternary main_v9 main_v10 main_v8 main_v11 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_2 (constant S_ .f32 0x3F800000#32),
    StableHlo.TRef.unary (.of main_cst_2 : StableHlo.TRef sig ⟨S_, .f32⟩) main_call1.v0 id,
    StableHlo.TRef.unary main_call1.v0 main_call1.v1 (broadcastInDim S10000 ![] bcast_S_S10000),
    StableHlo.TRef.binary main_call1.v1 (.of main_v11 : StableHlo.TRef sig ⟨S10000, .f32⟩) main_call1.v2 maximumf,
    StableHlo.unary main_v12 main_v13 (broadcastInDim S10000x1 ![0] bcast_S10000_S10000x1_0 : (⟨S10000, .f32⟩ : BufTy).Contents (Elt F) → (⟨S10000x1, .f32⟩ : BufTy).Contents (Elt F)),
    StableHlo.unary main_v13 main_v14 (broadcastInDim S10000x128 ![0, 1] bcast_S10000x1_S10000x128_0_1 : (⟨S10000x1, .f32⟩ : BufTy).Contents (Elt F) → (⟨S10000x128, .f32⟩ : BufTy).Contents (Elt F)),
    StableHlo.binary main_v7 main_v14 main_v15 (Host.divf : (⟨S10000x128, .f32⟩ : BufTy).Contents (Elt F) → (⟨S10000x128, .f32⟩ : BufTy).Contents (Elt F) → (⟨S10000x128, .f32⟩ : BufTy).Contents (Elt F)),
    StableHlo.binary main_v15 main_arg2 main_v16 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg3 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S10000x128 ![0, 1] bcast_S1x128_S10000x128_0_1 : (⟨S1x128, .f32⟩ : BufTy).Contents (Elt F) → (⟨S10000x128, .f32⟩ : BufTy).Contents (Elt F)),
    StableHlo.binary main_v16 main_v18 main_v19 (addf : (⟨S10000x128, .f32⟩ : BufTy).Contents (Elt F) → (⟨S10000x128, .f32⟩ : BufTy).Contents (Elt F) → (⟨S10000x128, .f32⟩ : BufTy).Contents (Elt F)),
    StableHlo.TRef.nullary main_call2.cst (constant S_ .f32 0x00000000#32),
    StableHlo.TRef.unary main_call2.cst main_call2.v0 (broadcastInDim S10000x128 ![] bcast_S_S10000x128),
    StableHlo.TRef.binary (.of main_v19 : StableHlo.TRef sig ⟨S10000x128, .f32⟩) main_call2.v0 main_call2.v1 maximumf,
    StableHlo.binary main_v20 main_arg0 main_v21 (addf : (⟨S10000x128, .f32⟩ : BufTy).Contents (Elt F) → (⟨S10000x128, .f32⟩ : BufTy).Contents (Elt F) → (⟨S10000x128, .f32⟩ : BufTy).Contents (Elt F)),
    StableHlo.binary main_v21 main_arg4 main_v22 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg5 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S10000x128 ![0, 1] bcast_S1x128_S10000x128_0_1 : (⟨S1x128, .f32⟩ : BufTy).Contents (Elt F) → (⟨S10000x128, .f32⟩ : BufTy).Contents (Elt F)),
    StableHlo.binary main_v22 main_v24 main_v25 (addf : (⟨S10000x128, .f32⟩ : BufTy).Contents (Elt F) → (⟨S10000x128, .f32⟩ : BufTy).Contents (Elt F) → (⟨S10000x128, .f32⟩ : BufTy).Contents (Elt F)),
    StableHlo.TRef.nullary main_call3.cst (constant S_ .f32 0x00000000#32),
    StableHlo.TRef.unary main_call3.cst main_call3.v0 (broadcastInDim S10000x128 ![] bcast_S_S10000x128),
    StableHlo.TRef.binary (.of main_v25 : StableHlo.TRef sig ⟨S10000x128, .f32⟩) main_call3.v0 main_call3.v1 (cmpf .oge),
    StableHlo.TRef.nullary main_call3.cst_0 (constant S_ .f32 0x3C23D70A#32),
    StableHlo.TRef.unary main_call3.cst_0 main_call3.v2 (broadcastInDim S10000x128 ![] bcast_S_S10000x128),
    StableHlo.TRef.binary main_call3.v2 (.of main_v25 : StableHlo.TRef sig ⟨S10000x128, .f32⟩) main_call3.v3 mulf,
    StableHlo.TRef.ternary main_call3.v1 (.of main_v25 : StableHlo.TRef sig ⟨S10000x128, .f32⟩) main_call3.v3 main_call3.call0.v0 select,
    StableHlo.binary main_v26 main_arg6 main_v27 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg7 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S10000x128 ![0, 1] bcast_S1x128_S10000x128_0_1 : (⟨S1x128, .f32⟩ : BufTy).Contents (Elt F) → (⟨S10000x128, .f32⟩ : BufTy).Contents (Elt F)),
    StableHlo.binary main_v27 main_v29 main_v30 (addf : (⟨S10000x128, .f32⟩ : BufTy).Contents (Elt F) → (⟨S10000x128, .f32⟩ : BufTy).Contents (Elt F) → (⟨S10000x128, .f32⟩ : BufTy).Contents (Elt F)),
    StableHlo.TRef.nullary main_call4.cst (constant S_ .f32 0x00000000#32),
    StableHlo.TRef.unary main_call4.cst main_call4.v0 (broadcastInDim S10000x128 ![] bcast_S_S10000x128),
    StableHlo.TRef.binary (.of main_v30 : StableHlo.TRef sig ⟨S10000x128, .f32⟩) main_call4.v0 main_call4.v1 (cmpf .oge),
    StableHlo.TRef.nullary main_call4.cst_0 (constant S_ .f32 0x3C23D70A#32),
    StableHlo.TRef.unary main_call4.cst_0 main_call4.v2 (broadcastInDim S10000x128 ![] bcast_S_S10000x128),
    StableHlo.TRef.binary main_call4.v2 (.of main_v30 : StableHlo.TRef sig ⟨S10000x128, .f32⟩) main_call4.v3 mulf,
    StableHlo.TRef.ternary main_call4.v1 (.of main_v30 : StableHlo.TRef sig ⟨S10000x128, .f32⟩) main_call4.v3 main_call4.call0.v0 select,
    StableHlo.binary main_v31 main_arg8 main_v32 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    StableHlo.unary main_arg9 main_v33 (broadcastInDim S1x1 ![1] bcast_S1_S1x1_1 : (⟨S1, .f32⟩ : BufTy).Contents (Elt F) → (⟨S1x1, .f32⟩ : BufTy).Contents (Elt F)),
    StableHlo.unary main_v33 main_v34 (broadcastInDim S10000x1 ![0, 1] bcast_S1x1_S10000x1_0_1 : (⟨S1x1, .f32⟩ : BufTy).Contents (Elt F) → (⟨S10000x1, .f32⟩ : BufTy).Contents (Elt F)),
    StableHlo.binary main_v32 main_v34 main_v35 (addf : (⟨S10000x1, .f32⟩ : BufTy).Contents (Elt F) → (⟨S10000x1, .f32⟩ : BufTy).Contents (Elt F) → (⟨S10000x1, .f32⟩ : BufTy).Contents (Elt F)),
    StableHlo.TRef.nullary main_call5.cst (constant S_ .f32 0x00000000#32),
    StableHlo.TRef.unary main_call5.cst main_call5.v0 (broadcastInDim S10000x1 ![] bcast_S_S10000x1),
    StableHlo.TRef.binary (.of main_v35 : StableHlo.TRef sig ⟨S10000x1, .f32⟩) main_call5.v0 main_call5.v1 maximumf,
    StableHlo.TRef.unary main_call5.cst main_call5.v2 (broadcastInDim S10000x1 ![] bcast_S_S10000x1),
    StableHlo.TRef.binary (.of main_v35 : StableHlo.TRef sig ⟨S10000x1, .f32⟩) main_call5.v2 main_call5.v3 subf,
    StableHlo.TRef.binary main_call5.v3 main_call5.v3 main_call5.v4 (cmpf .une),
    StableHlo.TRef.unary main_call5.cst main_call5.v5 (broadcastInDim S10000x1 ![] bcast_S_S10000x1),
    StableHlo.TRef.binary (.of main_v35 : StableHlo.TRef sig ⟨S10000x1, .f32⟩) main_call5.v5 main_call5.v6 addf,
    StableHlo.TRef.unary main_call5.v3 main_call5.v7 Host.absf,
    StableHlo.TRef.unary main_call5.v7 main_call5.v8 Host.negf,
    StableHlo.TRef.unary main_call5.v8 main_call5.v9 Host.exp,
    StableHlo.TRef.unary main_call5.v9 main_call5.v10 Host.log1p,
    StableHlo.TRef.binary main_call5.v1 main_call5.v10 main_call5.v11 addf,
    StableHlo.TRef.ternary main_call5.v4 main_call5.v6 main_call5.v11 main_call5.v12 select,
    StableHlo.reshape main_v36 main_v37 rfl shapeCasts_S10000x1_S10000,
    StableHlo.nullary main_cst_3 (constant S_ .f32 0x1E3CE508#32),
    StableHlo.unary main_cst_3 main_v38 (broadcastInDim S10000 ![] bcast_S_S10000 : (⟨S_, .f32⟩ : BufTy).Contents (Elt F) → (⟨S10000, .f32⟩ : BufTy).Contents (Elt F)),
    StableHlo.binary main_v37 main_v38 main_v39 (addf : (⟨S10000, .f32⟩ : BufTy).Contents (Elt F) → (⟨S10000, .f32⟩ : BufTy).Contents (Elt F) → (⟨S10000, .f32⟩ : BufTy).Contents (Elt F)) ]

set_option maxRecDepth 100000 in
/-- @main is that straight line: sequencing in this program monad grafts by structural recursion, so the callees'
    bodies unfolded at their calls and the binds pushed to the leaves are the same chain of steps, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., reshape_bufs_sub .., nullary_bufs_sub .., unary_bufs_sub .., binary_bufs_sub ..⟩

/-! ## The arguments are not written -/

set_option maxRecDepth 16384 in
set_option maxHeartbeats 2000000 in
/-- No operation of the line writes argument 0. -/
theorem arg0_eq (V : Valuation τ sig (Elt F)) : after ops V (main_arg0 : DevRef τ sig) = V (main_arg0 : DevRef τ sig) := by
  after_results_simp

set_option maxRecDepth 16384 in
set_option maxHeartbeats 2000000 in
/-- No operation of the line writes argument 1. -/
theorem arg1_eq (V : Valuation τ sig (Elt F)) : after ops V (main_arg1 : DevRef τ sig) = V (main_arg1 : DevRef τ sig) := by
  after_results_simp

set_option maxRecDepth 16384 in
set_option maxHeartbeats 2000000 in
/-- No operation of the line writes argument 2. -/
theorem arg2_eq (V : Valuation τ sig (Elt F)) : after ops V (main_arg2 : DevRef τ sig) = V (main_arg2 : DevRef τ sig) := by
  after_results_simp

set_option maxRecDepth 16384 in
set_option maxHeartbeats 2000000 in
/-- No operation of the line writes argument 3. -/
theorem arg3_eq (V : Valuation τ sig (Elt F)) : after ops V (main_arg3 : DevRef τ sig) = V (main_arg3 : DevRef τ sig) := by
  after_results_simp

set_option maxRecDepth 16384 in
set_option maxHeartbeats 2000000 in
/-- No operation of the line writes argument 4. -/
theorem arg4_eq (V : Valuation τ sig (Elt F)) : after ops V (main_arg4 : DevRef τ sig) = V (main_arg4 : DevRef τ sig) := by
  after_results_simp

set_option maxRecDepth 16384 in
set_option maxHeartbeats 2000000 in
/-- No operation of the line writes argument 5. -/
theorem arg5_eq (V : Valuation τ sig (Elt F)) : after ops V (main_arg5 : DevRef τ sig) = V (main_arg5 : DevRef τ sig) := by
  after_results_simp

set_option maxRecDepth 16384 in
set_option maxHeartbeats 2000000 in
/-- No operation of the line writes argument 6. -/
theorem arg6_eq (V : Valuation τ sig (Elt F)) : after ops V (main_arg6 : DevRef τ sig) = V (main_arg6 : DevRef τ sig) := by
  after_results_simp

set_option maxRecDepth 16384 in
set_option maxHeartbeats 2000000 in
/-- No operation of the line writes argument 7. -/
theorem arg7_eq (V : Valuation τ sig (Elt F)) : after ops V (main_arg7 : DevRef τ sig) = V (main_arg7 : DevRef τ sig) := by
  after_results_simp

set_option maxRecDepth 16384 in
set_option maxHeartbeats 2000000 in
/-- No operation of the line writes argument 8. -/
theorem arg8_eq (V : Valuation τ sig (Elt F)) : after ops V (main_arg8 : DevRef τ sig) = V (main_arg8 : DevRef τ sig) := by
  after_results_simp

set_option maxRecDepth 16384 in
set_option maxHeartbeats 2000000 in
/-- No operation of the line writes argument 9. -/
theorem arg9_eq (V : Valuation τ sig (Elt F)) : after ops V (main_arg9 : DevRef τ sig) = V (main_arg9 : DevRef τ sig) := by
  after_results_simp

/-- At the compiled mesh, for any float values, from any memory with zero counters: every weakly fair execution of
    @main on the TensorCore terminates, and every final state has each TensorCore buffer at the fold of the line
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference's run read back. The reference program is a straight line of host operations (the module
  this one imports lists them and shows @main is that line). Here the line is cut into ten consecutive
  segments, one per stage of the computation (the two index rows; the masked row lookup; the two
  scatter-adds; the clipped mean; the convolution layer; two leaky-relu layers; the last linear layer; the
  softplus and the final shift). Each stage is a named pure function of its inputs, each segment is shown
  to leave its stage's value in its output buffer and to write nothing outside its own buffers, and the
  stages composed are `out`, the reference's result as one pure term of the ten arguments. The run then
  says: every weakly fair execution terminates with the result buffer at `out` of the arguments' launch
  contents and the arguments unchanged.
-/
import proofs.«202620_g33904471835419_cont_8to1_b_799_54_alg».proof.Proof.RefRunOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-! ## The stages, each a pure function of its inputs -/

/-- Row 0 of the edge table, flat: the edges' source nodes. -/
def src (ei : IVec S2x320000 32) : IVec S320000 32 :=
  shapeCast S320000 (extractStridedSlice S1x320000 ![0, 0] ei slices_S2x320000_S1x320000_0_0) shapeCasts_S1x320000_S320000

/-- Row 1 of the edge table, flat: the edges' destination nodes. -/
def dst (ei : IVec S2x320000 32) : IVec S320000 32 :=
  shapeCast S320000 (extractStridedSlice S1x320000 ![1, 0] ei slices_S2x320000_S1x320000_1_0) shapeCasts_S1x320000_S320000

/-- The lookup's wrap of an index vector: a negative index has the table's height 10000 added. -/
def wrapIdx (s : IVec S320000 32) : IVec S320000 32 :=
  select (cmpi .slt s (broadcastInDim S320000 ![] bcast_S_S320000 (constantI S_ 32 0#32)))
    (addi s (broadcastInDim S320000 ![] bcast_S_S320000 (constantI S_ 32 10000#32))) s

/-- The wrapped indices as a column: the lookup's start indices. -/
def idxCol (s : IVec S320000 32) : IVec S320000x1 32 :=
  broadcastInDim S320000x1 ![0] bcast_S320000_S320000x1_0 (wrapIdx s)

/-- The lookup's range mask: per position, whether the wrapped index lies in [0, 9999]. -/
def idxOk (s : IVec S320000 32) : IVec S320000 1 :=
  Host.reduce IntOp.andi
    (andi (cmpi .sge (idxCol s) (broadcastInDim S320000x1 ![] bcast_S_S320000x1 (constantI S_ 32 0#32)))
      (cmpi .sle (idxCol s)
        (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- The masked row lookup: per position the table's row at the wrapped index, or the fill value where the mask is off. -/
def msgOf (x : FVec F S10000x128 .f32) (s : IVec S320000 32) : FVec F S320000x128 .f32 :=
  select (broadcastInDim S320000x128 ![0] bcast_S320000_S320000x128_0 (idxOk s))
    (Host.gather gather_S10000x128_S320000x1_S320000x128_1_0_n_n_0_1_1128 x (idxCol s))
    (broadcastInDim S320000x128 ![] bcast_S_S320000x128 (constant (F := F) S_ .f32 0x7FC00000#32))

/-- The all-zero 10000 x 128 array. -/
def zeros : FVec F S10000x128 .f32 :=
  broadcastInDim S10000x128 ![] bcast_S_S10000x128 (constant (F := F) S_ .f32 0x00000000#32)

/-- The scatter-add of rows `u` into 10000 zero rows at the row indices `d`. -/
def aggOf (d : IVec S320000 32) (u : FVec F S320000x128 .f32) : FVec F S10000x128 .f32 :=
  Host.scatterAdd scatter_S10000x128_S320000x1_S320000x128_1_0_0_1 zeros
    (broadcastInDim S320000x1 ![0] bcast_S320000_S320000x1_0 d) u

/-- The scatter-add of ones into 10000 zeros at the indices `d`: how often each index occurs. -/
def degOf (d : IVec S320000 32) : FVec F S10000 .f32 :=
  Host.scatterAdd scatter_S10000_S320000x1_S320000_n_0_0_1
    (broadcastInDim S10000 ![] bcast_S_S10000 (constant (F := F) S_ .f32 0x00000000#32))
    (broadcastInDim S320000x1 ![0] bcast_S320000_S320000x1_0 d)
    (broadcastInDim S320000 ![] bcast_S_S320000 (constant (F := F) S_ .f32 0x3F800000#32))

/-- A count vector clipped below at one. -/
def clip1 (g : FVec F S10000 .f32) : FVec F S10000 .f32 :=
  maximumf (broadcastInDim S10000 ![] bcast_S_S10000 (id (constant (F := F) S_ .f32 0x3F800000#32))) g

/-- Rows `a` divided, row by row, by the clipped counts. -/
def meanOf (a : FVec F S10000x128 .f32) (g : FVec F S10000 .f32) : FVec F S10000x128 .f32 :=
  Host.divf a
    (broadcastInDim S10000x128 ![0, 1] bcast_S10000x1_S10000x128_0_1 (broadcastInDim S10000x1 ![0] bcast_S10000_S10000x1_0 (clip1 g)))

/-- A bias row repeated down the 10000 rows. -/
def biasRows (b : FVec F S128 .f32) : FVec F S10000x128 .f32 :=
  broadcastInDim S10000x128 ![0, 1] bcast_S1x128_S10000x128_0_1 (broadcastInDim S1x128 ![1] bcast_S128_S1x128_1 b)

/-- One linear layer: the host's matrix product plus the bias rows. -/
def lin (h : FVec F S10000x128 .f32) (W : FVec F S128x128 .f32) (b : FVec F S128 .f32) : FVec F S10000x128 .f32 :=
  addf (Host.dotGeneral dot_S10000x128_S128x128_S10000x128_1_0_0_1_n_n none h W) (biasRows b)

/-- The convolution layer: relu of the linear layer on the mean message, plus the node's own features. -/
def convOf (mn x : FVec F S10000x128 .f32) (Wc : FVec F S128x128 .f32) (bc : FVec F S128 .f32) : FVec F S10000x128 .f32 :=
  addf (maximumf (lin mn Wc bc) zeros) x

/-- The leaky relu with slope 0.01 on the negative side. -/
def leaky (z : FVec F S10000x128 .f32) : FVec F S10000x128 .f32 :=
  select (cmpf .oge z zeros) z
    (mulf (broadcastInDim S10000x128 ![] bcast_S_S10000x128 (constant (F := F) S_ .f32 0x3C23D70A#32)) z)

/-- A linear layer followed by the leaky relu. -/
def layer (h : FVec F S10000x128 .f32) (W : FVec F S128x128 .f32) (b : FVec F S128 .f32) : FVec F S10000x128 .f32 :=
  leaky (lin h W b)

/-- The last linear layer, to one column. -/
def zOf (h : FVec F S10000x128 .f32) (W3 : FVec F S128x1 .f32) (b3 : FVec F S1 .f32) : FVec F S10000x1 .f32 :=
  addf (Host.dotGeneral dot_S10000x128_S128x1_S10000x1_1_0_0_1_n_n none h W3)
    (broadcastInDim S10000x1 ![0, 1] bcast_S1x1_S10000x1_0_1 (broadcastInDim S1x1 ![1] bcast_S1_S1x1_1 b3))

/-- The all-zero column. -/
def zeros1 : FVec F S10000x1 .f32 :=
  broadcastInDim S10000x1 ![] bcast_S_S10000x1 (constant (F := F) S_ .f32 0x00000000#32)

/-- The softplus as the reference computes it: where `z - 0` is unordered with itself, `z + 0`; elsewhere
    `max z 0 + log1p (exp (-|z - 0|))`. -/
def softplus (z : FVec F S10000x1 .f32) : FVec F S10000x1 .f32 :=
  select (cmpf .une (subf z zeros1) (subf z zeros1)) (addf z zeros1)
    (addf (maximumf z zeros1) (Host.log1p (Host.exp (Host.negf (Host.absf (subf z zeros1))))))

/-- The softplus column flattened, plus the constant 1e-20. -/
def fin (z : FVec F S10000x1 .f32) : FVec F S10000 .f32 :=
  addf (shapeCast S10000 (softplus z) shapeCasts_S10000x1_S10000)
    (broadcastInDim S10000 ![] bcast_S_S10000 (constant (F := F) S_ .f32 0x1E3CE508#32))

/-! ## The stages composed: the reference's values as terms of its arguments -/

/-- The messages: per edge the source node's row (or the fill value where the lookup's mask is off). -/
def msg (x : FVec F S10000x128 .f32) (ei : IVec S2x320000 32) : FVec F S320000x128 .f32 := msgOf x (src ei)

/-- The per-node sums of incoming messages. -/
def agg (x : FVec F S10000x128 .f32) (ei : IVec S2x320000 32) : FVec F S10000x128 .f32 := aggOf (dst ei) (msg x ei)

/-- The per-node counts of incoming edges, as a sum of ones. -/
def deg (ei : IVec S2x320000 32) : FVec F S10000 .f32 := degOf (dst ei)

/-- The mean message per node (the count clipped below at one). -/
def mean (x : FVec F S10000x128 .f32) (ei : IVec S2x320000 32) : FVec F S10000x128 .f32 := meanOf (agg x ei) (deg (F := F) ei)

/-- The convolution layer's output. -/
def h0 (x : FVec F S10000x128 .f32) (ei : IVec S2x320000 32) (Wc : FVec F S128x128 .f32) (bc : FVec F S128 .f32) :
    FVec F S10000x128 .f32 := convOf (mean x ei) x Wc bc

/-- The first leaky-relu layer's output. -/
def h1 (x : FVec F S10000x128 .f32) (ei : IVec S2x320000 32) (Wc : FVec F S128x128 .f32) (bc : FVec F S128 .f32)
    (W1 : FVec F S128x128 .f32) (b1 : FVec F S128 .f32) : FVec F S10000x128 .f32 := layer (h0 x ei Wc bc) W1 b1

/-- The second leaky-relu layer's output. -/
def h2 (x : FVec F S10000x128 .f32) (ei : IVec S2x320000 32) (Wc : FVec F S128x128 .f32) (bc : FVec F S128 .f32)
    (W1 : FVec F S128x128 .f32) (b1 : FVec F S128 .f32) (W2 : FVec F S128x128 .f32) (b2 : FVec F S128 .f32) :
    FVec F S10000x128 .f32 := layer (h1 x ei Wc bc W1 b1) W2 b2

/-- The last linear layer's column. -/
def zcol (x : FVec F S10000x128 .f32) (ei : IVec S2x320000 32) (Wc : FVec F S128x128 .f32) (bc : FVec F S128 .f32)
    (W1 : FVec F S128x128 .f32) (b1 : FVec F S128 .f32) (W2 : FVec F S128x128 .f32) (b2 : FVec F S128 .f32)
    (W3 : FVec F S128x1 .f32) (b3 : FVec F S1 .f32) : FVec F S10000x1 .f32 := zOf (h2 x ei Wc bc W1 b1 W2 b2) W3 b3

/-- The reference's result as one pure term of its ten arguments. -/
def out (x : FVec F S10000x128 .f32) (ei : IVec S2x320000 32) (Wc : FVec F S128x128 .f32) (bc : FVec F S128 .f32)
    (W1 : FVec F S128x128 .f32) (b1 : FVec F S128 .f32) (W2 : FVec F S128x128 .f32) (b2 : FVec F S128 .f32)
    (W3 : FVec F S128x1 .f32) (b3 : FVec F S1 .f32) : FVec F S10000 .f32 := fin (zcol x ei Wc bc W1 b1 W2 b2 W3 b3)

/-! ## The line in ten segments -/

/-- Running two lines one after the other folds the second over the first's fold. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation whose one written buffer is among a list of references writes inside that list. -/
theorem writes_sub_of_mem {Wl : List (Ref sig .tc)} {op : HloOp τ sig (Elt F)} {y : Ref sig .tc}
    (hw : op.writes = {Proc.devRef .tc y}) (hy : y ∈ Wl) :
    op.writes ⊆ (Wl.map (Proc.devRef (τ := τ) .tc)).toFinset := by
  rw [hw, Finset.singleton_subset_iff, List.mem_toFinset]
  exact List.mem_map_of_mem hy

/-- Segment A: the two index rows (4 operations). -/
def segA : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000 ]

/-- The buffers segment A writes. -/
def segA_w : List (Ref sig .tc) :=
  [main_v0, main_v1, main_v2, main_v3]

theorem segA_hw : (segA (F := F)).Forall fun op => op.writes ⊆ (segA_w.map (Proc.devRef (τ := τ) .tc)).toFinset := by
  unfold segA
  exact ⟨writes_sub_of_mem (y := main_v0) rfl (by decide),
    writes_sub_of_mem (y := main_v1) rfl (by decide),
    writes_sub_of_mem (y := main_v2) rfl (by decide),
    writes_sub_of_mem (y := main_v3) rfl (by decide)⟩

/-- Segment A leaves every buffer outside its own as it was. -/
theorem segA_frame {r : Ref sig .tc} (hr : r ∉ segA_w) (W : Valuation τ sig (Elt F)) :
    after segA W (no_index (Proc.devRef .tc r)) = W (Proc.devRef .tc r) :=
  after_of_writes_sub segA W segA_hw hr

attribute [local irreducible] Host.reduce Host.gather Host.scatterAdd in
set_option maxRecDepth 16384 in
set_option maxHeartbeats 1000000 in
/-- Segment A leaves its stage's value, of what it found in its input buffers. -/
theorem segA_v1 (W : Valuation τ sig (Elt F)) :
    after segA W (no_index (main_v1 : DevRef τ sig)) = src (W (main_arg1 : DevRef τ sig)) := by
  unfold segA
  after_results_simp
  rfl

attribute [local irreducible] Host.reduce Host.gather Host.scatterAdd in
set_option maxRecDepth 16384 in
set_option maxHeartbeats 1000000 in
/-- Segment A leaves its stage's value, of what it found in its input buffers. -/
theorem segA_v3 (W : Valuation τ sig (Elt F)) :
    after segA W (no_index (main_v3 : DevRef τ sig)) = dst (W (main_arg1 : DevRef τ sig)) := by
  unfold segA
  after_results_simp
  rfl

/-- Segment B: the masked row lookup (23 operations). -/
def segB : List (HloOp τ sig (Elt F)) :=
  [ StableHlo.TRef.nullary main_call0.c (constantI S_ 32 0#32),
    StableHlo.TRef.unary main_call0.c main_call0.v0 (broadcastInDim S320000 ![] bcast_S_S320000),
    StableHlo.TRef.binary (.of main_v1 : StableHlo.TRef sig ⟨S320000, .i32⟩) main_call0.v0 main_call0.v1 (cmpi .slt),
    StableHlo.TRef.nullary main_call0.c_0 (constantI S_ 32 10000#32),
    StableHlo.TRef.unary main_call0.c_0 main_call0.v2 (broadcastInDim S320000 ![] bcast_S_S320000),
    StableHlo.TRef.binary (.of main_v1 : StableHlo.TRef sig ⟨S320000, .i32⟩) main_call0.v2 main_call0.v3 addi,
    StableHlo.TRef.ternary main_call0.v1 main_call0.v3 (.of main_v1 : StableHlo.TRef sig ⟨S320000, .i32⟩) main_call0.call0.v0 select,
    StableHlo.TRef.unary main_call0.call0.v0 main_call0.v5 (broadcastInDim S320000x1 ![0] bcast_S320000_S320000x1_0),
    StableHlo.TRef.nullary main_call0.c_1 (constantI S1 32 9999#32),
    StableHlo.TRef.nullary main_call0.c_2 (constantI S_ 32 0#32),
    StableHlo.TRef.unary main_call0.c_2 main_call0.v6 (broadcastInDim S320000x1 ![] bcast_S_S320000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S320000x1 ![0, 1] bcast_S1x1_S320000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S320000x1_S320000_d1 h_S_),
    StableHlo.TRef.binary (.of main_arg0 : StableHlo.TRef sig ⟨S10000x128, .f32⟩) main_call0.v5 main_call0.v13 (fun x i => Host.gather gather_S10000x128_S320000x1_S320000x128_1_0_n_n_0_1_1128 x i),
    StableHlo.TRef.unary main_call0.v12 main_call0.v14 (broadcastInDim S320000x128 ![0] bcast_S320000_S320000x128_0),
    StableHlo.TRef.nullary main_call0.cst (constant S_ .f32 0x7FC00000#32),
    StableHlo.TRef.unary main_call0.cst main_call0.v15 (broadcastInDim S320000x128 ![] bcast_S_S320000x128),
    StableHlo.TRef.ternary main_call0.v14 main_call0.v13 main_call0.v15 main_call0.v16 select ]

/-- The buffers segment B writes. -/
def segB_w : List (Ref sig .tc) :=
  [main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]

theorem segB_hw : (segB (F := F)).Forall fun op => op.writes ⊆ (segB_w.map (Proc.devRef (τ := τ) .tc)).toFinset := by
  unfold segB
  exact ⟨writes_sub_of_mem (y := main_call0.c.ref) rfl (by decide),
    writes_sub_of_mem (y := main_call0.v0.ref) rfl (by decide),
    writes_sub_of_mem (y := main_call0.v1.ref) rfl (by decide),
    writes_sub_of_mem (y := main_call0.c_0.ref) rfl (by decide),
    writes_sub_of_mem (y := main_call0.v2.ref) rfl (by decide),
    writes_sub_of_mem (y := main_call0.v3.ref) rfl (by decide),
    writes_sub_of_mem (y := main_call0.call0.v0.ref) rfl (by decide),
    writes_sub_of_mem (y := main_call0.v5.ref) rfl (by decide),
    writes_sub_of_mem (y := main_call0.c_1.ref) rfl (by decide),
    writes_sub_of_mem (y := main_call0.c_2.ref) rfl (by decide),
    writes_sub_of_mem (y := main_call0.v6.ref) rfl (by decide),
    writes_sub_of_mem (y := main_call0.v7.ref) rfl (by decide),
    writes_sub_of_mem (y := main_call0.v8.ref) rfl (by decide),
    writes_sub_of_mem (y := main_call0.v9.ref) rfl (by decide),
    writes_sub_of_mem (y := main_call0.v10.ref) rfl (by decide),
    writes_sub_of_mem (y := main_call0.v11.ref) rfl (by decide),
    writes_sub_of_mem (y := main_call0.c_3.ref) rfl (by decide),
    writes_sub_of_mem (y := main_call0.v12.ref) rfl (by decide),
    writes_sub_of_mem (y := main_call0.v13.ref) rfl (by decide),
    writes_sub_of_mem (y := main_call0.v14.ref) rfl (by decide),
    writes_sub_of_mem (y := main_call0.cst.ref) rfl (by decide),
    writes_sub_of_mem (y := main_call0.v15.ref) rfl (by decide),
    writes_sub_of_mem (y := main_call0.v16.ref) rfl (by decide)⟩

/-- Segment B leaves every buffer outside its own as it was. -/
theorem segB_frame {r : Ref sig .tc} (hr : r ∉ segB_w) (W : Valuation τ sig (Elt F)) :
    after segB W (no_index (Proc.devRef .tc r)) = W (Proc.devRef .tc r) :=
  after_of_writes_sub segB W segB_hw hr

attribute [local irreducible] Host.reduce Host.gather Host.scatterAdd in
set_option maxRecDepth 16384 in
set_option maxHeartbeats 1000000 in
/-- Segment B leaves its stage's value, of what it found in its input buffers. -/
theorem segB_out (W : Valuation τ sig (Elt F)) :
    after segB W (no_index (main_v4 : DevRef τ sig)) = msgOf (W (main_arg0 : DevRef τ sig)) (W (main_v1 : DevRef τ sig)) := by
  unfold segB
  after_results_simp
  rfl

/-- Segment C: the scatter-add of the messages (4 operations). -/
def segC : List (HloOp τ sig (Elt F)) :=
  [ StableHlo.nullary main_cst (constant S_ .f32 0x00000000#32),
    StableHlo.unary main_cst main_v5 (broadcastInDim S10000x128 ![] bcast_S_S10000x128 : (⟨S_, .f32⟩ : BufTy).Contents (Elt F) → (⟨S10000x128, .f32⟩ : BufTy).Contents (Elt F)),
    StableHlo.unary main_v3 main_v6 (broadcastInDim S320000x1 ![0] bcast_S320000_S320000x1_0 : (⟨S320000, .i32⟩ : BufTy).Contents (Elt F) → (⟨S320000x1, .i32⟩ : BufTy).Contents (Elt F)),
    StableHlo.ternary main_v5 main_v6 main_v4 main_v7 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)) ]

/-- The buffers segment C writes. -/
def segC_w : List (Ref sig .tc) :=
  [main_cst, main_v5, main_v6, main_v7]

theorem segC_hw : (segC (F := F)).Forall fun op => op.writes ⊆ (segC_w.map (Proc.devRef (τ := τ) .tc)).toFinset := by
  unfold segC
  exact ⟨writes_sub_of_mem (y := main_cst) rfl (by decide),
    writes_sub_of_mem (y := main_v5) rfl (by decide),
    writes_sub_of_mem (y := main_v6) rfl (by decide),
    writes_sub_of_mem (y := main_v7) rfl (by decide)⟩

/-- Segment C leaves every buffer outside its own as it was. -/
theorem segC_frame {r : Ref sig .tc} (hr : r ∉ segC_w) (W : Valuation τ sig (Elt F)) :
    after segC W (no_index (Proc.devRef .tc r)) = W (Proc.devRef .tc r) :=
  after_of_writes_sub segC W segC_hw hr

attribute [local irreducible] Host.reduce Host.gather Host.scatterAdd in
set_option maxRecDepth 16384 in
set_option maxHeartbeats 1000000 in
/-- Segment C leaves its stage's value, of what it found in its input buffers. -/
theorem segC_out (W : Valuation τ sig (Elt F)) :
    after segC W (no_index (main_v7 : DevRef τ sig)) = aggOf (W (main_v3 : DevRef τ sig)) (W (main_v4 : DevRef τ sig)) := by
  unfold segC
  after_results_simp
  rfl

/-- Segment D: the scatter-add of ones (6 operations). -/
def segD : List (HloOp τ sig (Elt F)) :=
  [ StableHlo.nullary main_cst_0 (constant S_ .f32 0x3F800000#32),
    StableHlo.unary main_cst_0 main_v8 (broadcastInDim S320000 ![] bcast_S_S320000 : (⟨S_, .f32⟩ : BufTy).Contents (Elt F) → (⟨S320000, .f32⟩ : BufTy).Contents (Elt F)),
    StableHlo.nullary main_cst_1 (constant S_ .f32 0x00000000#32),
    StableHlo.unary main_cst_1 main_v9 (broadcastInDim S10000 ![] bcast_S_S10000 : (⟨S_, .f32⟩ : BufTy).Contents (Elt F) → (⟨S10000, .f32⟩ : BufTy).Contents (Elt F)),
    StableHlo.unary main_v3 main_v10 (broadcastInDim S320000x1 ![0] bcast_S320000_S320000x1_0 : (⟨S320000, .i32⟩ : BufTy).Contents (Elt F) → (⟨S320000x1, .i32⟩ : BufTy).Contents (Elt F)),
    StableHlo.ternary main_v9 main_v10 main_v8 main_v11 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ]

/-- The buffers segment D writes. -/
def segD_w : List (Ref sig .tc) :=
  [main_cst_0, main_v8, main_cst_1, main_v9, main_v10, main_v11]

theorem segD_hw : (segD (F := F)).Forall fun op => op.writes ⊆ (segD_w.map (Proc.devRef (τ := τ) .tc)).toFinset := by
  unfold segD
  exact ⟨writes_sub_of_mem (y := main_cst_0) rfl (by decide),
    writes_sub_of_mem (y := main_v8) rfl (by decide),
    writes_sub_of_mem (y := main_cst_1) rfl (by decide),
    writes_sub_of_mem (y := main_v9) rfl (by decide),
    writes_sub_of_mem (y := main_v10) rfl (by decide),
    writes_sub_of_mem (y := main_v11) rfl (by decide)⟩

/-- Segment D leaves every buffer outside its own as it was. -/
theorem segD_frame {r : Ref sig .tc} (hr : r ∉ segD_w) (W : Valuation τ sig (Elt F)) :
    after segD W (no_index (Proc.devRef .tc r)) = W (Proc.devRef .tc r) :=
  after_of_writes_sub segD W segD_hw hr

attribute [local irreducible] Host.reduce Host.gather Host.scatterAdd in
set_option maxRecDepth 16384 in
set_option maxHeartbeats 1000000 in
/-- Segment D leaves its stage's value, of what it found in its input buffers. -/
theorem segD_out (W : Valuation τ sig (Elt F)) :
    after segD W (no_index (main_v11 : DevRef τ sig)) = degOf (F := F) (W (main_v3 : DevRef τ sig)) := by
  unfold segD
  after_results_simp
  rfl

/-- Segment E: the clip and the division (7 operations). -/
def segE : List (HloOp τ sig (Elt F)) :=
  [ StableHlo.nullary main_cst_2 (constant S_ .f32 0x3F800000#32),
    StableHlo.TRef.unary (.of main_cst_2 : StableHlo.TRef sig ⟨S_, .f32⟩) main_call1.v0 id,
    StableHlo.TRef.unary main_call1.v0 main_call1.v1 (broadcastInDim S10000 ![] bcast_S_S10000),
    StableHlo.TRef.binary main_call1.v1 (.of main_v11 : StableHlo.TRef sig ⟨S10000, .f32⟩) main_call1.v2 maximumf,
    StableHlo.unary main_v12 main_v13 (broadcastInDim S10000x1 ![0] bcast_S10000_S10000x1_0 : (⟨S10000, .f32⟩ : BufTy).Contents (Elt F) → (⟨S10000x1, .f32⟩ : BufTy).Contents (Elt F)),
    StableHlo.unary main_v13 main_v14 (broadcastInDim S10000x128 ![0, 1] bcast_S10000x1_S10000x128_0_1 : (⟨S10000x1, .f32⟩ : BufTy).Contents (Elt F) → (⟨S10000x128, .f32⟩ : BufTy).Contents (Elt F)),
    StableHlo.binary main_v7 main_v14 main_v15 (Host.divf : (⟨S10000x128, .f32⟩ : BufTy).Contents (Elt F) → (⟨S10000x128, .f32⟩ : BufTy).Contents (Elt F) → (⟨S10000x128, .f32⟩ : BufTy).Contents (Elt F)) ]

/-- The buffers segment E writes. -/
def segE_w : List (Ref sig .tc) :=
  [main_cst_2, main_call1.v0.ref, main_call1.v1.ref, main_call1.v2.ref, main_v13, main_v14, main_v15]

theorem segE_hw : (segE (F := F)).Forall fun op => op.writes ⊆ (segE_w.map (Proc.devRef (τ := τ) .tc)).toFinset := by
  unfold segE
  exact ⟨writes_sub_of_mem (y := main_cst_2) rfl (by decide),
    writes_sub_of_mem (y := main_call1.v0.ref) rfl (by decide),
    writes_sub_of_mem (y := main_call1.v1.ref) rfl (by decide),
    writes_sub_of_mem (y := main_call1.v2.ref) rfl (by decide),
    writes_sub_of_mem (y := main_v13) rfl (by decide),
    writes_sub_of_mem (y := main_v14) rfl (by decide),
    writes_sub_of_mem (y := main_v15) rfl (by decide)⟩

/-- Segment E leaves every buffer outside its own as it was. -/
theorem segE_frame {r : Ref sig .tc} (hr : r ∉ segE_w) (W : Valuation τ sig (Elt F)) :
    after segE W (no_index (Proc.devRef .tc r)) = W (Proc.devRef .tc r) :=
  after_of_writes_sub segE W segE_hw hr

attribute [local irreducible] Host.reduce Host.gather Host.scatterAdd in
set_option maxRecDepth 16384 in
set_option maxHeartbeats 1000000 in
/-- Segment E leaves its stage's value, of what it found in its input buffers. -/
theorem segE_out (W : Valuation τ sig (Elt F)) :
    after segE W (no_index (main_v15 : DevRef τ sig)) = meanOf (W (main_v7 : DevRef τ sig)) (W (main_v11 : DevRef τ sig)) := by
  unfold segE
  after_results_simp
  rfl

/-- Segment F: the convolution layer (8 operations). -/
def segF : List (HloOp τ sig (Elt F)) :=
  [ StableHlo.binary main_v15 main_arg2 main_v16 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg3 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S10000x128 ![0, 1] bcast_S1x128_S10000x128_0_1 : (⟨S1x128, .f32⟩ : BufTy).Contents (Elt F) → (⟨S10000x128, .f32⟩ : BufTy).Contents (Elt F)),
    StableHlo.binary main_v16 main_v18 main_v19 (addf : (⟨S10000x128, .f32⟩ : BufTy).Contents (Elt F) → (⟨S10000x128, .f32⟩ : BufTy).Contents (Elt F) → (⟨S10000x128, .f32⟩ : BufTy).Contents (Elt F)),
    StableHlo.TRef.nullary main_call2.cst (constant S_ .f32 0x00000000#32),
    StableHlo.TRef.unary main_call2.cst main_call2.v0 (broadcastInDim S10000x128 ![] bcast_S_S10000x128),
    StableHlo.TRef.binary (.of main_v19 : StableHlo.TRef sig ⟨S10000x128, .f32⟩) main_call2.v0 main_call2.v1 maximumf,
    StableHlo.binary main_v20 main_arg0 main_v21 (addf : (⟨S10000x128, .f32⟩ : BufTy).Contents (Elt F) → (⟨S10000x128, .f32⟩ : BufTy).Contents (Elt F) → (⟨S10000x128, .f32⟩ : BufTy).Contents (Elt F)) ]

/-- The buffers segment F writes. -/
def segF_w : List (Ref sig .tc) :=
  [main_v16, main_v17, main_v18, main_v19, main_call2.cst.ref, main_call2.v0.ref, main_call2.v1.ref, main_v21]

theorem segF_hw : (segF (F := F)).Forall fun op => op.writes ⊆ (segF_w.map (Proc.devRef (τ := τ) .tc)).toFinset := by
  unfold segF
  exact ⟨writes_sub_of_mem (y := main_v16) rfl (by decide),
    writes_sub_of_mem (y := main_v17) rfl (by decide),
    writes_sub_of_mem (y := main_v18) rfl (by decide),
    writes_sub_of_mem (y := main_v19) rfl (by decide),
    writes_sub_of_mem (y := main_call2.cst.ref) rfl (by decide),
    writes_sub_of_mem (y := main_call2.v0.ref) rfl (by decide),
    writes_sub_of_mem (y := main_call2.v1.ref) rfl (by decide),
    writes_sub_of_mem (y := main_v21) rfl (by decide)⟩

/-- Segment F leaves every buffer outside its own as it was. -/
theorem segF_frame {r : Ref sig .tc} (hr : r ∉ segF_w) (W : Valuation τ sig (Elt F)) :
    after segF W (no_index (Proc.devRef .tc r)) = W (Proc.devRef .tc r) :=
  after_of_writes_sub segF W segF_hw hr

attribute [local irreducible] Host.reduce Host.gather Host.scatterAdd in
set_option maxRecDepth 16384 in
set_option maxHeartbeats 1000000 in
/-- Segment F leaves its stage's value, of what it found in its input buffers. -/
theorem segF_out (W : Valuation τ sig (Elt F)) :
    after segF W (no_index (main_v21 : DevRef τ sig)) = convOf (W (main_v15 : DevRef τ sig)) (W (main_arg0 : DevRef τ sig)) (W (main_arg2 : DevRef τ sig)) (W (main_arg3 : DevRef τ sig)) := by
  unfold segF
  after_results_simp
  rfl

/-- Segment G: the first leaky-relu layer (11 operations). -/
def segG : List (HloOp τ sig (Elt F)) :=
  [ StableHlo.binary main_v21 main_arg4 main_v22 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg5 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S10000x128 ![0, 1] bcast_S1x128_S10000x128_0_1 : (⟨S1x128, .f32⟩ : BufTy).Contents (Elt F) → (⟨S10000x128, .f32⟩ : BufTy).Contents (Elt F)),
    StableHlo.binary main_v22 main_v24 main_v25 (addf : (⟨S10000x128, .f32⟩ : BufTy).Contents (Elt F) → (⟨S10000x128, .f32⟩ : BufTy).Contents (Elt F) → (⟨S10000x128, .f32⟩ : BufTy).Contents (Elt F)),
    StableHlo.TRef.nullary main_call3.cst (constant S_ .f32 0x00000000#32),
    StableHlo.TRef.unary main_call3.cst main_call3.v0 (broadcastInDim S10000x128 ![] bcast_S_S10000x128),
    StableHlo.TRef.binary (.of main_v25 : StableHlo.TRef sig ⟨S10000x128, .f32⟩) main_call3.v0 main_call3.v1 (cmpf .oge),
    StableHlo.TRef.nullary main_call3.cst_0 (constant S_ .f32 0x3C23D70A#32),
    StableHlo.TRef.unary main_call3.cst_0 main_call3.v2 (broadcastInDim S10000x128 ![] bcast_S_S10000x128),
    StableHlo.TRef.binary main_call3.v2 (.of main_v25 : StableHlo.TRef sig ⟨S10000x128, .f32⟩) main_call3.v3 mulf,
    StableHlo.TRef.ternary main_call3.v1 (.of main_v25 : StableHlo.TRef sig ⟨S10000x128, .f32⟩) main_call3.v3 main_call3.call0.v0 select ]

/-- The buffers segment G writes. -/
def segG_w : List (Ref sig .tc) :=
  [main_v22, main_v23, main_v24, main_v25, main_call3.cst.ref, main_call3.v0.ref, main_call3.v1.ref, main_call3.cst_0.ref, main_call3.v2.ref, main_call3.v3.ref, main_call3.call0.v0.ref]

theorem segG_hw : (segG (F := F)).Forall fun op => op.writes ⊆ (segG_w.map (Proc.devRef (τ := τ) .tc)).toFinset := by
  unfold segG
  exact ⟨writes_sub_of_mem (y := main_v22) rfl (by decide),
    writes_sub_of_mem (y := main_v23) rfl (by decide),
    writes_sub_of_mem (y := main_v24) rfl (by decide),
    writes_sub_of_mem (y := main_v25) rfl (by decide),
    writes_sub_of_mem (y := main_call3.cst.ref) rfl (by decide),
    writes_sub_of_mem (y := main_call3.v0.ref) rfl (by decide),
    writes_sub_of_mem (y := main_call3.v1.ref) rfl (by decide),
    writes_sub_of_mem (y := main_call3.cst_0.ref) rfl (by decide),
    writes_sub_of_mem (y := main_call3.v2.ref) rfl (by decide),
    writes_sub_of_mem (y := main_call3.v3.ref) rfl (by decide),
    writes_sub_of_mem (y := main_call3.call0.v0.ref) rfl (by decide)⟩

/-- Segment G leaves every buffer outside its own as it was. -/
theorem segG_frame {r : Ref sig .tc} (hr : r ∉ segG_w) (W : Valuation τ sig (Elt F)) :
    after segG W (no_index (Proc.devRef .tc r)) = W (Proc.devRef .tc r) :=
  after_of_writes_sub segG W segG_hw hr

attribute [local irreducible] Host.reduce Host.gather Host.scatterAdd in
set_option maxRecDepth 16384 in
set_option maxHeartbeats 1000000 in
/-- Segment G leaves its stage's value, of what it found in its input buffers. -/
theorem segG_out (W : Valuation τ sig (Elt F)) :
    after segG W (no_index (main_v26 : DevRef τ sig)) = layer (W (main_v21 : DevRef τ sig)) (W (main_arg4 : DevRef τ sig)) (W (main_arg5 : DevRef τ sig)) := by
  unfold segG
  after_results_simp
  rfl

/-- Segment H: the second leaky-relu layer (11 operations). -/
def segH : List (HloOp τ sig (Elt F)) :=
  [ StableHlo.binary main_v26 main_arg6 main_v27 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg7 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S10000x128 ![0, 1] bcast_S1x128_S10000x128_0_1 : (⟨S1x128, .f32⟩ : BufTy).Contents (Elt F) → (⟨S10000x128, .f32⟩ : BufTy).Contents (Elt F)),
    StableHlo.binary main_v27 main_v29 main_v30 (addf : (⟨S10000x128, .f32⟩ : BufTy).Contents (Elt F) → (⟨S10000x128, .f32⟩ : BufTy).Contents (Elt F) → (⟨S10000x128, .f32⟩ : BufTy).Contents (Elt F)),
    StableHlo.TRef.nullary main_call4.cst (constant S_ .f32 0x00000000#32),
    StableHlo.TRef.unary main_call4.cst main_call4.v0 (broadcastInDim S10000x128 ![] bcast_S_S10000x128),
    StableHlo.TRef.binary (.of main_v30 : StableHlo.TRef sig ⟨S10000x128, .f32⟩) main_call4.v0 main_call4.v1 (cmpf .oge),
    StableHlo.TRef.nullary main_call4.cst_0 (constant S_ .f32 0x3C23D70A#32),
    StableHlo.TRef.unary main_call4.cst_0 main_call4.v2 (broadcastInDim S10000x128 ![] bcast_S_S10000x128),
    StableHlo.TRef.binary main_call4.v2 (.of main_v30 : StableHlo.TRef sig ⟨S10000x128, .f32⟩) main_call4.v3 mulf,
    StableHlo.TRef.ternary main_call4.v1 (.of main_v30 : StableHlo.TRef sig ⟨S10000x128, .f32⟩) main_call4.v3 main_call4.call0.v0 select ]

/-- The buffers segment H writes. -/
def segH_w : List (Ref sig .tc) :=
  [main_v27, main_v28, main_v29, main_v30, main_call4.cst.ref, main_call4.v0.ref, main_call4.v1.ref, main_call4.cst_0.ref, main_call4.v2.ref, main_call4.v3.ref, main_call4.call0.v0.ref]

theorem segH_hw : (segH (F := F)).Forall fun op => op.writes ⊆ (segH_w.map (Proc.devRef (τ := τ) .tc)).toFinset := by
  unfold segH
  exact ⟨writes_sub_of_mem (y := main_v27) rfl (by decide),
    writes_sub_of_mem (y := main_v28) rfl (by decide),
    writes_sub_of_mem (y := main_v29) rfl (by decide),
    writes_sub_of_mem (y := main_v30) rfl (by decide),
    writes_sub_of_mem (y := main_call4.cst.ref) rfl (by decide),
    writes_sub_of_mem (y := main_call4.v0.ref) rfl (by decide),
    writes_sub_of_mem (y := main_call4.v1.ref) rfl (by decide),
    writes_sub_of_mem (y := main_call4.cst_0.ref) rfl (by decide),
    writes_sub_of_mem (y := main_call4.v2.ref) rfl (by decide),
    writes_sub_of_mem (y := main_call4.v3.ref) rfl (by decide),
    writes_sub_of_mem (y := main_call4.call0.v0.ref) rfl (by decide)⟩

/-- Segment H leaves every buffer outside its own as it was. -/
theorem segH_frame {r : Ref sig .tc} (hr : r ∉ segH_w) (W : Valuation τ sig (Elt F)) :
    after segH W (no_index (Proc.devRef .tc r)) = W (Proc.devRef .tc r) :=
  after_of_writes_sub segH W segH_hw hr

attribute [local irreducible] Host.reduce Host.gather Host.scatterAdd in
set_option maxRecDepth 16384 in
set_option maxHeartbeats 1000000 in
/-- Segment H leaves its stage's value, of what it found in its input buffers. -/
theorem segH_out (W : Valuation τ sig (Elt F)) :
    after segH W (no_index (main_v31 : DevRef τ sig)) = layer (W (main_v26 : DevRef τ sig)) (W (main_arg6 : DevRef τ sig)) (W (main_arg7 : DevRef τ sig)) := by
  unfold segH
  after_results_simp
  rfl

/-- Segment I: the last linear layer (4 operations). -/
def segI : List (HloOp τ sig (Elt F)) :=
  [ StableHlo.binary main_v31 main_arg8 main_v32 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    StableHlo.unary main_arg9 main_v33 (broadcastInDim S1x1 ![1] bcast_S1_S1x1_1 : (⟨S1, .f32⟩ : BufTy).Contents (Elt F) → (⟨S1x1, .f32⟩ : BufTy).Contents (Elt F)),
    StableHlo.unary main_v33 main_v34 (broadcastInDim S10000x1 ![0, 1] bcast_S1x1_S10000x1_0_1 : (⟨S1x1, .f32⟩ : BufTy).Contents (Elt F) → (⟨S10000x1, .f32⟩ : BufTy).Contents (Elt F)),
    StableHlo.binary main_v32 main_v34 main_v35 (addf : (⟨S10000x1, .f32⟩ : BufTy).Contents (Elt F) → (⟨S10000x1, .f32⟩ : BufTy).Contents (Elt F) → (⟨S10000x1, .f32⟩ : BufTy).Contents (Elt F)) ]

/-- The buffers segment I writes. -/
def segI_w : List (Ref sig .tc) :=
  [main_v32, main_v33, main_v34, main_v35]

theorem segI_hw : (segI (F := F)).Forall fun op => op.writes ⊆ (segI_w.map (Proc.devRef (τ := τ) .tc)).toFinset := by
  unfold segI
  exact ⟨writes_sub_of_mem (y := main_v32) rfl (by decide),
    writes_sub_of_mem (y := main_v33) rfl (by decide),
    writes_sub_of_mem (y := main_v34) rfl (by decide),
    writes_sub_of_mem (y := main_v35) rfl (by decide)⟩

/-- Segment I leaves every buffer outside its own as it was. -/
theorem segI_frame {r : Ref sig .tc} (hr : r ∉ segI_w) (W : Valuation τ sig (Elt F)) :
    after segI W (no_index (Proc.devRef .tc r)) = W (Proc.devRef .tc r) :=
  after_of_writes_sub segI W segI_hw hr

attribute [local irreducible] Host.reduce Host.gather Host.scatterAdd in
set_option maxRecDepth 16384 in
set_option maxHeartbeats 1000000 in
/-- Segment I leaves its stage's value, of what it found in its input buffers. -/
theorem segI_out (W : Valuation τ sig (Elt F)) :
    after segI W (no_index (main_v35 : DevRef τ sig)) = zOf (W (main_v31 : DevRef τ sig)) (W (main_arg8 : DevRef τ sig)) (W (main_arg9 : DevRef τ sig)) := by
  unfold segI
  after_results_simp
  rfl

/-- Segment J: the softplus and the final shift (18 operations). -/
def segJ : List (HloOp τ sig (Elt F)) :=
  [ StableHlo.TRef.nullary main_call5.cst (constant S_ .f32 0x00000000#32),
    StableHlo.TRef.unary main_call5.cst main_call5.v0 (broadcastInDim S10000x1 ![] bcast_S_S10000x1),
    StableHlo.TRef.binary (.of main_v35 : StableHlo.TRef sig ⟨S10000x1, .f32⟩) main_call5.v0 main_call5.v1 maximumf,
    StableHlo.TRef.unary main_call5.cst main_call5.v2 (broadcastInDim S10000x1 ![] bcast_S_S10000x1),
    StableHlo.TRef.binary (.of main_v35 : StableHlo.TRef sig ⟨S10000x1, .f32⟩) main_call5.v2 main_call5.v3 subf,
    StableHlo.TRef.binary main_call5.v3 main_call5.v3 main_call5.v4 (cmpf .une),
    StableHlo.TRef.unary main_call5.cst main_call5.v5 (broadcastInDim S10000x1 ![] bcast_S_S10000x1),
    StableHlo.TRef.binary (.of main_v35 : StableHlo.TRef sig ⟨S10000x1, .f32⟩) main_call5.v5 main_call5.v6 addf,
    StableHlo.TRef.unary main_call5.v3 main_call5.v7 Host.absf,
    StableHlo.TRef.unary main_call5.v7 main_call5.v8 Host.negf,
    StableHlo.TRef.unary main_call5.v8 main_call5.v9 Host.exp,
    StableHlo.TRef.unary main_call5.v9 main_call5.v10 Host.log1p,
    StableHlo.TRef.binary main_call5.v1 main_call5.v10 main_call5.v11 addf,
    StableHlo.TRef.ternary main_call5.v4 main_call5.v6 main_call5.v11 main_call5.v12 select,
    StableHlo.reshape main_v36 main_v37 rfl shapeCasts_S10000x1_S10000,
    StableHlo.nullary main_cst_3 (constant S_ .f32 0x1E3CE508#32),
    StableHlo.unary main_cst_3 main_v38 (broadcastInDim S10000 ![] bcast_S_S10000 : (⟨S_, .f32⟩ : BufTy).Contents (Elt F) → (⟨S10000, .f32⟩ : BufTy).Contents (Elt F)),
    StableHlo.binary main_v37 main_v38 main_v39 (addf : (⟨S10000, .f32⟩ : BufTy).Contents (Elt F) → (⟨S10000, .f32⟩ : BufTy).Contents (Elt F) → (⟨S10000, .f32⟩ : BufTy).Contents (Elt F)) ]

/-- The buffers segment J writes. -/
def segJ_w : List (Ref sig .tc) :=
  [main_call5.cst.ref, main_call5.v0.ref, main_call5.v1.ref, main_call5.v2.ref, main_call5.v3.ref, main_call5.v4.ref, main_call5.v5.ref, main_call5.v6.ref, main_call5.v7.ref, main_call5.v8.ref, main_call5.v9.ref, main_call5.v10.ref, main_call5.v11.ref, main_call5.v12.ref, main_v37, main_cst_3, main_v38, main_v39]

theorem segJ_hw : (segJ (F := F)).Forall fun op => op.writes ⊆ (segJ_w.map (Proc.devRef (τ := τ) .tc)).toFinset := by
  unfold segJ
  exact ⟨writes_sub_of_mem (y := main_call5.cst.ref) rfl (by decide),
    writes_sub_of_mem (y := main_call5.v0.ref) rfl (by decide),
    writes_sub_of_mem (y := main_call5.v1.ref) rfl (by decide),
    writes_sub_of_mem (y := main_call5.v2.ref) rfl (by decide),
    writes_sub_of_mem (y := main_call5.v3.ref) rfl (by decide),
    writes_sub_of_mem (y := main_call5.v4.ref) rfl (by decide),
    writes_sub_of_mem (y := main_call5.v5.ref) rfl (by decide),
    writes_sub_of_mem (y := main_call5.v6.ref) rfl (by decide),
    writes_sub_of_mem (y := main_call5.v7.ref) rfl (by decide),
    writes_sub_of_mem (y := main_call5.v8.ref) rfl (by decide),
    writes_sub_of_mem (y := main_call5.v9.ref) rfl (by decide),
    writes_sub_of_mem (y := main_call5.v10.ref) rfl (by decide),
    writes_sub_of_mem (y := main_call5.v11.ref) rfl (by decide),
    writes_sub_of_mem (y := main_call5.v12.ref) rfl (by decide),
    writes_sub_of_mem (y := main_v37) rfl (by decide),
    writes_sub_of_mem (y := main_cst_3) rfl (by decide),
    writes_sub_of_mem (y := main_v38) rfl (by decide),
    writes_sub_of_mem (y := main_v39) rfl (by decide)⟩

/-- Segment J leaves every buffer outside its own as it was. -/
theorem segJ_frame {r : Ref sig .tc} (hr : r ∉ segJ_w) (W : Valuation τ sig (Elt F)) :
    after segJ W (no_index (Proc.devRef .tc r)) = W (Proc.devRef .tc r) :=
  after_of_writes_sub segJ W segJ_hw hr

attribute [local irreducible] Host.reduce Host.gather Host.scatterAdd in
set_option maxRecDepth 16384 in
set_option maxHeartbeats 1000000 in
/-- Segment J leaves its stage's value, of what it found in its input buffers. -/
theorem segJ_out (W : Valuation τ sig (Elt F)) :
    after segJ W (no_index (main_v39 : DevRef τ sig)) = fin (W (main_v35 : DevRef τ sig)) := by
  unfold segJ
  after_results_simp
  rfl

set_option maxRecDepth 100000 in
/-- The line is the ten segments in order. -/
theorem ops_split : (ops : List (HloOp τ sig (Elt F))) = segA ++ (segB ++ (segC ++ (segD ++ (segE ++ (segF ++ (segG ++ (segH ++ (segI ++ segJ)))))))) := rfl

/-! ## The line's fold at the result -/

set_option maxRecDepth 16384 in
set_option maxHeartbeats 1000000 in
/-- The fold of the whole line at the result buffer is `out` of the arguments' contents: segment by segment, the
    output buffer holds the stage's value of the input buffers, and an input buffer holds what the segment that
    wrote it left there (no segment between writes it) or, for an argument, the launch contents. -/
theorem out_eq (V : Valuation τ sig (Elt F)) :
    after ops V (main_v39 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [ops_split]
  simp only [after_append]
  simp (disch := decide) only [segJ_out, segI_out, segH_out, segG_out, segF_out, segE_out, segD_out, segC_out, segB_out, segA_v1, segA_v3,
    segA_frame, segB_frame, segC_frame, segD_frame, segE_frame, segF_frame, segG_frame, segH_frame, segI_frame]
  rfl

/-! ## The run -/

/-- At the compiled mesh, for any float values, from any memory with zero counters: every weakly fair execution of
    @main on the TensorCore terminates; the result buffer ends at `out` of the arguments' launch contents and the
    ten arguments end unchanged. No precondition: a host operation never faults. -/
theorem runF (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v39)
            = out (F := F) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
                (m ((c.tc : Thread Cert.ReferenceIdeal.nD Cert.ReferenceIdeal.τ).loc Cert.ReferenceIdeal.main_arg5))
                (m ((c.tc : Thread Cert.ReferenceIdeal.nD Cert.ReferenceIdeal.τ).loc Cert.ReferenceIdeal.main_arg6))
                (m ((c.tc : Thread Cert.ReferenceIdeal.nD Cert.ReferenceIdeal.τ).loc Cert.ReferenceIdeal.main_arg7))
                (m ((c.tc : Thread Cert.ReferenceIdeal.nD Cert.ReferenceIdeal.τ).loc Cert.ReferenceIdeal.main_arg8))
                (m ((c.tc : Thread Cert.ReferenceIdeal.nD Cert.ReferenceIdeal.τ).loc Cert.ReferenceIdeal.main_arg9))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run defs _ _).mono (fun _ h c => ⟨(h c main_v39).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_main m ρ)

/-- The same at the ideal instance, in the spelling of the certificate's claims. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v39)
            = out (F := Ideal) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
                (m ((c.tc : Thread Cert.ReferenceIdeal.nD Cert.ReferenceIdeal.τ).loc Cert.ReferenceIdeal.main_arg5))
                (m ((c.tc : Thread Cert.ReferenceIdeal.nD Cert.ReferenceIdeal.τ).loc Cert.ReferenceIdeal.main_arg6))
                (m ((c.tc : Thread Cert.ReferenceIdeal.nD Cert.ReferenceIdeal.τ).loc Cert.ReferenceIdeal.main_arg7))
                (m ((c.tc : Thread Cert.ReferenceIdeal.nD Cert.ReferenceIdeal.τ).loc Cert.ReferenceIdeal.main_arg8))
                (m ((c.tc : Thread Cert.ReferenceIdeal.nD Cert.ReferenceIdeal.τ).loc Cert.ReferenceIdeal.main_arg9))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  runF m ρ

/-- The reference's frame: its run with the value dropped. -/
theorem frame_ri : Cert.frame_ReferenceIdeal := fun m ρ _ => (θ_run _ _ _).mono (fun _ h c => (h c).2) (run m ρ)

end Cert.ReferenceIdeal.RefRun

end
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«202620_g33904471835419_cont_8to1_b_799_54_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.LibBiasRow.lean ====
/-
  A bias vector spread over the rows of a matrix, read at an entry.

  A linear layer adds a bias of H entries to every row of an n × H matrix. A kernel body writes this as a cast of the
  [H] vector to the one-row matrix [1, H] followed by a broadcast to [n, H]; the host writes it as two
  broadcasts-in-dimension, [H] → [1, H] along axis 1 and [1, H] → [n, H]. Either way entry (p, q) is the bias at q.
  Also here: the host's all-zero array (a zero constant broadcast from rank 0) reads zero at every index.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibBiasRow

open Idealize.ShloMosaic Idealize.ShloMosaic.ValueIdx

variable {α : Type}

/-- Kernel form: a `[H]` vector cast to the row `[1, H]` and broadcast to `[n, H]` reads, at `(p, q)`, the vector at `q`. -/
theorem cast_broadcast_apply {n H : ℕ} (b : (⟨1, ![H]⟩ : Shape).Idx → α) (h1 : (⟨1, ![H]⟩ : Shape).ShapeCasts ⟨2, ![1, H]⟩)
    (h2 : (⟨2, ![1, H]⟩ : Shape).Broadcasts ⟨2, ![n, H]⟩) (p : Fin n) (q : Fin H) :
    broadcastTo ⟨2, ![n, H]⟩ (shapeCast ⟨2, ![1, H]⟩ b h1) h2 (ix2 p q) = b (ix1 q) := by
  rw [broadcastTo_apply _ h2 (ix2 p q) (ix2 (0 : Fin 1) q) (fun a => by
    match a with
    | ⟨0, _⟩ => rfl
    | ⟨1, _⟩ =>
      show q.val = if H = 1 then 0 else q.val
      split_ifs with hH
      · have := q.isLt; omega
      · rfl)]
  refine shapeCast_apply b h1 _ _ ?_
  rw [Shape.rowMajor_val_two, Shape.rowMajor_val_one]
  show q.val = 0 * H + q.val
  rw [Nat.zero_mul, Nat.zero_add]

/-- Host form: a `[H]` vector broadcast in dimension to `[1, H]` (along axis 1) and then to `[n, H]` reads, at
    `(p, q)`, the vector at `q`. -/
theorem bcast_bcast_apply {n H : ℕ} (b : (⟨1, ![H]⟩ : Shape).Idx → α)
    (h1 : (⟨1, ![H]⟩ : Shape).BroadcastsInDim ⟨2, ![1, H]⟩ ![1])
    (h2 : (⟨2, ![1, H]⟩ : Shape).BroadcastsInDim ⟨2, ![n, H]⟩ ![0, 1]) (p : Fin n) (q : Fin H) :
    broadcastInDim ⟨2, ![n, H]⟩ ![0, 1] h2 (broadcastInDim ⟨2, ![1, H]⟩ ![1] h1 b) (ix2 p q) = b (ix1 q) := by
  have hq : q.val = if H = 1 then 0 else q.val := by
    split_ifs with hH
    · have := q.isLt; omega
    · rfl
  rw [broadcastInDim_apply _ h2 _ (ix2 p q) (ix2 (0 : Fin 1) q) (fun a => by
    match a with
    | ⟨0, _⟩ => rfl
    | ⟨1, _⟩ => exact hq)]
  exact broadcastInDim_apply _ h1 b _ (ix1 q) (fun a => by
    match a with
    | ⟨0, _⟩ => exact hq)

/-- The zero constant of rank 0 broadcast to any shape reads zero at every index, on the extended reals. -/
theorem zeros_apply {s : Shape} (h : (⟨0, ![]⟩ : Shape).BroadcastsInDim s ![]) (j : s.Idx) :
    broadcastInDim s ![] h (constant (F := Ideal) ⟨0, ![]⟩ .f32 0x00000000#32) j = 0 := by
  rw [broadcastInDim_apply _ h _ j ix0 (fun a => a.elim0)]
  exact Ideal.ofBits_zero_f32

end Cert.LibBiasRow

end
-- ==== Proof.BridgeHead.lean ====
import proofs.«202620_g33904471835419_cont_8to1_b_799_54_alg».proof.Proof.HeadValue
import proofs.«202620_g33904471835419_cont_8to1_b_799_54_alg».proof.Proof.RefRun
import proofs.«202620_g33904471835419_cont_8to1_b_799_54_alg».proof.Proof.LibDotRead
import proofs.«202620_g33904471835419_cont_8to1_b_799_54_alg».proof.Proof.LibBiasRow
import proofs.«202620_g33904471835419_cont_8to1_b_799_54_alg».proof.Proof.LibColumn

/-!
# The reference's layers at a node are the kernel's network on that node's row

The reference computes, on whole arrays, the clipped mean of the summed messages, the convolution layer with its
residual, two leaky layers, the last linear layer, the softplus, and a final shift by a tiny constant. Read at a
node `n`, over the extended reals, each of these stages only looks at row `n` of its input, and the chain is the
network the head kernel applies to row `n` (the biases there held as rows), plus the shift.

Two points need an argument rather than unfolding. The reference's softplus guards its formula by a test that
`z − 0` differs from itself, which never holds of an extended real, and writes `−|z − 0|` where the kernel writes
`0 − |z|`; these agree because subtracting zero changes nothing. The reference clips the count as
`max 1 g`, the kernel as `max g 1`.
-/

noncomputable section

namespace Cert.KI.Bridge

open Cert.ReferenceIdeal Cert.ReferenceIdeal.RefRun
open Idealize.ShloMosaic Idealize.ShloMosaic.ValueIdx Idealize.ShloMosaic.MatmulRead
open scoped BigOperators

/-! ## Small readings -/

/-- A rank-0 constant broadcast to any shape reads its word's value everywhere. -/
theorem splat_apply {s : Shape} (h : (⟨0, ![]⟩ : Shape).BroadcastsInDim s ![]) (w : BitVec FTy.f32.bits) (j : s.Idx) :
    broadcastInDim s ![] h (constant (F := Ideal) ⟨0, ![]⟩ .f32 w) j = Ideal.ofBits .f32 w := by
  rw [broadcastInDim_apply _ h _ j ix0 (fun a => a.elim0)]; rfl

/-- An `n × 1` column recast to the length-`n` vector reads, at `p`, the column at `(p, 0)`. -/
theorem shapeCast_vec_apply {α : Type} {m : ℕ} (v : (⟨2, ![m, 1]⟩ : Shape).Idx → α)
    (hc : (⟨2, ![m, 1]⟩ : Shape).ShapeCasts ⟨1, ![m]⟩) (p : Fin m) :
    shapeCast ⟨1, ![m]⟩ v hc (ix1 p) = v (ix2 p 0) := by
  refine shapeCast_apply v hc _ _ ?_
  rw [Shape.rowMajor_val_two, Shape.rowMajor_val_one]
  show p.val * 1 + 0 = p.val
  omega

theorem zeros_at (j : S10000x128.Idx) : zeros (F := Ideal) j = Ideal.ofBits .f32 0x00000000#32 := by
  unfold zeros; exact splat_apply _ _ j
theorem zeros1_at (j : S10000x1.Idx) : zeros1 (F := Ideal) j = Ideal.ofBits .f32 0x00000000#32 := by
  unfold zeros1; exact splat_apply _ _ j

/-! ## The reference's stages at a node -/

section Stages
variable (x a : FVec Ideal S10000x128 .f32) (g : FVec Ideal S10000 .f32) (h z : FVec Ideal S10000x128 .f32)
  (W : FVec Ideal S128x128 .f32) (b : FVec Ideal S128 .f32) (W3 : FVec Ideal S128x1 .f32) (b3 : FVec Ideal S1 .f32)
  (zc : FVec Ideal S10000x1 .f32) (n : Fin 10000) (q k : Fin 128)

theorem clip1_at : clip1 g (ix1 n) = max (Ideal.ofBits .f32 0x3F800000#32) (g (ix1 n)) := by
  unfold clip1
  rw [maximumf_apply]
  exact congrArg (max · (g (ix1 n))) (splat_apply _ _ _)

theorem meanOf_at : meanOf a g (ix2 n k) = Ideal.div (a (ix2 n k)) (max (Ideal.ofBits .f32 0x3F800000#32) (g (ix1 n))) := by
  unfold meanOf
  show Ideal.div (a (ix2 n k)) (broadcastInDim S10000x128 ![0, 1] _ (broadcastInDim S10000x1 ![0] _ (clip1 g)) (ix2 n k)) = _
  rw [Cert.LibColumn.broadcastInDim_col_apply, Cert.LibColumn.broadcastInDim_vec_col_apply, clip1_at]

theorem biasRows_at : biasRows b (ix2 n q) = b (ix1 q) := by
  unfold biasRows; exact Cert.LibBiasRow.bcast_bcast_apply b _ _ n q

theorem lin_at : lin h W b (ix2 n q) = (∑ k : Fin 128, h (ix2 n k) * W (ix2 k q)) + b (ix1 q) := by
  unfold lin
  rw [addf_apply, biasRows_at,
    hostDot_ix2 (D := dot_S10000x128_S128x128_S10000x128_1_0_0_1_n_n) ⟨rfl, rfl, rfl, rfl, rfl, rfl⟩ rfl rfl]

theorem convOf_at : convOf h x W b (ix2 n q)
    = max ((∑ k : Fin 128, h (ix2 n k) * W (ix2 k q)) + b (ix1 q)) (Ideal.ofBits .f32 0x00000000#32) + x (ix2 n q) := by
  unfold convOf
  rw [addf_apply, maximumf_apply, lin_at, zeros_at]

theorem leaky_at : RefRun.leaky z (ix2 n q) = Head.leaky (z (ix2 n q)) := by
  unfold RefRun.leaky Head.leaky
  rw [select_apply, cmpf_apply, mulf_apply, zeros_at, splat_apply]
  rfl

theorem layer_at : layer h W b (ix2 n q) = Head.leaky ((∑ k : Fin 128, h (ix2 n k) * W (ix2 k q)) + b (ix1 q)) := by
  unfold layer
  rw [leaky_at, lin_at]

theorem zOf_at : zOf h W3 b3 (ix2 n 0) = (∑ k : Fin 128, h (ix2 n k) * W3 (ix2 k 0)) + b3 (ix1 0) := by
  unfold zOf
  rw [addf_apply, hostDot_ix2 (D := dot_S10000x128_S128x1_S10000x1_1_0_0_1_n_n) ⟨rfl, rfl, rfl, rfl, rfl, rfl⟩ rfl rfl,
    Cert.LibBiasRow.bcast_bcast_apply]

/-- No extended real differs from itself. -/
theorem une_self (v : Ideal .f32) : FloatOps.cmpf .une v v = 0#1 := by
  show Ideal.cmp .une v v = 0#1
  simp [Ideal.cmp]

/-- The reference's softplus at a node is the kernel's: the guard is never taken, and subtracting zero changes nothing. -/
theorem softplus_at : softplus zc (ix2 n 0)
    = max (zc (ix2 n 0)) Head.w0 + FloatOps.log1p (FloatOps.exp (Head.w0 - FloatOps.absf (zc (ix2 n 0)))) := by
  unfold softplus
  rw [select_apply, cmpf_apply, une_self, select_zero]
  show max (zc (ix2 n 0)) (zeros1 (ix2 n 0))
      + Ideal.log1p (Ideal.exp (-(max (zc (ix2 n 0) - zeros1 (ix2 n 0)) (-(zc (ix2 n 0) - zeros1 (ix2 n 0))))))
    = max (zc (ix2 n 0)) (Ideal.ofBits .f32 0x00000000#32)
      + Ideal.log1p (Ideal.exp (Ideal.ofBits .f32 0x00000000#32 - max (zc (ix2 n 0)) (-(zc (ix2 n 0)))))
  rw [zeros1_at, Ideal.ofBits_zero_f32, sub_zero, zero_sub]

theorem fin_at : fin zc (ix1 n) = softplus zc (ix2 n 0) + Ideal.ofBits .f32 0x1E3CE508#32 := by
  unfold fin
  rw [addf_apply, splat_apply, shapeCast_vec_apply]

end Stages

/-! ## The chain -/

section Chain
variable (x a : FVec Ideal S10000x128 .f32) (g : FVec Ideal S10000 .f32)
  (Wc : FVec Ideal S128x128 .f32) (bc : FVec Ideal S128 .f32) (W1 : FVec Ideal S128x128 .f32) (b1 : FVec Ideal S128 .f32)
  (W2 : FVec Ideal S128x128 .f32) (b2 : FVec Ideal S128 .f32) (W3 : FVec Ideal S128x1 .f32) (b3 : FVec Ideal S1 .f32)
  (hb : (⟨1, ![128]⟩ : Shape).ShapeCasts ⟨2, ![1, 128]⟩) (h3 : (⟨1, ![1]⟩ : Shape).ShapeCasts ⟨2, ![1, 1]⟩)
  (n : Fin 10000)

/-- A bias held as a row reads, at `(0, q)`, the bias at `q`. -/
theorem row_at (b : FVec Ideal S128 .f32) (q : Fin 128) : shapeCast ⟨2, ![1, 128]⟩ b hb (ix2 0 q) = b (ix1 q) :=
  Cert.LibColumn.shapeCast_row_apply b hb q
theorem row1_at (b : FVec Ideal S1 .f32) : shapeCast ⟨2, ![1, 1]⟩ b h3 (ix2 0 0) = b (ix1 0) :=
  Cert.LibColumn.shapeCast_row_apply b h3 0

theorem mean_row (k : Fin 128) : meanOf a g (ix2 n k) = Head.rZ0 (fun k => a (ix2 n k)) (g (ix1 n)) k := by
  rw [meanOf_at]; unfold Head.rZ0; rw [max_comm]; rfl

theorem conv_row (q : Fin 128) : convOf (meanOf a g) x Wc bc (ix2 n q) = Head.rU (fun k => x (ix2 n k)) (fun k => a (ix2 n k)) (g (ix1 n)) Wc (shapeCast ⟨2, ![1, 128]⟩ bc hb) q := by
  rw [convOf_at]; unfold Head.rU Head.rH
  simp only [mean_row, row_at]
  rfl

theorem layer1_row (q : Fin 128) :
    layer (convOf (meanOf a g) x Wc bc) W1 b1 (ix2 n q) = Head.rA1 (fun k => x (ix2 n k)) (fun k => a (ix2 n k)) (g (ix1 n)) Wc (shapeCast ⟨2, ![1, 128]⟩ bc hb) W1 (shapeCast ⟨2, ![1, 128]⟩ b1 hb) q := by
  rw [layer_at]; unfold Head.rA1
  simp only [conv_row x a g Wc bc hb n, row_at]

theorem layer2_row (q : Fin 128) :
    layer (layer (convOf (meanOf a g) x Wc bc) W1 b1) W2 b2 (ix2 n q)
      = Head.rA2 (fun k => x (ix2 n k)) (fun k => a (ix2 n k)) (g (ix1 n)) Wc (shapeCast ⟨2, ![1, 128]⟩ bc hb) W1 (shapeCast ⟨2, ![1, 128]⟩ b1 hb) W2 (shapeCast ⟨2, ![1, 128]⟩ b2 hb) q := by
  rw [layer_at]; unfold Head.rA2
  simp only [layer1_row x a g Wc bc W1 b1 hb n, row_at]

theorem z_row : zOf (layer (layer (convOf (meanOf a g) x Wc bc) W1 b1) W2 b2) W3 b3 (ix2 n 0)
    = Head.rZ (fun k => x (ix2 n k)) (fun k => a (ix2 n k)) (g (ix1 n)) Wc (shapeCast ⟨2, ![1, 128]⟩ bc hb) W1 (shapeCast ⟨2, ![1, 128]⟩ b1 hb) W2 (shapeCast ⟨2, ![1, 128]⟩ b2 hb) W3 (shapeCast ⟨2, ![1, 1]⟩ b3 h3) := by
  rw [zOf_at]; unfold Head.rZ
  simp only [layer2_row x a g Wc bc W1 b1 W2 b2 hb n, row1_at]

/-- THE REFERENCE'S LAYERS AT NODE `n`, from the summed messages `a` and the counts `g` down: the kernel's network on
    row `n` of the features and of `a` and on the count `g n`, the biases held as rows, plus the final shift. -/
theorem ref_head :
    fin (zOf (layer (layer (convOf (meanOf a g) x Wc bc) W1 b1) W2 b2) W3 b3) (ix1 n)
      = Head.headRow (fun k => x (ix2 n k)) (fun k => a (ix2 n k)) (g (ix1 n)) Wc (shapeCast ⟨2, ![1, 128]⟩ bc hb) W1 (shapeCast ⟨2, ![1, 128]⟩ b1 hb) W2 (shapeCast ⟨2, ![1, 128]⟩ b2 hb) W3 (shapeCast ⟨2, ![1, 1]⟩ b3 h3)
        + Ideal.ofBits .f32 0x1E3CE508#32 := by
  rw [fin_at, softplus_at, z_row x a g Wc bc W1 b1 W2 b2 W3 b3 hb h3 n]
  rfl

/-- The same through the reference's own names: its result at node `n` from its summed messages and counts. -/
theorem out_head (ei : IVec S2x320000 32) :
    out x ei Wc bc W1 b1 W2 b2 W3 b3 (ix1 n)
      = Head.headRow (fun k => x (ix2 n k)) (fun k => agg x ei (ix2 n k)) (deg (F := Ideal) ei (ix1 n)) Wc (shapeCast ⟨2, ![1, 128]⟩ bc hb) W1 (shapeCast ⟨2, ![1, 128]⟩ b1 hb) W2 (shapeCast ⟨2, ![1, 128]⟩ b2 hb) W3 (shapeCast ⟨2, ![1, 1]⟩ b3 h3)
        + Ideal.ofBits .f32 0x1E3CE508#32 :=
  ref_head x (agg x ei) (deg ei) Wc bc W1 b1 W2 b2 W3 b3 hb h3 n

end Chain

end Cert.KI.Bridge

end
-- ==== Proof.TopValue.lean ====
import proofs.«202620_g33904471835419_cont_8to1_b_799_54_alg».proof.Proof.TopArgs
import proofs.«202620_g33904471835419_cont_8to1_b_799_54_alg».proof.Proof.HeadValue
import proofs.«202620_g33904471835419_cont_8to1_b_799_54_alg».proof.Proof.BridgeHead

/-!
# The result buffer at the return is the reference's result

At the return the result buffer holds, at node `n`, the head network on row `n` of what the head region was handed
(the features and the weights as launched, the biases as rows, the two sums the scatter region left), plus the small
constant the last host stretch adds. Granted that those two sums are the reference's summed messages and counts of
the launch arguments, that is the reference's result of the launch arguments.
-/

noncomputable section

namespace Cert.KI.Top

open Cert.KernelIdeal Cert.KernelIdeal.Gen Cert.KI.Sc
open Idealize.ShloMosaic Idealize.ShloMosaic.TcCoe
open Idealize.ShloMosaic.SparseCore (S V T)
open Idealize.ShloMosaic.SparseCore.Cfg (HIx Pay)
open Idealize.SL Idealize.SL.RA Idealize.SL.Sem
open Idealize.ShloMosaic.StableHlo (after after_of_writes_sub devRef_ne_of_ne)
open Cert.KI.Head (dat2 final2 arrAt2_in GOut GOut_apply headRow)

/-! ## The result buffer, at the ideal instance -/

section Join
open Idealize.ShloMosaic.ValueIdx
open Idealize.ShloMosaic.StableHlo
variable (m : (ℓ : Loc nD τ sig) → Buf (Elt Ideal) ℓ) (Sc : Scat (F := Ideal)) (d : Dev nD)

/-- The last stretch: the output column flattened, plus the constant. -/
theorem W7_out : W7 m Sc d (Proc.devRef .tc main_v16)
    = addf (shapeCast S10000 (W6 m Sc d (Proc.devRef .tc main_v13)) shapeCasts_S10000x1_S10000)
        (broadcastInDim S10000 ![] bcast_S_S10000 (constant (F := Ideal) S_ .f32 0x1E3CE508#32)) := by
  show after ops3 (W6 m Sc d) (Proc.devRef .tc main_v16) = _
  after_results
  rfl

/-- The head region leaves its output array at `GOut` of what it was handed. -/
theorem W6_out : W6 m Sc d (Proc.devRef .tc main_v13) = GOut (V5 m Sc) d :=
  (W6_arr m Sc d 11).trans (final2 (V5 m Sc) d _)

/-- The biases as the head region finds them: the launch vectors held as rows. -/
theorem W5_v9 : W5 m Sc d (Proc.devRef .tc main_v9) = shapeCast S1x128 (m (d, Proc.devRef .tc main_arg3)) shapeCasts_S128_S1x128 := by
  show after ops2 (W4 m Sc d) (Proc.devRef .tc main_v9) = _
  after_results
  rw [W4_keep m Sc d (b := main_arg3) (by decide) (by decide) (by decide) (by decide)]
  rfl
theorem W5_v10 : W5 m Sc d (Proc.devRef .tc main_v10) = shapeCast S1x128 (m (d, Proc.devRef .tc main_arg5)) shapeCasts_S128_S1x128 := by
  show after ops2 (W4 m Sc d) (Proc.devRef .tc main_v10) = _
  after_results
  rw [W4_keep m Sc d (b := main_arg5) (by decide) (by decide) (by decide) (by decide)]
  rfl
theorem W5_v11 : W5 m Sc d (Proc.devRef .tc main_v11) = shapeCast S1x128 (m (d, Proc.devRef .tc main_arg7)) shapeCasts_S128_S1x128 := by
  show after ops2 (W4 m Sc d) (Proc.devRef .tc main_v11) = _
  after_results
  rw [W4_keep m Sc d (b := main_arg7) (by decide) (by decide) (by decide) (by decide)]
  rfl
theorem W5_v12 : W5 m Sc d (Proc.devRef .tc main_v12) = shapeCast S1x1 (m (d, Proc.devRef .tc main_arg9)) shapeCasts_S1_S1x1 := by
  show after ops2 (W4 m Sc d) (Proc.devRef .tc main_v12) = _
  after_results
  rw [W4_keep m Sc d (b := main_arg9) (by decide) (by decide) (by decide) (by decide)]
  rfl

/-- THE RESULT AT NODE `n`: the head network on row `n` of the features and of the two sums as the head region finds
    them, the weights as launched, the biases as rows, plus the constant. -/
theorem W7_out_at (n : Fin 10000) : W7 m Sc d (Proc.devRef .tc main_v16) (ix1 n)
    = headRow (fun k => (m (d, Proc.devRef .tc main_arg0)) (ix2 n k)) (fun k => W5 m Sc d (Proc.devRef .tc main_v7) (ix2 n k))
        (W5 m Sc d (Proc.devRef .tc main_v8) (ix2 n 0))
        (m (d, Proc.devRef .tc main_arg2)) (shapeCast S1x128 (m (d, Proc.devRef .tc main_arg3)) shapeCasts_S128_S1x128)
        (m (d, Proc.devRef .tc main_arg4)) (shapeCast S1x128 (m (d, Proc.devRef .tc main_arg5)) shapeCasts_S128_S1x128)
        (m (d, Proc.devRef .tc main_arg6)) (shapeCast S1x128 (m (d, Proc.devRef .tc main_arg7)) shapeCasts_S128_S1x128)
        (m (d, Proc.devRef .tc main_arg8)) (shapeCast S1x1 (m (d, Proc.devRef .tc main_arg9)) shapeCasts_S1_S1x1)
      + Ideal.ofBits .f32 0x1E3CE508#32 := by
  rw [W7_out, addf_apply, Cert.KI.Bridge.splat_apply, Cert.KI.Bridge.shapeCast_vec_apply, W6_out,
    GOut_apply (V5 m Sc) d (ix2 n 0)]
  show headRow (fun k => W5 m Sc d (Proc.devRef .tc main_arg0) (ix2 n k)) (fun k => W5 m Sc d (Proc.devRef .tc main_v7) (ix2 n k))
      (W5 m Sc d (Proc.devRef .tc main_v8) (ix2 n 0))
      (W5 m Sc d (Proc.devRef .tc main_arg2)) (W5 m Sc d (Proc.devRef .tc main_v9))
      (W5 m Sc d (Proc.devRef .tc main_arg4)) (W5 m Sc d (Proc.devRef .tc main_v10))
      (W5 m Sc d (Proc.devRef .tc main_arg6)) (W5 m Sc d (Proc.devRef .tc main_v11))
      (W5 m Sc d (Proc.devRef .tc main_arg8)) (W5 m Sc d (Proc.devRef .tc main_v12)) + _ = _
  rw [W5_arg0, W5_arg2, W5_arg4, W5_arg6, W5_arg8, W5_v9, W5_v10, W5_v11, W5_v12]

/-- THE JOIN: if the two sums the head region is handed are the reference's summed messages and counts of the launch
    arguments, the result buffer at the return is the reference's result of the launch arguments. -/
theorem head_join
    (hagg : ∀ (n : Fin 10000) (k : Fin 128), W5 m Sc d (Proc.devRef .tc main_v7) (ix2 n k)
      = Cert.ReferenceIdeal.RefRun.agg (F := Ideal) (m (d, Proc.devRef .tc main_arg0)) (m (d, Proc.devRef .tc main_arg1)) (ix2 n k))
    (hdeg : ∀ n : Fin 10000, W5 m Sc d (Proc.devRef .tc main_v8) (ix2 n 0)
      = Cert.ReferenceIdeal.RefRun.deg (F := Ideal) (m (d, Proc.devRef .tc main_arg1)) (ix1 n)) :
    W7 m Sc d (Proc.devRef .tc main_v16)
      = Cert.ReferenceIdeal.RefRun.out (F := Ideal) (m (d, Proc.devRef .tc main_arg0)) (m (d, Proc.devRef .tc main_arg1)) (m (d, Proc.devRef .tc main_arg2)) (m (d, Proc.devRef .tc main_arg3)) (m (d, Proc.devRef .tc main_arg4))
          (m (d, Proc.devRef .tc main_arg5)) (m (d, Proc.devRef .tc main_arg6)) (m (d, Proc.devRef .tc main_arg7)) (m (d, Proc.devRef .tc main_arg8)) (m (d, Proc.devRef .tc main_arg9)) := by
  funext j
  obtain ⟨n, rfl⟩ : ∃ n : Fin 10000, j = ix1 n := ⟨j 0, eq_ix1 j⟩
  rw [W7_out_at, Cert.KI.Bridge.out_head (hb := shapeCasts_S128_S1x128) (h3 := shapeCasts_S1_S1x1) (n := n)]
  simp only [hagg, hdeg]

end Join

end Cert.KI.Top

end
-- ==== Proof.LibGatherRead.lean ====
/-
  The host's gather read at one element, for ANY dimension record of the "rows picked by a column of indices" form.

  The start indices are an E × 1 array: result row e carries ONE signed index z(e). The operand's first axis is the one
  the index names; it is collapsed (a slice of one row), every other operand axis is taken whole. The start is read as
  a signed integer and clamped into [0, n − 1], as a gather clamps every start index so that the slice fits: a negative
  index reads row 0, one at or past n reads row n − 1. So result element (e, q…) is the operand's element
  (min (max z(e) 0) (n − 1), q…). The record is a variable, its fields given by hypotheses, so one proof serves every
  gather of this form.
-/
import Idealize.ShloMosaic.Lib.ValueIdx

noncomputable section

namespace Idealize.ShloMosaic.GatherRead

open Idealize.ShloMosaic Idealize.ShloMosaic.ValueIdx

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

/-- A one-element list read at any position gives its element. -/
private theorem getElem_of_eq_singleton {β : Type} {l : List β} {x : β} (hl : l = [x]) (k : Nat) (hk : k < l.length) :
    l[k] = x := by
  subst hl
  have hk0 : k = 0 := by simpa using hk
  subst hk0
  rfl

/-- A rank-1 index built from a coordinate has that coordinate, at whatever name of its one axis. -/
private theorem ix1_val {n : ℕ} (e : Fin n) (x : Fin (⟨1, ![n]⟩ : Shape).rank) : (ix1 e x).val = e.val := by
  match x with
  | ⟨0, _⟩ => rfl

/-! ## One axis: a flat table of n entries, E lookups -/

section OneAxis
variable {α : Type} {n E : ℕ} (d : GatherDims (⟨1, ![n]⟩ : Shape) (⟨2, ![E, 1]⟩ : Shape) (⟨1, ![E]⟩ : Shape))

/-- A lookup x[z(e)] in a flat table: no offset axis, the operand's one axis collapsed (a slice of one entry)
    and named by the one-component index vector on the indices' second axis, no batching. -/
structure Flat : Prop where
  od : d.offsetDims = []
  cs : d.collapsedSliceDims = [0]
  ob : d.operandBatchingDims = []
  sim : d.startIndexMap = [0]
  iv : d.indexVectorDim = 1
  ss : d.sliceSizes 0 = 1

variable {d}

/-- Lookup e reads its start off the index array at (e, 0), signed, and clamps it into the table. -/
theorem Flat.start_eq (h : Flat d) {w : Nat} (e : Fin E) (idx : IVec (⟨2, ![E, 1]⟩ : Shape) w) :
    d.start (ix1 e) idx 0 = min (idx (ix2 e (0 : Fin 1))).toInt.toNat (n - 1) := by
  have ha : (0 : Fin (⟨1, ![n]⟩ : Shape).rank) ∈ d.startIndexMap := by rw [h.sim]; exact List.mem_singleton.mpr rfl
  have hsi : d.siIdx (ix1 e) ⟨List.idxOf (0 : Fin (⟨1, ![n]⟩ : Shape).rank) d.startIndexMap,
      List.idxOf_lt_length_iff.2 ha⟩ = ix2 e (0 : Fin 1) := by
    funext b
    refine Fin.ext ?_
    match b with
    | ⟨0, _⟩ =>
      unfold GatherDims.siIdx
      rw [dif_neg (by rw [h.iv]; exact Nat.zero_ne_one)]
      unfold GatherDims.siCoord
      simp only [Fin.val_cast]
      exact ix1_val e _
    | ⟨1, _⟩ =>
      unfold GatherDims.siIdx
      rw [dif_pos (by rw [h.iv])]
      simp [h.sim]
  unfold GatherDims.start
  rw [dif_pos ha, hsi, h.ss]
  rfl

/-- THE ONE-AXIS GATHER AT LOOKUP e: the table at the index, read signed and clamped into [0, n − 1]. -/
theorem Flat.gather_ix1 (h : Flat d) (hn : 0 < n) {w : Nat} (x : (⟨1, ![n]⟩ : Shape).Idx → α)
    (idx : IVec (⟨2, ![E, 1]⟩ : Shape) w) (e : Fin E) :
    Host.gather d x idx (ix1 e) = x (ix1 ⟨min (idx (ix2 e (0 : Fin 1))).toInt.toNat (n - 1), by omega⟩) := by
  unfold Host.gather
  congr 1
  funext a
  obtain rfl : a = 0 := Subsingleton.elim _ _
  refine Fin.ext ?_
  show d.start (ix1 e) idx 0 + d.batchCoord (ix1 e) 0 + d.offCoord (ix1 e) 0 = _
  rw [GatherDims.batchCoord_eq_zero _ _ _ (by rw [h.ob]; exact List.not_mem_nil),
    GatherDims.offCoord_eq_zero _ _ _ (fun hk => ((GatherDims.mem_sKept _ _).mp hk).1 (by rw [h.cs]; exact List.mem_singleton.mpr rfl)),
    h.start_eq]
  rfl

end OneAxis

/-! ## Rows: an n × c table, E lookups of one row each -/

section Rows
variable {α : Type} {n c E : ℕ} (d : GatherDims (⟨2, ![n, c]⟩ : Shape) (⟨2, ![E, 1]⟩ : Shape) (⟨2, ![E, c]⟩ : Shape))

/-- A lookup of whole rows, x[z(e), ·]: the result's second axis is the one offset axis and reads the operand's second
    axis; the operand's first axis is collapsed (a slice of one row) and named by the one-component index vector on the
    indices' second axis; no batching. -/
structure Rows : Prop where
  od : d.offsetDims = [1]
  cs : d.collapsedSliceDims = [0]
  ob : d.operandBatchingDims = []
  sim : d.startIndexMap = [0]
  iv : d.indexVectorDim = 1
  ss : d.sliceSizes 0 = 1

variable {d}

/-- On the operand's first axis result element (e, q) reads its start off the index array at (e, 0), signed, and clamps
    it into the table … -/
theorem Rows.start_zero (h : Rows d) {w : Nat} (e : Fin E) (q : Fin c) (idx : IVec (⟨2, ![E, 1]⟩ : Shape) w) :
    d.start (ix2 e q) idx 0 = min (idx (ix2 e (0 : Fin 1))).toInt.toNat (n - 1) := by
  have ha : (0 : Fin (⟨2, ![n, c]⟩ : Shape).rank) ∈ d.startIndexMap := by rw [h.sim]; exact List.mem_singleton.mpr rfl
  have hsi : d.siIdx (ix2 e q) ⟨List.idxOf (0 : Fin (⟨2, ![n, c]⟩ : Shape).rank) d.startIndexMap,
      List.idxOf_lt_length_iff.2 ha⟩ = ix2 e (0 : Fin 1) := by
    funext b
    refine Fin.ext ?_
    match b with
    | ⟨0, _⟩ =>
      unfold GatherDims.siIdx
      rw [dif_neg (by rw [h.iv]; exact Nat.zero_ne_one)]
      unfold GatherDims.siCoord
      simp only [Fin.val_cast]
      have hu : d.batchDims = [0] := by rw [GatherDims.batchDims, h.od]; rfl
      exact val_congr (ix2 e q) _ 0 _ Nat.zero_lt_two (congrArg Fin.val (getElem_of_eq_singleton hu _ _))
    | ⟨1, _⟩ =>
      unfold GatherDims.siIdx
      rw [dif_pos (by rw [h.iv])]
      simp [h.sim]
  unfold GatherDims.start
  rw [dif_pos ha, hsi, h.ss]
  rfl

/-- … and on the second axis, which the index vector does not name, the start is 0. -/
theorem Rows.start_one (h : Rows d) {w : Nat} (j : (⟨2, ![E, c]⟩ : Shape).Idx) (idx : IVec (⟨2, ![E, 1]⟩ : Shape) w) :
    d.start j idx 1 = 0 := by
  unfold GatherDims.start
  rw [dif_neg]
  rw [h.sim]
  simp

/-- The operand's second axis is read at the result's column. -/
theorem Rows.offCoord_one (h : Rows d) (j : (⟨2, ![E, c]⟩ : Shape).Idx) : d.offCoord j 1 = (j 1).val := by
  have ha : (1 : Fin (⟨2, ![n, c]⟩ : Shape).rank) ∈ d.sKept := by
    rw [GatherDims.mem_sKept, h.cs, h.ob]; simp
  unfold GatherDims.offCoord
  rw [dif_pos ha]
  exact val_congr j _ 1 _ Nat.one_lt_two (congrArg Fin.val (getElem_of_eq_singleton h.od _ _))

/-- THE ROWS GATHER AT ELEMENT (e, q): the table's column q in the row at the index, read signed and clamped into
    [0, n − 1]. -/
theorem Rows.gather_ix2 (h : Rows d) (hn : 0 < n) {w : Nat} (x : (⟨2, ![n, c]⟩ : Shape).Idx → α)
    (idx : IVec (⟨2, ![E, 1]⟩ : Shape) w) (e : Fin E) (q : Fin c) :
    Host.gather d x idx (ix2 e q) = x (ix2 ⟨min (idx (ix2 e (0 : Fin 1))).toInt.toNat (n - 1), by omega⟩ q) := by
  unfold Host.gather
  congr 1
  funext a
  refine Fin.ext ?_
  match a with
  | ⟨0, _⟩ =>
    show d.start (ix2 e q) idx 0 + d.batchCoord (ix2 e q) 0 + d.offCoord (ix2 e q) 0 = _
    rw [GatherDims.batchCoord_eq_zero _ _ _ (by rw [h.ob]; exact List.not_mem_nil),
      GatherDims.offCoord_eq_zero _ _ _ (fun hk => ((GatherDims.mem_sKept _ _).mp hk).1 (by rw [h.cs]; exact List.mem_singleton.mpr rfl)),
      h.start_zero]
    rfl
  | ⟨1, _⟩ =>
    show d.start (ix2 e q) idx 1 + d.batchCoord (ix2 e q) 1 + d.offCoord (ix2 e q) 1 = _
    rw [GatherDims.batchCoord_eq_zero _ _ _ (by rw [h.ob]; exact List.not_mem_nil), h.start_one, h.offCoord_one,
      Nat.add_zero, Nat.zero_add]
    rfl

end Rows

end Idealize.ShloMosaic.GatherRead
-- ==== Proof.LibScatterRead.lean ====
/-
  The host's accumulating scatter read at one element, for ANY dimension record of the "rows by a column of
  indices" form.

  The scatter indices are an E × 1 array: update e carries ONE signed index z(e). The operand's first axis is the
  one the index names and is not an axis of the updates; every other operand axis is a window axis the update carries
  along unchanged. So update element (e, q…) lands at operand element (z(e), q…) when 0 ≤ z(e) < n and is dropped
  otherwise, and at the ideal instance the result at (i, q…) is the operand's element plus the sum, over the updates
  e with z(e) = i, of the update's element (e, q…). The record is a variable, its fields given by hypotheses, so one
  proof serves every scatter of this form.
-/
import Idealize.ShloMosaic.Lib.ValueIdx
import Idealize.ShloMosaic.PureOps.Ideal.Laws

noncomputable section

namespace Idealize.ShloMosaic.ScatterRead

open Idealize.ShloMosaic Idealize.ShloMosaic.ValueIdx
open scoped BigOperators

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

/-- A one-element list read at any position gives its element. -/
private theorem getElem_of_eq_singleton {β : Type} {l : List β} {x : β} (hl : l = [x]) (k : Nat) (hk : k < l.length) :
    l[k] = x := by
  subst hl
  have hk0 : k = 0 := by simpa using hk
  subst hk0
  rfl

/-- A rank-1 index built from a coordinate has that coordinate, at whatever name of its one axis. -/
private theorem ix1_val {n : ℕ} (e : Fin n) (x : Fin (⟨1, ![n]⟩ : Shape).rank) : (ix1 e x).val = e.val := by
  match x with
  | ⟨0, _⟩ => rfl

/-- An update lands at operand element i exactly when, on every operand axis, its start plus its window
    coordinate IS i's coordinate (being a coordinate of the operand, that is inside it). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · next hc =>
      have hf := Option.some.inj h
      have ha := congrArg (fun f => (f a).val) hf
      simp only at ha
      have := (hc a).1
      omega
    · exact absurd h (by simp)
  · intro h
    have hc : ∀ a, 0 ≤ d.start j idx a + (d.window j a : ℤ) ∧ d.start j idx a + (d.window j a : ℤ) < s.size a := by
      intro a; rw [h a]; exact ⟨Int.natCast_nonneg _, by exact_mod_cast (i a).isLt⟩
    rw [dif_pos hc]
    congr 1; funext a; apply Fin.ext
    simp only [h a, Int.toNat_natCast]

/-- A rank-1 index set is its one coordinate's range … -/
def idxEquiv1 {n : Nat} : (⟨1, ![n]⟩ : Shape).Idx ≃ Fin n where
  toFun i := i 0
  invFun := ix1
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## One axis: n counters, E updates of one number each -/

section OneAxis
variable {n E : ℕ} (d : ScatterDims (⟨1, ![n]⟩ : Shape) (⟨2, ![E, 1]⟩ : Shape) (⟨1, ![E]⟩ : Shape))

/-- Accumulation into a flat array of counters, u(e) added at position z(e): no window axis, the operand's one axis inserted and named by
    the one-component index vector on the indices' second axis. -/
structure Flat : Prop where
  uw : d.updateWindowDims = []
  iw : d.insertedWindowDims = [0]
  sd : d.scatterDimsToOperandDims = [0]
  iv : d.indexVectorDim = 1

variable {d}

/-- Update e reads its start off the index array at (e, 0). -/
theorem Flat.start_eq (h : Flat d) {w : Nat} (e : Fin E) (idx : IVec (⟨2, ![E, 1]⟩ : Shape) w)
    (a : Fin (⟨1, ![n]⟩ : Shape).rank) : d.start (ix1 e) idx a = (idx (ix2 e (0 : Fin 1))).toInt := by
  obtain rfl : a = 0 := Subsingleton.elim _ _
  have ha : (0 : Fin (⟨1, ![n]⟩ : Shape).rank) ∈ d.scatterDimsToOperandDims := by rw [h.sd]; exact List.mem_singleton.mpr rfl
  have hsi : d.siIdx (ix1 e) ⟨List.idxOf (0 : Fin (⟨1, ![n]⟩ : Shape).rank) d.scatterDimsToOperandDims,
      List.idxOf_lt_length_iff.2 ha⟩ = ix2 e (0 : Fin 1) := by
    funext b
    refine Fin.ext ?_
    match b with
    | ⟨0, _⟩ =>
      unfold ScatterDims.siIdx
      rw [dif_neg (by rw [h.iv]; exact Nat.zero_ne_one)]
      unfold ScatterDims.siCoord
      simp only [Fin.val_cast]
      exact ix1_val e _
    | ⟨1, _⟩ =>
      unfold ScatterDims.siIdx
      rw [dif_pos (by rw [h.iv])]
      simp [h.sd]
  unfold ScatterDims.start
  rw [dif_pos ha, hsi]

/-- No operand axis is a window axis. -/
theorem Flat.window_eq (h : Flat d) (j : (⟨1, ![E]⟩ : Shape).Idx) (a : Fin (⟨1, ![n]⟩ : Shape).rank) :
    d.window j a = 0 := by
  obtain rfl : a = 0 := Subsingleton.elim _ _
  unfold ScatterDims.window
  rw [dif_neg]
  rw [ScatterDims.sKept, h.iw]
  simp [Shape.kept]

/-- Update e lands at counter i exactly when its index, read signed, is i. -/
theorem Flat.resultIdx?_iff (h : Flat d) {w : Nat} (e : Fin E) (idx : IVec (⟨2, ![E, 1]⟩ : Shape) w) (i : Fin n) :
    d.resultIdx? (ix1 e) idx = some (ix1 i) ↔ (idx (ix2 e (0 : Fin 1))).toInt = (i.val : ℤ) := by
  rw [resultIdx?_eq_some_iff]
  constructor
  · intro H
    have := H 0
    rw [h.start_eq, h.window_eq, Nat.cast_zero, add_zero] at this
    exact this
  · intro H a
    obtain rfl : a = 0 := Subsingleton.elim _ _
    rw [h.start_eq, h.window_eq, H, Nat.cast_zero, add_zero]
    rfl

/-- THE ONE-AXIS SCATTER-ADD AT COUNTER i: the operand's element plus the updates whose index is i. -/
theorem Flat.scatterAdd_ix1 (h : Flat d) {φ : FTy} (x : FVec Ideal (⟨1, ![n]⟩ : Shape) φ)
    (idx : IVec (⟨2, ![E, 1]⟩ : Shape) 32) (u : FVec Ideal (⟨1, ![E]⟩ : Shape) φ) (i : Fin n) :
    Host.scatterAdd d x idx u (ix1 i)
      = x (ix1 i) + ∑ e : Fin E, if (idx (ix2 e (0 : Fin 1))).toInt = (i.val : ℤ) then u (ix1 e) else 0 := by
  show x (ix1 i) + ∑ j ∈ Finset.univ.filter (fun j => d.resultIdx? j idx = some (ix1 i)), u j = _
  congr 1
  rw [Finset.sum_filter, sum_idx1]
  refine Finset.sum_congr rfl fun e _ => ?_
  exact if_congr (h.resultIdx?_iff e idx i) rfl rfl

end OneAxis

/-! ## Rows: an n × c operand, E updates of one row of c numbers each -/

section Rows
variable {n c E : ℕ} (d : ScatterDims (⟨2, ![n, c]⟩ : Shape) (⟨2, ![E, 1]⟩ : Shape) (⟨2, ![E, c]⟩ : Shape))

/-- Accumulation of rows, row u(e, ·) added into row z(e) of the operand: the updates' second axis is the one window
    axis and goes to the operand's second axis; the operand's first axis is inserted and named by the one-component
    index vector on the indices' second axis. -/
structure Rows : Prop where
  uw : d.updateWindowDims = [1]
  iw : d.insertedWindowDims = [0]
  sd : d.scatterDimsToOperandDims = [0]
  iv : d.indexVectorDim = 1

variable {d}

/-- On the operand's first axis update (e, q) reads its start off the index array at (e, 0) … -/
theorem Rows.start_zero (h : Rows d) {w : Nat} (e : Fin E) (q : Fin c) (idx : IVec (⟨2, ![E, 1]⟩ : Shape) w) :
    d.start (ix2 e q) idx 0 = (idx (ix2 e (0 : Fin 1))).toInt := by
  have ha : (0 : Fin (⟨2, ![n, c]⟩ : Shape).rank) ∈ d.scatterDimsToOperandDims := by rw [h.sd]; exact List.mem_singleton.mpr rfl
  have hsi : d.siIdx (ix2 e q) ⟨List.idxOf (0 : Fin (⟨2, ![n, c]⟩ : Shape).rank) d.scatterDimsToOperandDims,
      List.idxOf_lt_length_iff.2 ha⟩ = ix2 e (0 : Fin 1) := by
    funext b
    refine Fin.ext ?_
    match b with
    | ⟨0, _⟩ =>
      unfold ScatterDims.siIdx
      rw [dif_neg (by rw [h.iv]; exact Nat.zero_ne_one)]
      unfold ScatterDims.siCoord
      simp only [Fin.val_cast]
      have hu : d.uScatter = [0] := by rw [ScatterDims.uScatter, h.uw]; rfl
      exact val_congr (ix2 e q) _ 0 _ Nat.zero_lt_two (congrArg Fin.val (getElem_of_eq_singleton hu _ _))
    | ⟨1, _⟩ =>
      unfold ScatterDims.siIdx
      rw [dif_pos (by rw [h.iv])]
      simp [h.sd]
  unfold ScatterDims.start
  rw [dif_pos ha, hsi]

/-- … and on the second axis, which the index vector does not name, the start is 0. -/
theorem Rows.start_one (h : Rows d) {w : Nat} (j : (⟨2, ![E, c]⟩ : Shape).Idx) (idx : IVec (⟨2, ![E, 1]⟩ : Shape) w) :
    d.start j idx 1 = 0 := by
  unfold ScatterDims.start
  rw [dif_neg]
  rw [h.sd]
  simp

/-- The operand's first axis is not a window axis … -/
theorem Rows.window_zero (h : Rows d) (j : (⟨2, ![E, c]⟩ : Shape).Idx) : d.window j 0 = 0 := by
  unfold ScatterDims.window
  rw [dif_neg]
  rw [ScatterDims.sKept, h.iw]
  simp [Shape.kept]

/-- … and its second axis carries the update's column. -/
theorem Rows.window_one (h : Rows d) (j : (⟨2, ![E, c]⟩ : Shape).Idx) : d.window j 1 = (j 1).val := by
  have ha : (1 : Fin (⟨2, ![n, c]⟩ : Shape).rank) ∈ d.sKept := by rw [ScatterDims.sKept, h.iw]; simp [Shape.kept]
  unfold ScatterDims.window
  rw [dif_pos ha]
  exact val_congr j _ 1 _ Nat.one_lt_two (congrArg Fin.val (getElem_of_eq_singleton h.uw _ _))

/-- Update element (e, q') lands at operand element (i, q) exactly when update e's index, read signed, is i and the
    columns agree. -/
theorem Rows.resultIdx?_iff (h : Rows d) {w : Nat} (e : Fin E) (q' : Fin c) (idx : IVec (⟨2, ![E, 1]⟩ : Shape) w)
    (i : Fin n) (q : Fin c) :
    d.resultIdx? (ix2 e q') idx = some (ix2 i q) ↔ (idx (ix2 e (0 : Fin 1))).toInt = (i.val : ℤ) ∧ q' = q := by
  rw [resultIdx?_eq_some_iff]
  constructor
  · intro H
    have H0 := H 0
    have H1 := H 1
    rw [h.start_zero, h.window_zero, Nat.cast_zero, add_zero] at H0
    rw [h.start_one, h.window_one, zero_add] at H1
    exact ⟨H0, Fin.ext (by exact_mod_cast H1)⟩
  · rintro ⟨H, rfl⟩ a
    match a with
    | ⟨0, _⟩ =>
      show d.start (ix2 e q') idx 0 + ((d.window (ix2 e q') 0 : ℕ) : ℤ) = _
      rw [h.start_zero, h.window_zero, H, Nat.cast_zero, add_zero]
    | ⟨1, _⟩ =>
      show d.start (ix2 e q') idx 1 + ((d.window (ix2 e q') 1 : ℕ) : ℤ) = _
      rw [h.start_one, h.window_one, zero_add]
      rfl

/-- THE ROWS SCATTER-ADD AT ELEMENT (i, q): the operand's element plus, over the updates whose index is i, their
    element in column q. -/
theorem Rows.scatterAdd_ix2 (h : Rows d) {φ : FTy} (x : FVec Ideal (⟨2, ![n, c]⟩ : Shape) φ)
    (idx : IVec (⟨2, ![E, 1]⟩ : Shape) 32) (u : FVec Ideal (⟨2, ![E, c]⟩ : Shape) φ) (i : Fin n) (q : Fin c) :
    Host.scatterAdd d x idx u (ix2 i q)
      = x (ix2 i q) + ∑ e : Fin E, if (idx (ix2 e (0 : Fin 1))).toInt = (i.val : ℤ) then u (ix2 e q) else 0 := by
  show x (ix2 i q) + ∑ j ∈ Finset.univ.filter (fun j => d.resultIdx? j idx = some (ix2 i q)), u j = _
  congr 1
  rw [Finset.sum_filter, sum_idx2]
  refine Finset.sum_congr rfl fun e _ => ?_
  by_cases hz : (idx (ix2 e (0 : Fin 1))).toInt = (i.val : ℤ)
  · rw [if_pos hz, Finset.sum_eq_single q]
    · rw [if_pos ((h.resultIdx?_iff e q idx i q).mpr ⟨hz, rfl⟩)]
    · intro q' _ hq
      rw [if_neg fun H => hq ((h.resultIdx?_iff e q' idx i q).mp H).2]
    · intro hq
      exact absurd (Finset.mem_univ q) hq
  · rw [if_neg hz]
    exact Finset.sum_eq_zero fun q' _ => if_neg fun H => hz ((h.resultIdx?_iff e q' idx i q).mp H).1

end Rows

end Idealize.ShloMosaic.ScatterRead
-- ==== Proof.RefRead.lean ====
/-
  The reference's result read at an index, at the ideal instance, for edge tables whose entries all lie in
  [0, 9999]. Stage by stage: the two index rows are the table's rows; for in-range indices the lookup's wrap
  is the identity and its mask is all ones, so a message is the source node's row; the scatter-adds are sums
  over the edges into a node; the rest is pointwise arithmetic and three matrix products.
-/
import proofs.«202620_g33904471835419_cont_8to1_b_799_54_alg».proof.Proof.RefRun
import proofs.«202620_g33904471835419_cont_8to1_b_799_54_alg».proof.Proof.LibGatherRead
import proofs.«202620_g33904471835419_cont_8to1_b_799_54_alg».proof.Proof.LibScatterRead
import proofs.«202620_g33904471835419_cont_8to1_b_799_54_alg».proof.Proof.LibDotRead
import Idealize.ShloMosaic.Lib.ReduceAll
import Idealize.ShloMosaic.Lib.ValueLayout
import Idealize.ShloMosaic.Lib.Pipeline.Value
import Idealize.ShloMosaic.Lib.IdealHost

noncomputable section

namespace Cert.ReferenceIdeal.RefRead

open Cert.ReferenceIdeal Cert.ReferenceIdeal.RefRun Idealize.ShloMosaic Idealize.ShloMosaic.ValueIdx Idealize.SL.Sem
open scoped BigOperators

variable {F : FTy → Type} [FloatOps F]

/-! ## The index rows -/

/-- The source row read at edge `e` is the table's entry (0, e). -/
theorem src_apply (ei : IVec S2x320000 32) (e : Fin 320000) : src ei (ix1 e) = ei (ix2 (0 : Fin 2) e) := by
  unfold src
  rw [shapeCast_1a_a_apply]
  exact extractStridedSlice_apply _ _ _ _ _ (fun a => by
    match a with
    | ⟨0, _⟩ => rfl
    | ⟨1, _⟩ => exact (Nat.zero_add _).symm)

/-- The destination row read at edge `e` is the table's entry (1, e). -/
theorem dst_apply (ei : IVec S2x320000 32) (e : Fin 320000) : dst ei (ix1 e) = ei (ix2 (1 : Fin 2) e) := by
  unfold dst
  rw [shapeCast_1a_a_apply]
  exact extractStridedSlice_apply _ _ _ _ _ (fun a => by
    match a with
    | ⟨0, _⟩ => rfl
    | ⟨1, _⟩ => exact (Nat.zero_add _).symm)

/-- A word in [0, 9999], read signed, is a row number of the table. -/
theorem toNat_lt {z : BitVec 32} (h : 0 ≤ z.toInt ∧ z.toInt ≤ 9999) : z.toInt.toNat < 10000 := by omega

/-! ## The lookup on in-range indices -/

/-- A nonnegative index is not wrapped. -/
theorem wrapIdx_apply (s : IVec S320000 32) (j : S320000.Idx) (h : 0 ≤ (s j).toInt) : wrapIdx s j = s j := by
  unfold wrapIdx
  rw [select_apply]
  have hc : cmpi .slt s (broadcastInDim S320000 ![] Facts₀.bcast_S_S320000 (constantI S_ 32 0#32)) j = 0#1 := by
    refine eq_zero_of_ne_one fun h1 => ?_
    have h2 : (s j).toInt < (0#32 : BitVec 32).toInt := IntOp.cmpi_slt.mp h1
    have h3 : (0#32 : BitVec 32).toInt = 0 := by decide
    omega
  rw [hc, select_zero]

/-- The start-index column at row `e` is the wrapped index at `e`. -/
theorem idxCol_apply (s : IVec S320000 32) (j : S320000x1.Idx) : idxCol s j = wrapIdx s (ix1 (j 0)) := by
  unfold idxCol
  exact broadcastInDim_apply _ _ _ _ _ (fun a => by
    match a with
    | ⟨0, _⟩ => rfl)

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- With every index in [0, 9999] the lookup's mask is on everywhere. -/
theorem idxOk_apply (s : IVec S320000 32) (hs : ∀ j, 0 ≤ (s j).toInt ∧ (s j).toInt ≤ 9999) (j : S320000.Idx) :
    idxOk s j = 1#1 := by
  unfold idxOk
  rw [Host.reduce_eq_foldl]
  refine foldl_andi_one _ _ fun i _ => ?_
  show IntOp.andi (IntOp.cmpi .sge (idxCol s i) 0#32) (IntOp.cmpi .sle (idxCol s i) 9999#32) = 1#1
  rw [idxCol_apply, wrapIdx_apply s _ (hs _).1]
  have h0 : (0#32 : BitVec 32).toInt = 0 := by decide
  have h9 : (9999#32 : BitVec 32).toInt = 9999 := by decide
  exact IntOp.andi_eq_one.mpr ⟨IntOp.cmpi_sge.mpr (by rw [h0]; exact (hs _).1), IntOp.cmpi_sle.mpr (by rw [h9]; exact (hs _).2)⟩

/-- The lookup's dimension record is of the "one row per index word" form. -/
theorem gather_rows : GatherRead.Rows gather_S10000x128_S320000x1_S320000x128_1_0_n_n_0_1_1128 :=
  ⟨rfl, rfl, rfl, rfl, rfl, rfl⟩

/-- With every index in [0, 9999] the masked lookup at (e, q) is the table's row at the index, column q. -/
theorem msgOf_apply (x : FVec F S10000x128 .f32) (s : IVec S320000 32)
    (hs : ∀ j, 0 ≤ (s j).toInt ∧ (s j).toInt ≤ 9999) (e : Fin 320000) (q : Fin 128) :
    msgOf x s (ix2 e q) = x (ix2 ⟨(s (ix1 e)).toInt.toNat, toNat_lt (hs _)⟩ q) := by
  unfold msgOf
  rw [select_apply]
  have hm : broadcastInDim S320000x128 ![0] Facts₀.bcast_S320000_S320000x128_0 (idxOk s) (ix2 e q) = 1#1 := by
    rw [broadcastInDim_apply _ _ _ _ (ix1 e) (fun a => by
      match a with
      | ⟨0, _⟩ => rfl)]
    exact idxOk_apply s hs _
  rw [hm, select_one, gather_rows.gather_ix2 (by decide)]
  have hc : idxCol s (ix2 e (0 : Fin 1)) = s (ix1 e) := by rw [idxCol_apply]; exact wrapIdx_apply s _ (hs _).1
  refine congrArg x (congrArg (fun r => ix2 r q) (Fin.ext ?_))
  show min (idxCol s (ix2 e (0 : Fin 1))).toInt.toNat (10000 - 1) = (s (ix1 e)).toInt.toNat
  rw [hc]
  have := toNat_lt (hs (ix1 e))
  omega

/-- With every entry of the edge table in [0, 9999], the message of edge `e` is its source node's row. -/
theorem msg_apply (x : FVec F S10000x128 .f32) (ei : IVec S2x320000 32)
    (hei : ∀ j, 0 ≤ (ei j).toInt ∧ (ei j).toInt ≤ 9999) (e : Fin 320000) (q : Fin 128) :
    msg x ei (ix2 e q) = x (ix2 ⟨(ei (ix2 (0 : Fin 2) e)).toInt.toNat, toNat_lt (hei _)⟩ q) := by
  unfold msg
  have hs : ∀ j, 0 ≤ (src ei j).toInt ∧ (src ei j).toInt ≤ 9999 := fun j => by
    have hj : j = ix1 (⟨(j 0).val, (j 0).isLt⟩ : Fin 320000) := by
      funext a
      match a with
      | ⟨0, _⟩ => rfl
    rw [hj, src_apply]; exact hei _
  rw [msgOf_apply x _ hs]
  refine congrArg x (congrArg (fun r => ix2 r q) (Fin.ext ?_))
  show (src ei (ix1 e)).toInt.toNat = (ei (ix2 (0 : Fin 2) e)).toInt.toNat
  rw [src_apply]

/-! ## The scatter-adds, at the ideal instance -/

/-- The pattern of the f32 number one denotes one. -/
theorem ofBits_one_f32 : Ideal.ofBits .f32 0x3F800000#32 = 1 := by
  simp [Ideal.ofBits, Ideal.ieee]
  rw [← EReal.coe_mul, ← EReal.coe_one]
  congr 1
  norm_num

theorem scatter_rows : ScatterRead.Rows scatter_S10000x128_S320000x1_S320000x128_1_0_0_1 := ⟨rfl, rfl, rfl, rfl⟩
theorem scatter_flat : ScatterRead.Flat scatter_S10000_S320000x1_S320000_n_0_0_1 := ⟨rfl, rfl, rfl, rfl⟩

/-- The index column at row `e` is the index at `e`. -/
theorem dcol_apply (d : IVec S320000 32) (e : Fin 320000) :
    broadcastInDim S320000x1 ![0] Facts₀.bcast_S320000_S320000x1_0 d (ix2 e (0 : Fin 1)) = d (ix1 e) :=
  broadcastInDim_apply _ _ _ _ _ (fun a => by
    match a with
    | ⟨0, _⟩ => rfl)

/-- The row scatter-add at (n, q): the sum of column q of the rows whose index is n. -/
theorem aggOf_apply (d : IVec S320000 32) (u : FVec Ideal S320000x128 .f32) (n : Fin 10000) (q : Fin 128) :
    aggOf d u (ix2 n q) = ∑ e : Fin 320000, if (d (ix1 e)).toInt = (n.val : ℤ) then u (ix2 e q) else 0 := by
  unfold aggOf
  rw [scatter_rows.scatterAdd_ix2]
  have hz : zeros (F := Ideal) (ix2 n q) = 0 := Ideal.ofBits_zero_f32
  rw [hz, zero_add]
  refine Finset.sum_congr rfl fun e _ => ?_
  rw [dcol_apply]

/-- The scatter-add of ones at n: one for every position whose index is n. -/
theorem degOf_apply (d : IVec S320000 32) (n : Fin 10000) :
    degOf (F := Ideal) d (ix1 n) = ∑ e : Fin 320000, if (d (ix1 e)).toInt = (n.val : ℤ) then (1 : Ideal .f32) else 0 := by
  unfold degOf
  rw [scatter_flat.scatterAdd_ix1]
  have hz : broadcastInDim S10000 ![] Facts₀.bcast_S_S10000 (constant (F := Ideal) S_ .f32 0x00000000#32) (ix1 n) = 0 :=
    Ideal.ofBits_zero_f32
  rw [hz, zero_add]
  refine Finset.sum_congr rfl fun e _ => ?_
  rw [dcol_apply]
  have h1 : broadcastInDim S320000 ![] Facts₀.bcast_S_S320000 (constant (F := Ideal) S_ .f32 0x3F800000#32) (ix1 e) = 1 :=
    ofBits_one_f32
  rw [h1]

/-- The aggregate at node n, column q: the sum of the messages of the edges into n. -/
theorem agg_apply (x : FVec Ideal S10000x128 .f32) (ei : IVec S2x320000 32) (n : Fin 10000) (q : Fin 128) :
    agg x ei (ix2 n q)
      = ∑ e : Fin 320000, if (ei (ix2 (1 : Fin 2) e)).toInt = (n.val : ℤ) then msg x ei (ix2 e q) else 0 := by
  unfold agg
  rw [aggOf_apply]
  refine Finset.sum_congr rfl fun e _ => ?_
  rw [dst_apply]

/-- The degree of node n: the number of edges into n, as a sum of ones. -/
theorem deg_apply (ei : IVec S2x320000 32) (n : Fin 10000) :
    deg (F := Ideal) ei (ix1 n)
      = ∑ e : Fin 320000, if (ei (ix2 (1 : Fin 2) e)).toInt = (n.val : ℤ) then (1 : Ideal .f32) else 0 := by
  unfold deg
  rw [degOf_apply]
  refine Finset.sum_congr rfl fun e _ => ?_
  rw [dst_apply]

/-! ## The mean -/

/-- The clipped count at n. -/
theorem clip1_apply (g : FVec Ideal S10000 .f32) (n : Fin 10000) : clip1 g (ix1 n) = max 1 (g (ix1 n)) := by
  unfold clip1
  rw [maximumf_apply]
  have h1 : broadcastInDim S10000 ![] Facts₀.bcast_S_S10000 (id (constant (F := Ideal) S_ .f32 0x3F800000#32)) (ix1 n) = 1 :=
    ofBits_one_f32
  rw [h1]

/-- The mean at (n, q): the aggregate's element over the clipped count of its row. -/
theorem meanOf_apply (a : FVec Ideal S10000x128 .f32) (g : FVec Ideal S10000 .f32) (n : Fin 10000) (q : Fin 128) :
    meanOf a g (ix2 n q) = Ideal.div (a (ix2 n q)) (max 1 (g (ix1 n))) := by
  unfold meanOf
  show Ideal.div (a (ix2 n q)) _ = _
  rw [broadcastInDim_apply _ _ _ _ (ix2 n (0 : Fin 1)) (fun a => by
      match a with
      | ⟨0, _⟩ => rfl
      | ⟨1, _⟩ => rfl),
    broadcastInDim_apply _ _ _ _ (ix1 n) (fun a => by
      match a with
      | ⟨0, _⟩ => rfl),
    clip1_apply]

theorem mean_apply (x : FVec Ideal S10000x128 .f32) (ei : IVec S2x320000 32) (n : Fin 10000) (q : Fin 128) :
    mean x ei (ix2 n q) = Ideal.div (agg x ei (ix2 n q)) (max 1 (deg (F := Ideal) ei (ix1 n))) := by
  unfold mean
  exact meanOf_apply _ _ n q

/-! ## The dense layers -/

/-- The bias rows at (n, q): the bias at q. -/
theorem biasRows_apply (b : FVec F S128 .f32) (n : Fin 10000) (q : Fin 128) : biasRows b (ix2 n q) = b (ix1 q) := by
  unfold biasRows
  rw [broadcastInDim_apply _ _ _ _ (ix2 (0 : Fin 1) q) (fun a => by
      match a with
      | ⟨0, _⟩ => rfl
      | ⟨1, _⟩ => rfl),
    broadcastInDim_apply _ _ _ _ (ix1 q) (fun a => by
      match a with
      | ⟨0, _⟩ => rfl)]

theorem dot_rbc : MatmulRead.RowsByCols dot_S10000x128_S128x128_S10000x128_1_0_0_1_n_n := ⟨rfl, rfl, rfl, rfl, rfl, rfl⟩
theorem dot1_rbc : MatmulRead.RowsByCols dot_S10000x128_S128x1_S10000x1_1_0_0_1_n_n := ⟨rfl, rfl, rfl, rfl, rfl, rfl⟩

/-- A linear layer at (n, q): row n of the input against column q of the weights, plus the bias at q. -/
theorem lin_apply (h : FVec Ideal S10000x128 .f32) (W : FVec Ideal S128x128 .f32) (b : FVec Ideal S128 .f32)
    (n : Fin 10000) (q : Fin 128) :
    lin h W b (ix2 n q) = (∑ k : Fin 128, h (ix2 n k) * W (ix2 k q)) + b (ix1 q) := by
  unfold lin
  rw [addf_apply, MatmulRead.hostDot_ix2 dot_rbc rfl rfl, biasRows_apply]

/-- The all-zero array reads zero. -/
theorem zeros_apply (i : S10000x128.Idx) : zeros (F := Ideal) i = 0 := Ideal.ofBits_zero_f32

/-- The convolution layer at (n, q). -/
theorem convOf_apply (mn x : FVec Ideal S10000x128 .f32) (Wc : FVec Ideal S128x128 .f32) (bc : FVec Ideal S128 .f32)
    (n : Fin 10000) (q : Fin 128) :
    convOf mn x Wc bc (ix2 n q) = max (lin mn Wc bc (ix2 n q)) 0 + x (ix2 n q) := by
  unfold convOf
  rw [addf_apply, maximumf_apply, zeros_apply]

/-- The slope of the leaky relu on the negative side: the f32 number nearest 0.01. -/
def slope : Ideal .f32 := Ideal.ofBits .f32 0x3C23D70A#32

/-- The leaky relu at an index. -/
theorem leaky_apply (z : FVec Ideal S10000x128 .f32) (i : S10000x128.Idx) :
    leaky z i = if 0 ≤ z i then z i else slope * z i := by
  unfold leaky
  rw [select_apply, cmpf_apply, mulf_apply, zeros_apply]
  show Scalar.select (Ideal.cmp .oge (z i) 0) (z i) (slope * z i) = _
  by_cases h : (0 : EReal) ≤ z i
  · rw [if_pos h]
    have : Ideal.cmp .oge (z i) 0 = 1#1 := by simp [Ideal.cmp, h]
    rw [this, select_one]
  · rw [if_neg h]
    have : Ideal.cmp .oge (z i) 0 = 0#1 := by simp [Ideal.cmp, h]
    rw [this, select_zero]

/-- A leaky-relu layer at (n, q). -/
theorem layer_apply (h : FVec Ideal S10000x128 .f32) (W : FVec Ideal S128x128 .f32) (b : FVec Ideal S128 .f32)
    (n : Fin 10000) (q : Fin 128) :
    layer h W b (ix2 n q)
      = if 0 ≤ lin h W b (ix2 n q) then lin h W b (ix2 n q) else slope * lin h W b (ix2 n q) := by
  unfold layer
  exact leaky_apply _ _

/-- The last linear layer at row n. -/
theorem zOf_apply (h : FVec Ideal S10000x128 .f32) (W3 : FVec Ideal S128x1 .f32) (b3 : FVec Ideal S1 .f32) (n : Fin 10000) :
    zOf h W3 b3 (ix2 n (0 : Fin 1)) = (∑ k : Fin 128, h (ix2 n k) * W3 (ix2 k (0 : Fin 1))) + b3 (ix1 (0 : Fin 1)) := by
  unfold zOf
  rw [addf_apply, MatmulRead.hostDot_ix2 dot1_rbc rfl rfl,
    broadcastInDim_apply _ _ _ _ (ix2 (0 : Fin 1) (0 : Fin 1)) (fun a => by
      match a with
      | ⟨0, _⟩ => rfl
      | ⟨1, _⟩ => rfl),
    broadcastInDim_apply _ _ _ _ (ix1 (0 : Fin 1)) (fun a => by
      match a with
      | ⟨0, _⟩ => rfl)]

/-! ## The softplus and the result -/

/-- The all-zero column reads zero. -/
theorem zeros1_apply (i : S10000x1.Idx) : zeros1 (F := Ideal) i = 0 := Ideal.ofBits_zero_f32

/-- The softplus at an index: an extended real is never unequal to itself, so the first branch is never taken. -/
theorem softplus_apply (z : FVec Ideal S10000x1 .f32) (i : S10000x1.Idx) :
    softplus z i = max (z i) 0 + Ideal.log1p (Ideal.exp (-(max (z i - 0) (-(z i - 0))))) := by
  unfold softplus
  rw [select_apply, cmpf_apply]
  have hc : FloatOps.cmpf .une (subf z zeros1 i) (subf z zeros1 i) = 0#1 := by
    show Ideal.cmp .une _ _ = 0#1
    simp [Ideal.cmp]
  rw [hc, select_zero]
  show max (z i) (zeros1 (F := Ideal) i) + Ideal.log1p (Ideal.exp (-(max (z i - zeros1 (F := Ideal) i) (-(z i - zeros1 (F := Ideal) i))))) = _
  rw [zeros1_apply]

/-- The small constant added at the end: the f32 number nearest 1e-20. -/
def eps : Ideal .f32 := Ideal.ofBits .f32 0x1E3CE508#32

/-- The final stage at node n. -/
theorem fin_apply (z : FVec Ideal S10000x1 .f32) (n : Fin 10000) :
    fin z (ix1 n) = softplus z (ix2 n (0 : Fin 1)) + eps := by
  unfold fin
  rw [addf_apply, shapeCast_apply _ _ (ix1 n) (ix2 n (0 : Fin 1)) (by
    rw [Shape.rowMajor_val_two, Shape.rowMajor_val_one]
    show n.val * 1 + 0 = n.val
    omega)]
  rfl

/-! ## The result at a node, stage by stage -/

theorem h0_apply (x : FVec Ideal S10000x128 .f32) (ei : IVec S2x320000 32) (Wc : FVec Ideal S128x128 .f32)
    (bc : FVec Ideal S128 .f32) (n : Fin 10000) (q : Fin 128) :
    h0 x ei Wc bc (ix2 n q) = max ((∑ k : Fin 128, mean x ei (ix2 n k) * Wc (ix2 k q)) + bc (ix1 q)) 0 + x (ix2 n q) := by
  unfold h0
  rw [convOf_apply, lin_apply]

theorem h1_apply (x : FVec Ideal S10000x128 .f32) (ei : IVec S2x320000 32) (Wc : FVec Ideal S128x128 .f32)
    (bc : FVec Ideal S128 .f32) (W1 : FVec Ideal S128x128 .f32) (b1 : FVec Ideal S128 .f32) (n : Fin 10000) (q : Fin 128) :
    h1 x ei Wc bc W1 b1 (ix2 n q)
      = if 0 ≤ (∑ k : Fin 128, h0 x ei Wc bc (ix2 n k) * W1 (ix2 k q)) + b1 (ix1 q)
        then (∑ k : Fin 128, h0 x ei Wc bc (ix2 n k) * W1 (ix2 k q)) + b1 (ix1 q)
        else slope * ((∑ k : Fin 128, h0 x ei Wc bc (ix2 n k) * W1 (ix2 k q)) + b1 (ix1 q)) := by
  unfold h1
  rw [layer_apply, lin_apply]

theorem h2_apply (x : FVec Ideal S10000x128 .f32) (ei : IVec S2x320000 32) (Wc : FVec Ideal S128x128 .f32)
    (bc : FVec Ideal S128 .f32) (W1 : FVec Ideal S128x128 .f32) (b1 : FVec Ideal S128 .f32)
    (W2 : FVec Ideal S128x128 .f32) (b2 : FVec Ideal S128 .f32) (n : Fin 10000) (q : Fin 128) :
    h2 x ei Wc bc W1 b1 W2 b2 (ix2 n q)
      = if 0 ≤ (∑ k : Fin 128, h1 x ei Wc bc W1 b1 (ix2 n k) * W2 (ix2 k q)) + b2 (ix1 q)
        then (∑ k : Fin 128, h1 x ei Wc bc W1 b1 (ix2 n k) * W2 (ix2 k q)) + b2 (ix1 q)
        else slope * ((∑ k : Fin 128, h1 x ei Wc bc W1 b1 (ix2 n k) * W2 (ix2 k q)) + b2 (ix1 q)) := by
  unfold h2
  rw [layer_apply, lin_apply]

theorem zcol_apply (x : FVec Ideal S10000x128 .f32) (ei : IVec S2x320000 32) (Wc : FVec Ideal S128x128 .f32)
    (bc : FVec Ideal S128 .f32) (W1 : FVec Ideal S128x128 .f32) (b1 : FVec Ideal S128 .f32)
    (W2 : FVec Ideal S128x128 .f32) (b2 : FVec Ideal S128 .f32) (W3 : FVec Ideal S128x1 .f32) (b3 : FVec Ideal S1 .f32)
    (n : Fin 10000) :
    zcol x ei Wc bc W1 b1 W2 b2 W3 b3 (ix2 n (0 : Fin 1))
      = (∑ k : Fin 128, h2 x ei Wc bc W1 b1 W2 b2 (ix2 n k) * W3 (ix2 k (0 : Fin 1))) + b3 (ix1 (0 : Fin 1)) := by
  unfold zcol
  exact zOf_apply _ _ _ n

/-- The reference's result at node n: the softplus of the last layer's value there, plus the small constant. -/
theorem out_apply (x : FVec Ideal S10000x128 .f32) (ei : IVec S2x320000 32) (Wc : FVec Ideal S128x128 .f32)
    (bc : FVec Ideal S128 .f32) (W1 : FVec Ideal S128x128 .f32) (b1 : FVec Ideal S128 .f32)
    (W2 : FVec Ideal S128x128 .f32) (b2 : FVec Ideal S128 .f32) (W3 : FVec Ideal S128x1 .f32) (b3 : FVec Ideal S1 .f32)
    (n : Fin 10000) :
    out x ei Wc bc W1 b1 W2 b2 W3 b3 (ix1 n)
      = max (zcol x ei Wc bc W1 b1 W2 b2 W3 b3 (ix2 n (0 : Fin 1))) 0
        + Ideal.log1p (Ideal.exp (-(max (zcol x ei Wc bc W1 b1 W2 b2 W3 b3 (ix2 n (0 : Fin 1)) - 0)
            (-(zcol x ei Wc bc W1 b1 W2 b2 W3 b3 (ix2 n (0 : Fin 1)) - 0))))) + eps := by
  unfold out
  rw [fin_apply, softplus_apply]

/-! ## The range hypothesis, from the certificate's precondition -/

/-- The precondition function's result is the `and` of one "all entries in range" word per input; where it is all
    ones, every entry of the edge table, read signed, lies in [0, 9999]. -/
theorem range_of_pre (a0 : FVec F Cert.Pre_input_domain.S10000x128 .f32) (a1 : IVec Cert.Pre_input_domain.S2x320000 32)
    (a2 : FVec F Cert.Pre_input_domain.S128x128 .f32) (a3 : FVec F Cert.Pre_input_domain.S128 .f32)
    (a4 : FVec F Cert.Pre_input_domain.S128x128 .f32) (a5 : FVec F Cert.Pre_input_domain.S128 .f32)
    (a6 : FVec F Cert.Pre_input_domain.S128x128 .f32) (a7 : FVec F Cert.Pre_input_domain.S128 .f32)
    (a8 : FVec F Cert.Pre_input_domain.S128x1 .f32) (a9 : FVec F Cert.Pre_input_domain.S1 .f32)
    (h : Cert.Pre_input_domain.fn (F := F) a0 a1 a2 a3 a4 a5 a6 a7 a8 a9 = fun _ => 1#1) :
    ∀ j, 0 ≤ (a1 j).toInt ∧ (a1 j).toInt ≤ 9999 := by
  intro j
  have h50 := congrFun h ix0
  have h49 := (IntOp.andi_eq_one.mp h50).2
  have h48 := Host.reduce_andi_all _ _ _ _ _ h49 j
  obtain ⟨hge, hle⟩ := IntOp.andi_eq_one.mp h48
  have h0 : (0#32 : BitVec 32).toInt = 0 := by decide
  have h9 : (9999#32 : BitVec 32).toInt = 9999 := by decide
  have hge' := IntOp.cmpi_sge.mp hge
  have hle' := IntOp.cmpi_sle.mp hle
  exact ⟨h0 ▸ hge', h9 ▸ hle'⟩

/-- The same from the reference's precondition on a memory. -/
theorem range_of_Pre_ReferenceIdeal (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ j, 0 ≤ (m ((c.tc : Thread Cert.ReferenceIdeal.nD Cert.ReferenceIdeal.τ).loc Cert.ReferenceIdeal.main_arg1) j).toInt
      ∧ (m ((c.tc : Thread Cert.ReferenceIdeal.nD Cert.ReferenceIdeal.τ).loc Cert.ReferenceIdeal.main_arg1) j).toInt ≤ 9999 :=
  range_of_pre _ _ _ _ _ _ _ _ _ _ (h c)

/-- The same from the idealized kernel's precondition on a memory. -/
theorem range_of_Pre_KernelIdeal (m : (ℓ : Loc Cert.KernelIdeal.nD Cert.KernelIdeal.τ Cert.KernelIdeal.sig) → Buf (Elt Ideal) ℓ)
    (h : Cert.Pre_KernelIdeal m) (c : Dev Cert.KernelIdeal.nD) :
    ∀ j, 0 ≤ (m ((c.tc : Thread Cert.KernelIdeal.nD Cert.KernelIdeal.τ).loc Cert.KernelIdeal.main_arg1) j).toInt
      ∧ (m ((c.tc : Thread Cert.KernelIdeal.nD Cert.KernelIdeal.τ).loc Cert.KernelIdeal.main_arg1) j).toInt ≤ 9999 :=
  range_of_pre _ _ _ _ _ _ _ _ _ _ (h c)

/-- The same from the kernel's precondition on a memory, at the bit-exact instance. -/
theorem range_of_Pre_Kernel (m : (ℓ : Loc Cert.Kernel.nD Cert.Kernel.τ Cert.Kernel.sig) → Buf (Elt Bits) ℓ)
    (h : Cert.Pre_Kernel m) (c : Dev Cert.Kernel.nD) :
    ∀ j, 0 ≤ (m ((c.tc : Thread Cert.Kernel.nD Cert.Kernel.τ).loc Cert.Kernel.main_arg1) j).toInt
      ∧ (m ((c.tc : Thread Cert.Kernel.nD Cert.Kernel.τ).loc Cert.Kernel.main_arg1) j).toInt ≤ 9999 :=
  range_of_pre _ _ _ _ _ _ _ _ _ _ (h c)

/-! ## The softplus without the subtraction of zero -/

/-- The softplus at an index with the subtraction of zero removed: `max z 0 + log1p (exp (-|z|))`, the absolute value
    written as `max z (-z)`. -/
theorem softplus_apply' (z : FVec Ideal S10000x1 .f32) (i : S10000x1.Idx) :
    softplus z i = max (z i) 0 + Ideal.log1p (Ideal.exp (-(max (z i) (-(z i))))) := by
  rw [softplus_apply]
  have h0 : z i - 0 = z i := sub_zero (z i)
  rw [h0]

/-- The reference's result at node n, in that form. -/
theorem out_apply' (x : FVec Ideal S10000x128 .f32) (ei : IVec S2x320000 32) (Wc : FVec Ideal S128x128 .f32)
    (bc : FVec Ideal S128 .f32) (W1 : FVec Ideal S128x128 .f32) (b1 : FVec Ideal S128 .f32)
    (W2 : FVec Ideal S128x128 .f32) (b2 : FVec Ideal S128 .f32) (W3 : FVec Ideal S128x1 .f32) (b3 : FVec Ideal S1 .f32)
    (n : Fin 10000) :
    out x ei Wc bc W1 b1 W2 b2 W3 b3 (ix1 n)
      = max (zcol x ei Wc bc W1 b1 W2 b2 W3 b3 (ix2 n (0 : Fin 1))) 0
        + Ideal.log1p (Ideal.exp (-(max (zcol x ei Wc bc W1 b1 W2 b2 W3 b3 (ix2 n (0 : Fin 1)))
            (-(zcol x ei Wc bc W1 b1 W2 b2 W3 b3 (ix2 n (0 : Fin 1))))))) + eps := by
  unfold out
  rw [fin_apply, softplus_apply']

end Cert.ReferenceIdeal.RefRead

end
-- ==== Proof.TopScatRead.lean ====
/-
  What the scatter region finds and what the head region finds of it: the message array at the scatter's entry is the
  gathered rows (no host operation between touches it); the node features are as launched; the two sums, reshaped from
  blocks of eight nodes to one row per node, read at node n as the block n / 8, row n % 8.
-/
import proofs.«202620_g33904471835419_cont_8to1_b_799_54_alg».proof.Proof.TopRegions

noncomputable section

namespace Cert.KI.Top

open Cert.KernelIdeal Cert.KernelIdeal.Gen Cert.KI.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after)

variable {F : FTy → Type} [FloatOps F]

local notation "𝕄" => MT nD τ sig (HIx 1) (Elt F) ℕ UU ℕ

variable (m : (ℓ : Loc nD τ sig) → Buf (Elt F) ℓ) (ρ : Dev nD → PrngReg)

variable (Sc : Scat (F := F))

/-- A buffer no operation of a stretch writes keeps its contents. -/
theorem after_keep (ops : List (HloOp τ sig (Elt F))) (V : Valuation τ sig (Elt F)) (b : Ref sig .tc)
    (h : ops.Forall fun op => Proc.devRef .tc b ∉ op.writes) : after ops V (Proc.devRef .tc b) = V (Proc.devRef .tc b) :=
  StableHlo.after_of_forall_not_mem (b := Proc.devRef .tc b) ops V (List.forall_iff_forall_mem.mp h)

theorem ops0_keep (b : Ref sig .tc) (hb : b ≠ main_v0 ∧ b ≠ main_v1) :
    (ops0 : List (HloOp τ sig (Elt F))).Forall fun op => Proc.devRef .tc b ∉ op.writes := by
  simp only [List.Forall, StableHlo.unary_writes, StableHlo.reshape_writes, Finset.mem_singleton]
  exact ⟨StableHlo.devRef_ne_of_ne hb.1, StableHlo.devRef_ne_of_ne hb.2⟩

theorem ops1_keep (b : Ref sig .tc) (hb : b ≠ main_v3 ∧ b ≠ main_v4 ∧ b ≠ main_v5) :
    (ops1 : List (HloOp τ sig (Elt F))).Forall fun op => Proc.devRef .tc b ∉ op.writes := by
  simp only [List.Forall, StableHlo.unary_writes, StableHlo.reshape_writes, Finset.mem_singleton]
  exact ⟨StableHlo.devRef_ne_of_ne hb.1, StableHlo.devRef_ne_of_ne hb.2.1, StableHlo.devRef_ne_of_ne hb.2.2⟩

/-- The node features as the gather finds them are the launch's. -/
theorem X_eq (d : Dev nD) : X m d = m (d, Proc.devRef .tc main_arg0) :=
  after_keep ops0 (W0 m d) main_arg0 (ops0_keep main_arg0 (by decide))

/-- At the scatter's entry the message array holds the gathered rows. -/
theorem W3_msgs (d : Dev nD) : W3 m d (Proc.devRef .tc main_v2) = gathered (F := F) (X m d) (SRC m d) :=
  (after_keep ops1 (W2 m d) main_v2 (ops1_keep main_v2 (by decide))).trans (W2_o m d)

end Cert.KI.Top

end
-- ==== Proof.TopScatRead2.lean ====
/-
  The readings that join the kernel regions to the reference: the message array at the scatter's entry, read at an edge
  and a column, is the source node's row of the launch's node features; the two sums, reshaped from blocks of eight
  nodes to one row per node, read at node `n` as row `n % 8` of block `n / 8`; the destination words the scatter finds,
  read per edge, are row 1 of the launch's edge array.
-/
import proofs.«202620_g33904471835419_cont_8to1_b_799_54_alg».proof.Proof.TopScatRead
import proofs.«202620_g33904471835419_cont_8to1_b_799_54_alg».proof.Proof.PreTop

noncomputable section

namespace Cert.KI.Top

open Cert.KernelIdeal Cert.KernelIdeal.Gen Cert.KI.Sc
open Idealize.ShloMosaic Idealize.ShloMosaic.TcCoe
open Idealize.ShloMosaic.SparseCore (S V T)
open Idealize.SL.Sem
open Idealize.ShloMosaic.StableHlo (after after_cons after_nil)
open Idealize.ShloMosaic.ValueIdx

variable {F : FTy → Type} [FloatOps F]

variable (m : (ℓ : Loc nD τ sig) → Buf (Elt F) ℓ)

variable (Sc : Scat (F := F))

/-- A word in `[0, 9999]` read signed names a row of the table. -/
theorem toInt_toNat_lt {z : BitVec 32} (h : 0 ≤ z.toInt ∧ z.toInt ≤ 9999) : z.toInt.toNat < 10000 := by omega

/-- Read unsigned it is the same number. -/
theorem toNat_eq_toInt_toNat {z : BitVec 32} (h : 0 ≤ z.toInt ∧ z.toInt ≤ 9999) : z.toNat = z.toInt.toNat := by
  obtain ⟨h0, h9⟩ := h
  rw [BitVec.toInt_eq_toNat_cond] at h0 h9 ⊢
  split at h0 <;> omega

/-- The gathered contents at an edge and a column: the column of the row the edge's source word names. -/
theorem gathered_ix2 (Xd : S10000x128.Idx → Elt F .f32) (Sd : S320000.Idx → Elt F .i32) (e : Fin 320000) (k : Fin 128) :
    gathered (F := F) Xd Sd (ix2 e k) = Xd (ix2 (rowIx (Sd (ix1 e))) k) := by
  unfold gathered
  refine congrArg Xd (funext fun a => ?_)
  match a with
  | ⟨0, _⟩ =>
    refine congrArg rowIx (congrArg Sd (funext fun b => ?_))
    match b with
    | ⟨0, _⟩ => rfl
  | ⟨1, _⟩ => rfl

/-- (1) The message of edge `e` at the scatter's entry is its source node's row of the launch's node features. -/
theorem msgs_read (d : Dev nD)
    (hei : ∀ j, 0 ≤ (m ((d.tc : Thread nD τ).loc main_arg1) j).toInt ∧ (m ((d.tc : Thread nD τ).loc main_arg1) j).toInt ≤ 9999)
    (e : Fin 320000) (k : Fin 128) :
    W3 m d (Proc.devRef .tc main_v2) (ix2 e k)
      = m (d, Proc.devRef .tc main_arg0) (ix2 ⟨(m ((d.tc : Thread nD τ).loc main_arg1) (ix2 (0 : Fin 2) e)).toInt.toNat, toInt_toNat_lt (hei _)⟩ k) := by
  rw [W3_msgs, X_eq, gathered_ix2, SRC_read]
  refine congrArg (m (d, Proc.devRef .tc main_arg0)) (congrArg (fun r => ix2 r k) (Fin.ext ?_))
  rw [rowIx_val (toNat_lt _ (hei _).1 (hei _).2)]
  exact toNat_eq_toInt_toNat (hei _)

/-- (2) The aggregate, reshaped to one row per node, read at node `n`: row `n % 8` of block `n / 8`. -/
theorem agg_read (d : Dev nD) (n : Fin 10000) (k : Fin 128) :
    W5 m Sc d (Proc.devRef .tc main_v7) (ix2 n k)
      = W4 m Sc d (Proc.devRef .tc main_v6_0) (ix3 (⟨n.val / 8, by have := n.isLt; omega⟩ : Fin 1250) (⟨n.val % 8, Nat.mod_lt _ (by decide)⟩ : Fin 8) k) := by
  show after ops2 (W4 m Sc d) (Proc.devRef .tc main_v7) (ix2 n k) = _
  after_results
  show shapeCast S10000x128 (W4 m Sc d (Proc.devRef .tc main_v6_0)) shapeCasts_S1250x8x128_S10000x128 (ix2 n k) = _
  exact shapeCast_apply _ _ _ _ (by
    show (S1250x8x128.rowMajor (ix3 (⟨n.val / 8, by have := n.isLt; omega⟩ : Fin 1250) (⟨n.val % 8, Nat.mod_lt _ (by decide)⟩ : Fin 8) k)).val
      = (S10000x128.rowMajor (ix2 n k)).val
    rw [Shape.rowMajor_val_three, Shape.rowMajor_val_two]
    show (n.val / 8 * 8 + n.val % 8) * 128 + k.val = n.val * 128 + k.val
    have := Nat.div_add_mod n.val 8
    omega)

/-- The degree count likewise. -/
theorem deg_read (d : Dev nD) (n : Fin 10000) (k : Fin 128) :
    W5 m Sc d (Proc.devRef .tc main_v8) (ix2 n k)
      = W4 m Sc d (Proc.devRef .tc main_v6_1) (ix3 (⟨n.val / 8, by have := n.isLt; omega⟩ : Fin 1250) (⟨n.val % 8, Nat.mod_lt _ (by decide)⟩ : Fin 8) k) := by
  show after ops2 (W4 m Sc d) (Proc.devRef .tc main_v8) (ix2 n k) = _
  after_results
  show shapeCast S10000x128 (W4 m Sc d (Proc.devRef .tc main_v6_1)) shapeCasts_S1250x8x128_S10000x128 (ix2 n k) = _
  exact shapeCast_apply _ _ _ _ (by
    show (S1250x8x128.rowMajor (ix3 (⟨n.val / 8, by have := n.isLt; omega⟩ : Fin 1250) (⟨n.val % 8, Nat.mod_lt _ (by decide)⟩ : Fin 8) k)).val
      = (S10000x128.rowMajor (ix2 n k)).val
    rw [Shape.rowMajor_val_three, Shape.rowMajor_val_two]
    show (n.val / 8 * 8 + n.val % 8) * 128 + k.val = n.val * 128 + k.val
    have := Nat.div_add_mod n.val 8
    omega)

/-- (3) The destination word of edge `e`, as the scatter finds it in chunk `e / 128` at word `e % 128`, is entry
    `(1, e)` of the launch's edge array. -/
theorem dst_read (d : Dev nD) (e : Fin 320000) :
    V3 m d main_v5 (ix3 (⟨e.val / 128, by have := e.isLt; omega⟩ : Fin 2500) (0 : Fin 1) (⟨e.val % 128, Nat.mod_lt _ (by decide)⟩ : Fin 128))
      = m ((d.tc : Thread nD τ).loc main_arg1) (ix2 (1 : Fin 2) e) := by
  show W3 m d (Proc.devRef .tc main_v5) _ = _
  rw [DST_read]
  refine congrArg (m ((d.tc : Thread nD τ).loc main_arg1)) (congrArg (ix2 (1 : Fin 2)) (Fin.ext ?_))
  show 128 * (e.val / 128) + e.val % 128 = e.val
  exact Nat.div_add_mod e.val 128

end Cert.KI.Top

end
-- ==== Proof.TopScatJoin.lean ====
import proofs.«202620_g33904471835419_cont_8to1_b_799_54_alg».proof.Proof.TopValue
import proofs.«202620_g33904471835419_cont_8to1_b_799_54_alg».proof.Proof.RefRead
import proofs.«202620_g33904471835419_cont_8to1_b_799_54_alg».proof.Proof.TopScatRead2

/-!
# The scatter region's sums are the reference's

The scatter region leaves, for every block of eight nodes, the sum over the edges whose destination word names a node
of the block of that edge's gathered row (and, beside it, the count of those edges). Read one row per node, through
the reshape the next host stretch applies, node `n` sits at block `n / 8`, row `n % 8`, and `8 (n / 8) + n % 8 = n`;
the gathered row of an edge is its source node's row of the features; the destination word of an edge is the second
row of the edge table. With these three readings the two sums are, node by node, the reference's summed messages
and counts, and so the result buffer at the return is the reference's result.
-/

noncomputable section

namespace Cert.KI.Top

open Cert.KernelIdeal Cert.KernelIdeal.Gen Cert.KI.Sc
open Idealize.ShloMosaic Idealize.ShloMosaic.TcCoe Idealize.ShloMosaic.ValueIdx
open Idealize.SL Idealize.SL.RA Idealize.SL.Sem
open scoped BigOperators

section ScatJoin
variable (m : (ℓ : Loc nD τ sig) → Buf (Elt Ideal) ℓ) (Sc : Scat (F := Ideal)) (d : Dev nD)

/-- Node `n` is row `n % 8` of block `n / 8`. -/
theorem node_split (n : Fin 10000) : (8 * ((n.val / 8 : ℕ) : ℤ) + ((n.val % 8 : ℕ) : ℤ)) = (n.val : ℤ) := by
  have := Nat.div_add_mod n.val 8
  omega

variable (wd : Fin 320000 → BitVec 32)
  (hei : ∀ j, 0 ≤ ((m (d, Proc.devRef .tc main_arg1)) j).toInt ∧ ((m (d, Proc.devRef .tc main_arg1)) j).toInt ≤ 9999)

/-- The summed messages as the head region finds them are the reference's, given: the destination word of every edge
    (`hwd`), the gathered row of every edge (`hmsg`), the reshape read at a node (`hrs`), and the scatter region's
    array as the sum over edges (`hfa`). -/
theorem scat_agg
    (hwd : ∀ e, wd e = (m (d, Proc.devRef .tc main_arg1)) (ix2 (1 : Fin 2) e))
    (hmsg : ∀ (e : Fin 320000) (k : Fin 128), W3 m d (Proc.devRef .tc main_v2) (ix2 e k)
      = (m (d, Proc.devRef .tc main_arg0)) (ix2 ⟨((m (d, Proc.devRef .tc main_arg1)) (ix2 (0 : Fin 2) e)).toInt.toNat, Cert.ReferenceIdeal.RefRead.toNat_lt (hei _)⟩ k))
    (hrs : ∀ (n : Fin 10000) (k : Fin 128), W5 m Sc d (Proc.devRef .tc main_v7) (ix2 n k)
      = W4 m Sc d (Proc.devRef .tc main_v6_0) (ix3 (⟨n.val / 8, by have := n.isLt; omega⟩ : Fin 1250) (⟨n.val % 8, Nat.mod_lt _ (by decide)⟩ : Fin 8) k))
    (hfa : ∀ (b : Fin 1250) (s : Fin 8) (k : Fin 128), (W4 m Sc d (Proc.devRef .tc main_v6_0) (ix3 b s k) : Ideal .f32)
      = ∑ e : Fin 320000, ((if (wd e).toInt = (8 * b.val + s.val : ℤ) then W3 m d (Proc.devRef .tc main_v2) (ix2 e k) else 0 : Ideal .f32)))
    (n : Fin 10000) (k : Fin 128) :
    W5 m Sc d (Proc.devRef .tc main_v7) (ix2 n k) = Cert.ReferenceIdeal.RefRun.agg (F := Ideal) (m (d, Proc.devRef .tc main_arg0)) (m (d, Proc.devRef .tc main_arg1)) (ix2 n k) := by
  refine (hrs n k).trans ((hfa _ _ k).trans ?_)
  show @Eq (Ideal .f32) _ _
  rw [Cert.ReferenceIdeal.RefRead.agg_apply]
  refine Finset.sum_congr rfl fun e _ => ?_
  have hm := Cert.ReferenceIdeal.RefRead.msg_apply (F := Ideal) (m (d, Proc.devRef .tc main_arg0)) (m (d, Proc.devRef .tc main_arg1)) hei e k
  rw [hwd, hmsg]
  show (if ((m (d, Proc.devRef .tc main_arg1)) (ix2 (1 : Fin 2) e)).toInt = (8 * ((n.val / 8 : ℕ) : ℤ) + ((n.val % 8 : ℕ) : ℤ)) then _ else _) = _
  rw [node_split]
  exact if_congr Iff.rfl hm.symm rfl

/-- The counts likewise. -/
theorem scat_deg
    (hwd : ∀ e, wd e = (m (d, Proc.devRef .tc main_arg1)) (ix2 (1 : Fin 2) e))
    (hrs : ∀ (n : Fin 10000) (k : Fin 128), W5 m Sc d (Proc.devRef .tc main_v8) (ix2 n k)
      = W4 m Sc d (Proc.devRef .tc main_v6_1) (ix3 (⟨n.val / 8, by have := n.isLt; omega⟩ : Fin 1250) (⟨n.val % 8, Nat.mod_lt _ (by decide)⟩ : Fin 8) k))
    (hfd : ∀ (b : Fin 1250) (s : Fin 8) (k : Fin 128), (W4 m Sc d (Proc.devRef .tc main_v6_1) (ix3 b s k) : Ideal .f32)
      = ∑ e : Fin 320000, if (wd e).toInt = (8 * b.val + s.val : ℤ) then (1 : Ideal .f32) else 0)
    (n : Fin 10000) :
    W5 m Sc d (Proc.devRef .tc main_v8) (ix2 n 0) = Cert.ReferenceIdeal.RefRun.deg (F := Ideal) (m (d, Proc.devRef .tc main_arg1)) (ix1 n) := by
  refine (hrs n 0).trans ((hfd _ _ 0).trans ?_)
  show @Eq (Ideal .f32) _ _
  rw [Cert.ReferenceIdeal.RefRead.deg_apply]
  refine Finset.sum_congr rfl fun e _ => ?_
  rw [hwd]
  show (if ((m (d, Proc.devRef .tc main_arg1)) (ix2 (1 : Fin 2) e)).toInt = (8 * ((n.val / 8 : ℕ) : ℤ) + ((n.val % 8 : ℕ) : ℤ)) then _ else _) = _
  rw [node_split]

/-- THE VALUE: with the three readings and the two sums, the result buffer at the return is the reference's result of
    the launch arguments. -/
theorem value_of_readings
    (hwd : ∀ e, wd e = (m (d, Proc.devRef .tc main_arg1)) (ix2 (1 : Fin 2) e))
    (hmsg : ∀ (e : Fin 320000) (k : Fin 128), W3 m d (Proc.devRef .tc main_v2) (ix2 e k)
      = (m (d, Proc.devRef .tc main_arg0)) (ix2 ⟨((m (d, Proc.devRef .tc main_arg1)) (ix2 (0 : Fin 2) e)).toInt.toNat, Cert.ReferenceIdeal.RefRead.toNat_lt (hei _)⟩ k))
    (hrs7 : ∀ (n : Fin 10000) (k : Fin 128), W5 m Sc d (Proc.devRef .tc main_v7) (ix2 n k)
      = W4 m Sc d (Proc.devRef .tc main_v6_0) (ix3 (⟨n.val / 8, by have := n.isLt; omega⟩ : Fin 1250) (⟨n.val % 8, Nat.mod_lt _ (by decide)⟩ : Fin 8) k))
    (hrs8 : ∀ (n : Fin 10000) (k : Fin 128), W5 m Sc d (Proc.devRef .tc main_v8) (ix2 n k)
      = W4 m Sc d (Proc.devRef .tc main_v6_1) (ix3 (⟨n.val / 8, by have := n.isLt; omega⟩ : Fin 1250) (⟨n.val % 8, Nat.mod_lt _ (by decide)⟩ : Fin 8) k))
    (hfa : ∀ (b : Fin 1250) (s : Fin 8) (k : Fin 128), (W4 m Sc d (Proc.devRef .tc main_v6_0) (ix3 b s k) : Ideal .f32)
      = ∑ e : Fin 320000, ((if (wd e).toInt = (8 * b.val + s.val : ℤ) then W3 m d (Proc.devRef .tc main_v2) (ix2 e k) else 0 : Ideal .f32)))
    (hfd : ∀ (b : Fin 1250) (s : Fin 8) (k : Fin 128), (W4 m Sc d (Proc.devRef .tc main_v6_1) (ix3 b s k) : Ideal .f32)
      = ∑ e : Fin 320000, if (wd e).toInt = (8 * b.val + s.val : ℤ) then (1 : Ideal .f32) else 0) :
    W7 m Sc d (Proc.devRef .tc main_v16)
      = Cert.ReferenceIdeal.RefRun.out (F := Ideal) (m (d, Proc.devRef .tc main_arg0)) (m (d, Proc.devRef .tc main_arg1)) (m (d, Proc.devRef .tc main_arg2)) (m (d, Proc.devRef .tc main_arg3))
          (m (d, Proc.devRef .tc main_arg4)) (m (d, Proc.devRef .tc main_arg5)) (m (d, Proc.devRef .tc main_arg6))
          (m (d, Proc.devRef .tc main_arg7)) (m (d, Proc.devRef .tc main_arg8)) (m (d, Proc.devRef .tc main_arg9)) :=
  head_join m Sc d (scat_agg m Sc d wd hei hwd hmsg hrs7 hfa) (scat_deg m Sc d wd hwd hrs8 hfd)

/-- The destination word of edge `e` as the scatter region finds it: word `e % 128` of chunk `e / 128`. -/
abbrev dstWord (e : Fin 320000) : BitVec 32 :=
  V3 m d main_v5 (ix3 (⟨e.val / 128, by have := e.isLt; omega⟩ : Fin 2500) (0 : Fin 1) (⟨e.val % 128, Nat.mod_lt _ (by decide)⟩ : Fin 128))

/-- THE VALUE, from the scatter region's two arrays as sums over the edges: with every entry of the launch's edge
    table in range, the result buffer at the return is the reference's result of the launch arguments. The three
    readings are the ones proved of the chain of buffers. -/
theorem value_of
    (hrange : ∀ j, 0 ≤ ((m (d, Proc.devRef .tc main_arg1)) j).toInt ∧ ((m (d, Proc.devRef .tc main_arg1)) j).toInt ≤ 9999)
    (hfa : ∀ (b : Fin 1250) (s : Fin 8) (k : Fin 128), (W4 m Sc d (Proc.devRef .tc main_v6_0) (ix3 b s k) : Ideal .f32)
      = ∑ e : Fin 320000, ((if (dstWord m d e).toInt = (8 * b.val + s.val : ℤ) then W3 m d (Proc.devRef .tc main_v2) (ix2 e k) else 0 : Ideal .f32)))
    (hfd : ∀ (b : Fin 1250) (s : Fin 8) (k : Fin 128), (W4 m Sc d (Proc.devRef .tc main_v6_1) (ix3 b s k) : Ideal .f32)
      = ∑ e : Fin 320000, if (dstWord m d e).toInt = (8 * b.val + s.val : ℤ) then (1 : Ideal .f32) else 0) :
    W7 m Sc d (Proc.devRef .tc main_v16)
      = Cert.ReferenceIdeal.RefRun.out (F := Ideal) (m (d, Proc.devRef .tc main_arg0)) (m (d, Proc.devRef .tc main_arg1)) (m (d, Proc.devRef .tc main_arg2)) (m (d, Proc.devRef .tc main_arg3))
          (m (d, Proc.devRef .tc main_arg4)) (m (d, Proc.devRef .tc main_arg5)) (m (d, Proc.devRef .tc main_arg6))
          (m (d, Proc.devRef .tc main_arg7)) (m (d, Proc.devRef .tc main_arg8)) (m (d, Proc.devRef .tc main_arg9)) :=
  value_of_readings m Sc d (dstWord m d) hrange (fun e => dst_read m d e) (fun e k => msgs_read m d hrange e k)
    (fun n k => agg_read m Sc d n k) (fun n k => deg_read m Sc d n k) hfa hfd

end ScatJoin

end Cert.KI.Top

end
-- ==== Proof.ScatFinal.lean ====
import proofs.«202620_g33904471835419_cont_8to1_b_799_54_alg».proof.Proof.ScatData

/-!
# The scatter region: the arrays after the run

Each accumulator's window is the whole array, at every point, and is written back after the last point only. So after
the run the sums' array holds the sums after the last point, and the counts' the counts; the input arrays are as the
region found them.
-/

set_option maxRecDepth 16384

noncomputable section

namespace Cert.KI.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type}

-- the TensorCore's buffer contents when the region is entered
variable (V : (c : Dev nD) → (b : Ref sig .tc) → Buf (Elt F) ((c : Thread nD τ).loc b))

/-! ## The accumulators' windows: the whole array at every point -/

theorem idx1_2 : ∀ t : Fin cfg1.N, ∀ a : Fin 3, win1_2.index t a = 0 :=
  (by decide +kernel : ∀ t : Fin grid1.N, ∀ a : Fin 3, win1_2.index t a = 0)
theorem idx1_3 : ∀ t : Fin cfg1.N, ∀ a : Fin 3, win1_3.index t a = 0 :=
  (by decide +kernel : ∀ t : Fin grid1.N, ∀ a : Fin 3, win1_3.index t a = 0)

/-- The last point. -/
def tLast : Fin cfg1.N := ⟨2499, by decide⟩

theorem flush_last_2 : (cfg1.win 2).flush tLast = true := (flush1_2 tLast).mpr rfl
theorem flush_last_3 : (cfg1.win 3).flush tLast = true := (flush1_3 tLast).mpr rfl
theorem eq_last_2 (t : Fin cfg1.N) (h : (cfg1.win 2).flush t = true) : t = tLast := by
  have := (flush1_2 t).mp h; have := t.isLt
  exact Fin.ext (by show t.val = 2499; have hN : t.val < 2500 := t.isLt; omega)
theorem eq_last_3 (t : Fin cfg1.N) (h : (cfg1.win 3).flush t = true) : t = tLast := by
  have := (flush1_3 t).mp h
  exact Fin.ext (by show t.val = 2499; have hN : t.val < 2500 := t.isLt; omega)

/-- An accumulator's block at any point, read off an array, is the array. -/
theorem blk_read_2 (t : Fin cfg1.N) (G : S1250x8x128.Idx → Elt F .f32) : ((cfg1.win 2).blk t).view.read (Elt F) G = G := by
  funext j
  show G (((cfg1.win 2).blk t).view.emb j) = G j
  refine congrArg G (funext fun a => Fin.ext ?_)
  match a with
  | ⟨0, _⟩ => show win1_2.index t (0 : Fin 3) * 1250 + 1 * (j 0).val = (j 0).val; rw [idx1_2 t 0]; omega
  | ⟨1, _⟩ => show win1_2.index t (1 : Fin 3) * 8 + 1 * (j 1).val = (j 1).val; rw [idx1_2 t 1]; omega
  | ⟨2, _⟩ => show win1_2.index t (2 : Fin 3) * 128 + 1 * (j 2).val = (j 2).val; rw [idx1_2 t 2]; omega
theorem blk_read_3 (t : Fin cfg1.N) (G : S1250x8x128.Idx → Elt F .f32) : ((cfg1.win 3).blk t).view.read (Elt F) G = G := by
  funext j
  show G (((cfg1.win 3).blk t).view.emb j) = G j
  refine congrArg G (funext fun a => Fin.ext ?_)
  match a with
  | ⟨0, _⟩ => show win1_3.index t (0 : Fin 3) * 1250 + 1 * (j 0).val = (j 0).val; rw [idx1_3 t 0]; omega
  | ⟨1, _⟩ => show win1_3.index t (1 : Fin 3) * 8 + 1 * (j 1).val = (j 1).val; rw [idx1_3 t 1]; omega
  | ⟨2, _⟩ => show win1_3.index t (2 : Fin 3) * 128 + 1 * (j 2).val = (j 2).val; rw [idx1_3 t 2]; omega

/-- Every element of an accumulator's array is in the last point's block. -/
theorem cover1_2 (i : S1250x8x128.Idx) : ∃ t : Fin cfg1.N, (cfg1.win 2).flush t = true ∧ i ∈ ((cfg1.win 2).blk t).view.set := by
  refine ⟨tLast, flush_last_2, ?_⟩
  show i ∈ ((View.whole main_v6_0).slice (win1_2.rect tLast)).set
  rw [View.set_slice_whole, Rect.mem_set_unit]
  intro a
  match a with
  | ⟨0, _⟩ => show win1_2.index tLast (0 : Fin 3) * 1250 ≤ (i 0).val ∧ (i 0).val < win1_2.index tLast (0 : Fin 3) * 1250 + 1250; rw [idx1_2 tLast 0]; have : (i 0).val < 1250 := (i 0).isLt; omega
  | ⟨1, _⟩ => show win1_2.index tLast (1 : Fin 3) * 8 ≤ (i 1).val ∧ (i 1).val < win1_2.index tLast (1 : Fin 3) * 8 + 8; rw [idx1_2 tLast 1]; have : (i 1).val < 8 := (i 1).isLt; omega
  | ⟨2, _⟩ => show win1_2.index tLast (2 : Fin 3) * 128 ≤ (i 2).val ∧ (i 2).val < win1_2.index tLast (2 : Fin 3) * 128 + 128; rw [idx1_2 tLast 2]; have : (i 2).val < 128 := (i 2).isLt; omega
theorem cover1_3 (i : S1250x8x128.Idx) : ∃ t : Fin cfg1.N, (cfg1.win 3).flush t = true ∧ i ∈ ((cfg1.win 3).blk t).view.set := by
  refine ⟨tLast, flush_last_3, ?_⟩
  show i ∈ ((View.whole main_v6_1).slice (win1_3.rect tLast)).set
  rw [View.set_slice_whole, Rect.mem_set_unit]
  intro a
  match a with
  | ⟨0, _⟩ => show win1_3.index tLast (0 : Fin 3) * 1250 ≤ (i 0).val ∧ (i 0).val < win1_3.index tLast (0 : Fin 3) * 1250 + 1250; rw [idx1_3 tLast 0]; have : (i 0).val < 1250 := (i 0).isLt; omega
  | ⟨1, _⟩ => show win1_3.index tLast (1 : Fin 3) * 8 ≤ (i 1).val ∧ (i 1).val < win1_3.index tLast (1 : Fin 3) * 8 + 8; rw [idx1_3 tLast 1]; have : (i 1).val < 8 := (i 1).isLt; omega
  | ⟨2, _⟩ => show win1_3.index tLast (2 : Fin 3) * 128 ≤ (i 2).val ∧ (i 2).val < win1_3.index tLast (2 : Fin 3) * 128 + 128; rw [idx1_3 tLast 2]; have : (i 2).val < 128 := (i 2).isLt; omega

/-! ## The arrays after the run -/

/-- What the last point writes back of the sums is the sums after it. -/
theorem flushed1_2 (c : Dev nD) (B : Set (SemLoc sig × Ix)) (t : Fin cfg1.N) (h : (cfg1.win 2).flush t = true) :
    (dat1 (Name := Name) (U := U) (Lvl := Lvl) V c B).flushed 2 t
      = ((cfg1.win 2).blk t).view.read (Elt F) (aggAt V c (cfg1.N - 1) (by decide)) := by
  obtain rfl := eq_last_2 t h
  rw [blk_read_2]
  show (cfg1.win 2).cut (grid1.coords tLast) ((dat1 (Name := Name) (U := U) (Lvl := Lvl) V c B).after 2 tLast) = _
  rw [after1_2]
  rfl
theorem flushed1_3 (c : Dev nD) (B : Set (SemLoc sig × Ix)) (t : Fin cfg1.N) (h : (cfg1.win 3).flush t = true) :
    (dat1 (Name := Name) (U := U) (Lvl := Lvl) V c B).flushed 3 t
      = ((cfg1.win 3).blk t).view.read (Elt F) (degAt V c (cfg1.N - 1) (by decide)) := by
  obtain rfl := eq_last_3 t h
  rw [blk_read_3]
  show (cfg1.win 3).cut (grid1.coords tLast) ((dat1 (Name := Name) (U := U) (Lvl := Lvl) V c B).after 3 tLast) = _
  rw [after1_3]
  rfl

/-- THE SUMS' ARRAY after the run: the sums after the last point. -/
theorem final1_agg (c : Dev nD) (B : Set (SemLoc sig × Ix)) :
    (dat1 (Name := Name) (U := U) (Lvl := Lvl) V c B).arrAt 2 cfg1.N = aggAt V c (cfg1.N - 1) (by decide) :=
  (dat1 (Name := Name) (U := U) (Lvl := Lvl) V c B).arrAt_eq_of_cover 2 (aggAt V c (cfg1.N - 1) (by decide)) (flushed1_2 V c B) cover1_2
/-- THE COUNTS' ARRAY after the run. -/
theorem final1_deg (c : Dev nD) (B : Set (SemLoc sig × Ix)) :
    (dat1 (Name := Name) (U := U) (Lvl := Lvl) V c B).arrAt 3 cfg1.N = degAt V c (cfg1.N - 1) (by decide) :=
  (dat1 (Name := Name) (U := U) (Lvl := Lvl) V c B).arrAt_eq_of_cover 3 (degAt V c (cfg1.N - 1) (by decide)) (flushed1_3 V c B) cover1_3

/-- An input array is never written: after any number of points it is as the region found it. -/
theorem arrAt1_in (c : Dev nD) (B : Set (SemLoc sig × Ix)) (w : Fin cfg1.W) (hw : (cfg1.win w).isOut = false) (n : Nat) :
    (dat1 (Name := Name) (U := U) (Lvl := Lvl) V c B).arrAt w n = V c (Pipeline.arrRef spec1 w) :=
  ((dat1 (Name := Name) (U := U) (Lvl := Lvl) V c B).arrAt_in w hw n).trans (A_eq1 V c B w)

end Cert.KI.Scat

end
-- ==== Proof.BridgeScat.lean ====
/-
  The scatter half of the bridge between the kernel's accumulators and the reference's scatter-adds, at the
  ideal instance. The kernel builds each accumulator edge by edge: an edge whose destination word names node
  8·b + s adds its row (for the counts: a one) at block b, sublane s, and leaves every other element as it was.
  Read at one element, what stands there after all the edges is the element's initial value plus the sum, over
  the edges whose word names that node, of the edge's contribution — on the extended reals addition is
  commutative and associative, 0 is its unit and 0 · r = 0 for every r, so no finiteness is asked. Starting
  from zeros that is the right-hand side of the reference's scatter-add read at node 8·b + s.
-/
import proofs.«202620_g33904471835419_cont_8to1_b_799_54_alg».proof.Proof.RefRead
import proofs.«202620_g33904471835419_cont_8to1_b_799_54_alg».proof.Proof.ScatStep
import Idealize.ShloMosaic.Lib.ValueLayout

noncomputable section

namespace Cert.KI.Bridge

open Cert.KernelIdeal Cert.KernelIdeal.Gen Cert.KI.Scat
open Idealize.ShloMosaic Idealize.ShloMosaic.ValueIdx
open scoped BigOperators

/-! ## Accumulation, abstractly -/

section Abstract
variable {I M : Type} [AddCommMonoid M]

/-- A sequence of arrays in which step n adds `δ n` elementwise holds, after n steps, its start plus the sum of the
    first n increments. -/
theorem rec_add_apply (f : ℕ → I → M) (δ : ℕ → I → M) (N : ℕ)
    (hf : ∀ n, n < N → ∀ i, f (n + 1) i = f n i + δ n i) :
    ∀ n, n ≤ N → ∀ i, f n i = f 0 i + ∑ k ∈ Finset.range n, δ k i
  | 0, _, i => by rw [Finset.range_zero, Finset.sum_empty, add_zero]
  | n + 1, h, i => by
    rw [hf n (by omega) i, rec_add_apply f δ N hf n (by omega) i, Finset.sum_range_succ, add_assoc]

/-- The same for a left fold over a list of steps. -/
theorem foldl_add_apply {ι : Type} (step : ι → (I → M) → (I → M)) (δ : ι → I → M)
    (hstep : ∀ e a i, step e a i = a i + δ e i) :
    ∀ (l : List ι) (a0 : I → M) (i : I), (l.foldl (fun a e => step e a) a0) i = a0 i + (l.map fun e => δ e i).sum
  | [], a0, i => by rw [List.foldl_nil, List.map_nil, List.sum_nil, add_zero]
  | e :: l, a0, i => by
    rw [List.foldl_cons, foldl_add_apply step δ hstep l _ i, hstep, List.map_cons, List.sum_cons, add_assoc]

/-- A sum over P blocks of K consecutive numbers each is the sum over the first P · K numbers. -/
theorem sum_range_blocks (g : ℕ → M) (K : ℕ) :
    ∀ P : ℕ, ∑ p ∈ Finset.range P, ∑ k ∈ Finset.range K, g (K * p + k) = ∑ e ∈ Finset.range (K * P), g e
  | 0 => by rw [Finset.range_zero, Finset.sum_empty, Nat.mul_zero, Finset.range_zero, Finset.sum_empty]
  | P + 1 => by
    rw [Finset.sum_range_succ, sum_range_blocks g K P, Nat.mul_succ, Finset.sum_range_add]

end Abstract

/-! ## The accumulators read at an element -/

/-- THE SUMS. A sequence of 1250 × 8 × 128 arrays of extended reals that starts at zeros and in which step e adds
    `row e q` at (b, s, q) exactly when word e, read signed, is 8·b + s, holds after all E steps, at (b, s, q), the
    sum of `row e q` over the edges whose word is 8·b + s. -/
theorem sums_apply {E : ℕ} (w : Fin E → BitVec 32) (row : Fin E → Fin 128 → EReal)
    (f : ℕ → (⟨3, ![1250, 8, 128]⟩ : Shape).Idx → EReal)
    (h0 : ∀ i, f 0 i = 0)
    (hstep : ∀ (e : Fin E) (b : Fin 1250) (s : Fin 8) (q : Fin 128),
      f (e.val + 1) (ix3 b s q) = f e.val (ix3 b s q) + (if (w e).toInt = (8 * b.val + s.val : ℤ) then row e q else 0))
    (b : Fin 1250) (s : Fin 8) (q : Fin 128) :
    f E (ix3 b s q) = ∑ e : Fin E, if (w e).toInt = (8 * b.val + s.val : ℤ) then row e q else 0 := by
  let δ : ℕ → (⟨3, ![1250, 8, 128]⟩ : Shape).Idx → EReal := fun n i =>
    if h : n < E then (if (w ⟨n, h⟩).toInt = (8 * (i 0).val + (i 1).val : ℤ) then row ⟨n, h⟩ (i 2) else 0) else 0
  have hf : ∀ n, n < E → ∀ i, f (n + 1) i = f n i + δ n i := fun n hn i => by
    rw [eq_ix3 i]
    show f (n + 1) (ix3 (i 0) (i 1) (i 2)) = f n (ix3 (i 0) (i 1) (i 2)) + dite _ _ _
    rw [dif_pos hn]
    exact hstep ⟨n, hn⟩ (i 0) (i 1) (i 2)
  rw [rec_add_apply f δ E hf E (Nat.le_refl _) (ix3 b s q), h0, zero_add, Finset.sum_fin_eq_sum_range]

/-- THE COUNTS. The same with every edge contributing a one. -/
theorem counts_apply {E : ℕ} (w : Fin E → BitVec 32)
    (f : ℕ → (⟨3, ![1250, 8, 128]⟩ : Shape).Idx → EReal)
    (h0 : ∀ i, f 0 i = 0)
    (hstep : ∀ (e : Fin E) (b : Fin 1250) (s : Fin 8) (q : Fin 128),
      f (e.val + 1) (ix3 b s q) = f e.val (ix3 b s q) + (if (w e).toInt = (8 * b.val + s.val : ℤ) then 1 else 0))
    (b : Fin 1250) (s : Fin 8) (q : Fin 128) :
    f E (ix3 b s q) = ∑ e : Fin E, if (w e).toInt = (8 * b.val + s.val : ℤ) then (1 : EReal) else 0 :=
  sums_apply w (fun _ _ => 1) f h0 hstep b s q

/-! ## One edge's update read at an element -/

/-- The sublane word the kernel computes from a destination word: the word minus eight times its block number. -/
def subOf (w : BitVec 32) : BitVec 32 := Scalar.subi w (Scalar.muli (BitVec.ofNat 32 (k1_off1 w 0)) 8#32)

/-- At each of the ten thousand node numbers the block number is the quotient by eight … -/
theorem off0_table : ∀ n : Fin 10000, k1_off1 (BitVec.ofNat 32 n.val) 0 = n.val / 8 := by decide +kernel

/-- … and the sublane word the remainder, by evaluation. -/
theorem sub_table : ∀ n : Fin 10000, subOf (BitVec.ofNat 32 n.val) = BitVec.ofNat 32 (n.val % 8) := by decide +kernel

/-- A word in [0, 9999] is the word of a node number, and reads signed as that number. -/
theorem word_eq (w : BitVec 32) (h : 0 ≤ w.toInt ∧ w.toInt ≤ 9999) :
    ∃ n : Fin 10000, w = BitVec.ofNat 32 n.val ∧ w.toInt = (n.val : ℤ) := by
  have hc := BitVec.toInt_eq_toNat_cond w
  have hn : w.toNat < 10000 := by split at hc <;> omega
  refine ⟨⟨w.toNat, hn⟩, ?_, ?_⟩
  · show w = BitVec.ofNat 32 w.toNat
    rw [BitVec.ofNat_toNat, BitVec.setWidth_eq]
  · show w.toInt = (w.toNat : ℤ)
    split at hc <;> omega

/-- The indicator payload is the indicator of the sublane word. -/
theorem pay4_eq {F : FTy → Type} [FloatOps F] (w : BitVec 32) :
    k1_pay4 (F := F) w
      = sitofp .f32 (extui 32 (cmpi .eq (iota .tc S8x128 32 [0] iota_S8x128_d0_w32) (broadcast S8x128 (subOf w))) natLt_1_32) := by
  have hv : ∀ x : BitVec 32, BitVec.ofNat 32 (Scalar.indexCast x).toNat = x := fun x => by
    unfold Scalar.indexCast; rw [BitVec.ofNat_toNat, BitVec.setWidth_eq]
  unfold subOf
  have h : BitVec.ofNat 32 (k1_off1 w 0) = _ := hv _
  rw [h]
  rfl

/-- Small numbers are told apart by their 32-bit words. -/
theorem ofNat_eq_iff {x y : ℕ} (hx : x < 2 ^ 32) (hy : y < 2 ^ 32) : BitVec.ofNat 32 x = BitVec.ofNat 32 y ↔ x = y := by
  constructor
  · intro h
    have := congrArg BitVec.toNat h
    rw [BitVec.toNat_ofNat, BitVec.toNat_ofNat, Nat.mod_eq_of_lt hx, Nat.mod_eq_of_lt hy] at this
    exact this
  · intro h; rw [h]

/-- The indicator at sublane s of the node numbered n: one on the sublane n mod 8, zero elsewhere. -/
theorem pay4_apply (n : Fin 10000) (s : Fin 8) (q : Fin 128) :
    k1_pay4 (F := Ideal) (BitVec.ofNat 32 n.val) (ix2 s q) = if s.val = n.val % 8 then (1 : EReal) else 0 := by
  rw [pay4_eq, sub_table]
  show ((((IntOp.cmpi .eq (iota .tc S8x128 32 [0] iota_S8x128_d0_w32 (ix2 s q)) (BitVec.ofNat 32 (n.val % 8))).setWidth 32).toInt : ℝ) : EReal) = _
  rw [iota_single_apply]
  show ((((IntOp.cmpi .eq (BitVec.ofNat 32 s.val) (BitVec.ofNat 32 (n.val % 8))).setWidth 32).toInt : ℝ) : EReal) = _
  by_cases h : s.val = n.val % 8
  · rw [if_pos h, h]
    have : IntOp.cmpi .eq (BitVec.ofNat 32 (n.val % 8)) (BitVec.ofNat 32 (n.val % 8)) = 1#1 := IntOp.cmpi_eq.mpr rfl
    rw [this]
    have h1 : ((1#1 : BitVec 1).setWidth 32).toInt = 1 := by decide
    rw [h1]; simp
  · rw [if_neg h]
    have hne : ¬ BitVec.ofNat 32 s.val = BitVec.ofNat 32 (n.val % 8) := fun he =>
      h ((ofNat_eq_iff (by have := s.isLt; omega) (by omega)).mp he)
    have : IntOp.cmpi .eq (BitVec.ofNat 32 s.val) (BitVec.ofNat 32 (n.val % 8)) = 0#1 :=
      eq_zero_of_ne_one fun h1 => hne (IntOp.cmpi_eq.mp h1)
    rw [this]
    have h0 : ((0#1 : BitVec 1).setWidth 32).toInt = 0 := by decide
    rw [h0]; simp

/-- The sums' new block at (0, s, q): the old block's element plus the indicator times the row's element. -/
theorem pay5_apply (w : BitVec 32) (row : Vec Ideal S1x128 .f32) (blk : Vec Ideal S1x8x128 .f32) (s : Fin 8) (q : Fin 128) :
    k1_pay5 w row blk (ix3 (0 : Fin 1) s q)
      = blk (ix3 (0 : Fin 1) s q) + k1_pay4 (F := Ideal) w (ix2 s q) * row (ix2 (0 : Fin 1) q) := by
  unfold k1_pay5
  show shapeCast S1x8x128 blk _ (ix3 (0 : Fin 1) s q)
      + shapeCast S1x8x128 (mulf (k1_pay4 (F := Ideal) w) (broadcastTo S8x128 (shapeCast S1x128 row _) _)) _ (ix3 (0 : Fin 1) s q) = _
  rw [shapeCast_self, shapeCast_ab_1ab_apply, shapeCast_self]
  show blk (ix3 (0 : Fin 1) s q) + k1_pay4 (F := Ideal) w (ix2 s q) * broadcastTo S8x128 row _ (ix2 s q) = _
  rw [broadcastTo_apply _ _ _ (ix2 (0 : Fin 1) q) (fun a => by
    match a with
    | ⟨0, _⟩ => rfl
    | ⟨1, _⟩ => rfl)]

/-- The counts' new block at (0, s, q): the old block's element plus the indicator. -/
theorem pay6_apply (ind : FVec Ideal S8x128 .f32) (blk : Vec Ideal S1x8x128 .f32) (s : Fin 8) (q : Fin 128) :
    k1_pay6 ind blk (ix3 (0 : Fin 1) s q) = blk (ix3 (0 : Fin 1) s q) + ind (ix2 s q) := by
  unfold k1_pay6
  show shapeCast S1x8x128 blk _ (ix3 (0 : Fin 1) s q) + shapeCast S1x8x128 ind _ (ix3 (0 : Fin 1) s q) = _
  rw [shapeCast_self, shapeCast_ab_1ab_apply]

/-- One edge on the sums, read at (b, s, q): the element as it was, plus the row's element q if the edge's word names
    node 8·b + s. -/
theorem stepAgg_apply (w : BitVec 32) (hw : 0 ≤ w.toInt ∧ w.toInt ≤ 9999) (row : Vec Ideal S1x128 .f32)
    (a : Vec Ideal S1250x8x128 .f32) (b : Fin 1250) (s : Fin 8) (q : Fin 128) :
    stepAgg w row a (ix3 b s q)
      = a (ix3 b s q) + (if w.toInt = (8 * b.val + s.val : ℤ) then row (ix2 (0 : Fin 1) q) else 0) := by
  obtain ⟨n, rfl, hn⟩ := word_eq w hw
  have hc : k1_chk1 (BitVec.ofNat 32 n.val) := chk_of_range _ hw.1 hw.2
  unfold stepAgg
  rw [dif_pos hc, hn]
  have hoff : k1_off1 (BitVec.ofNat 32 n.val) 0 = n.val / 8 := off0_table n
  by_cases hb : b.val = n.val / 8
  · have he : (rBlk (BitVec.ofNat 32 n.val) hc).emb (ix3 (0 : Fin 1) s q) = ix3 b s q := by
      funext ax
      refine Fin.ext ?_
      rw [Rect.emb_apply]
      match ax with
      | ⟨0, _⟩ =>
        show k1_off1 (BitVec.ofNat 32 n.val) 0 + 1 * 0 = b.val
        rw [hoff, hb]
        omega
      | ⟨1, _⟩ =>
        show 0 + 1 * s.val = s.val
        omega
      | ⟨2, _⟩ =>
        show 0 + 1 * q.val = q.val
        omega
    rw [← he, Rect.overlay_emb, pay5_apply, pay4_apply]
    show a ((rBlk (BitVec.ofNat 32 n.val) hc).emb (ix3 (0 : Fin 1) s q)) + _ = _
    congr 1
    by_cases hs : s.val = n.val % 8
    · rw [if_pos hs, if_pos (by omega), one_mul]
    · rw [if_neg hs, if_neg (by omega), zero_mul]
  · have hnm : ix3 b s q ∉ (rBlk (BitVec.ofNat 32 n.val) hc).set := fun h => by
      have h0 := (Rect.mem_set_unit.mp h) 0
      have h0' : n.val / 8 ≤ b.val ∧ b.val < n.val / 8 + 1 := by rw [← hoff]; exact h0
      omega
    rw [Rect.overlay_of_not_mem _ _ _ hnm, if_neg (by omega), add_zero]

/-- One edge on the counts, read at (b, s, q): the element as it was, plus one if the edge's word names node 8·b + s. -/
theorem stepDeg_apply (w : BitVec 32) (hw : 0 ≤ w.toInt ∧ w.toInt ≤ 9999)
    (a : Vec Ideal S1250x8x128 .f32) (b : Fin 1250) (s : Fin 8) (q : Fin 128) :
    stepDeg w a (ix3 b s q) = a (ix3 b s q) + (if w.toInt = (8 * b.val + s.val : ℤ) then (1 : EReal) else 0) := by
  obtain ⟨n, rfl, hn⟩ := word_eq w hw
  have hc : k1_chk1 (BitVec.ofNat 32 n.val) := chk_of_range _ hw.1 hw.2
  unfold stepDeg
  rw [dif_pos hc, hn]
  have hoff : k1_off1 (BitVec.ofNat 32 n.val) 0 = n.val / 8 := off0_table n
  by_cases hb : b.val = n.val / 8
  · have he : (rBlk (BitVec.ofNat 32 n.val) hc).emb (ix3 (0 : Fin 1) s q) = ix3 b s q := by
      funext ax
      refine Fin.ext ?_
      rw [Rect.emb_apply]
      match ax with
      | ⟨0, _⟩ =>
        show k1_off1 (BitVec.ofNat 32 n.val) 0 + 1 * 0 = b.val
        rw [hoff, hb]
        omega
      | ⟨1, _⟩ =>
        show 0 + 1 * s.val = s.val
        omega
      | ⟨2, _⟩ =>
        show 0 + 1 * q.val = q.val
        omega
    rw [← he, Rect.overlay_emb, pay6_apply, pay4_apply]
    show a ((rBlk (BitVec.ofNat 32 n.val) hc).emb (ix3 (0 : Fin 1) s q)) + _ = _
    congr 1
    by_cases hs : s.val = n.val % 8
    · rw [if_pos hs, if_pos (by omega)]
    · rw [if_neg hs, if_neg (by omega)]
  · have hnm : ix3 b s q ∉ (rBlk (BitVec.ofNat 32 n.val) hc).set := fun h => by
      have h0 := (Rect.mem_set_unit.mp h) 0
      have h0' : n.val / 8 ≤ b.val ∧ b.val < n.val / 8 + 1 := by rw [← hoff]; exact h0
      omega
    rw [Rect.overlay_of_not_mem _ _ _ hnm, if_neg (by omega), add_zero]

/-! ## A grid point's 128 edges, and all 2500 points -/

/-- The first n edges of a point on the sums, read at (b, s, q). -/
theorem aggUpTo_apply (x1 : S1x1x128.Idx → Elt Ideal .i32) (x2 : Vec Ideal S128x128 .f32) (a : Vec Ideal S1250x8x128 .f32)
    (hr : ∀ y, 0 ≤ (x1 y).toInt ∧ (x1 y).toInt ≤ 9999) (b : Fin 1250) (s : Fin 8) (q : Fin 128) :
    ∀ (n : ℕ) (h : n ≤ 128), aggUpTo x1 x2 a n h (ix3 b s q)
      = a (ix3 b s q) + ∑ k : Fin n, if (wordOf (F := Ideal) x1 k.val (by omega)).toInt = (8 * b.val + s.val : ℤ)
          then rowOf x2 k.val (by omega) (ix2 (0 : Fin 1) q) else 0
  | 0, _ => by rw [Finset.univ_eq_empty, Finset.sum_empty, add_zero]; rfl
  | n + 1, h => by
    show stepAgg _ _ (aggUpTo x1 x2 a n _) (ix3 b s q) = _
    have hwk : 0 ≤ (wordOf (F := Ideal) x1 n (by omega)).toInt ∧ (wordOf (F := Ideal) x1 n (by omega)).toInt ≤ 9999 := hr _
    rw [stepAgg_apply _ hwk, aggUpTo_apply x1 x2 a hr b s q n (by omega), Fin.sum_univ_castSucc, add_assoc]
    rfl

/-- The first n edges of a point on the counts, read at (b, s, q). -/
theorem degUpTo_apply (x1 : S1x1x128.Idx → Elt Ideal .i32) (a : Vec Ideal S1250x8x128 .f32)
    (hr : ∀ y, 0 ≤ (x1 y).toInt ∧ (x1 y).toInt ≤ 9999) (b : Fin 1250) (s : Fin 8) (q : Fin 128) :
    ∀ (n : ℕ) (h : n ≤ 128), degUpTo x1 a n h (ix3 b s q)
      = a (ix3 b s q) + ∑ k : Fin n, if (wordOf (F := Ideal) x1 k.val (by omega)).toInt = (8 * b.val + s.val : ℤ)
          then (1 : EReal) else 0
  | 0, _ => by rw [Finset.univ_eq_empty, Finset.sum_empty, add_zero]; rfl
  | n + 1, h => by
    show stepDeg _ (degUpTo x1 a n _) (ix3 b s q) = _
    have hwk : 0 ≤ (wordOf (F := Ideal) x1 n (by omega)).toInt ∧ (wordOf (F := Ideal) x1 n (by omega)).toInt ≤ 9999 := hr _
    rw [stepDeg_apply _ hwk, degUpTo_apply x1 a hr b s q n (by omega), Fin.sum_univ_castSucc, add_assoc]
    rfl

/-- A grid point's update of the sums, read at (b, s, q). -/
theorem chunkAgg_apply (x1 : S1x1x128.Idx → Elt Ideal .i32) (x2 : Vec Ideal S128x128 .f32) (a : Vec Ideal S1250x8x128 .f32)
    (hr : ∀ y, 0 ≤ (x1 y).toInt ∧ (x1 y).toInt ≤ 9999) (b : Fin 1250) (s : Fin 8) (q : Fin 128) :
    chunkAgg x1 x2 a (ix3 b s q)
      = a (ix3 b s q) + ∑ k : Fin 128, if (wordOf (F := Ideal) x1 k.val k.isLt).toInt = (8 * b.val + s.val : ℤ)
          then rowOf x2 k.val k.isLt (ix2 (0 : Fin 1) q) else 0 :=
  aggUpTo_apply x1 x2 a hr b s q 128 (Nat.le_refl _)

/-- A grid point's update of the counts, read at (b, s, q). -/
theorem chunkDeg_apply (x1 : S1x1x128.Idx → Elt Ideal .i32) (a : Vec Ideal S1250x8x128 .f32)
    (hr : ∀ y, 0 ≤ (x1 y).toInt ∧ (x1 y).toInt ≤ 9999) (b : Fin 1250) (s : Fin 8) (q : Fin 128) :
    chunkDeg x1 a (ix3 b s q)
      = a (ix3 b s q) + ∑ k : Fin 128, if (wordOf (F := Ideal) x1 k.val k.isLt).toInt = (8 * b.val + s.val : ℤ)
          then (1 : EReal) else 0 :=
  degUpTo_apply x1 a hr b s q 128 (Nat.le_refl _)

/-- The array of zeros reads zero. -/
theorem zeros_apply (i : S1250x8x128.Idx) : Cert.KI.Scat.zeros (F := Ideal) i = 0 := Ideal.ofBits_zero_f32

/-! ## All the points -/

/-- THE SUMS AFTER THE REGION, over any family of per-point blocks. `A n` is the sums after points 0 … n: point 0 runs
    over zeros, point n + 1 over `A n`. If edge k of point t has word `W (128·t + k)` and row `R (128·t + k)`, then after
    the last point the element (b, s, q) is the sum of `R e q` over the edges whose word names node 8·b + s. -/
theorem region_agg_apply (X1 : Fin 2500 → S1x1x128.Idx → Elt Ideal .i32) (X2 : Fin 2500 → Vec Ideal S128x128 .f32)
    (A : (n : ℕ) → n < 2500 → Vec Ideal S1250x8x128 .f32)
    (hA0 : A 0 (by omega) = chunkAgg (X1 ⟨0, by omega⟩) (X2 ⟨0, by omega⟩) Cert.KI.Scat.zeros)
    (hAs : ∀ (n : ℕ) (h : n + 1 < 2500), A (n + 1) h = chunkAgg (X1 ⟨n + 1, h⟩) (X2 ⟨n + 1, h⟩) (A n (by omega)))
    (hr : ∀ t y, 0 ≤ (X1 t y).toInt ∧ (X1 t y).toInt ≤ 9999)
    (W : Fin 320000 → BitVec 32) (R : Fin 320000 → Fin 128 → EReal)
    (hW : ∀ (t : Fin 2500) (k : Fin 128), wordOf (F := Ideal) (X1 t) k.val k.isLt = W ⟨128 * t.val + k.val, by omega⟩)
    (hR : ∀ (t : Fin 2500) (k : Fin 128) (q : Fin 128),
      rowOf (X2 t) k.val k.isLt (ix2 (0 : Fin 1) q) = R ⟨128 * t.val + k.val, by omega⟩ q)
    (b : Fin 1250) (s : Fin 8) (q : Fin 128) :
    A 2499 (by omega) (ix3 b s q)
      = ∑ e : Fin 320000, if (W e).toInt = ((8 * b.val + s.val : ℕ) : ℤ) then R e q else 0 := by
  let g : ℕ → EReal := fun e =>
    if h : e < 320000 then (if (W ⟨e, h⟩).toInt = ((8 * b.val + s.val : ℕ) : ℤ) then R ⟨e, h⟩ q else 0) else 0
  have hchunk : ∀ (t : Fin 2500) (a : Vec Ideal S1250x8x128 .f32),
      chunkAgg (X1 t) (X2 t) a (ix3 b s q) = a (ix3 b s q) + ∑ k ∈ Finset.range 128, g (128 * t.val + k) := fun t a => by
    rw [chunkAgg_apply _ _ _ (hr t), ← Fin.sum_univ_eq_sum_range (fun k => g (128 * t.val + k)) 128]
    congr 1
    refine Finset.sum_congr rfl fun k _ => ?_
    have hk : 128 * t.val + k.val < 320000 := by have := t.isLt; have := k.isLt; omega
    show _ = dite _ _ _
    rw [dif_pos hk, hW t k, hR t k q]
    push_cast
    rfl
  have hrec : ∀ (n : ℕ) (h : n < 2500),
      A n h (ix3 b s q) = ∑ t ∈ Finset.range (n + 1), ∑ k ∈ Finset.range 128, g (128 * t + k) := by
    intro n
    induction n with
    | zero =>
      intro h
      rw [hA0, hchunk ⟨0, by omega⟩, zeros_apply, zero_add, Finset.sum_range_one]
    | succ n ih =>
      intro h
      rw [hAs n h, hchunk ⟨n + 1, h⟩, ih (by omega), Finset.sum_range_succ _ (n + 1)]
  rw [hrec 2499 (by omega), sum_range_blocks g 128 2500, Finset.sum_fin_eq_sum_range]

/-- THE COUNTS AFTER THE REGION, likewise: every edge contributes a one. -/
theorem region_deg_apply (X1 : Fin 2500 → S1x1x128.Idx → Elt Ideal .i32)
    (A : (n : ℕ) → n < 2500 → Vec Ideal S1250x8x128 .f32)
    (hA0 : A 0 (by omega) = chunkDeg (X1 ⟨0, by omega⟩) Cert.KI.Scat.zeros)
    (hAs : ∀ (n : ℕ) (h : n + 1 < 2500), A (n + 1) h = chunkDeg (X1 ⟨n + 1, h⟩) (A n (by omega)))
    (hr : ∀ t y, 0 ≤ (X1 t y).toInt ∧ (X1 t y).toInt ≤ 9999)
    (W : Fin 320000 → BitVec 32)
    (hW : ∀ (t : Fin 2500) (k : Fin 128), wordOf (F := Ideal) (X1 t) k.val k.isLt = W ⟨128 * t.val + k.val, by omega⟩)
    (b : Fin 1250) (s : Fin 8) (q : Fin 128) :
    A 2499 (by omega) (ix3 b s q)
      = ∑ e : Fin 320000, if (W e).toInt = ((8 * b.val + s.val : ℕ) : ℤ) then (1 : EReal) else 0 := by
  let g : ℕ → EReal := fun e =>
    if h : e < 320000 then (if (W ⟨e, h⟩).toInt = ((8 * b.val + s.val : ℕ) : ℤ) then (1 : EReal) else 0) else 0
  have hchunk : ∀ (t : Fin 2500) (a : Vec Ideal S1250x8x128 .f32),
      chunkDeg (X1 t) a (ix3 b s q) = a (ix3 b s q) + ∑ k ∈ Finset.range 128, g (128 * t.val + k) := fun t a => by
    rw [chunkDeg_apply _ _ (hr t), ← Fin.sum_univ_eq_sum_range (fun k => g (128 * t.val + k)) 128]
    congr 1
    refine Finset.sum_congr rfl fun k _ => ?_
    have hk : 128 * t.val + k.val < 320000 := by have := t.isLt; have := k.isLt; omega
    show _ = dite _ _ _
    rw [dif_pos hk, hW t k]
    push_cast
    rfl
  have hrec : ∀ (n : ℕ) (h : n < 2500),
      A n h (ix3 b s q) = ∑ t ∈ Finset.range (n + 1), ∑ k ∈ Finset.range 128, g (128 * t + k) := by
    intro n
    induction n with
    | zero =>
      intro h
      rw [hA0, hchunk ⟨0, by omega⟩, zeros_apply, zero_add, Finset.sum_range_one]
    | succ n ih =>
      intro h
      rw [hAs n h, hchunk ⟨n + 1, h⟩, ih (by omega), Finset.sum_range_succ _ (n + 1)]
  rw [hrec 2499 (by omega), sum_range_blocks g 128 2500, Finset.sum_fin_eq_sum_range]

end Cert.KI.Bridge

end
-- ==== Proof.BridgeScatAt.lean ====
/-
  The scatter region's accumulators after the last grid point, read at an element, at the ideal instance: the sums
  at (b, s, k) are the sum, over all 320000 edges whose destination word names node 8·b + s, of the edge's message
  row at k; the counts the number of such edges. Edge e is edge e mod 128 of grid point e div 128.
-/
import proofs.«202620_g33904471835419_cont_8to1_b_799_54_alg».proof.Proof.BridgeScat
import proofs.«202620_g33904471835419_cont_8to1_b_799_54_alg».proof.Proof.ScatData

set_option maxRecDepth 16384

noncomputable section

namespace Cert.KI.Bridge

open Cert.KernelIdeal Cert.KernelIdeal.Gen Cert.KI.Scat
open Idealize.ShloMosaic Idealize.ShloMosaic.TcCoe Idealize.ShloMosaic.ValueIdx Idealize.SL.Sem
open scoped BigOperators

-- the TensorCore's buffer contents when the region is entered
variable (V : (c : Dev nD) → (b : Ref sig .tc) → Buf (Elt Ideal) ((c : Thread nD τ).loc b))

/-! ## The point's blocks read off the arrays -/

/-- The two input windows' block indices, decided over the 2500 points: both move with the point on their first axis. -/
theorem idx1_in : ∀ t : Fin cfg1.N,
    (win1_0.index t (0 : Fin 3) = t.val ∧ win1_0.index t (1 : Fin 3) = 0 ∧ win1_0.index t (2 : Fin 3) = 0)
    ∧ (win1_1.index t (0 : Fin 2) = t.val ∧ win1_1.index t (1 : Fin 2) = 0) :=
  (by decide +kernel : ∀ t : Fin grid1.N,
    (win1_0.index t (0 : Fin 3) = t.val ∧ win1_0.index t (1 : Fin 3) = 0 ∧ win1_0.index t (2 : Fin 3) = 0)
    ∧ (win1_1.index t (0 : Fin 2) = t.val ∧ win1_1.index t (1 : Fin 2) = 0))

/-- The number of grid points. -/
theorem N1_eq : cfg1.N = 2500 := by decide

/-- Word j of the point's block of destination words is the words array at (t, 0, j). -/
theorem iblk1_0_apply (c : Dev nD) (t : Fin cfg1.N) (j : Fin 128) :
    iblk1 V c 0 t (ix3 (0 : Fin 1) (0 : Fin 1) j)
      = V c main_v5 (ix3 (⟨t.val, N1_eq ▸ t.isLt⟩ : Fin 2500) (0 : Fin 1) j) := by
  obtain ⟨⟨e0a, e0b, e0c⟩, ⟨e1a, e1b⟩⟩ := idx1_in t
  show V c main_v5 (((cfg1.win 0).blk t).view.emb (ix3 (0 : Fin 1) (0 : Fin 1) j)) = V c main_v5 (ix3 _ (0 : Fin 1) j)
  congr 1; funext a; apply Fin.ext
  match a with
  | ⟨0, _⟩ => show win1_0.index t (0 : Fin 3) * 1 + 1 * 0 = t.val; rw [e0a]; omega
  | ⟨1, _⟩ => show win1_0.index t (1 : Fin 3) * 1 + 1 * 0 = 0; rw [e0b]
  | ⟨2, _⟩ => show win1_0.index t (2 : Fin 3) * 128 + 1 * j.val = j.val; rw [e0c]; omega

/-- Row j of the point's block of message rows is the messages array at row 128·t + j. -/
theorem iblk1_1_apply (c : Dev nD) (t : Fin cfg1.N) (j : Fin 128) (q : Fin 128) (r : Fin 320000)
    (hr : r.val = 128 * t.val + j.val) : iblk1 V c 1 t (ix2 j q) = V c main_v2 (ix2 r q) := by
  obtain ⟨⟨e0a, e0b, e0c⟩, ⟨e1a, e1b⟩⟩ := idx1_in t
  show V c main_v2 (((cfg1.win 1).blk t).view.emb (ix2 j q)) = V c main_v2 (ix2 r q)
  congr 1; funext a; apply Fin.ext
  match a with
  | ⟨0, _⟩ => show win1_1.index t (0 : Fin 2) * 128 + 1 * j.val = r.val; rw [e1a, hr]; omega
  | ⟨1, _⟩ => show win1_1.index t (1 : Fin 2) * 128 + 1 * q.val = q.val; rw [e1b]; omega

/-- An edge's word is its block's entry (0, 0, k). -/
theorem wordOf_eq (x1 : S1x1x128.Idx → Elt Ideal .i32) (k : ℕ) (hk : k < 128) :
    wordOf (F := Ideal) x1 k hk = x1 (ix3 (0 : Fin 1) (0 : Fin 1) (⟨k, hk⟩ : Fin 128)) := by
  unfold wordOf
  show x1 _ = x1 _
  congr 1; funext a; apply Fin.ext
  match a with
  | ⟨0, _⟩ => rfl
  | ⟨1, _⟩ => rfl
  | ⟨2, _⟩ => rfl

/-- An edge's row at q is its block's entry (k, q). -/
theorem rowOf_eq (x2 : Vec Ideal S128x128 .f32) (k : ℕ) (hk : k < 128) (q : Fin 128) :
    rowOf x2 k hk (ix2 (0 : Fin 1) q) = x2 (ix2 (⟨k, hk⟩ : Fin 128) q) := by
  unfold rowOf
  show x2 _ = x2 _
  congr 1; funext a; apply Fin.ext
  match a with
  | ⟨0, _⟩ => rfl
  | ⟨1, _⟩ => show 0 + 1 * q.val = q.val; omega

/-! ## The accumulators after the last point -/

/-- A point number below 2500 is a grid point. -/
theorem lt_N1 {n : ℕ} (h : n < 2500) : n < cfg1.N := by rw [N1_eq]; exact h

/-- THE SUMS after the region at (b, s, k): the sum, over the edges whose destination word names node 8·b + s, of the
    edge's message row at k. Edge e is edge e mod 128 of point e div 128. -/
theorem aggAt_apply (c : Dev nD) (hr : ∀ i, 0 ≤ (V c main_v5 i).toInt ∧ (V c main_v5 i).toInt ≤ 9999)
    (b : Fin 1250) (s : Fin 8) (k : Fin 128) :
    (aggAt V c 2499 (lt_N1 (by decide)) (ix3 b s k) : Ideal .f32)
      = ∑ e : Fin 320000,
          ((if (V c main_v5 (ix3 (⟨e.val / 128, by have := e.isLt; omega⟩ : Fin 2500) (0 : Fin 1)
                  (⟨e.val % 128, Nat.mod_lt _ (by decide)⟩ : Fin 128))).toInt = (8 * b.val + s.val : ℤ)
            then V c main_v2 (ix2 e k) else 0 : Ideal .f32)) := by
  have h := region_agg_apply
    (fun t : Fin 2500 => iblk1 V c 0 ⟨t.val, lt_N1 t.isLt⟩) (fun t : Fin 2500 => iblk1 V c 1 ⟨t.val, lt_N1 t.isLt⟩)
    (fun n h => aggAt V c n (lt_N1 h)) rfl (fun n h => rfl)
    (fun t y => hr _)
    (fun e => V c main_v5 (ix3 (⟨e.val / 128, by have := e.isLt; omega⟩ : Fin 2500) (0 : Fin 1)
      (⟨e.val % 128, Nat.mod_lt _ (by decide)⟩ : Fin 128)))
    (fun e q => V c main_v2 (ix2 e q))
    (fun t j => by
      rw [wordOf_eq, iblk1_0_apply]
      congr 2
      · exact Fin.ext (by show t.val = (128 * t.val + j.val) / 128; have := j.isLt; omega)
      · exact Fin.ext (by show j.val = (128 * t.val + j.val) % 128; have := j.isLt; omega))
    (fun t j q => by
      rw [rowOf_eq]
      exact iblk1_1_apply V c _ j q _ rfl)
    b s k
  rw [h]
  refine Finset.sum_congr rfl fun e _ => ?_
  push_cast
  rfl

/-- THE COUNTS after the region at (b, s, k): the number of edges whose destination word names node 8·b + s. -/
theorem degAt_apply (c : Dev nD) (hr : ∀ i, 0 ≤ (V c main_v5 i).toInt ∧ (V c main_v5 i).toInt ≤ 9999)
    (b : Fin 1250) (s : Fin 8) (k : Fin 128) :
    (degAt V c 2499 (lt_N1 (by decide)) (ix3 b s k) : Ideal .f32)
      = ∑ e : Fin 320000,
          ((if (V c main_v5 (ix3 (⟨e.val / 128, by have := e.isLt; omega⟩ : Fin 2500) (0 : Fin 1)
                  (⟨e.val % 128, Nat.mod_lt _ (by decide)⟩ : Fin 128))).toInt = (8 * b.val + s.val : ℤ)
            then (1 : Ideal .f32) else 0 : Ideal .f32)) := by
  have h := region_deg_apply
    (fun t : Fin 2500 => iblk1 V c 0 ⟨t.val, lt_N1 t.isLt⟩)
    (fun n h => degAt V c n (lt_N1 h)) rfl (fun n h => rfl)
    (fun t y => hr _)
    (fun e => V c main_v5 (ix3 (⟨e.val / 128, by have := e.isLt; omega⟩ : Fin 2500) (0 : Fin 1)
      (⟨e.val % 128, Nat.mod_lt _ (by decide)⟩ : Fin 128)))
    (fun t j => by
      rw [wordOf_eq, iblk1_0_apply]
      congr 2
      · exact Fin.ext (by show t.val = (128 * t.val + j.val) / 128; have := j.isLt; omega)
      · exact Fin.ext (by show j.val = (128 * t.val + j.val) % 128; have := j.isLt; omega))
    b s k
  rw [h]
  refine Finset.sum_congr rfl fun e _ => ?_
  push_cast
  rfl

end Cert.KI.Bridge

end
-- ==== Proof.TopScatSum.lean ====
import proofs.«202620_g33904471835419_cont_8to1_b_799_54_alg».proof.Proof.TopScatJoin
import proofs.«202620_g33904471835419_cont_8to1_b_799_54_alg».proof.Proof.ScatFinal
import proofs.«202620_g33904471835419_cont_8to1_b_799_54_alg».proof.Proof.BridgeScatAt

/-!
# The scatter region's arrays as sums over the edges

After its 2500 points the scatter region's two output arrays are what the last point's body leaves; read at block
`b`, row `s`, column `k`, that is the sum over the edges whose destination word names node `8 b + s` of the edge's
gathered row at `k` (for the second array: the count of those edges). The destination words are in range because
the edge table is. With the join of the two regions this gives the value: the result buffer at the return is the
reference's result of the launch arguments.
-/

noncomputable section

namespace Cert.KI.Top

open Cert.KernelIdeal Cert.KernelIdeal.Gen Cert.KI.Sc
open Idealize.ShloMosaic Idealize.ShloMosaic.TcCoe Idealize.ShloMosaic.ValueIdx
open Idealize.ShloMosaic.SparseCore.Cfg (HIx Pay)
open Idealize.SL Idealize.SL.RA Idealize.SL.Sem
open Cert.KI.Scat (dat1 aggAt degAt)
open scoped BigOperators

section ScatSum
variable (m : (ℓ : Loc nD τ sig) → Buf (Elt Ideal) ℓ) (Sc : Scat (F := Ideal)) (d : Dev nD)

open Cert.KI.Scat (final1_agg final1_deg)

/-- THE FIRST ARRAY AS SUMS: for any scatter interface whose data are the scatter region's, with the edge table in
    range. The array after the region is what the last point leaves; the destination words are in range because
    the edge table is; the last point's contents read at an element are the sum over the edges. -/
theorem hfa_of
    (hdat : ∀ V c B, Sc.dat V c B = dat1 (Ix := HIx 1) (Name := ℕ) (U := UU) (Lvl := ℕ) V c B)
    (hrange : ∀ j, 0 ≤ ((m (d, Proc.devRef .tc main_arg1)) j).toInt ∧ ((m (d, Proc.devRef .tc main_arg1)) j).toInt ≤ 9999) :
    ∀ (b : Fin 1250) (s : Fin 8) (k : Fin 128), (W4 m Sc d (Proc.devRef .tc main_v6_0) (ix3 b s k) : Ideal .f32)
      = ∑ e : Fin 320000, ((if (dstWord m d e).toInt = (8 * b.val + s.val : ℤ) then W3 m d (Proc.devRef .tc main_v2) (ix2 e k) else 0 : Ideal .f32)) := by
  intro b s k
  have h1 := W4_arr m Sc d 2
  rw [hdat, final1_agg] at h1
  exact (congrFun h1 (ix3 b s k)).trans (Cert.KI.Bridge.aggAt_apply (V3 m) d (hDST_of_range m d hrange) b s k)

/-- THE SECOND ARRAY AS COUNTS, likewise. -/
theorem hfd_of
    (hdat : ∀ V c B, Sc.dat V c B = dat1 (Ix := HIx 1) (Name := ℕ) (U := UU) (Lvl := ℕ) V c B)
    (hrange : ∀ j, 0 ≤ ((m (d, Proc.devRef .tc main_arg1)) j).toInt ∧ ((m (d, Proc.devRef .tc main_arg1)) j).toInt ≤ 9999) :
    ∀ (b : Fin 1250) (s : Fin 8) (k : Fin 128), (W4 m Sc d (Proc.devRef .tc main_v6_1) (ix3 b s k) : Ideal .f32)
      = ∑ e : Fin 320000, if (dstWord m d e).toInt = (8 * b.val + s.val : ℤ) then (1 : Ideal .f32) else 0 := by
  intro b s k
  have h1 := W4_arr m Sc d 3
  rw [hdat, final1_deg] at h1
  exact (congrFun h1 (ix3 b s k)).trans (Cert.KI.Bridge.degAt_apply (V3 m) d (hDST_of_range m d hrange) b s k)

/-- THE VALUE: for any scatter interface whose data are the scatter region's, with the edge table in range, the
    result buffer at the return is the reference's result of the launch arguments. -/
theorem value_scat
    (hdat : ∀ V c B, Sc.dat V c B = dat1 (Ix := HIx 1) (Name := ℕ) (U := UU) (Lvl := ℕ) V c B)
    (hrange : ∀ j, 0 ≤ ((m (d, Proc.devRef .tc main_arg1)) j).toInt ∧ ((m (d, Proc.devRef .tc main_arg1)) j).toInt ≤ 9999) :
    W7 m Sc d (Proc.devRef .tc main_v16)
      = Cert.ReferenceIdeal.RefRun.out (F := Ideal) (m (d, Proc.devRef .tc main_arg0)) (m (d, Proc.devRef .tc main_arg1)) (m (d, Proc.devRef .tc main_arg2)) (m (d, Proc.devRef .tc main_arg3))
          (m (d, Proc.devRef .tc main_arg4)) (m (d, Proc.devRef .tc main_arg5)) (m (d, Proc.devRef .tc main_arg6))
          (m (d, Proc.devRef .tc main_arg7)) (m (d, Proc.devRef .tc main_arg8)) (m (d, Proc.devRef .tc main_arg9)) :=
  value_of m Sc d hrange (hfa_of m Sc d hdat hrange) (hfd_of m Sc d hdat hrange)

end ScatSum

end Cert.KI.Top

end
-- ==== Proof.lean ====
/-
  The certificate of the three-kernel graph layer against its plain reference.

  The kernel: the message rows are gathered on the SparseCores (row src(e) of the node features for edge e, 32 vector
  subcores each taking every 32nd chunk of 128 edges); a first TensorCore region adds each message row into the sum of
  its destination node and counts the node's edges, 128 edges per grid point into arrays held in blocks of eight
  nodes, through a one-hot mask over the block's eight rows; a second region divides each node's sum by its count
  (at least one), applies the convolution's linear map with bias and the positive part, adds the node's own features,
  two leaky linear layers, a last linear layer to one column and the softplus, written max(z, 0) + log(1 + exp(-|z|));
  the host adds a small constant.

  The frames: under the precondition — finite floats, every edge word a node number — every weakly fair execution of
  the TensorCore's program beside the two sequencers and the thirty-two vector subcores terminates, nothing faulting,
  with the ten arguments as launched. The source words name rows of the features (the gather's copies find their
  rows), the destination words name nodes (each block of eight nodes addressed lies in the arrays). One proof at any
  float instance serves the program as printed and its idealization.

  The equality on the extended reals: a sum over the edges taken chunk by chunk, edge by edge, with the other seven
  rows of a block adding 0 · row = 0, is the sum over the edges of the node — addition of extended reals is
  commutative and associative, and 0 · r = 0 for every r, so no finiteness is used; the reference's gather in fill
  mode is the plain row gather where every index is in range; a matrix product accumulated into zero is the host's
  product; the reference's softplus, max(z, 0) + log(1 + exp(-|z - 0|)) behind a test z - 0 ≠ z - 0 that no extended
  real satisfies, is the kernel's; both sides use the same words for 0.01 and for the small constant.
-/
import proofs.«202620_g33904471835419_cont_8to1_b_799_54_alg».proof.Defs
import proofs.«202620_g33904471835419_cont_8to1_b_799_54_alg».proof.Proof.Gen.Kernel
import proofs.«202620_g33904471835419_cont_8to1_b_799_54_alg».proof.Proof.Gen.KernelIdeal
import proofs.«202620_g33904471835419_cont_8to1_b_799_54_alg».proof.Proof.Gen.ReferenceIdeal
import proofs.«202620_g33904471835419_cont_8to1_b_799_54_alg».proof.Proof.Gen.Pre_input_domain
import proofs.«202620_g33904471835419_cont_8to1_b_799_54_alg».proof.Proof.TopClaims
import proofs.«202620_g33904471835419_cont_8to1_b_799_54_alg».proof.Proof.TopClaimsK
import proofs.«202620_g33904471835419_cont_8to1_b_799_54_alg».proof.Proof.TopScat
import proofs.«202620_g33904471835419_cont_8to1_b_799_54_alg».proof.Proof.TopScatK
import proofs.«202620_g33904471835419_cont_8to1_b_799_54_alg».proof.Proof.TopScatSum
import proofs.«202620_g33904471835419_cont_8to1_b_799_54_alg».proof.Proof.RefRun
import proofs.«202620_g33904471835419_cont_8to1_b_799_54_alg».proof.Proof.RefRead

noncomputable section

namespace Cert.Proof

open Idealize.ShloMosaic Idealize.SL.Sem

/-- The program as printed, at the word-level instance. -/
theorem frame_p : Cert.frame_Kernel := fun m ρ hpre =>
  Cert.K.Top.frame_of (F := Bits) m ρ Cert.K.Top.scat hpre (fun c => Cert.K.Top.scat_ok m c (hpre c))

/-- Its idealization, on the extended reals. -/
theorem frame_pi : Cert.frame_KernelIdeal := fun m ρ hpre =>
  Cert.KI.Top.frame_of (F := Ideal) m ρ Cert.KI.Top.scat hpre (fun c => Cert.KI.Top.scat_ok m c (hpre c))

/-- The reference: a straight line of host operations. -/
theorem frame_ri : Cert.frame_ReferenceIdeal := Cert.ReferenceIdeal.RefRun.frame_ri

/-- The idealization rewrote no operation. -/
theorem preserves : Cert.preserves_Kernel_KernelIdeal := trivial

/-- On the extended reals the kernel's result and the reference's are one function of the arguments. -/
theorem algebraic : Cert.algebraic_KernelIdeal_ReferenceIdeal := by
  intro m ρ m' ρ' hpre hagree
  refine ⟨fun c => Cert.KI.Top.W7 m Cert.KI.Top.scat c (Proc.devRef .tc Cert.KernelIdeal.main_v16),
    Cert.KI.Top.value_run (F := Ideal) m ρ Cert.KI.Top.scat hpre (fun c => Cert.KI.Top.scat_ok m c (hpre c)), ?_⟩
  refine (θ_run _ _ _).mono (fun r h c => ⟨(h c).1.trans ?_, (h c).2⟩) (Cert.ReferenceIdeal.RefRun.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.KI.Top.value_scat m Cert.KI.Top.scat c (fun _ _ _ => rfl)
    (Cert.ReferenceIdeal.RefRead.range_of_Pre_KernelIdeal m hpre c)).symm

theorem claim : Cert.Claim :=
  ⟨Cert.Kernel.Gen.facts, Cert.KernelIdeal.Gen.facts, Cert.ReferenceIdeal.Gen.facts, Cert.Pre_input_domain.Gen.facts,
    frame_p, frame_pi, frame_ri, preserves, algebraic⟩

end Cert.Proof

end
